-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v259)) (v1 : (c : Dev Cert.KernelIdeal.nD) → Buf (Elt Ideal) ((c.tc : Thread Cert.KernelIdeal.nD Cert.KernelIdeal.τ).loc Cert.KernelIdeal.main_v260)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v259) = v0 c
          ∧ r.2.mem ((c.tc : Thread Cert.KernelIdeal.nD Cert.KernelIdeal.τ).loc Cert.KernelIdeal.main_v260) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v196) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S_ : Shape := ⟨0, ![]⟩

class Facts : Prop where
  bcast_S_S32x8x32x24x24 : S_.BroadcastsInDim S32x8x32x24x24 (![] : Fin 0 → Fin S32x8x32x24x24.rank)
  reducesTo_S32x8x32x24x24_S_d0_1_2_3_4 : S32x8x32x24x24.ReducesTo [0, 1, 2, 3, 4] S_
  h_S_ : 0 < S_.numel
  bcast_S_S2x192x1160 : S_.BroadcastsInDim S2x192x1160 (![] : Fin 0 → Fin S2x192x1160.rank)
  reducesTo_S2x192x1160_S_d0_1_2 : S2x192x1160.ReducesTo [0, 1, 2] S_
  bcast_S_S2x64x576 : S_.BroadcastsInDim S2x64x576 (![] : Fin 0 → Fin S2x64x576.rank)
  reducesTo_S2x64x576_S_d0_1_2 : S2x64x576.ReducesTo [0, 1, 2] S_

variable [Facts]

def fn {F : FTy → Type} [FloatOps F] (main_arg0 : FVec F S32x8x32x24x24 .f32) (main_arg1 : FVec F S2x192x1160 .f32) (main_arg2 : FVec F S2x64x576 .f32) : IVec S_ 1 :=
  let main_v0 : FVec F S32x8x32x24x24 .f32 := Host.absf main_arg0
  let main_cst : FVec F S_ .f32 := constant S_ .f32 0x7F800000#32
  let main_v1 : FVec F S32x8x32x24x24 .f32 := broadcastInDim S32x8x32x24x24 ![] bcast_S_S32x8x32x24x24 main_cst
  let main_v2 : IVec S32x8x32x24x24 1 := cmpf .olt main_v0 main_v1
  let main_c : IVec S_ 1 := constantI S_ 1 1#1
  let main_v3 : IVec S_ 1 := (fun x v => Host.reduce IntOp.andi x v reducesTo_S32x8x32x24x24_S_d0_1_2_3_4 h_S_) main_v2 main_c
  let main_v4 : FVec F S2x192x1160 .f32 := Host.absf main_arg1
  let main_cst_0 : FVec F S_ .f32 := constant S_ .f32 0x7F800000#32
  let main_v5 : FVec F S2x192x1160 .f32 := broadcastInDim S2x192x1160 ![] bcast_S_S2x192x1160 main_cst_0
  let main_v6 : IVec S2x192x1160 1 := cmpf .olt main_v4 main_v5
  let main_c_1 : IVec S_ 1 := constantI S_ 1 1#1
  let main_v7 : IVec S_ 1 := (fun x v => Host.reduce IntOp.andi x v reducesTo_S2x192x1160_S_d0_1_2 h_S_) main_v6 main_c_1
  let main_v8 : IVec S_ 1 := andi main_v3 main_v7
  let main_v9 : FVec F S2x64x576 .f32 := Host.absf main_arg2
  let main_cst_2 : FVec F S_ .f32 := constant S_ .f32 0x7F800000#32
  let main_v10 : FVec F S2x64x576 .f32 := broadcastInDim S2x64x576 ![] bcast_S_S2x64x576 main_cst_2
  let main_v11 : IVec S2x64x576 1 := cmpf .olt main_v9 main_v10
  let main_c_3 : IVec S_ 1 := constantI S_ 1 1#1
  let main_v12 : IVec S_ 1 := (fun x v => Host.reduce IntOp.andi x v reducesTo_S2x64x576_S_d0_1_2 h_S_) main_v11 main_c_3
  let main_v13 : IVec S_ 1 := andi main_v8 main_v12
  main_v13
-- ==== Kernel.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S1x192x1160 : Shape := ⟨3, ![1, 192, 1160]⟩
abbrev S192x1160 : Shape := ⟨2, ![192, 1160]⟩
abbrev S192x32 : Shape := ⟨2, ![192, 32]⟩
abbrev S192x64 : Shape := ⟨2, ![192, 64]⟩
abbrev S192x96 : Shape := ⟨2, ![192, 96]⟩
abbrev S192x1 : Shape := ⟨2, ![192, 1]⟩
abbrev S_ : Shape := ⟨0, ![]⟩
abbrev S192x15 : Shape := ⟨2, ![192, 15]⟩
abbrev S192x880 : Shape := ⟨2, ![192, 880]⟩
abbrev S192x128 : Shape := ⟨2, ![192, 128]⟩
abbrev S192x1168 : Shape := ⟨2, ![192, 1168]⟩
abbrev S576 : Shape := ⟨1, ![576]⟩
abbrev S1x576 : Shape := ⟨2, ![1, 576]⟩
abbrev S9x576 : Shape := ⟨2, ![9, 576]⟩
abbrev S1x9x1x576 : Shape := ⟨4, ![1, 9, 1, 576]⟩
abbrev S1x9x4x576 : Shape := ⟨4, ![1, 9, 4, 576]⟩
abbrev S9x2304 : Shape := ⟨2, ![9, 2304]⟩
abbrev S7x2304 : Shape := ⟨2, ![7, 2304]⟩
abbrev S16x2304 : Shape := ⟨2, ![16, 2304]⟩
abbrev S32x2x4x32x576 : Shape := ⟨5, ![32, 2, 4, 32, 576]⟩
abbrev S32x2x4x64x576 : Shape := ⟨5, ![32, 2, 4, 64, 576]⟩
abbrev S2x4x2x64x576 : Shape := ⟨5, ![2, 4, 2, 64, 576]⟩
abbrev S1x1x4x32x576 : Shape := ⟨5, ![1, 1, 4, 32, 576]⟩
abbrev S1x1x4x64x576 : Shape := ⟨5, ![1, 1, 4, 64, 576]⟩
abbrev S1x4x2x64x576 : Shape := ⟨5, ![1, 4, 2, 64, 576]⟩
abbrev S2x64x2304 : Shape := ⟨3, ![2, 64, 2304]⟩
abbrev S1168x2304 : Shape := ⟨2, ![1168, 2304]⟩
abbrev S576x2304 : Shape := ⟨2, ![576, 2304]⟩
abbrev S1x2304 : Shape := ⟨2, ![1, 2304]⟩
abbrev S2x2304 : Shape := ⟨2, ![2, 2304]⟩
abbrev S4x32x576 : Shape := ⟨3, ![4, 32, 576]⟩
abbrev S1x32x576 : Shape := ⟨3, ![1, 32, 576]⟩
abbrev S32x576 : Shape := ⟨2, ![32, 576]⟩
abbrev S32x2304 : Shape := ⟨2, ![32, 2304]⟩
abbrev S1x64x2304 : Shape := ⟨3, ![1, 64, 2304]⟩
abbrev S64x2304 : Shape := ⟨2, ![64, 2304]⟩
abbrev S96x2304 : Shape := ⟨2, ![96, 2304]⟩
abbrev S1x64x576 : Shape := ⟨3, ![1, 64, 576]⟩
abbrev S64x576 : Shape := ⟨2, ![64, 576]⟩
abbrev S880x2304 : Shape := ⟨2, ![880, 2304]⟩
abbrev S192x2304 : Shape := ⟨2, ![192, 2304]⟩
abbrev S128x2304 : Shape := ⟨2, ![128, 2304]⟩
abbrev S1x1x1x64x576 : Shape := ⟨5, ![1, 1, 1, 64, 576]⟩
abbrev S32x8x64x24x24 : Shape := ⟨5, ![32, 8, 64, 24, 24]⟩
abbrev S8x2x64x24x24 : Shape := ⟨5, ![8, 2, 64, 24, 24]⟩

abbrev nBuf : Space → Nat
  | .hbm => 378
  | .vmem => 13
  | .smem => 0
  | _ => 0

abbrev hbmTy0_0 (i : Nat) : BufTy := match i % 128 with
  | 0 => ⟨S32x8x32x24x24, .f32⟩
  | 1 => ⟨S2x192x1160, .f32⟩
  | 2 => ⟨S2x64x576, .f32⟩
  | 3 => ⟨S1x192x1160, .f32⟩
  | 4 => ⟨S192x1160, .f32⟩
  | 5 => ⟨S192x32, .f32⟩
  | 6 => ⟨S192x64, .f32⟩
  | 7 => ⟨S192x96, .f32⟩
  | 8 => ⟨S192x32, .f32⟩
  | 9 => ⟨S192x64, .f32⟩
  | 10 => ⟨S192x96, .f32⟩
  | 11 => ⟨S192x32, .f32⟩
  | 12 => ⟨S192x64, .f32⟩
  | 13 => ⟨S192x96, .f32⟩
  | 14 => ⟨S192x32, .f32⟩
  | 15 => ⟨S192x64, .f32⟩
  | 16 => ⟨S192x96, .f32⟩
  | 17 => ⟨S192x32, .f32⟩
  | 18 => ⟨S192x64, .f32⟩
  | 19 => ⟨S192x96, .f32⟩
  | 20 => ⟨S192x32, .f32⟩
  | 21 => ⟨S192x64, .f32⟩
  | 22 => ⟨S192x96, .f32⟩
  | 23 => ⟨S192x32, .f32⟩
  | 24 => ⟨S192x64, .f32⟩
  | 25 => ⟨S192x96, .f32⟩
  | 26 => ⟨S192x32, .f32⟩
  | 27 => ⟨S192x64, .f32⟩
  | 28 => ⟨S192x96, .f32⟩
  | 29 => ⟨S192x32, .f32⟩
  | 30 => ⟨S192x64, .f32⟩
  | 31 => ⟨S192x96, .f32⟩
  | 32 => ⟨S192x1, .f32⟩
  | 33 => ⟨S_, .f32⟩
  | 34 => ⟨S192x15, .f32⟩
  | 35 => ⟨S192x880, .f32⟩
  | 36 => ⟨S192x880, .bf16⟩
  | 37 => ⟨S1x192x1160, .f32⟩
  | 38 => ⟨S192x1160, .f32⟩
  | 39 => ⟨S192x64, .f32⟩
  | 40 => ⟨S192x64, .f32⟩
  | 41 => ⟨S192x128, .f32⟩
  | 42 => ⟨S192x64, .f32⟩
  | 43 => ⟨S192x64, .f32⟩
  | 44 => ⟨S192x128, .f32⟩
  | 45 => ⟨S192x64, .f32⟩
  | 46 => ⟨S192x64, .f32⟩
  | 47 => ⟨S192x128, .f32⟩
  | 48 => ⟨S192x64, .f32⟩
  | 49 => ⟨S192x64, .f32⟩
  | 50 => ⟨S192x128, .f32⟩
  | 51 => ⟨S192x64, .f32⟩
  | 52 => ⟨S192x64, .f32⟩
  | 53 => ⟨S192x128, .f32⟩
  | 54 => ⟨S192x64, .f32⟩
  | 55 => ⟨S192x64, .f32⟩
  | 56 => ⟨S192x128, .f32⟩
  | 57 => ⟨S192x64, .f32⟩
  | 58 => ⟨S192x64, .f32⟩
  | 59 => ⟨S192x128, .f32⟩
  | 60 => ⟨S192x64, .f32⟩
  | 61 => ⟨S192x64, .f32⟩
  | 62 => ⟨S192x128, .f32⟩
  | 63 => ⟨S192x64, .f32⟩
  | 64 => ⟨S192x64, .f32⟩
  | 65 => ⟨S192x128, .f32⟩
  | 66 => ⟨S192x1, .f32⟩
  | 67 => ⟨S_, .f32⟩
  | 68 => ⟨S192x15, .f32⟩
  | 69 => ⟨S192x1168, .f32⟩
  | 70 => ⟨S192x1168, .bf16⟩
  | 71 => ⟨S2x64x576, .bf16⟩
  | 72 => ⟨S576, .i32⟩
  | 73 => ⟨S_, .i32⟩
  | 74 => ⟨S_, .i32⟩
  | 75 => ⟨S576, .i32⟩
  | 76 => ⟨S576, .i32⟩
  | 77 => ⟨S576, .i32⟩
  | 78 => ⟨S_, .i32⟩
  | 79 => ⟨S576, .i32⟩
  | 80 => ⟨S576, .i1⟩
  | 81 => ⟨S576, .i32⟩
  | 82 => ⟨S576, .i32⟩
  | 83 => ⟨S_, .i32⟩
  | 84 => ⟨S576, .i32⟩
  | 85 => ⟨S576, .i1⟩
  | 86 => ⟨S576, .i1⟩
  | 87 => ⟨S_, .i32⟩
  | 88 => ⟨S576, .i32⟩
  | 89 => ⟨S576, .i32⟩
  | 90 => ⟨S576, .i32⟩
  | 91 => ⟨S_, .i32⟩
  | 92 => ⟨S_, .i32⟩
  | 93 => ⟨S_, .i32⟩
  | 94 => ⟨S_, .i1⟩
  | 95 => ⟨S_, .i32⟩
  | 96 => ⟨S_, .i32⟩
  | 97 => ⟨S576, .i32⟩
  | 98 => ⟨S576, .i32⟩
  | 99 => ⟨S_, .i32⟩
  | 100 => ⟨S576, .i32⟩
  | 101 => ⟨S576, .i1⟩
  | 102 => ⟨S_, .i32⟩
  | 103 => ⟨S576, .i32⟩
  | 104 => ⟨S576, .i1⟩
  | 105 => ⟨S_, .i32⟩
  | 106 => ⟨S_, .i1⟩
  | 107 => ⟨S576, .i1⟩
  | 108 => ⟨S576, .i1⟩
  | 109 => ⟨S576, .i1⟩
  | 110 => ⟨S576, .i32⟩
  | 111 => ⟨S576, .i32⟩
  | 112 => ⟨S576, .i32⟩
  | 113 => ⟨S_, .i32⟩
  | 114 => ⟨S576, .i32⟩
  | 115 => ⟨S576, .i32⟩
  | 116 => ⟨S_, .i32⟩
  | 117 => ⟨S576, .i32⟩
  | 118 => ⟨S576, .i1⟩
  | 119 => ⟨S_, .i32⟩
  | 120 => ⟨S576, .i32⟩
  | 121 => ⟨S576, .i32⟩
  | 122 => ⟨S_, .i32⟩
  | 123 => ⟨S576, .i32⟩
  | 124 => ⟨S576, .i1⟩
  | 125 => ⟨S576, .i1⟩
  | 126 => ⟨S_, .i32⟩
  | 127 => ⟨S576, .i32⟩
  | _ => ⟨S32x8x32x24x24, .f32⟩

abbrev hbmTy0_1 (i : Nat) : BufTy := match i % 128 with
  | 0 => ⟨S576, .i32⟩
  | 1 => ⟨S_, .i32⟩
  | 2 => ⟨S576, .i32⟩
  | 3 => ⟨S576, .i1⟩
  | 4 => ⟨S576, .i1⟩
  | 5 => ⟨S_, .i32⟩
  | 6 => ⟨S576, .i32⟩
  | 7 => ⟨S576, .i32⟩
  | 8 => ⟨S_, .i32⟩
  | 9 => ⟨S576, .i32⟩
  | 10 => ⟨S576, .i1⟩
  | 11 => ⟨S576, .i1⟩
  | 12 => ⟨S_, .i32⟩
  | 13 => ⟨S576, .i32⟩
  | 14 => ⟨S576, .i32⟩
  | 15 => ⟨S_, .i32⟩
  | 16 => ⟨S576, .i32⟩
  | 17 => ⟨S576, .i1⟩
  | 18 => ⟨S_, .i32⟩
  | 19 => ⟨S576, .i32⟩
  | 20 => ⟨S576, .i32⟩
  | 21 => ⟨S_, .i32⟩
  | 22 => ⟨S576, .i32⟩
  | 23 => ⟨S576, .i1⟩
  | 24 => ⟨S576, .i1⟩
  | 25 => ⟨S_, .i32⟩
  | 26 => ⟨S576, .i32⟩
  | 27 => ⟨S576, .i32⟩
  | 28 => ⟨S_, .i32⟩
  | 29 => ⟨S576, .i32⟩
  | 30 => ⟨S576, .i1⟩
  | 31 => ⟨S576, .i1⟩
  | 32 => ⟨S_, .i32⟩
  | 33 => ⟨S576, .i32⟩
  | 34 => ⟨S576, .i32⟩
  | 35 => ⟨S_, .i32⟩
  | 36 => ⟨S576, .i32⟩
  | 37 => ⟨S576, .i1⟩
  | 38 => ⟨S576, .i1⟩
  | 39 => ⟨S_, .i32⟩
  | 40 => ⟨S576, .i32⟩
  | 41 => ⟨S576, .i32⟩
  | 42 => ⟨S_, .i32⟩
  | 43 => ⟨S576, .i32⟩
  | 44 => ⟨S576, .i1⟩
  | 45 => ⟨S_, .i32⟩
  | 46 => ⟨S576, .i32⟩
  | 47 => ⟨S576, .i32⟩
  | 48 => ⟨S_, .i32⟩
  | 49 => ⟨S576, .i32⟩
  | 50 => ⟨S576, .i1⟩
  | 51 => ⟨S576, .i1⟩
  | 52 => ⟨S_, .i32⟩
  | 53 => ⟨S576, .i32⟩
  | 54 => ⟨S576, .i32⟩
  | 55 => ⟨S_, .i32⟩
  | 56 => ⟨S576, .i32⟩
  | 57 => ⟨S576, .i1⟩
  | 58 => ⟨S576, .i1⟩
  | 59 => ⟨S_, .i32⟩
  | 60 => ⟨S576, .i32⟩
  | 61 => ⟨S576, .i32⟩
  | 62 => ⟨S_, .i32⟩
  | 63 => ⟨S576, .i32⟩
  | 64 => ⟨S576, .i1⟩
  | 65 => ⟨S576, .i1⟩
  | 66 => ⟨S_, .i32⟩
  | 67 => ⟨S576, .i32⟩
  | 68 => ⟨S576, .i32⟩
  | 69 => ⟨S_, .i32⟩
  | 70 => ⟨S576, .i32⟩
  | 71 => ⟨S576, .i1⟩
  | 72 => ⟨S_, .i32⟩
  | 73 => ⟨S576, .i32⟩
  | 74 => ⟨S576, .i32⟩
  | 75 => ⟨S_, .i32⟩
  | 76 => ⟨S576, .i32⟩
  | 77 => ⟨S576, .i1⟩
  | 78 => ⟨S576, .i1⟩
  | 79 => ⟨S_, .i32⟩
  | 80 => ⟨S576, .i32⟩
  | 81 => ⟨S576, .i32⟩
  | 82 => ⟨S_, .i32⟩
  | 83 => ⟨S576, .i32⟩
  | 84 => ⟨S576, .i1⟩
  | 85 => ⟨S576, .i1⟩
  | 86 => ⟨S_, .i32⟩
  | 87 => ⟨S576, .i32⟩
  | 88 => ⟨S576, .i32⟩
  | 89 => ⟨S_, .i32⟩
  | 90 => ⟨S576, .i32⟩
  | 91 => ⟨S576, .i1⟩
  | 92 => ⟨S576, .i1⟩
  | 93 => ⟨S_, .i32⟩
  | 94 => ⟨S576, .i32⟩
  | 95 => ⟨S576, .i32⟩
  | 96 => ⟨S_, .i32⟩
  | 97 => ⟨S576, .i32⟩
  | 98 => ⟨S576, .i1⟩
  | 99 => ⟨S_, .i32⟩
  | 100 => ⟨S576, .i32⟩
  | 101 => ⟨S576, .i32⟩
  | 102 => ⟨S_, .i32⟩
  | 103 => ⟨S576, .i32⟩
  | 104 => ⟨S576, .i1⟩
  | 105 => ⟨S576, .i1⟩
  | 106 => ⟨S_, .i32⟩
  | 107 => ⟨S576, .i32⟩
  | 108 => ⟨S576, .i32⟩
  | 109 => ⟨S_, .i32⟩
  | 110 => ⟨S576, .i32⟩
  | 111 => ⟨S576, .i1⟩
  | 112 => ⟨S576, .i1⟩
  | 113 => ⟨S_, .i32⟩
  | 114 => ⟨S576, .i32⟩
  | 115 => ⟨S576, .i32⟩
  | 116 => ⟨S_, .i32⟩
  | 117 => ⟨S576, .i32⟩
  | 118 => ⟨S576, .i1⟩
  | 119 => ⟨S576, .i1⟩
  | 120 => ⟨S_, .i32⟩
  | 121 => ⟨S576, .i32⟩
  | 122 => ⟨S576, .i32⟩
  | 123 => ⟨S_, .i32⟩
  | 124 => ⟨S576, .i32⟩
  | 125 => ⟨S576, .i1⟩
  | 126 => ⟨S_, .i32⟩
  | 127 => ⟨S576, .i32⟩
  | _ => ⟨S32x8x32x24x24, .f32⟩

abbrev hbmTy0_2 (i : Nat) : BufTy := match i % 128 with
  | 0 => ⟨S576, .i32⟩
  | 1 => ⟨S_, .i32⟩
  | 2 => ⟨S576, .i32⟩
  | 3 => ⟨S576, .i1⟩
  | 4 => ⟨S576, .i1⟩
  | 5 => ⟨S_, .i32⟩
  | 6 => ⟨S576, .i32⟩
  | 7 => ⟨S576, .i32⟩
  | 8 => ⟨S_, .i32⟩
  | 9 => ⟨S576, .i32⟩
  | 10 => ⟨S576, .i1⟩
  | 11 => ⟨S576, .i1⟩
  | 12 => ⟨S_, .i32⟩
  | 13 => ⟨S576, .i32⟩
  | 14 => ⟨S576, .i32⟩
  | 15 => ⟨S_, .i32⟩
  | 16 => ⟨S576, .i32⟩
  | 17 => ⟨S576, .i1⟩
  | 18 => ⟨S576, .i1⟩
  | 19 => ⟨S_, .i32⟩
  | 20 => ⟨S576, .i32⟩
  | 21 => ⟨S576, .i32⟩
  | 22 => ⟨S_, .i32⟩
  | 23 => ⟨S576, .i32⟩
  | 24 => ⟨S576, .i1⟩
  | 25 => ⟨S_, .i32⟩
  | 26 => ⟨S576, .i32⟩
  | 27 => ⟨S576, .i32⟩
  | 28 => ⟨S_, .i32⟩
  | 29 => ⟨S576, .i32⟩
  | 30 => ⟨S576, .i1⟩
  | 31 => ⟨S576, .i1⟩
  | 32 => ⟨S_, .i32⟩
  | 33 => ⟨S576, .i32⟩
  | 34 => ⟨S576, .i32⟩
  | 35 => ⟨S_, .i32⟩
  | 36 => ⟨S576, .i32⟩
  | 37 => ⟨S576, .i1⟩
  | 38 => ⟨S576, .i1⟩
  | 39 => ⟨S_, .i32⟩
  | 40 => ⟨S576, .i32⟩
  | 41 => ⟨S576, .i32⟩
  | 42 => ⟨S_, .i32⟩
  | 43 => ⟨S576, .i32⟩
  | 44 => ⟨S576, .i1⟩
  | 45 => ⟨S576, .i1⟩
  | 46 => ⟨S_, .i32⟩
  | 47 => ⟨S576, .i32⟩
  | 48 => ⟨S576, .i32⟩
  | 49 => ⟨S_, .i32⟩
  | 50 => ⟨S576, .i32⟩
  | 51 => ⟨S576, .i1⟩
  | 52 => ⟨S_, .i32⟩
  | 53 => ⟨S576, .i32⟩
  | 54 => ⟨S576, .i32⟩
  | 55 => ⟨S_, .i32⟩
  | 56 => ⟨S576, .i32⟩
  | 57 => ⟨S576, .i1⟩
  | 58 => ⟨S576, .i1⟩
  | 59 => ⟨S_, .i32⟩
  | 60 => ⟨S576, .i32⟩
  | 61 => ⟨S576, .i32⟩
  | 62 => ⟨S_, .i32⟩
  | 63 => ⟨S576, .i32⟩
  | 64 => ⟨S576, .i1⟩
  | 65 => ⟨S576, .i1⟩
  | 66 => ⟨S_, .i32⟩
  | 67 => ⟨S576, .i32⟩
  | 68 => ⟨S576, .i32⟩
  | 69 => ⟨S_, .i32⟩
  | 70 => ⟨S576, .i32⟩
  | 71 => ⟨S576, .i1⟩
  | 72 => ⟨S576, .i1⟩
  | 73 => ⟨S_, .i32⟩
  | 74 => ⟨S576, .i32⟩
  | 75 => ⟨S576, .i32⟩
  | 76 => ⟨S_, .i32⟩
  | 77 => ⟨S576, .i32⟩
  | 78 => ⟨S576, .i1⟩
  | 79 => ⟨S_, .i32⟩
  | 80 => ⟨S576, .i32⟩
  | 81 => ⟨S576, .i32⟩
  | 82 => ⟨S_, .i32⟩
  | 83 => ⟨S576, .i32⟩
  | 84 => ⟨S576, .i1⟩
  | 85 => ⟨S576, .i1⟩
  | 86 => ⟨S_, .i32⟩
  | 87 => ⟨S576, .i32⟩
  | 88 => ⟨S576, .i32⟩
  | 89 => ⟨S_, .i32⟩
  | 90 => ⟨S576, .i32⟩
  | 91 => ⟨S576, .i1⟩
  | 92 => ⟨S576, .i1⟩
  | 93 => ⟨S_, .i32⟩
  | 94 => ⟨S576, .i32⟩
  | 95 => ⟨S576, .i32⟩
  | 96 => ⟨S_, .i32⟩
  | 97 => ⟨S576, .i32⟩
  | 98 => ⟨S576, .i1⟩
  | 99 => ⟨S576, .i1⟩
  | 100 => ⟨S1x576, .i1⟩
  | 101 => ⟨S1x576, .i1⟩
  | 102 => ⟨S1x576, .i1⟩
  | 103 => ⟨S1x576, .i1⟩
  | 104 => ⟨S1x576, .i1⟩
  | 105 => ⟨S1x576, .i1⟩
  | 106 => ⟨S1x576, .i1⟩
  | 107 => ⟨S1x576, .i1⟩
  | 108 => ⟨S1x576, .i1⟩
  | 109 => ⟨S9x576, .i1⟩
  | 110 => ⟨S1x9x1x576, .i1⟩
  | 111 => ⟨S1x9x4x576, .i1⟩
  | 112 => ⟨S9x2304, .i1⟩
  | 113 => ⟨S_, .i1⟩
  | 114 => ⟨S7x2304, .i1⟩
  | 115 => ⟨S16x2304, .i1⟩
  | 116 => ⟨S16x2304, .bf16⟩
  | 117 => ⟨S32x2x4x32x576, .f32⟩
  | 118 => ⟨S32x2x4x64x576, .f32⟩
  | 119 => ⟨S2x4x2x64x576, .f32⟩
  | 120 => ⟨S32x8x64x24x24, .f32⟩
  | 121 => ⟨S8x2x64x24x24, .f32⟩
  | _ => ⟨S32x8x32x24x24, .f32⟩

abbrev hbmTy (i : Nat) : BufTy := match i / 128 with
  | 0 => hbmTy0_0 i
  | 1 => hbmTy0_1 i
  | 2 => hbmTy0_2 i
  | _ => ⟨S32x8x32x24x24, .f32⟩

abbrev bufTy : (tb : Table) → Fin (tcTables nBuf tb) → BufTy
  | .hbm, ⟨i, _⟩ => hbmTy i
  | .local _ .vmem, ⟨0, _⟩ => ⟨S16x2304, .bf16⟩
  | .local _ .vmem, ⟨1, _⟩ => ⟨S1x1x4x32x576, .f32⟩
  | .local _ .vmem, ⟨2, _⟩ => ⟨S1x1x4x32x576, .f32⟩
  | .local _ .vmem, ⟨3, _⟩ => ⟨S192x880, .bf16⟩
  | .local _ .vmem, ⟨4, _⟩ => ⟨S192x1168, .bf16⟩
  | .local _ .vmem, ⟨5, _⟩ => ⟨S2x64x576, .bf16⟩
  | .local _ .vmem, ⟨6, _⟩ => ⟨S1x1x4x64x576, .f32⟩
  | .local _ .vmem, ⟨7, _⟩ => ⟨S1x1x4x64x576, .f32⟩
  | .local _ .vmem, ⟨8, _⟩ => ⟨S1x4x2x64x576, .f32⟩
  | .local _ .vmem, ⟨9, _⟩ => ⟨S1x4x2x64x576, .f32⟩
  | .local _ .vmem, ⟨10, _⟩ => ⟨S2x64x2304, .f32⟩
  | .local _ .vmem, ⟨11, _⟩ => ⟨S1168x2304, .bf16⟩
  | .local _ .vmem, ⟨12, _⟩ => ⟨S576x2304, .bf16⟩
  | _, _ => ⟨S32x8x32x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_cst : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_cst_0 : Ref sig .tc := ⟨.hbm, 67, rfl⟩
abbrev main_v63 : Ref sig .tc := ⟨.hbm, 68, rfl⟩
abbrev main_v64 : Ref sig .tc := ⟨.hbm, 69, rfl⟩
abbrev main_v65 : Ref sig .tc := ⟨.hbm, 70, rfl⟩
abbrev main_v66 : Ref sig .tc := ⟨.hbm, 71, rfl⟩
abbrev main_v67 : Ref sig .tc := ⟨.hbm, 72, rfl⟩
abbrev main_c : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_call0_v5 : Ref sig .tc := ⟨.hbm, 79, rfl⟩
abbrev main_call0_v6 : Ref sig .tc := ⟨.hbm, 80, rfl⟩
abbrev main_call0_v7 : Ref sig .tc := ⟨.hbm, 81, rfl⟩
abbrev main_call0_v8 : Ref sig .tc := ⟨.hbm, 82, rfl⟩
abbrev main_call0_c : Ref sig .tc := ⟨.hbm, 83, rfl⟩
abbrev main_call0_v9 : Ref sig .tc := ⟨.hbm, 84, rfl⟩
abbrev main_call0_v10 : Ref sig .tc := ⟨.hbm, 85, rfl⟩
abbrev main_call0_v11 : Ref sig .tc := ⟨.hbm, 86, rfl⟩
abbrev main_call0_c_0 : Ref sig .tc := ⟨.hbm, 87, rfl⟩
abbrev main_call0_v12 : Ref sig .tc := ⟨.hbm, 88, rfl⟩
abbrev main_call0_v13 : Ref sig .tc := ⟨.hbm, 89, rfl⟩
abbrev main_v68 : Ref sig .tc := ⟨.hbm, 90, rfl⟩
abbrev main_c_1 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_c_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_c_1 : Ref sig .tc := ⟨.hbm, 99, rfl⟩
abbrev main_call1_v5 : Ref sig .tc := ⟨.hbm, 100, rfl⟩
abbrev main_call1_v6 : Ref sig .tc := ⟨.hbm, 101, rfl⟩
abbrev main_call1_c_2 : Ref sig .tc := ⟨.hbm, 102, rfl⟩
abbrev main_call1_v7 : Ref sig .tc := ⟨.hbm, 103, rfl⟩
abbrev main_call1_v8 : Ref sig .tc := ⟨.hbm, 104, rfl⟩
abbrev main_call1_c_3 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_call1_v12 : Ref sig .tc := ⟨.hbm, 109, rfl⟩
abbrev main_call1_v13 : Ref sig .tc := ⟨.hbm, 110, rfl⟩
abbrev main_call1_v14 : Ref sig .tc := ⟨.hbm, 111, rfl⟩
abbrev main_v69 : Ref sig .tc := ⟨.hbm, 112, rfl⟩
abbrev main_c_2 : Ref sig .tc := ⟨.hbm, 113, rfl⟩
abbrev main_v70 : Ref sig .tc := ⟨.hbm, 114, rfl⟩
abbrev main_v71 : Ref sig .tc := ⟨.hbm, 115, rfl⟩
abbrev main_c_3 : Ref sig .tc := ⟨.hbm, 116, rfl⟩
abbrev main_v72 : Ref sig .tc := ⟨.hbm, 117, rfl⟩
abbrev main_v73 : Ref sig .tc := ⟨.hbm, 118, rfl⟩
abbrev main_c_4 : Ref sig .tc := ⟨.hbm, 119, rfl⟩
abbrev main_v74 : Ref sig .tc := ⟨.hbm, 120, rfl⟩
abbrev main_v75 : Ref sig .tc := ⟨.hbm, 121, rfl⟩
abbrev main_c_5 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_c_6 : Ref sig .tc := ⟨.hbm, 126, rfl⟩
abbrev main_v79 : Ref sig .tc := ⟨.hbm, 127, rfl⟩
abbrev main_v80 : Ref sig .tc := ⟨.hbm, 128, rfl⟩
abbrev main_c_7 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_c_8 : Ref sig .tc := ⟨.hbm, 133, rfl⟩
abbrev main_v84 : Ref sig .tc := ⟨.hbm, 134, rfl⟩
abbrev main_v85 : Ref sig .tc := ⟨.hbm, 135, rfl⟩
abbrev main_c_9 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_c_10 : Ref sig .tc := ⟨.hbm, 140, rfl⟩
abbrev main_v89 : Ref sig .tc := ⟨.hbm, 141, rfl⟩
abbrev main_v90 : Ref sig .tc := ⟨.hbm, 142, rfl⟩
abbrev main_c_11 : Ref sig .tc := ⟨.hbm, 143, rfl⟩
abbrev main_v91 : Ref sig .tc := ⟨.hbm, 144, rfl⟩
abbrev main_v92 : Ref sig .tc := ⟨.hbm, 145, rfl⟩
abbrev main_c_12 : Ref sig .tc := ⟨.hbm, 146, rfl⟩
abbrev main_v93 : Ref sig .tc := ⟨.hbm, 147, rfl⟩
abbrev main_v94 : Ref sig .tc := ⟨.hbm, 148, rfl⟩
abbrev main_c_13 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_c_14 : Ref sig .tc := ⟨.hbm, 153, rfl⟩
abbrev main_v98 : Ref sig .tc := ⟨.hbm, 154, rfl⟩
abbrev main_v99 : Ref sig .tc := ⟨.hbm, 155, rfl⟩
abbrev main_c_15 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_c_16 : Ref sig .tc := ⟨.hbm, 160, rfl⟩
abbrev main_v103 : Ref sig .tc := ⟨.hbm, 161, rfl⟩
abbrev main_v104 : Ref sig .tc := ⟨.hbm, 162, rfl⟩
abbrev main_c_17 : Ref sig .tc := ⟨.hbm, 163, rfl⟩
abbrev main_v105 : Ref sig .tc := ⟨.hbm, 164, rfl⟩
abbrev main_v106 : Ref sig .tc := ⟨.hbm, 165, rfl⟩
abbrev main_v107 : Ref sig .tc := ⟨.hbm, 166, rfl⟩
abbrev main_c_18 : Ref sig .tc := ⟨.hbm, 167, rfl⟩
abbrev main_v108 : Ref sig .tc := ⟨.hbm, 168, rfl⟩
abbrev main_v109 : Ref sig .tc := ⟨.hbm, 169, rfl⟩
abbrev main_c_19 : Ref sig .tc := ⟨.hbm, 170, rfl⟩
abbrev main_v110 : Ref sig .tc := ⟨.hbm, 171, rfl⟩
abbrev main_v111 : Ref sig .tc := ⟨.hbm, 172, rfl⟩
abbrev main_c_20 : Ref sig .tc := ⟨.hbm, 173, rfl⟩
abbrev main_v112 : Ref sig .tc := ⟨.hbm, 174, rfl⟩
abbrev main_v113 : Ref sig .tc := ⟨.hbm, 175, rfl⟩
abbrev main_c_21 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_c_22 : Ref sig .tc := ⟨.hbm, 180, rfl⟩
abbrev main_v117 : Ref sig .tc := ⟨.hbm, 181, rfl⟩
abbrev main_v118 : Ref sig .tc := ⟨.hbm, 182, rfl⟩
abbrev main_c_23 : Ref sig .tc := ⟨.hbm, 183, rfl⟩
abbrev main_v119 : Ref sig .tc := ⟨.hbm, 184, rfl⟩
abbrev main_v120 : Ref sig .tc := ⟨.hbm, 185, rfl⟩
abbrev main_v121 : Ref sig .tc := ⟨.hbm, 186, rfl⟩
abbrev main_c_24 : Ref sig .tc := ⟨.hbm, 187, rfl⟩
abbrev main_v122 : Ref sig .tc := ⟨.hbm, 188, rfl⟩
abbrev main_v123 : Ref sig .tc := ⟨.hbm, 189, rfl⟩
abbrev main_c_25 : Ref sig .tc := ⟨.hbm, 190, rfl⟩
abbrev main_v124 : Ref sig .tc := ⟨.hbm, 191, rfl⟩
abbrev main_v125 : Ref sig .tc := ⟨.hbm, 192, rfl⟩
abbrev main_v126 : Ref sig .tc := ⟨.hbm, 193, rfl⟩
abbrev main_c_26 : Ref sig .tc := ⟨.hbm, 194, rfl⟩
abbrev main_v127 : Ref sig .tc := ⟨.hbm, 195, rfl⟩
abbrev main_v128 : Ref sig .tc := ⟨.hbm, 196, rfl⟩
abbrev main_c_27 : Ref sig .tc := ⟨.hbm, 197, rfl⟩
abbrev main_v129 : Ref sig .tc := ⟨.hbm, 198, rfl⟩
abbrev main_v130 : Ref sig .tc := ⟨.hbm, 199, rfl⟩
abbrev main_c_28 : Ref sig .tc := ⟨.hbm, 200, rfl⟩
abbrev main_v131 : Ref sig .tc := ⟨.hbm, 201, rfl⟩
abbrev main_v132 : Ref sig .tc := ⟨.hbm, 202, rfl⟩
abbrev main_c_29 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_c_30 : Ref sig .tc := ⟨.hbm, 207, rfl⟩
abbrev main_v136 : Ref sig .tc := ⟨.hbm, 208, rfl⟩
abbrev main_v137 : Ref sig .tc := ⟨.hbm, 209, rfl⟩
abbrev main_c_31 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_32 : Ref sig .tc := ⟨.hbm, 214, rfl⟩
abbrev main_v141 : Ref sig .tc := ⟨.hbm, 215, rfl⟩
abbrev main_v142 : Ref sig .tc := ⟨.hbm, 216, rfl⟩
abbrev main_c_33 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_c_34 : Ref sig .tc := ⟨.hbm, 221, rfl⟩
abbrev main_v146 : Ref sig .tc := ⟨.hbm, 222, rfl⟩
abbrev main_v147 : Ref sig .tc := ⟨.hbm, 223, rfl⟩
abbrev main_c_35 : Ref sig .tc := ⟨.hbm, 224, rfl⟩
abbrev main_v148 : Ref sig .tc := ⟨.hbm, 225, rfl⟩
abbrev main_v149 : Ref sig .tc := ⟨.hbm, 226, rfl⟩
abbrev main_c_36 : Ref sig .tc := ⟨.hbm, 227, rfl⟩
abbrev main_v150 : Ref sig .tc := ⟨.hbm, 228, rfl⟩
abbrev main_v151 : Ref sig .tc := ⟨.hbm, 229, rfl⟩
abbrev main_c_37 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_c_38 : Ref sig .tc := ⟨.hbm, 234, rfl⟩
abbrev main_v155 : Ref sig .tc := ⟨.hbm, 235, rfl⟩
abbrev main_v156 : Ref sig .tc := ⟨.hbm, 236, rfl⟩
abbrev main_c_39 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_c_40 : Ref sig .tc := ⟨.hbm, 241, rfl⟩
abbrev main_v160 : Ref sig .tc := ⟨.hbm, 242, rfl⟩
abbrev main_v161 : Ref sig .tc := ⟨.hbm, 243, rfl⟩
abbrev main_c_41 : Ref sig .tc := ⟨.hbm, 244, rfl⟩
abbrev main_v162 : Ref sig .tc := ⟨.hbm, 245, rfl⟩
abbrev main_v163 : Ref sig .tc := ⟨.hbm, 246, rfl⟩
abbrev main_v164 : Ref sig .tc := ⟨.hbm, 247, rfl⟩
abbrev main_c_42 : Ref sig .tc := ⟨.hbm, 248, rfl⟩
abbrev main_v165 : Ref sig .tc := ⟨.hbm, 249, rfl⟩
abbrev main_v166 : Ref sig .tc := ⟨.hbm, 250, rfl⟩
abbrev main_c_43 : Ref sig .tc := ⟨.hbm, 251, rfl⟩
abbrev main_v167 : Ref sig .tc := ⟨.hbm, 252, rfl⟩
abbrev main_v168 : Ref sig .tc := ⟨.hbm, 253, rfl⟩
abbrev main_c_44 : Ref sig .tc := ⟨.hbm, 254, rfl⟩
abbrev main_v169 : Ref sig .tc := ⟨.hbm, 255, rfl⟩
abbrev main_v170 : Ref sig .tc := ⟨.hbm, 256, rfl⟩
abbrev main_c_45 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_c_46 : Ref sig .tc := ⟨.hbm, 261, rfl⟩
abbrev main_v174 : Ref sig .tc := ⟨.hbm, 262, rfl⟩
abbrev main_v175 : Ref sig .tc := ⟨.hbm, 263, rfl⟩
abbrev main_c_47 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_c_48 : Ref sig .tc := ⟨.hbm, 268, rfl⟩
abbrev main_v179 : Ref sig .tc := ⟨.hbm, 269, rfl⟩
abbrev main_v180 : Ref sig .tc := ⟨.hbm, 270, rfl⟩
abbrev main_c_49 : Ref sig .tc := ⟨.hbm, 271, rfl⟩
abbrev main_v181 : Ref sig .tc := ⟨.hbm, 272, rfl⟩
abbrev main_v182 : Ref sig .tc := ⟨.hbm, 273, rfl⟩
abbrev main_v183 : Ref sig .tc := ⟨.hbm, 274, rfl⟩
abbrev main_c_50 : Ref sig .tc := ⟨.hbm, 275, rfl⟩
abbrev main_v184 : Ref sig .tc := ⟨.hbm, 276, rfl⟩
abbrev main_v185 : Ref sig .tc := ⟨.hbm, 277, rfl⟩
abbrev main_c_51 : Ref sig .tc := ⟨.hbm, 278, rfl⟩
abbrev main_v186 : Ref sig .tc := ⟨.hbm, 279, rfl⟩
abbrev main_v187 : Ref sig .tc := ⟨.hbm, 280, rfl⟩
abbrev main_c_52 : Ref sig .tc := ⟨.hbm, 281, rfl⟩
abbrev main_v188 : Ref sig .tc := ⟨.hbm, 282, rfl⟩
abbrev main_v189 : Ref sig .tc := ⟨.hbm, 283, rfl⟩
abbrev main_c_53 : Ref sig .tc := ⟨.hbm, 284, rfl⟩
abbrev main_v190 : Ref sig .tc := ⟨.hbm, 285, rfl⟩
abbrev main_v191 : Ref sig .tc := ⟨.hbm, 286, rfl⟩
abbrev main_v192 : Ref sig .tc := ⟨.hbm, 287, rfl⟩
abbrev main_c_54 : Ref sig .tc := ⟨.hbm, 288, rfl⟩
abbrev main_v193 : Ref sig .tc := ⟨.hbm, 289, rfl⟩
abbrev main_v194 : Ref sig .tc := ⟨.hbm, 290, rfl⟩
abbrev main_c_55 : Ref sig .tc := ⟨.hbm, 291, rfl⟩
abbrev main_v195 : Ref sig .tc := ⟨.hbm, 292, rfl⟩
abbrev main_v196 : Ref sig .tc := ⟨.hbm, 293, rfl⟩
abbrev main_v197 : Ref sig .tc := ⟨.hbm, 294, rfl⟩
abbrev main_c_56 : Ref sig .tc := ⟨.hbm, 295, rfl⟩
abbrev main_v198 : Ref sig .tc := ⟨.hbm, 296, rfl⟩
abbrev main_v199 : Ref sig .tc := ⟨.hbm, 297, rfl⟩
abbrev main_c_57 : Ref sig .tc := ⟨.hbm, 298, rfl⟩
abbrev main_v200 : Ref sig .tc := ⟨.hbm, 299, rfl⟩
abbrev main_v201 : Ref sig .tc := ⟨.hbm, 300, rfl⟩
abbrev main_v202 : Ref sig .tc := ⟨.hbm, 301, rfl⟩
abbrev main_c_58 : Ref sig .tc := ⟨.hbm, 302, rfl⟩
abbrev main_v203 : Ref sig .tc := ⟨.hbm, 303, rfl⟩
abbrev main_v204 : Ref sig .tc := ⟨.hbm, 304, rfl⟩
abbrev main_c_59 : Ref sig .tc := ⟨.hbm, 305, rfl⟩
abbrev main_v205 : Ref sig .tc := ⟨.hbm, 306, rfl⟩
abbrev main_v206 : Ref sig .tc := ⟨.hbm, 307, rfl⟩
abbrev main_c_60 : Ref sig .tc := ⟨.hbm, 308, rfl⟩
abbrev main_v207 : Ref sig .tc := ⟨.hbm, 309, rfl⟩
abbrev main_v208 : Ref sig .tc := ⟨.hbm, 310, rfl⟩
abbrev main_c_61 : Ref sig .tc := ⟨.hbm, 311, rfl⟩
abbrev main_v209 : Ref sig .tc := ⟨.hbm, 312, rfl⟩
abbrev main_v210 : Ref sig .tc := ⟨.hbm, 313, rfl⟩
abbrev main_v211 : Ref sig .tc := ⟨.hbm, 314, rfl⟩
abbrev main_c_62 : Ref sig .tc := ⟨.hbm, 315, rfl⟩
abbrev main_v212 : Ref sig .tc := ⟨.hbm, 316, rfl⟩
abbrev main_v213 : Ref sig .tc := ⟨.hbm, 317, rfl⟩
abbrev main_c_63 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_c_64 : Ref sig .tc := ⟨.hbm, 322, rfl⟩
abbrev main_v217 : Ref sig .tc := ⟨.hbm, 323, rfl⟩
abbrev main_v218 : Ref sig .tc := ⟨.hbm, 324, rfl⟩
abbrev main_c_65 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_c_66 : Ref sig .tc := ⟨.hbm, 329, rfl⟩
abbrev main_v222 : Ref sig .tc := ⟨.hbm, 330, rfl⟩
abbrev main_v223 : Ref sig .tc := ⟨.hbm, 331, rfl⟩
abbrev main_c_67 : Ref sig .tc := ⟨.hbm, 332, rfl⟩
abbrev main_v224 : Ref sig .tc := ⟨.hbm, 333, rfl⟩
abbrev main_v225 : Ref sig .tc := ⟨.hbm, 334, rfl⟩
abbrev main_c_68 : Ref sig .tc := ⟨.hbm, 335, rfl⟩
abbrev main_v226 : Ref sig .tc := ⟨.hbm, 336, rfl⟩
abbrev main_v227 : Ref sig .tc := ⟨.hbm, 337, rfl⟩
abbrev main_c_69 : Ref sig .tc := ⟨.hbm, 338, rfl⟩
abbrev main_v228 : Ref sig .tc := ⟨.hbm, 339, rfl⟩
abbrev main_v229 : Ref sig .tc := ⟨.hbm, 340, rfl⟩
abbrev main_v230 : Ref sig .tc := ⟨.hbm, 341, rfl⟩
abbrev main_c_70 : Ref sig .tc := ⟨.hbm, 342, rfl⟩
abbrev main_v231 : Ref sig .tc := ⟨.hbm, 343, rfl⟩
abbrev main_v232 : Ref sig .tc := ⟨.hbm, 344, rfl⟩
abbrev main_c_71 : Ref sig .tc := ⟨.hbm, 345, rfl⟩
abbrev main_v233 : Ref sig .tc := ⟨.hbm, 346, rfl⟩
abbrev main_v234 : Ref sig .tc := ⟨.hbm, 347, rfl⟩
abbrev main_v235 : Ref sig .tc := ⟨.hbm, 348, rfl⟩
abbrev main_c_72 : Ref sig .tc := ⟨.hbm, 349, rfl⟩
abbrev main_v236 : Ref sig .tc := ⟨.hbm, 350, rfl⟩
abbrev main_v237 : Ref sig .tc := ⟨.hbm, 351, rfl⟩
abbrev main_c_73 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_v249 : Ref sig .tc := ⟨.hbm, 364, rfl⟩
abbrev main_v250 : Ref sig .tc := ⟨.hbm, 365, rfl⟩
abbrev main_v251 : Ref sig .tc := ⟨.hbm, 366, rfl⟩
abbrev main_v252 : Ref sig .tc := ⟨.hbm, 367, rfl⟩
abbrev main_v253 : Ref sig .tc := ⟨.hbm, 368, rfl⟩
abbrev main_c_74 : Ref sig .tc := ⟨.hbm, 369, rfl⟩
abbrev main_v254 : Ref sig .tc := ⟨.hbm, 370, rfl⟩
abbrev main_v255 : Ref sig .tc := ⟨.hbm, 371, rfl⟩
abbrev main_v256 : Ref sig .tc := ⟨.hbm, 372, rfl⟩
abbrev main_v257 : Ref sig .tc := ⟨.hbm, 373, rfl⟩
abbrev main_v258_0 : Ref sig .tc := ⟨.hbm, 374, rfl⟩
abbrev main_v258_1 : Ref sig .tc := ⟨.hbm, 375, rfl⟩
abbrev main_v259 : Ref sig .tc := ⟨.hbm, 376, rfl⟩
abbrev main_v260 : Ref sig .tc := ⟨.hbm, 377, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v372 : BitVec 1 := Scalar.cmpi .eq arg1 c31_i32
  let v373 : BitVec 32 := Scalar.extui v372
  let c0_i32_195 : BitVec 32 := 0#32
  let v374 : BitVec 1 := Scalar.cmpi .ne v373 c0_i32_195
  v374

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, arg0.toNat, c0_i32.toNat, c0_i32_0.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 1 → Memref sig .tc .vmem S16x2304 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x4x32x576 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S192x880 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S192x1168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x64x576 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4x64x576 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x2x64x576 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S2x192x1160_S1x192x1160_0_0_0 : S2x192x1160.Slices ![0, 0, 0] S1x192x1160
  shapeCasts_S1x192x1160_S192x1160 : S1x192x1160.ShapeCasts S192x1160
  slices_S192x1160_S192x32_0_0 : S192x1160.Slices ![0, 0] S192x32
  slices_S192x1160_S192x64_0_64 : S192x1160.Slices ![0, 64] S192x64
  concatenates_S192x32_S192x64_S192x96_d1 : Shape.Concatenates [S192x32, S192x64] S192x96 1
  slices_S192x1160_S192x32_0_128 : S192x1160.Slices ![0, 128] S192x32
  slices_S192x1160_S192x64_0_192 : S192x1160.Slices ![0, 192] S192x64
  slices_S192x1160_S192x32_0_256 : S192x1160.Slices ![0, 256] S192x32
  slices_S192x1160_S192x64_0_320 : S192x1160.Slices ![0, 320] S192x64
  slices_S192x1160_S192x32_0_384 : S192x1160.Slices ![0, 384] S192x32
  slices_S192x1160_S192x64_0_448 : S192x1160.Slices ![0, 448] S192x64
  slices_S192x1160_S192x32_0_512 : S192x1160.Slices ![0, 512] S192x32
  slices_S192x1160_S192x64_0_576 : S192x1160.Slices ![0, 576] S192x64
  slices_S192x1160_S192x32_0_640 : S192x1160.Slices ![0, 640] S192x32
  slices_S192x1160_S192x64_0_704 : S192x1160.Slices ![0, 704] S192x64
  slices_S192x1160_S192x32_0_768 : S192x1160.Slices ![0, 768] S192x32
  slices_S192x1160_S192x64_0_832 : S192x1160.Slices ![0, 832] S192x64
  slices_S192x1160_S192x32_0_896 : S192x1160.Slices ![0, 896] S192x32
  slices_S192x1160_S192x64_0_960 : S192x1160.Slices ![0, 960] S192x64
  slices_S192x1160_S192x32_0_1024 : S192x1160.Slices ![0, 1024] S192x32
  slices_S192x1160_S192x64_0_1088 : S192x1160.Slices ![0, 1088] S192x64
  slices_S192x1160_S192x1_0_1152 : S192x1160.Slices ![0, 1152] S192x1
  bcast_S_S192x15 : S_.BroadcastsInDim S192x15 (![] : Fin 0 → Fin S192x15.rank)
  concatenates_S192x1_S192x15_S192x96_S192x96_S192x96_S192x96_S192x96_S192x96_S192x96_S192x96_S192x96_S192x880_d1 : Shape.Concatenates [S192x1, S192x15, S192x96, S192x96, S192x96, S192x96, S192x96, S192x96, S192x96, S192x96, S192x96] S192x880 1
  bitsLt_bf16_f32 : FTy.bits .bf16 < FTy.bits .f32
  slices_S2x192x1160_S1x192x1160_1_0_0 : S2x192x1160.Slices ![1, 0, 0] S1x192x1160
  slices_S192x1160_S192x64_0_0 : S192x1160.Slices ![0, 0] S192x64
  concatenates_S192x64_S192x64_S192x128_d1 : Shape.Concatenates [S192x64, S192x64] S192x128 1
  slices_S192x1160_S192x64_0_128 : S192x1160.Slices ![0, 128] S192x64
  slices_S192x1160_S192x64_0_256 : S192x1160.Slices ![0, 256] S192x64
  slices_S192x1160_S192x64_0_384 : S192x1160.Slices ![0, 384] S192x64
  slices_S192x1160_S192x64_0_512 : S192x1160.Slices ![0, 512] S192x64
  slices_S192x1160_S192x64_0_640 : S192x1160.Slices ![0, 640] S192x64
  slices_S192x1160_S192x64_0_768 : S192x1160.Slices ![0, 768] S192x64
  slices_S192x1160_S192x64_0_896 : S192x1160.Slices ![0, 896] S192x64
  slices_S192x1160_S192x64_0_1024 : S192x1160.Slices ![0, 1024] S192x64
  concatenates_S192x1_S192x15_S192x128_S192x128_S192x128_S192x128_S192x128_S192x128_S192x128_S192x128_S192x128_S192x1168_d1 : Shape.Concatenates [S192x1, S192x15, S192x128, S192x128, S192x128, S192x128, S192x128, S192x128, S192x128, S192x128, S192x128] S192x1168 1
  bcast_S_S576 : S_.BroadcastsInDim S576 (![] : Fin 0 → Fin S576.rank)
  bcast_S576_S1x576_1 : S576.BroadcastsInDim S1x576 (![1] : Fin 1 → Fin S1x576.rank)
  concatenates_S1x576_S1x576_S1x576_S1x576_S1x576_S1x576_S1x576_S1x576_S1x576_S9x576_d0 : Shape.Concatenates [S1x576, S1x576, S1x576, S1x576, S1x576, S1x576, S1x576, S1x576, S1x576] S9x576 0
  shapeCasts_S9x576_S1x9x1x576 : S9x576.ShapeCasts S1x9x1x576
  bcast_S1x9x1x576_S1x9x4x576_0_1_2_3 : S1x9x1x576.BroadcastsInDim S1x9x4x576 (![0, 1, 2, 3] : Fin 4 → Fin S1x9x4x576.rank)
  shapeCasts_S1x9x4x576_S9x2304 : S1x9x4x576.ShapeCasts S9x2304
  bcast_S_S7x2304 : S_.BroadcastsInDim S7x2304 (![] : Fin 0 → Fin S7x2304.rank)
  concatenates_S9x2304_S7x2304_S16x2304_d0 : Shape.Concatenates [S9x2304, S7x2304] S16x2304 0
  shapeCasts_S32x8x32x24x24_S32x2x4x32x576 : S32x8x32x24x24.ShapeCasts S32x2x4x32x576
  inb_S2x64x2304_S2x64x2304_0_0_0 : ∀ a, (![0, 0, 0] : Fin 3 → Nat) a + S2x64x2304.size a ≤ S2x64x2304.size a
  h_S2x64x2304 : 0 < S2x64x2304.numel
  shapeCasts_S2x64x2304_S2x64x2304 : S2x64x2304.ShapeCasts S2x64x2304
  inb_S1168x2304_S16x2304_0_0 : ∀ a, (![0, 0] : Fin 2 → Nat) a + S16x2304.size a ≤ S1168x2304.size a
  h_S16x2304 : 0 < S16x2304.numel
  shapeCasts_S16x2304_S16x2304 : S16x2304.ShapeCasts S16x2304
  packedbf16_S1168x2304_S16x2304_0_0 : (Rect.unit (s := S1168x2304) ![0, 0] S16x2304.size inb_S1168x2304_S16x2304_0_0).PackedRows (EltTy.packing .bf16)
  inb_S1168x2304_S1x2304_0_0 : ∀ a, (![0, 0] : Fin 2 → Nat) a + S1x2304.size a ≤ S1168x2304.size a
  h_S1x2304 : 0 < S1x2304.numel
  shapeCasts_S1x2304_S1x2304 : S1x2304.ShapeCasts S1x2304
  inb_S1168x2304_S2x2304_0_0 : ∀ a, (![0, 0] : Fin 2 → Nat) a + S2x2304.size a ≤ S1168x2304.size a
  h_S2x2304 : 0 < S2x2304.numel
  slices_S2x2304_S1x2304_0_0 : S2x2304.Slices ![0, 0] S1x2304
  packedbf16_S1168x2304_S2x2304_0_0 : (Rect.unit (s := S1168x2304) ![0, 0] S2x2304.size inb_S1168x2304_S2x2304_0_0).PackedRows (EltTy.packing .bf16)
  inb_S1x1x4x32x576_S1x1x4x32x576_0_0_0_0_0 : ∀ a, (![0, 0, 0, 0, 0] : Fin 5 → Nat) a + S1x1x4x32x576.size a ≤ S1x1x4x32x576.size a
  h_S1x1x4x32x576 : 0 < S1x1x4x32x576.numel
  shapeCasts_S1x1x4x32x576_S4x32x576 : S1x1x4x32x576.ShapeCasts S4x32x576
  slices_S4x32x576_o0_0_0_S1x32x576 : S4x32x576.Slices ![0, 0, 0] S1x32x576
  shapeCasts_S1x32x576_S32x576 : S1x32x576.ShapeCasts S32x576
  slices_S4x32x576_o1_0_0_S1x32x576 : S4x32x576.Slices ![1, 0, 0] S1x32x576
  slices_S4x32x576_o2_0_0_S1x32x576 : S4x32x576.Slices ![2, 0, 0] S1x32x576
  slices_S4x32x576_o3_0_0_S1x32x576 : S4x32x576.Slices ![3, 0, 0] S1x32x576
  concatenates_S32x576_S32x576_S32x576_S32x576_S32x2304_d1 : Shape.Concatenates [S32x576, S32x576, S32x576, S32x576] S32x2304 1
  inb_S2x64x2304_S1x64x2304_0_0_0 : ∀ a, (![0, 0, 0] : Fin 3 → Nat) a + S1x64x2304.size a ≤ S2x64x2304.size a
  h_S1x64x2304 : 0 < S1x64x2304.numel
  shapeCasts_S1x64x2304_S64x2304 : S1x64x2304.ShapeCasts S64x2304
  concatenates_S32x2304_S64x2304_S96x2304_d0 : Shape.Concatenates [S32x2304, S64x2304] S96x2304 0
  inb_S2x64x576_S1x64x576_0_0_0 : ∀ a, (![0, 0, 0] : Fin 3 → Nat) a + S1x64x576.size a ≤ S2x64x576.size a
  h_S1x64x576 : 0 < S1x64x576.numel
  shapeCasts_S1x64x576_S64x576 : S1x64x576.ShapeCasts S64x576
  rotates_S96x2304_d1 : S96x2304.Rotates 1 none
  inb_S16x2304_S1x2304_0_0 : ∀ a, (![0, 0] : Fin 2 → Nat) a + S1x2304.size a ≤ S16x2304.size a
  broadcasts_S1x2304_S96x2304 : S1x2304.Broadcasts S96x2304
  inb_S1168x2304_S96x2304_16_0 : ∀ a, (![16, 0] : Fin 2 → Nat) a + S96x2304.size a ≤ S1168x2304.size a
  h_S96x2304 : 0 < S96x2304.numel
  shapeCasts_S96x2304_S96x2304 : S96x2304.ShapeCasts S96x2304
  packedbf16_S1168x2304_S96x2304_16_0 : (Rect.unit (s := S1168x2304) ![16, 0] S96x2304.size inb_S1168x2304_S96x2304_16_0).PackedRows (EltTy.packing .bf16)
  inb_S16x2304_S1x2304_1_0 : ∀ a, (![1, 0] : Fin 2 → Nat) a + S1x2304.size a ≤ S16x2304.size a
  inb_S1168x2304_S96x2304_112_0 : ∀ a, (![112, 0] : Fin 2 → Nat) a + S96x2304.size a ≤ S1168x2304.size a
  packedbf16_S1168x2304_S96x2304_112_0 : (Rect.unit (s := S1168x2304) ![112, 0] S96x2304.size inb_S1168x2304_S96x2304_112_0).PackedRows (EltTy.packing .bf16)
  inb_S16x2304_S1x2304_2_0 : ∀ a, (![2, 0] : Fin 2 → Nat) a + S1x2304.size a ≤ S16x2304.size a
  inb_S1168x2304_S96x2304_208_0 : ∀ a, (![208, 0] : Fin 2 → Nat) a + S96x2304.size a ≤ S1168x2304.size a
  packedbf16_S1168x2304_S96x2304_208_0 : (Rect.unit (s := S1168x2304) ![208, 0] S96x2304.size inb_S1168x2304_S96x2304_208_0).PackedRows (EltTy.packing .bf16)
  inb_S16x2304_S1x2304_3_0 : ∀ a, (![3, 0] : Fin 2 → Nat) a + S1x2304.size a ≤ S16x2304.size a
  inb_S1168x2304_S96x2304_304_0 : ∀ a, (![304, 0] : Fin 2 → Nat) a + S96x2304.size a ≤ S1168x2304.size a
  packedbf16_S1168x2304_S96x2304_304_0 : (Rect.unit (s := S1168x2304) ![304, 0] S96x2304.size inb_S1168x2304_S96x2304_304_0).PackedRows (EltTy.packing .bf16)
  inb_S16x2304_S1x2304_4_0 : ∀ a, (![4, 0] : Fin 2 → Nat) a + S1x2304.size a ≤ S16x2304.size a
  inb_S1168x2304_S96x2304_400_0 : ∀ a, (![400, 0] : Fin 2 → Nat) a + S96x2304.size a ≤ S1168x2304.size a
  packedbf16_S1168x2304_S96x2304_400_0 : (Rect.unit (s := S1168x2304) ![400, 0] S96x2304.size inb_S1168x2304_S96x2304_400_0).PackedRows (EltTy.packing .bf16)
  inb_S16x2304_S1x2304_5_0 : ∀ a, (![5, 0] : Fin 2 → Nat) a + S1x2304.size a ≤ S16x2304.size a
  inb_S1168x2304_S96x2304_496_0 : ∀ a, (![496, 0] : Fin 2 → Nat) a + S96x2304.size a ≤ S1168x2304.size a
  packedbf16_S1168x2304_S96x2304_496_0 : (Rect.unit (s := S1168x2304) ![496, 0] S96x2304.size inb_S1168x2304_S96x2304_496_0).PackedRows (EltTy.packing .bf16)
  inb_S16x2304_S1x2304_6_0 : ∀ a, (![6, 0] : Fin 2 → Nat) a + S1x2304.size a ≤ S16x2304.size a
  inb_S1168x2304_S96x2304_592_0 : ∀ a, (![592, 0] : Fin 2 → Nat) a + S96x2304.size a ≤ S1168x2304.size a
  packedbf16_S1168x2304_S96x2304_592_0 : (Rect.unit (s := S1168x2304) ![592, 0] S96x2304.size inb_S1168x2304_S96x2304_592_0).PackedRows (EltTy.packing .bf16)
  inb_S16x2304_S1x2304_7_0 : ∀ a, (![7, 0] : Fin 2 → Nat) a + S1x2304.size a ≤ S16x2304.size a
  inb_S1168x2304_S96x2304_688_0 : ∀ a, (![688, 0] : Fin 2 → Nat) a + S96x2304.size a ≤ S1168x2304.size a
  packedbf16_S1168x2304_S96x2304_688_0 : (Rect.unit (s := S1168x2304) ![688, 0] S96x2304.size inb_S1168x2304_S96x2304_688_0).PackedRows (EltTy.packing .bf16)
  inb_S16x2304_S1x2304_8_0 : ∀ a, (![8, 0] : Fin 2 → Nat) a + S1x2304.size a ≤ S16x2304.size a
  inb_S1168x2304_S96x2304_784_0 : ∀ a, (![784, 0] : Fin 2 → Nat) a + S96x2304.size a ≤ S1168x2304.size a
  packedbf16_S1168x2304_S96x2304_784_0 : (Rect.unit (s := S1168x2304) ![784, 0] S96x2304.size inb_S1168x2304_S96x2304_784_0).PackedRows (EltTy.packing .bf16)
  inb_S192x880_S192x880_0_0 : ∀ a, (![0, 0] : Fin 2 → Nat) a + S192x880.size a ≤ S192x880.size a
  h_S192x880 : 0 < S192x880.numel
  shapeCasts_S192x880_S192x880 : S192x880.ShapeCasts S192x880
  inb_S1168x2304_S880x2304_0_0 : ∀ a, (![0, 0] : Fin 2 → Nat) a + S880x2304.size a ≤ S1168x2304.size a
  h_S880x2304 : 0 < S880x2304.numel
  slices_S192x2304_o0_0_S128x2304 : S192x2304.Slices ![0, 0] S128x2304
  slices_S128x2304_o0_0_S64x2304 : S128x2304.Slices ![0, 0] S64x2304
  slices_S128x2304_o64_0_S64x2304 : S128x2304.Slices ![64, 0] S64x2304
  slices_S96x2304_o32_0_S64x2304 : S96x2304.Slices ![32, 0] S64x2304
  rotates_S64x2304_d1 : S64x2304.Rotates 1 none
  broadcasts_S1x2304_S64x2304 : S1x2304.Broadcasts S64x2304
  inb_S576x2304_S64x2304_0_0 : ∀ a, (![0, 0] : Fin 2 → Nat) a + S64x2304.size a ≤ S576x2304.size a
  h_S64x2304 : 0 < S64x2304.numel
  shapeCasts_S64x2304_S64x2304 : S64x2304.ShapeCasts S64x2304
  packedbf16_S576x2304_S64x2304_0_0 : (Rect.unit (s := S576x2304) ![0, 0] S64x2304.size inb_S576x2304_S64x2304_0_0).PackedRows (EltTy.packing .bf16)
  inb_S576x2304_S64x2304_64_0 : ∀ a, (![64, 0] : Fin 2 → Nat) a + S64x2304.size a ≤ S576x2304.size a
  packedbf16_S576x2304_S64x2304_64_0 : (Rect.unit (s := S576x2304) ![64, 0] S64x2304.size inb_S576x2304_S64x2304_64_0).PackedRows (EltTy.packing .bf16)
  inb_S576x2304_S64x2304_128_0 : ∀ a, (![128, 0] : Fin 2 → Nat) a + S64x2304.size a ≤ S576x2304.size a
  packedbf16_S576x2304_S64x2304_128_0 : (Rect.unit (s := S576x2304) ![128, 0] S64x2304.size inb_S576x2304_S64x2304_128_0).PackedRows (EltTy.packing .bf16)
  inb_S576x2304_S64x2304_192_0 : ∀ a, (![192, 0] : Fin 2 → Nat) a + S64x2304.size a ≤ S576x2304.size a
  packedbf16_S576x2304_S64x2304_192_0 : (Rect.unit (s := S576x2304) ![192, 0] S64x2304.size inb_S576x2304_S64x2304_192_0).PackedRows (EltTy.packing .bf16)
  inb_S576x2304_S64x2304_256_0 : ∀ a, (![256, 0] : Fin 2 → Nat) a + S64x2304.size a ≤ S576x2304.size a
  packedbf16_S576x2304_S64x2304_256_0 : (Rect.unit (s := S576x2304) ![256, 0] S64x2304.size inb_S576x2304_S64x2304_256_0).PackedRows (EltTy.packing .bf16)
  inb_S576x2304_S64x2304_320_0 : ∀ a, (![320, 0] : Fin 2 → Nat) a + S64x2304.size a ≤ S576x2304.size a
  packedbf16_S576x2304_S64x2304_320_0 : (Rect.unit (s := S576x2304) ![320, 0] S64x2304.size inb_S576x2304_S64x2304_320_0).PackedRows (EltTy.packing .bf16)
  inb_S576x2304_S64x2304_384_0 : ∀ a, (![384, 0] : Fin 2 → Nat) a + S64x2304.size a ≤ S576x2304.size a
  packedbf16_S576x2304_S64x2304_384_0 : (Rect.unit (s := S576x2304) ![384, 0] S64x2304.size inb_S576x2304_S64x2304_384_0).PackedRows (EltTy.packing .bf16)
  inb_S576x2304_S64x2304_448_0 : ∀ a, (![448, 0] : Fin 2 → Nat) a + S64x2304.size a ≤ S576x2304.size a
  packedbf16_S576x2304_S64x2304_448_0 : (Rect.unit (s := S576x2304) ![448, 0] S64x2304.size inb_S576x2304_S64x2304_448_0).PackedRows (EltTy.packing .bf16)
  inb_S576x2304_S64x2304_512_0 : ∀ a, (![512, 0] : Fin 2 → Nat) a + S64x2304.size a ≤ S576x2304.size a
  packedbf16_S576x2304_S64x2304_512_0 : (Rect.unit (s := S576x2304) ![512, 0] S64x2304.size inb_S576x2304_S64x2304_512_0).PackedRows (EltTy.packing .bf16)
  slices_S192x2304_o128_0_S64x2304 : S192x2304.Slices ![128, 0] S64x2304
  inb_S576x2304_S576x2304_0_0 : ∀ a, (![0, 0] : Fin 2 → Nat) a + S576x2304.size a ≤ S576x2304.size a
  h_S576x2304 : 0 < S576x2304.numel
  shapeCasts_S64x2304_S1x64x2304 : S64x2304.ShapeCasts S1x64x2304
  inb_S2x64x2304_S1x64x2304_1_0_0 : ∀ a, (![1, 0, 0] : Fin 3 → Nat) a + S1x64x2304.size a ≤ S2x64x2304.size a
  concatenates_S64x2304_S64x2304_S128x2304_d0 : Shape.Concatenates [S64x2304, S64x2304] S128x2304 0
  inb_S2x64x576_S1x64x576_1_0_0 : ∀ a, (![1, 0, 0] : Fin 3 → Nat) a + S1x64x576.size a ≤ S2x64x576.size a
  rotates_S128x2304_d1 : S128x2304.Rotates 1 none
  broadcasts_S1x2304_S128x2304 : S1x2304.Broadcasts S128x2304
  inb_S1168x2304_S128x2304_16_0 : ∀ a, (![16, 0] : Fin 2 → Nat) a + S128x2304.size a ≤ S1168x2304.size a
  h_S128x2304 : 0 < S128x2304.numel
  shapeCasts_S128x2304_S128x2304 : S128x2304.ShapeCasts S128x2304
  packedbf16_S1168x2304_S128x2304_16_0 : (Rect.unit (s := S1168x2304) ![16, 0] S128x2304.size inb_S1168x2304_S128x2304_16_0).PackedRows (EltTy.packing .bf16)
  inb_S1168x2304_S128x2304_144_0 : ∀ a, (![144, 0] : Fin 2 → Nat) a + S128x2304.size a ≤ S1168x2304.size a
  packedbf16_S1168x2304_S128x2304_144_0 : (Rect.unit (s := S1168x2304) ![144, 0] S128x2304.size inb_S1168x2304_S128x2304_144_0).PackedRows (EltTy.packing .bf16)
  inb_S1168x2304_S128x2304_272_0 : ∀ a, (![272, 0] : Fin 2 → Nat) a + S128x2304.size a ≤ S1168x2304.size a
  packedbf16_S1168x2304_S128x2304_272_0 : (Rect.unit (s := S1168x2304) ![272, 0] S128x2304.size inb_S1168x2304_S128x2304_272_0).PackedRows (EltTy.packing .bf16)
  inb_S1168x2304_S128x2304_400_0 : ∀ a, (![400, 0] : Fin 2 → Nat) a + S128x2304.size a ≤ S1168x2304.size a
  packedbf16_S1168x2304_S128x2304_400_0 : (Rect.unit (s := S1168x2304) ![400, 0] S128x2304.size inb_S1168x2304_S128x2304_400_0).PackedRows (EltTy.packing .bf16)
  inb_S1168x2304_S128x2304_528_0 : ∀ a, (![528, 0] : Fin 2 → Nat) a + S128x2304.size a ≤ S1168x2304.size a
  packedbf16_S1168x2304_S128x2304_528_0 : (Rect.unit (s := S1168x2304) ![528, 0] S128x2304.size inb_S1168x2304_S128x2304_528_0).PackedRows (EltTy.packing .bf16)
  inb_S1168x2304_S128x2304_656_0 : ∀ a, (![656, 0] : Fin 2 → Nat) a + S128x2304.size a ≤ S1168x2304.size a
  packedbf16_S1168x2304_S128x2304_656_0 : (Rect.unit (s := S1168x2304) ![656, 0] S128x2304.size inb_S1168x2304_S128x2304_656_0).PackedRows (EltTy.packing .bf16)
  inb_S1168x2304_S128x2304_784_0 : ∀ a, (![784, 0] : Fin 2 → Nat) a + S128x2304.size a ≤ S1168x2304.size a
  packedbf16_S1168x2304_S128x2304_784_0 : (Rect.unit (s := S1168x2304) ![784, 0] S128x2304.size inb_S1168x2304_S128x2304_784_0).PackedRows (EltTy.packing .bf16)
  inb_S1168x2304_S128x2304_912_0 : ∀ a, (![912, 0] : Fin 2 → Nat) a + S128x2304.size a ≤ S1168x2304.size a
  packedbf16_S1168x2304_S128x2304_912_0 : (Rect.unit (s := S1168x2304) ![912, 0] S128x2304.size inb_S1168x2304_S128x2304_912_0).PackedRows (EltTy.packing .bf16)
  inb_S1168x2304_S128x2304_1040_0 : ∀ a, (![1040, 0] : Fin 2 → Nat) a + S128x2304.size a ≤ S1168x2304.size a
  packedbf16_S1168x2304_S128x2304_1040_0 : (Rect.unit (s := S1168x2304) ![1040, 0] S128x2304.size inb_S1168x2304_S128x2304_1040_0).PackedRows (EltTy.packing .bf16)
  inb_S192x1168_S192x1168_0_0 : ∀ a, (![0, 0] : Fin 2 → Nat) a + S192x1168.size a ≤ S192x1168.size a
  h_S192x1168 : 0 < S192x1168.numel
  shapeCasts_S192x1168_S192x1168 : S192x1168.ShapeCasts S192x1168
  inb_S1168x2304_S1168x2304_0_0 : ∀ a, (![0, 0] : Fin 2 → Nat) a + S1168x2304.size a ≤ S1168x2304.size a
  h_S1168x2304 : 0 < S1168x2304.numel
  slices_S64x2304_o0_0_S64x576 : S64x2304.Slices ![0, 0] S64x576
  inb_S1x1x4x64x576_S1x1x1x64x576_0_0_0_0_0 : ∀ a, (![0, 0, 0, 0, 0] : Fin 5 → Nat) a + S1x1x1x64x576.size a ≤ S1x1x4x64x576.size a
  h_S1x1x1x64x576 : 0 < S1x1x1x64x576.numel
  shapeCasts_S1x1x1x64x576_S64x576 : S1x1x1x64x576.ShapeCasts S64x576
  shapeCasts_S64x576_S1x1x1x64x576 : S64x576.ShapeCasts S1x1x1x64x576
  slices_S64x2304_o0_576_S64x576 : S64x2304.Slices ![0, 576] S64x576
  inb_S1x1x4x64x576_S1x1x1x64x576_0_0_1_0_0 : ∀ a, (![0, 0, 1, 0, 0] : Fin 5 → Nat) a + S1x1x1x64x576.size a ≤ S1x1x4x64x576.size a
  slices_S64x2304_o0_1152_S64x576 : S64x2304.Slices ![0, 1152] S64x576
  inb_S1x1x4x64x576_S1x1x1x64x576_0_0_2_0_0 : ∀ a, (![0, 0, 2, 0, 0] : Fin 5 → Nat) a + S1x1x1x64x576.size a ≤ S1x1x4x64x576.size a
  slices_S64x2304_o0_1728_S64x576 : S64x2304.Slices ![0, 1728] S64x576
  inb_S1x1x4x64x576_S1x1x1x64x576_0_0_3_0_0 : ∀ a, (![0, 0, 3, 0, 0] : Fin 5 → Nat) a + S1x1x1x64x576.size a ≤ S1x1x4x64x576.size a
  inb_S1x4x2x64x576_S1x1x1x64x576_0_0_0_0_0 : ∀ a, (![0, 0, 0, 0, 0] : Fin 5 → Nat) a + S1x1x1x64x576.size a ≤ S1x4x2x64x576.size a
  inb_S1x4x2x64x576_S1x1x1x64x576_0_1_0_0_0 : ∀ a, (![0, 1, 0, 0, 0] : Fin 5 → Nat) a + S1x1x1x64x576.size a ≤ S1x4x2x64x576.size a
  inb_S1x4x2x64x576_S1x1x1x64x576_0_2_0_0_0 : ∀ a, (![0, 2, 0, 0, 0] : Fin 5 → Nat) a + S1x1x1x64x576.size a ≤ S1x4x2x64x576.size a
  inb_S1x4x2x64x576_S1x1x1x64x576_0_3_0_0_0 : ∀ a, (![0, 3, 0, 0, 0] : Fin 5 → Nat) a + S1x1x1x64x576.size a ≤ S1x4x2x64x576.size a
  inb_S1x4x2x64x576_S1x1x1x64x576_0_0_1_0_0 : ∀ a, (![0, 0, 1, 0, 0] : Fin 5 → Nat) a + S1x1x1x64x576.size a ≤ S1x4x2x64x576.size a
  inb_S1x4x2x64x576_S1x1x1x64x576_0_1_1_0_0 : ∀ a, (![0, 1, 1, 0, 0] : Fin 5 → Nat) a + S1x1x1x64x576.size a ≤ S1x4x2x64x576.size a
  inb_S1x4x2x64x576_S1x1x1x64x576_0_2_1_0_0 : ∀ a, (![0, 2, 1, 0, 0] : Fin 5 → Nat) a + S1x1x1x64x576.size a ≤ S1x4x2x64x576.size a
  inb_S1x4x2x64x576_S1x1x1x64x576_0_3_1_0_0 : ∀ a, (![0, 3, 1, 0, 0] : Fin 5 → Nat) a + S1x1x1x64x576.size a ≤ S1x4x2x64x576.size a
  shapeCasts_S32x2x4x64x576_S32x8x64x24x24 : S32x2x4x64x576.ShapeCasts S32x8x64x24x24
  shapeCasts_S2x4x2x64x576_S8x2x64x24x24 : S2x4x2x64x576.ShapeCasts S8x2x64x24x24
  dot_S192x880_S880x2304_S192x2304_1_0_0_1_n_n_wf : DotDims.WF S192x880 S880x2304 S192x2304 [1] [0] [0] [1] [] []
  dot_S64x576_S576x2304_S64x2304_1_0_0_1_n_n_wf : DotDims.WF S64x576 S576x2304 S64x2304 [1] [0] [0] [1] [] []
  dot_S192x1168_S1168x2304_S192x2304_1_0_0_1_n_n_wf : DotDims.WF S192x1168 S1168x2304 S192x2304 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x2304.size a ≤ S16x2304.size a
  hwx0_0 : ∀ i : grid0.Coords, EltTy.bits .bf16 = 32 ∨ (Rect.block (s := S16x2304) S16x2304.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4x32x576.size a ≤ S32x2x4x32x576.size a
  hwx0_1 : ∀ i : grid0.Coords, EltTy.bits .f32 = 32 ∨ (Rect.block (s := S32x2x4x32x576) S1x1x4x32x576.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x880.size a ≤ S192x880.size a
  hwx0_2 : ∀ i : grid0.Coords, EltTy.bits .bf16 = 32 ∨ (Rect.block (s := S192x880) S192x880.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x1168.size a ≤ S192x1168.size a
  hwx0_3 : ∀ i : grid0.Coords, EltTy.bits .bf16 = 32 ∨ (Rect.block (s := S192x1168) S192x1168.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x64x576.size a ≤ S2x64x576.size a
  hwx0_4 : ∀ i : grid0.Coords, EltTy.bits .bf16 = 32 ∨ (Rect.block (s := S2x64x576) S2x64x576.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4x64x576.size a ≤ S32x2x4x64x576.size a
  hwx0_5 : ∀ i : grid0.Coords, EltTy.bits .f32 = 32 ∨ (Rect.block (s := S32x2x4x64x576) S1x1x4x64x576.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x4x2x64x576.size a ≤ S2x4x2x64x576.size a
  hwx0_6 : ∀ i : grid0.Coords, EltTy.bits .f32 = 32 ∨ (Rect.block (s := S2x4x2x64x576) S1x4x2x64x576.size (cc0_transform_6 i) (hinb0_6 i)).WholeWords (EltTy.packing .f32)

variable [Facts₀]

def dot_S192x880_S880x2304_S192x2304_1_0_0_1_n_n : DotDims S192x880 S880x2304 S192x2304 where
  lhsContracting := [1]
  rhsContracting := [0]
  lhsNonContracting := [0]
  rhsNonContracting := [1]
  lhsBatch := []
  rhsBatch := []
  wf := dot_S192x880_S880x2304_S192x2304_1_0_0_1_n_n_wf
def dot_S64x576_S576x2304_S64x2304_1_0_0_1_n_n : DotDims S64x576 S576x2304 S64x2304 where
  lhsContracting := [1]
  rhsContracting := [0]
  lhsNonContracting := [0]
  rhsNonContracting := [1]
  lhsBatch := []
  rhsBatch := []
  wf := dot_S64x576_S576x2304_S64x2304_1_0_0_1_n_n_wf
def dot_S192x1168_S1168x2304_S192x2304_1_0_0_1_n_n : DotDims S192x1168 S1168x2304 S192x2304 where
  lhsContracting := [1]
  rhsContracting := [0]
  lhsNonContracting := [0]
  rhsNonContracting := [1]
  lhsBatch := []
  rhsBatch := []
  wf := dot_S192x1168_S1168x2304_S192x2304_1_0_0_1_n_n_wf

abbrev win0_0 : Pipeline.Window sig grid0 :=
  Pipeline.Window.ofSpec (Memref.whole main_v256) S16x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v257) S1x1x4x32x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v32) S192x880.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v65) S192x1168.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v66) S2x64x576.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v258_0) S1x1x4x64x576.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v258_1) S1x4x2x64x576.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S32x8x32x24x24 : Shape := ⟨5, ![32, 8, 32, 24, 24]⟩
abbrev S2x192x1160 : Shape := ⟨3, ![2, 192, 1160]⟩
abbrev S2x64x576 : Shape := ⟨3, ![2, 64, 576]⟩
abbrev S576 : Shape := ⟨1, ![576]⟩
abbrev S_ : Shape := ⟨0, ![]⟩
abbrev S1x576 : Shape := ⟨2, ![1, 576]⟩
abbrev S9x576 : Shape := ⟨2, ![9, 576]⟩
abbrev S1x9x1x576 : Shape := ⟨4, ![1, 9, 1, 576]⟩
abbrev S1x9x4x576 : Shape := ⟨4, ![1, 9, 4, 576]⟩
abbrev S9x2304 : Shape := ⟨2, ![9, 2304]⟩
abbrev S8x32x32x24x24 : Shape := ⟨5, ![8, 32, 32, 24, 24]⟩
abbrev S2x4x32x32x576 : Shape := ⟨5, ![2, 4, 32, 32, 576]⟩
abbrev S2x4x32x64x576 : Shape := ⟨5, ![2, 4, 32, 64, 576]⟩
abbrev S2x32x64x4x576 : Shape := ⟨5, ![2, 32, 64, 4, 576]⟩
abbrev S2x32x64x2304 : Shape := ⟨4, ![2, 32, 64, 2304]⟩
abbrev S2x2x64x2304 : Shape := ⟨4, ![2, 2, 64, 2304]⟩
abbrev S1x1x64x2304 : Shape := ⟨4, ![1, 1, 64, 2304]⟩
abbrev S1x2x64x2304 : Shape := ⟨4, ![1, 2, 64, 2304]⟩
abbrev S2x64x2304 : Shape := ⟨3, ![2, 64, 2304]⟩
abbrev S1160x2304 : Shape := ⟨2, ![1160, 2304]⟩
abbrev S576x2304 : Shape := ⟨2, ![576, 2304]⟩
abbrev S1x2304 : Shape := ⟨2, ![1, 2304]⟩
abbrev S64x2304 : Shape := ⟨2, ![64, 2304]⟩
abbrev S1x64x2304 : Shape := ⟨3, ![1, 64, 2304]⟩
abbrev S1x192x1160 : Shape := ⟨3, ![1, 192, 1160]⟩
abbrev S192x1160 : Shape := ⟨2, ![192, 1160]⟩
abbrev S192x2304 : Shape := ⟨2, ![192, 2304]⟩
abbrev S1x64x576 : Shape := ⟨3, ![1, 64, 576]⟩
abbrev S64x576 : Shape := ⟨2, ![64, 576]⟩
abbrev S32x2x4x64x576 : Shape := ⟨5, ![32, 2, 4, 64, 576]⟩
abbrev S32x8x64x24x24 : Shape := ⟨5, ![32, 8, 64, 24, 24]⟩
abbrev S2x2x64x4x576 : Shape := ⟨5, ![2, 2, 64, 4, 576]⟩
abbrev S2x4x2x64x576 : Shape := ⟨5, ![2, 4, 2, 64, 576]⟩
abbrev S8x2x64x24x24 : Shape := ⟨5, ![8, 2, 64, 24, 24]⟩

abbrev nBuf : Space → Nat
  | .hbm => 316
  | .vmem => 12
  | .smem => 0
  | _ => 0

abbrev hbmTy0_0 (i : Nat) : BufTy := match i % 128 with
  | 0 => ⟨S32x8x32x24x24, .f32⟩
  | 1 => ⟨S2x192x1160, .f32⟩
  | 2 => ⟨S2x64x576, .f32⟩
  | 3 => ⟨S576, .i32⟩
  | 4 => ⟨S_, .i32⟩
  | 5 => ⟨S_, .i32⟩
  | 6 => ⟨S576, .i32⟩
  | 7 => ⟨S576, .i32⟩
  | 8 => ⟨S576, .i32⟩
  | 9 => ⟨S_, .i32⟩
  | 10 => ⟨S576, .i32⟩
  | 11 => ⟨S576, .i1⟩
  | 12 => ⟨S576, .i32⟩
  | 13 => ⟨S576, .i32⟩
  | 14 => ⟨S_, .i32⟩
  | 15 => ⟨S576, .i32⟩
  | 16 => ⟨S576, .i1⟩
  | 17 => ⟨S576, .i1⟩
  | 18 => ⟨S_, .i32⟩
  | 19 => ⟨S576, .i32⟩
  | 20 => ⟨S576, .i32⟩
  | 21 => ⟨S576, .i32⟩
  | 22 => ⟨S_, .i32⟩
  | 23 => ⟨S_, .i32⟩
  | 24 => ⟨S_, .i32⟩
  | 25 => ⟨S_, .i1⟩
  | 26 => ⟨S_, .i32⟩
  | 27 => ⟨S_, .i32⟩
  | 28 => ⟨S576, .i32⟩
  | 29 => ⟨S576, .i32⟩
  | 30 => ⟨S_, .i32⟩
  | 31 => ⟨S576, .i32⟩
  | 32 => ⟨S576, .i1⟩
  | 33 => ⟨S_, .i32⟩
  | 34 => ⟨S576, .i32⟩
  | 35 => ⟨S576, .i1⟩
  | 36 => ⟨S_, .i32⟩
  | 37 => ⟨S_, .i1⟩
  | 38 => ⟨S576, .i1⟩
  | 39 => ⟨S576, .i1⟩
  | 40 => ⟨S576, .i1⟩
  | 41 => ⟨S576, .i32⟩
  | 42 => ⟨S576, .i32⟩
  | 43 => ⟨S576, .i32⟩
  | 44 => ⟨S_, .i32⟩
  | 45 => ⟨S576, .i32⟩
  | 46 => ⟨S576, .i32⟩
  | 47 => ⟨S_, .i32⟩
  | 48 => ⟨S576, .i32⟩
  | 49 => ⟨S576, .i1⟩
  | 50 => ⟨S_, .i32⟩
  | 51 => ⟨S576, .i32⟩
  | 52 => ⟨S576, .i32⟩
  | 53 => ⟨S_, .i32⟩
  | 54 => ⟨S576, .i32⟩
  | 55 => ⟨S576, .i1⟩
  | 56 => ⟨S576, .i1⟩
  | 57 => ⟨S_, .i32⟩
  | 58 => ⟨S576, .i32⟩
  | 59 => ⟨S576, .i32⟩
  | 60 => ⟨S_, .i32⟩
  | 61 => ⟨S576, .i32⟩
  | 62 => ⟨S576, .i1⟩
  | 63 => ⟨S576, .i1⟩
  | 64 => ⟨S_, .i32⟩
  | 65 => ⟨S576, .i32⟩
  | 66 => ⟨S576, .i32⟩
  | 67 => ⟨S_, .i32⟩
  | 68 => ⟨S576, .i32⟩
  | 69 => ⟨S576, .i1⟩
  | 70 => ⟨S576, .i1⟩
  | 71 => ⟨S_, .i32⟩
  | 72 => ⟨S576, .i32⟩
  | 73 => ⟨S576, .i32⟩
  | 74 => ⟨S_, .i32⟩
  | 75 => ⟨S576, .i32⟩
  | 76 => ⟨S576, .i1⟩
  | 77 => ⟨S_, .i32⟩
  | 78 => ⟨S576, .i32⟩
  | 79 => ⟨S576, .i32⟩
  | 80 => ⟨S_, .i32⟩
  | 81 => ⟨S576, .i32⟩
  | 82 => ⟨S576, .i1⟩
  | 83 => ⟨S576, .i1⟩
  | 84 => ⟨S_, .i32⟩
  | 85 => ⟨S576, .i32⟩
  | 86 => ⟨S576, .i32⟩
  | 87 => ⟨S_, .i32⟩
  | 88 => ⟨S576, .i32⟩
  | 89 => ⟨S576, .i1⟩
  | 90 => ⟨S576, .i1⟩
  | 91 => ⟨S_, .i32⟩
  | 92 => ⟨S576, .i32⟩
  | 93 => ⟨S576, .i32⟩
  | 94 => ⟨S_, .i32⟩
  | 95 => ⟨S576, .i32⟩
  | 96 => ⟨S576, .i1⟩
  | 97 => ⟨S576, .i1⟩
  | 98 => ⟨S_, .i32⟩
  | 99 => ⟨S576, .i32⟩
  | 100 => ⟨S576, .i32⟩
  | 101 => ⟨S_, .i32⟩
  | 102 => ⟨S576, .i32⟩
  | 103 => ⟨S576, .i1⟩
  | 104 => ⟨S_, .i32⟩
  | 105 => ⟨S576, .i32⟩
  | 106 => ⟨S576, .i32⟩
  | 107 => ⟨S_, .i32⟩
  | 108 => ⟨S576, .i32⟩
  | 109 => ⟨S576, .i1⟩
  | 110 => ⟨S576, .i1⟩
  | 111 => ⟨S_, .i32⟩
  | 112 => ⟨S576, .i32⟩
  | 113 => ⟨S576, .i32⟩
  | 114 => ⟨S_, .i32⟩
  | 115 => ⟨S576, .i32⟩
  | 116 => ⟨S576, .i1⟩
  | 117 => ⟨S576, .i1⟩
  | 118 => ⟨S_, .i32⟩
  | 119 => ⟨S576, .i32⟩
  | 120 => ⟨S576, .i32⟩
  | 121 => ⟨S_, .i32⟩
  | 122 => ⟨S576, .i32⟩
  | 123 => ⟨S576, .i1⟩
  | 124 => ⟨S576, .i1⟩
  | 125 => ⟨S_, .i32⟩
  | 126 => ⟨S576, .i32⟩
  | 127 => ⟨S576, .i32⟩
  | _ => ⟨S32x8x32x24x24, .f32⟩

abbrev hbmTy0_1 (i : Nat) : BufTy := match i % 128 with
  | 0 => ⟨S_, .i32⟩
  | 1 => ⟨S576, .i32⟩
  | 2 => ⟨S576, .i1⟩
  | 3 => ⟨S_, .i32⟩
  | 4 => ⟨S576, .i32⟩
  | 5 => ⟨S576, .i32⟩
  | 6 => ⟨S_, .i32⟩
  | 7 => ⟨S576, .i32⟩
  | 8 => ⟨S576, .i1⟩
  | 9 => ⟨S576, .i1⟩
  | 10 => ⟨S_, .i32⟩
  | 11 => ⟨S576, .i32⟩
  | 12 => ⟨S576, .i32⟩
  | 13 => ⟨S_, .i32⟩
  | 14 => ⟨S576, .i32⟩
  | 15 => ⟨S576, .i1⟩
  | 16 => ⟨S576, .i1⟩
  | 17 => ⟨S_, .i32⟩
  | 18 => ⟨S576, .i32⟩
  | 19 => ⟨S576, .i32⟩
  | 20 => ⟨S_, .i32⟩
  | 21 => ⟨S576, .i32⟩
  | 22 => ⟨S576, .i1⟩
  | 23 => ⟨S576, .i1⟩
  | 24 => ⟨S_, .i32⟩
  | 25 => ⟨S576, .i32⟩
  | 26 => ⟨S576, .i32⟩
  | 27 => ⟨S_, .i32⟩
  | 28 => ⟨S576, .i32⟩
  | 29 => ⟨S576, .i1⟩
  | 30 => ⟨S_, .i32⟩
  | 31 => ⟨S576, .i32⟩
  | 32 => ⟨S576, .i32⟩
  | 33 => ⟨S_, .i32⟩
  | 34 => ⟨S576, .i32⟩
  | 35 => ⟨S576, .i1⟩
  | 36 => ⟨S576, .i1⟩
  | 37 => ⟨S_, .i32⟩
  | 38 => ⟨S576, .i32⟩
  | 39 => ⟨S576, .i32⟩
  | 40 => ⟨S_, .i32⟩
  | 41 => ⟨S576, .i32⟩
  | 42 => ⟨S576, .i1⟩
  | 43 => ⟨S576, .i1⟩
  | 44 => ⟨S_, .i32⟩
  | 45 => ⟨S576, .i32⟩
  | 46 => ⟨S576, .i32⟩
  | 47 => ⟨S_, .i32⟩
  | 48 => ⟨S576, .i32⟩
  | 49 => ⟨S576, .i1⟩
  | 50 => ⟨S576, .i1⟩
  | 51 => ⟨S_, .i32⟩
  | 52 => ⟨S576, .i32⟩
  | 53 => ⟨S576, .i32⟩
  | 54 => ⟨S_, .i32⟩
  | 55 => ⟨S576, .i32⟩
  | 56 => ⟨S576, .i1⟩
  | 57 => ⟨S_, .i32⟩
  | 58 => ⟨S576, .i32⟩
  | 59 => ⟨S576, .i32⟩
  | 60 => ⟨S_, .i32⟩
  | 61 => ⟨S576, .i32⟩
  | 62 => ⟨S576, .i1⟩
  | 63 => ⟨S576, .i1⟩
  | 64 => ⟨S_, .i32⟩
  | 65 => ⟨S576, .i32⟩
  | 66 => ⟨S576, .i32⟩
  | 67 => ⟨S_, .i32⟩
  | 68 => ⟨S576, .i32⟩
  | 69 => ⟨S576, .i1⟩
  | 70 => ⟨S576, .i1⟩
  | 71 => ⟨S_, .i32⟩
  | 72 => ⟨S576, .i32⟩
  | 73 => ⟨S576, .i32⟩
  | 74 => ⟨S_, .i32⟩
  | 75 => ⟨S576, .i32⟩
  | 76 => ⟨S576, .i1⟩
  | 77 => ⟨S576, .i1⟩
  | 78 => ⟨S_, .i32⟩
  | 79 => ⟨S576, .i32⟩
  | 80 => ⟨S576, .i32⟩
  | 81 => ⟨S_, .i32⟩
  | 82 => ⟨S576, .i32⟩
  | 83 => ⟨S576, .i1⟩
  | 84 => ⟨S_, .i32⟩
  | 85 => ⟨S576, .i32⟩
  | 86 => ⟨S576, .i32⟩
  | 87 => ⟨S_, .i32⟩
  | 88 => ⟨S576, .i32⟩
  | 89 => ⟨S576, .i1⟩
  | 90 => ⟨S576, .i1⟩
  | 91 => ⟨S_, .i32⟩
  | 92 => ⟨S576, .i32⟩
  | 93 => ⟨S576, .i32⟩
  | 94 => ⟨S_, .i32⟩
  | 95 => ⟨S576, .i32⟩
  | 96 => ⟨S576, .i1⟩
  | 97 => ⟨S576, .i1⟩
  | 98 => ⟨S_, .i32⟩
  | 99 => ⟨S576, .i32⟩
  | 100 => ⟨S576, .i32⟩
  | 101 => ⟨S_, .i32⟩
  | 102 => ⟨S576, .i32⟩
  | 103 => ⟨S576, .i1⟩
  | 104 => ⟨S576, .i1⟩
  | 105 => ⟨S_, .i32⟩
  | 106 => ⟨S576, .i32⟩
  | 107 => ⟨S576, .i32⟩
  | 108 => ⟨S_, .i32⟩
  | 109 => ⟨S576, .i32⟩
  | 110 => ⟨S576, .i1⟩
  | 111 => ⟨S_, .i32⟩
  | 112 => ⟨S576, .i32⟩
  | 113 => ⟨S576, .i32⟩
  | 114 => ⟨S_, .i32⟩
  | 115 => ⟨S576, .i32⟩
  | 116 => ⟨S576, .i1⟩
  | 117 => ⟨S576, .i1⟩
  | 118 => ⟨S_, .i32⟩
  | 119 => ⟨S576, .i32⟩
  | 120 => ⟨S576, .i32⟩
  | 121 => ⟨S_, .i32⟩
  | 122 => ⟨S576, .i32⟩
  | 123 => ⟨S576, .i1⟩
  | 124 => ⟨S576, .i1⟩
  | 125 => ⟨S_, .i32⟩
  | 126 => ⟨S576, .i32⟩
  | 127 => ⟨S576, .i32⟩
  | _ => ⟨S32x8x32x24x24, .f32⟩

abbrev hbmTy0_2 (i : Nat) : BufTy := match i % 128 with
  | 0 => ⟨S_, .i32⟩
  | 1 => ⟨S576, .i32⟩
  | 2 => ⟨S576, .i1⟩
  | 3 => ⟨S576, .i1⟩
  | 4 => ⟨S_, .i32⟩
  | 5 => ⟨S576, .i32⟩
  | 6 => ⟨S576, .i32⟩
  | 7 => ⟨S_, .i32⟩
  | 8 => ⟨S576, .i32⟩
  | 9 => ⟨S576, .i1⟩
  | 10 => ⟨S_, .i32⟩
  | 11 => ⟨S576, .i32⟩
  | 12 => ⟨S576, .i32⟩
  | 13 => ⟨S_, .i32⟩
  | 14 => ⟨S576, .i32⟩
  | 15 => ⟨S576, .i1⟩
  | 16 => ⟨S576, .i1⟩
  | 17 => ⟨S_, .i32⟩
  | 18 => ⟨S576, .i32⟩
  | 19 => ⟨S576, .i32⟩
  | 20 => ⟨S_, .i32⟩
  | 21 => ⟨S576, .i32⟩
  | 22 => ⟨S576, .i1⟩
  | 23 => ⟨S576, .i1⟩
  | 24 => ⟨S_, .i32⟩
  | 25 => ⟨S576, .i32⟩
  | 26 => ⟨S576, .i32⟩
  | 27 => ⟨S_, .i32⟩
  | 28 => ⟨S576, .i32⟩
  | 29 => ⟨S576, .i1⟩
  | 30 => ⟨S576, .i1⟩
  | 31 => ⟨S1x576, .i1⟩
  | 32 => ⟨S1x576, .i1⟩
  | 33 => ⟨S1x576, .i1⟩
  | 34 => ⟨S1x576, .i1⟩
  | 35 => ⟨S1x576, .i1⟩
  | 36 => ⟨S1x576, .i1⟩
  | 37 => ⟨S1x576, .i1⟩
  | 38 => ⟨S1x576, .i1⟩
  | 39 => ⟨S1x576, .i1⟩
  | 40 => ⟨S9x576, .i1⟩
  | 41 => ⟨S9x576, .f32⟩
  | 42 => ⟨S1x9x1x576, .f32⟩
  | 43 => ⟨S1x9x4x576, .f32⟩
  | 44 => ⟨S9x2304, .f32⟩
  | 45 => ⟨S8x32x32x24x24, .f32⟩
  | 46 => ⟨S2x4x32x32x576, .f32⟩
  | 47 => ⟨S_, .i32⟩
  | 48 => ⟨S_, .f32⟩
  | 49 => ⟨S2x4x32x64x576, .f32⟩
  | 50 => ⟨S2x32x64x4x576, .f32⟩
  | 51 => ⟨S2x32x64x2304, .f32⟩
  | 52 => ⟨S2x32x64x2304, .f32⟩
  | 53 => ⟨S2x2x64x2304, .f32⟩
  | 54 => ⟨S2x32x64x4x576, .f32⟩
  | 55 => ⟨S32x2x4x64x576, .f32⟩
  | 56 => ⟨S32x8x64x24x24, .f32⟩
  | 57 => ⟨S2x2x64x4x576, .f32⟩
  | 58 => ⟨S2x4x2x64x576, .f32⟩
  | 59 => ⟨S8x2x64x24x24, .f32⟩
  | _ => ⟨S32x8x32x24x24, .f32⟩

abbrev hbmTy (i : Nat) : BufTy := match i / 128 with
  | 0 => hbmTy0_0 i
  | 1 => hbmTy0_1 i
  | 2 => hbmTy0_2 i
  | _ => ⟨S32x8x32x24x24, .f32⟩

abbrev bufTy : (tb : Table) → Fin (tcTables nBuf tb) → BufTy
  | .hbm, ⟨i, _⟩ => hbmTy i
  | .local _ .vmem, ⟨0, _⟩ => ⟨S9x2304, .f32⟩
  | .local _ .vmem, ⟨1, _⟩ => ⟨S1x1x64x2304, .f32⟩
  | .local _ .vmem, ⟨2, _⟩ => ⟨S1x1x64x2304, .f32⟩
  | .local _ .vmem, ⟨3, _⟩ => ⟨S2x192x1160, .f32⟩
  | .local _ .vmem, ⟨4, _⟩ => ⟨S2x64x576, .f32⟩
  | .local _ .vmem, ⟨5, _⟩ => ⟨S1x1x64x2304, .f32⟩
  | .local _ .vmem, ⟨6, _⟩ => ⟨S1x1x64x2304, .f32⟩
  | .local _ .vmem, ⟨7, _⟩ => ⟨S1x2x64x2304, .f32⟩
  | .local _ .vmem, ⟨8, _⟩ => ⟨S1x2x64x2304, .f32⟩
  | .local _ .vmem, ⟨9, _⟩ => ⟨S2x64x2304, .f32⟩
  | .local _ .vmem, ⟨10, _⟩ => ⟨S1160x2304, .f32⟩
  | .local _ .vmem, ⟨11, _⟩ => ⟨S576x2304, .f32⟩
  | _, _ => ⟨S32x8x32x24x24, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_c_0 : Ref sig .tc := ⟨.hbm, 22, rfl⟩
abbrev main_call1_v0 : Ref sig .tc := ⟨.hbm, 23, rfl⟩
abbrev main_call1_c : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_c_1 : Ref sig .tc := ⟨.hbm, 30, rfl⟩
abbrev main_call1_v5 : Ref sig .tc := ⟨.hbm, 31, rfl⟩
abbrev main_call1_v6 : Ref sig .tc := ⟨.hbm, 32, rfl⟩
abbrev main_call1_c_2 : Ref sig .tc := ⟨.hbm, 33, rfl⟩
abbrev main_call1_v7 : Ref sig .tc := ⟨.hbm, 34, rfl⟩
abbrev main_call1_v8 : Ref sig .tc := ⟨.hbm, 35, rfl⟩
abbrev main_call1_c_3 : Ref sig .tc := ⟨.hbm, 36, rfl⟩
abbrev main_call1_v9 : Ref sig .tc := ⟨.hbm, 37, rfl⟩
abbrev main_call1_v10 : Ref sig .tc := ⟨.hbm, 38, rfl⟩
abbrev main_call1_v11 : Ref sig .tc := ⟨.hbm, 39, rfl⟩
abbrev main_call1_v12 : Ref sig .tc := ⟨.hbm, 40, rfl⟩
abbrev main_call1_v13 : Ref sig .tc := ⟨.hbm, 41, rfl⟩
abbrev main_call1_v14 : Ref sig .tc := ⟨.hbm, 42, rfl⟩
abbrev main_v2 : Ref sig .tc := ⟨.hbm, 43, rfl⟩
abbrev main_c_1 : Ref sig .tc := ⟨.hbm, 44, rfl⟩
abbrev main_v3 : Ref sig .tc := ⟨.hbm, 45, rfl⟩
abbrev main_v4 : Ref sig .tc := ⟨.hbm, 46, rfl⟩
abbrev main_c_2 : Ref sig .tc := ⟨.hbm, 47, rfl⟩
abbrev main_v5 : Ref sig .tc := ⟨.hbm, 48, rfl⟩
abbrev main_v6 : Ref sig .tc := ⟨.hbm, 49, rfl⟩
abbrev main_c_3 : Ref sig .tc := ⟨.hbm, 50, rfl⟩
abbrev main_v7 : Ref sig .tc := ⟨.hbm, 51, rfl⟩
abbrev main_v8 : Ref sig .tc := ⟨.hbm, 52, rfl⟩
abbrev main_c_4 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_c_5 : Ref sig .tc := ⟨.hbm, 57, rfl⟩
abbrev main_v12 : Ref sig .tc := ⟨.hbm, 58, rfl⟩
abbrev main_v13 : Ref sig .tc := ⟨.hbm, 59, rfl⟩
abbrev main_c_6 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_7 : Ref sig .tc := ⟨.hbm, 64, rfl⟩
abbrev main_v17 : Ref sig .tc := ⟨.hbm, 65, rfl⟩
abbrev main_v18 : Ref sig .tc := ⟨.hbm, 66, rfl⟩
abbrev main_c_8 : Ref sig .tc := ⟨.hbm, 67, rfl⟩
abbrev main_v19 : Ref sig .tc := ⟨.hbm, 68, rfl⟩
abbrev main_v20 : Ref sig .tc := ⟨.hbm, 69, rfl⟩
abbrev main_v21 : Ref sig .tc := ⟨.hbm, 70, rfl⟩
abbrev main_c_9 : Ref sig .tc := ⟨.hbm, 71, rfl⟩
abbrev main_v22 : Ref sig .tc := ⟨.hbm, 72, rfl⟩
abbrev main_v23 : Ref sig .tc := ⟨.hbm, 73, rfl⟩
abbrev main_c_10 : Ref sig .tc := ⟨.hbm, 74, rfl⟩
abbrev main_v24 : Ref sig .tc := ⟨.hbm, 75, rfl⟩
abbrev main_v25 : Ref sig .tc := ⟨.hbm, 76, rfl⟩
abbrev main_c_11 : Ref sig .tc := ⟨.hbm, 77, rfl⟩
abbrev main_v26 : Ref sig .tc := ⟨.hbm, 78, rfl⟩
abbrev main_v27 : Ref sig .tc := ⟨.hbm, 79, rfl⟩
abbrev main_c_12 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_c_13 : Ref sig .tc := ⟨.hbm, 84, rfl⟩
abbrev main_v31 : Ref sig .tc := ⟨.hbm, 85, rfl⟩
abbrev main_v32 : Ref sig .tc := ⟨.hbm, 86, rfl⟩
abbrev main_c_14 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_c_15 : Ref sig .tc := ⟨.hbm, 91, rfl⟩
abbrev main_v36 : Ref sig .tc := ⟨.hbm, 92, rfl⟩
abbrev main_v37 : Ref sig .tc := ⟨.hbm, 93, rfl⟩
abbrev main_c_16 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c_17 : Ref sig .tc := ⟨.hbm, 98, rfl⟩
abbrev main_v41 : Ref sig .tc := ⟨.hbm, 99, rfl⟩
abbrev main_v42 : Ref sig .tc := ⟨.hbm, 100, rfl⟩
abbrev main_c_18 : Ref sig .tc := ⟨.hbm, 101, rfl⟩
abbrev main_v43 : Ref sig .tc := ⟨.hbm, 102, rfl⟩
abbrev main_v44 : Ref sig .tc := ⟨.hbm, 103, rfl⟩
abbrev main_c_19 : Ref sig .tc := ⟨.hbm, 104, rfl⟩
abbrev main_v45 : Ref sig .tc := ⟨.hbm, 105, rfl⟩
abbrev main_v46 : Ref sig .tc := ⟨.hbm, 106, rfl⟩
abbrev main_c_20 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_c_21 : Ref sig .tc := ⟨.hbm, 111, rfl⟩
abbrev main_v50 : Ref sig .tc := ⟨.hbm, 112, rfl⟩
abbrev main_v51 : Ref sig .tc := ⟨.hbm, 113, rfl⟩
abbrev main_c_22 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_c_23 : Ref sig .tc := ⟨.hbm, 118, rfl⟩
abbrev main_v55 : Ref sig .tc := ⟨.hbm, 119, rfl⟩
abbrev main_v56 : Ref sig .tc := ⟨.hbm, 120, rfl⟩
abbrev main_c_24 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_c_25 : Ref sig .tc := ⟨.hbm, 125, rfl⟩
abbrev main_v60 : Ref sig .tc := ⟨.hbm, 126, rfl⟩
abbrev main_v61 : Ref sig .tc := ⟨.hbm, 127, rfl⟩
abbrev main_c_26 : Ref sig .tc := ⟨.hbm, 128, rfl⟩
abbrev main_v62 : Ref sig .tc := ⟨.hbm, 129, rfl⟩
abbrev main_v63 : Ref sig .tc := ⟨.hbm, 130, rfl⟩
abbrev main_c_27 : Ref sig .tc := ⟨.hbm, 131, rfl⟩
abbrev main_v64 : Ref sig .tc := ⟨.hbm, 132, rfl⟩
abbrev main_v65 : Ref sig .tc := ⟨.hbm, 133, rfl⟩
abbrev main_c_28 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_c_29 : Ref sig .tc := ⟨.hbm, 138, rfl⟩
abbrev main_v69 : Ref sig .tc := ⟨.hbm, 139, rfl⟩
abbrev main_v70 : Ref sig .tc := ⟨.hbm, 140, rfl⟩
abbrev main_c_30 : Ref sig .tc := ⟨.hbm, 141, rfl⟩
abbrev main_v71 : Ref sig .tc := ⟨.hbm, 142, rfl⟩
abbrev main_v72 : Ref sig .tc := ⟨.hbm, 143, rfl⟩
abbrev main_v73 : Ref sig .tc := ⟨.hbm, 144, rfl⟩
abbrev main_c_31 : Ref sig .tc := ⟨.hbm, 145, rfl⟩
abbrev main_v74 : Ref sig .tc := ⟨.hbm, 146, rfl⟩
abbrev main_v75 : Ref sig .tc := ⟨.hbm, 147, rfl⟩
abbrev main_c_32 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_c_33 : Ref sig .tc := ⟨.hbm, 152, rfl⟩
abbrev main_v79 : Ref sig .tc := ⟨.hbm, 153, rfl⟩
abbrev main_v80 : Ref sig .tc := ⟨.hbm, 154, rfl⟩
abbrev main_c_34 : Ref sig .tc := ⟨.hbm, 155, rfl⟩
abbrev main_v81 : Ref sig .tc := ⟨.hbm, 156, rfl⟩
abbrev main_v82 : Ref sig .tc := ⟨.hbm, 157, rfl⟩
abbrev main_c_35 : Ref sig .tc := ⟨.hbm, 158, rfl⟩
abbrev main_v83 : Ref sig .tc := ⟨.hbm, 159, rfl⟩
abbrev main_v84 : Ref sig .tc := ⟨.hbm, 160, rfl⟩
abbrev main_c_36 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_c_37 : Ref sig .tc := ⟨.hbm, 165, rfl⟩
abbrev main_v88 : Ref sig .tc := ⟨.hbm, 166, rfl⟩
abbrev main_v89 : Ref sig .tc := ⟨.hbm, 167, rfl⟩
abbrev main_c_38 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_c_39 : Ref sig .tc := ⟨.hbm, 172, rfl⟩
abbrev main_v93 : Ref sig .tc := ⟨.hbm, 173, rfl⟩
abbrev main_v94 : Ref sig .tc := ⟨.hbm, 174, rfl⟩
abbrev main_c_40 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_c_41 : Ref sig .tc := ⟨.hbm, 179, rfl⟩
abbrev main_v98 : Ref sig .tc := ⟨.hbm, 180, rfl⟩
abbrev main_v99 : Ref sig .tc := ⟨.hbm, 181, rfl⟩
abbrev main_c_42 : Ref sig .tc := ⟨.hbm, 182, rfl⟩
abbrev main_v100 : Ref sig .tc := ⟨.hbm, 183, rfl⟩
abbrev main_v101 : Ref sig .tc := ⟨.hbm, 184, rfl⟩
abbrev main_c_43 : Ref sig .tc := ⟨.hbm, 185, rfl⟩
abbrev main_v102 : Ref sig .tc := ⟨.hbm, 186, rfl⟩
abbrev main_v103 : Ref sig .tc := ⟨.hbm, 187, rfl⟩
abbrev main_c_44 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_c_45 : Ref sig .tc := ⟨.hbm, 192, rfl⟩
abbrev main_v107 : Ref sig .tc := ⟨.hbm, 193, rfl⟩
abbrev main_v108 : Ref sig .tc := ⟨.hbm, 194, rfl⟩
abbrev main_c_46 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_c_47 : Ref sig .tc := ⟨.hbm, 199, rfl⟩
abbrev main_v112 : Ref sig .tc := ⟨.hbm, 200, rfl⟩
abbrev main_v113 : Ref sig .tc := ⟨.hbm, 201, rfl⟩
abbrev main_c_48 : Ref sig .tc := ⟨.hbm, 202, rfl⟩
abbrev main_v114 : Ref sig .tc := ⟨.hbm, 203, rfl⟩
abbrev main_v115 : Ref sig .tc := ⟨.hbm, 204, rfl⟩
abbrev main_v116 : Ref sig .tc := ⟨.hbm, 205, rfl⟩
abbrev main_c_49 : Ref sig .tc := ⟨.hbm, 206, rfl⟩
abbrev main_v117 : Ref sig .tc := ⟨.hbm, 207, rfl⟩
abbrev main_v118 : Ref sig .tc := ⟨.hbm, 208, rfl⟩
abbrev main_c_50 : Ref sig .tc := ⟨.hbm, 209, rfl⟩
abbrev main_v119 : Ref sig .tc := ⟨.hbm, 210, rfl⟩
abbrev main_v120 : Ref sig .tc := ⟨.hbm, 211, rfl⟩
abbrev main_c_51 : Ref sig .tc := ⟨.hbm, 212, rfl⟩
abbrev main_v121 : Ref sig .tc := ⟨.hbm, 213, rfl⟩
abbrev main_v122 : Ref sig .tc := ⟨.hbm, 214, rfl⟩
abbrev main_c_52 : Ref sig .tc := ⟨.hbm, 215, rfl⟩
abbrev main_v123 : Ref sig .tc := ⟨.hbm, 216, rfl⟩
abbrev main_v124 : Ref sig .tc := ⟨.hbm, 217, rfl⟩
abbrev main_v125 : Ref sig .tc := ⟨.hbm, 218, rfl⟩
abbrev main_c_53 : Ref sig .tc := ⟨.hbm, 219, rfl⟩
abbrev main_v126 : Ref sig .tc := ⟨.hbm, 220, rfl⟩
abbrev main_v127 : Ref sig .tc := ⟨.hbm, 221, rfl⟩
abbrev main_c_54 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_c_55 : Ref sig .tc := ⟨.hbm, 226, rfl⟩
abbrev main_v131 : Ref sig .tc := ⟨.hbm, 227, rfl⟩
abbrev main_v132 : Ref sig .tc := ⟨.hbm, 228, rfl⟩
abbrev main_c_56 : Ref sig .tc := ⟨.hbm, 229, rfl⟩
abbrev main_v133 : Ref sig .tc := ⟨.hbm, 230, rfl⟩
abbrev main_v134 : Ref sig .tc := ⟨.hbm, 231, rfl⟩
abbrev main_v135 : Ref sig .tc := ⟨.hbm, 232, rfl⟩
abbrev main_c_57 : Ref sig .tc := ⟨.hbm, 233, rfl⟩
abbrev main_v136 : Ref sig .tc := ⟨.hbm, 234, rfl⟩
abbrev main_v137 : Ref sig .tc := ⟨.hbm, 235, rfl⟩
abbrev main_c_58 : Ref sig .tc := ⟨.hbm, 236, rfl⟩
abbrev main_v138 : Ref sig .tc := ⟨.hbm, 237, rfl⟩
abbrev main_v139 : Ref sig .tc := ⟨.hbm, 238, rfl⟩
abbrev main_c_59 : Ref sig .tc := ⟨.hbm, 239, rfl⟩
abbrev main_v140 : Ref sig .tc := ⟨.hbm, 240, rfl⟩
abbrev main_v141 : Ref sig .tc := ⟨.hbm, 241, rfl⟩
abbrev main_c_60 : Ref sig .tc := ⟨.hbm, 242, rfl⟩
abbrev main_v142 : Ref sig .tc := ⟨.hbm, 243, rfl⟩
abbrev main_v143 : Ref sig .tc := ⟨.hbm, 244, rfl⟩
abbrev main_v144 : Ref sig .tc := ⟨.hbm, 245, rfl⟩
abbrev main_c_61 : Ref sig .tc := ⟨.hbm, 246, rfl⟩
abbrev main_v145 : Ref sig .tc := ⟨.hbm, 247, rfl⟩
abbrev main_v146 : Ref sig .tc := ⟨.hbm, 248, rfl⟩
abbrev main_c_62 : Ref sig .tc := ⟨.hbm, 249, rfl⟩
abbrev main_v147 : Ref sig .tc := ⟨.hbm, 250, rfl⟩
abbrev main_v148 : Ref sig .tc := ⟨.hbm, 251, rfl⟩
abbrev main_v149 : Ref sig .tc := ⟨.hbm, 252, rfl⟩
abbrev main_c_63 : Ref sig .tc := ⟨.hbm, 253, rfl⟩
abbrev main_v150 : Ref sig .tc := ⟨.hbm, 254, rfl⟩
abbrev main_v151 : Ref sig .tc := ⟨.hbm, 255, rfl⟩
abbrev main_c_64 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_c_65 : Ref sig .tc := ⟨.hbm, 260, rfl⟩
abbrev main_v155 : Ref sig .tc := ⟨.hbm, 261, rfl⟩
abbrev main_v156 : Ref sig .tc := ⟨.hbm, 262, rfl⟩
abbrev main_c_66 : Ref sig .tc := ⟨.hbm, 263, rfl⟩
abbrev main_v157 : Ref sig .tc := ⟨.hbm, 264, rfl⟩
abbrev main_v158 : Ref sig .tc := ⟨.hbm, 265, rfl⟩
abbrev main_c_67 : Ref sig .tc := ⟨.hbm, 266, rfl⟩
abbrev main_v159 : Ref sig .tc := ⟨.hbm, 267, rfl⟩
abbrev main_v160 : Ref sig .tc := ⟨.hbm, 268, rfl⟩
abbrev main_c_68 : Ref sig .tc := ⟨.hbm, 269, rfl⟩
abbrev main_v161 : Ref sig .tc := ⟨.hbm, 270, rfl⟩
abbrev main_v162 : Ref sig .tc := ⟨.hbm, 271, rfl⟩
abbrev main_v163 : Ref sig .tc := ⟨.hbm, 272, rfl⟩
abbrev main_c_69 : Ref sig .tc := ⟨.hbm, 273, rfl⟩
abbrev main_v164 : Ref sig .tc := ⟨.hbm, 274, rfl⟩
abbrev main_v165 : Ref sig .tc := ⟨.hbm, 275, rfl⟩
abbrev main_c_70 : Ref sig .tc := ⟨.hbm, 276, rfl⟩
abbrev main_v166 : Ref sig .tc := ⟨.hbm, 277, rfl⟩
abbrev main_v167 : Ref sig .tc := ⟨.hbm, 278, rfl⟩
abbrev main_v168 : Ref sig .tc := ⟨.hbm, 279, rfl⟩
abbrev main_c_71 : Ref sig .tc := ⟨.hbm, 280, rfl⟩
abbrev main_v169 : Ref sig .tc := ⟨.hbm, 281, rfl⟩
abbrev main_v170 : Ref sig .tc := ⟨.hbm, 282, rfl⟩
abbrev main_c_72 : Ref sig .tc := ⟨.hbm, 283, rfl⟩
abbrev main_v171 : Ref sig .tc := ⟨.hbm, 284, rfl⟩
abbrev main_v172 : Ref sig .tc := ⟨.hbm, 285, rfl⟩
abbrev main_v173 : Ref sig .tc := ⟨.hbm, 286, rfl⟩
abbrev main_v174 : Ref sig .tc := ⟨.hbm, 287, rfl⟩
abbrev main_v175 : Ref sig .tc := ⟨.hbm, 288, rfl⟩
abbrev main_v176 : Ref sig .tc := ⟨.hbm, 289, rfl⟩
abbrev main_v177 : Ref sig .tc := ⟨.hbm, 290, rfl⟩
abbrev main_v178 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_v183 : Ref sig .tc := ⟨.hbm, 296, rfl⟩
abbrev main_v184 : Ref sig .tc := ⟨.hbm, 297, rfl⟩
abbrev main_v185 : Ref sig .tc := ⟨.hbm, 298, rfl⟩
abbrev main_v186 : Ref sig .tc := ⟨.hbm, 299, rfl⟩
abbrev main_v187 : Ref sig .tc := ⟨.hbm, 300, rfl⟩
abbrev main_v188 : Ref sig .tc := ⟨.hbm, 301, rfl⟩
abbrev main_v189 : Ref sig .tc := ⟨.hbm, 302, rfl⟩
abbrev main_c_73 : Ref sig .tc := ⟨.hbm, 303, rfl⟩
abbrev main_call2_v0 : Ref sig .tc := ⟨.hbm, 304, rfl⟩
abbrev main_v190 : Ref sig .tc := ⟨.hbm, 305, rfl⟩
abbrev main_v191 : Ref sig .tc := ⟨.hbm, 306, rfl⟩
abbrev main_v192 : Ref sig .tc := ⟨.hbm, 307, rfl⟩
abbrev main_v193_0 : Ref sig .tc := ⟨.hbm, 308, rfl⟩
abbrev main_v193_1 : Ref sig .tc := ⟨.hbm, 309, rfl⟩
abbrev main_v194 : Ref sig .tc := ⟨.hbm, 310, rfl⟩
abbrev main_v195 : Ref sig .tc := ⟨.hbm, 311, rfl⟩
abbrev main_v196 : Ref sig .tc := ⟨.hbm, 312, rfl⟩
abbrev main_v197 : Ref sig .tc := ⟨.hbm, 313, rfl⟩
abbrev main_v198 : Ref sig .tc := ⟨.hbm, 314, rfl⟩
abbrev main_v199 : Ref sig .tc := ⟨.hbm, 315, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v486 : BitVec 1 := Scalar.cmpi .eq arg1 c31_i32
  let v487 : BitVec 32 := Scalar.extui v486
  let c0_i32_276 : BitVec 32 := 0#32
  let v488 : BitVec 1 := Scalar.cmpi .ne v487 c0_i32_276
  v488

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .vmem S9x2304 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x64x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2x192x1160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x64x576 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x64x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x64x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bcast_S_S576 : S_.BroadcastsInDim S576 (![] : Fin 0 → Fin S576.rank)
  bcast_S576_S1x576_1 : S576.BroadcastsInDim S1x576 (![1] : Fin 1 → Fin S1x576.rank)
  concatenates_S1x576_S1x576_S1x576_S1x576_S1x576_S1x576_S1x576_S1x576_S1x576_S9x576_d0 : Shape.Concatenates [S1x576, S1x576, S1x576, S1x576, S1x576, S1x576, S1x576, S1x576, S1x576] S9x576 0
  shapeCasts_S9x576_S1x9x1x576 : S9x576.ShapeCasts S1x9x1x576
  bcast_S1x9x1x576_S1x9x4x576_0_1_2_3 : S1x9x1x576.BroadcastsInDim S1x9x4x576 (![0, 1, 2, 3] : Fin 4 → Fin S1x9x4x576.rank)
  shapeCasts_S1x9x4x576_S9x2304 : S1x9x4x576.ShapeCasts S9x2304
  transposes_S32x8x32x24x24_S8x32x32x24x24_1_0_2_3_4 : S32x8x32x24x24.Transposes [1, 0, 2, 3, 4] S8x32x32x24x24
  shapeCasts_S8x32x32x24x24_S2x4x32x32x576 : S8x32x32x24x24.ShapeCasts S2x4x32x32x576
  pads_S2x4x32x32x576_S2x4x32x64x576_000_000_000_0320_000 : S2x4x32x32x576.Pads (![0, 0, 0, 0, 0] : Fin 5 → Nat) ![0, 0, 0, 32, 0] ![0, 0, 0, 0, 0] S2x4x32x64x576
  h_S_ : 0 < S_.numel
  transposes_S2x4x32x64x576_S2x32x64x4x576_0_2_3_1_4 : S2x4x32x64x576.Transposes [0, 2, 3, 1, 4] S2x32x64x4x576
  shapeCasts_S2x32x64x4x576_S2x32x64x2304 : S2x32x64x4x576.ShapeCasts S2x32x64x2304
  inb_S2x64x2304_S2x64x2304_0_0_0 : ∀ a, (![0, 0, 0] : Fin 3 → Nat) a + S2x64x2304.size a ≤ S2x64x2304.size a
  h_S2x64x2304 : 0 < S2x64x2304.numel
  shapeCasts_S2x64x2304_S2x64x2304 : S2x64x2304.ShapeCasts S2x64x2304
  inb_S1160x2304_S1160x2304_0_0 : ∀ a, (![0, 0] : Fin 2 → Nat) a + S1160x2304.size a ≤ S1160x2304.size a
  h_S1160x2304 : 0 < S1160x2304.numel
  shapeCasts_S1160x2304_S1160x2304 : S1160x2304.ShapeCasts S1160x2304
  inb_S576x2304_S576x2304_0_0 : ∀ a, (![0, 0] : Fin 2 → Nat) a + S576x2304.size a ≤ S576x2304.size a
  h_S576x2304 : 0 < S576x2304.numel
  shapeCasts_S576x2304_S576x2304 : S576x2304.ShapeCasts S576x2304
  inb_S1160x2304_S1x2304_1152_0 : ∀ a, (![1152, 0] : Fin 2 → Nat) a + S1x2304.size a ≤ S1160x2304.size a
  h_S1x2304 : 0 < S1x2304.numel
  shapeCasts_S1x2304_S1x2304 : S1x2304.ShapeCasts S1x2304
  inb_S1x1x64x2304_S1x1x64x2304_0_0_0_0 : ∀ a, (![0, 0, 0, 0] : Fin 4 → Nat) a + S1x1x64x2304.size a ≤ S1x1x64x2304.size a
  h_S1x1x64x2304 : 0 < S1x1x64x2304.numel
  shapeCasts_S1x1x64x2304_S64x2304 : S1x1x64x2304.ShapeCasts S64x2304
  inb_S2x64x2304_S1x64x2304_0_0_0 : ∀ a, (![0, 0, 0] : Fin 3 → Nat) a + S1x64x2304.size a ≤ S2x64x2304.size a
  h_S1x64x2304 : 0 < S1x64x2304.numel
  shapeCasts_S1x64x2304_S64x2304 : S1x64x2304.ShapeCasts S64x2304
  rotates_S64x2304_d1 : S64x2304.Rotates 1 none
  inb_S9x2304_S1x2304_0_0 : ∀ a, (![0, 0] : Fin 2 → Nat) a + S1x2304.size a ≤ S9x2304.size a
  broadcasts_S1x2304_S64x2304 : S1x2304.Broadcasts S64x2304
  inb_S1160x2304_S64x2304_0_0 : ∀ a, (![0, 0] : Fin 2 → Nat) a + S64x2304.size a ≤ S1160x2304.size a
  h_S64x2304 : 0 < S64x2304.numel
  shapeCasts_S64x2304_S64x2304 : S64x2304.ShapeCasts S64x2304
  inb_S1160x2304_S64x2304_64_0 : ∀ a, (![64, 0] : Fin 2 → Nat) a + S64x2304.size a ≤ S1160x2304.size a
  inb_S9x2304_S1x2304_1_0 : ∀ a, (![1, 0] : Fin 2 → Nat) a + S1x2304.size a ≤ S9x2304.size a
  inb_S1160x2304_S64x2304_128_0 : ∀ a, (![128, 0] : Fin 2 → Nat) a + S64x2304.size a ≤ S1160x2304.size a
  inb_S1160x2304_S64x2304_192_0 : ∀ a, (![192, 0] : Fin 2 → Nat) a + S64x2304.size a ≤ S1160x2304.size a
  inb_S9x2304_S1x2304_2_0 : ∀ a, (![2, 0] : Fin 2 → Nat) a + S1x2304.size a ≤ S9x2304.size a
  inb_S1160x2304_S64x2304_256_0 : ∀ a, (![256, 0] : Fin 2 → Nat) a + S64x2304.size a ≤ S1160x2304.size a
  inb_S1160x2304_S64x2304_320_0 : ∀ a, (![320, 0] : Fin 2 → Nat) a + S64x2304.size a ≤ S1160x2304.size a
  inb_S9x2304_S1x2304_3_0 : ∀ a, (![3, 0] : Fin 2 → Nat) a + S1x2304.size a ≤ S9x2304.size a
  inb_S1160x2304_S64x2304_384_0 : ∀ a, (![384, 0] : Fin 2 → Nat) a + S64x2304.size a ≤ S1160x2304.size a
  inb_S1160x2304_S64x2304_448_0 : ∀ a, (![448, 0] : Fin 2 → Nat) a + S64x2304.size a ≤ S1160x2304.size a
  inb_S9x2304_S1x2304_4_0 : ∀ a, (![4, 0] : Fin 2 → Nat) a + S1x2304.size a ≤ S9x2304.size a
  inb_S1160x2304_S64x2304_512_0 : ∀ a, (![512, 0] : Fin 2 → Nat) a + S64x2304.size a ≤ S1160x2304.size a
  inb_S1160x2304_S64x2304_576_0 : ∀ a, (![576, 0] : Fin 2 → Nat) a + S64x2304.size a ≤ S1160x2304.size a
  inb_S9x2304_S1x2304_5_0 : ∀ a, (![5, 0] : Fin 2 → Nat) a + S1x2304.size a ≤ S9x2304.size a
  inb_S1160x2304_S64x2304_640_0 : ∀ a, (![640, 0] : Fin 2 → Nat) a + S64x2304.size a ≤ S1160x2304.size a
  inb_S1160x2304_S64x2304_704_0 : ∀ a, (![704, 0] : Fin 2 → Nat) a + S64x2304.size a ≤ S1160x2304.size a
  inb_S9x2304_S1x2304_6_0 : ∀ a, (![6, 0] : Fin 2 → Nat) a + S1x2304.size a ≤ S9x2304.size a
  inb_S1160x2304_S64x2304_768_0 : ∀ a, (![768, 0] : Fin 2 → Nat) a + S64x2304.size a ≤ S1160x2304.size a
  inb_S1160x2304_S64x2304_832_0 : ∀ a, (![832, 0] : Fin 2 → Nat) a + S64x2304.size a ≤ S1160x2304.size a
  inb_S9x2304_S1x2304_7_0 : ∀ a, (![7, 0] : Fin 2 → Nat) a + S1x2304.size a ≤ S9x2304.size a
  inb_S1160x2304_S64x2304_896_0 : ∀ a, (![896, 0] : Fin 2 → Nat) a + S64x2304.size a ≤ S1160x2304.size a
  inb_S1160x2304_S64x2304_960_0 : ∀ a, (![960, 0] : Fin 2 → Nat) a + S64x2304.size a ≤ S1160x2304.size a
  inb_S9x2304_S1x2304_8_0 : ∀ a, (![8, 0] : Fin 2 → Nat) a + S1x2304.size a ≤ S9x2304.size a
  inb_S1160x2304_S64x2304_1024_0 : ∀ a, (![1024, 0] : Fin 2 → Nat) a + S64x2304.size a ≤ S1160x2304.size a
  inb_S1160x2304_S64x2304_1088_0 : ∀ a, (![1088, 0] : Fin 2 → Nat) a + S64x2304.size a ≤ S1160x2304.size a
  inb_S2x192x1160_S1x192x1160_0_0_0 : ∀ a, (![0, 0, 0] : Fin 3 → Nat) a + S1x192x1160.size a ≤ S2x192x1160.size a
  h_S1x192x1160 : 0 < S1x192x1160.numel
  shapeCasts_S1x192x1160_S192x1160 : S1x192x1160.ShapeCasts S192x1160
  slices_S192x2304_o0_0_S64x2304 : S192x2304.Slices ![0, 0] S64x2304
  slices_S192x2304_o64_0_S64x2304 : S192x2304.Slices ![64, 0] S64x2304
  slices_S192x2304_o128_0_S64x2304 : S192x2304.Slices ![128, 0] S64x2304
  inb_S576x2304_S64x2304_0_0 : ∀ a, (![0, 0] : Fin 2 → Nat) a + S64x2304.size a ≤ S576x2304.size a
  inb_S576x2304_S64x2304_64_0 : ∀ a, (![64, 0] : Fin 2 → Nat) a + S64x2304.size a ≤ S576x2304.size a
  inb_S576x2304_S64x2304_128_0 : ∀ a, (![128, 0] : Fin 2 → Nat) a + S64x2304.size a ≤ S576x2304.size a
  inb_S576x2304_S64x2304_192_0 : ∀ a, (![192, 0] : Fin 2 → Nat) a + S64x2304.size a ≤ S576x2304.size a
  inb_S576x2304_S64x2304_256_0 : ∀ a, (![256, 0] : Fin 2 → Nat) a + S64x2304.size a ≤ S576x2304.size a
  inb_S576x2304_S64x2304_320_0 : ∀ a, (![320, 0] : Fin 2 → Nat) a + S64x2304.size a ≤ S576x2304.size a
  inb_S576x2304_S64x2304_384_0 : ∀ a, (![384, 0] : Fin 2 → Nat) a + S64x2304.size a ≤ S576x2304.size a
  inb_S576x2304_S64x2304_448_0 : ∀ a, (![448, 0] : Fin 2 → Nat) a + S64x2304.size a ≤ S576x2304.size a
  inb_S576x2304_S64x2304_512_0 : ∀ a, (![512, 0] : Fin 2 → Nat) a + S64x2304.size a ≤ S576x2304.size a
  inb_S2x64x576_S1x64x576_0_0_0 : ∀ a, (![0, 0, 0] : Fin 3 → Nat) a + S1x64x576.size a ≤ S2x64x576.size a
  h_S1x64x576 : 0 < S1x64x576.numel
  shapeCasts_S1x64x576_S64x576 : S1x64x576.ShapeCasts S64x576
  shapeCasts_S64x2304_S1x64x2304 : S64x2304.ShapeCasts S1x64x2304
  inb_S2x64x2304_S1x64x2304_1_0_0 : ∀ a, (![1, 0, 0] : Fin 3 → Nat) a + S1x64x2304.size a ≤ S2x64x2304.size a
  inb_S2x192x1160_S1x192x1160_1_0_0 : ∀ a, (![1, 0, 0] : Fin 3 → Nat) a + S1x192x1160.size a ≤ S2x192x1160.size a
  inb_S2x64x576_S1x64x576_1_0_0 : ∀ a, (![1, 0, 0] : Fin 3 → Nat) a + S1x64x576.size a ≤ S2x64x576.size a
  shapeCasts_S64x2304_S1x1x64x2304 : S64x2304.ShapeCasts S1x1x64x2304
  inb_S1x2x64x2304_S1x1x64x2304_0_0_0_0 : ∀ a, (![0, 0, 0, 0] : Fin 4 → Nat) a + S1x1x64x2304.size a ≤ S1x2x64x2304.size a
  inb_S1x2x64x2304_S1x1x64x2304_0_1_0_0 : ∀ a, (![0, 1, 0, 0] : Fin 4 → Nat) a + S1x1x64x2304.size a ≤ S1x2x64x2304.size a
  shapeCasts_S2x32x64x2304_S2x32x64x4x576 : S2x32x64x2304.ShapeCasts S2x32x64x4x576
  transposes_S2x32x64x4x576_S32x2x4x64x576_1_0_3_2_4 : S2x32x64x4x576.Transposes [1, 0, 3, 2, 4] S32x2x4x64x576
  shapeCasts_S32x2x4x64x576_S32x8x64x24x24 : S32x2x4x64x576.ShapeCasts S32x8x64x24x24
  shapeCasts_S2x2x64x2304_S2x2x64x4x576 : S2x2x64x2304.ShapeCasts S2x2x64x4x576
  transposes_S2x2x64x4x576_S2x4x2x64x576_0_3_1_2_4 : S2x2x64x4x576.Transposes [0, 3, 1, 2, 4] S2x4x2x64x576
  shapeCasts_S2x4x2x64x576_S8x2x64x24x24 : S2x4x2x64x576.ShapeCasts S8x2x64x24x24
  dot_S192x1160_S1160x2304_S192x2304_1_0_0_1_n_n_wf : DotDims.WF S192x1160 S1160x2304 S192x2304 [1] [0] [0] [1] [] []
  dot_S64x576_S576x2304_S64x2304_1_0_0_1_n_n_wf : DotDims.WF S64x576 S576x2304 S64x2304 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S9x2304.size a ≤ S9x2304.size a
  hwx0_0 : ∀ i : grid0.Coords, EltTy.bits .f32 = 32 ∨ (Rect.block (s := S9x2304) S9x2304.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x64x2304.size a ≤ S2x32x64x2304.size a
  hwx0_1 : ∀ i : grid0.Coords, EltTy.bits .f32 = 32 ∨ (Rect.block (s := S2x32x64x2304) S1x1x64x2304.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x192x1160.size a ≤ S2x192x1160.size a
  hwx0_2 : ∀ i : grid0.Coords, EltTy.bits .f32 = 32 ∨ (Rect.block (s := S2x192x1160) S2x192x1160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x64x576.size a ≤ S2x64x576.size a
  hwx0_3 : ∀ i : grid0.Coords, EltTy.bits .f32 = 32 ∨ (Rect.block (s := S2x64x576) S2x64x576.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64x2304.size a ≤ S2x32x64x2304.size a
  hwx0_4 : ∀ i : grid0.Coords, EltTy.bits .f32 = 32 ∨ (Rect.block (s := S2x32x64x2304) S1x1x64x2304.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x64x2304.size a ≤ S2x2x64x2304.size a
  hwx0_5 : ∀ i : grid0.Coords, EltTy.bits .f32 = 32 ∨ (Rect.block (s := S2x2x64x2304) S1x2x64x2304.size (cc0_transform_5 i) (hinb0_5 i)).WholeWords (EltTy.packing .f32)

variable [Facts₀]

def dot_S192x1160_S1160x2304_S192x2304_1_0_0_1_n_n : DotDims S192x1160 S1160x2304 S192x2304 where
  lhsContracting := [1]
  rhsContracting := [0]
  lhsNonContracting := [0]
  rhsNonContracting := [1]
  lhsBatch := []
  rhsBatch := []
  wf := dot_S192x1160_S1160x2304_S192x2304_1_0_0_1_n_n_wf
def dot_S64x576_S576x2304_S64x2304_1_0_0_1_n_n : DotDims S64x576 S576x2304 S64x2304 where
  lhsContracting := [1]
  rhsContracting := [0]
  lhsNonContracting := [0]
  rhsNonContracting := [1]
  lhsBatch := []
  rhsBatch := []
  wf := dot_S64x576_S576x2304_S64x2304_1_0_0_1_n_n_wf

abbrev win0_0 : Pipeline.Window sig grid0 :=
  Pipeline.Window.ofSpec (Memref.whole main_v187) S9x2304.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v192) S1x1x64x2304.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S2x192x1160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S2x64x576.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v193_0) S1x1x64x2304.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v193_1) S1x2x64x2304.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== Proof.BKit.lean ====
/-
  The launch side of the frame of this program, written against the pipeline library's launch theorems:
  @main is five stretches of host operations (the weight repacking — slices and concatenates of the two weight
  arrays —, the nine boundary masks computed from an iota, the reshape of the input), one pipelined region on
  the grid (2, 32), and two reshapes of the region's results.  Here: the buffer contents the region finds
  (the valuation after the host operations before it), that no host operation writes an argument array,
  each window's block at a grid point read off its array, the input windows' staging buffers at their
  blocks at every point, and the frame claim's post from a run of the pipeline to the library's post.
-/
import proofs.«175272_g2000206920649175_pallasbulk_1279_5_alg».proof.Proof.Gen.Kernel.Launch
import proofs.«175272_g2000206920649175_pallasbulk_1279_5_alg».proof.Proof.Gen.Kernel.Skeleton
import proofs.«175272_g2000206920649175_pallasbulk_1279_5_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the stretches of host operations
    before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- For any proof data whose arrays are the region-entry contents, a run to the library's post, read at the three
    argument arrays (an array of the pipeline staged as an input ends as the region found it; any other buffer ends
    as the host operations after the region leave it; no host operation writes an argument), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.Kernel.Hand

end
-- ==== Proof.BRuns.lean ====
/-
  What the three runs of the convolutional-GRU step kernel share.

  The kernel is launched on the grid (2, 32): coordinate 0 is the batch block, coordinate 1 the time step t.
  Its body branches twice on t alone: at t = 0 it initialises the carried state (the hidden state to zero, the
  first sixteen rows of the patch matrix to zero and then row 0 to one), and at t = 31 it also writes the final
  hidden state out.  So a point of the grid is in one of three cases: the first step (A), a middle step (B), the
  last step (C).  Here: the two conditions as propositions over the grid coordinates, their closed forms over the
  linear point index (t is the index modulo 32), and the names of the staging and scratch memrefs the body is
  called with.
-/
import proofs.«175272_g2000206920649175_pallasbulk_1279_5_alg».proof.Proof.Gen.Kernel.Launch
import proofs.«175272_g2000206920649175_pallasbulk_1279_5_alg».proof.Proof.Gen.Kernel.Skeleton
import proofs.«175272_g2000206920649175_pallasbulk_1279_5_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two branch conditions -/

/-- The first branch is taken when the time coordinate is 0: the comparison chain the body computes from the
    coordinate, as a proposition. -/
abbrev cond0_0 (i : grid0.Coords) : Prop :=
  (Scalar.cmpi .ne (Scalar.extui (Scalar.cmpi .eq (BitVec.ofNat 32 (i 1).val) 0#32)) 0#32) = 1#1
/-- Over the 64 points in row-major order the time coordinate is the index modulo 32: the first branch is taken
    exactly at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The second branch is taken when the time coordinate is 31 (the last step). -/
abbrev cond0_1 (i : grid0.Coords) : Prop := k0_cond2 i = 1#1
/-- It is taken exactly at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-- The three cases in closed form: the first step. -/
theorem caseA_iff (t : Fin cfg0.N) : (cond0_0 (grid0.coords t) ∧ ¬cond0_1 (grid0.coords t)) ↔ t.val % 32 = 0 := by
  rw [hcond0_0, hcond0_1]; omega
/-- A middle step. -/
theorem caseB_iff (t : Fin cfg0.N) :
    (¬cond0_0 (grid0.coords t) ∧ ¬cond0_1 (grid0.coords t)) ↔ (t.val % 32 ≠ 0 ∧ t.val % 32 ≠ 31) := by
  rw [hcond0_0, hcond0_1]
/-- The last step. -/
theorem caseC_iff (t : Fin cfg0.N) : (¬cond0_0 (grid0.coords t) ∧ cond0_1 (grid0.coords t)) ↔ t.val % 32 = 31 := by
  rw [hcond0_0, hcond0_1]; omega

/-! ## Where the second output window is idle -/

/-- The final-state output (window 6) is idle away from the last step: the body stores nothing into it there. -/
theorem idleAt0_6 : ∀ t : Fin cfg0.N, ¬cond0_1 (grid0.coords t) → cfg0.idle 6 (grid0.coords t) = true := by decide +kernel
/-- And it is not written back there. -/
theorem noFlush0_6 : ∀ t : Fin cfg0.N, ¬cond0_1 (grid0.coords t) → (cfg0.win 6).flush t = false := by decide +kernel
/-- At the last step it is live. -/
theorem liveAt0_6 : ∀ t : Fin cfg0.N, cond0_1 (grid0.coords t) → cfg0.idle 6 (grid0.coords t) = false := by decide +kernel

/-! ## The memrefs the body is called with -/

/-- Each window's current staging memref at point `t`, spelled as the pipeline passes it to the body, and its
    wholeness. -/
abbrev ms0_0 (t : Fin cfg0.N) : Memref sig .tc .vmem S16x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x32x576 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x1168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x576 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x64x576 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x2x64x576 .f32 := win0_6.stage (cfg0.slots t 6)
abbrev hs0_6 (t : Fin cfg0.N) : (ms0_6 t).IsWhole := hstage0_6 ((cfg0.slots t 6).cast nbuf0_6)

/-- The three scratch operands: whole buffers of the kernel's own, carried from point to point. The hidden state of
    both layers, the patch matrix the two convolutions multiply, and the patch matrix of the recurrent update. -/
abbrev scM0_0 : Memref sig .tc .vmem S2x64x2304 .f32 := Memref.whole cc0_scratch0
abbrev scM0_1 : Memref sig .tc .vmem S1168x2304 .bf16 := Memref.whole cc0_scratch1
abbrev scM0_2 : Memref sig .tc .vmem S576x2304 .bf16 := Memref.whole cc0_scratch2
/-- The same as views: what each holds is stated through its view. -/
abbrev VS0_0 : View sig .tc .vmem S2x64x2304 .f32 := scM0_0.view
abbrev VS0_1 : View sig .tc .vmem S1168x2304 .bf16 := scM0_1.view
abbrev VS0_2 : View sig .tc .vmem S576x2304 .bf16 := scM0_2.view

/-- One staging buffer of each output window, through which its contents are stated (the choice of buffer does not
    matter: what is read back through a covering list of pieces does not depend on the view). -/
abbrev VO0_5 : View sig .tc .vmem S1x1x4x64x576 .f32 := (Memref.whole cc0_stg5_0 : Memref sig .tc .vmem S1x1x4x64x576 .f32).view
abbrev VO0_6 : View sig .tc .vmem S1x4x2x64x576 .f32 := (Memref.whole cc0_stg6_0 : Memref sig .tc .vmem S1x4x2x64x576 .f32).view

end Cert.Kernel.HandRun

end
-- ==== Proof.BRunB.lean ====
/-
  The whole-body run of the step kernel at a MIDDLE time step (0 < t < 31): neither branch is taken.

  The body reads the five input blocks, the hidden state and the patch matrix carried from the step before, and
  stores: the output block (four stores tiling it), the hidden state (one slab per layer), the patch rows from row
  16 on (nine slabs per layer; rows 0 to 15, set at the first step, are kept), and the recurrent patch matrix (nine
  slabs, twice).  The final-state output is not touched.  What each buffer ends with is a list of stored pieces
  (last first) that the symbolic run finds; the statement hands every buffer back with its pieces written over the
  contents it came with.
-/
import proofs.«175272_g2000206920649175_pallasbulk_1279_5_alg».proof.Proof.BRuns

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at a middle step — the output block's, the hidden state's, the patch
    matrix's, the recurrent patch matrix's — WITH the proof that from the inputs at their contents, the output block at
    anything, the final-state output at any contents `xi6` (handed back untouched), and the three carried scratch
    buffers at the contents the step before left, the body runs to its end handing the inputs back as they were and
    each stored buffer with its pieces written over what it held. -/
noncomputable def kernelRun0_B (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x4x64x576 .f32)) (LS0 : List (View.Piece (Elt F) S2x64x2304 .f32)) (LS1 : List (View.Piece (Elt F) S1168x2304 .bf16)), { LS2 : List (View.Piece (Elt F) S576x2304 .bf16) //
      ∀ (xi6 : Vec F S1x4x2x64x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexact HS0
    isplitl [HS1]; · iexact HS1
    iexact HS2

end Cert.Kernel.HandRun

end
-- ==== Proof.BRunA.lean ====
/-
  The whole-body run of the step kernel at the FIRST time step (t = 0): the initialising branch is taken, the
  final-output branch is not.

  The body first sets the carried state: the hidden state of both layers to zero, rows 0 to 15 of the patch matrix
  to zero and then row 0 to one (a store of two rows, the second kept as loaded).  It then runs the step as at every
  point: it stores the output block, the hidden state slab by slab, the patch rows from row 16 on and the recurrent
  patch matrix.  Every scratch buffer is overwritten whole, so nothing of what the scratch held before is read; the
  final-state output is not touched.
-/
import proofs.«175272_g2000206920649175_pallasbulk_1279_5_alg».proof.Proof.BRunB

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at the first step — the output block's, the hidden state's, the patch
    matrix's, the recurrent patch matrix's — WITH the proof that from the inputs at their contents, the output block and
    the three scratch buffers at anything, and the final-state output at any contents `xi6` (handed back untouched), the
    body runs to its end handing the inputs back as they were and each stored buffer with its pieces written. -/
noncomputable def kernelRun0_A (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) :
    Σ' (L5 : List (View.Piece (Elt F) S1x1x4x64x576 .f32)) (LS0 : List (View.Piece (Elt F) S2x64x2304 .f32)) (LS1 : List (View.Piece (Elt F) S1168x2304 .bf16)), { LS2 : List (View.Piece (Elt F) S576x2304 .bf16) //
      ∀ (xi6 : Vec F S1x4x2x64x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexists _; iexact HS0
    isplitl [HS1]; · iexists _; iexact HS1
    iexists _; iexact HS2

end Cert.Kernel.HandRun

end
-- ==== Proof.BSoundA.lean ====
/-
  What the step kernel leaves at the first time step, as READ contents, and its triple stated over them.

  The run of the body (the module this one imports) finds, per stored buffer, the list of pieces it ends with.  A
  buffer whose pieces cover it reads the same whatever it held before, through whichever whole view: its contents
  after the step are the pieces read back over anything.  At the first step every stored buffer is covered.
-/
import proofs.«175272_g2000206920649175_pallasbulk_1279_5_alg».proof.Proof.BRunA

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverA_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S1x1x4x64x576.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).1 S1x1x1x64x576.size (by sl_kernel_rfl) y

/-- The two slab stores into the hidden state, one per layer, tile it (the zeroing store under them is not needed for the cover). -/
theorem scoverA_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S2x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S1x64x2304.size (by sl_kernel_rfl) y

/-- At the first step the patch matrix is covered: rows 0 to 15 by the zeroing store, rows 16 on by the slabs of the second layer's patches (nine of 128 rows). Cut into blocks of 16 rows the pieces tile it. -/
theorem scoverA_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S1168x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 x0 x1 x2 x3 x4).2.2.1 ![16, 2304] (by sl_kernel_rfl) y

/-- The nine slab stores into the recurrent patch matrix tile it (each slab is stored twice; the later store is the one read back). -/
theorem scoverA_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S576x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.1 S64x2304.size (by sl_kernel_rfl) y

/-- What the step leaves in the output block: its pieces read back (they cover it, so over anything). -/
noncomputable def outA_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1x1x4x64x576 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- What the step leaves in the hidden state: its pieces read back. -/
noncomputable def soutA_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S2x64x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- What the first step leaves in the patch matrix: its pieces read back (they cover it). -/
noncomputable def soutA_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1168x2304 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- What the step leaves in the recurrent patch matrix: its pieces read back. -/
noncomputable def soutA_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S576x2304 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

/-- What the step leaves, as read contents: the output block, the hidden state, the patch matrix, the recurrent patch matrix. -/
noncomputable def resA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1x1x4x64x576 .f32 × Vec F S2x64x2304 .f32 × Vec F S1168x2304 .bf16 × Vec F S576x2304 .bf16 :=
  (outA_5 c i arg2 harg2 arg3 harg3 arg4 harg4 arg5 harg5 arg6 harg6 arg7 harg7 arg8 harg8 arg9 harg9 arg10 harg10 arg11 harg11 hc0 hc1 x0 x1 x2 x3 x4, soutA_0 c i arg2 harg2 arg3 harg3 arg4 harg4 arg5 harg5 arg6 harg6 arg7 harg7 arg8 harg8 arg9 harg9 arg10 harg10 arg11 harg11 hc0 hc1 x0 x1 x2 x3 x4, soutA_1 c i arg2 harg2 arg3 harg3 arg4 harg4 arg5 harg5 arg6 harg6 arg7 harg7 arg8 harg8 arg9 harg9 arg10 harg10 arg11 harg11 hc0 hc1 x0 x1 x2 x3 x4, soutA_2 c i arg2 harg2 arg3 harg3 arg4 harg4 arg5 harg5 arg6 harg6 arg7 harg7 arg8 harg8 arg9 harg9 arg10 harg10 arg11 harg11 hc0 hc1 x0 x1 x2 x3 x4)

set_option maxHeartbeats 1000000 in
/-- The step's triple over read contents: from the buffers the body is handed, it runs to its end and hands every buffer
    back at `resA`'s component (the inputs and the idle final-state block as they came). -/
theorem soundA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xi6 : Vec F S1x4x2x64x576 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resA c i arg2 harg2 arg3 harg3 arg4 harg4 arg5 harg5 arg6 harg6 arg7 harg7 arg8 harg8 arg9 harg9 arg10 harg10 arg11 harg11 hc0 hc1 x0 x1 x2 x3 x4).1 ∗ owns (c : Thread nD τ) arg8 fullShare xi6 ∗ owns (c : Thread nD τ) arg9 fullShare (resA c i arg2 harg2 arg3 harg3 arg4 harg4 arg5 harg5 arg6 harg6 arg7 harg7 arg8 harg8 arg9 harg9 arg10 harg10 arg11 harg11 hc0 hc1 x0 x1 x2 x3 x4).2.1 ∗ owns (c : Thread nD τ) arg10 fullShare (resA c i arg2 harg2 arg3 harg3 arg4 harg4 arg5 harg5 arg6 harg6 arg7 harg7 arg8 harg8 arg9 harg9 arg10 harg10 arg11 harg11 hc0 hc1 x0 x1 x2 x3 x4).2.2.1 ∗ owns (c : Thread nD τ) arg11 fullShare (resA c i arg2 harg2 arg3 harg3 arg4 harg4 arg5 harg5 arg6 harg6 arg7 harg7 arg8 harg8 arg9 harg9 arg10 harg10 arg11 harg11 hc0 hc1 x0 x1 x2 x3 x4).2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resA, outA_5, soutA_0, soutA_1, soutA_2]
  iintro ⟨H0, H1, H2, H3, H4, H5, H6, HS0, HS1, HS2, Hk⟩
  iapply ((kernelRun0_A c i arg2 harg2 arg3 harg3 arg4 harg4 arg5 harg5 arg6 harg6 arg7 harg7 arg8 harg8 arg9 harg9 arg10 harg10 arg11 harg11 hc0 hc1 x0 x1 x2 x3 x4).2.2.2.2 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, H6, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA_5 c i arg2 harg2 arg3 harg3 arg4 harg4 arg5 harg5 arg6 harg6 arg7 harg7 arg8 harg8 arg9 harg9 arg10 harg10 arg11 harg11 hc0 hc1 x0 x1 x2 x3 x4)
  isplitl [H6]
  · iexact H6
  isplitl [HS0]
  · unfold owns; iexists _; isplitr
    swap; · iexact HS0
    ipureintro; exact View.read_writes_of_cover _ _ _ _ _ (scoverA_0 c i arg2 harg2 arg3 harg3 arg4 harg4 arg5 harg5 arg6 harg6 arg7 harg7 arg8 harg8 arg9 harg9 arg10 harg10 arg11 harg11 hc0 hc1 x0 x1 x2 x3 x4)
  isplitl [HS1]
  · unfold owns; iexists _; isplitr
    swap; · iexact HS1
    ipureintro; exact View.read_writes_of_cover _ _ _ _ _ (scoverA_1 c i arg2 harg2 arg3 harg3 arg4 harg4 arg5 harg5 arg6 harg6 arg7 harg7 arg8 harg8 arg9 harg9 arg10 harg10 arg11 harg11 hc0 hc1 x0 x1 x2 x3 x4)
  unfold owns; iexists _; isplitr
  swap; · iexact HS2
  ipureintro; exact View.read_writes_of_cover _ _ _ _ _ (scoverA_2 c i arg2 harg2 arg3 harg3 arg4 harg4 arg5 harg5 arg6 harg6 arg7 harg7 arg8 harg8 arg9 harg9 arg10 harg10 arg11 harg11 hc0 hc1 x0 x1 x2 x3 x4)

end Cert.Kernel.HandRun

end
-- ==== Proof.BSoundB.lean ====
/-
  What the step kernel leaves at a middle time step, as READ contents, and its triple stated over them.

  The run of the body (the module this one imports) finds, per stored buffer, the list of pieces it ends with.  A
  buffer whose pieces cover it reads the same whatever it held before, through whichever whole view: its contents
  after the step are the pieces read back over anything.  The patch matrix is not covered (its first sixteen rows are set at the first step only): its contents after the step are the pieces written over what the step before left.
-/
import proofs.«175272_g2000206920649175_pallasbulk_1279_5_alg».proof.Proof.BRunB

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverB_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x1x4x64x576.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1 S1x1x1x64x576.size (by sl_kernel_rfl) y

/-- The two slab stores into the hidden state, one per layer, tile it. -/
theorem scoverB_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S2x64x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1 S1x64x2304.size (by sl_kernel_rfl) y

/-- The nine slab stores into the recurrent patch matrix tile it (each slab is stored twice; the later store is the one read back). -/
theorem scoverB_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S576x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1 S64x2304.size (by sl_kernel_rfl) y

/-- What the step leaves in the output block: its pieces read back (they cover it, so over anything). -/
noncomputable def outB_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1)

/-- What the step leaves in the hidden state: its pieces read back. -/
noncomputable def soutB_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S2x64x2304 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1)

/-- What the step leaves in the patch matrix: its pieces written over what the step before left (rows 0 to 15 are not stored, so they stay). -/
noncomputable def soutB_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1168x2304 .bf16 :=
  arg10.view.read (Elt F) (arg10.view.writes (Elt F) (harg10.unread xs1) (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1)

/-- What the step leaves in the recurrent patch matrix: its pieces read back. -/
noncomputable def soutB_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S576x2304 .bf16 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- What the step leaves, as read contents: the output block, the hidden state, the patch matrix, the recurrent patch matrix. -/
noncomputable def resB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 × Vec F S2x64x2304 .f32 × Vec F S1168x2304 .bf16 × Vec F S576x2304 .bf16 :=
  (outB_5 c i arg2 harg2 arg3 harg3 arg4 harg4 arg5 harg5 arg6 harg6 arg7 harg7 arg8 harg8 arg9 harg9 arg10 harg10 arg11 harg11 hc0 hc1 x0 x1 x2 x3 x4 xs0 xs1 xs2, soutB_0 c i arg2 harg2 arg3 harg3 arg4 harg4 arg5 harg5 arg6 harg6 arg7 harg7 arg8 harg8 arg9 harg9 arg10 harg10 arg11 harg11 hc0 hc1 x0 x1 x2 x3 x4 xs0 xs1 xs2, soutB_1 c i arg2 harg2 arg3 harg3 arg4 harg4 arg5 harg5 arg6 harg6 arg7 harg7 arg8 harg8 arg9 harg9 arg10 harg10 arg11 harg11 hc0 hc1 x0 x1 x2 x3 x4 xs0 xs1 xs2, soutB_2 c i arg2 harg2 arg3 harg3 arg4 harg4 arg5 harg5 arg6 harg6 arg7 harg7 arg8 harg8 arg9 harg9 arg10 harg10 arg11 harg11 hc0 hc1 x0 x1 x2 x3 x4 xs0 xs1 xs2)

set_option maxHeartbeats 1000000 in
/-- The step's triple over read contents: from the buffers the body is handed, it runs to its end and hands every buffer
    back at `resB`'s component (the inputs and the idle final-state block as they came). -/
theorem soundB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (xi6 : Vec F S1x4x2x64x576 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).1 ∗ owns (c : Thread nD τ) arg8 fullShare xi6 ∗ owns (c : Thread nD τ) arg9 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.1 ∗ owns (c : Thread nD τ) arg10 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.2.1 ∗ owns (c : Thread nD τ) arg11 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resB, outB_5, soutB_0, soutB_1, soutB_2]
  iintro ⟨H0, H1, H2, H3, H4, H5, H6, HS0, HS1, HS2, Hk⟩
  iapply ((kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, H6, HS0, HS1, HS2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB_5 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [H6]
  · iexact H6
  isplitl [HS0]
  · unfold owns; iexists _; isplitr
    swap; · iexact HS0
    ipureintro; exact View.read_writes_of_cover _ _ _ _ _ (scoverB_0 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverB_2 c i arg2 harg2 arg3 harg3 arg4 harg4 arg5 harg5 arg6 harg6 arg7 harg7 arg8 harg8 arg9 harg9 arg10 harg10 arg11 harg11 hc0 hc1 x0 x1 x2 x3 x4 xs0 xs1 xs2)

end Cert.Kernel.HandRun

end
-- ==== Proof.BRunC.lean ====
/-
  The whole-body run of the step kernel at the LAST time step (t = 31): the initialising branch is not taken, the
  final-output branch is.

  The body runs the step as at a middle point and then copies the final hidden state of both layers, a quarter of
  the lanes at a time, into the final-state output block: eight stores that tile it.
-/
import proofs.«175272_g2000206920649175_pallasbulk_1279_5_alg».proof.Proof.BRunA

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at the last step — the output block's, the final-state output's, the
    hidden state's, the patch matrix's, the recurrent patch matrix's — WITH the proof that from the inputs at their
    contents, the two output blocks at anything, and the three carried scratch buffers at the contents the step before
    left, the body runs to its end handing the inputs back as they were and each stored buffer with its pieces written
    over what it held. -/
noncomputable def kernelRun0_C (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x4x64x576 .f32)) (L6 : List (View.Piece (Elt F) S1x4x2x64x576 .f32)) (LS0 : List (View.Piece (Elt F) S2x64x2304 .f32)) (LS1 : List (View.Piece (Elt F) S1168x2304 .bf16)), { LS2 : List (View.Piece (Elt F) S576x2304 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexact HS0
    isplitl [HS1]; · iexact HS1
    iexact HS2

end Cert.Kernel.HandRun

end
-- ==== Proof.BSoundC.lean ====
/-
  What the step kernel leaves at the last time step, as READ contents, and its triple stated over them.

  The run of the body (the module this one imports) finds, per stored buffer, the list of pieces it ends with.  A
  buffer whose pieces cover it reads the same whatever it held before, through whichever whole view: its contents
  after the step are the pieces read back over anything.  The patch matrix is not covered (its first sixteen rows are set at the first step only): its contents after the step are the pieces written over what the step before left.
-/
import proofs.«175272_g2000206920649175_pallasbulk_1279_5_alg».proof.Proof.BRunC

set_option maxRecDepth 16384

noncomputable section

namespace Cert.Kernel.HandRun

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverC_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x1x4x64x576.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1 S1x1x1x64x576.size (by sl_kernel_rfl) y

/-- The eight stores into the final-state block, one per layer and quarter of the lanes, tile it. -/
theorem coverC_6 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x4x2x64x576.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1 S1x1x1x64x576.size (by sl_kernel_rfl) y

/-- The two slab stores into the hidden state, one per layer, tile it. -/
theorem scoverC_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S2x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1 S1x64x2304.size (by sl_kernel_rfl) y

/-- The nine slab stores into the recurrent patch matrix tile it (each slab is stored twice; the later store is the one read back). -/
theorem scoverC_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S576x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1 S64x2304.size (by sl_kernel_rfl) y

/-- What the step leaves in the output block: its pieces read back (they cover it, so over anything). -/
noncomputable def outC_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1)

/-- What the last step leaves in the final-state block: its pieces read back. -/
noncomputable def outC_6 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x4x2x64x576 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1)

/-- What the step leaves in the hidden state: its pieces read back. -/
noncomputable def soutC_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S2x64x2304 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1)

/-- What the step leaves in the patch matrix: its pieces written over what the step before left (rows 0 to 15 are not stored, so they stay). -/
noncomputable def soutC_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1168x2304 .bf16 :=
  arg10.view.read (Elt F) (arg10.view.writes (Elt F) (harg10.unread xs1) (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- What the step leaves in the recurrent patch matrix: its pieces read back. -/
noncomputable def soutC_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S576x2304 .bf16 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1)

/-- What the step leaves, as read contents: the output block, the final-state block, the hidden state, the patch matrix, the recurrent patch matrix. -/
noncomputable def resC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 × Vec F S1x4x2x64x576 .f32 × Vec F S2x64x2304 .f32 × Vec F S1168x2304 .bf16 × Vec F S576x2304 .bf16 :=
  (outC_5 c i arg2 harg2 arg3 harg3 arg4 harg4 arg5 harg5 arg6 harg6 arg7 harg7 arg8 harg8 arg9 harg9 arg10 harg10 arg11 harg11 hc0 hc1 x0 x1 x2 x3 x4 xs0 xs1 xs2, outC_6 c i arg2 harg2 arg3 harg3 arg4 harg4 arg5 harg5 arg6 harg6 arg7 harg7 arg8 harg8 arg9 harg9 arg10 harg10 arg11 harg11 hc0 hc1 x0 x1 x2 x3 x4 xs0 xs1 xs2, soutC_0 c i arg2 harg2 arg3 harg3 arg4 harg4 arg5 harg5 arg6 harg6 arg7 harg7 arg8 harg8 arg9 harg9 arg10 harg10 arg11 harg11 hc0 hc1 x0 x1 x2 x3 x4 xs0 xs1 xs2, soutC_1 c i arg2 harg2 arg3 harg3 arg4 harg4 arg5 harg5 arg6 harg6 arg7 harg7 arg8 harg8 arg9 harg9 arg10 harg10 arg11 harg11 hc0 hc1 x0 x1 x2 x3 x4 xs0 xs1 xs2, soutC_2 c i arg2 harg2 arg3 harg3 arg4 harg4 arg5 harg5 arg6 harg6 arg7 harg7 arg8 harg8 arg9 harg9 arg10 harg10 arg11 harg11 hc0 hc1 x0 x1 x2 x3 x4 xs0 xs1 xs2)

set_option maxHeartbeats 1000000 in
/-- The step's triple over read contents: from the buffers the body is handed, it runs to its end and hands every buffer
    back at `resC`'s component (the inputs as they came). -/
theorem soundC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).1 ∗ owns (c : Thread nD τ) arg8 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.1 ∗ owns (c : Thread nD τ) arg9 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.1 ∗ owns (c : Thread nD τ) arg10 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.2.1 ∗ owns (c : Thread nD τ) arg11 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resC, outC_5, outC_6, soutC_0, soutC_1, soutC_2]
  iintro ⟨H0, H1, H2, H3, H4, H5, H6, HS0, HS1, HS2, Hk⟩
  iapply ((kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, ⟨%e6, H6⟩, HS0, HS1, HS2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverC_5 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [H6]
  · unfold owns; iexists _; isplitr
    swap; · iexact H6
    ipureintro; exact View.read_writes_of_cover _ _ _ _ _ (coverC_6 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS0]
  · unfold owns; iexists _; isplitr
    swap; · iexact HS0
    ipureintro; exact View.read_writes_of_cover _ _ _ _ _ (scoverC_0 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverC_2 c i arg2 harg2 arg3 harg3 arg4 harg4 arg5 harg5 arg6 harg6 arg7 harg7 arg8 harg8 arg9 harg9 arg10 harg10 arg11 harg11 hc0 hc1 x0 x1 x2 x3 x4 xs0 xs1 xs2)

end Cert.Kernel.HandRun

end
-- ==== Proof.BFrame.lean ====
/-
  The frame of this program: the recurrence of what its buffers hold grid point by grid point (a two-layer
  convolutional GRU: at t = 0 the state is reset, at every point one step is taken from the hidden states and the
  bias rows the scratch buffers carry, at t = 31 the states are copied out), the pipeline's proof data over it, the
  body obligation from the three control cases' runs, the run of @main through the launch theorem for a kernel that
  carries scratch between points and is followed by host operations, and the frame claim.
-/
import proofs.«175272_g2000206920649175_pallasbulk_1279_5_alg».proof.Proof.BKit
import proofs.«175272_g2000206920649175_pallasbulk_1279_5_alg».proof.Proof.BSoundA
import proofs.«175272_g2000206920649175_pallasbulk_1279_5_alg».proof.Proof.BSoundB
import proofs.«175272_g2000206920649175_pallasbulk_1279_5_alg».proof.Proof.BSoundC

set_option maxRecDepth 16384

noncomputable section

namespace Cert.Kernel.Hand

open Cert.Kernel Cert.Kernel.Gen Cert.Kernel.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each grid point -/

/-- What a grid point leaves: the time step's output block, the block of last states (meaningful only after a point
    with t = 31), and the three scratch buffers the kernel carries to the next point — the hidden states of the two
    layers, the patch matrix of the gates' product and the patch matrix of the candidate's product. -/
abbrev St (F : FTy → Type) [FloatOps F] : Type :=
  Vec F S1x1x4x64x576 .f32 × Vec F S1x4x2x64x576 .f32 × Vec F S2x64x2304 .f32 × Vec F S1168x2304 .bf16 × Vec F S576x2304 .bf16

/-- The block of last states where the body stores nothing into it (t ≠ 31): nothing consults it, the window is
    idle there and not written back. -/
def idleLast : Vec F S1x4x2x64x576 .f32 := fun _ => Classical.choice (Elt.nonempty F _)

/-- After a point with t = 0: the state is reset, nothing of what the point before left is read. -/
def stA (c : Dev nD) (t : Fin cfg0.N) (h0 : t.val % 32 = 0) (h1 : ¬t.val % 32 = 31) : St F :=
  ((resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).1, idleLast,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.2.2)

/-- After a point with 0 < t < 31: one recurrence step from what the point before left in the scratch buffers. -/
def stB (c : Dev nD) (t : Fin cfg0.N) (h0 : ¬t.val % 32 = 0) (h1 : ¬t.val % 32 = 31) (p : St F) : St F :=
  ((resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).1, idleLast,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.2.2)

/-- After a point with t = 31: one recurrence step, and the two layers' states copied into the block of last states. -/
def stC (c : Dev nD) (t : Fin cfg0.N) (h0 : ¬t.val % 32 = 0) (h1 : t.val % 32 = 31) (p : St F) : St F :=
  ((resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.2.2)

/-- The recurrence over the 64 grid points (2 batch blocks × 32 time steps, time innermost): what the buffers hold
    after the body at position `n`. -/
def outsAt0 (c : Dev nD) : (n : ℕ) → n < cfg0.N → St F
  | 0, hn => stA m c ⟨0, hn⟩ (Nat.zero_mod _) (show ¬(0 % 32 = 31) from by decide)
  | n + 1, hn =>
    if h0 : (n + 1) % 32 = 0 then
      if h1 : (n + 1) % 32 = 31 then False.elim (by omega)
      else stA m c ⟨n + 1, hn⟩ h0 h1
    else
      if h1 : (n + 1) % 32 = 31 then stC m c ⟨n + 1, hn⟩ h0 h1 (outsAt0 c n (Nat.lt_of_succ_lt hn))
      else stB m c ⟨n + 1, hn⟩ h0 h1 (outsAt0 c n (Nat.lt_of_succ_lt hn))

theorem outsAt0_A (c : Dev nD) (t : Fin cfg0.N) (h0 : t.val % 32 = 0) (h1 : ¬t.val % 32 = 31) :
    outsAt0 m c t.val t.isLt = stA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = stB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = stC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: before the first point the scratch buffers hold anything; afterwards each
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at the recurrence's components; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle -/

theorem hlive0_0 : ∀ t : Fin cfg0.N, cfg0.idle 0 (grid0.coords t) = false := by decide +kernel
theorem hlive0_1 : ∀ t : Fin cfg0.N, cfg0.idle 1 (grid0.coords t) = false := by decide +kernel
theorem hlive0_2 : ∀ t : Fin cfg0.N, cfg0.idle 2 (grid0.coords t) = false := by decide +kernel
theorem hlive0_3 : ∀ t : Fin cfg0.N, cfg0.idle 3 (grid0.coords t) = false := by decide +kernel
theorem hlive0_4 : ∀ t : Fin cfg0.N, cfg0.idle 4 (grid0.coords t) = false := by decide +kernel
theorem hlive0_5 : ∀ t : Fin cfg0.N, cfg0.idle 5 (grid0.coords t) = false := by decide +kernel
/-- The block of last states is stored only at t = 31: elsewhere the window is idle and not written back. -/
theorem hidle0_6 : ∀ t : Fin cfg0.N, ¬t.val % 32 = 31 → cfg0.idle 6 (grid0.coords t) = true := by decide +kernel
theorem hnoflush0_6 : ∀ t : Fin cfg0.N, ¬t.val % 32 = 31 → (cfg0.win 6).flush t = false := by decide +kernel
theorem hlive0_6 : ∀ t : Fin cfg0.N, t.val % 32 = 31 → cfg0.idle 6 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' staging buffers hold their blocks; the time coordinate says which of the three
    control cases the point is in; the invariant hands the body the scratch buffers at what the point before left
    (at anything at the first point) and takes them back at this point's contents; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · have h1 : ¬t.val % 32 = 31 := by omega
    rw [show (dats m 0 c).leavesExact 0 t = owns (c : Thread nD τ) (ms0_0 t) fullShare ((dats m 0 c).after 0 t) from by
      unfold Dat.leavesExact; rw [hlive0_0 t], after0_0]
    rw [show (dats m 0 c).leavesExact 1 t = owns (c : Thread nD τ) (ms0_1 t) fullShare ((dats m 0 c).after 1 t) from by
      unfold Dat.leavesExact; rw [hlive0_1 t], after0_1]
    rw [show (dats m 0 c).leavesExact 2 t = owns (c : Thread nD τ) (ms0_2 t) fullShare ((dats m 0 c).after 2 t) from by
      unfold Dat.leavesExact; rw [hlive0_2 t], after0_2]
    rw [show (dats m 0 c).leavesExact 3 t = owns (c : Thread nD τ) (ms0_3 t) fullShare ((dats m 0 c).after 3 t) from by
      unfold Dat.leavesExact; rw [hlive0_3 t], after0_3]
    rw [show (dats m 0 c).leavesExact 4 t = owns (c : Thread nD τ) (ms0_4 t) fullShare ((dats m 0 c).after 4 t) from by
      unfold Dat.leavesExact; rw [hlive0_4 t], after0_4]
    rw [show (dats m 0 c).leavesExact 5 t = owns (c : Thread nD τ) (ms0_5 t) fullShare ((dats m 0 c).after 5 t) from by
      unfold Dat.leavesExact; rw [hlive0_5 t], after0_5]
    rw [Dat.leavesExact_idle (dats m 0 c) 6 t (hidle0_6 t h1) (hnoflush0_6 t h1)]
    rw [outsAt0_A m c t h0 h1]
    unfold stA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by intro hz; rw [hz] at h0; exact h0 (Nat.zero_mod _)
    by_cases h1 : t.val % 32 = 31
    · rw [show (dats m 0 c).leavesExact 6 t = owns (c : Thread nD τ) (ms0_6 t) fullShare ((dats m 0 c).after 6 t) from by
        unfold Dat.leavesExact; rw [hlive0_6 t h1], after0_6]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [show (dats m 0 c).leavesExact 5 t = owns (c : Thread nD τ) (ms0_5 t) fullShare ((dats m 0 c).after 5 t) from by
        unfold Dat.leavesExact; rw [hlive0_5 t], after0_5]
      rw [outsAt0_C m c t h0 h1]
      unfold stC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (hidle0_6 t h1) (hnoflush0_6 t h1)]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [show (dats m 0 c).leavesExact 5 t = owns (c : Thread nD τ) (ms0_5 t) fullShare ((dats m 0 c).after 5 t) from by
        unfold Dat.leavesExact; rw [hlive0_5 t], after0_5]
      rw [outsAt0_B m c t h0 h1]
      unfold stB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main on the TensorCores terminates, and every final state has every array of the
    pipeline at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- What the run leaves in the two result buffers (neither is an array of the pipeline: each is written by the host
    operations after the region, from the arrays the pipeline leaves), beside the unchanged arguments. -/
theorem run_values : θ_run defs (onTc (τ := τ) (main (F := F))) ⟨m, fun _ => 0, ρ⟩ (fun r => ∀ c : Dev nD,
      r.2.mem ((c.tc : Thread nD τ).loc main_v259) = Pipeline.afterTail₀ cfgs (dats m) 0 (V0 m) [hostOps1] c main_v259
      ∧ r.2.mem ((c.tc : Thread nD τ).loc main_v260) = Pipeline.afterTail₀ cfgs (dats m) 0 (V0 m) [hostOps1] c main_v260
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v259 (Pipeline.mem_restRefs_of main_v259 (by decide) (by decide)),
     (h c).2 main_v260 (Pipeline.mem_restRefs_of main_v260 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.Kernel.Hand

end
-- ==== Proof.KKit.lean ====
/-
  The launch side of the frame of this program, written against the pipeline library's launch theorems:
  @main is five stretches of host operations (the weight repacking — slices and concatenates of the two weight
  arrays —, the nine boundary masks computed from an iota, the reshape of the input), one pipelined region on
  the grid (2, 32), and two reshapes of the region's results.  Here: the buffer contents the region finds
  (the valuation after the host operations before it), that no host operation writes an argument array,
  each window's block at a grid point read off its array, the input windows' staging buffers at their
  blocks at every point, and the frame claim's post from a run of the pipeline to the library's post.
-/
import proofs.«175272_g2000206920649175_pallasbulk_1279_5_alg».proof.Proof.Gen.KernelIdeal.Launch
import proofs.«175272_g2000206920649175_pallasbulk_1279_5_alg».proof.Proof.Gen.KernelIdeal.Skeleton
import proofs.«175272_g2000206920649175_pallasbulk_1279_5_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the stretches of host operations
    before it. -/
abbrev V0 (c : Dev nD) : Valuation τ sig (Elt F) :=
  StableHlo.after (List.flatten [hostOps0, hostOps0_1, hostOps0_2, hostOps0_3, hostOps0_4]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 1, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 2, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- For any proof data whose arrays are the region-entry contents, a run to the library's post, read at the three
    argument arrays (an array of the pipeline staged as an input ends as the region found it; any other buffer ends
    as the host operations after the region leave it; no host operation writes an argument), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c)⟩) h

end Cert.KernelIdeal.Hand

end
-- ==== Proof.KRuns.lean ====
/-
  What the three runs of the convolutional-GRU step kernel share.

  The kernel is launched on the grid (2, 32): coordinate 0 is the batch block, coordinate 1 the time step t.
  Its body branches twice on t alone: at t = 0 it initialises the carried state (the hidden state to zero, the
  first sixteen rows of the patch matrix to zero and then row 0 to one), and at t = 31 it also writes the final
  hidden state out.  So a point of the grid is in one of three cases: the first step (A), a middle step (B), the
  last step (C).  Here: the two conditions as propositions over the grid coordinates, their closed forms over the
  linear point index (t is the index modulo 32), and the names of the staging and scratch memrefs the body is
  called with.
-/
import proofs.«175272_g2000206920649175_pallasbulk_1279_5_alg».proof.Proof.Gen.KernelIdeal.Launch
import proofs.«175272_g2000206920649175_pallasbulk_1279_5_alg».proof.Proof.Gen.KernelIdeal.Skeleton
import proofs.«175272_g2000206920649175_pallasbulk_1279_5_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's two branch conditions -/

/-- The first branch is taken when the time coordinate is 0: the comparison chain the body computes from the
    coordinate, as a proposition. -/
abbrev cond0_0 (i : grid0.Coords) : Prop :=
  (Scalar.cmpi .ne (Scalar.extui (Scalar.cmpi .eq (BitVec.ofNat 32 (i 1).val) 0#32)) 0#32) = 1#1
/-- Over the 64 points in row-major order the time coordinate is the index modulo 32: the first branch is taken
    exactly at the points ≡ 0 (mod 32). -/
theorem hcond0_0 : ∀ t : Fin cfg0.N, cond0_0 (grid0.coords t) ↔ t.val % 32 = 0 :=
  (by decide +kernel : ∀ t : Fin grid0.N, cond0_0 (grid0.coords t) ↔ t.val % 32 = 0)

/-- The second branch is taken when the time coordinate is 31 (the last step). -/
abbrev cond0_1 (i : grid0.Coords) : Prop := k0_cond2 i = 1#1
/-- It is taken exactly at the points ≡ 31 (mod 32). -/
theorem hcond0_1 : ∀ t : Fin cfg0.N, cond0_1 (grid0.coords t) ↔ t.val % 32 = 31 :=
  (by decide +kernel : ∀ t : Fin grid0.N, cond0_1 (grid0.coords t) ↔ t.val % 32 = 31)

/-- The three cases in closed form: the first step. -/
theorem caseA_iff (t : Fin cfg0.N) : (cond0_0 (grid0.coords t) ∧ ¬cond0_1 (grid0.coords t)) ↔ t.val % 32 = 0 := by
  rw [hcond0_0, hcond0_1]; omega
/-- A middle step. -/
theorem caseB_iff (t : Fin cfg0.N) :
    (¬cond0_0 (grid0.coords t) ∧ ¬cond0_1 (grid0.coords t)) ↔ (t.val % 32 ≠ 0 ∧ t.val % 32 ≠ 31) := by
  rw [hcond0_0, hcond0_1]
/-- The last step. -/
theorem caseC_iff (t : Fin cfg0.N) : (¬cond0_0 (grid0.coords t) ∧ cond0_1 (grid0.coords t)) ↔ t.val % 32 = 31 := by
  rw [hcond0_0, hcond0_1]; omega

/-! ## Where the second output window is idle -/

/-- The final-state output (window 6) is idle away from the last step: the body stores nothing into it there. -/
theorem idleAt0_6 : ∀ t : Fin cfg0.N, ¬cond0_1 (grid0.coords t) → cfg0.idle 6 (grid0.coords t) = true := by decide +kernel
/-- And it is not written back there. -/
theorem noFlush0_6 : ∀ t : Fin cfg0.N, ¬cond0_1 (grid0.coords t) → (cfg0.win 6).flush t = false := by decide +kernel
/-- At the last step it is live. -/
theorem liveAt0_6 : ∀ t : Fin cfg0.N, cond0_1 (grid0.coords t) → cfg0.idle 6 (grid0.coords t) = false := by decide +kernel

/-! ## The memrefs the body is called with -/

/-- Each window's current staging memref at point `t`, spelled as the pipeline passes it to the body, and its
    wholeness. -/
abbrev ms0_0 (t : Fin cfg0.N) : Memref sig .tc .vmem S16x2304 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x4x32x576 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S192x880 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S192x1168 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x64x576 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x4x64x576 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x4x2x64x576 .f32 := win0_6.stage (cfg0.slots t 6)
abbrev hs0_6 (t : Fin cfg0.N) : (ms0_6 t).IsWhole := hstage0_6 ((cfg0.slots t 6).cast nbuf0_6)

/-- The three scratch operands: whole buffers of the kernel's own, carried from point to point. The hidden state of
    both layers, the patch matrix the two convolutions multiply, and the patch matrix of the recurrent update. -/
abbrev scM0_0 : Memref sig .tc .vmem S2x64x2304 .f32 := Memref.whole cc0_scratch0
abbrev scM0_1 : Memref sig .tc .vmem S1168x2304 .bf16 := Memref.whole cc0_scratch1
abbrev scM0_2 : Memref sig .tc .vmem S576x2304 .bf16 := Memref.whole cc0_scratch2
/-- The same as views: what each holds is stated through its view. -/
abbrev VS0_0 : View sig .tc .vmem S2x64x2304 .f32 := scM0_0.view
abbrev VS0_1 : View sig .tc .vmem S1168x2304 .bf16 := scM0_1.view
abbrev VS0_2 : View sig .tc .vmem S576x2304 .bf16 := scM0_2.view

/-- One staging buffer of each output window, through which its contents are stated (the choice of buffer does not
    matter: what is read back through a covering list of pieces does not depend on the view). -/
abbrev VO0_5 : View sig .tc .vmem S1x1x4x64x576 .f32 := (Memref.whole cc0_stg5_0 : Memref sig .tc .vmem S1x1x4x64x576 .f32).view
abbrev VO0_6 : View sig .tc .vmem S1x4x2x64x576 .f32 := (Memref.whole cc0_stg6_0 : Memref sig .tc .vmem S1x4x2x64x576 .f32).view

end Cert.KernelIdeal.HandRun

end
-- ==== Proof.KRunB.lean ====
/-
  The whole-body run of the step kernel at a MIDDLE time step (0 < t < 31): neither branch is taken.

  The body reads the five input blocks, the hidden state and the patch matrix carried from the step before, and
  stores: the output block (four stores tiling it), the hidden state (one slab per layer), the patch rows from row
  16 on (nine slabs per layer; rows 0 to 15, set at the first step, are kept), and the recurrent patch matrix (nine
  slabs, twice).  The final-state output is not touched.  What each buffer ends with is a list of stored pieces
  (last first) that the symbolic run finds; the statement hands every buffer back with its pieces written over the
  contents it came with.
-/
import proofs.«175272_g2000206920649175_pallasbulk_1279_5_alg».proof.Proof.KRuns

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at a middle step — the output block's, the hidden state's, the patch
    matrix's, the recurrent patch matrix's — WITH the proof that from the inputs at their contents, the output block at
    anything, the final-state output at any contents `xi6` (handed back untouched), and the three carried scratch
    buffers at the contents the step before left, the body runs to its end handing the inputs back as they were and
    each stored buffer with its pieces written over what it held. -/
noncomputable def kernelRun0_B (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x4x64x576 .f32)) (LS0 : List (View.Piece (Elt F) S2x64x2304 .f32)) (LS1 : List (View.Piece (Elt F) S1168x2304 .bf16)), { LS2 : List (View.Piece (Elt F) S576x2304 .bf16) //
      ∀ (xi6 : Vec F S1x4x2x64x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexact HS0
    isplitl [HS1]; · iexact HS1
    iexact HS2

end Cert.KernelIdeal.HandRun

end
-- ==== Proof.KRunA.lean ====
/-
  The whole-body run of the step kernel at the FIRST time step (t = 0): the initialising branch is taken, the
  final-output branch is not.

  The body first sets the carried state: the hidden state of both layers to zero, rows 0 to 15 of the patch matrix
  to zero and then row 0 to one (a store of two rows, the second kept as loaded).  It then runs the step as at every
  point: it stores the output block, the hidden state slab by slab, the patch rows from row 16 on and the recurrent
  patch matrix.  Every scratch buffer is overwritten whole, so nothing of what the scratch held before is read; the
  final-state output is not touched.
-/
import proofs.«175272_g2000206920649175_pallasbulk_1279_5_alg».proof.Proof.KRunB

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at the first step — the output block's, the hidden state's, the patch
    matrix's, the recurrent patch matrix's — WITH the proof that from the inputs at their contents, the output block and
    the three scratch buffers at anything, and the final-state output at any contents `xi6` (handed back untouched), the
    body runs to its end handing the inputs back as they were and each stored buffer with its pieces written. -/
noncomputable def kernelRun0_A (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) :
    Σ' (L5 : List (View.Piece (Elt F) S1x1x4x64x576 .f32)) (LS0 : List (View.Piece (Elt F) S2x64x2304 .f32)) (LS1 : List (View.Piece (Elt F) S1168x2304 .bf16)), { LS2 : List (View.Piece (Elt F) S576x2304 .bf16) //
      ∀ (xi6 : Vec F S1x4x2x64x576 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, fun xi6 E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    isplitl [HS0]; · iexists _; iexact HS0
    isplitl [HS1]; · iexists _; iexact HS1
    iexists _; iexact HS2

end Cert.KernelIdeal.HandRun

end
-- ==== Proof.KSoundA.lean ====
/-
  What the step kernel leaves at the first time step, as READ contents, and its triple stated over them.

  The run of the body (the module this one imports) finds, per stored buffer, the list of pieces it ends with.  A
  buffer whose pieces cover it reads the same whatever it held before, through whichever whole view: its contents
  after the step are the pieces read back over anything.  At the first step every stored buffer is covered.
-/
import proofs.«175272_g2000206920649175_pallasbulk_1279_5_alg».proof.Proof.KRunA

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverA_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S1x1x4x64x576.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).1 S1x1x1x64x576.size (by sl_kernel_rfl) y

/-- The two slab stores into the hidden state, one per layer, tile it (the zeroing store under them is not needed for the cover). -/
theorem scoverA_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S2x64x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.1 S1x64x2304.size (by sl_kernel_rfl) y

/-- At the first step the patch matrix is covered: rows 0 to 15 by the zeroing store, rows 16 on by the slabs of the second layer's patches (nine of 128 rows). Cut into blocks of 16 rows the pieces tile it. -/
theorem scoverA_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S1168x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.1, y ∈ pc.1.set :=
  View.cover_of_tiledBy (kernelRun0_A c i arg2 harg2 arg3 harg3 arg4 harg4 arg5 harg5 arg6 harg6 arg7 harg7 arg8 harg8 arg9 harg9 arg10 harg10 arg11 harg11 hc0 hc1 x0 x1 x2 x3 x4).2.2.1 ![16, 2304] (by sl_kernel_rfl) y

/-- The nine slab stores into the recurrent patch matrix tile it (each slab is stored twice; the later store is the one read back). -/
theorem scoverA_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (y : S576x2304.Idx) :
    ∃ pc ∈ (kernelRun0_A c i arg2 harg2 arg3 harg3 arg4 harg4 arg5 harg5 arg6 harg6 arg7 harg7 arg8 harg8 arg9 harg9 arg10 harg10 arg11 harg11 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 hc0 hc1 x0 x1 x2 x3 x4).2.2.2.1 S64x2304.size (by sl_kernel_rfl) y

/-- What the step leaves in the output block: its pieces read back (they cover it, so over anything). -/
noncomputable def outA_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1x1x4x64x576 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 hc0 hc1 x0 x1 x2 x3 x4).1)

/-- What the step leaves in the hidden state: its pieces read back. -/
noncomputable def soutA_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S2x64x2304 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 hc0 hc1 x0 x1 x2 x3 x4).2.1)

/-- What the first step leaves in the patch matrix: its pieces read back (they cover it). -/
noncomputable def soutA_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1168x2304 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 hc0 hc1 x0 x1 x2 x3 x4).2.2.1)

/-- What the step leaves in the recurrent patch matrix: its pieces read back. -/
noncomputable def soutA_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S576x2304 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 hc0 hc1 x0 x1 x2 x3 x4).2.2.2.1)

/-- What the step leaves, as read contents: the output block, the hidden state, the patch matrix, the recurrent patch matrix. -/
noncomputable def resA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) : Vec F S1x1x4x64x576 .f32 × Vec F S2x64x2304 .f32 × Vec F S1168x2304 .bf16 × Vec F S576x2304 .bf16 :=
  (outA_5 c i arg2 harg2 arg3 harg3 arg4 harg4 arg5 harg5 arg6 harg6 arg7 harg7 arg8 harg8 arg9 harg9 arg10 harg10 arg11 harg11 hc0 hc1 x0 x1 x2 x3 x4, soutA_0 c i arg2 harg2 arg3 harg3 arg4 harg4 arg5 harg5 arg6 harg6 arg7 harg7 arg8 harg8 arg9 harg9 arg10 harg10 arg11 harg11 hc0 hc1 x0 x1 x2 x3 x4, soutA_1 c i arg2 harg2 arg3 harg3 arg4 harg4 arg5 harg5 arg6 harg6 arg7 harg7 arg8 harg8 arg9 harg9 arg10 harg10 arg11 harg11 hc0 hc1 x0 x1 x2 x3 x4, soutA_2 c i arg2 harg2 arg3 harg3 arg4 harg4 arg5 harg5 arg6 harg6 arg7 harg7 arg8 harg8 arg9 harg9 arg10 harg10 arg11 harg11 hc0 hc1 x0 x1 x2 x3 x4)

set_option maxHeartbeats 1000000 in
/-- The step's triple over read contents: from the buffers the body is handed, it runs to its end and hands every buffer
    back at `resA`'s component (the inputs and the idle final-state block as they came). -/
theorem soundA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xi6 : Vec F S1x4x2x64x576 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resA c i arg2 harg2 arg3 harg3 arg4 harg4 arg5 harg5 arg6 harg6 arg7 harg7 arg8 harg8 arg9 harg9 arg10 harg10 arg11 harg11 hc0 hc1 x0 x1 x2 x3 x4).1 ∗ owns (c : Thread nD τ) arg8 fullShare xi6 ∗ owns (c : Thread nD τ) arg9 fullShare (resA c i arg2 harg2 arg3 harg3 arg4 harg4 arg5 harg5 arg6 harg6 arg7 harg7 arg8 harg8 arg9 harg9 arg10 harg10 arg11 harg11 hc0 hc1 x0 x1 x2 x3 x4).2.1 ∗ owns (c : Thread nD τ) arg10 fullShare (resA c i arg2 harg2 arg3 harg3 arg4 harg4 arg5 harg5 arg6 harg6 arg7 harg7 arg8 harg8 arg9 harg9 arg10 harg10 arg11 harg11 hc0 hc1 x0 x1 x2 x3 x4).2.2.1 ∗ owns (c : Thread nD τ) arg11 fullShare (resA c i arg2 harg2 arg3 harg3 arg4 harg4 arg5 harg5 arg6 harg6 arg7 harg7 arg8 harg8 arg9 harg9 arg10 harg10 arg11 harg11 hc0 hc1 x0 x1 x2 x3 x4).2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resA, outA_5, soutA_0, soutA_1, soutA_2]
  iintro ⟨H0, H1, H2, H3, H4, H5, H6, HS0, HS1, HS2, Hk⟩
  iapply ((kernelRun0_A c i arg2 harg2 arg3 harg3 arg4 harg4 arg5 harg5 arg6 harg6 arg7 harg7 arg8 harg8 arg9 harg9 arg10 harg10 arg11 harg11 hc0 hc1 x0 x1 x2 x3 x4).2.2.2.2 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, H6, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverA_5 c i arg2 harg2 arg3 harg3 arg4 harg4 arg5 harg5 arg6 harg6 arg7 harg7 arg8 harg8 arg9 harg9 arg10 harg10 arg11 harg11 hc0 hc1 x0 x1 x2 x3 x4)
  isplitl [H6]
  · iexact H6
  isplitl [HS0]
  · unfold owns; iexists _; isplitr
    swap; · iexact HS0
    ipureintro; exact View.read_writes_of_cover _ _ _ _ _ (scoverA_0 c i arg2 harg2 arg3 harg3 arg4 harg4 arg5 harg5 arg6 harg6 arg7 harg7 arg8 harg8 arg9 harg9 arg10 harg10 arg11 harg11 hc0 hc1 x0 x1 x2 x3 x4)
  isplitl [HS1]
  · unfold owns; iexists _; isplitr
    swap; · iexact HS1
    ipureintro; exact View.read_writes_of_cover _ _ _ _ _ (scoverA_1 c i arg2 harg2 arg3 harg3 arg4 harg4 arg5 harg5 arg6 harg6 arg7 harg7 arg8 harg8 arg9 harg9 arg10 harg10 arg11 harg11 hc0 hc1 x0 x1 x2 x3 x4)
  unfold owns; iexists _; isplitr
  swap; · iexact HS2
  ipureintro; exact View.read_writes_of_cover _ _ _ _ _ (scoverA_2 c i arg2 harg2 arg3 harg3 arg4 harg4 arg5 harg5 arg6 harg6 arg7 harg7 arg8 harg8 arg9 harg9 arg10 harg10 arg11 harg11 hc0 hc1 x0 x1 x2 x3 x4)

end Cert.KernelIdeal.HandRun

end
-- ==== Proof.KSoundB.lean ====
/-
  What the step kernel leaves at a middle time step, as READ contents, and its triple stated over them.

  The run of the body (the module this one imports) finds, per stored buffer, the list of pieces it ends with.  A
  buffer whose pieces cover it reads the same whatever it held before, through whichever whole view: its contents
  after the step are the pieces read back over anything.  The patch matrix is not covered (its first sixteen rows are set at the first step only): its contents after the step are the pieces written over what the step before left.
-/
import proofs.«175272_g2000206920649175_pallasbulk_1279_5_alg».proof.Proof.KRunB

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverB_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x1x4x64x576.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1 S1x1x1x64x576.size (by sl_kernel_rfl) y

/-- The two slab stores into the hidden state, one per layer, tile it. -/
theorem scoverB_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S2x64x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1 S1x64x2304.size (by sl_kernel_rfl) y

/-- The nine slab stores into the recurrent patch matrix tile it (each slab is stored twice; the later store is the one read back). -/
theorem scoverB_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S576x2304.Idx) :
    ∃ pc ∈ (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1 S64x2304.size (by sl_kernel_rfl) y

/-- What the step leaves in the output block: its pieces read back (they cover it, so over anything). -/
noncomputable def outB_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).1)

/-- What the step leaves in the hidden state: its pieces read back. -/
noncomputable def soutB_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S2x64x2304 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.1)

/-- What the step leaves in the patch matrix: its pieces written over what the step before left (rows 0 to 15 are not stored, so they stay). -/
noncomputable def soutB_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1168x2304 .bf16 :=
  arg10.view.read (Elt F) (arg10.view.writes (Elt F) (harg10.unread xs1) (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.1)

/-- What the step leaves in the recurrent patch matrix: its pieces read back. -/
noncomputable def soutB_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S576x2304 .bf16 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- What the step leaves, as read contents: the output block, the hidden state, the patch matrix, the recurrent patch matrix. -/
noncomputable def resB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 × Vec F S2x64x2304 .f32 × Vec F S1168x2304 .bf16 × Vec F S576x2304 .bf16 :=
  (outB_5 c i arg2 harg2 arg3 harg3 arg4 harg4 arg5 harg5 arg6 harg6 arg7 harg7 arg8 harg8 arg9 harg9 arg10 harg10 arg11 harg11 hc0 hc1 x0 x1 x2 x3 x4 xs0 xs1 xs2, soutB_0 c i arg2 harg2 arg3 harg3 arg4 harg4 arg5 harg5 arg6 harg6 arg7 harg7 arg8 harg8 arg9 harg9 arg10 harg10 arg11 harg11 hc0 hc1 x0 x1 x2 x3 x4 xs0 xs1 xs2, soutB_1 c i arg2 harg2 arg3 harg3 arg4 harg4 arg5 harg5 arg6 harg6 arg7 harg7 arg8 harg8 arg9 harg9 arg10 harg10 arg11 harg11 hc0 hc1 x0 x1 x2 x3 x4 xs0 xs1 xs2, soutB_2 c i arg2 harg2 arg3 harg3 arg4 harg4 arg5 harg5 arg6 harg6 arg7 harg7 arg8 harg8 arg9 harg9 arg10 harg10 arg11 harg11 hc0 hc1 x0 x1 x2 x3 x4 xs0 xs1 xs2)

set_option maxHeartbeats 1000000 in
/-- The step's triple over read contents: from the buffers the body is handed, it runs to its end and hands every buffer
    back at `resB`'s component (the inputs and the idle final-state block as they came). -/
theorem soundB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (xi6 : Vec F S1x4x2x64x576 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xi6 ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).1 ∗ owns (c : Thread nD τ) arg8 fullShare xi6 ∗ owns (c : Thread nD τ) arg9 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.1 ∗ owns (c : Thread nD τ) arg10 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.2.1 ∗ owns (c : Thread nD τ) arg11 fullShare (resB c i arg2 harg2 arg3 harg3 arg4 harg4 arg5 harg5 arg6 harg6 arg7 harg7 arg8 harg8 arg9 harg9 arg10 harg10 arg11 harg11 hc0 hc1 x0 x1 x2 x3 x4 xs0 xs1 xs2).2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resB, outB_5, soutB_0, soutB_1, soutB_2]
  iintro ⟨H0, H1, H2, H3, H4, H5, H6, HS0, HS1, HS2, Hk⟩
  iapply ((kernelRun0_B c i arg2 harg2 arg3 harg3 arg4 harg4 arg5 harg5 arg6 harg6 arg7 harg7 arg8 harg8 arg9 harg9 arg10 harg10 arg11 harg11 hc0 hc1 x0 x1 x2 x3 x4 xs0 xs1 xs2).2.2.2.2 xi6 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, H6, HS0, HS1, HS2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverB_5 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [H6]
  · iexact H6
  isplitl [HS0]
  · unfold owns; iexists _; isplitr
    swap; · iexact HS0
    ipureintro; exact View.read_writes_of_cover _ _ _ _ _ (scoverB_0 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverB_2 c i arg2 harg2 arg3 harg3 arg4 harg4 arg5 harg5 arg6 harg6 arg7 harg7 arg8 harg8 arg9 harg9 arg10 harg10 arg11 harg11 hc0 hc1 x0 x1 x2 x3 x4 xs0 xs1 xs2)

end Cert.KernelIdeal.HandRun

end
-- ==== Proof.KRunC.lean ====
/-
  The whole-body run of the step kernel at the LAST time step (t = 31): the initialising branch is not taken, the
  final-output branch is.

  The body runs the step as at a middle point and then copies the final hidden state of both layers, a quarter of
  the lanes at a time, into the final-state output block: eight stores that tile it.
-/
import proofs.«175272_g2000206920649175_pallasbulk_1279_5_alg».proof.Proof.KRunA

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces each stored buffer ends with at the last step — the output block's, the final-state output's, the
    hidden state's, the patch matrix's, the recurrent patch matrix's — WITH the proof that from the inputs at their
    contents, the two output blocks at anything, and the three carried scratch buffers at the contents the step before
    left, the body runs to its end handing the inputs back as they were and each stored buffer with its pieces written
    over what it held. -/
noncomputable def kernelRun0_C (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) :
    Σ' (L5 : List (View.Piece (Elt F) S1x1x4x64x576 .f32)) (L6 : List (View.Piece (Elt F) S1x4x2x64x576 .f32)) (LS0 : List (View.Piece (Elt F) S2x64x2304 .f32)) (LS1 : List (View.Piece (Elt F) S1168x2304 .bf16)), { LS2 : List (View.Piece (Elt F) S576x2304 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (arg9.view.loc (c : Thread nD τ) ↦[arg9.view.set]{fullShare} arg9.view.writes (Elt F) (harg9.unread xs0) LS0) ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K } := by
  refine ⟨?_, ?_, ?_, ?_, ?_, fun E K => ?run⟩
  case run =>
    simp only [cc0__step_kernel_eq_skeleton]; unfold cc0__step_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hfs0; obtain rfl := harg10.eq_unread hfs1; obtain rfl := harg11.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [HS0]; · iexact HS0
    isplitl [HS1]; · iexact HS1
    iexact HS2

end Cert.KernelIdeal.HandRun

end
-- ==== Proof.KSoundC.lean ====
/-
  What the step kernel leaves at the last time step, as READ contents, and its triple stated over them.

  The run of the body (the module this one imports) finds, per stored buffer, the list of pieces it ends with.  A
  buffer whose pieces cover it reads the same whatever it held before, through whichever whole view: its contents
  after the step are the pieces read back over anything.  The patch matrix is not covered (its first sixteen rows are set at the first step only): its contents after the step are the pieces written over what the step before left.
-/
import proofs.«175272_g2000206920649175_pallasbulk_1279_5_alg».proof.Proof.KRunC

set_option maxRecDepth 16384

noncomputable section

namespace Cert.KernelIdeal.HandRun

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four stores into the output block, one per quarter of the lanes, tile it. -/
theorem coverC_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x1x4x64x576.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1 S1x1x1x64x576.size (by sl_kernel_rfl) y

/-- The eight stores into the final-state block, one per layer and quarter of the lanes, tile it. -/
theorem coverC_6 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S1x4x2x64x576.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1 S1x1x1x64x576.size (by sl_kernel_rfl) y

/-- The two slab stores into the hidden state, one per layer, tile it. -/
theorem scoverC_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S2x64x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1 S1x64x2304.size (by sl_kernel_rfl) y

/-- The nine slab stores into the recurrent patch matrix tile it (each slab is stored twice; the later store is the one read back). -/
theorem scoverC_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (y : S576x2304.Idx) :
    ∃ pc ∈ (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1 S64x2304.size (by sl_kernel_rfl) y

/-- What the step leaves in the output block: its pieces read back (they cover it, so over anything). -/
noncomputable def outC_5 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 :=
  VO0_5.read (Elt F) (VO0_5.writes (Elt F) VO0_5.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).1)

/-- What the last step leaves in the final-state block: its pieces read back. -/
noncomputable def outC_6 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x4x2x64x576 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.1)

/-- What the step leaves in the hidden state: its pieces read back. -/
noncomputable def soutC_0 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S2x64x2304 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.1)

/-- What the step leaves in the patch matrix: its pieces written over what the step before left (rows 0 to 15 are not stored, so they stay). -/
noncomputable def soutC_1 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1168x2304 .bf16 :=
  arg10.view.read (Elt F) (arg10.view.writes (Elt F) (harg10.unread xs1) (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.1)

/-- What the step leaves in the recurrent patch matrix: its pieces read back. -/
noncomputable def soutC_2 (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S576x2304 .bf16 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.1)

/-- What the step leaves, as read contents: the output block, the final-state block, the hidden state, the patch matrix, the recurrent patch matrix. -/
noncomputable def resC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) : Vec F S1x1x4x64x576 .f32 × Vec F S1x4x2x64x576 .f32 × Vec F S2x64x2304 .f32 × Vec F S1168x2304 .bf16 × Vec F S576x2304 .bf16 :=
  (outC_5 c i arg2 harg2 arg3 harg3 arg4 harg4 arg5 harg5 arg6 harg6 arg7 harg7 arg8 harg8 arg9 harg9 arg10 harg10 arg11 harg11 hc0 hc1 x0 x1 x2 x3 x4 xs0 xs1 xs2, outC_6 c i arg2 harg2 arg3 harg3 arg4 harg4 arg5 harg5 arg6 harg6 arg7 harg7 arg8 harg8 arg9 harg9 arg10 harg10 arg11 harg11 hc0 hc1 x0 x1 x2 x3 x4 xs0 xs1 xs2, soutC_0 c i arg2 harg2 arg3 harg3 arg4 harg4 arg5 harg5 arg6 harg6 arg7 harg7 arg8 harg8 arg9 harg9 arg10 harg10 arg11 harg11 hc0 hc1 x0 x1 x2 x3 x4 xs0 xs1 xs2, soutC_1 c i arg2 harg2 arg3 harg3 arg4 harg4 arg5 harg5 arg6 harg6 arg7 harg7 arg8 harg8 arg9 harg9 arg10 harg10 arg11 harg11 hc0 hc1 x0 x1 x2 x3 x4 xs0 xs1 xs2, soutC_2 c i arg2 harg2 arg3 harg3 arg4 harg4 arg5 harg5 arg6 harg6 arg7 harg7 arg8 harg8 arg9 harg9 arg10 harg10 arg11 harg11 hc0 hc1 x0 x1 x2 x3 x4 xs0 xs1 xs2)

set_option maxHeartbeats 1000000 in
/-- The step's triple over read contents: from the buffers the body is handed, it runs to its end and hands every buffer
    back at `resC`'s component (the inputs as they came). -/
theorem soundC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).1 ∗ owns (c : Thread nD τ) arg8 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.1 ∗ owns (c : Thread nD τ) arg9 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.1 ∗ owns (c : Thread nD τ) arg10 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.2.1 ∗ owns (c : Thread nD τ) arg11 fullShare (resC c i arg2 harg2 arg3 harg3 arg4 harg4 arg5 harg5 arg6 harg6 arg7 harg7 arg8 harg8 arg9 harg9 arg10 harg10 arg11 harg11 hc0 hc1 x0 x1 x2 x3 x4 xs0 xs1 xs2).2.2.2.2) -∗ K ⟨⟩))
      ⊢ wp frame (wpE (defs₀ (F := F)) Variants.none c none) E (cc0__step_kernel i arg2 harg2 arg3 harg3 arg4 harg4 arg5 harg5 arg6 harg6 arg7 harg7 arg8 harg8 arg9 harg9 arg10 harg10 arg11 harg11) K := by
  simp only [resC, outC_5, outC_6, soutC_0, soutC_1, soutC_2]
  iintro ⟨H0, H1, H2, H3, H4, H5, H6, HS0, HS1, HS2, Hk⟩
  iapply ((kernelRun0_C c i arg2 harg2 arg3 harg3 arg4 harg4 arg5 harg5 arg6 harg6 arg7 harg7 arg8 harg8 arg9 harg9 arg10 harg10 arg11 harg11 hc0 hc1 x0 x1 x2 x3 x4 xs0 xs1 xs2).2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [HS0]; · iexact HS0
  isplitl [HS1]; · iexact HS1
  isplitl [HS2]; · iexact HS2
  iintro ⟨H0, H1, H2, H3, H4, ⟨%e5, H5⟩, ⟨%e6, H6⟩, HS0, HS1, HS2⟩
  iapply Hk
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (coverC_5 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [H6]
  · unfold owns; iexists _; isplitr
    swap; · iexact H6
    ipureintro; exact View.read_writes_of_cover _ _ _ _ _ (coverC_6 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS0]
  · unfold owns; iexists _; isplitr
    swap; · iexact HS0
    ipureintro; exact View.read_writes_of_cover _ _ _ _ _ (scoverC_0 c i arg2 harg2 arg3 harg3 arg4 harg4 arg5 harg5 arg6 harg6 arg7 harg7 arg8 harg8 arg9 harg9 arg10 harg10 arg11 harg11 hc0 hc1 x0 x1 x2 x3 x4 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverC_2 c i arg2 harg2 arg3 harg3 arg4 harg4 arg5 harg5 arg6 harg6 arg7 harg7 arg8 harg8 arg9 harg9 arg10 harg10 arg11 harg11 hc0 hc1 x0 x1 x2 x3 x4 xs0 xs1 xs2)

end Cert.KernelIdeal.HandRun

end
-- ==== Proof.KFrame.lean ====
/-
  The frame of this program: the recurrence of what its buffers hold grid point by grid point (a two-layer
  convolutional GRU: at t = 0 the state is reset, at every point one step is taken from the hidden states and the
  bias rows the scratch buffers carry, at t = 31 the states are copied out), the pipeline's proof data over it, the
  body obligation from the three control cases' runs, the run of @main through the launch theorem for a kernel that
  carries scratch between points and is followed by host operations, and the frame claim.
-/
import proofs.«175272_g2000206920649175_pallasbulk_1279_5_alg».proof.Proof.KKit
import proofs.«175272_g2000206920649175_pallasbulk_1279_5_alg».proof.Proof.KSoundA
import proofs.«175272_g2000206920649175_pallasbulk_1279_5_alg».proof.Proof.KSoundB
import proofs.«175272_g2000206920649175_pallasbulk_1279_5_alg».proof.Proof.KSoundC

set_option maxRecDepth 16384

noncomputable section

namespace Cert.KernelIdeal.Hand

open Cert.KernelIdeal Cert.KernelIdeal.Gen Cert.KernelIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each grid point -/

/-- What a grid point leaves: the time step's output block, the block of last states (meaningful only after a point
    with t = 31), and the three scratch buffers the kernel carries to the next point — the hidden states of the two
    layers, the patch matrix of the gates' product and the patch matrix of the candidate's product. -/
abbrev St (F : FTy → Type) [FloatOps F] : Type :=
  Vec F S1x1x4x64x576 .f32 × Vec F S1x4x2x64x576 .f32 × Vec F S2x64x2304 .f32 × Vec F S1168x2304 .bf16 × Vec F S576x2304 .bf16

/-- The block of last states where the body stores nothing into it (t ≠ 31): nothing consults it, the window is
    idle there and not written back. -/
def idleLast : Vec F S1x4x2x64x576 .f32 := fun _ => Classical.choice (Elt.nonempty F _)

/-- After a point with t = 0: the state is reset, nothing of what the point before left is read. -/
def stA (c : Dev nD) (t : Fin cfg0.N) (h0 : t.val % 32 = 0) (h1 : ¬t.val % 32 = 31) : St F :=
  ((resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).1, idleLast,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t)).2.2.2)

/-- After a point with 0 < t < 31: one recurrence step from what the point before left in the scratch buffers. -/
def stB (c : Dev nD) (t : Fin cfg0.N) (h0 : ¬t.val % 32 = 0) (h1 : ¬t.val % 32 = 31) (p : St F) : St F :=
  ((resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).1, idleLast,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) (p).2.2.1 (p).2.2.2.1 (p).2.2.2.2).2.2.2)

/-- After a point with t = 31: one recurrence step, and the two layers' states copied into the block of last states. -/
def stC (c : Dev nD) (t : Fin cfg0.N) (h0 : ¬t.val % 32 = 0) (h1 : t.val % 32 = 31) (p : St F) : St F :=
  ((resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) (p).2.2.1 (p).2.2.2.1 (p).2.2.2.2).2.2.2.2)

/-- The recurrence over the 64 grid points (2 batch blocks × 32 time steps, time innermost): what the buffers hold
    after the body at position `n`. -/
def outsAt0 (c : Dev nD) : (n : ℕ) → n < cfg0.N → St F
  | 0, hn => stA m c ⟨0, hn⟩ (Nat.zero_mod _) (show ¬(0 % 32 = 31) from by decide)
  | n + 1, hn =>
    if h0 : (n + 1) % 32 = 0 then
      if h1 : (n + 1) % 32 = 31 then False.elim (by omega)
      else stA m c ⟨n + 1, hn⟩ h0 h1
    else
      if h1 : (n + 1) % 32 = 31 then stC m c ⟨n + 1, hn⟩ h0 h1 (outsAt0 c n (Nat.lt_of_succ_lt hn))
      else stB m c ⟨n + 1, hn⟩ h0 h1 (outsAt0 c n (Nat.lt_of_succ_lt hn))

theorem outsAt0_A (c : Dev nD) (t : Fin cfg0.N) (h0 : t.val % 32 = 0) (h1 : ¬t.val % 32 = 31) :
    outsAt0 m c t.val t.isLt = stA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = stB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = stC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: before the first point the scratch buffers hold anything; afterwards each
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at the recurrence's components; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## Where the windows are idle -/

theorem hlive0_0 : ∀ t : Fin cfg0.N, cfg0.idle 0 (grid0.coords t) = false := by decide +kernel
theorem hlive0_1 : ∀ t : Fin cfg0.N, cfg0.idle 1 (grid0.coords t) = false := by decide +kernel
theorem hlive0_2 : ∀ t : Fin cfg0.N, cfg0.idle 2 (grid0.coords t) = false := by decide +kernel
theorem hlive0_3 : ∀ t : Fin cfg0.N, cfg0.idle 3 (grid0.coords t) = false := by decide +kernel
theorem hlive0_4 : ∀ t : Fin cfg0.N, cfg0.idle 4 (grid0.coords t) = false := by decide +kernel
theorem hlive0_5 : ∀ t : Fin cfg0.N, cfg0.idle 5 (grid0.coords t) = false := by decide +kernel
/-- The block of last states is stored only at t = 31: elsewhere the window is idle and not written back. -/
theorem hidle0_6 : ∀ t : Fin cfg0.N, ¬t.val % 32 = 31 → cfg0.idle 6 (grid0.coords t) = true := by decide +kernel
theorem hnoflush0_6 : ∀ t : Fin cfg0.N, ¬t.val % 32 = 31 → (cfg0.win 6).flush t = false := by decide +kernel
theorem hlive0_6 : ∀ t : Fin cfg0.N, t.val % 32 = 31 → cfg0.idle 6 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the inputs' staging buffers hold their blocks; the time coordinate says which of the three
    control cases the point is in; the invariant hands the body the scratch buffers at what the point before left
    (at anything at the first point) and takes them back at this point's contents; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · have h1 : ¬t.val % 32 = 31 := by omega
    rw [show (dats m 0 c).leavesExact 0 t = owns (c : Thread nD τ) (ms0_0 t) fullShare ((dats m 0 c).after 0 t) from by
      unfold Dat.leavesExact; rw [hlive0_0 t], after0_0]
    rw [show (dats m 0 c).leavesExact 1 t = owns (c : Thread nD τ) (ms0_1 t) fullShare ((dats m 0 c).after 1 t) from by
      unfold Dat.leavesExact; rw [hlive0_1 t], after0_1]
    rw [show (dats m 0 c).leavesExact 2 t = owns (c : Thread nD τ) (ms0_2 t) fullShare ((dats m 0 c).after 2 t) from by
      unfold Dat.leavesExact; rw [hlive0_2 t], after0_2]
    rw [show (dats m 0 c).leavesExact 3 t = owns (c : Thread nD τ) (ms0_3 t) fullShare ((dats m 0 c).after 3 t) from by
      unfold Dat.leavesExact; rw [hlive0_3 t], after0_3]
    rw [show (dats m 0 c).leavesExact 4 t = owns (c : Thread nD τ) (ms0_4 t) fullShare ((dats m 0 c).after 4 t) from by
      unfold Dat.leavesExact; rw [hlive0_4 t], after0_4]
    rw [show (dats m 0 c).leavesExact 5 t = owns (c : Thread nD τ) (ms0_5 t) fullShare ((dats m 0 c).after 5 t) from by
      unfold Dat.leavesExact; rw [hlive0_5 t], after0_5]
    rw [Dat.leavesExact_idle (dats m 0 c) 6 t (hidle0_6 t h1) (hnoflush0_6 t h1)]
    rw [outsAt0_A m c t h0 h1]
    unfold stA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) (iblk m c 4 t) _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexists _; iexact HS0
      isplitl [HS1]; · iexists _; iexact HS1
      isplitl [HS2]; · iexists _; iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := by intro hz; rw [hz] at h0; exact h0 (Nat.zero_mod _)
    by_cases h1 : t.val % 32 = 31
    · rw [show (dats m 0 c).leavesExact 6 t = owns (c : Thread nD τ) (ms0_6 t) fullShare ((dats m 0 c).after 6 t) from by
        unfold Dat.leavesExact; rw [hlive0_6 t h1], after0_6]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [show (dats m 0 c).leavesExact 5 t = owns (c : Thread nD τ) (ms0_5 t) fullShare ((dats m 0 c).after 5 t) from by
        unfold Dat.leavesExact; rw [hlive0_5 t], after0_5]
      rw [outsAt0_C m c t h0 h1]
      unfold stC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (iblk m c 4 t) _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [Dat.leavesExact_idle (dats m 0 c) 6 t (hidle0_6 t h1) (hnoflush0_6 t h1)]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [show (dats m 0 c).leavesExact 5 t = owns (c : Thread nD τ) (ms0_5 t) fullShare ((dats m 0 c).after 5 t) from by
        unfold Dat.leavesExact; rw [hlive0_5 t], after0_5]
      rw [outsAt0_B m c t h0 h1]
      unfold stB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩⟩
      iapply (soundB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (iblk m c 4 t) _ _ _ _ Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main on the TensorCores terminates, and every final state has every array of the
    pipeline at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- What the run leaves in the two result buffers (neither is an array of the pipeline: each is written by the host
    operations after the region, from the arrays the pipeline leaves), beside the unchanged arguments. -/
theorem run_values : θ_run defs (onTc (τ := τ) (main (F := F))) ⟨m, fun _ => 0, ρ⟩ (fun r => ∀ c : Dev nD,
      r.2.mem ((c.tc : Thread nD τ).loc main_v259) = Pipeline.afterTail₀ cfgs (dats m) 0 (V0 m) [hostOps1] c main_v259
      ∧ r.2.mem ((c.tc : Thread nD τ).loc main_v260) = Pipeline.afterTail₀ cfgs (dats m) 0 (V0 m) [hostOps1] c main_v260
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v259 (Pipeline.mem_restRefs_of main_v259 (by decide) (by decide)),
     (h c).2 main_v260 (Pipeline.mem_restRefs_of main_v260 (by decide) (by decide)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩) (run_main m ρ)

end Cert.KernelIdeal.Hand

end
-- ==== Proof.RKit.lean ====
/-
  The launch side of the frame of the reference program, written against the pipeline library's launch theorems:
  @main is seven stretches of host operations (the nine boundary masks computed from an iota, the transposes,
  the channel padding and the reshapes that lay the input out as [batch block, time, channel, lane]), one
  pipelined region on the grid (2, 32) whose weight windows are the two weight ARGUMENTS themselves, and six
  host operations (reshapes and transposes) that lay the region's results out as the results of @main.  Here:
  the buffer contents the region finds, that no host operation writes an argument array, each window's block
  at a grid point read off its array, the input windows' staging buffers at their blocks at every point, and
  the frame claim's post from a run of the pipeline to the library's post.
-/
import proofs.«175272_g2000206920649175_pallasbulk_1279_5_alg».proof.Proof.Gen.ReferenceIdeal.Launch
import proofs.«175272_g2000206920649175_pallasbulk_1279_5_alg».proof.Proof.Gen.ReferenceIdeal.Skeleton
import proofs.«175272_g2000206920649175_pallasbulk_1279_5_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s TensorCore buffer contents when the region is entered: after the stretches of host operations
    before it. -/
abbrev V0 (c : Dev nD) : Valuation τ sig (Elt F) :=
  StableHlo.after (List.flatten [hostOps0, hostOps0_1, hostOps0_2, hostOps0_3, hostOps0_4, hostOps0_5, hostOps0_6]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host operations before the region, the region, and the host operations after it: it reduces to the
    region continued by the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4, hostOps0_5, hostOps0_6] [hostOps1]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩) main_chain

/-- The lines after the region touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation after the region writes argument 0, and it is no array of the pipeline: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the pipeline run's -/

/-- For any proof data whose arrays are the region-entry contents, a run to the library's post, read at the three
    argument arrays (an array of the pipeline staged as an input ends as the region found it; any other buffer ends
    as the host operations after the region leave it; no host operation writes an argument), is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m dats c),
     ((h c).1 2).trans (((dats 0 c).arrAt_in 2 rfl _).trans ((hA c 2).trans (V_main_arg1 m c))),
     ((h c).1 3).trans (((dats 0 c).arrAt_in 3 rfl _).trans ((hA c 3).trans (V_main_arg2 m c)))⟩) h

end Cert.ReferenceIdeal.Hand

end
-- ==== Proof.RRuns.lean ====
/-
  What the three whole-body runs of the reference program's kernel (one step of a two-layer convolutional GRU per
  grid point, on the grid (2, 32): batch block, time step) are stated over.

  The body branches twice on the time coordinate: the carried state (the hidden states of both layers and the two
  patch matrices) is reset when the time step is 0, and the final hidden states are stored into the second output
  when the time step is 31.  Both conditions are scalar chains over the grid coordinates, decided here over the 64
  grid points in closed form.  Then the memrefs the pipeline calls the body with at a point: the current staging
  memref of each of the six windows, and the three scratch buffers the kernel carries from point to point, each
  with the view through which its contents are stated.
-/
import proofs.«175272_g2000206920649175_pallasbulk_1279_5_alg».proof.Proof.Gen.ReferenceIdeal.Launch
import proofs.«175272_g2000206920649175_pallasbulk_1279_5_alg».proof.Proof.Gen.ReferenceIdeal.Skeleton
import proofs.«175272_g2000206920649175_pallasbulk_1279_5_alg».proof.Proof.Gen.ReferenceIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two branch conditions -/

/-- The condition of the first conditional of the body (the reset of the carried state): the time coordinate is 0.
    Spelt as the body's scalar chain over the grid coordinates. -/
abbrev cond0_0 (i : grid0.Coords) : Prop :=
  (Scalar.cmpi .ne (Scalar.extui (Scalar.cmpi .eq (BitVec.ofNat 32 (i 1).val) 0#32)) 0#32) = 1#1

/-- It holds exactly at the points whose time step is 0: decided over the 64 grid points. -/
theorem hcond0_0 : ∀ t : Fin cfg0.N, cond0_0 (grid0.coords t) ↔ t.val % 32 = 0 :=
  (by decide +kernel : ∀ t : Fin grid0.N, cond0_0 (grid0.coords t) ↔ t.val % 32 = 0)

/-- The condition of the second conditional of the body (the store of the final hidden states): the time
    coordinate is 31. -/
abbrev cond0_1 (i : grid0.Coords) : Prop := k0_cond2 i = 1#1

/-- It holds exactly at the points whose time step is 31: decided over the 64 grid points. -/
theorem hcond0_1 : ∀ t : Fin cfg0.N, cond0_1 (grid0.coords t) ↔ t.val % 32 = 31 :=
  (by decide +kernel : ∀ t : Fin grid0.N, cond0_1 (grid0.coords t) ↔ t.val % 32 = 31)

/-- The two conditions never hold together (time step 0 is not time step 31). -/
theorem not_both (t : Fin cfg0.N) : ¬(cond0_0 (grid0.coords t) ∧ cond0_1 (grid0.coords t)) := fun h => by
  have h0 := (hcond0_0 t).mp h.1
  have h1 := (hcond0_1 t).mp h.2
  omega

/-! ## The memrefs the body is called with -/

/-- Each window's current staging memref at point `t`, spelt as the pipeline passes it, and its wholeness. -/
abbrev ms0_0 (t : Fin cfg0.N) : Memref sig .tc .vmem S9x2304 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x64x2304 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2x192x1160 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x64x576 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x64x2304 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x64x2304 .f32 := win0_5.stage (cfg0.slots t 5)
abbrev hs0_5 (t : Fin cfg0.N) : (ms0_5 t).IsWhole := hstage0_5 ((cfg0.slots t 5).cast nbuf0_5)

/-- The three scratch operands: whole buffers of the kernel's own, passed beside the windows and carried from point
    to point (the hidden states of both layers; the patch matrix of the first-layer convolutions, whose row 1152 is
    the row of ones that carries the bias; the patch matrix of the candidate convolutions). -/
abbrev scM0_0 : Memref sig .tc .vmem S2x64x2304 .f32 := Memref.whole cc0_scratch0
abbrev scM0_1 : Memref sig .tc .vmem S1160x2304 .f32 := Memref.whole cc0_scratch1
abbrev scM0_2 : Memref sig .tc .vmem S576x2304 .f32 := Memref.whole cc0_scratch2
theorem hscM0_0 : scM0_0.IsWhole := Memref.isWhole_whole _
theorem hscM0_1 : scM0_1.IsWhole := Memref.isWhole_whole _
theorem hscM0_2 : scM0_2.IsWhole := Memref.isWhole_whole _

/-- The scratch buffers as views: what each holds is stated through its view. -/
abbrev VS0_0 : View sig .tc .vmem S2x64x2304 .f32 := scM0_0.view
abbrev VS0_1 : View sig .tc .vmem S1160x2304 .f32 := scM0_1.view
abbrev VS0_2 : View sig .tc .vmem S576x2304 .f32 := scM0_2.view

/-- One staging buffer of each output window, through which the contents its stores leave are stated (pieces that
    cover a shape read back the same through any view of it). -/
abbrev VO0_4 : View sig .tc .vmem S1x1x64x2304 .f32 := (Memref.whole cc0_stg4_0 : Memref sig .tc .vmem S1x1x64x2304 .f32).view
abbrev VO0_5 : View sig .tc .vmem S1x2x64x2304 .f32 := (Memref.whole cc0_stg5_0 : Memref sig .tc .vmem S1x2x64x2304 .f32).view

/-- The body at point `t` as the pipeline calls it is the kernel function on these memrefs. -/
theorem bodyAt0_eq (t : Fin cfg0.N) :
    (bodyAt0 t : Prog (TpuEff nD τ sig (Elt F) Λ₀ .tc) PUnit)
      = cc0__convgru_step_kernel (grid0.coords t) (ms0_0 t) (hs0_0 t) (ms0_1 t) (hs0_1 t) (ms0_2 t) (hs0_2 t) (ms0_3 t) (hs0_3 t)
          (ms0_4 t) (hs0_4 t) (ms0_5 t) (hs0_5 t) scM0_0 (Memref.isWhole_whole _) scM0_1 (Memref.isWhole_whole _) scM0_2 (Memref.isWhole_whole _) := rfl

end Cert.ReferenceIdeal.HandRun

end
-- ==== Proof.RRunA.lean ====
/-
  The whole-body run of the reference program's kernel at a grid point whose time step is 0 (the reset taken, the
  store of the final hidden states not): on whole memrefs — the four input windows' at their contents, the first
  output's and the three scratch buffers' at anything (the reset fills each scratch buffer whole before anything
  reads it), the second output's (idle here) at contents handed back untouched — the body runs to a continuation
  that holds the inputs' as they were and each buffer it stored into with its pieces written.  The piece lists are
  the witness the run finds.
-/
import proofs.«175272_g2000206920649175_pallasbulk_1279_5_alg».proof.Proof.RRuns

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

set_option maxHeartbeats 4000000 in
noncomputable def kernelRun0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) :
    Σ' (L4 : List (View.Piece (Elt F) S1x1x64x2304 .f32)) (LS0 : List (View.Piece (Elt F) S2x64x2304 .f32)) (LS1 : List (View.Piece (Elt F) S1160x2304 .f32)), { LS2 : List (View.Piece (Elt F) S576x2304 .f32) //
      ∀ (xi5 : Vec F S1x2x64x2304 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ owns (c : Thread nD τ) arg7 fullShare xi5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ owns (c : Thread nD τ) arg7 fullShare xi5
                ∗ (∃ f, arg8.view.loc (c : Thread nD τ) ↦[arg8.view.set]{fullShare} arg8.view.writes (Elt F) f LS0)
                ∗ (∃ f, arg9.view.loc (c : Thread nD τ) ↦[arg9.view.set]{fullShare} arg9.view.writes (Elt F) f LS1)
                ∗ (∃ f, arg10.view.loc (c : Thread nD τ) ↦[arg10.view.set]{fullShare} arg10.view.writes (Elt F) f LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexists _; iexact HS0
    isplitl [HS1]; · iexists _; iexact HS1
    iexists _; iexact HS2

end Cert.ReferenceIdeal.HandRun

end
-- ==== Proof.RSoundA.lean ====
/-
  A grid point whose time step is 0 (the reset): what the body leaves in each buffer it stores into, as contents
  read back from the pieces the run found, and the body's triple stated over those contents.
-/
import proofs.«175272_g2000206920649175_pallasbulk_1279_5_alg».proof.Proof.RRunA

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

/-! ## The stored pieces cover the buffers -/

/-- The pieces stored into the first output's block tile it (one store of the whole block), so they cover it. -/
theorem coverA_4 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) (y : S1x1x64x2304.Idx) :
    ∃ pc ∈ (kernelRun0_A c i arg2 harg2 arg3 harg3 arg4 harg4 arg5 harg5 arg6 harg6 arg7 harg7 arg8 harg8 arg9 harg9 arg10 harg10 hc0 hc1 x0 x1 x2 x3).1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).1 S1x1x64x2304.size (by sl_kernel_rfl) y
/-- The pieces stored into the hidden-state scratch tile it in its two layer slabs, so they cover it. -/
theorem scoverA_0 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) (y : S2x64x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.1 S1x64x2304.size (by sl_kernel_rfl) y
/-- At a reset point one of the pieces stored into the first patch matrix is a store of the whole matrix (the zero fill), so the pieces cover it. -/
theorem scoverA_1 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) (y : S1160x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.1, y ∈ pc.1.set :=
  View.cover_of_wholeMem (kernelRun0_A c i arg2 harg2 arg3 harg3 arg4 harg4 arg5 harg5 arg6 harg6 arg7 harg7 arg8 harg8 arg9 harg9 arg10 harg10 hc0 hc1 x0 x1 x2 x3).2.2.1 (by sl_whole_mem) y
/-- The pieces stored into the second patch matrix tile it in its nine slabs of 64 rows, so they cover it. -/
theorem scoverA_2 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) (y : S576x2304.Idx) :
    ∃ pc ∈ (kernelRun0_A c i arg2 harg2 arg3 harg3 arg4 harg4 arg5 harg5 arg6 harg6 arg7 harg7 arg8 harg8 arg9 harg9 arg10 harg10 hc0 hc1 x0 x1 x2 x3).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3).2.2.2.1 S64x2304.size (by sl_kernel_rfl) y

/-! ## What the point leaves, and the body's triple over it -/

/-- What a reset point leaves, as contents read back: the first output's block, the hidden-state scratch, the first
    patch matrix and the second patch matrix.  Each is the read-back over junk of the pieces the run stored (which
    cover every one of these buffers at a reset point: the three scratch buffers are filled whole first). -/
noncomputable def resA (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) :
    Vec F S1x1x64x2304 .f32 × Vec F S2x64x2304 .f32 × Vec F S1160x2304 .f32 × Vec F S576x2304 .f32 :=
  (VO0_4.read (Elt F) (VO0_4.writes (Elt F) VO0_4.junk (kernelRun0_A c i arg2 harg2 arg3 harg3 arg4 harg4 arg5 harg5 arg6 harg6 arg7 harg7 arg8 harg8 arg9 harg9 arg10 harg10 hc0 hc1 x0 x1 x2 x3).1),
   VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3).2.1),
   VS0_1.read (Elt F) (VS0_1.writes (Elt F) VS0_1.junk (kernelRun0_A c i arg2 harg2 arg3 harg3 arg4 harg4 arg5 harg5 arg6 harg6 arg7 harg7 arg8 harg8 arg9 harg9 arg10 harg10 hc0 hc1 x0 x1 x2 x3).2.2.1),
   VS0_2.read (Elt F) (VS0_2.writes (Elt F) VS0_2.junk (kernelRun0_A c i arg2 harg2 arg3 harg3 arg4 harg4 arg5 harg5 arg6 harg6 arg7 harg7 arg8 harg8 arg9 harg9 arg10 harg10 hc0 hc1 x0 x1 x2 x3).2.2.2.1))

set_option maxHeartbeats 4000000 in
/-- The body's triple at such a point, over contents: from the nine memrefs owned — the inputs at their contents,
    the outputs and (at a reset point) the scratch buffers at anything, the carried scratch buffers at the contents
    the point before left — the body runs to a continuation that owns them again, the inputs unchanged, every
    buffer the point stores into at the corresponding component of what the point leaves. -/
theorem soundA (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
    (x0 : Vec F S9x2304 .f32) (x1 : Vec F S1x1x64x2304 .f32) (x2 : Vec F S2x192x1160 .f32) (x3 : Vec F S2x64x576 .f32) (xi5 : Vec F S1x2x64x2304 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ owns (c : Thread nD τ) arg7 fullShare xi5
        ∗ (∃ d, owns (c : Thread nD τ) arg8 fullShare d)
        ∗ (∃ d, owns (c : Thread nD τ) arg9 fullShare d)
        ∗ (∃ d, owns (c : Thread nD τ) arg10 fullShare d)
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (resA c i arg2 harg2 arg3 harg3 arg4 harg4 arg5 harg5 arg6 harg6 arg7 harg7 arg8 harg8 arg9 harg9 arg10 harg10 hc0 hc1 x0 x1 x2 x3).1
            ∗ owns (c : Thread nD τ) arg7 fullShare xi5
            ∗ owns (c : Thread nD τ) arg8 fullShare (resA c i arg2 harg2 arg3 harg3 arg4 harg4 arg5 harg5 arg6 harg6 arg7 harg7 arg8 harg8 arg9 harg9 arg10 harg10 hc0 hc1 x0 x1 x2 x3).2.1
            ∗ owns (c : Thread nD τ) arg9 fullShare (resA c i arg2 harg2 arg3 harg3 arg4 harg4 arg5 harg5 arg6 harg6 arg7 harg7 arg8 harg8 arg9 harg9 arg10 harg10 hc0 hc1 x0 x1 x2 x3).2.2.1
            ∗ owns (c : Thread nD τ) arg10 fullShare (resA c i arg2 harg2 arg3 harg3 arg4 harg4 arg5 harg5 arg6 harg6 arg7 harg7 arg8 harg8 arg9 harg9 arg10 harg10 hc0 hc1 x0 x1 x2 x3).2.2.2) -∗ K ⟨⟩))
      ⊢ wp frame (wpE (defs₀ (F := F)) Variants.none c none) E (cc0__convgru_step_kernel i arg2 harg2 arg3 harg3 arg4 harg4 arg5 harg5 arg6 harg6 arg7 harg7 arg8 harg8 arg9 harg9 arg10 harg10) K := by
  unfold resA; dsimp only
  iintro ⟨H0, H1, H2, H3, H4, H5, HS0, HS1, HS2, Hk⟩
  iapply ((kernelRun0_A c i arg2 harg2 arg3 harg3 arg4 harg4 arg5 harg5 arg6 harg6 arg7 harg7 arg8 harg8 arg9 harg9 arg10 harg10 hc0 hc1 x0 x1 x2 x3).2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, ⟨%e4, H4⟩, H5, ⟨%es0, HS0⟩, ⟨%es1, HS1⟩, ⟨%es2, HS2⟩⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverA_4 c i arg2 harg2 arg3 harg3 arg4 harg4 arg5 harg5 arg6 harg6 arg7 harg7 arg8 harg8 arg9 harg9 arg10 harg10 hc0 hc1 x0 x1 x2 x3)
  isplitl [H5]; · iexact H5
  isplitl [HS0]
  · unfold owns; iexists _; isplitr
    swap; · iexact HS0
    ipureintro; exact View.read_writes_of_cover _ _ _ _ _ (scoverA_0 c i arg2 harg2 arg3 harg3 arg4 harg4 arg5 harg5 arg6 harg6 arg7 harg7 arg8 harg8 arg9 harg9 arg10 harg10 hc0 hc1 x0 x1 x2 x3)
  isplitl [HS1]
  · unfold owns; iexists _; isplitr
    swap; · iexact HS1
    ipureintro; exact View.read_writes_of_cover _ _ _ _ _ (scoverA_1 c i arg2 harg2 arg3 harg3 arg4 harg4 arg5 harg5 arg6 harg6 arg7 harg7 arg8 harg8 arg9 harg9 arg10 harg10 hc0 hc1 x0 x1 x2 x3)
  unfold owns; iexists _; isplitr
  swap; · iexact HS2
  ipureintro; exact View.read_writes_of_cover _ _ _ _ _ (scoverA_2 c i arg2 harg2 arg3 harg3 arg4 harg4 arg5 harg5 arg6 harg6 arg7 harg7 arg8 harg8 arg9 harg9 arg10 harg10 hc0 hc1 x0 x1 x2 x3)

end Cert.ReferenceIdeal.HandRun

end
-- ==== Proof.RRunB.lean ====
/-
  The whole-body run of the reference program's kernel at a grid point whose time step is neither 0 nor 31
  (neither conditional taken): on whole memrefs — the four input windows' at their contents, the first output's at
  anything, the second output's (idle here) at contents handed back untouched, the three carried scratch buffers at
  the contents the point before left — the body runs to a continuation that holds the inputs' as they were, the
  first output's with its pieces written, and each scratch buffer with its pieces written OVER THE CONTENTS IT HAD
  (named, not existentially bound: the patch matrix of the first-layer convolutions keeps its rows 1152 to 1160, the
  row of ones among them, from the reset at time step 0).  The piece lists are the witness the run finds.
-/
import proofs.«175272_g2000206920649175_pallasbulk_1279_5_alg».proof.Proof.RRuns

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

set_option maxHeartbeats 4000000 in
noncomputable def kernelRun0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Σ' (L4 : List (View.Piece (Elt F) S1x1x64x2304 .f32)) (LS0 : List (View.Piece (Elt F) S2x64x2304 .f32)) (LS1 : List (View.Piece (Elt F) S1160x2304 .f32)), { LS2 : List (View.Piece (Elt F) S576x2304 .f32) //
      ∀ (xi5 : Vec F S1x2x64x2304 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ owns (c : Thread nD τ) arg7 fullShare xi5
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ owns (c : Thread nD τ) arg7 fullShare xi5
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)
                ∗ (arg10.view.loc (c : Thread nD τ) ↦[arg10.view.set]{fullShare} arg10.view.writes (Elt F) (harg10.unread xs2) LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, fun xi5 E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg7.eq_unread hf5; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]
    · iexists _; isplitr; · ipureintro; exact harg7.read_unread _
      iexact H5
    isplitl [HS0]; · iexact HS0
    isplitl [HS1]; · iexact HS1
    iexact HS2

end Cert.ReferenceIdeal.HandRun

end
-- ==== Proof.RSoundB.lean ====
/-
  A grid point whose time step is neither 0 nor 31: what the body leaves in each buffer it stores into, as contents
  read back from the pieces the run found, and the body's triple stated over those contents.
-/
import proofs.«175272_g2000206920649175_pallasbulk_1279_5_alg».proof.Proof.RRunB

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

/-! ## The stored pieces cover the buffers -/

/-- The pieces stored into the first output's block tile it (one store of the whole block), so they cover it. -/
theorem coverB_4 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S1x1x64x2304.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).1 S1x1x64x2304.size (by sl_kernel_rfl) y
/-- The pieces stored into the hidden-state scratch tile it in its two layer slabs, so they cover it. -/
theorem scoverB_0 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S2x64x2304.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.1 S1x64x2304.size (by sl_kernel_rfl) y
/-- The pieces stored into the second patch matrix tile it in its nine slabs of 64 rows, so they cover it. -/
theorem scoverB_2 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S576x2304.Idx) :
    ∃ pc ∈ (kernelRun0_B c i arg2 harg2 arg3 harg3 arg4 harg4 arg5 harg5 arg6 harg6 arg7 harg7 arg8 harg8 arg9 harg9 arg10 harg10 hc0 hc1 x0 x1 x2 x3 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 xs0 xs1 xs2).2.2.2.1 S64x2304.size (by sl_kernel_rfl) y

/-! ## What the point leaves, and the body's triple over it -/

/-- What the point leaves, as contents read back: the first output's block, the hidden-state scratch, the first
    patch matrix and the second patch matrix.  Each is the read-back of the pieces the run stored, over junk where
    the pieces cover the buffer; the first patch matrix, whose rows 1152 to 1160 this point does not store, is the
    pieces written over the contents `xs1` it had. -/
noncomputable def resB (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Vec F S1x1x64x2304 .f32 × Vec F S2x64x2304 .f32 × Vec F S1160x2304 .f32 × Vec F S576x2304 .f32 :=
  (VO0_4.read (Elt F) (VO0_4.writes (Elt F) VO0_4.junk (kernelRun0_B c i arg2 harg2 arg3 harg3 arg4 harg4 arg5 harg5 arg6 harg6 arg7 harg7 arg8 harg8 arg9 harg9 arg10 harg10 hc0 hc1 x0 x1 x2 x3 xs0 xs1 xs2).1),
   VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 xs0 xs1 xs2).2.1),
   arg9.view.read (Elt F) (arg9.view.writes (Elt F) (harg9.unread xs1) (kernelRun0_B c i arg2 harg2 arg3 harg3 arg4 harg4 arg5 harg5 arg6 harg6 arg7 harg7 arg8 harg8 arg9 harg9 arg10 harg10 hc0 hc1 x0 x1 x2 x3 xs0 xs1 xs2).2.2.1),
   VS0_2.read (Elt F) (VS0_2.writes (Elt F) VS0_2.junk (kernelRun0_B c i arg2 harg2 arg3 harg3 arg4 harg4 arg5 harg5 arg6 harg6 arg7 harg7 arg8 harg8 arg9 harg9 arg10 harg10 hc0 hc1 x0 x1 x2 x3 xs0 xs1 xs2).2.2.2.1))

set_option maxHeartbeats 4000000 in
/-- The body's triple at such a point, over contents: from the nine memrefs owned — the inputs at their contents,
    the outputs and (at a reset point) the scratch buffers at anything, the carried scratch buffers at the contents
    the point before left — the body runs to a continuation that owns them again, the inputs unchanged, every
    buffer the point stores into at the corresponding component of what the point leaves. -/
theorem soundB (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (xi5 : Vec F S1x2x64x2304 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ owns (c : Thread nD τ) arg7 fullShare xi5
        ∗ owns (c : Thread nD τ) arg8 fullShare xs0
        ∗ owns (c : Thread nD τ) arg9 fullShare xs1
        ∗ owns (c : Thread nD τ) arg10 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (resB c i arg2 harg2 arg3 harg3 arg4 harg4 arg5 harg5 arg6 harg6 arg7 harg7 arg8 harg8 arg9 harg9 arg10 harg10 hc0 hc1 x0 x1 x2 x3 xs0 xs1 xs2).1
            ∗ owns (c : Thread nD τ) arg7 fullShare xi5
            ∗ owns (c : Thread nD τ) arg8 fullShare (resB c i arg2 harg2 arg3 harg3 arg4 harg4 arg5 harg5 arg6 harg6 arg7 harg7 arg8 harg8 arg9 harg9 arg10 harg10 hc0 hc1 x0 x1 x2 x3 xs0 xs1 xs2).2.1
            ∗ owns (c : Thread nD τ) arg9 fullShare (resB c i arg2 harg2 arg3 harg3 arg4 harg4 arg5 harg5 arg6 harg6 arg7 harg7 arg8 harg8 arg9 harg9 arg10 harg10 hc0 hc1 x0 x1 x2 x3 xs0 xs1 xs2).2.2.1
            ∗ owns (c : Thread nD τ) arg10 fullShare (resB c i arg2 harg2 arg3 harg3 arg4 harg4 arg5 harg5 arg6 harg6 arg7 harg7 arg8 harg8 arg9 harg9 arg10 harg10 hc0 hc1 x0 x1 x2 x3 xs0 xs1 xs2).2.2.2) -∗ K ⟨⟩))
      ⊢ wp frame (wpE (defs₀ (F := F)) Variants.none c none) E (cc0__convgru_step_kernel i arg2 harg2 arg3 harg3 arg4 harg4 arg5 harg5 arg6 harg6 arg7 harg7 arg8 harg8 arg9 harg9 arg10 harg10) K := by
  unfold resB; dsimp only
  iintro ⟨H0, H1, H2, H3, H4, H5, HS0, HS1, HS2, Hk⟩
  iapply ((kernelRun0_B c i arg2 harg2 arg3 harg3 arg4 harg4 arg5 harg5 arg6 harg6 arg7 harg7 arg8 harg8 arg9 harg9 arg10 harg10 hc0 hc1 x0 x1 x2 x3 xs0 xs1 xs2).2.2.2.2 xi5 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, ⟨%e4, H4⟩, H5, HS0, HS1, HS2⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverB_4 c i arg2 harg2 arg3 harg3 arg4 harg4 arg5 harg5 arg6 harg6 arg7 harg7 arg8 harg8 arg9 harg9 arg10 harg10 hc0 hc1 x0 x1 x2 x3 xs0 xs1 xs2)
  isplitl [H5]; · iexact H5
  isplitl [HS0]
  · unfold owns; iexists _; isplitr
    swap; · iexact HS0
    ipureintro; exact View.read_writes_of_cover _ _ _ _ _ (scoverB_0 c i arg2 harg2 arg3 harg3 arg4 harg4 arg5 harg5 arg6 harg6 arg7 harg7 arg8 harg8 arg9 harg9 arg10 harg10 hc0 hc1 x0 x1 x2 x3 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverB_2 c i arg2 harg2 arg3 harg3 arg4 harg4 arg5 harg5 arg6 harg6 arg7 harg7 arg8 harg8 arg9 harg9 arg10 harg10 hc0 hc1 x0 x1 x2 x3 xs0 xs1 xs2)

end Cert.ReferenceIdeal.HandRun

end
-- ==== Proof.RRunC.lean ====
/-
  The whole-body run of the reference program's kernel at a grid point whose time step is 31 (the reset not taken,
  the store of the final hidden states taken): on whole memrefs — the four input windows' at their contents, both
  outputs' at anything, the three carried scratch buffers at the contents the point before left — the body runs to
  a continuation that holds the inputs' as they were, both outputs' with their pieces written, and each scratch
  buffer with its pieces written OVER THE CONTENTS IT HAD (named, not existentially bound).  The piece lists are the
  witness the run finds.
-/
import proofs.«175272_g2000206920649175_pallasbulk_1279_5_alg».proof.Proof.RRuns

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

set_option maxHeartbeats 4000000 in
noncomputable def kernelRun0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Σ' (L4 : List (View.Piece (Elt F) S1x1x64x2304 .f32)) (L5 : List (View.Piece (Elt F) S1x2x64x2304 .f32)) (LS0 : List (View.Piece (Elt F) S2x64x2304 .f32)) (LS1 : List (View.Piece (Elt F) S1160x2304 .f32)), { LS2 : List (View.Piece (Elt F) S576x2304 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ owns (c : Thread nD τ) arg8 fullShare xs0
            ∗ owns (c : Thread nD τ) arg9 fullShare xs1
            ∗ owns (c : Thread nD τ) arg10 fullShare xs2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (arg8.view.loc (c : Thread nD τ) ↦[arg8.view.set]{fullShare} arg8.view.writes (Elt F) (harg8.unread xs0) LS0)
                ∗ (arg9.view.loc (c : Thread nD τ) ↦[arg9.view.set]{fullShare} arg9.view.writes (Elt F) (harg9.unread xs1) LS1)
                ∗ (arg10.view.loc (c : Thread nD τ) ↦[arg10.view.set]{fullShare} arg10.view.writes (Elt F) (harg10.unread xs2) LS2)) -∗ K ⟨⟩))
          ⊢ wp frame (wpE (defs₀ (F := F)) Variants.none c none) E (cc0__convgru_step_kernel i arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__convgru_step_kernel_eq_skeleton]; unfold cc0__convgru_step_kernel_skel
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexact HS0
    isplitl [HS1]; · iexact HS1
    iexact HS2

end Cert.ReferenceIdeal.HandRun

end
-- ==== Proof.RSoundC.lean ====
/-
  A grid point whose time step is 31 (the final hidden states stored into the second output): what the body leaves
  in each buffer it stores into, as contents read back from the pieces the run found, and the body's triple stated
  over those contents.
-/
import proofs.«175272_g2000206920649175_pallasbulk_1279_5_alg».proof.Proof.RRunC

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option pp.maxSteps 5000
set_option pp.deepTerms false

/-! ## The stored pieces cover the buffers -/

/-- The pieces stored into the first output's block tile it (one store of the whole block), so they cover it. -/
theorem coverC_4 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S1x1x64x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).1 S1x1x64x2304.size (by sl_kernel_rfl) y
/-- The pieces stored into the second output's block tile it (the final hidden state of each layer, one slab each), so they cover it. -/
theorem coverC_5 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S1x2x64x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.1 S1x1x64x2304.size (by sl_kernel_rfl) y
/-- The pieces stored into the hidden-state scratch tile it in its two layer slabs, so they cover it. -/
theorem scoverC_0 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S2x64x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.1 S1x64x2304.size (by sl_kernel_rfl) y
/-- The pieces stored into the second patch matrix tile it in its nine slabs of 64 rows, so they cover it. -/
theorem scoverC_2 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (y : S576x2304.Idx) :
    ∃ pc ∈ (kernelRun0_C c i arg2 harg2 arg3 harg3 arg4 harg4 arg5 harg5 arg6 harg6 arg7 harg7 arg8 harg8 arg9 harg9 arg10 harg10 hc0 hc1 x0 x1 x2 x3 xs0 xs1 xs2).2.2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 xs0 xs1 xs2).2.2.2.2.1 S64x2304.size (by sl_kernel_rfl) y

/-! ## What the point leaves, and the body's triple over it -/

/-- What the point leaves, as contents read back: the first output's block, the second output's block, the hidden-state scratch, the first
    patch matrix and the second patch matrix.  Each is the read-back of the pieces the run stored, over junk where
    the pieces cover the buffer; the first patch matrix, whose rows 1152 to 1160 this point does not store, is the
    pieces written over the contents `xs1` it had. -/
noncomputable def resC (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) :
    Vec F S1x1x64x2304 .f32 × Vec F S1x2x64x2304 .f32 × Vec F S2x64x2304 .f32 × Vec F S1160x2304 .f32 × Vec F S576x2304 .f32 :=
  (VO0_4.read (Elt F) (VO0_4.writes (Elt F) VO0_4.junk (kernelRun0_C c i arg2 harg2 arg3 harg3 arg4 harg4 arg5 harg5 arg6 harg6 arg7 harg7 arg8 harg8 arg9 harg9 arg10 harg10 hc0 hc1 x0 x1 x2 x3 xs0 xs1 xs2).1),
   VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 xs0 xs1 xs2).2.1),
   VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 xs0 xs1 xs2).2.2.1),
   arg9.view.read (Elt F) (arg9.view.writes (Elt F) (harg9.unread xs1) (kernelRun0_C c i arg2 harg2 arg3 harg3 arg4 harg4 arg5 harg5 arg6 harg6 arg7 harg7 arg8 harg8 arg9 harg9 arg10 harg10 hc0 hc1 x0 x1 x2 x3 xs0 xs1 xs2).2.2.2.1),
   VS0_2.read (Elt F) (VS0_2.writes (Elt F) VS0_2.junk (kernelRun0_C c i arg2 harg2 arg3 harg3 arg4 harg4 arg5 harg5 arg6 harg6 arg7 harg7 arg8 harg8 arg9 harg9 arg10 harg10 hc0 hc1 x0 x1 x2 x3 xs0 xs1 xs2).2.2.2.2.1))

set_option maxHeartbeats 4000000 in
/-- The body's triple at such a point, over contents: from the nine memrefs owned — the inputs at their contents,
    the outputs and (at a reset point) the scratch buffers at anything, the carried scratch buffers at the contents
    the point before left — the body runs to a continuation that owns them again, the inputs unchanged, every
    buffer the point stores into at the corresponding component of what the point leaves. -/
theorem soundC (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
    (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (E : Set ℕ) (K : PUnit → sProp 𝕄) :
    iprop(owns (c : Thread nD τ) arg2 fullShare x0
        ∗ owns (c : Thread nD τ) arg3 fullShare x1
        ∗ owns (c : Thread nD τ) arg4 fullShare x2
        ∗ owns (c : Thread nD τ) arg5 fullShare x3
        ∗ (∃ d, owns (c : Thread nD τ) arg6 fullShare d)
        ∗ (∃ d, owns (c : Thread nD τ) arg7 fullShare d)
        ∗ owns (c : Thread nD τ) arg8 fullShare xs0
        ∗ owns (c : Thread nD τ) arg9 fullShare xs1
        ∗ owns (c : Thread nD τ) arg10 fullShare xs2
        ∗ (iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare (resC c i arg2 harg2 arg3 harg3 arg4 harg4 arg5 harg5 arg6 harg6 arg7 harg7 arg8 harg8 arg9 harg9 arg10 harg10 hc0 hc1 x0 x1 x2 x3 xs0 xs1 xs2).1
            ∗ owns (c : Thread nD τ) arg7 fullShare (resC c i arg2 harg2 arg3 harg3 arg4 harg4 arg5 harg5 arg6 harg6 arg7 harg7 arg8 harg8 arg9 harg9 arg10 harg10 hc0 hc1 x0 x1 x2 x3 xs0 xs1 xs2).2.1
            ∗ owns (c : Thread nD τ) arg8 fullShare (resC c i arg2 harg2 arg3 harg3 arg4 harg4 arg5 harg5 arg6 harg6 arg7 harg7 arg8 harg8 arg9 harg9 arg10 harg10 hc0 hc1 x0 x1 x2 x3 xs0 xs1 xs2).2.2.1
            ∗ owns (c : Thread nD τ) arg9 fullShare (resC c i arg2 harg2 arg3 harg3 arg4 harg4 arg5 harg5 arg6 harg6 arg7 harg7 arg8 harg8 arg9 harg9 arg10 harg10 hc0 hc1 x0 x1 x2 x3 xs0 xs1 xs2).2.2.2.1
            ∗ owns (c : Thread nD τ) arg10 fullShare (resC c i arg2 harg2 arg3 harg3 arg4 harg4 arg5 harg5 arg6 harg6 arg7 harg7 arg8 harg8 arg9 harg9 arg10 harg10 hc0 hc1 x0 x1 x2 x3 xs0 xs1 xs2).2.2.2.2) -∗ K ⟨⟩))
      ⊢ wp frame (wpE (defs₀ (F := F)) Variants.none c none) E (cc0__convgru_step_kernel i arg2 harg2 arg3 harg3 arg4 harg4 arg5 harg5 arg6 harg6 arg7 harg7 arg8 harg8 arg9 harg9 arg10 harg10) K := by
  unfold resC; dsimp only
  iintro ⟨H0, H1, H2, H3, H4, H5, HS0, HS1, HS2, Hk⟩
  iapply ((kernelRun0_C c i arg2 harg2 arg3 harg3 arg4 harg4 arg5 harg5 arg6 harg6 arg7 harg7 arg8 harg8 arg9 harg9 arg10 harg10 hc0 hc1 x0 x1 x2 x3 xs0 xs1 xs2).2.2.2.2.2 E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, ⟨%e4, H4⟩, ⟨%e5, H5⟩, HS0, HS1, HS2⟩
  iapply Hk
  isplitl [H0]; · iexact H0
  isplitl [H1]; · iexact H1
  isplitl [H2]; · iexact H2
  isplitl [H3]; · iexact H3
  isplitl [H4]
  · unfold owns; iexists _; isplitr
    swap; · iexact H4
    ipureintro; exact View.read_writes_of_cover _ _ _ _ _ (coverC_4 c i arg2 harg2 arg3 harg3 arg4 harg4 arg5 harg5 arg6 harg6 arg7 harg7 arg8 harg8 arg9 harg9 arg10 harg10 hc0 hc1 x0 x1 x2 x3 xs0 xs1 xs2)
  isplitl [H5]
  · unfold owns; iexists _; isplitr
    swap; · iexact H5
    ipureintro; exact View.read_writes_of_cover _ _ _ _ _ (coverC_5 c i arg2 harg2 arg3 harg3 arg4 harg4 arg5 harg5 arg6 harg6 arg7 harg7 arg8 harg8 arg9 harg9 arg10 harg10 hc0 hc1 x0 x1 x2 x3 xs0 xs1 xs2)
  isplitl [HS0]
  · unfold owns; iexists _; isplitr
    swap; · iexact HS0
    ipureintro; exact View.read_writes_of_cover _ _ _ _ _ (scoverC_0 c i arg2 harg2 arg3 harg3 arg4 harg4 arg5 harg5 arg6 harg6 arg7 harg7 arg8 harg8 arg9 harg9 arg10 harg10 hc0 hc1 x0 x1 x2 x3 xs0 xs1 xs2)
  isplitl [HS1]
  · unfold owns; iexists _; isplitr
    swap; · iexact HS1
    ipureintro; rfl
  unfold owns; iexists _; isplitr
  swap; · iexact HS2
  ipureintro; exact View.read_writes_of_cover _ _ _ _ _ (scoverC_2 c i arg2 harg2 arg3 harg3 arg4 harg4 arg5 harg5 arg6 harg6 arg7 harg7 arg8 harg8 arg9 harg9 arg10 harg10 hc0 hc1 x0 x1 x2 x3 xs0 xs1 xs2)

end Cert.ReferenceIdeal.HandRun

end
-- ==== Proof.RFrame.lean ====
/-
  The frame of the reference program: the recurrence of what its buffers hold grid point by grid point (a two-layer
  convolutional GRU: at t = 0 the state and the patch matrices are reset, at every point one step is taken from the
  hidden states and the bias row the scratch buffers carry, at t = 31 the states are copied out), the pipeline's proof
  data over it, the body obligation from the three control cases' runs, the run of @main through the launch theorem for
  a kernel that carries scratch between points and is followed by host operations, and the frame claim.
-/
import proofs.«175272_g2000206920649175_pallasbulk_1279_5_alg».proof.Proof.RKit
import proofs.«175272_g2000206920649175_pallasbulk_1279_5_alg».proof.Proof.RSoundA
import proofs.«175272_g2000206920649175_pallasbulk_1279_5_alg».proof.Proof.RSoundB
import proofs.«175272_g2000206920649175_pallasbulk_1279_5_alg».proof.Proof.RSoundC

set_option maxRecDepth 16384

noncomputable section

namespace Cert.ReferenceIdeal.Hand

open Cert.ReferenceIdeal Cert.ReferenceIdeal.Gen Cert.ReferenceIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after each grid point -/

/-- What a grid point leaves: the time step's output block, the block of last states (meaningful only after a point
    with t = 31), and the three scratch buffers the kernel carries to the next point — the hidden states of the two
    layers, the patch matrix of the gates' product and the patch matrix of the candidate's product. -/
abbrev St (F : FTy → Type) [FloatOps F] : Type :=
  Vec F S1x1x64x2304 .f32 × Vec F S1x2x64x2304 .f32 × Vec F S2x64x2304 .f32 × Vec F S1160x2304 .f32 × Vec F S576x2304 .f32

/-- The block of last states where the body stores nothing into it (t ≠ 31): nothing consults it, the window is
    idle there and not written back. -/
def idleLast : Vec F S1x2x64x2304 .f32 := fun _ => Classical.choice (Elt.nonempty F _)

/-- After a point with t = 0: the state is reset, nothing of what the point before left is read. -/
def stA (c : Dev nD) (t : Fin cfg0.N) (h0 : t.val % 32 = 0) (h1 : ¬t.val % 32 = 31) : St F :=
  ((resA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)).1, idleLast,
   (resA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)).2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)).2.2.1,
   (resA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t)).2.2.2)

/-- After a point with 0 < t < 31: one recurrence step from what the point before left in the scratch buffers. -/
def stB (c : Dev nD) (t : Fin cfg0.N) (h0 : ¬t.val % 32 = 0) (h1 : ¬t.val % 32 = 31) (p : St F) : St F :=
  ((resB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (p).2.2.1 (p).2.2.2.1 (p).2.2.2.2).1, idleLast,
   (resB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (p).2.2.1 (p).2.2.2.1 (p).2.2.2.2).2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (p).2.2.1 (p).2.2.2.1 (p).2.2.2.2).2.2.1,
   (resB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) (p).2.2.1 (p).2.2.2.1 (p).2.2.2.2).2.2.2)

/-- After a point with t = 31: one recurrence step, and the two layers' states copied into the block of last states. -/
def stC (c : Dev nD) (t : Fin cfg0.N) (h0 : ¬t.val % 32 = 0) (h1 : t.val % 32 = 31) (p : St F) : St F :=
  ((resC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (p).2.2.1 (p).2.2.2.1 (p).2.2.2.2).1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (p).2.2.1 (p).2.2.2.1 (p).2.2.2.2).2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (p).2.2.1 (p).2.2.2.1 (p).2.2.2.2).2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (p).2.2.1 (p).2.2.2.1 (p).2.2.2.2).2.2.2.1,
   (resC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) (p).2.2.1 (p).2.2.2.1 (p).2.2.2.2).2.2.2.2)

/-- The recurrence over the 64 grid points (2 batch blocks × 32 time steps, time innermost): what the buffers hold
    after the body at position `n`. -/
def outsAt0 (c : Dev nD) : (n : ℕ) → n < cfg0.N → St F
  | 0, hn => stA m c ⟨0, hn⟩ (Nat.zero_mod _) (show ¬(0 % 32 = 31) from by decide)
  | n + 1, hn =>
    if h0 : (n + 1) % 32 = 0 then
      if h1 : (n + 1) % 32 = 31 then False.elim (by omega)
      else stA m c ⟨n + 1, hn⟩ h0 h1
    else
      if h1 : (n + 1) % 32 = 31 then stC m c ⟨n + 1, hn⟩ h0 h1 (outsAt0 c n (Nat.lt_of_succ_lt hn))
      else stB m c ⟨n + 1, hn⟩ h0 h1 (outsAt0 c n (Nat.lt_of_succ_lt hn))

theorem outsAt0_A (c : Dev nD) (t : Fin cfg0.N) (h0 : t.val % 32 = 0) (h1 : ¬t.val % 32 = 31) :
    outsAt0 m c t.val t.isLt = stA m c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 32 = 0) (h1 : ¬t.val % 32 = 31) :
    outsAt0 m c t.val t.isLt = stB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 32 = 0) (h1 : t.val % 32 = 31) :
    outsAt0 m c t.val t.isLt = stC m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- The launch's invariant with the scratch operands as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- The invariant before position `n`: before the first point the scratch buffers hold anything; afterwards each
    holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.1) ∗ owns (c : Thread nD τ) scM0_1 fullShare ((outsAt0 m c n hn).2.2.2.1) ∗ owns (c : Thread nD τ) scM0_2 fullShare ((outsAt0 m c n hn).2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.1) ∗ owns (c : Thread nD τ) scM0_1 fullShare ((outsAt0 m c (n - 1) (by omega)).2.2.2.1) ∗ owns (c : Thread nD τ) scM0_2 fullShare ((outsAt0 m c (n - 1) (by omega)).2.2.2.2)) ∗ (∃ r, prngReg c r)) := by
  cases n with
  | zero => exact absurd rfl hz
  | succ n => rfl

/-! ## The pipeline's proof data -/

/-- The proof data of the pipeline on core `c`: the arrays as the region finds them; after the body at point `t` each
    input's buffer at its block, the outputs' at the recurrence's components; the invariant `PhiS`; nothing owed;
    full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt).1
    | ⟨5, _⟩ => (outsAt0 m c t.val t.isLt).2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt).1 := by dsimp only [dats]
theorem after0_5 (c : Dev nD) (t : Fin cfg0.N) : (dats m 0 c).after 5 t = (outsAt0 m c t.val t.isLt).2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## Where the windows are idle -/

theorem hlive0_0 : ∀ t : Fin cfg0.N, cfg0.idle 0 (grid0.coords t) = false := by decide +kernel
theorem hlive0_1 : ∀ t : Fin cfg0.N, cfg0.idle 1 (grid0.coords t) = false := by decide +kernel
theorem hlive0_2 : ∀ t : Fin cfg0.N, cfg0.idle 2 (grid0.coords t) = false := by decide +kernel
theorem hlive0_3 : ∀ t : Fin cfg0.N, cfg0.idle 3 (grid0.coords t) = false := by decide +kernel
theorem hlive0_4 : ∀ t : Fin cfg0.N, cfg0.idle 4 (grid0.coords t) = false := by decide +kernel
/-- The block of last states is stored only at t = 31: elsewhere the window is idle and not written back. -/
theorem hidle0_5 : ∀ t : Fin cfg0.N, ¬t.val % 32 = 31 → cfg0.idle 5 (grid0.coords t) = true := by decide +kernel
theorem hnoflush0_5 : ∀ t : Fin cfg0.N, ¬t.val % 32 = 31 → (cfg0.win 5).flush t = false := by decide +kernel
theorem hlive0_5 : ∀ t : Fin cfg0.N, t.val % 32 = 31 → cfg0.idle 5 (grid0.coords t) = false := by decide +kernel

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point: the inputs' staging buffers hold their blocks; the time coordinate says which of the three
    control cases the point is in; the invariant hands the body the scratch buffers at what the point before left
    (at anything at the first point) and takes them back at this point's contents; the core owes nothing. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val % 32 = 0
  · have h1 : ¬t.val % 32 = 31 := by omega
    rw [show (dats m 0 c).leavesExact 0 t = owns (c : Thread nD τ) (ms0_0 t) fullShare ((dats m 0 c).after 0 t) from by
      unfold Dat.leavesExact; rw [hlive0_0 t], after0_0]
    rw [show (dats m 0 c).leavesExact 1 t = owns (c : Thread nD τ) (ms0_1 t) fullShare ((dats m 0 c).after 1 t) from by
      unfold Dat.leavesExact; rw [hlive0_1 t], after0_1]
    rw [show (dats m 0 c).leavesExact 2 t = owns (c : Thread nD τ) (ms0_2 t) fullShare ((dats m 0 c).after 2 t) from by
      unfold Dat.leavesExact; rw [hlive0_2 t], after0_2]
    rw [show (dats m 0 c).leavesExact 3 t = owns (c : Thread nD τ) (ms0_3 t) fullShare ((dats m 0 c).after 3 t) from by
      unfold Dat.leavesExact; rw [hlive0_3 t], after0_3]
    rw [show (dats m 0 c).leavesExact 4 t = owns (c : Thread nD τ) (ms0_4 t) fullShare ((dats m 0 c).after 4 t) from by
      unfold Dat.leavesExact; rw [hlive0_4 t], after0_4]
    rw [Dat.leavesExact_idle (dats m 0 c) 5 t (hidle0_5 t h1) (hnoflush0_5 t h1)]
    rw [outsAt0_A m c t h0 h1]
    unfold stA; (try dsimp only)
    by_cases hz : t.val = 0
    · rw [PhiS_castSucc m c t, PhiS_zero m c _ _ hz, PhiA0_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (soundA c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t) (iblk m c 2 t) (iblk m c 3 t) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexists _; iexact HS0
      isplitl [HS1]; · iexists _; iexact HS1
      isplitl [HS2]; · iexists _; iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by intro hz; rw [hz] at h0; exact h0 (Nat.zero_mod _)
    by_cases h1 : t.val % 32 = 31
    · rw [show (dats m 0 c).leavesExact 5 t = owns (c : Thread nD τ) (ms0_5 t) fullShare ((dats m 0 c).after 5 t) from by
        unfold Dat.leavesExact; rw [hlive0_5 t h1], after0_5]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [outsAt0_C m c t h0 h1]
      unfold stC; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (soundC c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (iblk m c 2 t) (iblk m c 3 t) _ _ _ Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dats m 0 c) 5 t (hidle0_5 t h1) (hnoflush0_5 t h1)]
      rw [show (dats m 0 c).leavesExact 0 t = owns (c : Thread nD τ) (ms0_0 t) fullShare ((dats m 0 c).after 0 t) from by
        unfold Dat.leavesExact; rw [hlive0_0 t], after0_0]
      rw [show (dats m 0 c).leavesExact 1 t = owns (c : Thread nD τ) (ms0_1 t) fullShare ((dats m 0 c).after 1 t) from by
        unfold Dat.leavesExact; rw [hlive0_1 t], after0_1]
      rw [show (dats m 0 c).leavesExact 2 t = owns (c : Thread nD τ) (ms0_2 t) fullShare ((dats m 0 c).after 2 t) from by
        unfold Dat.leavesExact; rw [hlive0_2 t], after0_2]
      rw [show (dats m 0 c).leavesExact 3 t = owns (c : Thread nD τ) (ms0_3 t) fullShare ((dats m 0 c).after 3 t) from by
        unfold Dat.leavesExact; rw [hlive0_3 t], after0_3]
      rw [show (dats m 0 c).leavesExact 4 t = owns (c : Thread nD τ) (ms0_4 t) fullShare ((dats m 0 c).after 4 t) from by
        unfold Dat.leavesExact; rw [hlive0_4 t], after0_4]
      rw [outsAt0_B m c t h0 h1]
      unfold stB; (try dsimp only)
      rw [PhiS_castSucc m c t, PhiS_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩⟩
      iapply (soundB c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (iblk m c 2 t) (iblk m c 3 t) _ _ _ _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hg]
      · isplitl [HS0 HS1 HS2]
        · isplitl [HS0]; · iexact HS0
          isplitl [HS1]; · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The library's body obligation, at every point. -/
theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of @main on the TensorCores terminates, and every final state has every array of the
    pipeline at what the library computes from the proof data and every other unscoped buffer as the lines after the
    region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: every weakly fair execution terminates, nothing faults, and the three argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- What the run leaves in the two result buffers (neither is an array of the pipeline: each is written by the host
    operations after the region, from the arrays the pipeline leaves), beside the unchanged arguments. -/
theorem run_values : θ_run defs (onTc (τ := τ) (main (F := F))) ⟨m, fun _ => 0, ρ⟩ (fun r => ∀ c : Dev nD,
      r.2.mem ((c.tc : Thread nD τ).loc main_v196) = Pipeline.afterTail₀ cfgs (dats m) 0 (V0 m) [hostOps1] c main_v196
      ∧ r.2.mem ((c.tc : Thread nD τ).loc main_v199) = Pipeline.afterTail₀ cfgs (dats m) 0 (V0 m) [hostOps1] c main_v199
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v196 (Pipeline.mem_restRefs_of main_v196 (by decide) (by decide)),
     (h c).2 main_v199 (Pipeline.mem_restRefs_of main_v199 (by decide) (by decide)),
     ((h c).2 main_arg0 (Pipeline.mem_restRefs_of main_arg0 (by decide) (by decide))).trans (W_main_arg0 m (dats m) c),
     ((h c).1 2).trans ((((dats m) 0 c).arrAt_in 2 rfl _).trans ((A_eq m c 2).trans (V_main_arg1 m c))),
     ((h c).1 3).trans ((((dats m) 0 c).arrAt_in 3 rfl _).trans ((A_eq m c 3).trans (V_main_arg2 m c)))⟩) (run_main m ρ)

end Cert.ReferenceIdeal.Hand

end
-- ==== Proof.KLayout.lean ====
/-
  The output block as a re-layout of the hidden state.

  At every time step the kernel computes the second layer's new hidden state as one [64, 2304] value (channel, lane),
  lane = 576 · (image in the tile) + pixel, and stores it twice: whole, as the slab of layer 1 of the carried hidden
  state, and cut into its four lane quarters, as the four batch tiles of the output block.  So the output block a step
  leaves is the state it leaves, re-indexed.  Nothing of the arithmetic is opened: both stores are read back at one
  index as the same value at the same (channel, lane).  At the last step the final-state block is stored from loads
  of the hidden-state scratch made after the step's stores: it is both layers' new states, re-indexed the same way.
-/
import proofs.«175272_g2000206920649175_pallasbulk_1279_5_alg».proof.Proof.KSoundA
import proofs.«175272_g2000206920649175_pallasbulk_1279_5_alg».proof.Proof.KSoundB
import proofs.«175272_g2000206920649175_pallasbulk_1279_5_alg».proof.Proof.KSoundC
import Idealize.ShloMosaic.Lib.ValueIdx
import Idealize.ShloMosaic.Lib.Pipeline.Value

set_option maxRecDepth 16384

noncomputable section

namespace Cert.KernelIdeal.HandRun

open Cert.KernelIdeal Cert.KernelIdeal.Gen

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Reading a list of stored pieces at one index -/

section Pieces
variable {Val : EltTy → Type} [∀ e, Nonempty (Val e)] {s : Shape} {e : EltTy}

/-- An index whose coordinates are the piece's offsets plus a local index's lies under the last-stored piece and reads
    that piece's payload at the local index. -/
theorem canon_head (off size : Fin s.rank → Nat) (inb : ∀ a, off a + size a ≤ s.size a)
    (w : (Rect.unit off size inb).shape.Idx → Val e) (L : List (View.Piece Val s e)) (y : s.Idx)
    (x : (Rect.unit off size inb).shape.Idx) (h : ∀ a, (y a).val = off a + (x a).val) :
    View.canon (⟨Rect.unit off size inb, w⟩ :: L) y = w x := by
  have hy : (Rect.unit off size inb).emb x = y :=
    funext fun a => Fin.ext (by rw [Rect.emb_apply, Rect.off_unit, Rect.stride_unit, Nat.one_mul]; exact (h a).symm)
  rw [← hy]; exact View.canon_cons_emb _ w L x

/-- An index that misses the last-stored piece on one axis reads what the earlier pieces left. -/
theorem canon_skip (off size : Fin s.rank → Nat) (inb : ∀ a, off a + size a ≤ s.size a)
    (w : (Rect.unit off size inb).shape.Idx → Val e) (L : List (View.Piece Val s e)) (y : s.Idx) (a : Fin s.rank)
    (h : (y a).val < off a ∨ off a + size a ≤ (y a).val) :
    View.canon (⟨Rect.unit off size inb, w⟩ :: L) y = View.canon L y :=
  View.canon_cons_of_not_mem _ L fun (hm : y ∈ (Rect.unit off size inb).set) => by
    have := (Rect.mem_set_unit (off := off) (size := size) (inb := inb) (i := y)).mp hm a
    omega

end Pieces

/-! ## The stored lists of this kernel, read at one index -/

/-- One of four, by a batch tile's number. -/
def sel4 {α : Type} (w0 w1 w2 w3 : α) : Fin 4 → α
  | ⟨0, _⟩ => w0 | ⟨1, _⟩ => w1 | ⟨2, _⟩ => w2 | ⟨3, _⟩ => w3

/-- Four stores, one per batch tile (the last stored first), into a block of four tiles: tile `bb` reads the store made
    at tile `bb`, at the same channel and pixel. -/
theorem canon_tiles (i3 : ∀ a, (![0, 0, 3, 0, 0] : Fin 5 → ℕ) a + S1x1x1x64x576.size a ≤ S1x1x4x64x576.size a)
    (i2 : ∀ a, (![0, 0, 2, 0, 0] : Fin 5 → ℕ) a + S1x1x1x64x576.size a ≤ S1x1x4x64x576.size a)
    (i1 : ∀ a, (![0, 0, 1, 0, 0] : Fin 5 → ℕ) a + S1x1x1x64x576.size a ≤ S1x1x4x64x576.size a)
    (i0 : ∀ a, (![0, 0, 0, 0, 0] : Fin 5 → ℕ) a + S1x1x1x64x576.size a ≤ S1x1x4x64x576.size a)
    (w3 w2 w1 w0 : FVec F S1x1x1x64x576 .f32) (bb : Fin 4) (ch : Fin 64) (hw : Fin 576) :
    View.canon [(⟨Rect.unit (s := S1x1x4x64x576) ![0, 0, 3, 0, 0] S1x1x1x64x576.size i3, w3⟩ : View.Piece (Elt F) S1x1x4x64x576 .f32),
        ⟨Rect.unit (s := S1x1x4x64x576) ![0, 0, 2, 0, 0] S1x1x1x64x576.size i2, w2⟩,
        ⟨Rect.unit (s := S1x1x4x64x576) ![0, 0, 1, 0, 0] S1x1x1x64x576.size i1, w1⟩,
        ⟨Rect.unit (s := S1x1x4x64x576) ![0, 0, 0, 0, 0] S1x1x1x64x576.size i0, w0⟩] (ix5 0 0 bb ch hw)
      = sel4 w0 w1 w2 w3 bb (ix5 0 0 0 ch hw) := by
  have hx : ∀ (k : ℕ) (hk : k < 4) (a : Fin 5), ((ix5 0 0 ⟨k, hk⟩ ch hw : S1x1x4x64x576.Idx) a).val
      = (![0, 0, k, 0, 0] : Fin 5 → ℕ) a + ((ix5 0 0 0 ch hw : S1x1x1x64x576.Idx) a).val := fun k hk a =>
    match a with | ⟨0, _⟩ => rfl | ⟨1, _⟩ => rfl | ⟨2, _⟩ => rfl | ⟨3, _⟩ => (Nat.zero_add _).symm | ⟨4, _⟩ => (Nat.zero_add _).symm
  match bb with
  | ⟨0, h⟩ =>
    refine Eq.trans (canon_skip (Val := Elt F) (e := .f32) (s := S1x1x4x64x576) ![0, 0, 3, 0, 0] S1x1x1x64x576.size i3 w3 _ (ix5 0 0 ⟨0, h⟩ ch hw) (2 : Fin 5) (Or.inl (show (0 : ℕ) < 3 from by omega))) ?_
    refine Eq.trans (canon_skip (Val := Elt F) (e := .f32) (s := S1x1x4x64x576) ![0, 0, 2, 0, 0] S1x1x1x64x576.size i2 w2 _ (ix5 0 0 ⟨0, h⟩ ch hw) (2 : Fin 5) (Or.inl (show (0 : ℕ) < 2 from by omega))) ?_
    refine Eq.trans (canon_skip (Val := Elt F) (e := .f32) (s := S1x1x4x64x576) ![0, 0, 1, 0, 0] S1x1x1x64x576.size i1 w1 _ (ix5 0 0 ⟨0, h⟩ ch hw) (2 : Fin 5) (Or.inl (show (0 : ℕ) < 1 from by omega))) ?_
    exact canon_head (Val := Elt F) (e := .f32) (s := S1x1x4x64x576) ![0, 0, 0, 0, 0] S1x1x1x64x576.size i0 w0 _ (ix5 0 0 ⟨0, h⟩ ch hw) (ix5 0 0 0 ch hw) (hx 0 h)
  | ⟨1, h⟩ =>
    refine Eq.trans (canon_skip (Val := Elt F) (e := .f32) (s := S1x1x4x64x576) ![0, 0, 3, 0, 0] S1x1x1x64x576.size i3 w3 _ (ix5 0 0 ⟨1, h⟩ ch hw) (2 : Fin 5) (Or.inl (show (1 : ℕ) < 3 from by omega))) ?_
    refine Eq.trans (canon_skip (Val := Elt F) (e := .f32) (s := S1x1x4x64x576) ![0, 0, 2, 0, 0] S1x1x1x64x576.size i2 w2 _ (ix5 0 0 ⟨1, h⟩ ch hw) (2 : Fin 5) (Or.inl (show (1 : ℕ) < 2 from by omega))) ?_
    exact canon_head (Val := Elt F) (e := .f32) (s := S1x1x4x64x576) ![0, 0, 1, 0, 0] S1x1x1x64x576.size i1 w1 _ (ix5 0 0 ⟨1, h⟩ ch hw) (ix5 0 0 0 ch hw) (hx 1 h)
  | ⟨2, h⟩ =>
    refine Eq.trans (canon_skip (Val := Elt F) (e := .f32) (s := S1x1x4x64x576) ![0, 0, 3, 0, 0] S1x1x1x64x576.size i3 w3 _ (ix5 0 0 ⟨2, h⟩ ch hw) (2 : Fin 5) (Or.inl (show (2 : ℕ) < 3 from by omega))) ?_
    exact canon_head (Val := Elt F) (e := .f32) (s := S1x1x4x64x576) ![0, 0, 2, 0, 0] S1x1x1x64x576.size i2 w2 _ (ix5 0 0 ⟨2, h⟩ ch hw) (ix5 0 0 0 ch hw) (hx 2 h)
  | ⟨3, h⟩ =>
    exact canon_head (Val := Elt F) (e := .f32) (s := S1x1x4x64x576) ![0, 0, 3, 0, 0] S1x1x1x64x576.size i3 w3 _ (ix5 0 0 ⟨3, h⟩ ch hw) (ix5 0 0 0 ch hw) (hx 3 h)

/-- The hidden state after the slab of layer 1 was stored last: layer 1 reads that slab's payload. -/
theorem canon_slab1 (i1 : ∀ a, (![1, 0, 0] : Fin 3 → ℕ) a + S1x64x2304.size a ≤ S2x64x2304.size a)
    (w1 : FVec F S1x64x2304 .f32) (L : List (View.Piece (Elt F) S2x64x2304 .f32)) (ch : Fin 64) (ln : Fin 2304) :
    View.canon ((⟨Rect.unit (s := S2x64x2304) ![1, 0, 0] S1x64x2304.size i1, w1⟩ : View.Piece (Elt F) S2x64x2304 .f32) :: L) (ix3 1 ch ln)
      = w1 (ix3 0 ch ln) :=
  canon_head (Val := Elt F) (e := .f32) (s := S2x64x2304) ![1, 0, 0] S1x64x2304.size i1 w1 L (ix3 1 ch ln) (ix3 0 ch ln)
    (fun a => match a with | ⟨0, _⟩ => rfl | ⟨1, _⟩ => (Nat.zero_add _).symm | ⟨2, _⟩ => (Nat.zero_add _).symm)

/-- And layer 0 reads the slab stored before it. -/
theorem canon_slab0 (i1 : ∀ a, (![1, 0, 0] : Fin 3 → ℕ) a + S1x64x2304.size a ≤ S2x64x2304.size a)
    (i0 : ∀ a, (![0, 0, 0] : Fin 3 → ℕ) a + S1x64x2304.size a ≤ S2x64x2304.size a)
    (w1 w0 : FVec F S1x64x2304 .f32) (L : List (View.Piece (Elt F) S2x64x2304 .f32)) (ch : Fin 64) (ln : Fin 2304) :
    View.canon ((⟨Rect.unit (s := S2x64x2304) ![1, 0, 0] S1x64x2304.size i1, w1⟩ : View.Piece (Elt F) S2x64x2304 .f32)
        :: ⟨Rect.unit (s := S2x64x2304) ![0, 0, 0] S1x64x2304.size i0, w0⟩ :: L) (ix3 0 ch ln)
      = w0 (ix3 0 ch ln) :=
  (canon_skip (Val := Elt F) (e := .f32) (s := S2x64x2304) ![1, 0, 0] S1x64x2304.size i1 w1 _ (ix3 0 ch ln) (0 : Fin 3) (Or.inl (show (0 : ℕ) < 1 from by omega))).trans
    (canon_head (Val := Elt F) (e := .f32) (s := S2x64x2304) ![0, 0, 0] S1x64x2304.size i0 w0 L (ix3 0 ch ln) (ix3 0 ch ln)
      (fun a => match a with | ⟨0, _⟩ => rfl | ⟨1, _⟩ => (Nat.zero_add _).symm | ⟨2, _⟩ => (Nat.zero_add _).symm))

/-! ## The stored payloads as re-layouts of one computed value

The second layer's new state is one [64, 2304] value (channel, lane), lane = 576 · (batch tile) + pixel.  It is stored
into the hidden-state slab of layer 1 with a unit axis added, and its four lane quarters into the four batch tiles of
the output block, each with three unit axes added. -/

/-- The slab payload at (0, channel, lane) is the value at (channel, lane). -/
theorem pay71_apply (a : FVec F S64x2304 .f32) (b : FVec F S64x576 .bf16) (c d : FVec F S64x2304 .f32) (e : Vec F S576x2304 .bf16)
    (ch : Fin 64) (ln : Fin 2304) :
    k0_pay71 a b c d e (ix3 0 ch ln) = k0_pay70 a b c d e (ix2 ch ln) := by
  unfold k0_pay71
  refine shapeCast_apply _ _ (ix3 0 ch ln) (ix2 ch ln) ?_
  rw [Shape.rowMajor_val_two, Shape.rowMajor_val_three]
  exact (by omega : ch.val * 2304 + ln.val = (0 * 64 + ch.val) * 2304 + ln.val)

/-- Batch tile 0's payload at (0, 0, 0, channel, pixel) is the value at (channel, 0 + pixel). -/
theorem pay72_apply (a : FVec F S64x2304 .f32) (b : FVec F S64x576 .bf16) (c d : FVec F S64x2304 .f32) (e : Vec F S576x2304 .bf16)
    (ch : Fin 64) (hw : Fin 576) :
    k0_pay72 a b c d e (ix5 0 0 0 ch hw) = k0_pay70 a b c d e (ix2 ch ⟨0 + hw.val, by have := hw.isLt; omega⟩) := by
  unfold k0_pay72
  refine (shapeCast_apply _ _ (ix5 0 0 0 ch hw) (ix2 ch hw) ?_).trans ?_
  · rw [Shape.rowMajor_val_two, Shape.rowMajor_val_five]
    exact (by omega : ch.val * 576 + hw.val = (((0 * 1 + 0) * 1 + 0) * 64 + ch.val) * 576 + hw.val)
  · exact extractStridedSlice_apply _ _ _ (ix2 ch hw) (ix2 ch ⟨0 + hw.val, by have := hw.isLt; omega⟩)
      (fun a => match a with | ⟨0, _⟩ => (Nat.zero_add _).symm | ⟨1, _⟩ => rfl)

/-- Batch tile 1's payload at (0, 0, 0, channel, pixel) is the value at (channel, 576 + pixel). -/
theorem pay73_apply (a : FVec F S64x2304 .f32) (b : FVec F S64x576 .bf16) (c d : FVec F S64x2304 .f32) (e : Vec F S576x2304 .bf16)
    (ch : Fin 64) (hw : Fin 576) :
    k0_pay73 a b c d e (ix5 0 0 0 ch hw) = k0_pay70 a b c d e (ix2 ch ⟨576 + hw.val, by have := hw.isLt; omega⟩) := by
  unfold k0_pay73
  refine (shapeCast_apply _ _ (ix5 0 0 0 ch hw) (ix2 ch hw) ?_).trans ?_
  · rw [Shape.rowMajor_val_two, Shape.rowMajor_val_five]
    exact (by omega : ch.val * 576 + hw.val = (((0 * 1 + 0) * 1 + 0) * 64 + ch.val) * 576 + hw.val)
  · exact extractStridedSlice_apply _ _ _ (ix2 ch hw) (ix2 ch ⟨576 + hw.val, by have := hw.isLt; omega⟩)
      (fun a => match a with | ⟨0, _⟩ => (Nat.zero_add _).symm | ⟨1, _⟩ => rfl)

/-- Batch tile 2's payload at (0, 0, 0, channel, pixel) is the value at (channel, 1152 + pixel). -/
theorem pay74_apply (a : FVec F S64x2304 .f32) (b : FVec F S64x576 .bf16) (c d : FVec F S64x2304 .f32) (e : Vec F S576x2304 .bf16)
    (ch : Fin 64) (hw : Fin 576) :
    k0_pay74 a b c d e (ix5 0 0 0 ch hw) = k0_pay70 a b c d e (ix2 ch ⟨1152 + hw.val, by have := hw.isLt; omega⟩) := by
  unfold k0_pay74
  refine (shapeCast_apply _ _ (ix5 0 0 0 ch hw) (ix2 ch hw) ?_).trans ?_
  · rw [Shape.rowMajor_val_two, Shape.rowMajor_val_five]
    exact (by omega : ch.val * 576 + hw.val = (((0 * 1 + 0) * 1 + 0) * 64 + ch.val) * 576 + hw.val)
  · exact extractStridedSlice_apply _ _ _ (ix2 ch hw) (ix2 ch ⟨1152 + hw.val, by have := hw.isLt; omega⟩)
      (fun a => match a with | ⟨0, _⟩ => (Nat.zero_add _).symm | ⟨1, _⟩ => rfl)

/-- Batch tile 3's payload at (0, 0, 0, channel, pixel) is the value at (channel, 1728 + pixel). -/
theorem pay75_apply (a : FVec F S64x2304 .f32) (b : FVec F S64x576 .bf16) (c d : FVec F S64x2304 .f32) (e : Vec F S576x2304 .bf16)
    (ch : Fin 64) (hw : Fin 576) :
    k0_pay75 a b c d e (ix5 0 0 0 ch hw) = k0_pay70 a b c d e (ix2 ch ⟨1728 + hw.val, by have := hw.isLt; omega⟩) := by
  unfold k0_pay75
  refine (shapeCast_apply _ _ (ix5 0 0 0 ch hw) (ix2 ch hw) ?_).trans ?_
  · rw [Shape.rowMajor_val_two, Shape.rowMajor_val_five]
    exact (by omega : ch.val * 576 + hw.val = (((0 * 1 + 0) * 1 + 0) * 64 + ch.val) * 576 + hw.val)
  · exact extractStridedSlice_apply _ _ _ (ix2 ch hw) (ix2 ch ⟨1728 + hw.val, by have := hw.isLt; omega⟩)
      (fun a => match a with | ⟨0, _⟩ => (Nat.zero_add _).symm | ⟨1, _⟩ => rfl)

/-! ## The three cases -/

/-- The output block is the second layer's new hidden state, cut into the four batch tiles: batch tile `bb`, channel
    `ch`, pixel `hw` of the block is lane `576 · bb + hw` of channel `ch` of layer 1 of the state the step leaves. -/
theorem yblockA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16)
    (bb : Fin 4) (ch : Fin 64) (hw : Fin 576) :
    (resA c i arg2 harg2 arg3 harg3 arg4 harg4 arg5 harg5 arg6 harg6 arg7 harg7 arg8 harg8 arg9 harg9 arg10 harg10 arg11 harg11 hc0 hc1 x0 x1 x2 x3 x4).1 (ix5 0 0 bb ch hw)
      = (resA c i arg2 harg2 arg3 harg3 arg4 harg4 arg5 harg5 arg6 harg6 arg7 harg7 arg8 harg8 arg9 harg9 arg10 harg10 arg11 harg11 hc0 hc1 x0 x1 x2 x3 x4).2.1 (ix3 1 ch ⟨576 * bb.val + hw.val, by have := bb.isLt; have := hw.isLt; omega⟩) := by
  simp only [resA, outA_5, soutA_0]
  rw [View.read_writes_junk_eq_canon, View.read_writes_junk_eq_canon]
  unfold kernelRun0_A
  dsimp only
  refine Eq.trans (canon_tiles _ _ _ _ _ _ _ _ bb ch hw) ?_
  refine Eq.trans ?_ (Eq.symm (canon_slab1 _ _ _ ch _))
  refine Eq.trans ?_ (Eq.symm (pay71_apply _ _ _ _ _ ch _))
  match bb with
  | ⟨0, _⟩ => exact pay72_apply _ _ _ _ _ ch hw
  | ⟨1, _⟩ => exact pay73_apply _ _ _ _ _ ch hw
  | ⟨2, _⟩ => exact pay74_apply _ _ _ _ _ ch hw
  | ⟨3, _⟩ => exact pay75_apply _ _ _ _ _ ch hw

/-- The output block is the second layer's new hidden state, cut into the four batch tiles: batch tile `bb`, channel
    `ch`, pixel `hw` of the block is lane `576 · bb + hw` of channel `ch` of layer 1 of the state the step leaves. -/
theorem yblockB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
    (bb : Fin 4) (ch : Fin 64) (hw : Fin 576) :
    (resB c i arg2 harg2 arg3 harg3 arg4 harg4 arg5 harg5 arg6 harg6 arg7 harg7 arg8 harg8 arg9 harg9 arg10 harg10 arg11 harg11 hc0 hc1 x0 x1 x2 x3 x4 xs0 xs1 xs2).1 (ix5 0 0 bb ch hw)
      = (resB c i arg2 harg2 arg3 harg3 arg4 harg4 arg5 harg5 arg6 harg6 arg7 harg7 arg8 harg8 arg9 harg9 arg10 harg10 arg11 harg11 hc0 hc1 x0 x1 x2 x3 x4 xs0 xs1 xs2).2.1 (ix3 1 ch ⟨576 * bb.val + hw.val, by have := bb.isLt; have := hw.isLt; omega⟩) := by
  simp only [resB, outB_5, soutB_0]
  rw [View.read_writes_junk_eq_canon, View.read_writes_junk_eq_canon]
  unfold kernelRun0_B
  dsimp only
  refine Eq.trans (canon_tiles _ _ _ _ _ _ _ _ bb ch hw) ?_
  refine Eq.trans ?_ (Eq.symm (canon_slab1 _ _ _ ch _))
  refine Eq.trans ?_ (Eq.symm (pay71_apply _ _ _ _ _ ch _))
  match bb with
  | ⟨0, _⟩ => exact pay72_apply _ _ _ _ _ ch hw
  | ⟨1, _⟩ => exact pay73_apply _ _ _ _ _ ch hw
  | ⟨2, _⟩ => exact pay74_apply _ _ _ _ _ ch hw
  | ⟨3, _⟩ => exact pay75_apply _ _ _ _ _ ch hw

/-- The output block is the second layer's new hidden state, cut into the four batch tiles: batch tile `bb`, channel
    `ch`, pixel `hw` of the block is lane `576 · bb + hw` of channel `ch` of layer 1 of the state the step leaves. -/
theorem yblockC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
    (bb : Fin 4) (ch : Fin 64) (hw : Fin 576) :
    (resC c i arg2 harg2 arg3 harg3 arg4 harg4 arg5 harg5 arg6 harg6 arg7 harg7 arg8 harg8 arg9 harg9 arg10 harg10 arg11 harg11 hc0 hc1 x0 x1 x2 x3 x4 xs0 xs1 xs2).1 (ix5 0 0 bb ch hw)
      = (resC c i arg2 harg2 arg3 harg3 arg4 harg4 arg5 harg5 arg6 harg6 arg7 harg7 arg8 harg8 arg9 harg9 arg10 harg10 arg11 harg11 hc0 hc1 x0 x1 x2 x3 x4 xs0 xs1 xs2).2.2.1 (ix3 1 ch ⟨576 * bb.val + hw.val, by have := bb.isLt; have := hw.isLt; omega⟩) := by
  simp only [resC, outC_5, soutC_0]
  rw [View.read_writes_junk_eq_canon, View.read_writes_junk_eq_canon]
  unfold kernelRun0_C
  dsimp only
  refine Eq.trans (canon_tiles _ _ _ _ _ _ _ _ bb ch hw) ?_
  refine Eq.trans ?_ (Eq.symm (canon_slab1 _ _ _ ch _))
  refine Eq.trans ?_ (Eq.symm (pay71_apply _ _ _ _ _ ch _))
  match bb with
  | ⟨0, _⟩ => exact pay72_apply _ _ _ _ _ ch hw
  | ⟨1, _⟩ => exact pay73_apply _ _ _ _ _ ch hw
  | ⟨2, _⟩ => exact pay74_apply _ _ _ _ _ ch hw
  | ⟨3, _⟩ => exact pay75_apply _ _ _ _ _ ch hw

/-! ## The final-state block at the last step -/

/-- One of eight, by a batch tile's and a layer's number. -/
def sel8 {α : Type} (w00 w10 w20 w30 w01 w11 w21 w31 : α) : Fin 4 → Fin 2 → α
  | ⟨0, _⟩, ⟨0, _⟩ => w00 | ⟨1, _⟩, ⟨0, _⟩ => w10 | ⟨2, _⟩, ⟨0, _⟩ => w20 | ⟨3, _⟩, ⟨0, _⟩ => w30
  | ⟨0, _⟩, ⟨1, _⟩ => w01 | ⟨1, _⟩, ⟨1, _⟩ => w11 | ⟨2, _⟩, ⟨1, _⟩ => w21 | ⟨3, _⟩, ⟨1, _⟩ => w31

/-- Eight stores, one per batch tile and layer, into the final-state block (layer 0's four tiles first, then layer 1's):
    tile `bb` of layer `l` reads the store made there, at the same channel and pixel. -/
theorem canon_last8
    (i31 : ∀ a, (![0, 3, 1, 0, 0] : Fin 5 → ℕ) a + S1x1x1x64x576.size a ≤ S1x4x2x64x576.size a)
    (i21 : ∀ a, (![0, 2, 1, 0, 0] : Fin 5 → ℕ) a + S1x1x1x64x576.size a ≤ S1x4x2x64x576.size a)
    (i11 : ∀ a, (![0, 1, 1, 0, 0] : Fin 5 → ℕ) a + S1x1x1x64x576.size a ≤ S1x4x2x64x576.size a)
    (i01 : ∀ a, (![0, 0, 1, 0, 0] : Fin 5 → ℕ) a + S1x1x1x64x576.size a ≤ S1x4x2x64x576.size a)
    (i30 : ∀ a, (![0, 3, 0, 0, 0] : Fin 5 → ℕ) a + S1x1x1x64x576.size a ≤ S1x4x2x64x576.size a)
    (i20 : ∀ a, (![0, 2, 0, 0, 0] : Fin 5 → ℕ) a + S1x1x1x64x576.size a ≤ S1x4x2x64x576.size a)
    (i10 : ∀ a, (![0, 1, 0, 0, 0] : Fin 5 → ℕ) a + S1x1x1x64x576.size a ≤ S1x4x2x64x576.size a)
    (i00 : ∀ a, (![0, 0, 0, 0, 0] : Fin 5 → ℕ) a + S1x1x1x64x576.size a ≤ S1x4x2x64x576.size a)
    (w31 w21 w11 w01 w30 w20 w10 w00 : FVec F S1x1x1x64x576 .f32) (bb : Fin 4) (l : Fin 2) (ch : Fin 64) (hw : Fin 576) :
    View.canon [(⟨Rect.unit (s := S1x4x2x64x576) ![0, 3, 1, 0, 0] S1x1x1x64x576.size i31, w31⟩ : View.Piece (Elt F) S1x4x2x64x576 .f32),
        ⟨Rect.unit (s := S1x4x2x64x576) ![0, 2, 1, 0, 0] S1x1x1x64x576.size i21, w21⟩,
        ⟨Rect.unit (s := S1x4x2x64x576) ![0, 1, 1, 0, 0] S1x1x1x64x576.size i11, w11⟩,
        ⟨Rect.unit (s := S1x4x2x64x576) ![0, 0, 1, 0, 0] S1x1x1x64x576.size i01, w01⟩,
        ⟨Rect.unit (s := S1x4x2x64x576) ![0, 3, 0, 0, 0] S1x1x1x64x576.size i30, w30⟩,
        ⟨Rect.unit (s := S1x4x2x64x576) ![0, 2, 0, 0, 0] S1x1x1x64x576.size i20, w20⟩,
        ⟨Rect.unit (s := S1x4x2x64x576) ![0, 1, 0, 0, 0] S1x1x1x64x576.size i10, w10⟩,
        ⟨Rect.unit (s := S1x4x2x64x576) ![0, 0, 0, 0, 0] S1x1x1x64x576.size i00, w00⟩] (ix5 0 bb l ch hw)
      = sel8 w00 w10 w20 w30 w01 w11 w21 w31 bb l (ix5 0 0 0 ch hw) := by
  have hx : ∀ (k j : ℕ) (hk : k < 4) (hj : j < 2) (a : Fin 5), ((ix5 0 ⟨k, hk⟩ ⟨j, hj⟩ ch hw : S1x4x2x64x576.Idx) a).val
      = (![0, k, j, 0, 0] : Fin 5 → ℕ) a + ((ix5 0 0 0 ch hw : S1x1x1x64x576.Idx) a).val := fun k j hk hj a =>
    match a with | ⟨0, _⟩ => rfl | ⟨1, _⟩ => rfl | ⟨2, _⟩ => rfl | ⟨3, _⟩ => (Nat.zero_add _).symm | ⟨4, _⟩ => (Nat.zero_add _).symm
  match bb, l with
  | ⟨0, hb⟩, ⟨0, hl⟩ =>
    refine Eq.trans (canon_skip (Val := Elt F) (e := .f32) (s := S1x4x2x64x576) ![0, 3, 1, 0, 0] S1x1x1x64x576.size i31 w31 _ (ix5 0 ⟨0, hb⟩ ⟨0, hl⟩ ch hw) (2 : Fin 5) (Or.inl (show (0 : ℕ) < 1 from by omega))) ?_
    refine Eq.trans (canon_skip (Val := Elt F) (e := .f32) (s := S1x4x2x64x576) ![0, 2, 1, 0, 0] S1x1x1x64x576.size i21 w21 _ (ix5 0 ⟨0, hb⟩ ⟨0, hl⟩ ch hw) (2 : Fin 5) (Or.inl (show (0 : ℕ) < 1 from by omega))) ?_
    refine Eq.trans (canon_skip (Val := Elt F) (e := .f32) (s := S1x4x2x64x576) ![0, 1, 1, 0, 0] S1x1x1x64x576.size i11 w11 _ (ix5 0 ⟨0, hb⟩ ⟨0, hl⟩ ch hw) (2 : Fin 5) (Or.inl (show (0 : ℕ) < 1 from by omega))) ?_
    refine Eq.trans (canon_skip (Val := Elt F) (e := .f32) (s := S1x4x2x64x576) ![0, 0, 1, 0, 0] S1x1x1x64x576.size i01 w01 _ (ix5 0 ⟨0, hb⟩ ⟨0, hl⟩ ch hw) (2 : Fin 5) (Or.inl (show (0 : ℕ) < 1 from by omega))) ?_
    refine Eq.trans (canon_skip (Val := Elt F) (e := .f32) (s := S1x4x2x64x576) ![0, 3, 0, 0, 0] S1x1x1x64x576.size i30 w30 _ (ix5 0 ⟨0, hb⟩ ⟨0, hl⟩ ch hw) (1 : Fin 5) (Or.inl (show (0 : ℕ) < 3 from by omega))) ?_
    refine Eq.trans (canon_skip (Val := Elt F) (e := .f32) (s := S1x4x2x64x576) ![0, 2, 0, 0, 0] S1x1x1x64x576.size i20 w20 _ (ix5 0 ⟨0, hb⟩ ⟨0, hl⟩ ch hw) (1 : Fin 5) (Or.inl (show (0 : ℕ) < 2 from by omega))) ?_
    refine Eq.trans (canon_skip (Val := Elt F) (e := .f32) (s := S1x4x2x64x576) ![0, 1, 0, 0, 0] S1x1x1x64x576.size i10 w10 _ (ix5 0 ⟨0, hb⟩ ⟨0, hl⟩ ch hw) (1 : Fin 5) (Or.inl (show (0 : ℕ) < 1 from by omega))) ?_
    exact canon_head (Val := Elt F) (e := .f32) (s := S1x4x2x64x576) ![0, 0, 0, 0, 0] S1x1x1x64x576.size i00 w00 _ (ix5 0 ⟨0, hb⟩ ⟨0, hl⟩ ch hw) (ix5 0 0 0 ch hw) (hx 0 0 hb hl)
  | ⟨1, hb⟩, ⟨0, hl⟩ =>
    refine Eq.trans (canon_skip (Val := Elt F) (e := .f32) (s := S1x4x2x64x576) ![0, 3, 1, 0, 0] S1x1x1x64x576.size i31 w31 _ (ix5 0 ⟨1, hb⟩ ⟨0, hl⟩ ch hw) (2 : Fin 5) (Or.inl (show (0 : ℕ) < 1 from by omega))) ?_
    refine Eq.trans (canon_skip (Val := Elt F) (e := .f32) (s := S1x4x2x64x576) ![0, 2, 1, 0, 0] S1x1x1x64x576.size i21 w21 _ (ix5 0 ⟨1, hb⟩ ⟨0, hl⟩ ch hw) (2 : Fin 5) (Or.inl (show (0 : ℕ) < 1 from by omega))) ?_
    refine Eq.trans (canon_skip (Val := Elt F) (e := .f32) (s := S1x4x2x64x576) ![0, 1, 1, 0, 0] S1x1x1x64x576.size i11 w11 _ (ix5 0 ⟨1, hb⟩ ⟨0, hl⟩ ch hw) (2 : Fin 5) (Or.inl (show (0 : ℕ) < 1 from by omega))) ?_
    refine Eq.trans (canon_skip (Val := Elt F) (e := .f32) (s := S1x4x2x64x576) ![0, 0, 1, 0, 0] S1x1x1x64x576.size i01 w01 _ (ix5 0 ⟨1, hb⟩ ⟨0, hl⟩ ch hw) (2 : Fin 5) (Or.inl (show (0 : ℕ) < 1 from by omega))) ?_
    refine Eq.trans (canon_skip (Val := Elt F) (e := .f32) (s := S1x4x2x64x576) ![0, 3, 0, 0, 0] S1x1x1x64x576.size i30 w30 _ (ix5 0 ⟨1, hb⟩ ⟨0, hl⟩ ch hw) (1 : Fin 5) (Or.inl (show (1 : ℕ) < 3 from by omega))) ?_
    refine Eq.trans (canon_skip (Val := Elt F) (e := .f32) (s := S1x4x2x64x576) ![0, 2, 0, 0, 0] S1x1x1x64x576.size i20 w20 _ (ix5 0 ⟨1, hb⟩ ⟨0, hl⟩ ch hw) (1 : Fin 5) (Or.inl (show (1 : ℕ) < 2 from by omega))) ?_
    exact canon_head (Val := Elt F) (e := .f32) (s := S1x4x2x64x576) ![0, 1, 0, 0, 0] S1x1x1x64x576.size i10 w10 _ (ix5 0 ⟨1, hb⟩ ⟨0, hl⟩ ch hw) (ix5 0 0 0 ch hw) (hx 1 0 hb hl)
  | ⟨2, hb⟩, ⟨0, hl⟩ =>
    refine Eq.trans (canon_skip (Val := Elt F) (e := .f32) (s := S1x4x2x64x576) ![0, 3, 1, 0, 0] S1x1x1x64x576.size i31 w31 _ (ix5 0 ⟨2, hb⟩ ⟨0, hl⟩ ch hw) (2 : Fin 5) (Or.inl (show (0 : ℕ) < 1 from by omega))) ?_
    refine Eq.trans (canon_skip (Val := Elt F) (e := .f32) (s := S1x4x2x64x576) ![0, 2, 1, 0, 0] S1x1x1x64x576.size i21 w21 _ (ix5 0 ⟨2, hb⟩ ⟨0, hl⟩ ch hw) (2 : Fin 5) (Or.inl (show (0 : ℕ) < 1 from by omega))) ?_
    refine Eq.trans (canon_skip (Val := Elt F) (e := .f32) (s := S1x4x2x64x576) ![0, 1, 1, 0, 0] S1x1x1x64x576.size i11 w11 _ (ix5 0 ⟨2, hb⟩ ⟨0, hl⟩ ch hw) (2 : Fin 5) (Or.inl (show (0 : ℕ) < 1 from by omega))) ?_
    refine Eq.trans (canon_skip (Val := Elt F) (e := .f32) (s := S1x4x2x64x576) ![0, 0, 1, 0, 0] S1x1x1x64x576.size i01 w01 _ (ix5 0 ⟨2, hb⟩ ⟨0, hl⟩ ch hw) (2 : Fin 5) (Or.inl (show (0 : ℕ) < 1 from by omega))) ?_
    refine Eq.trans (canon_skip (Val := Elt F) (e := .f32) (s := S1x4x2x64x576) ![0, 3, 0, 0, 0] S1x1x1x64x576.size i30 w30 _ (ix5 0 ⟨2, hb⟩ ⟨0, hl⟩ ch hw) (1 : Fin 5) (Or.inl (show (2 : ℕ) < 3 from by omega))) ?_
    exact canon_head (Val := Elt F) (e := .f32) (s := S1x4x2x64x576) ![0, 2, 0, 0, 0] S1x1x1x64x576.size i20 w20 _ (ix5 0 ⟨2, hb⟩ ⟨0, hl⟩ ch hw) (ix5 0 0 0 ch hw) (hx 2 0 hb hl)
  | ⟨3, hb⟩, ⟨0, hl⟩ =>
    refine Eq.trans (canon_skip (Val := Elt F) (e := .f32) (s := S1x4x2x64x576) ![0, 3, 1, 0, 0] S1x1x1x64x576.size i31 w31 _ (ix5 0 ⟨3, hb⟩ ⟨0, hl⟩ ch hw) (2 : Fin 5) (Or.inl (show (0 : ℕ) < 1 from by omega))) ?_
    refine Eq.trans (canon_skip (Val := Elt F) (e := .f32) (s := S1x4x2x64x576) ![0, 2, 1, 0, 0] S1x1x1x64x576.size i21 w21 _ (ix5 0 ⟨3, hb⟩ ⟨0, hl⟩ ch hw) (2 : Fin 5) (Or.inl (show (0 : ℕ) < 1 from by omega))) ?_
    refine Eq.trans (canon_skip (Val := Elt F) (e := .f32) (s := S1x4x2x64x576) ![0, 1, 1, 0, 0] S1x1x1x64x576.size i11 w11 _ (ix5 0 ⟨3, hb⟩ ⟨0, hl⟩ ch hw) (2 : Fin 5) (Or.inl (show (0 : ℕ) < 1 from by omega))) ?_
    refine Eq.trans (canon_skip (Val := Elt F) (e := .f32) (s := S1x4x2x64x576) ![0, 0, 1, 0, 0] S1x1x1x64x576.size i01 w01 _ (ix5 0 ⟨3, hb⟩ ⟨0, hl⟩ ch hw) (2 : Fin 5) (Or.inl (show (0 : ℕ) < 1 from by omega))) ?_
    exact canon_head (Val := Elt F) (e := .f32) (s := S1x4x2x64x576) ![0, 3, 0, 0, 0] S1x1x1x64x576.size i30 w30 _ (ix5 0 ⟨3, hb⟩ ⟨0, hl⟩ ch hw) (ix5 0 0 0 ch hw) (hx 3 0 hb hl)
  | ⟨0, hb⟩, ⟨1, hl⟩ =>
    refine Eq.trans (canon_skip (Val := Elt F) (e := .f32) (s := S1x4x2x64x576) ![0, 3, 1, 0, 0] S1x1x1x64x576.size i31 w31 _ (ix5 0 ⟨0, hb⟩ ⟨1, hl⟩ ch hw) (1 : Fin 5) (Or.inl (show (0 : ℕ) < 3 from by omega))) ?_
    refine Eq.trans (canon_skip (Val := Elt F) (e := .f32) (s := S1x4x2x64x576) ![0, 2, 1, 0, 0] S1x1x1x64x576.size i21 w21 _ (ix5 0 ⟨0, hb⟩ ⟨1, hl⟩ ch hw) (1 : Fin 5) (Or.inl (show (0 : ℕ) < 2 from by omega))) ?_
    refine Eq.trans (canon_skip (Val := Elt F) (e := .f32) (s := S1x4x2x64x576) ![0, 1, 1, 0, 0] S1x1x1x64x576.size i11 w11 _ (ix5 0 ⟨0, hb⟩ ⟨1, hl⟩ ch hw) (1 : Fin 5) (Or.inl (show (0 : ℕ) < 1 from by omega))) ?_
    exact canon_head (Val := Elt F) (e := .f32) (s := S1x4x2x64x576) ![0, 0, 1, 0, 0] S1x1x1x64x576.size i01 w01 _ (ix5 0 ⟨0, hb⟩ ⟨1, hl⟩ ch hw) (ix5 0 0 0 ch hw) (hx 0 1 hb hl)
  | ⟨1, hb⟩, ⟨1, hl⟩ =>
    refine Eq.trans (canon_skip (Val := Elt F) (e := .f32) (s := S1x4x2x64x576) ![0, 3, 1, 0, 0] S1x1x1x64x576.size i31 w31 _ (ix5 0 ⟨1, hb⟩ ⟨1, hl⟩ ch hw) (1 : Fin 5) (Or.inl (show (1 : ℕ) < 3 from by omega))) ?_
    refine Eq.trans (canon_skip (Val := Elt F) (e := .f32) (s := S1x4x2x64x576) ![0, 2, 1, 0, 0] S1x1x1x64x576.size i21 w21 _ (ix5 0 ⟨1, hb⟩ ⟨1, hl⟩ ch hw) (1 : Fin 5) (Or.inl (show (1 : ℕ) < 2 from by omega))) ?_
    exact canon_head (Val := Elt F) (e := .f32) (s := S1x4x2x64x576) ![0, 1, 1, 0, 0] S1x1x1x64x576.size i11 w11 _ (ix5 0 ⟨1, hb⟩ ⟨1, hl⟩ ch hw) (ix5 0 0 0 ch hw) (hx 1 1 hb hl)
  | ⟨2, hb⟩, ⟨1, hl⟩ =>
    refine Eq.trans (canon_skip (Val := Elt F) (e := .f32) (s := S1x4x2x64x576) ![0, 3, 1, 0, 0] S1x1x1x64x576.size i31 w31 _ (ix5 0 ⟨2, hb⟩ ⟨1, hl⟩ ch hw) (1 : Fin 5) (Or.inl (show (2 : ℕ) < 3 from by omega))) ?_
    exact canon_head (Val := Elt F) (e := .f32) (s := S1x4x2x64x576) ![0, 2, 1, 0, 0] S1x1x1x64x576.size i21 w21 _ (ix5 0 ⟨2, hb⟩ ⟨1, hl⟩ ch hw) (ix5 0 0 0 ch hw) (hx 2 1 hb hl)
  | ⟨3, hb⟩, ⟨1, hl⟩ =>
    exact canon_head (Val := Elt F) (e := .f32) (s := S1x4x2x64x576) ![0, 3, 1, 0, 0] S1x1x1x64x576.size i31 w31 _ (ix5 0 ⟨3, hb⟩ ⟨1, hl⟩ ch hw) (ix5 0 0 0 ch hw) (hx 3 1 hb hl)

/-! ## Lane quarters of a state read back from the hidden-state scratch -/

/-- The index a unit rectangle places a local index at: offsets plus local coordinates. -/
theorem unit_idx_eq {s : Shape} (off size : Fin s.rank → Nat) (inb : ∀ a, off a + size a ≤ s.size a)
    (x : (Rect.unit off size inb).shape.Idx) (y : s.Idx) (h : ∀ a, (y a).val = off a + (x a).val) :
    (Rect.unit off size inb).toLoadRect.idx x = y :=
  funext fun a => Fin.ext (by
    show ((Rect.unit off size inb).emb x a : ℕ) = _
    rw [Rect.emb_apply, Rect.off_unit, Rect.stride_unit, Nat.one_mul]; exact (h a).symm)

/-- A lane quarter of a [64, 2304] value, as a tile with three unit axes: (0, 0, 0, channel, pixel) is (channel, offset + pixel). -/
theorem quarter_apply (off : ℕ) (hoff : off + 576 ≤ 2304) (z : FVec F S64x2304 .f32) (sl : S64x2304.Slices ![0, off] S64x576)
    (sc : S64x576.ShapeCasts S1x1x1x64x576) (ch : Fin 64) (hw : Fin 576) :
    shapeCast S1x1x1x64x576 (extractStridedSlice S64x576 ![0, off] z sl) sc (ix5 0 0 0 ch hw)
      = z (ix2 ch ⟨off + hw.val, by have := hw.isLt; omega⟩) := by
  refine (shapeCast_apply _ _ (ix5 0 0 0 ch hw) (ix2 ch hw) ?_).trans ?_
  · rw [Shape.rowMajor_val_two, Shape.rowMajor_val_five]
    exact (by omega : ch.val * 576 + hw.val = (((0 * 1 + 0) * 1 + 0) * 64 + ch.val) * 576 + hw.val)
  · exact extractStridedSlice_apply _ _ _ (ix2 ch hw) (ix2 ch ⟨off + hw.val, by have := hw.isLt; omega⟩)
      (fun a => match a with | ⟨0, _⟩ => (Nat.zero_add _).symm | ⟨1, _⟩ => rfl)

/-- A [1, 64, 2304] slab viewed [64, 2304]: (channel, lane) is (0, channel, lane). -/
theorem drop_apply (v : Vec F S1x64x2304 .f32) (sc : S1x64x2304.ShapeCasts S64x2304) (ch : Fin 64) (ln : Fin 2304) :
    shapeCast S64x2304 v sc (ix2 ch ln) = v (ix3 0 ch ln) := by
  refine shapeCast_apply _ _ (ix2 ch ln) (ix3 0 ch ln) ?_
  rw [Shape.rowMajor_val_two, Shape.rowMajor_val_three]
  exact (by omega : (0 * 64 + ch.val) * 2304 + ln.val = ch.val * 2304 + ln.val)

/-- A slab of the hidden state loaded after this step's stores reads what the stores left there. -/
theorem readCov_slab {sig' : RefSig} {κ : Kind} {sp : Space} (v : View sig' κ sp S2x64x2304 .f32)
    (L : List (View.Piece (Elt F) S2x64x2304 .f32)) (l : ℕ) (hl : l < 2)
    (inb : ∀ a, (![l, 0, 0] : Fin 3 → ℕ) a + S1x64x2304.size a ≤ S2x64x2304.size a) (ch : Fin 64) (ln : Fin 2304) :
    v.readCov L (Rect.unit (s := S2x64x2304) ![l, 0, 0] S1x64x2304.size inb).toLoadRect (ix3 0 ch ln)
      = View.canon L (ix3 ⟨l, hl⟩ ch ln) := by
  rw [View.readCov_eq_canon']
  exact congrArg (View.canon L) (unit_idx_eq (s := S2x64x2304) ![l, 0, 0] S1x64x2304.size inb (ix3 0 ch ln) (ix3 ⟨l, hl⟩ ch ln)
    (fun a => match a with | ⟨0, _⟩ => rfl | ⟨1, _⟩ => (Nat.zero_add _).symm | ⟨2, _⟩ => (Nat.zero_add _).symm))

/-- At the last step the final-state block is both layers' new hidden states, cut into the four batch tiles: batch tile
    `bb`, layer `l`, channel `ch`, pixel `hw` of the block is lane `576 · bb + hw` of channel `ch` of layer `l` of the state the
    step leaves (the block is stored from loads of the hidden-state scratch made after the step's own stores). -/
theorem lastblockC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec F S16x2304 .bf16) (x1 : Vec F S1x1x4x32x576 .f32) (x2 : Vec F S192x880 .bf16) (x3 : Vec F S192x1168 .bf16) (x4 : Vec F S2x64x576 .bf16) (xs0 : Vec F S2x64x2304 .f32) (xs1 : Vec F S1168x2304 .bf16) (xs2 : Vec F S576x2304 .bf16)
    (bb : Fin 4) (l : Fin 2) (ch : Fin 64) (hw : Fin 576) :
    (resC c i arg2 harg2 arg3 harg3 arg4 harg4 arg5 harg5 arg6 harg6 arg7 harg7 arg8 harg8 arg9 harg9 arg10 harg10 arg11 harg11 hc0 hc1 x0 x1 x2 x3 x4 xs0 xs1 xs2).2.1 (ix5 0 bb l ch hw)
      = (resC c i arg2 harg2 arg3 harg3 arg4 harg4 arg5 harg5 arg6 harg6 arg7 harg7 arg8 harg8 arg9 harg9 arg10 harg10 arg11 harg11 hc0 hc1 x0 x1 x2 x3 x4 xs0 xs1 xs2).2.2.1 (ix3 l ch ⟨576 * bb.val + hw.val, by have := bb.isLt; have := hw.isLt; omega⟩) := by
  simp only [resC, outC_6, soutC_0]
  rw [View.read_writes_junk_eq_canon, View.read_writes_junk_eq_canon]
  unfold kernelRun0_C
  dsimp only
  refine Eq.trans (canon_last8 _ _ _ _ _ _ _ _ _ _ _ _ _ _ _ _ bb l ch hw) ?_
  match bb, l with
  | ⟨0, _⟩, ⟨0, _⟩ =>
    simp only [sel8]
    unfold kernelRun0_C.sl.v380 kernelRun0_C.sl.v377 kernelRun0_C.sl.v376 kernelRun0_C.sl.v375
    refine (quarter_apply 0 (by omega) _ _ _ ch hw).trans ?_
    refine (drop_apply _ _ ch _).trans ?_
    exact readCov_slab _ _ 0 (by omega) _ ch _
  | ⟨1, _⟩, ⟨0, _⟩ =>
    simp only [sel8]
    unfold kernelRun0_C.sl.v384 kernelRun0_C.sl.v381 kernelRun0_C.sl.v376 kernelRun0_C.sl.v375
    refine (quarter_apply 576 (by omega) _ _ _ ch hw).trans ?_
    refine (drop_apply _ _ ch _).trans ?_
    exact readCov_slab _ _ 0 (by omega) _ ch _
  | ⟨2, _⟩, ⟨0, _⟩ =>
    simp only [sel8]
    unfold kernelRun0_C.sl.v388 kernelRun0_C.sl.v385 kernelRun0_C.sl.v376 kernelRun0_C.sl.v375
    refine (quarter_apply 1152 (by omega) _ _ _ ch hw).trans ?_
    refine (drop_apply _ _ ch _).trans ?_
    exact readCov_slab _ _ 0 (by omega) _ ch _
  | ⟨3, _⟩, ⟨0, _⟩ =>
    simp only [sel8]
    unfold kernelRun0_C.sl.v392 kernelRun0_C.sl.v389 kernelRun0_C.sl.v376 kernelRun0_C.sl.v375
    refine (quarter_apply 1728 (by omega) _ _ _ ch hw).trans ?_
    refine (drop_apply _ _ ch _).trans ?_
    exact readCov_slab _ _ 0 (by omega) _ ch _
  | ⟨0, _⟩, ⟨1, _⟩ =>
    simp only [sel8]
    unfold kernelRun0_C.sl.v398 kernelRun0_C.sl.v395 kernelRun0_C.sl.v394 kernelRun0_C.sl.v393
    refine (quarter_apply 0 (by omega) _ _ _ ch hw).trans ?_
    refine (drop_apply _ _ ch _).trans ?_
    exact readCov_slab _ _ 1 (by omega) _ ch _
  | ⟨1, _⟩, ⟨1, _⟩ =>
    simp only [sel8]
    unfold k0_pay76 kernelRun0_C.sl.v394 kernelRun0_C.sl.v393
    refine (quarter_apply 576 (by omega) _ _ _ ch hw).trans ?_
    refine (drop_apply _ _ ch _).trans ?_
    exact readCov_slab _ _ 1 (by omega) _ ch _
  | ⟨2, _⟩, ⟨1, _⟩ =>
    simp only [sel8]
    unfold k0_pay77 kernelRun0_C.sl.v394 kernelRun0_C.sl.v393
    refine (quarter_apply 1152 (by omega) _ _ _ ch hw).trans ?_
    refine (drop_apply _ _ ch _).trans ?_
    exact readCov_slab _ _ 1 (by omega) _ ch _
  | ⟨3, _⟩, ⟨1, _⟩ =>
    simp only [sel8]
    unfold k0_pay78 kernelRun0_C.sl.v394 kernelRun0_C.sl.v393
    refine (quarter_apply 1728 (by omega) _ _ _ ch hw).trans ?_
    refine (drop_apply _ _ ch _).trans ?_
    exact readCov_slab _ _ 1 (by omega) _ ch _

end Cert.KernelIdeal.HandRun

end
-- ==== Proof.KOuts.lean ====
/-
  What a grid point leaves in the output blocks is a re-layout of what it leaves in the hidden-state scratch: the time
  step's output is the second layer's new state, and at t = 31 the block of last states is both layers' new states.
-/
import proofs.«175272_g2000206920649175_pallasbulk_1279_5_alg».proof.Proof.KFrame
import proofs.«175272_g2000206920649175_pallasbulk_1279_5_alg».proof.Proof.KLayout
import Idealize.ShloMosaic.Lib.ValueIdx

set_option maxRecDepth 16384
set_option maxHeartbeats 400000

noncomputable section

namespace Cert.KernelIdeal.Hand

open Cert.KernelIdeal Cert.KernelIdeal.Gen Cert.KernelIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ)

theorem outs_y (c : Dev nD) (p : Fin cfg0.N) (bb : Fin 4) (ch : Fin 64) (hw : Fin 576) :
    (outsAt0 m c p.val p.isLt).1 (ix5 (0 : Fin 1) (0 : Fin 1) bb ch hw) = (outsAt0 m c p.val p.isLt).2.2.1 (ix3 (1 : Fin 2) ch ⟨576 * bb.val + hw.val, by have := bb.isLt; have := hw.isLt; omega⟩) := by
  by_cases h0 : p.val % 32 = 0
  · have h1 : ¬p.val % 32 = 31 := by omega
    rw [outsAt0_A m c p h0 h1]; unfold stA; dsimp only
    exact yblockA c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) ((hcond0_0 p).mpr h0) (fun h => h1 ((hcond0_1 p).mp h)) (iblk m c 0 p) (iblk m c 1 p) (iblk m c 2 p) (iblk m c 3 p) (iblk m c 4 p) bb ch hw
  · by_cases h1 : p.val % 32 = 31
    · rw [outsAt0_C m c p h0 h1]; unfold stC; dsimp only
      exact yblockC c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) (iblk m c 4 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 bb ch hw
    · rw [outsAt0_B m c p h0 h1]; unfold stB; dsimp only
      exact yblockB c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) (fun h => h0 ((hcond0_0 p).mp h)) (fun h => h1 ((hcond0_1 p).mp h)) (iblk m c 0 p) (iblk m c 1 p) (iblk m c 2 p) (iblk m c 3 p) (iblk m c 4 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 bb ch hw

theorem outs_last (c : Dev nD) (p : Fin cfg0.N) (hp : p.val % 32 = 31) (bb : Fin 4) (l : Fin 2) (ch : Fin 64) (hw : Fin 576) :
    (outsAt0 m c p.val p.isLt).2.1 (ix5 (0 : Fin 1) bb l ch hw) = (outsAt0 m c p.val p.isLt).2.2.1 (ix3 l ch ⟨576 * bb.val + hw.val, by have := bb.isLt; have := hw.isLt; omega⟩) := by
  have h0 : ¬p.val % 32 = 0 := by omega
  have h1 := hp
  rw [outsAt0_C m c p h0 h1]; unfold stC; dsimp only
  exact lastblockC c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) (iblk m c 4 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 bb l ch hw

end Cert.KernelIdeal.Hand

end
-- ==== Proof.RLayout.lean ====
/-
  What the reference program's kernel writes to its outputs at a grid point is a re-layout of the hidden state it
  leaves in its scratch buffer: the first output's block is layer 1 of the new hidden state, and at a point whose
  time step is 31 the second output's block is both layers of it.  Both sides are shape casts of one stored vector
  (the body stores the new state of a layer into the scratch buffer and the same vector into the output block; the
  second output is loaded back from the scratch buffer after its stores), so no arithmetic is opened.
-/
import proofs.«175272_g2000206920649175_pallasbulk_1279_5_alg».proof.Proof.RSoundA
import proofs.«175272_g2000206920649175_pallasbulk_1279_5_alg».proof.Proof.RSoundB
import proofs.«175272_g2000206920649175_pallasbulk_1279_5_alg».proof.Proof.RSoundC
import Idealize.ShloMosaic.Lib.ValueIdx
import Idealize.ShloMosaic.Lib.ValueLayout
import Idealize.ShloMosaic.Lib.Pipeline.Value

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

set_option pp.maxSteps 5000
set_option pp.deepTerms false

/-! ## Index facts shared by the three cases -/

theorem hz4 : (![0, 0, 0, 0] : Fin 4 → Nat) = fun _ => 0 := funext fun a => by fin_cases a <;> rfl

/-- A `[64, 2304]` array cast to `[1, 1, 64, 2304]` reads, at `(0, 0, ch, n)`, the operand at `(ch, n)`. -/
theorem cast_2_4_apply {α : Type} (x : S64x2304.Idx → α) (h : S64x2304.ShapeCasts S1x1x64x2304) (u v : Fin 1) (ch : Fin 64) (n : Fin 2304) :
    shapeCast S1x1x64x2304 x h (ix4 u v ch n) = x (ix2 ch n) :=
  shapeCast_apply x h _ _ (by
    have hu : u.val = 0 := by omega
    have hv : v.val = 0 := by omega
    rw [Shape.rowMajor_val_four, Shape.rowMajor_val_two]
    show ch.val * 2304 + n.val = ((u.val * 1 + v.val) * 64 + ch.val) * 2304 + n.val
    rw [hu, hv]; omega)

/-- A `[64, 2304]` array cast to `[1, 64, 2304]` reads, at `(0, ch, n)`, the operand at `(ch, n)`. -/
theorem cast_2_3_apply {α : Type} (x : S64x2304.Idx → α) (h : S64x2304.ShapeCasts S1x64x2304) (u : Fin 1) (ch : Fin 64) (n : Fin 2304) :
    shapeCast S1x64x2304 x h (ix3 u ch n) = x (ix2 ch n) :=
  shapeCast_ab_1ab_apply x h u ch n

/-- A `[1, 64, 2304]` array cast to `[64, 2304]` reads, at `(ch, n)`, the operand at `(0, ch, n)`. -/
theorem cast_3_2_apply {α : Type} (x : S1x64x2304.Idx → α) (h : S1x64x2304.ShapeCasts S64x2304) (ch : Fin 64) (n : Fin 2304) :
    shapeCast S64x2304 x h (ix2 ch n) = x (ix3 (0 : Fin 1) ch n) :=
  shapeCast_1ab_ab_apply x h ch n

/-- The slab of layer `l` of the hidden-state buffer, entered at `(0, ch, n)`, is the buffer's index `(l, ch, n)`. -/
theorem emb_layer0 (inb) (ch : Fin 64) (n : Fin 2304) :
    (Rect.unit (s := S2x64x2304) ![0, 0, 0] S1x64x2304.size inb).emb (ix3 (0 : Fin 1) ch n) = ix3 (0 : Fin 2) ch n := by
  funext a; apply Fin.ext
  match a with
  | ⟨0, _⟩ => rfl
  | ⟨1, _⟩ => show 0 + 1 * ch.val = ch.val; omega
  | ⟨2, _⟩ => show 0 + 1 * n.val = n.val; omega
theorem emb_layer1 (inb) (ch : Fin 64) (n : Fin 2304) :
    (Rect.unit (s := S2x64x2304) ![1, 0, 0] S1x64x2304.size inb).emb (ix3 (0 : Fin 1) ch n) = ix3 (1 : Fin 2) ch n := by
  funext a; apply Fin.ext
  match a with
  | ⟨0, _⟩ => rfl
  | ⟨1, _⟩ => show 0 + 1 * ch.val = ch.val; omega
  | ⟨2, _⟩ => show 0 + 1 * n.val = n.val; omega

/-- The same for a load through the slab. -/
theorem idx_layer0 (inb) (ch : Fin 64) (n : Fin 2304) :
    (Rect.unit (s := S2x64x2304) ![0, 0, 0] S1x64x2304.size inb).toLoadRect.idx (ix3 (0 : Fin 1) ch n) = ix3 (0 : Fin 2) ch n := by
  funext a; apply Fin.ext
  match a with
  | ⟨0, _⟩ => rfl
  | ⟨1, _⟩ => show 0 + 1 * ch.val = ch.val; omega
  | ⟨2, _⟩ => show 0 + 1 * n.val = n.val; omega
theorem idx_layer1 (inb) (ch : Fin 64) (n : Fin 2304) :
    (Rect.unit (s := S2x64x2304) ![1, 0, 0] S1x64x2304.size inb).toLoadRect.idx (ix3 (0 : Fin 1) ch n) = ix3 (1 : Fin 2) ch n := by
  funext a; apply Fin.ext
  match a with
  | ⟨0, _⟩ => rfl
  | ⟨1, _⟩ => show 0 + 1 * ch.val = ch.val; omega
  | ⟨2, _⟩ => show 0 + 1 * n.val = n.val; omega

/-- The slab of layer `l` of the second output's block, entered at `(0, 0, ch, n)`, is the block's index `(0, l, ch, n)`. -/
theorem emb_last0 (inb) (ch : Fin 64) (n : Fin 2304) :
    (Rect.unit (s := S1x2x64x2304) ![0, 0, 0, 0] S1x1x64x2304.size inb).emb (ix4 (0 : Fin 1) (0 : Fin 1) ch n) = ix4 (0 : Fin 1) (0 : Fin 2) ch n := by
  funext a; apply Fin.ext
  match a with
  | ⟨0, _⟩ => rfl
  | ⟨1, _⟩ => rfl
  | ⟨2, _⟩ => show 0 + 1 * ch.val = ch.val; omega
  | ⟨3, _⟩ => show 0 + 1 * n.val = n.val; omega
theorem emb_last1 (inb) (ch : Fin 64) (n : Fin 2304) :
    (Rect.unit (s := S1x2x64x2304) ![0, 1, 0, 0] S1x1x64x2304.size inb).emb (ix4 (0 : Fin 1) (0 : Fin 1) ch n) = ix4 (0 : Fin 1) (1 : Fin 2) ch n := by
  funext a; apply Fin.ext
  match a with
  | ⟨0, _⟩ => rfl
  | ⟨1, _⟩ => rfl
  | ⟨2, _⟩ => show 0 + 1 * ch.val = ch.val; omega
  | ⟨3, _⟩ => show 0 + 1 * n.val = n.val; omega

/-- An index of layer 0 of the second output's block is not in the slab of layer 1. -/
theorem not_mem_last1 (inb) (ch : Fin 64) (n : Fin 2304) :
    ix4 (0 : Fin 1) (0 : Fin 2) ch n ∉ (Rect.unit (s := S1x2x64x2304) ![0, 1, 0, 0] S1x1x64x2304.size inb).set := by
  rw [Rect.mem_set_unit]
  intro h
  have h1 := (h ⟨1, by decide⟩).1
  first
    | (change (1 : ℕ) ≤ 0 at h1; omega)
    | (simp at h1)

/-- The second output's block, stored as its two layer slabs (layer 1 last), read in layer 0: the earlier store. -/
theorem canon_last0 (inb1 inb0) (w1 w0 : S1x1x64x2304.Idx → Elt F .f32) (L : List (View.Piece (Elt F) S1x2x64x2304 .f32))
    (ch : Fin 64) (n : Fin 2304) :
    View.canon ((⟨Rect.unit (s := S1x2x64x2304) ![0, 1, 0, 0] S1x1x64x2304.size inb1, w1⟩ : View.Piece (Elt F) S1x2x64x2304 .f32)
        :: (⟨Rect.unit (s := S1x2x64x2304) ![0, 0, 0, 0] S1x1x64x2304.size inb0, w0⟩ : View.Piece (Elt F) S1x2x64x2304 .f32) :: L)
      (ix4 (0 : Fin 1) (0 : Fin 2) ch n) = w0 (ix4 (0 : Fin 1) (0 : Fin 1) ch n) := by
  rw [View.canon_cons_of_not_mem (⟨Rect.unit (s := S1x2x64x2304) ![0, 1, 0, 0] S1x1x64x2304.size inb1, w1⟩ : View.Piece (Elt F) S1x2x64x2304 .f32) _ (not_mem_last1 inb1 ch n)]
  rw [← emb_last0 inb0 ch n, View.canon_cons_emb]

/-! ## The first output's block is layer 1 of the new hidden state -/

/-- At a reset point (time step 0). -/
theorem resA_y (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i) (x0 : Vec F S9x2304 .f32) (x1 : Vec F S1x1x64x2304 .f32) (x2 : Vec F S2x192x1160 .f32) (x3 : Vec F S2x64x576 .f32) (ch : Fin 64) (n : Fin 2304) :
    (resA c i arg2 harg2 arg3 harg3 arg4 harg4 arg5 harg5 arg6 harg6 arg7 harg7 arg8 harg8 arg9 harg9 arg10 harg10 hc0 hc1 x0 x1 x2 x3).1 (ix4 (0 : Fin 1) (0 : Fin 1) ch n) = (resA c i arg2 harg2 arg3 harg3 arg4 harg4 arg5 harg5 arg6 harg6 arg7 harg7 arg8 harg8 arg9 harg9 arg10 harg10 hc0 hc1 x0 x1 x2 x3).2.1 (ix3 (1 : Fin 2) ch n) := by
  unfold resA; dsimp only
  rw [View.read_writes_junk_eq_canon, View.read_writes_junk_eq_canon]
  unfold kernelRun0_A; dsimp only
  rw [View.canon_unit_zero hz4]
  rw [← emb_layer1 inb_S2x64x2304_S1x64x2304_1_0_0 ch n, View.canon_cons_emb]
  unfold k0_pay3 k0_pay2
  exact (cast_2_4_apply _ _ 0 0 ch n).trans (cast_2_3_apply _ _ 0 ch n).symm

/-- At a point whose time step is neither 0 nor 31. -/
theorem resB_y (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (ch : Fin 64) (n : Fin 2304) :
    (resB c i arg2 harg2 arg3 harg3 arg4 harg4 arg5 harg5 arg6 harg6 arg7 harg7 arg8 harg8 arg9 harg9 arg10 harg10 hc0 hc1 x0 x1 x2 x3 xs0 xs1 xs2).1 (ix4 (0 : Fin 1) (0 : Fin 1) ch n) = (resB c i arg2 harg2 arg3 harg3 arg4 harg4 arg5 harg5 arg6 harg6 arg7 harg7 arg8 harg8 arg9 harg9 arg10 harg10 hc0 hc1 x0 x1 x2 x3 xs0 xs1 xs2).2.1 (ix3 (1 : Fin 2) ch n) := by
  unfold resB; dsimp only
  rw [View.read_writes_junk_eq_canon, View.read_writes_junk_eq_canon]
  unfold kernelRun0_B; dsimp only
  rw [View.canon_unit_zero hz4]
  rw [← emb_layer1 inb_S2x64x2304_S1x64x2304_1_0_0 ch n, View.canon_cons_emb]
  unfold k0_pay3 k0_pay2
  exact (cast_2_4_apply _ _ 0 0 ch n).trans (cast_2_3_apply _ _ 0 ch n).symm

/-- At a point whose time step is 31. -/
theorem resC_y (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (ch : Fin 64) (n : Fin 2304) :
    (resC c i arg2 harg2 arg3 harg3 arg4 harg4 arg5 harg5 arg6 harg6 arg7 harg7 arg8 harg8 arg9 harg9 arg10 harg10 hc0 hc1 x0 x1 x2 x3 xs0 xs1 xs2).1 (ix4 (0 : Fin 1) (0 : Fin 1) ch n) = (resC c i arg2 harg2 arg3 harg3 arg4 harg4 arg5 harg5 arg6 harg6 arg7 harg7 arg8 harg8 arg9 harg9 arg10 harg10 hc0 hc1 x0 x1 x2 x3 xs0 xs1 xs2).2.2.1 (ix3 (1 : Fin 2) ch n) := by
  unfold resC; dsimp only
  rw [View.read_writes_junk_eq_canon, View.read_writes_junk_eq_canon]
  unfold kernelRun0_C; dsimp only
  unfold kernelRun0_C.sl.HS0_2
  rw [View.canon_unit_zero hz4]
  rw [← emb_layer1 inb_S2x64x2304_S1x64x2304_1_0_0 ch n, View.canon_cons_emb]
  unfold k0_pay3 k0_pay2
  exact (cast_2_4_apply _ _ 0 0 ch n).trans (cast_2_3_apply _ _ 0 ch n).symm

/-! ## At time step 31 the second output's block is both layers of the new hidden state -/

theorem resC_last0 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (ch : Fin 64) (n : Fin 2304) :
    (resC c i arg2 harg2 arg3 harg3 arg4 harg4 arg5 harg5 arg6 harg6 arg7 harg7 arg8 harg8 arg9 harg9 arg10 harg10 hc0 hc1 x0 x1 x2 x3 xs0 xs1 xs2).2.1 (ix4 (0 : Fin 1) (0 : Fin 2) ch n) = (resC c i arg2 harg2 arg3 harg3 arg4 harg4 arg5 harg5 arg6 harg6 arg7 harg7 arg8 harg8 arg9 harg9 arg10 harg10 hc0 hc1 x0 x1 x2 x3 xs0 xs1 xs2).2.2.1 (ix3 (0 : Fin 2) ch n) := by
  unfold resC; dsimp only
  rw [View.read_writes_junk_eq_canon, View.read_writes_junk_eq_canon]
  unfold kernelRun0_C; dsimp only
  rw [canon_last0]
  unfold k0_pay4
  refine (cast_2_4_apply _ _ 0 0 ch n).trans ?_
  refine (cast_3_2_apply _ _ ch n).trans ?_
  unfold kernelRun0_C.sl.v489
  rw [View.readCov_eq_canon']
  dsimp only
  rw [idx_layer0]

theorem resC_last1 (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (ch : Fin 64) (n : Fin 2304) :
    (resC c i arg2 harg2 arg3 harg3 arg4 harg4 arg5 harg5 arg6 harg6 arg7 harg7 arg8 harg8 arg9 harg9 arg10 harg10 hc0 hc1 x0 x1 x2 x3 xs0 xs1 xs2).2.1 (ix4 (0 : Fin 1) (1 : Fin 2) ch n) = (resC c i arg2 harg2 arg3 harg3 arg4 harg4 arg5 harg5 arg6 harg6 arg7 harg7 arg8 harg8 arg9 harg9 arg10 harg10 hc0 hc1 x0 x1 x2 x3 xs0 xs1 xs2).2.2.1 (ix3 (1 : Fin 2) ch n) := by
  unfold resC; dsimp only
  rw [View.read_writes_junk_eq_canon, View.read_writes_junk_eq_canon]
  unfold kernelRun0_C; dsimp only
  rw [← emb_last1 inb_S1x2x64x2304_S1x1x64x2304_0_1_0_0 ch n, View.canon_cons_emb]
  unfold k0_pay5
  refine (cast_2_4_apply _ _ 0 0 ch n).trans ?_
  refine (cast_3_2_apply _ _ ch n).trans ?_
  unfold kernelRun0_C.sl.v494
  rw [View.readCov_eq_canon']
  dsimp only
  rw [idx_layer1]

/-- Both layers at once. -/
theorem resC_last (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i) (x0 : Vec F S9x2304 .f32) (x1 : Vec F S1x1x64x2304 .f32) (x2 : Vec F S2x192x1160 .f32) (x3 : Vec F S2x64x576 .f32) (xs0 : Vec F S2x64x2304 .f32) (xs1 : Vec F S1160x2304 .f32) (xs2 : Vec F S576x2304 .f32) (l : Fin 2) (ch : Fin 64) (n : Fin 2304) :
    (resC c i arg2 harg2 arg3 harg3 arg4 harg4 arg5 harg5 arg6 harg6 arg7 harg7 arg8 harg8 arg9 harg9 arg10 harg10 hc0 hc1 x0 x1 x2 x3 xs0 xs1 xs2).2.1 (ix4 (0 : Fin 1) l ch n) = (resC c i arg2 harg2 arg3 harg3 arg4 harg4 arg5 harg5 arg6 harg6 arg7 harg7 arg8 harg8 arg9 harg9 arg10 harg10 hc0 hc1 x0 x1 x2 x3 xs0 xs1 xs2).2.2.1 (ix3 l ch n) := by
  match l with
  | ⟨0, _⟩ => exact resC_last0 c i arg2 harg2 arg3 harg3 arg4 harg4 arg5 harg5 arg6 harg6 arg7 harg7 arg8 harg8 arg9 harg9 arg10 harg10 hc0 hc1 x0 x1 x2 x3 xs0 xs1 xs2 ch n
  | ⟨1, _⟩ => exact resC_last1 c i arg2 harg2 arg3 harg3 arg4 harg4 arg5 harg5 arg6 harg6 arg7 harg7 arg8 harg8 arg9 harg9 arg10 harg10 hc0 hc1 x0 x1 x2 x3 xs0 xs1 xs2 ch n

end Cert.ReferenceIdeal.HandRun

end
-- ==== Proof.ROuts.lean ====
/-
  What a grid point leaves in the output blocks is a re-layout of what it leaves in the hidden-state scratch: the time
  step's output is the second layer's new state, and at t = 31 the block of last states is both layers' new states.
-/
import proofs.«175272_g2000206920649175_pallasbulk_1279_5_alg».proof.Proof.RFrame
import proofs.«175272_g2000206920649175_pallasbulk_1279_5_alg».proof.Proof.RLayout
import Idealize.ShloMosaic.Lib.ValueIdx

set_option maxRecDepth 16384
set_option maxHeartbeats 400000

noncomputable section

namespace Cert.ReferenceIdeal.Hand

open Cert.ReferenceIdeal Cert.ReferenceIdeal.Gen Cert.ReferenceIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ)

theorem outs_y (c : Dev nD) (p : Fin cfg0.N) (ch : Fin 64) (n : Fin 2304) :
    (outsAt0 m c p.val p.isLt).1 (ix4 (0 : Fin 1) (0 : Fin 1) ch n) = (outsAt0 m c p.val p.isLt).2.2.1 (ix3 (1 : Fin 2) ch n) := by
  by_cases h0 : p.val % 32 = 0
  · have h1 : ¬p.val % 32 = 31 := by omega
    rw [outsAt0_A m c p h0 h1]; unfold stA; dsimp only
    exact resA_y c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) ((hcond0_0 p).mpr h0) (fun h => h1 ((hcond0_1 p).mp h)) (iblk m c 0 p) (iblk m c 1 p) (iblk m c 2 p) (iblk m c 3 p) ch n
  · by_cases h1 : p.val % 32 = 31
    · rw [outsAt0_C m c p h0 h1]; unfold stC; dsimp only
      exact resC_y c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 ch n
    · rw [outsAt0_B m c p h0 h1]; unfold stB; dsimp only
      exact resB_y c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (fun h => h0 ((hcond0_0 p).mp h)) (fun h => h1 ((hcond0_1 p).mp h)) (iblk m c 0 p) (iblk m c 1 p) (iblk m c 2 p) (iblk m c 3 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 ch n

theorem outs_last (c : Dev nD) (p : Fin cfg0.N) (hp : p.val % 32 = 31) (l : Fin 2) (ch : Fin 64) (n : Fin 2304) :
    (outsAt0 m c p.val p.isLt).2.1 (ix4 (0 : Fin 1) l ch n) = (outsAt0 m c p.val p.isLt).2.2.1 (ix3 l ch n) := by
  have h0 : ¬p.val % 32 = 0 := by omega
  have h1 := hp
  rw [outsAt0_C m c p h0 h1]; unfold stC; dsimp only
  exact resC_last c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) ((outsAt0 m c (p.val - 1) (Nat.lt_of_le_of_lt (Nat.sub_le _ _) p.isLt))).2.2.1 ((outsAt0 m c (p.val - 1) (Nat.lt_of_le_of_lt (Nat.sub_le _ _) p.isLt))).2.2.2.1 ((outsAt0 m c (p.val - 1) (Nat.lt_of_le_of_lt (Nat.sub_le _ _) p.isLt))).2.2.2.2 l ch n

end Cert.ReferenceIdeal.Hand

end
-- ==== Proof.KArr.lean ====
/-
  The two result arrays of the region, read off the recurrence: the blocks of the output window of the time steps
  are pairwise disjoint over the 64 grid points, so the block a point wrote back is what the array holds there at the
  end; the window of the last states is written back at the two points with t = 31 only, at disjoint blocks, one per
  batch block.  The point p is (batch block p / 32, time p % 32).
-/
import proofs.«175272_g2000206920649175_pallasbulk_1279_5_alg».proof.Proof.KFrame
import Idealize.ShloMosaic.Lib.Pipeline.Value
import Idealize.ShloMosaic.Lib.ValueIdx

set_option maxRecDepth 16384

noncomputable section

namespace Cert.KernelIdeal.Hand

open Cert.KernelIdeal Cert.KernelIdeal.Gen Cert.KernelIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ)

/-- The index map of the time steps' output window sends distinct grid points to distinct blocks. -/
theorem idx_inj5 : ∀ t t' : Fin cfg0.N, win0_5.index t = win0_5.index t' → t = t' :=
  (by decide +kernel : ∀ t t' : Fin grid0.N, win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- The two points that write the last states back write different blocks. -/
theorem idx_inj6 : ∀ t t' : Fin cfg0.N, (cfg0.win 6).flush t = true → (cfg0.win 6).flush t' = true →
    win0_6.index t = win0_6.index t' → t = t' :=
  (by decide +kernel : ∀ t t' : Fin grid0.N, win0_6.flush t = true → win0_6.flush t' = true → win0_6.index t = win0_6.index t' → t = t')

theorem disjoint6 : ∀ t t' : Fin cfg0.N, (cfg0.win 6).flush t = true → (cfg0.win 6).flush t' = true → t ≠ t' →
    Disjoint ((cfg0.win 6).blk t).view.set ((cfg0.win 6).blk t').view.set :=
  fun t t' hf hf' hne => (cfg0.win 6).disjoint_blk fun h => hne (idx_inj6 t t' hf hf' h)

/-- Where the block of grid point `p` sits in each array. -/
theorem index5 : ∀ p : Fin cfg0.N, (win0_5.index p 0 = p.val % 32 ∧ win0_5.index p 1 = p.val / 32 ∧ win0_5.index p 2 = 0 ∧ win0_5.index p 3 = 0 ∧ win0_5.index p 4 = 0) :=
  (by decide +kernel : ∀ p : Fin grid0.N, (win0_5.index p 0 = p.val % 32 ∧ win0_5.index p 1 = p.val / 32 ∧ win0_5.index p 2 = 0 ∧ win0_5.index p 3 = 0 ∧ win0_5.index p 4 = 0))
theorem index6 : ∀ p : Fin cfg0.N, (win0_6.index p 0 = p.val / 32 ∧ win0_6.index p 1 = 0 ∧ win0_6.index p 2 = 0 ∧ win0_6.index p 3 = 0 ∧ win0_6.index p 4 = 0) :=
  (by decide +kernel : ∀ p : Fin grid0.N, (win0_6.index p 0 = p.val / 32 ∧ win0_6.index p 1 = 0 ∧ win0_6.index p 2 = 0 ∧ win0_6.index p 3 = 0 ∧ win0_6.index p 4 = 0))
theorem lt2_of_point (p : Fin cfg0.N) : p.val / 32 < 2 := by
  have h : p.val < 64 := lt_of_lt_of_eq p.isLt (show cfg0.N = 64 from N_0); omega

/-- The output of the time steps: the entry of (batch block p / 32, time p % 32) is what the point p left in its block. -/
theorem arrAt5 (c : Dev nD) (p : Fin cfg0.N) (bb : Fin 4) (ch : Fin 64) (hw : Fin 576) :
    (dats m 0 c).arrAt 5 cfg0.N (ix5 (⟨p.val % 32, Nat.mod_lt _ (by decide)⟩ : Fin 32) (⟨p.val / 32, lt2_of_point p⟩ : Fin 2) bb ch hw) = (outsAt0 m c p.val p.isLt).1 (ix5 (0 : Fin 1) (0 : Fin 1) bb ch hw) := by
  have h := (dats m 0 c).arrAt_emb_eq_flushed 5 disjoint5 p (flush0_5 p) (ix5 (0 : Fin 1) (0 : Fin 1) bb ch hw)
  have hemb : ((cfg0.win 5).blk p).view.emb (ix5 (0 : Fin 1) (0 : Fin 1) bb ch hw) = ix5 (⟨p.val % 32, Nat.mod_lt _ (by decide)⟩ : Fin 32) (⟨p.val / 32, lt2_of_point p⟩ : Fin 2) bb ch hw := by
    funext a
    apply Fin.ext
    obtain ⟨h0, h1, h2, h3, h4⟩ := index5 p
    match a with
    | ⟨0, _⟩ => exact ((cfg0.win 5).rect_emb_val p (ix5 (0 : Fin 1) (0 : Fin 1) bb ch hw) ⟨0, by decide⟩).trans (by rw [show (cfg0.win 5).index p ⟨0, by decide⟩ = _ from h0]; first | rfl | (show _ * _ + _ = _; simp))
    | ⟨1, _⟩ => exact ((cfg0.win 5).rect_emb_val p (ix5 (0 : Fin 1) (0 : Fin 1) bb ch hw) ⟨1, by decide⟩).trans (by rw [show (cfg0.win 5).index p ⟨1, by decide⟩ = _ from h1]; first | rfl | (show _ * _ + _ = _; simp))
    | ⟨2, _⟩ => exact ((cfg0.win 5).rect_emb_val p (ix5 (0 : Fin 1) (0 : Fin 1) bb ch hw) ⟨2, by decide⟩).trans (by rw [show (cfg0.win 5).index p ⟨2, by decide⟩ = _ from h2]; first | rfl | (show _ * _ + _ = _; simp))
    | ⟨3, _⟩ => exact ((cfg0.win 5).rect_emb_val p (ix5 (0 : Fin 1) (0 : Fin 1) bb ch hw) ⟨3, by decide⟩).trans (by rw [show (cfg0.win 5).index p ⟨3, by decide⟩ = _ from h3]; first | rfl | (show _ * _ + _ = _; simp))
    | ⟨4, _⟩ => exact ((cfg0.win 5).rect_emb_val p (ix5 (0 : Fin 1) (0 : Fin 1) bb ch hw) ⟨4, by decide⟩).trans (by rw [show (cfg0.win 5).index p ⟨4, by decide⟩ = _ from h4]; first | rfl | (show _ * _ + _ = _; simp))
  rw [hemb] at h
  rw [h]
  rfl

/-- The last states: the entry of batch block p / 32 is what the point p with time 31 left in its block. -/
theorem arrAt6 (c : Dev nD) (p : Fin cfg0.N) (hp : p.val % 32 = 31) (bb : Fin 4) (l : Fin 2) (ch : Fin 64) (hw : Fin 576) :
    (dats m 0 c).arrAt 6 cfg0.N (ix5 (⟨p.val / 32, lt2_of_point p⟩ : Fin 2) bb l ch hw) = (outsAt0 m c p.val p.isLt).2.1 (ix5 (0 : Fin 1) bb l ch hw) := by
  have h := (dats m 0 c).arrAt_emb_eq_flushed 6 disjoint6 p ((flush0_6 p).mpr hp) (ix5 (0 : Fin 1) bb l ch hw)
  have hemb : ((cfg0.win 6).blk p).view.emb (ix5 (0 : Fin 1) bb l ch hw) = ix5 (⟨p.val / 32, lt2_of_point p⟩ : Fin 2) bb l ch hw := by
    funext a
    apply Fin.ext
    obtain ⟨h0, h1, h2, h3, h4⟩ := index6 p
    match a with
    | ⟨0, _⟩ => exact ((cfg0.win 6).rect_emb_val p (ix5 (0 : Fin 1) bb l ch hw) ⟨0, by decide⟩).trans (by rw [show (cfg0.win 6).index p ⟨0, by decide⟩ = _ from h0]; first | rfl | (show _ * _ + _ = _; simp))
    | ⟨1, _⟩ => exact ((cfg0.win 6).rect_emb_val p (ix5 (0 : Fin 1) bb l ch hw) ⟨1, by decide⟩).trans (by rw [show (cfg0.win 6).index p ⟨1, by decide⟩ = _ from h1]; first | rfl | (show _ * _ + _ = _; simp))
    | ⟨2, _⟩ => exact ((cfg0.win 6).rect_emb_val p (ix5 (0 : Fin 1) bb l ch hw) ⟨2, by decide⟩).trans (by rw [show (cfg0.win 6).index p ⟨2, by decide⟩ = _ from h2]; first | rfl | (show _ * _ + _ = _; simp))
    | ⟨3, _⟩ => exact ((cfg0.win 6).rect_emb_val p (ix5 (0 : Fin 1) bb l ch hw) ⟨3, by decide⟩).trans (by rw [show (cfg0.win 6).index p ⟨3, by decide⟩ = _ from h3]; first | rfl | (show _ * _ + _ = _; simp))
    | ⟨4, _⟩ => exact ((cfg0.win 6).rect_emb_val p (ix5 (0 : Fin 1) bb l ch hw) ⟨4, by decide⟩).trans (by rw [show (cfg0.win 6).index p ⟨4, by decide⟩ = _ from h4]; first | rfl | (show _ * _ + _ = _; simp))
  rw [hemb] at h
  rw [h]
  rfl

end Cert.KernelIdeal.Hand

end
-- ==== Proof.RArr.lean ====
/-
  The two result arrays of the region, read off the recurrence: the blocks of the output window of the time steps
  are pairwise disjoint over the 64 grid points, so the block a point wrote back is what the array holds there at the
  end; the window of the last states is written back at the two points with t = 31 only, at disjoint blocks, one per
  batch block.  The point p is (batch block p / 32, time p % 32).
-/
import proofs.«175272_g2000206920649175_pallasbulk_1279_5_alg».proof.Proof.RFrame
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen Cert.ReferenceIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

variable (m : (ℓ : Loc nD τ sig) → Buf (Elt F) ℓ)

/-- The index map of the time steps' output window sends distinct grid points to distinct blocks. -/
theorem idx_inj4 : ∀ t t' : Fin cfg0.N, win0_4.index t = win0_4.index t' → t = t' :=
  (by decide +kernel : ∀ t t' : Fin grid0.N, win0_4.index t = win0_4.index t' → t = t')

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- The two points that write the last states back write different blocks. -/
theorem idx_inj5 : ∀ t t' : Fin cfg0.N, (cfg0.win 5).flush t = true → (cfg0.win 5).flush t' = true →
    win0_5.index t = win0_5.index t' → t = t' :=
  (by decide +kernel : ∀ t t' : Fin grid0.N, win0_5.flush t = true → win0_5.flush t' = true → win0_5.index t = win0_5.index t' → t = t')

theorem disjoint5 : ∀ t t' : Fin cfg0.N, (cfg0.win 5).flush t = true → (cfg0.win 5).flush t' = true → t ≠ t' →
    Disjoint ((cfg0.win 5).blk t).view.set ((cfg0.win 5).blk t').view.set :=
  fun t t' hf hf' hne => (cfg0.win 5).disjoint_blk fun h => hne (idx_inj5 t t' hf hf' h)

/-- Where the block of grid point `p` sits in each array. -/
theorem index4 : ∀ p : Fin cfg0.N, (win0_4.index p 0 = p.val / 32 ∧ win0_4.index p 1 = p.val % 32 ∧ win0_4.index p 2 = 0 ∧ win0_4.index p 3 = 0) :=
  (by decide +kernel : ∀ p : Fin grid0.N, (win0_4.index p 0 = p.val / 32 ∧ win0_4.index p 1 = p.val % 32 ∧ win0_4.index p 2 = 0 ∧ win0_4.index p 3 = 0))
theorem index5 : ∀ p : Fin cfg0.N, (win0_5.index p 0 = p.val / 32 ∧ win0_5.index p 1 = 0 ∧ win0_5.index p 2 = 0 ∧ win0_5.index p 3 = 0) :=
  (by decide +kernel : ∀ p : Fin grid0.N, (win0_5.index p 0 = p.val / 32 ∧ win0_5.index p 1 = 0 ∧ win0_5.index p 2 = 0 ∧ win0_5.index p 3 = 0))
theorem lt2_of_point (p : Fin cfg0.N) : p.val / 32 < 2 := by
  have h : p.val < 64 := lt_of_lt_of_eq p.isLt (show cfg0.N = 64 from N_0); omega

/-- The output of the time steps: the entry of (batch block p / 32, time p % 32) is what the point p left in its block. -/
theorem arrAt4 (c : Dev nD) (p : Fin cfg0.N) (ch : Fin 64) (n : Fin 2304) :
    (dats m 0 c).arrAt 4 cfg0.N (ix4 (⟨p.val / 32, lt2_of_point p⟩ : Fin 2) (⟨p.val % 32, Nat.mod_lt _ (by decide)⟩ : Fin 32) ch n) = (outsAt0 m c p.val p.isLt).1 (ix4 (0 : Fin 1) (0 : Fin 1) ch n) := by
  have h := (dats m 0 c).arrAt_emb_eq_flushed 4 disjoint4 p (flush0_4 p) (ix4 (0 : Fin 1) (0 : Fin 1) ch n)
  have hemb : ((cfg0.win 4).blk p).view.emb (ix4 (0 : Fin 1) (0 : Fin 1) ch n) = ix4 (⟨p.val / 32, lt2_of_point p⟩ : Fin 2) (⟨p.val % 32, Nat.mod_lt _ (by decide)⟩ : Fin 32) ch n := by
    funext a
    apply Fin.ext
    obtain ⟨h0, h1, h2, h3⟩ := index4 p
    match a with
    | ⟨0, _⟩ => exact ((cfg0.win 4).rect_emb_val p (ix4 (0 : Fin 1) (0 : Fin 1) ch n) ⟨0, by decide⟩).trans (by rw [show (cfg0.win 4).index p ⟨0, by decide⟩ = _ from h0]; first | rfl | (show _ * _ + _ = _; simp))
    | ⟨1, _⟩ => exact ((cfg0.win 4).rect_emb_val p (ix4 (0 : Fin 1) (0 : Fin 1) ch n) ⟨1, by decide⟩).trans (by rw [show (cfg0.win 4).index p ⟨1, by decide⟩ = _ from h1]; first | rfl | (show _ * _ + _ = _; simp))
    | ⟨2, _⟩ => exact ((cfg0.win 4).rect_emb_val p (ix4 (0 : Fin 1) (0 : Fin 1) ch n) ⟨2, by decide⟩).trans (by rw [show (cfg0.win 4).index p ⟨2, by decide⟩ = _ from h2]; first | rfl | (show _ * _ + _ = _; simp))
    | ⟨3, _⟩ => exact ((cfg0.win 4).rect_emb_val p (ix4 (0 : Fin 1) (0 : Fin 1) ch n) ⟨3, by decide⟩).trans (by rw [show (cfg0.win 4).index p ⟨3, by decide⟩ = _ from h3]; first | rfl | (show _ * _ + _ = _; simp))
  rw [hemb] at h
  rw [h]
  rfl

/-- The last states: the entry of batch block p / 32 is what the point p with time 31 left in its block. -/
theorem arrAt5 (c : Dev nD) (p : Fin cfg0.N) (hp : p.val % 32 = 31) (l : Fin 2) (ch : Fin 64) (n : Fin 2304) :
    (dats m 0 c).arrAt 5 cfg0.N (ix4 (⟨p.val / 32, lt2_of_point p⟩ : Fin 2) l ch n) = (outsAt0 m c p.val p.isLt).2.1 (ix4 (0 : Fin 1) l ch n) := by
  have h := (dats m 0 c).arrAt_emb_eq_flushed 5 disjoint5 p ((flush0_5 p).mpr hp) (ix4 (0 : Fin 1) l ch n)
  have hemb : ((cfg0.win 5).blk p).view.emb (ix4 (0 : Fin 1) l ch n) = ix4 (⟨p.val / 32, lt2_of_point p⟩ : Fin 2) l ch n := by
    funext a
    apply Fin.ext
    obtain ⟨h0, h1, h2, h3⟩ := index5 p
    match a with
    | ⟨0, _⟩ => exact ((cfg0.win 5).rect_emb_val p (ix4 (0 : Fin 1) l ch n) ⟨0, by decide⟩).trans (by rw [show (cfg0.win 5).index p ⟨0, by decide⟩ = _ from h0]; first | rfl | (show _ * _ + _ = _; simp))
    | ⟨1, _⟩ => exact ((cfg0.win 5).rect_emb_val p (ix4 (0 : Fin 1) l ch n) ⟨1, by decide⟩).trans (by rw [show (cfg0.win 5).index p ⟨1, by decide⟩ = _ from h1]; first | rfl | (show _ * _ + _ = _; simp))
    | ⟨2, _⟩ => exact ((cfg0.win 5).rect_emb_val p (ix4 (0 : Fin 1) l ch n) ⟨2, by decide⟩).trans (by rw [show (cfg0.win 5).index p ⟨2, by decide⟩ = _ from h2]; first | rfl | (show _ * _ + _ = _; simp))
    | ⟨3, _⟩ => exact ((cfg0.win 5).rect_emb_val p (ix4 (0 : Fin 1) l ch n) ⟨3, by decide⟩).trans (by rw [show (cfg0.win 5).index p ⟨3, by decide⟩ = _ from h3]; first | rfl | (show _ * _ + _ = _; simp))
  rw [hemb] at h
  rw [h]
  rfl

end Cert.ReferenceIdeal.Hand

end
-- ==== Proof.KTail.lean ====
/-
  The host operations after the region, read back to the region's result arrays.

  After the pipelined region @main only reshapes its two results: the sequence of hidden states,
  stored as [time, batch block, batch in block, channel, pixel] = [32, 2, 4, 64, 576], is returned as
  [time, batch, channel, row, column] = [32, 8, 64, 24, 24]; the final states of the two layers,
  stored as [batch block, batch in block, layer, channel, pixel] = [2, 4, 2, 64, 576], are returned as
  [batch, layer, channel, row, column] = [8, 2, 64, 24, 24]. A reshape keeps the row-major position,
  so batch `b` is block `b / 4`, place `b % 4`, and pixel `(y, x)` is `24 y + x`.
  Here: each returned buffer as the reshape of the array the region leaves, and entry by entry.
-/
import proofs.«175272_g2000206920649175_pallasbulk_1279_5_alg».proof.Proof.KKit
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The returned sequence of states is the reshape of the region's first result array (window 5) as
    the region leaves it. -/
theorem tail_v259 (dats : (p : Fin 1) → (c : Dev nD) → Dat τ (Elt F) Unit ℕ (UR sig nD τ) ℕ (cfgs p) c) (c : Dev nD) :
    Pipeline.afterTail₀ cfgs dats 0 (V0 m) [hostOps1] c main_v259
      = shapeCast S32x8x64x24x24 ((dats 0 c).arrAt 5 cfg0.N) Facts₀.shapeCasts_S32x2x4x64x576_S32x8x64x24x24 := by
  unfold Pipeline.afterTail₀
  show StableHlo.after hostOps1 _ (Proc.devRef .tc main_v259) = _
  after_results
  show shapeCast S32x8x64x24x24 (Pipeline.withArrays spec0 c (V0 m c) (fun w => (dats 0 c).arrAt w cfg0.N)
    (Proc.devRef .tc (Pipeline.arrRef spec0 5))) Facts₀.shapeCasts_S32x2x4x64x576_S32x8x64x24x24 = _
  rw [Pipeline.withArrays_arr spec0 launch0.win.arr_inj]

/-- Entry (time `t`, batch `b`, channel `ch`, row `y`, column `x`) of the returned sequence is entry
    (`t`, `b / 4`, `b % 4`, `ch`, `24 y + x`) of the region's first result array. -/
theorem tail_v259_apply (dats : (p : Fin 1) → (c : Dev nD) → Dat τ (Elt F) Unit ℕ (UR sig nD τ) ℕ (cfgs p) c) (c : Dev nD)
    (t : Fin 32) (b : Fin 8) (ch : Fin 64) (y x : Fin 24) :
    Pipeline.afterTail₀ cfgs dats 0 (V0 m) [hostOps1] c main_v259 (ix5 t b ch y x)
      = (dats 0 c).arrAt 5 cfg0.N (ix5 t (⟨b.val / 4, by omega⟩ : Fin 2) (⟨b.val % 4, by omega⟩ : Fin 4) ch
          (⟨24 * y.val + x.val, by omega⟩ : Fin 576)) := by
  refine (congrFun (tail_v259 m dats c) _).trans ?_
  refine shapeCast_apply (s := S32x2x4x64x576) (t := S32x8x64x24x24) _ _ _ _ ?_
  rw [Shape.rowMajor_val_five, Shape.rowMajor_val_five]
  show ((((t.val * 2 + b.val / 4) * 4 + b.val % 4) * 64 + ch.val) * 576 + (24 * y.val + x.val))
    = (((t.val * 8 + b.val) * 64 + ch.val) * 24 + y.val) * 24 + x.val
  omega

/-- The returned final states are the reshape of the region's second result array (window 6) as the
    region leaves it. -/
theorem tail_v260 (dats : (p : Fin 1) → (c : Dev nD) → Dat τ (Elt F) Unit ℕ (UR sig nD τ) ℕ (cfgs p) c) (c : Dev nD) :
    Pipeline.afterTail₀ cfgs dats 0 (V0 m) [hostOps1] c main_v260
      = shapeCast S8x2x64x24x24 ((dats 0 c).arrAt 6 cfg0.N) Facts₀.shapeCasts_S2x4x2x64x576_S8x2x64x24x24 := by
  unfold Pipeline.afterTail₀
  show StableHlo.after hostOps1 _ (Proc.devRef .tc main_v260) = _
  after_results
  show shapeCast S8x2x64x24x24 (Pipeline.withArrays spec0 c (V0 m c) (fun w => (dats 0 c).arrAt w cfg0.N)
    (Proc.devRef .tc (Pipeline.arrRef spec0 6))) Facts₀.shapeCasts_S2x4x2x64x576_S8x2x64x24x24 = _
  rw [Pipeline.withArrays_arr spec0 launch0.win.arr_inj]

/-- Entry (batch `b`, layer `l`, channel `ch`, row `y`, column `x`) of the returned final states is entry
    (`b / 4`, `b % 4`, `l`, `ch`, `24 y + x`) of the region's second result array. -/
theorem tail_v260_apply (dats : (p : Fin 1) → (c : Dev nD) → Dat τ (Elt F) Unit ℕ (UR sig nD τ) ℕ (cfgs p) c) (c : Dev nD)
    (b : Fin 8) (l : Fin 2) (ch : Fin 64) (y x : Fin 24) :
    Pipeline.afterTail₀ cfgs dats 0 (V0 m) [hostOps1] c main_v260 (ix5 b l ch y x)
      = (dats 0 c).arrAt 6 cfg0.N (ix5 (⟨b.val / 4, by omega⟩ : Fin 2) (⟨b.val % 4, by omega⟩ : Fin 4) l ch
          (⟨24 * y.val + x.val, by omega⟩ : Fin 576)) := by
  refine (congrFun (tail_v260 m dats c) _).trans ?_
  refine shapeCast_apply (s := S2x4x2x64x576) (t := S8x2x64x24x24) _ _ _ _ ?_
  rw [Shape.rowMajor_val_five, Shape.rowMajor_val_five]
  show ((((b.val / 4 * 4 + b.val % 4) * 2 + l.val) * 64 + ch.val) * 576 + (24 * y.val + x.val))
    = (((b.val * 2 + l.val) * 64 + ch.val) * 24 + y.val) * 24 + x.val
  omega

end Cert.KernelIdeal.Hand

end
-- ==== Proof.RTail.lean ====
/-
  The host operations after the region, read back to the region's result arrays.

  The region leaves the sequence of hidden states as [batch block, time, channel, (batch in block,
  pixel)] = [2, 32, 64, 2304] and the final states of the two layers as [batch block, layer, channel,
  (batch in block, pixel)] = [2, 2, 64, 2304], the last axis holding four images of 576 pixels side
  by side. @main then splits that axis (a reshape to […, 4, 576]), brings time or batch to the front
  (a transpose) and folds the batch block and the place in it into one batch axis, the pixels into
  rows and columns (a reshape): [time, batch, channel, row, column] = [32, 8, 64, 24, 24] and
  [batch, layer, channel, row, column] = [8, 2, 64, 24, 24]. Batch `b` is block `b / 4`, place
  `b % 4`; pixel `(y, x)` of that place is position `576 (b % 4) + 24 y + x` of the last axis.
  Here: each returned buffer as those three operations applied to the array the region leaves, and
  entry by entry.
-/
import proofs.«175272_g2000206920649175_pallasbulk_1279_5_alg».proof.Proof.RKit
import Idealize.ShloMosaic.Lib.Pipeline.Value
import Idealize.ShloMosaic.Lib.ValueIdx

set_option maxRecDepth 16384

noncomputable section

namespace Cert.ReferenceIdeal.Hand

open Cert.ReferenceIdeal Cert.ReferenceIdeal.Gen
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (m : (ℓ : Loc nD τ sig) → Buf (Elt F) ℓ)

/-- The returned sequence of states: the region's first result array (window 4) as the region leaves
    it, with its last axis split, time brought to the front, and batch and pixels folded. -/
theorem tail_v196 (dats : (p : Fin 1) → (c : Dev nD) → Dat τ (Elt F) Unit ℕ (UR sig nD τ) ℕ (cfgs p) c) (c : Dev nD) :
    Pipeline.afterTail₀ cfgs dats 0 (V0 m) [hostOps1] c main_v196
      = shapeCast S32x8x64x24x24
          (transpose S32x2x4x64x576 [1, 0, 3, 2, 4]
            (shapeCast S2x32x64x4x576 ((dats 0 c).arrAt 4 cfg0.N) Facts₀.shapeCasts_S2x32x64x2304_S2x32x64x4x576)
            Facts₀.transposes_S2x32x64x4x576_S32x2x4x64x576_1_0_3_2_4)
          Facts₀.shapeCasts_S32x2x4x64x576_S32x8x64x24x24 := by
  unfold Pipeline.afterTail₀
  show StableHlo.after hostOps1 _ (Proc.devRef .tc main_v196) = _
  after_results
  show shapeCast S32x8x64x24x24
      (transpose S32x2x4x64x576 [1, 0, 3, 2, 4]
        (shapeCast S2x32x64x4x576 (Pipeline.withArrays spec0 c (V0 m c) (fun w => (dats 0 c).arrAt w cfg0.N)
          (Proc.devRef .tc (Pipeline.arrRef spec0 4))) Facts₀.shapeCasts_S2x32x64x2304_S2x32x64x4x576)
        Facts₀.transposes_S2x32x64x4x576_S32x2x4x64x576_1_0_3_2_4)
      Facts₀.shapeCasts_S32x2x4x64x576_S32x8x64x24x24 = _
  rw [Pipeline.withArrays_arr spec0 launch0.win.arr_inj]

/-- Entry (time `t`, batch `b`, channel `ch`, row `y`, column `x`) of the returned sequence is entry
    (`b / 4`, `t`, `ch`, `576 (b % 4) + 24 y + x`) of the region's first result array. -/
theorem tail_v196_apply (dats : (p : Fin 1) → (c : Dev nD) → Dat τ (Elt F) Unit ℕ (UR sig nD τ) ℕ (cfgs p) c) (c : Dev nD)
    (t : Fin 32) (b : Fin 8) (ch : Fin 64) (y x : Fin 24) :
    Pipeline.afterTail₀ cfgs dats 0 (V0 m) [hostOps1] c main_v196 (ix5 t b ch y x)
      = (dats 0 c).arrAt 4 cfg0.N (ix4 (⟨b.val / 4, by omega⟩ : Fin 2) t ch
          (⟨576 * (b.val % 4) + 24 * y.val + x.val, by omega⟩ : Fin 2304)) := by
  refine (congrFun (tail_v196 m dats c) _).trans ?_
  refine (shapeCast_apply (s := S32x2x4x64x576) (t := S32x8x64x24x24) _ _ _
    (ix5 t (⟨b.val / 4, by omega⟩ : Fin 2) (⟨b.val % 4, by omega⟩ : Fin 4) ch (⟨24 * y.val + x.val, by omega⟩ : Fin 576)) ?_).trans ?_
  · rw [Shape.rowMajor_val_five, Shape.rowMajor_val_five]
    show ((((t.val * 2 + b.val / 4) * 4 + b.val % 4) * 64 + ch.val) * 576 + (24 * y.val + x.val))
      = (((t.val * 8 + b.val) * 64 + ch.val) * 24 + y.val) * 24 + x.val
    omega
  refine (transpose_apply (s := S2x32x64x4x576) (t := S32x2x4x64x576) _ _ _ _
    (ix5 (⟨b.val / 4, by omega⟩ : Fin 2) t ch (⟨b.val % 4, by omega⟩ : Fin 4) (⟨24 * y.val + x.val, by omega⟩ : Fin 576)) ?_).trans ?_
  · intro a
    match a with
    | ⟨0, _⟩ => rfl
    | ⟨1, _⟩ => rfl
    | ⟨2, _⟩ => rfl
    | ⟨3, _⟩ => rfl
    | ⟨4, _⟩ => rfl
  refine shapeCast_apply (s := S2x32x64x2304) (t := S2x32x64x4x576) _ _ _ _ ?_
  rw [Shape.rowMajor_val_four, Shape.rowMajor_val_five]
  show (((b.val / 4 * 32 + t.val) * 64 + ch.val) * 2304 + (576 * (b.val % 4) + 24 * y.val + x.val))
    = (((b.val / 4 * 32 + t.val) * 64 + ch.val) * 4 + b.val % 4) * 576 + (24 * y.val + x.val)
  omega

/-- The returned final states: the region's second result array (window 5) as the region leaves it,
    with its last axis split, the place in the batch block brought forward, and batch and pixels folded. -/
theorem tail_v199 (dats : (p : Fin 1) → (c : Dev nD) → Dat τ (Elt F) Unit ℕ (UR sig nD τ) ℕ (cfgs p) c) (c : Dev nD) :
    Pipeline.afterTail₀ cfgs dats 0 (V0 m) [hostOps1] c main_v199
      = shapeCast S8x2x64x24x24
          (transpose S2x4x2x64x576 [0, 3, 1, 2, 4]
            (shapeCast S2x2x64x4x576 ((dats 0 c).arrAt 5 cfg0.N) Facts₀.shapeCasts_S2x2x64x2304_S2x2x64x4x576)
            Facts₀.transposes_S2x2x64x4x576_S2x4x2x64x576_0_3_1_2_4)
          Facts₀.shapeCasts_S2x4x2x64x576_S8x2x64x24x24 := by
  unfold Pipeline.afterTail₀
  show StableHlo.after hostOps1 _ (Proc.devRef .tc main_v199) = _
  after_results
  show shapeCast S8x2x64x24x24
      (transpose S2x4x2x64x576 [0, 3, 1, 2, 4]
        (shapeCast S2x2x64x4x576 (Pipeline.withArrays spec0 c (V0 m c) (fun w => (dats 0 c).arrAt w cfg0.N)
          (Proc.devRef .tc (Pipeline.arrRef spec0 5))) Facts₀.shapeCasts_S2x2x64x2304_S2x2x64x4x576)
        Facts₀.transposes_S2x2x64x4x576_S2x4x2x64x576_0_3_1_2_4)
      Facts₀.shapeCasts_S2x4x2x64x576_S8x2x64x24x24 = _
  rw [Pipeline.withArrays_arr spec0 launch0.win.arr_inj]

/-- Entry (batch `b`, layer `l`, channel `ch`, row `y`, column `x`) of the returned final states is entry
    (`b / 4`, `l`, `ch`, `576 (b % 4) + 24 y + x`) of the region's second result array. -/
theorem tail_v199_apply (dats : (p : Fin 1) → (c : Dev nD) → Dat τ (Elt F) Unit ℕ (UR sig nD τ) ℕ (cfgs p) c) (c : Dev nD)
    (b : Fin 8) (l : Fin 2) (ch : Fin 64) (y x : Fin 24) :
    Pipeline.afterTail₀ cfgs dats 0 (V0 m) [hostOps1] c main_v199 (ix5 b l ch y x)
      = (dats 0 c).arrAt 5 cfg0.N (ix4 (⟨b.val / 4, by omega⟩ : Fin 2) l ch
          (⟨576 * (b.val % 4) + 24 * y.val + x.val, by omega⟩ : Fin 2304)) := by
  refine (congrFun (tail_v199 m dats c) _).trans ?_
  refine (shapeCast_apply (s := S2x4x2x64x576) (t := S8x2x64x24x24) _ _ _
    (ix5 (⟨b.val / 4, by omega⟩ : Fin 2) (⟨b.val % 4, by omega⟩ : Fin 4) l ch (⟨24 * y.val + x.val, by omega⟩ : Fin 576)) ?_).trans ?_
  · rw [Shape.rowMajor_val_five, Shape.rowMajor_val_five]
    show ((((b.val / 4 * 4 + b.val % 4) * 2 + l.val) * 64 + ch.val) * 576 + (24 * y.val + x.val))
      = (((b.val * 2 + l.val) * 64 + ch.val) * 24 + y.val) * 24 + x.val
    omega
  refine (transpose_apply (s := S2x2x64x4x576) (t := S2x4x2x64x576) _ _ _ _
    (ix5 (⟨b.val / 4, by omega⟩ : Fin 2) l ch (⟨b.val % 4, by omega⟩ : Fin 4) (⟨24 * y.val + x.val, by omega⟩ : Fin 576)) ?_).trans ?_
  · intro a
    match a with
    | ⟨0, _⟩ => rfl
    | ⟨1, _⟩ => rfl
    | ⟨2, _⟩ => rfl
    | ⟨3, _⟩ => rfl
    | ⟨4, _⟩ => rfl
  refine shapeCast_apply (s := S2x2x64x2304) (t := S2x2x64x4x576) _ _ _ _ ?_
  rw [Shape.rowMajor_val_four, Shape.rowMajor_val_five]
  show (((b.val / 4 * 2 + l.val) * 64 + ch.val) * 2304 + (576 * (b.val % 4) + 24 * y.val + x.val))
    = (((b.val / 4 * 2 + l.val) * 64 + ch.val) * 4 + b.val % 4) * 576 + (24 * y.val + x.val)
  omega

end Cert.ReferenceIdeal.Hand

end
-- ==== Proof.Values.lean ====
/-
  The value claim from the hidden states: every entry of the two results is an entry of the hidden-state scratch
  after some grid point, read through the same chain on both sides — the host operations after the region (reshapes, and
  in the reference transposes), the array the region leaves (block by block what the points wrote back), the block a
  point wrote (a re-layout of the state it left).  Result 0 at (t, b, channel, y, x) is layer 1's state after the point
  (batch block b / 4, time t) at lane 576 (b mod 4) + 24 y + x; result 1 at (b, layer, channel, y, x) is that layer's state
  after the point (b / 4, 31) at the same lane.  So if the two recurrences leave the same hidden states at every grid
  point, the results are equal.
-/
import proofs.«175272_g2000206920649175_pallasbulk_1279_5_alg».proof.Proof.KOuts
import proofs.«175272_g2000206920649175_pallasbulk_1279_5_alg».proof.Proof.ROuts
import proofs.«175272_g2000206920649175_pallasbulk_1279_5_alg».proof.Proof.KArr
import proofs.«175272_g2000206920649175_pallasbulk_1279_5_alg».proof.Proof.RArr
import proofs.«175272_g2000206920649175_pallasbulk_1279_5_alg».proof.Proof.KTail
import proofs.«175272_g2000206920649175_pallasbulk_1279_5_alg».proof.Proof.RTail
import Idealize.ShloMosaic.PureOps.Ideal

set_option maxRecDepth 16384

set_option maxHeartbeats 1600000
noncomputable section

namespace Cert.Proof

open Idealize.ShloMosaic Idealize.SL.Sem Idealize.ShloMosaic.ValueIdx

theorem ix3_congr {n0 n1 n2 : Nat} {a a' : Fin n0} {b b' : Fin n1} {c c' : Fin n2}
    (ha : a.val = a'.val) (hb : b.val = b'.val) (hc : c.val = c'.val) : ix3 a b c = ix3 a' b' c' := by
  obtain rfl := Fin.ext ha; obtain rfl := Fin.ext hb; obtain rfl := Fin.ext hc; rfl
theorem ix4_congr {n0 n1 n2 n3 : Nat} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha; obtain rfl := Fin.ext hb; obtain rfl := Fin.ext hc; obtain rfl := Fin.ext hd; rfl
theorem ix5_congr {n0 n1 n2 n3 n4 : Nat} {a a' : Fin n0} {b b' : Fin n1} {c c' : Fin n2} {d d' : Fin n3} {e e' : Fin n4}
    (ha : a.val = a'.val) (hb : b.val = b'.val) (hc : c.val = c'.val) (hd : d.val = d'.val) (he : e.val = e'.val) :
    ix5 a b c d e = ix5 a' b' c' d' e' := by
  obtain rfl := Fin.ext ha; obtain rfl := Fin.ext hb; obtain rfl := Fin.ext hc; obtain rfl := Fin.ext hd; obtain rfl := Fin.ext he; rfl

/-- The two recurrences leave the same hidden states (both layers, every channel and lane) at every grid point. -/
def HiddenEq (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) : Prop :=
  ∀ (p : Fin Cert.KernelIdeal.cfg0.N) (p' : Fin Cert.ReferenceIdeal.cfg0.N), p.val = p'.val → ∀ (l : Fin 2) (ch : Fin 64) (n : Fin 2304),
    (Cert.KernelIdeal.Hand.outsAt0 (F := Ideal) m c p.val p.isLt).2.2.1 (ix3 l ch n)
      = (Cert.ReferenceIdeal.Hand.outsAt0 (F := Ideal) m' c p'.val p'.isLt).2.2.1 (ix3 l ch n)

theorem values_of_hidden (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ) (c : Dev Cert.KernelIdeal.nD) (H : HiddenEq m m' c) :
    (Pipeline.afterTail₀ Cert.ReferenceIdeal.cfgs (Cert.ReferenceIdeal.Hand.dats (F := Ideal) m') 0 (Cert.ReferenceIdeal.Hand.V0 m') [Cert.ReferenceIdeal.Gen.hostOps1] c Cert.ReferenceIdeal.main_v196 : Buf (Elt Ideal) ((c.tc : Thread Cert.KernelIdeal.nD Cert.KernelIdeal.τ).loc Cert.KernelIdeal.main_v259)) = Pipeline.afterTail₀ Cert.KernelIdeal.cfgs (Cert.KernelIdeal.Hand.dats (F := Ideal) m) 0 (Cert.KernelIdeal.Hand.V0 m) [Cert.KernelIdeal.Gen.hostOps1] c Cert.KernelIdeal.main_v259
    ∧ (Pipeline.afterTail₀ Cert.ReferenceIdeal.cfgs (Cert.ReferenceIdeal.Hand.dats (F := Ideal) m') 0 (Cert.ReferenceIdeal.Hand.V0 m') [Cert.ReferenceIdeal.Gen.hostOps1] c Cert.ReferenceIdeal.main_v199 : Buf (Elt Ideal) ((c.tc : Thread Cert.KernelIdeal.nD Cert.KernelIdeal.τ).loc Cert.KernelIdeal.main_v260)) = Pipeline.afterTail₀ Cert.KernelIdeal.cfgs (Cert.KernelIdeal.Hand.dats (F := Ideal) m) 0 (Cert.KernelIdeal.Hand.V0 m) [Cert.KernelIdeal.Gen.hostOps1] c Cert.KernelIdeal.main_v260 := by
  have hNK : Cert.KernelIdeal.cfg0.N = 64 := Cert.KernelIdeal.Gen.N_0
  have hNR : Cert.ReferenceIdeal.cfg0.N = 64 := Cert.ReferenceIdeal.Gen.N_0
  constructor
  · funext i
    obtain ⟨t, b, ch, y, x, rfl⟩ : ∃ (t : Fin 32) (b : Fin 8) (ch : Fin 64) (y x : Fin 24), i = ix5 t b ch y x :=
      ⟨i 0, i 1, i 2, i 3, i 4, eq_ix5 i⟩
    have hb := b.isLt; have ht := t.isLt; have hy := y.isLt; have hx := x.isLt
    refine (Cert.ReferenceIdeal.Hand.tail_v196_apply m' (Cert.ReferenceIdeal.Hand.dats (F := Ideal) m') c t b ch y x).trans ?_
    refine Eq.trans ?_ (Cert.KernelIdeal.Hand.tail_v259_apply m (Cert.KernelIdeal.Hand.dats (F := Ideal) m) c t b ch y x).symm
    have eR := Cert.ReferenceIdeal.Hand.arrAt4 m' c ⟨32 * (b.val / 4) + t.val, by omega⟩ ch ⟨576 * (b.val % 4) + 24 * y.val + x.val, by omega⟩
    have eK := Cert.KernelIdeal.Hand.arrAt5 m c ⟨32 * (b.val / 4) + t.val, by omega⟩ ⟨b.val % 4, by omega⟩ ch ⟨24 * y.val + x.val, by omega⟩
    rw [ix4_congr (a' := (⟨b.val / 4, by omega⟩ : Fin 2)) (b' := t) (c' := ch) (d' := (⟨576 * (b.val % 4) + 24 * y.val + x.val, by omega⟩ : Fin 2304))
      (by show (32 * (b.val / 4) + t.val) / 32 = b.val / 4; omega) (by show (32 * (b.val / 4) + t.val) % 32 = t.val; omega) rfl rfl] at eR
    rw [ix5_congr (a' := t) (b' := (⟨b.val / 4, by omega⟩ : Fin 2)) (c' := (⟨b.val % 4, by omega⟩ : Fin 4)) (d' := ch) (e' := (⟨24 * y.val + x.val, by omega⟩ : Fin 576))
      (by show (32 * (b.val / 4) + t.val) % 32 = t.val; omega) (by show (32 * (b.val / 4) + t.val) / 32 = b.val / 4; omega) rfl rfl rfl] at eK
    rw [eR, eK, Cert.ReferenceIdeal.Hand.outs_y, Cert.KernelIdeal.Hand.outs_y]
    refine ((H ⟨32 * (b.val / 4) + t.val, by omega⟩ ⟨32 * (b.val / 4) + t.val, by omega⟩ rfl 1 ch _).trans ?_).symm
    exact congrArg _ (ix3_congr rfl rfl (by show 576 * (b.val % 4) + (24 * y.val + x.val) = 576 * (b.val % 4) + 24 * y.val + x.val; omega))
  · funext i
    obtain ⟨b, l, ch, y, x, rfl⟩ : ∃ (b : Fin 8) (l : Fin 2) (ch : Fin 64) (y x : Fin 24), i = ix5 b l ch y x :=
      ⟨i 0, i 1, i 2, i 3, i 4, eq_ix5 i⟩
    have hb := b.isLt; have hy := y.isLt; have hx := x.isLt
    refine (Cert.ReferenceIdeal.Hand.tail_v199_apply m' (Cert.ReferenceIdeal.Hand.dats (F := Ideal) m') c b l ch y x).trans ?_
    refine Eq.trans ?_ (Cert.KernelIdeal.Hand.tail_v260_apply m (Cert.KernelIdeal.Hand.dats (F := Ideal) m) c b l ch y x).symm
    have hp : (32 * (b.val / 4) + 31) % 32 = 31 := by omega
    have eR := Cert.ReferenceIdeal.Hand.arrAt5 m' c ⟨32 * (b.val / 4) + 31, by omega⟩ hp l ch ⟨576 * (b.val % 4) + 24 * y.val + x.val, by omega⟩
    have eK := Cert.KernelIdeal.Hand.arrAt6 m c ⟨32 * (b.val / 4) + 31, by omega⟩ hp ⟨b.val % 4, by omega⟩ l ch ⟨24 * y.val + x.val, by omega⟩
    rw [ix4_congr (a' := (⟨b.val / 4, by omega⟩ : Fin 2)) (b' := l) (c' := ch) (d' := (⟨576 * (b.val % 4) + 24 * y.val + x.val, by omega⟩ : Fin 2304))
      (by show (32 * (b.val / 4) + 31) / 32 = b.val / 4; omega) rfl rfl rfl] at eR
    rw [ix5_congr (a' := (⟨b.val / 4, by omega⟩ : Fin 2)) (b' := (⟨b.val % 4, by omega⟩ : Fin 4)) (c' := l) (d' := ch) (e' := (⟨24 * y.val + x.val, by omega⟩ : Fin 576))
      (by show (32 * (b.val / 4) + 31) / 32 = b.val / 4; omega) rfl rfl rfl rfl] at eK
    rw [eR, eK, Cert.ReferenceIdeal.Hand.outs_last m' c _ hp, Cert.KernelIdeal.Hand.outs_last m c _ hp]
    refine ((H ⟨32 * (b.val / 4) + 31, by omega⟩ ⟨32 * (b.val / 4) + 31, by omega⟩ rfl l ch _).trans ?_).symm
    exact congrArg _ (ix3_congr rfl rfl (by show 576 * (b.val % 4) + (24 * y.val + x.val) = 576 * (b.val % 4) + 24 * y.val + x.val; omega))

end Cert.Proof

end
-- ==== Proof.GruSpec.lean ====
/-
  The recurrence both programs compute, written once over plain index types and the extended reals.

  One GRU layer on a tile of 2304 lanes (four 24 x 24 images side by side): the nine taps of the 3 x 3 convolution
  are lane rotations of the layer's input and of its hidden state, each multiplied by a boundary mask; the two gates
  and the candidate's input part are ONE matrix product of the weights with the matrix of all shifted copies and a row
  of ones for the biases (the "patch matrix"), the candidate's recurrent part a second product with the shifted copies
  of (hidden state x reset gate).  The two programs lay the patch matrix out differently: the reference gives every
  tap 64 + 64 rows (input channels padded to 64) and puts the bias row and seven zero rows LAST (1160 rows); the
  kernel packs every tap tightly (32 + 64 rows in the first layer, 64 + 64 in the second) after the bias row and
  fifteen zero rows FIRST (880 and 1168 rows), with the weights' columns permuted to match.  They also write the
  state update differently: h + u (o - h) against h (1 - u) + o u.
-/
import Idealize.ShloMosaic.PureOps.Ideal

noncomputable section

namespace Cert.GruSpec

open Idealize.ShloMosaic

/-- A lane of the tile: 576 * (image in the tile) + pixel. -/
abbrev Lane := Fin 2304

/-- The rotation amount of each tap (dy, dx), dy outermost: minus the tap's offset (dy - 1) * 24 + (dx - 1), modulo 2304. -/
def amt : Fin 9 → Nat := ![25, 24, 23, 1, 0, 2303, 2281, 2280, 2279]

/-- Rotating a row by `a` lanes puts at lane `n` what was at lane `n - a` (modulo 2304). -/
def rotBy (a : Nat) (n : Lane) : Lane := ⟨(n.val + 2304 - a % 2304) % 2304, Nat.mod_lt _ (by decide)⟩

/-- Tap `i`'s shifted and masked copy of a matrix of rows over the lanes. -/
def shift (mask : Fin 9 → Lane → EReal) {k : Nat} (v : Fin k → Lane → EReal) (i : Fin 9) (j : Fin k) (n : Lane) : EReal :=
  v j (rotBy (amt i) n) * mask i n

/-! ## The candidate's recurrent product (the same in both programs) -/

/-- Row 64 i + j of the recurrent patch matrix: tap i of row j. -/
def patchC (mask : Fin 9 → Lane → EReal) (hr : Fin 64 → Lane → EReal) (k : Fin 576) (n : Lane) : EReal :=
  shift mask hr ⟨k.val / 64, by omega⟩ ⟨k.val % 64, Nat.mod_lt _ (by decide)⟩ n

def candSum (mask : Fin 9 → Lane → EReal) (w2 : Fin 64 → Fin 576 → EReal) (hr : Fin 64 → Lane → EReal) (r : Fin 64) (n : Lane) : EReal :=
  ∑ k : Fin 576, w2 r k * patchC mask hr k n

/-- From the gates' and candidate's pre-activations `g` (192 rows: reset, update, candidate) to the new state, the
    update written `h + u (o - h)`. -/
def finishK (mask : Fin 9 → Lane → EReal) (w2 : Fin 64 → Fin 576 → EReal) (g : Fin 192 → Lane → EReal)
    (h : Fin 64 → Lane → EReal) (r : Fin 64) (n : Lane) : EReal :=
  h r n + Ideal.logistic (g ⟨64 + r.val, by omega⟩ n)
    * (Ideal.tanh (g ⟨128 + r.val, by omega⟩ n
        + candSum mask w2 (fun j n => h j n * Ideal.logistic (g ⟨j.val, by omega⟩ n)) r n) - h r n)

/-- The same with the update written `h (1 - u) + o u`. -/
def finishR (mask : Fin 9 → Lane → EReal) (w2 : Fin 64 → Fin 576 → EReal) (g : Fin 192 → Lane → EReal)
    (h : Fin 64 → Lane → EReal) (r : Fin 64) (n : Lane) : EReal :=
  h r n * (1 - Ideal.logistic (g ⟨64 + r.val, by omega⟩ n))
    + Ideal.tanh (g ⟨128 + r.val, by omega⟩ n
        + candSum mask w2 (fun j n => h j n * Ideal.logistic (g ⟨j.val, by omega⟩ n)) r n)
      * Ideal.logistic (g ⟨64 + r.val, by omega⟩ n)

/-! ## The reference's packing: per tap 64 input rows then 64 state rows; row 1152 ones, rows 1153-1159 zero -/

def patchR (mask : Fin 9 → Lane → EReal) (inp h : Fin 64 → Lane → EReal) (k : Fin 1160) (n : Lane) : EReal :=
  if h1 : k.val < 1152 then
    (if h2 : k.val % 128 < 64 then shift mask inp ⟨k.val / 128, by omega⟩ ⟨k.val % 128, h2⟩ n
     else shift mask h ⟨k.val / 128, by omega⟩ ⟨k.val % 128 - 64, by omega⟩ n)
  else if k.val = 1152 then 1 else 0

def gatesR (mask : Fin 9 → Lane → EReal) (w1 : Fin 192 → Fin 1160 → EReal) (inp h : Fin 64 → Lane → EReal)
    (r : Fin 192) (n : Lane) : EReal :=
  ∑ k : Fin 1160, w1 r k * patchR mask inp h k n

/-- One layer of the reference. -/
def stepR (mask : Fin 9 → Lane → EReal) (w1 : Fin 192 → Fin 1160 → EReal) (w2 : Fin 64 → Fin 576 → EReal)
    (inp h : Fin 64 → Lane → EReal) : Fin 64 → Lane → EReal :=
  finishR mask w2 (gatesR mask w1 inp h) h

/-- The reference's first layer reads the 32 input channels padded with 32 zero channels. -/
def pad64 (x : Fin 32 → Lane → EReal) : Fin 64 → Lane → EReal :=
  fun j n => if hj : j.val < 32 then x ⟨j.val, hj⟩ n else 0

/-! ## The kernel's packing: row 0 ones, rows 1-15 zero, then per tap the input rows and the 64 state rows -/

def patchK0 (mask : Fin 9 → Lane → EReal) (x : Fin 32 → Lane → EReal) (h : Fin 64 → Lane → EReal) (k : Fin 880) (n : Lane) : EReal :=
  if k.val = 0 then 1 else if h1 : k.val < 16 then 0 else
    (if h2 : (k.val - 16) % 96 < 32 then shift mask x ⟨(k.val - 16) / 96, by omega⟩ ⟨(k.val - 16) % 96, h2⟩ n
     else shift mask h ⟨(k.val - 16) / 96, by omega⟩ ⟨(k.val - 16) % 96 - 32, by omega⟩ n)

def gatesK0 (mask : Fin 9 → Lane → EReal) (wK : Fin 192 → Fin 880 → EReal) (x : Fin 32 → Lane → EReal) (h : Fin 64 → Lane → EReal)
    (r : Fin 192) (n : Lane) : EReal :=
  ∑ k : Fin 880, wK r k * patchK0 mask x h k n

def patchK1 (mask : Fin 9 → Lane → EReal) (inp h : Fin 64 → Lane → EReal) (k : Fin 1168) (n : Lane) : EReal :=
  if k.val = 0 then 1 else if h1 : k.val < 16 then 0 else
    (if h2 : (k.val - 16) % 128 < 64 then shift mask inp ⟨(k.val - 16) / 128, by omega⟩ ⟨(k.val - 16) % 128, h2⟩ n
     else shift mask h ⟨(k.val - 16) / 128, by omega⟩ ⟨(k.val - 16) % 128 - 64, by omega⟩ n)

def gatesK1 (mask : Fin 9 → Lane → EReal) (wK : Fin 192 → Fin 1168 → EReal) (inp h : Fin 64 → Lane → EReal)
    (r : Fin 192) (n : Lane) : EReal :=
  ∑ k : Fin 1168, wK r k * patchK1 mask inp h k n

/-- The kernel's first layer. -/
def stepK0 (mask : Fin 9 → Lane → EReal) (wK : Fin 192 → Fin 880 → EReal) (w2 : Fin 64 → Fin 576 → EReal)
    (x : Fin 32 → Lane → EReal) (h : Fin 64 → Lane → EReal) : Fin 64 → Lane → EReal :=
  finishK mask w2 (gatesK0 mask wK x h) h

/-- The kernel's second layer. -/
def stepK1 (mask : Fin 9 → Lane → EReal) (wK : Fin 192 → Fin 1168 → EReal) (w2 : Fin 64 → Fin 576 → EReal)
    (inp h : Fin 64 → Lane → EReal) : Fin 64 → Lane → EReal :=
  finishK mask w2 (gatesK1 mask wK inp h) h

/-! ## How the kernel's packed weights sit in the reference's -/

/-- The first layer's repacking: bias column first, fifteen zero columns, then per tap the 32 input columns and the 64
    state columns of the reference's tap. -/
def Repack0 (w1 : Fin 192 → Fin 1160 → EReal) (wK : Fin 192 → Fin 880 → EReal) : Prop :=
  ∀ r : Fin 192,
    (∀ (k : Fin 880) (k' : Fin 1160), k.val = 0 → k'.val = 1152 → wK r k = w1 r k')
    ∧ (∀ k : Fin 880, 1 ≤ k.val → k.val < 16 → wK r k = 0)
    ∧ (∀ (i j : Nat) (k : Fin 880) (k' : Fin 1160), i < 9 → j < 32 → k.val = 16 + 96 * i + j → k'.val = 128 * i + j → wK r k = w1 r k')
    ∧ (∀ (i j : Nat) (k : Fin 880) (k' : Fin 1160), i < 9 → j < 64 → k.val = 16 + 96 * i + 32 + j → k'.val = 128 * i + 64 + j → wK r k = w1 r k')

/-- The second layer's: bias column first, fifteen zero columns, then the reference's 1152 tap columns in order. -/
def Repack1 (w1 : Fin 192 → Fin 1160 → EReal) (wK : Fin 192 → Fin 1168 → EReal) : Prop :=
  ∀ r : Fin 192,
    (∀ (k : Fin 1168) (k' : Fin 1160), k.val = 0 → k'.val = 1152 → wK r k = w1 r k')
    ∧ (∀ k : Fin 1168, 1 ≤ k.val → k.val < 16 → wK r k = 0)
    ∧ (∀ (k : Fin 1168) (k' : Fin 1160), k'.val < 1152 → k.val = 16 + k'.val → wK r k = w1 r k')

end Cert.GruSpec

end
-- ==== Proof.SemDefs.lean ====
/-
  How the specification's inputs are read off the buffers of the two programs: a mask, weight or state matrix is a
  buffer read at explicit coordinates; the kernel's input block holds the four images of the tile as separate slabs
  (lane = 576 * image + pixel), the reference's holds them side by side on the lane axis; the bias rows of the two patch
  matrices (a row of ones and zero rows around it) are the part of the patch scratch that a time step does not rewrite.
-/
import proofs.«175272_g2000206920649175_pallasbulk_1279_5_alg».proof.Proof.GruSpec
import Idealize.ShloMosaic.Lib.ValueIdx

noncomputable section

namespace Cert.GruSpec

open Idealize.ShloMosaic Idealize.ShloMosaic.ValueIdx

/-- A matrix buffer as a function of its two coordinates. -/
def mat2 {A B : Nat} (x : (⟨2, ![A, B]⟩ : Shape).Idx → EReal) : Fin A → Fin B → EReal := fun r k => x (ix2 r k)

/-- Slab `l` of a rank-3 buffer as a matrix. -/
def slab3 {A B C : Nat} (x : (⟨3, ![A, B, C]⟩ : Shape).Idx → EReal) (l : Fin A) : Fin B → Fin C → EReal := fun r k => x (ix3 l r k)

/-- The nine mask rows of the kernel's 16-row mask block. -/
def maskK (x0 : (⟨2, ![16, 2304]⟩ : Shape).Idx → EReal) : Fin 9 → Lane → EReal := fun i n => x0 (ix2 ⟨i.val, by omega⟩ n)

/-- The kernel's input block [1, 1, 4, 32, 576] as 32 rows over the 2304 lanes of the tile. -/
def xK (x1 : (⟨5, ![1, 1, 4, 32, 576]⟩ : Shape).Idx → EReal) : Fin 32 → Lane → EReal :=
  fun j n => x1 (ix5 0 0 ⟨n.val / 576, by omega⟩ j ⟨n.val % 576, Nat.mod_lt _ (by decide)⟩)

/-- The reference's input block [1, 1, 64, 2304] as 64 rows over the lanes. -/
def xR (x1 : (⟨4, ![1, 1, 64, 2304]⟩ : Shape).Idx → EReal) : Fin 64 → Lane → EReal := fun j n => x1 (ix4 0 0 j n)

/-- The kernel's patch scratch keeps its bias rows: row 0 ones, rows 1 to 15 zero. -/
def BiasK (p : (⟨2, ![1168, 2304]⟩ : Shape).Idx → EReal) : Prop :=
  ∀ n : Lane, p (ix2 ⟨0, by decide⟩ n) = 1 ∧ ∀ k : Fin 1168, 1 ≤ k.val → k.val < 16 → p (ix2 k n) = 0

/-- The reference's patch scratch keeps its bias rows: row 1152 ones, rows 1153 to 1159 zero. -/
def BiasR (p : (⟨2, ![1160, 2304]⟩ : Shape).Idx → EReal) : Prop :=
  ∀ n : Lane, p (ix2 ⟨1152, by decide⟩ n) = 1 ∧ ∀ k : Fin 1160, 1153 ≤ k.val → p (ix2 k n) = 0

end Cert.GruSpec

end
-- ==== Proof.LibMatmulAt.lean ====
/-
  A matrix product with one contracted axis, read at an entry, on the extended reals: whatever record of dimension
  numbers describes "rows of the left factor against columns of the right one", the product into a zero accumulator
  (the form a kernel body has) and the host's product (the form a reference has) are both the plain sum over the
  contracted coordinate. The record enters only through four facts about where it sends an output index and a
  contraction index, which are decided per record.
-/
import Idealize.ShloMosaic.PureOps.Ideal.Laws
import Idealize.ShloMosaic.Lib.ValueIdx

noncomputable section

namespace Cert.Lib

open Idealize.ShloMosaic Idealize.ShloMosaic.ValueIdx
open scoped BigOperators

variable {a K b : Nat} (D : DotDims ⟨2, ![a, K]⟩ ⟨2, ![K, b]⟩ ⟨2, ![a, b]⟩)
  (hr : D.contr.rank = 1) (hs : D.contr.size ⟨0, by omega⟩ = K)
  (hl0 : ∀ i q, (D.lhsIdx i q 0).val = (i 0).val)
  (hl1 : ∀ i q, (D.lhsIdx i q 1).val = (q ⟨0, by omega⟩).val)
  (hr0 : ∀ i q, (D.rhsIdx i q 0).val = (q ⟨0, by omega⟩).val)
  (hr1 : ∀ i q, (D.rhsIdx i q 1).val = (i 1).val)
  {φ₁ φ₂ : FTy}

include hr hs hl0 hl1 hr0 hr1 in
/-- The contraction sum of a rows-by-columns product at `(p, q)` is the sum over `k` of `l (p, k) * r (k, q)`. -/
theorem contr_sum_apply (l : FVec Ideal ⟨2, ![a, K]⟩ φ₁) (r : FVec Ideal ⟨2, ![K, b]⟩ φ₂) (p : Fin a) (q : Fin b) :
    (∑ k : D.contr.Idx, l (D.lhsIdx (ix2 p q) k) * r (D.rhsIdx (ix2 p q) k)) = ∑ k : Fin K, l (ix2 p k) * r (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun x => Fin.ext (by
    match x with
    | ⟨0, _⟩ => exact hl0 _ _
    | ⟨1, _⟩ => exact (hl1 _ _).trans hk)
  have er : D.rhsIdx (ix2 p q) ((contrEquiv1 D K hr hs).symm k) = ix2 k q := funext fun x => Fin.ext (by
    match x with
    | ⟨0, _⟩ => exact (hr0 _ _).trans hk
    | ⟨1, _⟩ => exact hr1 _ _)
  rw [el, er]

include hr hs hl0 hl1 hr0 hr1 in
/-- A kernel body's product into the zero accumulator, at `(p, q)`. -/
theorem matmul_zero_apply (l : FVec Ideal ⟨2, ![a, K]⟩ φ₁) (r : FVec Ideal ⟨2, ![K, b]⟩ φ₂) (p : Fin a) (q : Fin b) :
    matmul D none l r (constant ⟨2, ![a, b]⟩ .f32 0x00000000#32) (ix2 p q) = ∑ k : Fin K, l (ix2 p k) * r (ix2 k q) := by
  refine (Ideal.matmul_constant_zero_apply D none l r (ix2 p q)).trans ?_
  exact contr_sum_apply D hr hs hl0 hl1 hr0 hr1 l r p q

include hr hs hl0 hl1 hr0 hr1 in
/-- The host's product, at `(p, q)`. -/
theorem dotGeneral_plain_apply (prec : Option ContractPrecision) (sched : HostSchedule)
    (l : FVec Ideal ⟨2, ![a, K]⟩ φ₁) (r : FVec Ideal ⟨2, ![K, b]⟩ φ₂) (p : Fin a) (q : Fin b) :
    FloatOps.dotGeneral D prec sched l r (ix2 p q) = ∑ k : Fin K, l (ix2 p k) * r (ix2 k q) := by
  refine (Ideal.dotGeneral_apply D prec sched l r (ix2 p q)).trans ?_
  exact contr_sum_apply D hr hs hl0 hl1 hr0 hr1 l r p q

end Cert.Lib

end
-- ==== Proof.KSemLib.lean ====
/-
  The step kernel's vector operations read at one index, on the extended reals.

  Every value the body computes is a function of an index; each lemma here reads one operation, or one short chain of
  them, at an index given by explicit coordinates: a lane rotation followed by the multiplication with a mask row (one
  tap of the 3 x 3 convolution), the stacking of the input rows over the state rows, a matrix of stored slabs read back
  row by row.  The lemmas are stated over variables for what the body loads, so that the three control cases of the
  kernel instantiate them.
-/
import proofs.«175272_g2000206920649175_pallasbulk_1279_5_alg».proof.Proof.Gen.KernelIdeal.Skeleton
import proofs.«175272_g2000206920649175_pallasbulk_1279_5_alg».proof.Proof.SemDefs
import proofs.«175272_g2000206920649175_pallasbulk_1279_5_alg».proof.Proof.LibMatmulAt
import Idealize.ShloMosaic.Lib.ValueIdx
import Idealize.ShloMosaic.Lib.Pipeline.Value

set_option maxRecDepth 16384

noncomputable section

namespace Cert.KernelIdeal.Sem

open Cert.KernelIdeal Cert.KernelIdeal.Gen Cert.GruSpec

open Idealize.ShloMosaic Idealize.ShloMosaic.ValueIdx
open scoped BigOperators

/-! ## Rotation, mask row, one tap -/

/-- No rotation. -/
theorem rotBy_zero (n : Lane) : rotBy 0 n = n :=
  Fin.ext (by show (n.val + 2304 - 0 % 2304) % 2304 = n.val; have := n.isLt; omega)

/-- A lane rotation of a matrix of rows over the 2304 lanes, read at (row, lane). -/
theorem rotate_apply {R : ℕ} {φ : FTy} (a : BitVec 32) (v : FVec Ideal ⟨2, ![R, 2304]⟩ φ)
    (hrot : (⟨2, ![R, 2304]⟩ : Shape).Rotates 1 none) (r : Fin R) (n : Lane) :
    dynamicRotate 1 a none v hrot (ix2 r n) = v (ix2 r (rotBy a.toNat n)) := by
  unfold dynamicRotate
  refine congrArg v (funext fun b => ?_)
  match b with
  | ⟨0, _⟩ => rfl
  | ⟨1, _⟩ => rfl

/-- A mask row broadcast down the rows, read at (row, lane). -/
theorem maskrow_apply {R : ℕ} {φ : FTy} (m : FVec Ideal S1x2304 φ) (sc : S1x2304.ShapeCasts S1x2304)
    (bc : S1x2304.Broadcasts ⟨2, ![R, 2304]⟩) (r : Fin R) (n : Lane) :
    broadcastTo ⟨2, ![R, 2304]⟩ (shapeCast S1x2304 m sc) bc (ix2 r n) = m (ix2 0 n) := by
  rw [shapeCast_self]
  exact broadcastTo_apply m bc (ix2 r n) (ix2 0 n) (fun a => match a with | ⟨0, _⟩ => rfl | ⟨1, _⟩ => rfl)

/-- One tap: the rotated rows times the mask row. -/
theorem tap_apply {R : ℕ} (a : BitVec 32) (v : FVec Ideal ⟨2, ![R, 2304]⟩ .bf16) (m : FVec Ideal S1x2304 .bf16)
    (hrot : (⟨2, ![R, 2304]⟩ : Shape).Rotates 1 none) (sc : S1x2304.ShapeCasts S1x2304)
    (bc : S1x2304.Broadcasts ⟨2, ![R, 2304]⟩) (r : Fin R) (n : Lane) :
    mulf (dynamicRotate 1 a none v hrot) (broadcastTo ⟨2, ![R, 2304]⟩ (shapeCast S1x2304 m sc) bc) (ix2 r n)
      = v (ix2 r (rotBy a.toNat n)) * m (ix2 0 n) := by
  rw [mulf_apply, rotate_apply, maskrow_apply]

/-- The middle tap has no rotation. -/
theorem tap0_apply {R : ℕ} (v : FVec Ideal ⟨2, ![R, 2304]⟩ .bf16) (m : FVec Ideal S1x2304 .bf16)
    (sc : S1x2304.ShapeCasts S1x2304) (bc : S1x2304.Broadcasts ⟨2, ![R, 2304]⟩) (r : Fin R) (n : Lane) :
    mulf v (broadcastTo ⟨2, ![R, 2304]⟩ (shapeCast S1x2304 m sc) bc) (ix2 r n) = v (ix2 r n) * m (ix2 0 n) := by
  rw [mulf_apply, maskrow_apply]

/-! ## Loads of whole buffers held at known contents -/

/-- The index a unit rectangle places a local index at: offsets plus local coordinates. -/
theorem unit_idx_eq {s : Shape} (off size : Fin s.rank → Nat) (inb : ∀ a, off a + size a ≤ s.size a)
    (x : (Rect.unit off size inb).shape.Idx) (y : s.Idx) (h : ∀ a, (y a).val = off a + (x a).val) :
    (Rect.unit off size inb).toLoadRect.idx x = y :=
  funext fun a => Fin.ext (by
    show ((Rect.unit off size inb).emb x a : ℕ) = _
    rw [Rect.emb_apply, Rect.off_unit, Rect.stride_unit, Nat.one_mul]; exact (h a).symm)

/-- A load through a unit rectangle of a whole buffer held at contents `X` reads `X` at offsets plus local coordinates. -/
theorem load_apply {sig' : RefSig} {κ : Kind} {sp : Space} {s : Shape} {e : EltTy} {Val : EltTy → Type}
    {m : Memref sig' κ sp s e} (hm : m.IsWhole) (X : s.Idx → Val e)
    (off size : Fin s.rank → Nat) (inb : ∀ a, off a + size a ≤ s.size a)
    (x : (Rect.unit off size inb).shape.Idx) (y : s.Idx) (h : ∀ a, (y a).val = off a + (x a).val) :
    View.readAt Val m.view (Rect.unit off size inb).toLoadRect (hm.unread X) x = X y := by
  rw [View.readAt_apply, unit_idx_eq off size inb x y h]
  exact congrFun (hm.read_unread X) y

/-! ## The stacked rows: the 32 input rows over the 64 state rows -/

/-- 32 rows over 64 rows. -/
def stack32 (x : Fin 32 → Lane → EReal) (h : Fin 64 → Lane → EReal) : Fin 96 → Lane → EReal :=
  fun r n => if hr : r.val < 32 then x ⟨r.val, hr⟩ n else h ⟨r.val - 32, by have := r.isLt; omega⟩ n

/-- 64 rows over 64 rows. -/
def stack64 (a h : Fin 64 → Lane → EReal) : Fin 128 → Lane → EReal :=
  fun r n => if hr : r.val < 64 then a ⟨r.val, hr⟩ n else h ⟨r.val - 64, by have := r.isLt; omega⟩ n

/-- A state slab loaded as [1, 64, 2304] and viewed [64, 2304]. -/
theorem pay11_apply (v15 : Vec Ideal S1x64x2304 .f32) (ch : Fin 64) (n : Lane) :
    k0_pay11 v15 (ix2 ch n) = v15 (ix3 0 ch n) := by
  unfold k0_pay11
  refine shapeCast_apply _ _ (ix2 ch n) (ix3 0 ch n) ?_
  rw [Shape.rowMajor_val_two, Shape.rowMajor_val_three]
  exact (by omega : (0 * 64 + ch.val) * 2304 + n.val = ch.val * 2304 + n.val)

theorem pay41_apply (v185 : Vec Ideal S1x64x2304 .f32) (ch : Fin 64) (n : Lane) :
    k0_pay41 v185 (ix2 ch n) = v185 (ix3 0 ch n) := by
  unfold k0_pay41
  refine shapeCast_apply _ _ (ix2 ch n) (ix3 0 ch n) ?_
  rw [Shape.rowMajor_val_two, Shape.rowMajor_val_three]
  exact (by omega : (0 * 64 + ch.val) * 2304 + n.val = ch.val * 2304 + n.val)

/-- A recurrent-weight slab loaded as [1, 64, 576] and viewed [64, 576]. -/
theorem pay13_apply (v19 : Vec Ideal S1x64x576 .bf16) (r : Fin 64) (k : Fin 576) :
    k0_pay13 v19 (ix2 r k) = v19 (ix3 0 r k) := by
  unfold k0_pay13
  refine shapeCast_apply _ _ (ix2 r k) (ix3 0 r k) ?_
  rw [Shape.rowMajor_val_two, Shape.rowMajor_val_three]
  exact (by omega : (0 * 64 + r.val) * 576 + k.val = r.val * 576 + k.val)

theorem pay43_apply (v190 : Vec Ideal S1x64x576 .bf16) (r : Fin 64) (k : Fin 576) :
    k0_pay43 v190 (ix2 r k) = v190 (ix3 0 r k) := by
  unfold k0_pay43
  refine shapeCast_apply _ _ (ix2 r k) (ix3 0 r k) ?_
  rw [Shape.rowMajor_val_two, Shape.rowMajor_val_three]
  exact (by omega : (0 * 64 + r.val) * 576 + k.val = r.val * 576 + k.val)

/-- The input rows of the stack: image `q` of the tile, pixel `p`. -/
theorem pay12_x (v3 : Vec Ideal S1x1x4x32x576 .f32) (v15 : Vec Ideal S1x64x2304 .f32) (j : Fin 32) (q : Fin 4) (p : Fin 576) :
    k0_pay12 v3 v15 (ix2 ⟨j.val, by have := j.isLt; omega⟩ ⟨576 * q.val + p.val, by have := q.isLt; have := p.isLt; omega⟩)
      = v3 (ix5 0 0 q j p) := by
  unfold k0_pay12
  refine Eq.trans (concatenate_pair_apply_left (t := S96x2304) (s₁ := S32x2304) (s₂ := S64x2304) (0 : Fin 2) _ _ _ _ rfl
    (ix2 j ⟨576 * q.val + p.val, by have := q.isLt; have := p.isLt; omega⟩)
    (fun b => match b with | ⟨0, _⟩ => rfl | ⟨1, _⟩ => rfl)) ?_
  have hel : ∀ (k : ℕ) (hk : k < 4) (sl : S4x32x576.Slices ![k, 0, 0] S1x32x576) (sc : S1x32x576.ShapeCasts S32x576)
      (sc' : S1x1x4x32x576.ShapeCasts S4x32x576) (hb : FTy.bf16.bits < FTy.f32.bits),
      shapeCast S32x576 (extractStridedSlice S1x32x576 ![k, 0, 0] (truncf (F := Ideal) .bf16 (shapeCast S4x32x576 v3 sc') hb) sl) sc (ix2 j p)
        = v3 (ix5 0 0 ⟨k, hk⟩ j p) := by
    intro k hk sl sc sc' hb
    refine (shapeCast_apply _ _ (ix2 j p) (ix3 0 j p) ?_).trans ?_
    · rw [Shape.rowMajor_val_two, Shape.rowMajor_val_three]
      exact (by omega : (0 * 32 + j.val) * 576 + p.val = j.val * 576 + p.val)
    refine (extractStridedSlice_apply _ _ _ (ix3 0 j p) (ix3 ⟨k, hk⟩ j p)
      (fun a => match a with | ⟨0, _⟩ => rfl | ⟨1, _⟩ => (Nat.zero_add _).symm | ⟨2, _⟩ => (Nat.zero_add _).symm)).trans ?_
    show shapeCast S4x32x576 v3 sc' (ix3 ⟨k, hk⟩ j p) = _
    refine shapeCast_apply _ _ (ix3 ⟨k, hk⟩ j p) (ix5 0 0 ⟨k, hk⟩ j p) ?_
    rw [Shape.rowMajor_val_three, Shape.rowMajor_val_five]
    exact (by omega : (((0 * 1 + 0) * 4 + k) * 32 + j.val) * 576 + p.val = (k * 32 + j.val) * 576 + p.val)
  match q with
  | ⟨0, hq⟩ =>
    refine Eq.trans (concatenate_apply_piece (t := S32x2304) (1 : Fin 2) _ _ _ 0 (by simp) S32x576 _ rfl rfl 0 rfl (ix2 j p)
      (fun b hb => match b with | ⟨0, _⟩ => rfl | ⟨1, _⟩ => absurd rfl hb) rfl) ?_
    exact hel 0 hq _ _ _ _
  | ⟨1, hq⟩ =>
    refine Eq.trans (concatenate_apply_piece (t := S32x2304) (1 : Fin 2) _ _ _ 1 (by simp) S32x576 _ rfl rfl 576 rfl (ix2 j p)
      (fun b hb => match b with | ⟨0, _⟩ => rfl | ⟨1, _⟩ => absurd rfl hb) rfl) ?_
    exact hel 1 hq _ _ _ _
  | ⟨2, hq⟩ =>
    refine Eq.trans (concatenate_apply_piece (t := S32x2304) (1 : Fin 2) _ _ _ 2 (by simp) S32x576 _ rfl rfl 1152 rfl (ix2 j p)
      (fun b hb => match b with | ⟨0, _⟩ => rfl | ⟨1, _⟩ => absurd rfl hb) rfl) ?_
    exact hel 2 hq _ _ _ _
  | ⟨3, hq⟩ =>
    refine Eq.trans (concatenate_apply_piece (t := S32x2304) (1 : Fin 2) _ _ _ 3 (by simp) S32x576 _ rfl rfl 1728 rfl (ix2 j p)
      (fun b hb => match b with | ⟨0, _⟩ => rfl | ⟨1, _⟩ => absurd rfl hb) rfl) ?_
    exact hel 3 hq _ _ _ _

/-- The state rows of the stack. -/
theorem pay12_h (v3 : Vec Ideal S1x1x4x32x576 .f32) (v15 : Vec Ideal S1x64x2304 .f32) (j : Fin 64) (n : Lane) :
    k0_pay12 v3 v15 (ix2 ⟨32 + j.val, by have := j.isLt; omega⟩ n) = v15 (ix3 0 j n) := by
  unfold k0_pay12
  refine Eq.trans (concatenate_pair_apply_right (t := S96x2304) (s₁ := S32x2304) (s₂ := S64x2304) (0 : Fin 2) _ _ _ _ rfl rfl
    (ix2 j n) (fun b hb => match b with | ⟨0, _⟩ => absurd rfl hb | ⟨1, _⟩ => rfl)
    (by show j.val + 32 = 32 + j.val; omega)) ?_
  exact pay11_apply v15 j n

/-- The stack as one function of (row, lane): the input block's rows (lane = 576 · image + pixel) over the state's. -/
theorem pay12_apply (v3 : Vec Ideal S1x1x4x32x576 .f32) (v15 : Vec Ideal S1x64x2304 .f32) (r : Fin 96) (n : Lane) :
    k0_pay12 v3 v15 (ix2 r n) = stack32 (xK v3) (fun j n => v15 (ix3 0 j n)) r n := by
  unfold stack32
  by_cases hr : r.val < 32
  · rw [dif_pos hr]
    have hn : n = ⟨576 * (n.val / 576) + n.val % 576, by have := n.isLt; omega⟩ := Fin.ext (show n.val = 576 * (n.val / 576) + n.val % 576 by omega)
    have := pay12_x v3 v15 ⟨r.val, hr⟩ ⟨n.val / 576, by have := n.isLt; omega⟩ ⟨n.val % 576, Nat.mod_lt _ (by decide)⟩
    rw [← hn] at this
    exact this
  · rw [dif_neg hr]
    have hr' : r = ⟨32 + (r.val - 32), by have := r.isLt; omega⟩ := Fin.ext (show r.val = 32 + (r.val - 32) by omega)
    have := pay12_h v3 v15 ⟨r.val - 32, by have := r.isLt; omega⟩ n
    rw [← hr'] at this
    exact this

/-! ## The stored tap payloads read at (row, lane) -/

theorem pay51_eq (m : Vec Ideal S1x2304 .bf16) : k0_pay51 m = m := by
  unfold k0_pay51
  exact shapeCast_self _ _

theorem pay14_apply (v3 : Vec Ideal S1x1x4x32x576 .f32) (v15 : Vec Ideal S1x64x2304 .f32) (m : Vec Ideal S1x2304 .bf16) (r : Fin 96) (n : Lane) :
    k0_pay14 v3 v15 m (ix2 r n) = (k0_pay12 v3 v15) (ix2 r (rotBy 25 n)) * m (ix2 0 n) := by
  unfold k0_pay14
  (try dsimp only)
  rw [shapeCast_self]
  exact tap_apply _ _ _ _ _ _ r n

theorem pay15_apply (v3 : Vec Ideal S1x1x4x32x576 .f32) (v15 : Vec Ideal S1x64x2304 .f32) (m : Vec Ideal S1x2304 .bf16) (r : Fin 96) (n : Lane) :
    k0_pay15 v3 v15 m (ix2 r n) = (k0_pay12 v3 v15) (ix2 r (rotBy 24 n)) * m (ix2 0 n) := by
  unfold k0_pay15
  exact tap_apply _ _ _ _ _ _ r n

theorem pay16_apply (v : FVec Ideal S96x2304 .bf16) (r : Fin 96) (n : Lane) :
    k0_pay16 v (ix2 r n) = v (ix2 r n) := by
  unfold k0_pay16
  rw [shapeCast_self]

theorem pay17_apply (v : FVec Ideal S96x2304 .bf16) (m : Vec Ideal S1x2304 .bf16) (r : Fin 96) (n : Lane) :
    k0_pay17 v m (ix2 r n) = v (ix2 r (rotBy 23 n)) * m (ix2 0 n) := by
  unfold k0_pay17
  (try dsimp only)
  rw [shapeCast_self]
  exact tap_apply _ _ _ _ _ _ r n

theorem pay18_apply (v : FVec Ideal S96x2304 .bf16) (m : Vec Ideal S1x2304 .bf16) (r : Fin 96) (n : Lane) :
    k0_pay18 v m (ix2 r n) = v (ix2 r (rotBy 1 n)) * m (ix2 0 n) := by
  unfold k0_pay18
  (try dsimp only)
  rw [shapeCast_self]
  exact tap_apply _ _ _ _ _ _ r n

theorem pay19_apply (v : FVec Ideal S96x2304 .bf16) (m : Vec Ideal S1x2304 .bf16) (r : Fin 96) (n : Lane) :
    k0_pay19 v m (ix2 r n) = v (ix2 r n) * m (ix2 0 n) := by
  unfold k0_pay19
  (try dsimp only)
  rw [shapeCast_self]
  exact tap0_apply _ _ _ _ r n

theorem pay20_apply (v : FVec Ideal S96x2304 .bf16) (m : Vec Ideal S1x2304 .bf16) (r : Fin 96) (n : Lane) :
    k0_pay20 v m (ix2 r n) = v (ix2 r (rotBy 2303 n)) * m (ix2 0 n) := by
  unfold k0_pay20
  (try dsimp only)
  rw [shapeCast_self]
  exact tap_apply _ _ _ _ _ _ r n

theorem pay21_apply (v : FVec Ideal S96x2304 .bf16) (m : Vec Ideal S1x2304 .bf16) (r : Fin 96) (n : Lane) :
    k0_pay21 v 2281#32 m (ix2 r n) = v (ix2 r (rotBy 2281 n)) * m (ix2 0 n) := by
  unfold k0_pay21
  (try dsimp only)
  rw [shapeCast_self]
  exact tap_apply _ _ _ _ _ _ r n

theorem pay22_apply (v : FVec Ideal S96x2304 .bf16) (m : Vec Ideal S1x2304 .bf16) (r : Fin 96) (n : Lane) :
    k0_pay22 v m (ix2 r n) = v (ix2 r (rotBy 2280 n)) * m (ix2 0 n) := by
  unfold k0_pay22
  (try dsimp only)
  rw [shapeCast_self]
  exact tap_apply _ _ _ _ _ _ r n

theorem pay23_apply (v : FVec Ideal S96x2304 .bf16) (m : Vec Ideal S1x2304 .bf16) (r : Fin 96) (n : Lane) :
    k0_pay23 v m (ix2 r n) = v (ix2 r (rotBy 2279 n)) * m (ix2 0 n) := by
  unfold k0_pay23
  (try dsimp only)
  rw [shapeCast_self]
  exact tap_apply _ _ _ _ _ _ r n

theorem pay28_apply (v18 : FVec Ideal S96x2304 .bf16) (v92 : Vec Ideal S192x880 .bf16) (v94 : Vec Ideal S880x2304 .bf16) (r : Fin 64) (n : Lane) :
    k0_pay28 v18 v92 v94 (ix2 r n) = (k0_pay27 v18 v92 v94) (ix2 r (rotBy 25 n)) := by
  unfold k0_pay28
  exact rotate_apply _ _ _ r n

theorem pay29_apply (v : FVec Ideal S64x2304 .bf16) (m : Vec Ideal S1x2304 .bf16) (r : Fin 64) (n : Lane) :
    k0_pay29 v m (ix2 r n) = v (ix2 r n) * m (ix2 0 n) := by
  unfold k0_pay29
  (try dsimp only)
  rw [shapeCast_self]
  exact tap0_apply _ _ _ _ r n

theorem pay30_apply (v : FVec Ideal S64x2304 .bf16) (m : Vec Ideal S1x2304 .bf16) (r : Fin 64) (n : Lane) :
    k0_pay30 v m (ix2 r n) = v (ix2 r (rotBy 24 n)) * m (ix2 0 n) := by
  unfold k0_pay30
  (try dsimp only)
  rw [shapeCast_self]
  exact tap_apply _ _ _ _ _ _ r n

theorem pay31_apply (v : FVec Ideal S64x2304 .bf16) (m : Vec Ideal S1x2304 .bf16) (r : Fin 64) (n : Lane) :
    k0_pay31 v m (ix2 r n) = v (ix2 r (rotBy 23 n)) * m (ix2 0 n) := by
  unfold k0_pay31
  (try dsimp only)
  rw [shapeCast_self]
  exact tap_apply _ _ _ _ _ _ r n

theorem pay32_apply (v : FVec Ideal S64x2304 .bf16) (m : Vec Ideal S1x2304 .bf16) (r : Fin 64) (n : Lane) :
    k0_pay32 v m (ix2 r n) = v (ix2 r (rotBy 1 n)) * m (ix2 0 n) := by
  unfold k0_pay32
  (try dsimp only)
  rw [shapeCast_self]
  exact tap_apply _ _ _ _ _ _ r n

theorem pay33_apply (v : FVec Ideal S64x2304 .bf16) (m : Vec Ideal S1x2304 .bf16) (r : Fin 64) (n : Lane) :
    k0_pay33 v m (ix2 r n) = v (ix2 r n) * m (ix2 0 n) := by
  unfold k0_pay33
  exact tap0_apply _ _ _ _ r n

theorem pay34_apply (v : FVec Ideal S64x2304 .bf16) (r : Fin 64) (n : Lane) :
    k0_pay34 v (ix2 r n) = v (ix2 r n) := by
  unfold k0_pay34
  rw [shapeCast_self]

theorem pay35_apply (v : FVec Ideal S64x2304 .bf16) (m : Vec Ideal S1x2304 .bf16) (r : Fin 64) (n : Lane) :
    k0_pay35 v m (ix2 r n) = v (ix2 r (rotBy 2303 n)) * m (ix2 0 n) := by
  unfold k0_pay35
  (try dsimp only)
  rw [shapeCast_self]
  exact tap_apply _ _ _ _ _ _ r n

theorem pay36_apply (v : FVec Ideal S64x2304 .bf16) (m : Vec Ideal S1x2304 .bf16) (r : Fin 64) (n : Lane) :
    k0_pay36 v m (ix2 r n) = v (ix2 r (rotBy 2281 n)) * m (ix2 0 n) := by
  unfold k0_pay36
  (try dsimp only)
  rw [shapeCast_self]
  exact tap_apply _ _ _ _ _ _ r n

theorem pay37_apply (v : FVec Ideal S64x2304 .bf16) (m : Vec Ideal S1x2304 .bf16) (r : Fin 64) (n : Lane) :
    k0_pay37 v m (ix2 r n) = v (ix2 r (rotBy 2280 n)) * m (ix2 0 n) := by
  unfold k0_pay37
  (try dsimp only)
  rw [shapeCast_self]
  exact tap_apply _ _ _ _ _ _ r n

theorem pay38_apply (v : FVec Ideal S64x2304 .bf16) (m : Vec Ideal S1x2304 .bf16) (r : Fin 64) (n : Lane) :
    k0_pay38 v m (ix2 r n) = v (ix2 r (rotBy 2279 n)) * m (ix2 0 n) := by
  unfold k0_pay38
  (try dsimp only)
  rw [shapeCast_self]
  exact tap_apply _ _ _ _ _ _ r n

theorem pay44_apply (v16 : FVec Ideal S64x2304 .f32) (v20 : FVec Ideal S64x576 .bf16) (v95 : FVec Ideal S192x2304 .f32) (v99 : FVec Ideal S64x2304 .f32) (v175 : Vec Ideal S576x2304 .bf16) (v185 : Vec Ideal S1x64x2304 .f32) (m : Vec Ideal S1x2304 .bf16) (r : Fin 128) (n : Lane) :
    k0_pay44 v16 v20 v95 v99 v175 v185 m (ix2 r n) = (k0_pay42 v16 v20 v95 v99 v175 v185) (ix2 r (rotBy 25 n)) * m (ix2 0 n) := by
  unfold k0_pay44
  (try dsimp only)
  rw [shapeCast_self]
  exact tap_apply _ _ _ _ _ _ r n

theorem pay45_apply (v16 : FVec Ideal S64x2304 .f32) (v20 : FVec Ideal S64x576 .bf16) (v95 : FVec Ideal S192x2304 .f32) (v99 : FVec Ideal S64x2304 .f32) (v175 : Vec Ideal S576x2304 .bf16) (v185 : Vec Ideal S1x64x2304 .f32) (m : Vec Ideal S1x2304 .bf16) (r : Fin 128) (n : Lane) :
    k0_pay45 v16 v20 v95 v99 v175 v185 m (ix2 r n) = (k0_pay42 v16 v20 v95 v99 v175 v185) (ix2 r (rotBy 24 n)) * m (ix2 0 n) := by
  unfold k0_pay45
  (try dsimp only)
  rw [shapeCast_self]
  exact tap_apply _ _ _ _ _ _ r n

theorem pay46_apply (v : FVec Ideal S128x2304 .bf16) (m : Vec Ideal S1x2304 .bf16) (r : Fin 128) (n : Lane) :
    k0_pay46 v m (ix2 r n) = v (ix2 r (rotBy 23 n)) * m (ix2 0 n) := by
  unfold k0_pay46
  (try dsimp only)
  rw [shapeCast_self]
  exact tap_apply _ _ _ _ _ _ r n

theorem pay47_apply (v : FVec Ideal S128x2304 .bf16) (m : Vec Ideal S1x2304 .bf16) (r : Fin 128) (n : Lane) :
    k0_pay47 v m (ix2 r n) = v (ix2 r (rotBy 1 n)) * m (ix2 0 n) := by
  unfold k0_pay47
  (try dsimp only)
  rw [shapeCast_self]
  exact tap_apply _ _ _ _ _ _ r n

theorem pay48_apply (v : FVec Ideal S128x2304 .bf16) (m : Vec Ideal S1x2304 .bf16) (r : Fin 128) (n : Lane) :
    k0_pay48 v m (ix2 r n) = v (ix2 r n) * m (ix2 0 n) := by
  unfold k0_pay48
  (try dsimp only)
  rw [shapeCast_self]
  exact tap0_apply _ _ _ _ r n

theorem pay49_apply (v : FVec Ideal S128x2304 .bf16) (m : Vec Ideal S1x2304 .bf16) (r : Fin 128) (n : Lane) :
    k0_pay49 v m (ix2 r n) = v (ix2 r (rotBy 2303 n)) * m (ix2 0 n) := by
  unfold k0_pay49
  (try dsimp only)
  rw [shapeCast_self]
  exact tap_apply _ _ _ _ _ _ r n

theorem pay50_apply (v : FVec Ideal S128x2304 .bf16) (r : Fin 128) (n : Lane) :
    k0_pay50 v (ix2 r n) = v (ix2 r (rotBy 2281 n)) := by
  unfold k0_pay50
  exact rotate_apply _ _ _ r n

theorem pay52_apply (v : FVec Ideal S128x2304 .bf16) (m : FVec Ideal S1x2304 .bf16) (r : Fin 128) (n : Lane) :
    k0_pay52 v m (ix2 r n) = v (ix2 r n) * m (ix2 0 n) := by
  unfold k0_pay52
  (try dsimp only)
  rw [shapeCast_self, mulf_apply]
  exact congrArg (v (ix2 r n) * ·) (broadcastTo_apply m _ (ix2 r n) (ix2 0 n) (fun a => match a with | ⟨0, _⟩ => rfl | ⟨1, _⟩ => rfl))

theorem pay53_apply (v : FVec Ideal S128x2304 .bf16) (m : Vec Ideal S1x2304 .bf16) (r : Fin 128) (n : Lane) :
    k0_pay53 v m (ix2 r n) = v (ix2 r (rotBy 2280 n)) * m (ix2 0 n) := by
  unfold k0_pay53
  (try dsimp only)
  rw [shapeCast_self]
  exact tap_apply _ _ _ _ _ _ r n

theorem pay54_apply (v : FVec Ideal S128x2304 .bf16) (m : Vec Ideal S1x2304 .bf16) (r : Fin 128) (n : Lane) :
    k0_pay54 v m (ix2 r n) = v (ix2 r (rotBy 2279 n)) * m (ix2 0 n) := by
  unfold k0_pay54
  (try dsimp only)
  rw [shapeCast_self]
  exact tap_apply _ _ _ _ _ _ r n

theorem pay59_apply (v189 : FVec Ideal S128x2304 .bf16) (v263 : Vec Ideal S192x1168 .bf16) (v265 : Vec Ideal S1168x2304 .bf16) (m : Vec Ideal S1x2304 .bf16) (r : Fin 64) (n : Lane) :
    k0_pay59 v189 v263 v265 m (ix2 r n) = (k0_pay58 v189 v263 v265) (ix2 r (rotBy 25 n)) * m (ix2 0 n) := by
  unfold k0_pay59
  exact tap_apply _ _ _ _ _ _ r n

theorem pay60_apply (v : FVec Ideal S64x2304 .bf16) (r : Fin 64) (n : Lane) :
    k0_pay60 v (ix2 r n) = v (ix2 r n) := by
  unfold k0_pay60
  rw [shapeCast_self]

theorem pay61_apply (v : FVec Ideal S64x2304 .bf16) (m : Vec Ideal S1x2304 .bf16) (r : Fin 64) (n : Lane) :
    k0_pay61 v m (ix2 r n) = v (ix2 r (rotBy 24 n)) * m (ix2 0 n) := by
  unfold k0_pay61
  (try dsimp only)
  rw [shapeCast_self]
  exact tap_apply _ _ _ _ _ _ r n

theorem pay62_apply (v : FVec Ideal S64x2304 .bf16) (m : Vec Ideal S1x2304 .bf16) (r : Fin 64) (n : Lane) :
    k0_pay62 v m (ix2 r n) = v (ix2 r (rotBy 23 n)) * m (ix2 0 n) := by
  unfold k0_pay62
  (try dsimp only)
  rw [shapeCast_self]
  exact tap_apply _ _ _ _ _ _ r n

theorem pay63_apply (v : FVec Ideal S64x2304 .bf16) (m : Vec Ideal S1x2304 .bf16) (r : Fin 64) (n : Lane) :
    k0_pay63 v m (ix2 r n) = v (ix2 r (rotBy 1 n)) * m (ix2 0 n) := by
  unfold k0_pay63
  (try dsimp only)
  rw [shapeCast_self]
  exact tap_apply _ _ _ _ _ _ r n

theorem pay64_apply (v : FVec Ideal S64x2304 .bf16) (m : Vec Ideal S1x2304 .bf16) (r : Fin 64) (n : Lane) :
    k0_pay64 v m (ix2 r n) = v (ix2 r n) * m (ix2 0 n) := by
  unfold k0_pay64
  (try dsimp only)
  rw [shapeCast_self]
  exact tap0_apply _ _ _ _ r n

theorem pay65_apply (v : FVec Ideal S64x2304 .bf16) (m : Vec Ideal S1x2304 .bf16) (r : Fin 64) (n : Lane) :
    k0_pay65 v m (ix2 r n) = v (ix2 r (rotBy 2303 n)) * m (ix2 0 n) := by
  unfold k0_pay65
  (try dsimp only)
  rw [shapeCast_self]
  exact tap_apply _ _ _ _ _ _ r n

theorem pay66_apply (v : FVec Ideal S64x2304 .bf16) (m : Vec Ideal S1x2304 .bf16) (r : Fin 64) (n : Lane) :
    k0_pay66 v m (ix2 r n) = v (ix2 r (rotBy 2281 n)) * m (ix2 0 n) := by
  unfold k0_pay66
  (try dsimp only)
  rw [shapeCast_self]
  exact tap_apply _ _ _ _ _ _ r n

theorem pay67_apply (v : FVec Ideal S64x2304 .bf16) (m : Vec Ideal S1x2304 .bf16) (r : Fin 64) (n : Lane) :
    k0_pay67 v m (ix2 r n) = v (ix2 r (rotBy 2280 n)) * m (ix2 0 n) := by
  unfold k0_pay67
  (try dsimp only)
  rw [shapeCast_self]
  exact tap_apply _ _ _ _ _ _ r n

theorem pay68_apply (v : FVec Ideal S64x2304 .bf16) (m : Vec Ideal S1x2304 .bf16) (r : Fin 64) (n : Lane) :
    k0_pay68 v m (ix2 r n) = v (ix2 r (rotBy 2279 n)) * m (ix2 0 n) := by
  unfold k0_pay68
  (try dsimp only)
  rw [shapeCast_self]
  exact tap_apply _ _ _ _ _ _ r n

/-- One of nine, by a tap's number. -/
def sel9 {α : Type} (w0 w1 w2 w3 w4 w5 w6 w7 w8 : α) : Fin 9 → α
  | ⟨0, _⟩ => w0 | ⟨1, _⟩ => w1 | ⟨2, _⟩ => w2 | ⟨3, _⟩ => w3 | ⟨4, _⟩ => w4 | ⟨5, _⟩ => w5 | ⟨6, _⟩ => w6 | ⟨7, _⟩ => w7 | ⟨8, _⟩ => w8

/-! ## Reading a list of stored slabs at one index -/

section Reads
variable {sig' : RefSig} {κ : Kind} {sp : Space} {s : Shape} {e : EltTy} {Val : EltTy → Type}

/-- Under the last-stored piece a buffer reads that piece's payload, whatever it held and whatever was stored before. -/
theorem read_head (v : View sig' κ sp s e) (f : v.ty.Contents Val) (off size : Fin s.rank → Nat)
    (inb : ∀ a, off a + size a ≤ s.size a) (w : (Rect.unit off size inb).shape.Idx → Val e) (L : List (View.Piece Val s e))
    (y : s.Idx) (x : (Rect.unit off size inb).shape.Idx) (h : ∀ a, (y a).val = off a + (x a).val) :
    v.read Val (v.writes Val f (⟨Rect.unit off size inb, w⟩ :: L)) y = w x := by
  have hy : (Rect.unit off size inb).emb x = y :=
    funext fun a => Fin.ext (by rw [Rect.emb_apply, Rect.off_unit, Rect.stride_unit, Nat.one_mul]; exact (h a).symm)
  rw [← hy]; exact View.read_writes_cons_emb v f _ w L x

/-- Off the last-stored piece on one axis, it reads what the earlier stores left. -/
theorem read_skip (v : View sig' κ sp s e) (f : v.ty.Contents Val) (off size : Fin s.rank → Nat)
    (inb : ∀ a, off a + size a ≤ s.size a) (w : (Rect.unit off size inb).shape.Idx → Val e) (L : List (View.Piece Val s e))
    (y : s.Idx) (a : Fin s.rank) (h : (y a).val < off a ∨ off a + size a ≤ (y a).val) :
    v.read Val (v.writes Val f (⟨Rect.unit off size inb, w⟩ :: L)) y = v.read Val (v.writes Val f L) y := by
  rw [View.writes_cons]
  refine View.read_slice_write_of_not_mem (v := v) _ _ _ _ ?_
  rw [Rect.map_emb_univ]
  intro (hm : y ∈ (Rect.unit off size inb).set)
  have := (Rect.mem_set_unit (off := off) (size := size) (inb := inb) (i := y)).mp hm a
  omega

variable [∀ e, Nonempty (Val e)]

theorem canon_head (off size : Fin s.rank → Nat) (inb : ∀ a, off a + size a ≤ s.size a)
    (w : (Rect.unit off size inb).shape.Idx → Val e) (L : List (View.Piece Val s e)) (y : s.Idx)
    (x : (Rect.unit off size inb).shape.Idx) (h : ∀ a, (y a).val = off a + (x a).val) :
    View.canon (⟨Rect.unit off size inb, w⟩ :: L) y = w x := by
  have hy : (Rect.unit off size inb).emb x = y :=
    funext fun a => Fin.ext (by rw [Rect.emb_apply, Rect.off_unit, Rect.stride_unit, Nat.one_mul]; exact (h a).symm)
  rw [← hy]; exact View.canon_cons_emb _ w L x

theorem canon_skip (off size : Fin s.rank → Nat) (inb : ∀ a, off a + size a ≤ s.size a)
    (w : (Rect.unit off size inb).shape.Idx → Val e) (L : List (View.Piece Val s e)) (y : s.Idx) (a : Fin s.rank)
    (h : (y a).val < off a ∨ off a + size a ≤ (y a).val) :
    View.canon (⟨Rect.unit off size inb, w⟩ :: L) y = View.canon L y :=
  View.canon_cons_of_not_mem _ L fun (hm : y ∈ (Rect.unit off size inb).set) => by
    have := (Rect.mem_set_unit (off := off) (size := size) (inb := inb) (i := y)).mp hm a
    omega

end Reads

/-- The first layer's patch matrix, loaded after its nine slab stores: row 16 + 96 t + j is row j of tap t's slab. -/
theorem patch0_rows {sig' : RefSig} {κ : Kind} {sp : Space} (v : View sig' κ sp S1168x2304 .bf16) (f : v.ty.Contents (Elt Ideal))
    (ib : ∀ a, (![0, 0] : Fin 2 → ℕ) a + S880x2304.size a ≤ S1168x2304.size a)
    (i8 : ∀ a, (![784, 0] : Fin 2 → ℕ) a + S96x2304.size a ≤ S1168x2304.size a)
    (i7 : ∀ a, (![688, 0] : Fin 2 → ℕ) a + S96x2304.size a ≤ S1168x2304.size a)
    (i6 : ∀ a, (![592, 0] : Fin 2 → ℕ) a + S96x2304.size a ≤ S1168x2304.size a)
    (i5 : ∀ a, (![496, 0] : Fin 2 → ℕ) a + S96x2304.size a ≤ S1168x2304.size a)
    (i4 : ∀ a, (![400, 0] : Fin 2 → ℕ) a + S96x2304.size a ≤ S1168x2304.size a)
    (i3 : ∀ a, (![304, 0] : Fin 2 → ℕ) a + S96x2304.size a ≤ S1168x2304.size a)
    (i2 : ∀ a, (![208, 0] : Fin 2 → ℕ) a + S96x2304.size a ≤ S1168x2304.size a)
    (i1 : ∀ a, (![112, 0] : Fin 2 → ℕ) a + S96x2304.size a ≤ S1168x2304.size a)
    (i0 : ∀ a, (![16, 0] : Fin 2 → ℕ) a + S96x2304.size a ≤ S1168x2304.size a)
    (w8 w7 w6 w5 w4 w3 w2 w1 w0 : FVec Ideal S96x2304 .bf16) (t : Fin 9) (j : Fin 96) (n : Lane) :
    v.readAt (Elt Ideal) (Rect.unit (s := S1168x2304) ![0, 0] S880x2304.size ib).toLoadRect (v.writes (Elt Ideal) f ([(⟨Rect.unit (s := S1168x2304) ![784, 0] S96x2304.size i8, w8⟩ : View.Piece (Elt Ideal) S1168x2304 .bf16),
        ⟨Rect.unit (s := S1168x2304) ![688, 0] S96x2304.size i7, w7⟩,
        ⟨Rect.unit (s := S1168x2304) ![592, 0] S96x2304.size i6, w6⟩,
        ⟨Rect.unit (s := S1168x2304) ![496, 0] S96x2304.size i5, w5⟩,
        ⟨Rect.unit (s := S1168x2304) ![400, 0] S96x2304.size i4, w4⟩,
        ⟨Rect.unit (s := S1168x2304) ![304, 0] S96x2304.size i3, w3⟩,
        ⟨Rect.unit (s := S1168x2304) ![208, 0] S96x2304.size i2, w2⟩,
        ⟨Rect.unit (s := S1168x2304) ![112, 0] S96x2304.size i1, w1⟩,
        ⟨Rect.unit (s := S1168x2304) ![16, 0] S96x2304.size i0, w0⟩])) (ix2 ⟨16 + 96 * t.val + j.val, by have := t.isLt; have := j.isLt; omega⟩ n)
      = sel9 w0 w1 w2 w3 w4 w5 w6 w7 w8 t (ix2 j n) := by
  rw [View.readAt_apply, unit_idx_eq (s := S1168x2304) ![0, 0] S880x2304.size ib (ix2 ⟨16 + 96 * t.val + j.val, by have := t.isLt; have := j.isLt; omega⟩ n) (ix2 ⟨16 + 96 * t.val + j.val, by have := t.isLt; have := j.isLt; omega⟩ n) (fun a => match a with | ⟨0, _⟩ => (Nat.zero_add _).symm | ⟨1, _⟩ => (Nat.zero_add _).symm)]
  match t with
  | ⟨0, ht⟩ =>
    have hx : ∀ a : Fin 2, (((ix2 ⟨16 + 96 * 0 + j.val, by have := j.isLt; omega⟩ n : S1168x2304.Idx)) a).val = (![16, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 0 + j.val, by have := j.isLt; omega⟩ n : S1168x2304.Idx) (0 : Fin 2) (Or.inl (show 16 + 96 * 0 + j.val < 784 from by have := j.isLt; omega))) ?_
    refine Eq.trans (read_skip (Val := Elt Ideal) (e := .bf16) v f ![688, 0] S96x2304.size i7 w7 _ (ix2 ⟨16 + 96 * 0 + j.val, by have := j.isLt; omega⟩ n : S1168x2304.Idx) (0 : Fin 2) (Or.inl (show 16 + 96 * 0 + j.val < 688 from by have := j.isLt; omega))) ?_
    refine Eq.trans (read_skip (Val := Elt Ideal) (e := .bf16) v f ![592, 0] S96x2304.size i6 w6 _ (ix2 ⟨16 + 96 * 0 + j.val, by have := j.isLt; omega⟩ n : S1168x2304.Idx) (0 : Fin 2) (Or.inl (show 16 + 96 * 0 + j.val < 592 from by have := j.isLt; omega))) ?_
    refine Eq.trans (read_skip (Val := Elt Ideal) (e := .bf16) v f ![496, 0] S96x2304.size i5 w5 _ (ix2 ⟨16 + 96 * 0 + j.val, by have := j.isLt; omega⟩ n : S1168x2304.Idx) (0 : Fin 2) (Or.inl (show 16 + 96 * 0 + j.val < 496 from by have := j.isLt; omega))) ?_
    refine Eq.trans (read_skip (Val := Elt Ideal) (e := .bf16) v f ![400, 0] S96x2304.size i4 w4 _ (ix2 ⟨16 + 96 * 0 + j.val, by have := j.isLt; omega⟩ n : S1168x2304.Idx) (0 : Fin 2) (Or.inl (show 16 + 96 * 0 + j.val < 400 from by have := j.isLt; omega))) ?_
    refine Eq.trans (read_skip (Val := Elt Ideal) (e := .bf16) v f ![304, 0] S96x2304.size i3 w3 _ (ix2 ⟨16 + 96 * 0 + j.val, by have := j.isLt; omega⟩ n : S1168x2304.Idx) (0 : Fin 2) (Or.inl (show 16 + 96 * 0 + j.val < 304 from by have := j.isLt; omega))) ?_
    refine Eq.trans (read_skip (Val := Elt Ideal) (e := .bf16) v f ![208, 0] S96x2304.size i2 w2 _ (ix2 ⟨16 + 96 * 0 + j.val, by have := j.isLt; omega⟩ n : S1168x2304.Idx) (0 : Fin 2) (Or.inl (show 16 + 96 * 0 + j.val < 208 from by have := j.isLt; omega))) ?_
    refine Eq.trans (read_skip (Val := Elt Ideal) (e := .bf16) v f ![112, 0] S96x2304.size i1 w1 _ (ix2 ⟨16 + 96 * 0 + j.val, by have := j.isLt; omega⟩ n : S1168x2304.Idx) (0 : Fin 2) (Or.inl (show 16 + 96 * 0 + j.val < 112 from by have := j.isLt; omega))) ?_
    exact read_head (Val := Elt Ideal) (e := .bf16) v f ![16, 0] S96x2304.size i0 w0 _ (ix2 ⟨16 + 96 * 0 + j.val, by have := j.isLt; omega⟩ n : S1168x2304.Idx) (ix2 j n) hx
  | ⟨1, ht⟩ =>
    have hx : ∀ a : Fin 2, (((ix2 ⟨16 + 96 * 1 + j.val, by have := j.isLt; omega⟩ n : S1168x2304.Idx)) a).val = (![112, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 1 + j.val, by have := j.isLt; omega⟩ n : S1168x2304.Idx) (0 : Fin 2) (Or.inl (show 16 + 96 * 1 + j.val < 784 from by have := j.isLt; omega))) ?_
    refine Eq.trans (read_skip (Val := Elt Ideal) (e := .bf16) v f ![688, 0] S96x2304.size i7 w7 _ (ix2 ⟨16 + 96 * 1 + j.val, by have := j.isLt; omega⟩ n : S1168x2304.Idx) (0 : Fin 2) (Or.inl (show 16 + 96 * 1 + j.val < 688 from by have := j.isLt; omega))) ?_
    refine Eq.trans (read_skip (Val := Elt Ideal) (e := .bf16) v f ![592, 0] S96x2304.size i6 w6 _ (ix2 ⟨16 + 96 * 1 + j.val, by have := j.isLt; omega⟩ n : S1168x2304.Idx) (0 : Fin 2) (Or.inl (show 16 + 96 * 1 + j.val < 592 from by have := j.isLt; omega))) ?_
    refine Eq.trans (read_skip (Val := Elt Ideal) (e := .bf16) v f ![496, 0] S96x2304.size i5 w5 _ (ix2 ⟨16 + 96 * 1 + j.val, by have := j.isLt; omega⟩ n : S1168x2304.Idx) (0 : Fin 2) (Or.inl (show 16 + 96 * 1 + j.val < 496 from by have := j.isLt; omega))) ?_
    refine Eq.trans (read_skip (Val := Elt Ideal) (e := .bf16) v f ![400, 0] S96x2304.size i4 w4 _ (ix2 ⟨16 + 96 * 1 + j.val, by have := j.isLt; omega⟩ n : S1168x2304.Idx) (0 : Fin 2) (Or.inl (show 16 + 96 * 1 + j.val < 400 from by have := j.isLt; omega))) ?_
    refine Eq.trans (read_skip (Val := Elt Ideal) (e := .bf16) v f ![304, 0] S96x2304.size i3 w3 _ (ix2 ⟨16 + 96 * 1 + j.val, by have := j.isLt; omega⟩ n : S1168x2304.Idx) (0 : Fin 2) (Or.inl (show 16 + 96 * 1 + j.val < 304 from by have := j.isLt; omega))) ?_
    refine Eq.trans (read_skip (Val := Elt Ideal) (e := .bf16) v f ![208, 0] S96x2304.size i2 w2 _ (ix2 ⟨16 + 96 * 1 + j.val, by have := j.isLt; omega⟩ n : S1168x2304.Idx) (0 : Fin 2) (Or.inl (show 16 + 96 * 1 + j.val < 208 from by have := j.isLt; omega))) ?_
    exact read_head (Val := Elt Ideal) (e := .bf16) v f ![112, 0] S96x2304.size i1 w1 _ (ix2 ⟨16 + 96 * 1 + j.val, by have := j.isLt; omega⟩ n : S1168x2304.Idx) (ix2 j n) hx
  | ⟨2, ht⟩ =>
    have hx : ∀ a : Fin 2, (((ix2 ⟨16 + 96 * 2 + j.val, by have := j.isLt; omega⟩ n : S1168x2304.Idx)) a).val = (![208, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 2 + j.val, by have := j.isLt; omega⟩ n : S1168x2304.Idx) (0 : Fin 2) (Or.inl (show 16 + 96 * 2 + j.val < 784 from by have := j.isLt; omega))) ?_
    refine Eq.trans (read_skip (Val := Elt Ideal) (e := .bf16) v f ![688, 0] S96x2304.size i7 w7 _ (ix2 ⟨16 + 96 * 2 + j.val, by have := j.isLt; omega⟩ n : S1168x2304.Idx) (0 : Fin 2) (Or.inl (show 16 + 96 * 2 + j.val < 688 from by have := j.isLt; omega))) ?_
    refine Eq.trans (read_skip (Val := Elt Ideal) (e := .bf16) v f ![592, 0] S96x2304.size i6 w6 _ (ix2 ⟨16 + 96 * 2 + j.val, by have := j.isLt; omega⟩ n : S1168x2304.Idx) (0 : Fin 2) (Or.inl (show 16 + 96 * 2 + j.val < 592 from by have := j.isLt; omega))) ?_
    refine Eq.trans (read_skip (Val := Elt Ideal) (e := .bf16) v f ![496, 0] S96x2304.size i5 w5 _ (ix2 ⟨16 + 96 * 2 + j.val, by have := j.isLt; omega⟩ n : S1168x2304.Idx) (0 : Fin 2) (Or.inl (show 16 + 96 * 2 + j.val < 496 from by have := j.isLt; omega))) ?_
    refine Eq.trans (read_skip (Val := Elt Ideal) (e := .bf16) v f ![400, 0] S96x2304.size i4 w4 _ (ix2 ⟨16 + 96 * 2 + j.val, by have := j.isLt; omega⟩ n : S1168x2304.Idx) (0 : Fin 2) (Or.inl (show 16 + 96 * 2 + j.val < 400 from by have := j.isLt; omega))) ?_
    refine Eq.trans (read_skip (Val := Elt Ideal) (e := .bf16) v f ![304, 0] S96x2304.size i3 w3 _ (ix2 ⟨16 + 96 * 2 + j.val, by have := j.isLt; omega⟩ n : S1168x2304.Idx) (0 : Fin 2) (Or.inl (show 16 + 96 * 2 + j.val < 304 from by have := j.isLt; omega))) ?_
    exact read_head (Val := Elt Ideal) (e := .bf16) v f ![208, 0] S96x2304.size i2 w2 _ (ix2 ⟨16 + 96 * 2 + j.val, by have := j.isLt; omega⟩ n : S1168x2304.Idx) (ix2 j n) hx
  | ⟨3, ht⟩ =>
    have hx : ∀ a : Fin 2, (((ix2 ⟨16 + 96 * 3 + j.val, by have := j.isLt; omega⟩ n : S1168x2304.Idx)) a).val = (![304, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 3 + j.val, by have := j.isLt; omega⟩ n : S1168x2304.Idx) (0 : Fin 2) (Or.inl (show 16 + 96 * 3 + j.val < 784 from by have := j.isLt; omega))) ?_
    refine Eq.trans (read_skip (Val := Elt Ideal) (e := .bf16) v f ![688, 0] S96x2304.size i7 w7 _ (ix2 ⟨16 + 96 * 3 + j.val, by have := j.isLt; omega⟩ n : S1168x2304.Idx) (0 : Fin 2) (Or.inl (show 16 + 96 * 3 + j.val < 688 from by have := j.isLt; omega))) ?_
    refine Eq.trans (read_skip (Val := Elt Ideal) (e := .bf16) v f ![592, 0] S96x2304.size i6 w6 _ (ix2 ⟨16 + 96 * 3 + j.val, by have := j.isLt; omega⟩ n : S1168x2304.Idx) (0 : Fin 2) (Or.inl (show 16 + 96 * 3 + j.val < 592 from by have := j.isLt; omega))) ?_
    refine Eq.trans (read_skip (Val := Elt Ideal) (e := .bf16) v f ![496, 0] S96x2304.size i5 w5 _ (ix2 ⟨16 + 96 * 3 + j.val, by have := j.isLt; omega⟩ n : S1168x2304.Idx) (0 : Fin 2) (Or.inl (show 16 + 96 * 3 + j.val < 496 from by have := j.isLt; omega))) ?_
    refine Eq.trans (read_skip (Val := Elt Ideal) (e := .bf16) v f ![400, 0] S96x2304.size i4 w4 _ (ix2 ⟨16 + 96 * 3 + j.val, by have := j.isLt; omega⟩ n : S1168x2304.Idx) (0 : Fin 2) (Or.inl (show 16 + 96 * 3 + j.val < 400 from by have := j.isLt; omega))) ?_
    exact read_head (Val := Elt Ideal) (e := .bf16) v f ![304, 0] S96x2304.size i3 w3 _ (ix2 ⟨16 + 96 * 3 + j.val, by have := j.isLt; omega⟩ n : S1168x2304.Idx) (ix2 j n) hx
  | ⟨4, ht⟩ =>
    have hx : ∀ a : Fin 2, (((ix2 ⟨16 + 96 * 4 + j.val, by have := j.isLt; omega⟩ n : S1168x2304.Idx)) a).val = (![400, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 4 + j.val, by have := j.isLt; omega⟩ n : S1168x2304.Idx) (0 : Fin 2) (Or.inl (show 16 + 96 * 4 + j.val < 784 from by have := j.isLt; omega))) ?_
    refine Eq.trans (read_skip (Val := Elt Ideal) (e := .bf16) v f ![688, 0] S96x2304.size i7 w7 _ (ix2 ⟨16 + 96 * 4 + j.val, by have := j.isLt; omega⟩ n : S1168x2304.Idx) (0 : Fin 2) (Or.inl (show 16 + 96 * 4 + j.val < 688 from by have := j.isLt; omega))) ?_
    refine Eq.trans (read_skip (Val := Elt Ideal) (e := .bf16) v f ![592, 0] S96x2304.size i6 w6 _ (ix2 ⟨16 + 96 * 4 + j.val, by have := j.isLt; omega⟩ n : S1168x2304.Idx) (0 : Fin 2) (Or.inl (show 16 + 96 * 4 + j.val < 592 from by have := j.isLt; omega))) ?_
    refine Eq.trans (read_skip (Val := Elt Ideal) (e := .bf16) v f ![496, 0] S96x2304.size i5 w5 _ (ix2 ⟨16 + 96 * 4 + j.val, by have := j.isLt; omega⟩ n : S1168x2304.Idx) (0 : Fin 2) (Or.inl (show 16 + 96 * 4 + j.val < 496 from by have := j.isLt; omega))) ?_
    exact read_head (Val := Elt Ideal) (e := .bf16) v f ![400, 0] S96x2304.size i4 w4 _ (ix2 ⟨16 + 96 * 4 + j.val, by have := j.isLt; omega⟩ n : S1168x2304.Idx) (ix2 j n) hx
  | ⟨5, ht⟩ =>
    have hx : ∀ a : Fin 2, (((ix2 ⟨16 + 96 * 5 + j.val, by have := j.isLt; omega⟩ n : S1168x2304.Idx)) a).val = (![496, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 5 + j.val, by have := j.isLt; omega⟩ n : S1168x2304.Idx) (0 : Fin 2) (Or.inl (show 16 + 96 * 5 + j.val < 784 from by have := j.isLt; omega))) ?_
    refine Eq.trans (read_skip (Val := Elt Ideal) (e := .bf16) v f ![688, 0] S96x2304.size i7 w7 _ (ix2 ⟨16 + 96 * 5 + j.val, by have := j.isLt; omega⟩ n : S1168x2304.Idx) (0 : Fin 2) (Or.inl (show 16 + 96 * 5 + j.val < 688 from by have := j.isLt; omega))) ?_
    refine Eq.trans (read_skip (Val := Elt Ideal) (e := .bf16) v f ![592, 0] S96x2304.size i6 w6 _ (ix2 ⟨16 + 96 * 5 + j.val, by have := j.isLt; omega⟩ n : S1168x2304.Idx) (0 : Fin 2) (Or.inl (show 16 + 96 * 5 + j.val < 592 from by have := j.isLt; omega))) ?_
    exact read_head (Val := Elt Ideal) (e := .bf16) v f ![496, 0] S96x2304.size i5 w5 _ (ix2 ⟨16 + 96 * 5 + j.val, by have := j.isLt; omega⟩ n : S1168x2304.Idx) (ix2 j n) hx
  | ⟨6, ht⟩ =>
    have hx : ∀ a : Fin 2, (((ix2 ⟨16 + 96 * 6 + j.val, by have := j.isLt; omega⟩ n : S1168x2304.Idx)) a).val = (![592, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 6 + j.val, by have := j.isLt; omega⟩ n : S1168x2304.Idx) (0 : Fin 2) (Or.inl (show 16 + 96 * 6 + j.val < 784 from by have := j.isLt; omega))) ?_
    refine Eq.trans (read_skip (Val := Elt Ideal) (e := .bf16) v f ![688, 0] S96x2304.size i7 w7 _ (ix2 ⟨16 + 96 * 6 + j.val, by have := j.isLt; omega⟩ n : S1168x2304.Idx) (0 : Fin 2) (Or.inl (show 16 + 96 * 6 + j.val < 688 from by have := j.isLt; omega))) ?_
    exact read_head (Val := Elt Ideal) (e := .bf16) v f ![592, 0] S96x2304.size i6 w6 _ (ix2 ⟨16 + 96 * 6 + j.val, by have := j.isLt; omega⟩ n : S1168x2304.Idx) (ix2 j n) hx
  | ⟨7, ht⟩ =>
    have hx : ∀ a : Fin 2, (((ix2 ⟨16 + 96 * 7 + j.val, by have := j.isLt; omega⟩ n : S1168x2304.Idx)) a).val = (![688, 0] : Fin 2 → ℕ) a + ((ix2 j n : S96x2304.Idx) a).val := fun a =>
      match a with | ⟨0, _⟩ => rfl | ⟨1, _⟩ => (Nat.zero_add _).symm
    refine Eq.trans (read_skip (Val := Elt Ideal) (e := .bf16) v f ![784, 0] S96x2304.size i8 w8 _ (ix2 ⟨16 + 96 * 7 + j.val, by have := j.isLt; omega⟩ n : S1168x2304.Idx) (0 : Fin 2) (Or.inl (show 16 + 96 * 7 + j.val < 784 from by have := j.isLt; omega))) ?_
    exact read_head (Val := Elt Ideal) (e := .bf16) v f ![688, 0] S96x2304.size i7 w7 _ (ix2 ⟨16 + 96 * 7 + j.val, by have := j.isLt; omega⟩ n : S1168x2304.Idx) (ix2 j n) hx
  | ⟨8, ht⟩ =>
    have hx : ∀ a : Fin 2, (((ix2 ⟨16 + 96 * 8 + j.val, by have := j.isLt; omega⟩ n : S1168x2304.Idx)) a).val = (![784, 0] : Fin 2 → ℕ) a + ((ix2 j n : S96x2304.Idx) a).val := fun a =>
      match a with | ⟨0, _⟩ => rfl | ⟨1, _⟩ => (Nat.zero_add _).symm
    exact read_head (Val := Elt Ideal) (e := .bf16) v f ![784, 0] S96x2304.size i8 w8 _ (ix2 ⟨16 + 96 * 8 + j.val, by have := j.isLt; omega⟩ n : S1168x2304.Idx) (ix2 j n) hx

/-- The second layer's patch matrix, loaded after its nine slab stores (over whatever was stored before): row 16 + 128 t + j is row j of tap t's slab. -/
theorem patch1_rows {sig' : RefSig} {κ : Kind} {sp : Space} (v : View sig' κ sp S1168x2304 .bf16) (f : v.ty.Contents (Elt Ideal))
    (ib : ∀ a, (![0, 0] : Fin 2 → ℕ) a + S1168x2304.size a ≤ S1168x2304.size a)
    (i8 : ∀ a, (![1040, 0] : Fin 2 → ℕ) a + S128x2304.size a ≤ S1168x2304.size a)
    (i7 : ∀ a, (![912, 0] : Fin 2 → ℕ) a + S128x2304.size a ≤ S1168x2304.size a)
    (i6 : ∀ a, (![784, 0] : Fin 2 → ℕ) a + S128x2304.size a ≤ S1168x2304.size a)
    (i5 : ∀ a, (![656, 0] : Fin 2 → ℕ) a + S128x2304.size a ≤ S1168x2304.size a)
    (i4 : ∀ a, (![528, 0] : Fin 2 → ℕ) a + S128x2304.size a ≤ S1168x2304.size a)
    (i3 : ∀ a, (![400, 0] : Fin 2 → ℕ) a + S128x2304.size a ≤ S1168x2304.size a)
    (i2 : ∀ a, (![272, 0] : Fin 2 → ℕ) a + S128x2304.size a ≤ S1168x2304.size a)
    (i1 : ∀ a, (![144, 0] : Fin 2 → ℕ) a + S128x2304.size a ≤ S1168x2304.size a)
    (i0 : ∀ a, (![16, 0] : Fin 2 → ℕ) a + S128x2304.size a ≤ S1168x2304.size a)
    (w8 w7 w6 w5 w4 w3 w2 w1 w0 : FVec Ideal S128x2304 .bf16) (L : List (View.Piece (Elt Ideal) S1168x2304 .bf16)) (t : Fin 9) (j : Fin 128) (n : Lane) :
    v.readAt (Elt Ideal) (Rect.unit (s := S1168x2304) ![0, 0] S1168x2304.size ib).toLoadRect (v.writes (Elt Ideal) f ((⟨Rect.unit (s := S1168x2304) ![1040, 0] S128x2304.size i8, w8⟩ : View.Piece (Elt Ideal) S1168x2304 .bf16) ::
        ⟨Rect.unit (s := S1168x2304) ![912, 0] S128x2304.size i7, w7⟩ ::
        ⟨Rect.unit (s := S1168x2304) ![784, 0] S128x2304.size i6, w6⟩ ::
        ⟨Rect.unit (s := S1168x2304) ![656, 0] S128x2304.size i5, w5⟩ ::
        ⟨Rect.unit (s := S1168x2304) ![528, 0] S128x2304.size i4, w4⟩ ::
        ⟨Rect.unit (s := S1168x2304) ![400, 0] S128x2304.size i3, w3⟩ ::
        ⟨Rect.unit (s := S1168x2304) ![272, 0] S128x2304.size i2, w2⟩ ::
        ⟨Rect.unit (s := S1168x2304) ![144, 0] S128x2304.size i1, w1⟩ ::
        ⟨Rect.unit (s := S1168x2304) ![16, 0] S128x2304.size i0, w0⟩ :: L)) (ix2 ⟨16 + 128 * t.val + j.val, by have := t.isLt; have := j.isLt; omega⟩ n)
      = sel9 w0 w1 w2 w3 w4 w5 w6 w7 w8 t (ix2 j n) := by
  rw [View.readAt_apply, unit_idx_eq (s := S1168x2304) ![0, 0] S1168x2304.size ib (ix2 ⟨16 + 128 * t.val + j.val, by have := t.isLt; have := j.isLt; omega⟩ n) (ix2 ⟨16 + 128 * t.val + j.val, by have := t.isLt; have := j.isLt; omega⟩ n) (fun a => match a with | ⟨0, _⟩ => (Nat.zero_add _).symm | ⟨1, _⟩ => (Nat.zero_add _).symm)]
  match t with
  | ⟨0, ht⟩ =>
    have hx : ∀ a : Fin 2, (((ix2 ⟨16 + 128 * 0 + j.val, by have := j.isLt; omega⟩ n : S1168x2304.Idx)) a).val = (![16, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 0 + j.val, by have := j.isLt; omega⟩ n : S1168x2304.Idx) (0 : Fin 2) (Or.inl (show 16 + 128 * 0 + j.val < 1040 from by have := j.isLt; omega))) ?_
    refine Eq.trans (read_skip (Val := Elt Ideal) (e := .bf16) v f ![912, 0] S128x2304.size i7 w7 _ (ix2 ⟨16 + 128 * 0 + j.val, by have := j.isLt; omega⟩ n : S1168x2304.Idx) (0 : Fin 2) (Or.inl (show 16 + 128 * 0 + j.val < 912 from by have := j.isLt; omega))) ?_
    refine Eq.trans (read_skip (Val := Elt Ideal) (e := .bf16) v f ![784, 0] S128x2304.size i6 w6 _ (ix2 ⟨16 + 128 * 0 + j.val, by have := j.isLt; omega⟩ n : S1168x2304.Idx) (0 : Fin 2) (Or.inl (show 16 + 128 * 0 + j.val < 784 from by have := j.isLt; omega))) ?_
    refine Eq.trans (read_skip (Val := Elt Ideal) (e := .bf16) v f ![656, 0] S128x2304.size i5 w5 _ (ix2 ⟨16 + 128 * 0 + j.val, by have := j.isLt; omega⟩ n : S1168x2304.Idx) (0 : Fin 2) (Or.inl (show 16 + 128 * 0 + j.val < 656 from by have := j.isLt; omega))) ?_
    refine Eq.trans (read_skip (Val := Elt Ideal) (e := .bf16) v f ![528, 0] S128x2304.size i4 w4 _ (ix2 ⟨16 + 128 * 0 + j.val, by have := j.isLt; omega⟩ n : S1168x2304.Idx) (0 : Fin 2) (Or.inl (show 16 + 128 * 0 + j.val < 528 from by have := j.isLt; omega))) ?_
    refine Eq.trans (read_skip (Val := Elt Ideal) (e := .bf16) v f ![400, 0] S128x2304.size i3 w3 _ (ix2 ⟨16 + 128 * 0 + j.val, by have := j.isLt; omega⟩ n : S1168x2304.Idx) (0 : Fin 2) (Or.inl (show 16 + 128 * 0 + j.val < 400 from by have := j.isLt; omega))) ?_
    refine Eq.trans (read_skip (Val := Elt Ideal) (e := .bf16) v f ![272, 0] S128x2304.size i2 w2 _ (ix2 ⟨16 + 128 * 0 + j.val, by have := j.isLt; omega⟩ n : S1168x2304.Idx) (0 : Fin 2) (Or.inl (show 16 + 128 * 0 + j.val < 272 from by have := j.isLt; omega))) ?_
    refine Eq.trans (read_skip (Val := Elt Ideal) (e := .bf16) v f ![144, 0] S128x2304.size i1 w1 _ (ix2 ⟨16 + 128 * 0 + j.val, by have := j.isLt; omega⟩ n : S1168x2304.Idx) (0 : Fin 2) (Or.inl (show 16 + 128 * 0 + j.val < 144 from by have := j.isLt; omega))) ?_
    exact read_head (Val := Elt Ideal) (e := .bf16) v f ![16, 0] S128x2304.size i0 w0 _ (ix2 ⟨16 + 128 * 0 + j.val, by have := j.isLt; omega⟩ n : S1168x2304.Idx) (ix2 j n) hx
  | ⟨1, ht⟩ =>
    have hx : ∀ a : Fin 2, (((ix2 ⟨16 + 128 * 1 + j.val, by have := j.isLt; omega⟩ n : S1168x2304.Idx)) a).val = (![144, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 1 + j.val, by have := j.isLt; omega⟩ n : S1168x2304.Idx) (0 : Fin 2) (Or.inl (show 16 + 128 * 1 + j.val < 1040 from by have := j.isLt; omega))) ?_
    refine Eq.trans (read_skip (Val := Elt Ideal) (e := .bf16) v f ![912, 0] S128x2304.size i7 w7 _ (ix2 ⟨16 + 128 * 1 + j.val, by have := j.isLt; omega⟩ n : S1168x2304.Idx) (0 : Fin 2) (Or.inl (show 16 + 128 * 1 + j.val < 912 from by have := j.isLt; omega))) ?_
    refine Eq.trans (read_skip (Val := Elt Ideal) (e := .bf16) v f ![784, 0] S128x2304.size i6 w6 _ (ix2 ⟨16 + 128 * 1 + j.val, by have := j.isLt; omega⟩ n : S1168x2304.Idx) (0 : Fin 2) (Or.inl (show 16 + 128 * 1 + j.val < 784 from by have := j.isLt; omega))) ?_
    refine Eq.trans (read_skip (Val := Elt Ideal) (e := .bf16) v f ![656, 0] S128x2304.size i5 w5 _ (ix2 ⟨16 + 128 * 1 + j.val, by have := j.isLt; omega⟩ n : S1168x2304.Idx) (0 : Fin 2) (Or.inl (show 16 + 128 * 1 + j.val < 656 from by have := j.isLt; omega))) ?_
    refine Eq.trans (read_skip (Val := Elt Ideal) (e := .bf16) v f ![528, 0] S128x2304.size i4 w4 _ (ix2 ⟨16 + 128 * 1 + j.val, by have := j.isLt; omega⟩ n : S1168x2304.Idx) (0 : Fin 2) (Or.inl (show 16 + 128 * 1 + j.val < 528 from by have := j.isLt; omega))) ?_
    refine Eq.trans (read_skip (Val := Elt Ideal) (e := .bf16) v f ![400, 0] S128x2304.size i3 w3 _ (ix2 ⟨16 + 128 * 1 + j.val, by have := j.isLt; omega⟩ n : S1168x2304.Idx) (0 : Fin 2) (Or.inl (show 16 + 128 * 1 + j.val < 400 from by have := j.isLt; omega))) ?_
    refine Eq.trans (read_skip (Val := Elt Ideal) (e := .bf16) v f ![272, 0] S128x2304.size i2 w2 _ (ix2 ⟨16 + 128 * 1 + j.val, by have := j.isLt; omega⟩ n : S1168x2304.Idx) (0 : Fin 2) (Or.inl (show 16 + 128 * 1 + j.val < 272 from by have := j.isLt; omega))) ?_
    exact read_head (Val := Elt Ideal) (e := .bf16) v f ![144, 0] S128x2304.size i1 w1 _ (ix2 ⟨16 + 128 * 1 + j.val, by have := j.isLt; omega⟩ n : S1168x2304.Idx) (ix2 j n) hx
  | ⟨2, ht⟩ =>
    have hx : ∀ a : Fin 2, (((ix2 ⟨16 + 128 * 2 + j.val, by have := j.isLt; omega⟩ n : S1168x2304.Idx)) a).val = (![272, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 2 + j.val, by have := j.isLt; omega⟩ n : S1168x2304.Idx) (0 : Fin 2) (Or.inl (show 16 + 128 * 2 + j.val < 1040 from by have := j.isLt; omega))) ?_
    refine Eq.trans (read_skip (Val := Elt Ideal) (e := .bf16) v f ![912, 0] S128x2304.size i7 w7 _ (ix2 ⟨16 + 128 * 2 + j.val, by have := j.isLt; omega⟩ n : S1168x2304.Idx) (0 : Fin 2) (Or.inl (show 16 + 128 * 2 + j.val < 912 from by have := j.isLt; omega))) ?_
    refine Eq.trans (read_skip (Val := Elt Ideal) (e := .bf16) v f ![784, 0] S128x2304.size i6 w6 _ (ix2 ⟨16 + 128 * 2 + j.val, by have := j.isLt; omega⟩ n : S1168x2304.Idx) (0 : Fin 2) (Or.inl (show 16 + 128 * 2 + j.val < 784 from by have := j.isLt; omega))) ?_
    refine Eq.trans (read_skip (Val := Elt Ideal) (e := .bf16) v f ![656, 0] S128x2304.size i5 w5 _ (ix2 ⟨16 + 128 * 2 + j.val, by have := j.isLt; omega⟩ n : S1168x2304.Idx) (0 : Fin 2) (Or.inl (show 16 + 128 * 2 + j.val < 656 from by have := j.isLt; omega))) ?_
    refine Eq.trans (read_skip (Val := Elt Ideal) (e := .bf16) v f ![528, 0] S128x2304.size i4 w4 _ (ix2 ⟨16 + 128 * 2 + j.val, by have := j.isLt; omega⟩ n : S1168x2304.Idx) (0 : Fin 2) (Or.inl (show 16 + 128 * 2 + j.val < 528 from by have := j.isLt; omega))) ?_
    refine Eq.trans (read_skip (Val := Elt Ideal) (e := .bf16) v f ![400, 0] S128x2304.size i3 w3 _ (ix2 ⟨16 + 128 * 2 + j.val, by have := j.isLt; omega⟩ n : S1168x2304.Idx) (0 : Fin 2) (Or.inl (show 16 + 128 * 2 + j.val < 400 from by have := j.isLt; omega))) ?_
    exact read_head (Val := Elt Ideal) (e := .bf16) v f ![272, 0] S128x2304.size i2 w2 _ (ix2 ⟨16 + 128 * 2 + j.val, by have := j.isLt; omega⟩ n : S1168x2304.Idx) (ix2 j n) hx
  | ⟨3, ht⟩ =>
    have hx : ∀ a : Fin 2, (((ix2 ⟨16 + 128 * 3 + j.val, by have := j.isLt; omega⟩ n : S1168x2304.Idx)) a).val = (![400, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 3 + j.val, by have := j.isLt; omega⟩ n : S1168x2304.Idx) (0 : Fin 2) (Or.inl (show 16 + 128 * 3 + j.val < 1040 from by have := j.isLt; omega))) ?_
    refine Eq.trans (read_skip (Val := Elt Ideal) (e := .bf16) v f ![912, 0] S128x2304.size i7 w7 _ (ix2 ⟨16 + 128 * 3 + j.val, by have := j.isLt; omega⟩ n : S1168x2304.Idx) (0 : Fin 2) (Or.inl (show 16 + 128 * 3 + j.val < 912 from by have := j.isLt; omega))) ?_
    refine Eq.trans (read_skip (Val := Elt Ideal) (e := .bf16) v f ![784, 0] S128x2304.size i6 w6 _ (ix2 ⟨16 + 128 * 3 + j.val, by have := j.isLt; omega⟩ n : S1168x2304.Idx) (0 : Fin 2) (Or.inl (show 16 + 128 * 3 + j.val < 784 from by have := j.isLt; omega))) ?_
    refine Eq.trans (read_skip (Val := Elt Ideal) (e := .bf16) v f ![656, 0] S128x2304.size i5 w5 _ (ix2 ⟨16 + 128 * 3 + j.val, by have := j.isLt; omega⟩ n : S1168x2304.Idx) (0 : Fin 2) (Or.inl (show 16 + 128 * 3 + j.val < 656 from by have := j.isLt; omega))) ?_
    refine Eq.trans (read_skip (Val := Elt Ideal) (e := .bf16) v f ![528, 0] S128x2304.size i4 w4 _ (ix2 ⟨16 + 128 * 3 + j.val, by have := j.isLt; omega⟩ n : S1168x2304.Idx) (0 : Fin 2) (Or.inl (show 16 + 128 * 3 + j.val < 528 from by have := j.isLt; omega))) ?_
    exact read_head (Val := Elt Ideal) (e := .bf16) v f ![400, 0] S128x2304.size i3 w3 _ (ix2 ⟨16 + 128 * 3 + j.val, by have := j.isLt; omega⟩ n : S1168x2304.Idx) (ix2 j n) hx
  | ⟨4, ht⟩ =>
    have hx : ∀ a : Fin 2, (((ix2 ⟨16 + 128 * 4 + j.val, by have := j.isLt; omega⟩ n : S1168x2304.Idx)) a).val = (![528, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 4 + j.val, by have := j.isLt; omega⟩ n : S1168x2304.Idx) (0 : Fin 2) (Or.inl (show 16 + 128 * 4 + j.val < 1040 from by have := j.isLt; omega))) ?_
    refine Eq.trans (read_skip (Val := Elt Ideal) (e := .bf16) v f ![912, 0] S128x2304.size i7 w7 _ (ix2 ⟨16 + 128 * 4 + j.val, by have := j.isLt; omega⟩ n : S1168x2304.Idx) (0 : Fin 2) (Or.inl (show 16 + 128 * 4 + j.val < 912 from by have := j.isLt; omega))) ?_
    refine Eq.trans (read_skip (Val := Elt Ideal) (e := .bf16) v f ![784, 0] S128x2304.size i6 w6 _ (ix2 ⟨16 + 128 * 4 + j.val, by have := j.isLt; omega⟩ n : S1168x2304.Idx) (0 : Fin 2) (Or.inl (show 16 + 128 * 4 + j.val < 784 from by have := j.isLt; omega))) ?_
    refine Eq.trans (read_skip (Val := Elt Ideal) (e := .bf16) v f ![656, 0] S128x2304.size i5 w5 _ (ix2 ⟨16 + 128 * 4 + j.val, by have := j.isLt; omega⟩ n : S1168x2304.Idx) (0 : Fin 2) (Or.inl (show 16 + 128 * 4 + j.val < 656 from by have := j.isLt; omega))) ?_
    exact read_head (Val := Elt Ideal) (e := .bf16) v f ![528, 0] S128x2304.size i4 w4 _ (ix2 ⟨16 + 128 * 4 + j.val, by have := j.isLt; omega⟩ n : S1168x2304.Idx) (ix2 j n) hx
  | ⟨5, ht⟩ =>
    have hx : ∀ a : Fin 2, (((ix2 ⟨16 + 128 * 5 + j.val, by have := j.isLt; omega⟩ n : S1168x2304.Idx)) a).val = (![656, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 5 + j.val, by have := j.isLt; omega⟩ n : S1168x2304.Idx) (0 : Fin 2) (Or.inl (show 16 + 128 * 5 + j.val < 1040 from by have := j.isLt; omega))) ?_
    refine Eq.trans (read_skip (Val := Elt Ideal) (e := .bf16) v f ![912, 0] S128x2304.size i7 w7 _ (ix2 ⟨16 + 128 * 5 + j.val, by have := j.isLt; omega⟩ n : S1168x2304.Idx) (0 : Fin 2) (Or.inl (show 16 + 128 * 5 + j.val < 912 from by have := j.isLt; omega))) ?_
    refine Eq.trans (read_skip (Val := Elt Ideal) (e := .bf16) v f ![784, 0] S128x2304.size i6 w6 _ (ix2 ⟨16 + 128 * 5 + j.val, by have := j.isLt; omega⟩ n : S1168x2304.Idx) (0 : Fin 2) (Or.inl (show 16 + 128 * 5 + j.val < 784 from by have := j.isLt; omega))) ?_
    exact read_head (Val := Elt Ideal) (e := .bf16) v f ![656, 0] S128x2304.size i5 w5 _ (ix2 ⟨16 + 128 * 5 + j.val, by have := j.isLt; omega⟩ n : S1168x2304.Idx) (ix2 j n) hx
  | ⟨6, ht⟩ =>
    have hx : ∀ a : Fin 2, (((ix2 ⟨16 + 128 * 6 + j.val, by have := j.isLt; omega⟩ n : S1168x2304.Idx)) a).val = (![784, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 6 + j.val, by have := j.isLt; omega⟩ n : S1168x2304.Idx) (0 : Fin 2) (Or.inl (show 16 + 128 * 6 + j.val < 1040 from by have := j.isLt; omega))) ?_
    refine Eq.trans (read_skip (Val := Elt Ideal) (e := .bf16) v f ![912, 0] S128x2304.size i7 w7 _ (ix2 ⟨16 + 128 * 6 + j.val, by have := j.isLt; omega⟩ n : S1168x2304.Idx) (0 : Fin 2) (Or.inl (show 16 + 128 * 6 + j.val < 912 from by have := j.isLt; omega))) ?_
    exact read_head (Val := Elt Ideal) (e := .bf16) v f ![784, 0] S128x2304.size i6 w6 _ (ix2 ⟨16 + 128 * 6 + j.val, by have := j.isLt; omega⟩ n : S1168x2304.Idx) (ix2 j n) hx
  | ⟨7, ht⟩ =>
    have hx : ∀ a : Fin 2, (((ix2 ⟨16 + 128 * 7 + j.val, by have := j.isLt; omega⟩ n : S1168x2304.Idx)) a).val = (![912, 0] : Fin 2 → ℕ) a + ((ix2 j n : S128x2304.Idx) a).val := fun a =>
      match a with | ⟨0, _⟩ => rfl | ⟨1, _⟩ => (Nat.zero_add _).symm
    refine Eq.trans (read_skip (Val := Elt Ideal) (e := .bf16) v f ![1040, 0] S128x2304.size i8 w8 _ (ix2 ⟨16 + 128 * 7 + j.val, by have := j.isLt; omega⟩ n : S1168x2304.Idx) (0 : Fin 2) (Or.inl (show 16 + 128 * 7 + j.val < 1040 from by have := j.isLt; omega))) ?_
    exact read_head (Val := Elt Ideal) (e := .bf16) v f ![912, 0] S128x2304.size i7 w7 _ (ix2 ⟨16 + 128 * 7 + j.val, by have := j.isLt; omega⟩ n : S1168x2304.Idx) (ix2 j n) hx
  | ⟨8, ht⟩ =>
    have hx : ∀ a : Fin 2, (((ix2 ⟨16 + 128 * 8 + j.val, by have := j.isLt; omega⟩ n : S1168x2304.Idx)) a).val = (![1040, 0] : Fin 2 → ℕ) a + ((ix2 j n : S128x2304.Idx) a).val := fun a =>
      match a with | ⟨0, _⟩ => rfl | ⟨1, _⟩ => (Nat.zero_add _).symm
    exact read_head (Val := Elt Ideal) (e := .bf16) v f ![1040, 0] S128x2304.size i8 w8 _ (ix2 ⟨16 + 128 * 8 + j.val, by have := j.isLt; omega⟩ n : S1168x2304.Idx) (ix2 j n) hx

/-- The recurrent patch matrix, loaded after its nine slab stores: row 64 t + j is row j of tap t's slab. -/
theorem patchC_rows {sig' : RefSig} {κ : Kind} {sp : Space} (v : View sig' κ sp S576x2304 .bf16)
    (ib : ∀ a, (![0, 0] : Fin 2 → ℕ) a + S576x2304.size a ≤ S576x2304.size a)
    (i8 : ∀ a, (![512, 0] : Fin 2 → ℕ) a + S64x2304.size a ≤ S576x2304.size a)
    (i7 : ∀ a, (![448, 0] : Fin 2 → ℕ) a + S64x2304.size a ≤ S576x2304.size a)
    (i6 : ∀ a, (![384, 0] : Fin 2 → ℕ) a + S64x2304.size a ≤ S576x2304.size a)
    (i5 : ∀ a, (![320, 0] : Fin 2 → ℕ) a + S64x2304.size a ≤ S576x2304.size a)
    (i4 : ∀ a, (![256, 0] : Fin 2 → ℕ) a + S64x2304.size a ≤ S576x2304.size a)
    (i3 : ∀ a, (![192, 0] : Fin 2 → ℕ) a + S64x2304.size a ≤ S576x2304.size a)
    (i2 : ∀ a, (![128, 0] : Fin 2 → ℕ) a + S64x2304.size a ≤ S576x2304.size a)
    (i1 : ∀ a, (![64, 0] : Fin 2 → ℕ) a + S64x2304.size a ≤ S576x2304.size a)
    (i0 : ∀ a, (![0, 0] : Fin 2 → ℕ) a + S64x2304.size a ≤ S576x2304.size a)
    (w8 w7 w6 w5 w4 w3 w2 w1 w0 : FVec Ideal S64x2304 .bf16) (L : List (View.Piece (Elt Ideal) S576x2304 .bf16)) (t : Fin 9) (j : Fin 64) (n : Lane) :
    v.readCov ((⟨Rect.unit (s := S576x2304) ![512, 0] S64x2304.size i8, w8⟩ : View.Piece (Elt Ideal) S576x2304 .bf16) ::
        ⟨Rect.unit (s := S576x2304) ![448, 0] S64x2304.size i7, w7⟩ ::
        ⟨Rect.unit (s := S576x2304) ![384, 0] S64x2304.size i6, w6⟩ ::
        ⟨Rect.unit (s := S576x2304) ![320, 0] S64x2304.size i5, w5⟩ ::
        ⟨Rect.unit (s := S576x2304) ![256, 0] S64x2304.size i4, w4⟩ ::
        ⟨Rect.unit (s := S576x2304) ![192, 0] S64x2304.size i3, w3⟩ ::
        ⟨Rect.unit (s := S576x2304) ![128, 0] S64x2304.size i2, w2⟩ ::
        ⟨Rect.unit (s := S576x2304) ![64, 0] S64x2304.size i1, w1⟩ ::
        ⟨Rect.unit (s := S576x2304) ![0, 0] S64x2304.size i0, w0⟩ :: L) (Rect.unit (s := S576x2304) ![0, 0] S576x2304.size ib).toLoadRect (ix2 ⟨0 + 64 * t.val + j.val, by have := t.isLt; have := j.isLt; omega⟩ n)
      = sel9 w0 w1 w2 w3 w4 w5 w6 w7 w8 t (ix2 j n) := by
  rw [View.readCov_eq_canon']
  show View.canon _ ((Rect.unit (s := S576x2304) ![0, 0] S576x2304.size ib).toLoadRect.idx (ix2 ⟨0 + 64 * t.val + j.val, by have := t.isLt; have := j.isLt; omega⟩ n)) = _
  rw [unit_idx_eq (s := S576x2304) ![0, 0] S576x2304.size ib (ix2 ⟨0 + 64 * t.val + j.val, by have := t.isLt; have := j.isLt; omega⟩ n) (ix2 ⟨0 + 64 * t.val + j.val, by have := t.isLt; have := j.isLt; omega⟩ n) (fun a => match a with | ⟨0, _⟩ => (Nat.zero_add _).symm | ⟨1, _⟩ => (Nat.zero_add _).symm)]
  match t with
  | ⟨0, ht⟩ =>
    have hx : ∀ a : Fin 2, (((ix2 ⟨0 + 64 * 0 + j.val, by have := j.isLt; omega⟩ n : S576x2304.Idx)) a).val = (![0, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 0 + j.val, by have := j.isLt; omega⟩ n : S576x2304.Idx) (0 : Fin 2) (Or.inl (show 0 + 64 * 0 + j.val < 512 from by have := j.isLt; omega))) ?_
    refine Eq.trans (canon_skip (Val := Elt Ideal) (e := .bf16) (s := S576x2304) ![448, 0] S64x2304.size i7 w7 _ (ix2 ⟨0 + 64 * 0 + j.val, by have := j.isLt; omega⟩ n : S576x2304.Idx) (0 : Fin 2) (Or.inl (show 0 + 64 * 0 + j.val < 448 from by have := j.isLt; omega))) ?_
    refine Eq.trans (canon_skip (Val := Elt Ideal) (e := .bf16) (s := S576x2304) ![384, 0] S64x2304.size i6 w6 _ (ix2 ⟨0 + 64 * 0 + j.val, by have := j.isLt; omega⟩ n : S576x2304.Idx) (0 : Fin 2) (Or.inl (show 0 + 64 * 0 + j.val < 384 from by have := j.isLt; omega))) ?_
    refine Eq.trans (canon_skip (Val := Elt Ideal) (e := .bf16) (s := S576x2304) ![320, 0] S64x2304.size i5 w5 _ (ix2 ⟨0 + 64 * 0 + j.val, by have := j.isLt; omega⟩ n : S576x2304.Idx) (0 : Fin 2) (Or.inl (show 0 + 64 * 0 + j.val < 320 from by have := j.isLt; omega))) ?_
    refine Eq.trans (canon_skip (Val := Elt Ideal) (e := .bf16) (s := S576x2304) ![256, 0] S64x2304.size i4 w4 _ (ix2 ⟨0 + 64 * 0 + j.val, by have := j.isLt; omega⟩ n : S576x2304.Idx) (0 : Fin 2) (Or.inl (show 0 + 64 * 0 + j.val < 256 from by have := j.isLt; omega))) ?_
    refine Eq.trans (canon_skip (Val := Elt Ideal) (e := .bf16) (s := S576x2304) ![192, 0] S64x2304.size i3 w3 _ (ix2 ⟨0 + 64 * 0 + j.val, by have := j.isLt; omega⟩ n : S576x2304.Idx) (0 : Fin 2) (Or.inl (show 0 + 64 * 0 + j.val < 192 from by have := j.isLt; omega))) ?_
    refine Eq.trans (canon_skip (Val := Elt Ideal) (e := .bf16) (s := S576x2304) ![128, 0] S64x2304.size i2 w2 _ (ix2 ⟨0 + 64 * 0 + j.val, by have := j.isLt; omega⟩ n : S576x2304.Idx) (0 : Fin 2) (Or.inl (show 0 + 64 * 0 + j.val < 128 from by have := j.isLt; omega))) ?_
    refine Eq.trans (canon_skip (Val := Elt Ideal) (e := .bf16) (s := S576x2304) ![64, 0] S64x2304.size i1 w1 _ (ix2 ⟨0 + 64 * 0 + j.val, by have := j.isLt; omega⟩ n : S576x2304.Idx) (0 : Fin 2) (Or.inl (show 0 + 64 * 0 + j.val < 64 from by have := j.isLt; omega))) ?_
    exact canon_head (Val := Elt Ideal) (e := .bf16) (s := S576x2304) ![0, 0] S64x2304.size i0 w0 _ (ix2 ⟨0 + 64 * 0 + j.val, by have := j.isLt; omega⟩ n : S576x2304.Idx) (ix2 j n) hx
  | ⟨1, ht⟩ =>
    have hx : ∀ a : Fin 2, (((ix2 ⟨0 + 64 * 1 + j.val, by have := j.isLt; omega⟩ n : S576x2304.Idx)) a).val = (![64, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 1 + j.val, by have := j.isLt; omega⟩ n : S576x2304.Idx) (0 : Fin 2) (Or.inl (show 0 + 64 * 1 + j.val < 512 from by have := j.isLt; omega))) ?_
    refine Eq.trans (canon_skip (Val := Elt Ideal) (e := .bf16) (s := S576x2304) ![448, 0] S64x2304.size i7 w7 _ (ix2 ⟨0 + 64 * 1 + j.val, by have := j.isLt; omega⟩ n : S576x2304.Idx) (0 : Fin 2) (Or.inl (show 0 + 64 * 1 + j.val < 448 from by have := j.isLt; omega))) ?_
    refine Eq.trans (canon_skip (Val := Elt Ideal) (e := .bf16) (s := S576x2304) ![384, 0] S64x2304.size i6 w6 _ (ix2 ⟨0 + 64 * 1 + j.val, by have := j.isLt; omega⟩ n : S576x2304.Idx) (0 : Fin 2) (Or.inl (show 0 + 64 * 1 + j.val < 384 from by have := j.isLt; omega))) ?_
    refine Eq.trans (canon_skip (Val := Elt Ideal) (e := .bf16) (s := S576x2304) ![320, 0] S64x2304.size i5 w5 _ (ix2 ⟨0 + 64 * 1 + j.val, by have := j.isLt; omega⟩ n : S576x2304.Idx) (0 : Fin 2) (Or.inl (show 0 + 64 * 1 + j.val < 320 from by have := j.isLt; omega))) ?_
    refine Eq.trans (canon_skip (Val := Elt Ideal) (e := .bf16) (s := S576x2304) ![256, 0] S64x2304.size i4 w4 _ (ix2 ⟨0 + 64 * 1 + j.val, by have := j.isLt; omega⟩ n : S576x2304.Idx) (0 : Fin 2) (Or.inl (show 0 + 64 * 1 + j.val < 256 from by have := j.isLt; omega))) ?_
    refine Eq.trans (canon_skip (Val := Elt Ideal) (e := .bf16) (s := S576x2304) ![192, 0] S64x2304.size i3 w3 _ (ix2 ⟨0 + 64 * 1 + j.val, by have := j.isLt; omega⟩ n : S576x2304.Idx) (0 : Fin 2) (Or.inl (show 0 + 64 * 1 + j.val < 192 from by have := j.isLt; omega))) ?_
    refine Eq.trans (canon_skip (Val := Elt Ideal) (e := .bf16) (s := S576x2304) ![128, 0] S64x2304.size i2 w2 _ (ix2 ⟨0 + 64 * 1 + j.val, by have := j.isLt; omega⟩ n : S576x2304.Idx) (0 : Fin 2) (Or.inl (show 0 + 64 * 1 + j.val < 128 from by have := j.isLt; omega))) ?_
    exact canon_head (Val := Elt Ideal) (e := .bf16) (s := S576x2304) ![64, 0] S64x2304.size i1 w1 _ (ix2 ⟨0 + 64 * 1 + j.val, by have := j.isLt; omega⟩ n : S576x2304.Idx) (ix2 j n) hx
  | ⟨2, ht⟩ =>
    have hx : ∀ a : Fin 2, (((ix2 ⟨0 + 64 * 2 + j.val, by have := j.isLt; omega⟩ n : S576x2304.Idx)) a).val = (![128, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 2 + j.val, by have := j.isLt; omega⟩ n : S576x2304.Idx) (0 : Fin 2) (Or.inl (show 0 + 64 * 2 + j.val < 512 from by have := j.isLt; omega))) ?_
    refine Eq.trans (canon_skip (Val := Elt Ideal) (e := .bf16) (s := S576x2304) ![448, 0] S64x2304.size i7 w7 _ (ix2 ⟨0 + 64 * 2 + j.val, by have := j.isLt; omega⟩ n : S576x2304.Idx) (0 : Fin 2) (Or.inl (show 0 + 64 * 2 + j.val < 448 from by have := j.isLt; omega))) ?_
    refine Eq.trans (canon_skip (Val := Elt Ideal) (e := .bf16) (s := S576x2304) ![384, 0] S64x2304.size i6 w6 _ (ix2 ⟨0 + 64 * 2 + j.val, by have := j.isLt; omega⟩ n : S576x2304.Idx) (0 : Fin 2) (Or.inl (show 0 + 64 * 2 + j.val < 384 from by have := j.isLt; omega))) ?_
    refine Eq.trans (canon_skip (Val := Elt Ideal) (e := .bf16) (s := S576x2304) ![320, 0] S64x2304.size i5 w5 _ (ix2 ⟨0 + 64 * 2 + j.val, by have := j.isLt; omega⟩ n : S576x2304.Idx) (0 : Fin 2) (Or.inl (show 0 + 64 * 2 + j.val < 320 from by have := j.isLt; omega))) ?_
    refine Eq.trans (canon_skip (Val := Elt Ideal) (e := .bf16) (s := S576x2304) ![256, 0] S64x2304.size i4 w4 _ (ix2 ⟨0 + 64 * 2 + j.val, by have := j.isLt; omega⟩ n : S576x2304.Idx) (0 : Fin 2) (Or.inl (show 0 + 64 * 2 + j.val < 256 from by have := j.isLt; omega))) ?_
    refine Eq.trans (canon_skip (Val := Elt Ideal) (e := .bf16) (s := S576x2304) ![192, 0] S64x2304.size i3 w3 _ (ix2 ⟨0 + 64 * 2 + j.val, by have := j.isLt; omega⟩ n : S576x2304.Idx) (0 : Fin 2) (Or.inl (show 0 + 64 * 2 + j.val < 192 from by have := j.isLt; omega))) ?_
    exact canon_head (Val := Elt Ideal) (e := .bf16) (s := S576x2304) ![128, 0] S64x2304.size i2 w2 _ (ix2 ⟨0 + 64 * 2 + j.val, by have := j.isLt; omega⟩ n : S576x2304.Idx) (ix2 j n) hx
  | ⟨3, ht⟩ =>
    have hx : ∀ a : Fin 2, (((ix2 ⟨0 + 64 * 3 + j.val, by have := j.isLt; omega⟩ n : S576x2304.Idx)) a).val = (![192, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 3 + j.val, by have := j.isLt; omega⟩ n : S576x2304.Idx) (0 : Fin 2) (Or.inl (show 0 + 64 * 3 + j.val < 512 from by have := j.isLt; omega))) ?_
    refine Eq.trans (canon_skip (Val := Elt Ideal) (e := .bf16) (s := S576x2304) ![448, 0] S64x2304.size i7 w7 _ (ix2 ⟨0 + 64 * 3 + j.val, by have := j.isLt; omega⟩ n : S576x2304.Idx) (0 : Fin 2) (Or.inl (show 0 + 64 * 3 + j.val < 448 from by have := j.isLt; omega))) ?_
    refine Eq.trans (canon_skip (Val := Elt Ideal) (e := .bf16) (s := S576x2304) ![384, 0] S64x2304.size i6 w6 _ (ix2 ⟨0 + 64 * 3 + j.val, by have := j.isLt; omega⟩ n : S576x2304.Idx) (0 : Fin 2) (Or.inl (show 0 + 64 * 3 + j.val < 384 from by have := j.isLt; omega))) ?_
    refine Eq.trans (canon_skip (Val := Elt Ideal) (e := .bf16) (s := S576x2304) ![320, 0] S64x2304.size i5 w5 _ (ix2 ⟨0 + 64 * 3 + j.val, by have := j.isLt; omega⟩ n : S576x2304.Idx) (0 : Fin 2) (Or.inl (show 0 + 64 * 3 + j.val < 320 from by have := j.isLt; omega))) ?_
    refine Eq.trans (canon_skip (Val := Elt Ideal) (e := .bf16) (s := S576x2304) ![256, 0] S64x2304.size i4 w4 _ (ix2 ⟨0 + 64 * 3 + j.val, by have := j.isLt; omega⟩ n : S576x2304.Idx) (0 : Fin 2) (Or.inl (show 0 + 64 * 3 + j.val < 256 from by have := j.isLt; omega))) ?_
    exact canon_head (Val := Elt Ideal) (e := .bf16) (s := S576x2304) ![192, 0] S64x2304.size i3 w3 _ (ix2 ⟨0 + 64 * 3 + j.val, by have := j.isLt; omega⟩ n : S576x2304.Idx) (ix2 j n) hx
  | ⟨4, ht⟩ =>
    have hx : ∀ a : Fin 2, (((ix2 ⟨0 + 64 * 4 + j.val, by have := j.isLt; omega⟩ n : S576x2304.Idx)) a).val = (![256, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 4 + j.val, by have := j.isLt; omega⟩ n : S576x2304.Idx) (0 : Fin 2) (Or.inl (show 0 + 64 * 4 + j.val < 512 from by have := j.isLt; omega))) ?_
    refine Eq.trans (canon_skip (Val := Elt Ideal) (e := .bf16) (s := S576x2304) ![448, 0] S64x2304.size i7 w7 _ (ix2 ⟨0 + 64 * 4 + j.val, by have := j.isLt; omega⟩ n : S576x2304.Idx) (0 : Fin 2) (Or.inl (show 0 + 64 * 4 + j.val < 448 from by have := j.isLt; omega))) ?_
    refine Eq.trans (canon_skip (Val := Elt Ideal) (e := .bf16) (s := S576x2304) ![384, 0] S64x2304.size i6 w6 _ (ix2 ⟨0 + 64 * 4 + j.val, by have := j.isLt; omega⟩ n : S576x2304.Idx) (0 : Fin 2) (Or.inl (show 0 + 64 * 4 + j.val < 384 from by have := j.isLt; omega))) ?_
    refine Eq.trans (canon_skip (Val := Elt Ideal) (e := .bf16) (s := S576x2304) ![320, 0] S64x2304.size i5 w5 _ (ix2 ⟨0 + 64 * 4 + j.val, by have := j.isLt; omega⟩ n : S576x2304.Idx) (0 : Fin 2) (Or.inl (show 0 + 64 * 4 + j.val < 320 from by have := j.isLt; omega))) ?_
    exact canon_head (Val := Elt Ideal) (e := .bf16) (s := S576x2304) ![256, 0] S64x2304.size i4 w4 _ (ix2 ⟨0 + 64 * 4 + j.val, by have := j.isLt; omega⟩ n : S576x2304.Idx) (ix2 j n) hx
  | ⟨5, ht⟩ =>
    have hx : ∀ a : Fin 2, (((ix2 ⟨0 + 64 * 5 + j.val, by have := j.isLt; omega⟩ n : S576x2304.Idx)) a).val = (![320, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 5 + j.val, by have := j.isLt; omega⟩ n : S576x2304.Idx) (0 : Fin 2) (Or.inl (show 0 + 64 * 5 + j.val < 512 from by have := j.isLt; omega))) ?_
    refine Eq.trans (canon_skip (Val := Elt Ideal) (e := .bf16) (s := S576x2304) ![448, 0] S64x2304.size i7 w7 _ (ix2 ⟨0 + 64 * 5 + j.val, by have := j.isLt; omega⟩ n : S576x2304.Idx) (0 : Fin 2) (Or.inl (show 0 + 64 * 5 + j.val < 448 from by have := j.isLt; omega))) ?_
    refine Eq.trans (canon_skip (Val := Elt Ideal) (e := .bf16) (s := S576x2304) ![384, 0] S64x2304.size i6 w6 _ (ix2 ⟨0 + 64 * 5 + j.val, by have := j.isLt; omega⟩ n : S576x2304.Idx) (0 : Fin 2) (Or.inl (show 0 + 64 * 5 + j.val < 384 from by have := j.isLt; omega))) ?_
    exact canon_head (Val := Elt Ideal) (e := .bf16) (s := S576x2304) ![320, 0] S64x2304.size i5 w5 _ (ix2 ⟨0 + 64 * 5 + j.val, by have := j.isLt; omega⟩ n : S576x2304.Idx) (ix2 j n) hx
  | ⟨6, ht⟩ =>
    have hx : ∀ a : Fin 2, (((ix2 ⟨0 + 64 * 6 + j.val, by have := j.isLt; omega⟩ n : S576x2304.Idx)) a).val = (![384, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 6 + j.val, by have := j.isLt; omega⟩ n : S576x2304.Idx) (0 : Fin 2) (Or.inl (show 0 + 64 * 6 + j.val < 512 from by have := j.isLt; omega))) ?_
    refine Eq.trans (canon_skip (Val := Elt Ideal) (e := .bf16) (s := S576x2304) ![448, 0] S64x2304.size i7 w7 _ (ix2 ⟨0 + 64 * 6 + j.val, by have := j.isLt; omega⟩ n : S576x2304.Idx) (0 : Fin 2) (Or.inl (show 0 + 64 * 6 + j.val < 448 from by have := j.isLt; omega))) ?_
    exact canon_head (Val := Elt Ideal) (e := .bf16) (s := S576x2304) ![384, 0] S64x2304.size i6 w6 _ (ix2 ⟨0 + 64 * 6 + j.val, by have := j.isLt; omega⟩ n : S576x2304.Idx) (ix2 j n) hx
  | ⟨7, ht⟩ =>
    have hx : ∀ a : Fin 2, (((ix2 ⟨0 + 64 * 7 + j.val, by have := j.isLt; omega⟩ n : S576x2304.Idx)) a).val = (![448, 0] : Fin 2 → ℕ) a + ((ix2 j n : S64x2304.Idx) a).val := fun a =>
      match a with | ⟨0, _⟩ => rfl | ⟨1, _⟩ => (Nat.zero_add _).symm
    refine Eq.trans (canon_skip (Val := Elt Ideal) (e := .bf16) (s := S576x2304) ![512, 0] S64x2304.size i8 w8 _ (ix2 ⟨0 + 64 * 7 + j.val, by have := j.isLt; omega⟩ n : S576x2304.Idx) (0 : Fin 2) (Or.inl (show 0 + 64 * 7 + j.val < 512 from by have := j.isLt; omega))) ?_
    exact canon_head (Val := Elt Ideal) (e := .bf16) (s := S576x2304) ![448, 0] S64x2304.size i7 w7 _ (ix2 ⟨0 + 64 * 7 + j.val, by have := j.isLt; omega⟩ n : S576x2304.Idx) (ix2 j n) hx
  | ⟨8, ht⟩ =>
    have hx : ∀ a : Fin 2, (((ix2 ⟨0 + 64 * 8 + j.val, by have := j.isLt; omega⟩ n : S576x2304.Idx)) a).val = (![512, 0] : Fin 2 → ℕ) a + ((ix2 j n : S64x2304.Idx) a).val := fun a =>
      match a with | ⟨0, _⟩ => rfl | ⟨1, _⟩ => (Nat.zero_add _).symm
    exact canon_head (Val := Elt Ideal) (e := .bf16) (s := S576x2304) ![512, 0] S64x2304.size i8 w8 _ (ix2 ⟨0 + 64 * 8 + j.val, by have := j.isLt; omega⟩ n : S576x2304.Idx) (ix2 j n) hx

/-! ## The matrix products, the gates, the state update -/

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

theorem gates0_matmul (l : FVec Ideal S192x880 .bf16) (r : FVec Ideal S880x2304 .bf16) (p : Fin 192) (q : Lane) :
    matmul dot_S192x880_S880x2304_S192x2304_1_0_0_1_n_n none l r (constant S192x2304 .f32 0x00000000#32) (ix2 p q)
      = ∑ k : Fin 880, l (ix2 p k) * r (ix2 k q) :=
  Cert.Lib.matmul_zero_apply dot_S192x880_S880x2304_S192x2304_1_0_0_1_n_n rfl rfl
    (fun _ _ => rfl) (fun i q => DotDims.lhsIdx_val_of_single (d := dot_S192x880_S880x2304_S192x2304_1_0_0_1_n_n) (cl := 1) rfl i q)
    (fun i q => DotDims.rhsIdx_val_of_single (d := dot_S192x880_S880x2304_S192x2304_1_0_0_1_n_n) (cr := 0) rfl i q) (fun _ _ => rfl) l r p q

theorem gates1_matmul (l : FVec Ideal S192x1168 .bf16) (r : FVec Ideal S1168x2304 .bf16) (p : Fin 192) (q : Lane) :
    matmul dot_S192x1168_S1168x2304_S192x2304_1_0_0_1_n_n none l r (constant S192x2304 .f32 0x00000000#32) (ix2 p q)
      = ∑ k : Fin 1168, l (ix2 p k) * r (ix2 k q) :=
  Cert.Lib.matmul_zero_apply dot_S192x1168_S1168x2304_S192x2304_1_0_0_1_n_n rfl rfl
    (fun _ _ => rfl) (fun i q => DotDims.lhsIdx_val_of_single (d := dot_S192x1168_S1168x2304_S192x2304_1_0_0_1_n_n) (cl := 1) rfl i q)
    (fun i q => DotDims.rhsIdx_val_of_single (d := dot_S192x1168_S1168x2304_S192x2304_1_0_0_1_n_n) (cr := 0) rfl i q) (fun _ _ => rfl) l r p q

theorem cand_matmul (l : FVec Ideal S64x576 .bf16) (r : FVec Ideal S576x2304 .bf16) (p : Fin 64) (q : Lane) :
    matmul dot_S64x576_S576x2304_S64x2304_1_0_0_1_n_n none l r (constant S64x2304 .f32 0x00000000#32) (ix2 p q)
      = ∑ k : Fin 576, l (ix2 p k) * r (ix2 k q) :=
  Cert.Lib.matmul_zero_apply dot_S64x576_S576x2304_S64x2304_1_0_0_1_n_n rfl rfl
    (fun _ _ => rfl) (fun i q => DotDims.lhsIdx_val_of_single (d := dot_S64x576_S576x2304_S64x2304_1_0_0_1_n_n) (cl := 1) rfl i q)
    (fun i q => DotDims.rhsIdx_val_of_single (d := dot_S64x576_S576x2304_S64x2304_1_0_0_1_n_n) (cr := 0) rfl i q) (fun _ _ => rfl) l r p q

/-- The first layer's gate pre-activations: the weights times the patch matrix. -/
theorem pay24_apply (v92 : Vec Ideal S192x880 .bf16) (v94 : Vec Ideal S880x2304 .bf16) (p : Fin 192) (q : Lane) :
    k0_pay24 v92 v94 (ix2 p q) = ∑ k : Fin 880, v92 (ix2 p k) * v94 (ix2 k q) := by
  unfold k0_pay24
  rw [shapeCast_self]
  exact gates0_matmul v92 v94 p q

/-- The two gates of the first layer: the logistic of rows 0 to 127. -/
theorem pay25_apply (v92 : Vec Ideal S192x880 .bf16) (v94 : Vec Ideal S880x2304 .bf16) (r : Fin 128) (n : Lane) :
    k0_pay25 v92 v94 (ix2 r n) = Ideal.logistic (k0_pay24 v92 v94 (ix2 ⟨r.val, by have := r.isLt; omega⟩ n)) := by
  unfold k0_pay25
  refine (logistic_apply _ _).trans (congrArg Ideal.logistic ?_)
  exact extractStridedSlice_apply _ _ _ (ix2 r n) (ix2 ⟨r.val, by have := r.isLt; omega⟩ n) (fun a => match a with | ⟨0, _⟩ => (Nat.zero_add _).symm | ⟨1, _⟩ => (Nat.zero_add _).symm)

/-- The update gate: rows 64 to 127. -/
theorem pay26_apply (v92 : Vec Ideal S192x880 .bf16) (v94 : Vec Ideal S880x2304 .bf16) (r : Fin 64) (n : Lane) :
    k0_pay26 v92 v94 (ix2 r n) = Ideal.logistic (k0_pay24 v92 v94 (ix2 ⟨64 + r.val, by have := r.isLt; omega⟩ n)) := by
  unfold k0_pay26
  refine (extractStridedSlice_apply _ _ _ (ix2 r n) (ix2 ⟨64 + r.val, by have := r.isLt; omega⟩ n) (fun a => match a with | ⟨0, _⟩ => rfl | ⟨1, _⟩ => (Nat.zero_add _).symm)).trans ?_
  exact pay25_apply v92 v94 ⟨64 + r.val, by have := r.isLt; omega⟩ n

/-- The state times the reset gate (rows 0 to 63 of the gates, the state rows 32 to 95 of the stack). -/
theorem pay27_apply (v18 : FVec Ideal S96x2304 .bf16) (v92 : Vec Ideal S192x880 .bf16) (v94 : Vec Ideal S880x2304 .bf16) (r : Fin 64) (n : Lane) :
    k0_pay27 v18 v92 v94 (ix2 r n)
      = v18 (ix2 ⟨32 + r.val, by have := r.isLt; omega⟩ n) * Ideal.logistic (k0_pay24 v92 v94 (ix2 ⟨r.val, by have := r.isLt; omega⟩ n)) := by
  unfold k0_pay27
  rw [mulf_apply]
  refine congrArg₂ (· * ·) ?_ ?_
  · exact extractStridedSlice_apply _ _ _ (ix2 r n) (ix2 ⟨32 + r.val, by have := r.isLt; omega⟩ n) (fun a => match a with | ⟨0, _⟩ => rfl | ⟨1, _⟩ => (Nat.zero_add _).symm)
  · show extractStridedSlice S64x2304 ![0, 0] (k0_pay25 v92 v94) slices_S128x2304_o0_0_S64x2304 (ix2 r n) = _
    refine (extractStridedSlice_apply _ _ _ (ix2 r n) (ix2 ⟨r.val, by have := r.isLt; omega⟩ n) (fun a => match a with | ⟨0, _⟩ => (Nat.zero_add _).symm | ⟨1, _⟩ => (Nat.zero_add _).symm)).trans ?_
    exact pay25_apply v92 v94 ⟨r.val, by have := r.isLt; omega⟩ n

/-- The first layer's state update h + u (tanh (c + s) - h). -/
theorem pay39_apply (v16 : FVec Ideal S64x2304 .f32) (v20 : FVec Ideal S64x576 .bf16) (v95 : FVec Ideal S192x2304 .f32)
    (v99 : FVec Ideal S64x2304 .f32) (v175 : Vec Ideal S576x2304 .bf16) (r : Fin 64) (n : Lane) :
    k0_pay39 v16 v20 v95 v99 v175 (ix2 r n)
      = v16 (ix2 r n) + v99 (ix2 r n) * (Ideal.tanh (v95 (ix2 ⟨128 + r.val, by have := r.isLt; omega⟩ n)
          + ∑ k : Fin 576, v20 (ix2 r k) * v175 (ix2 k n)) - v16 (ix2 r n)) := by
  unfold k0_pay39
  have e : extractStridedSlice S64x2304 ![128, 0] v95 slices_S192x2304_o128_0_S64x2304 (ix2 r n)
      = v95 (ix2 ⟨128 + r.val, by have := r.isLt; omega⟩ n) :=
    extractStridedSlice_apply _ _ _ (ix2 r n) (ix2 ⟨128 + r.val, by have := r.isLt; omega⟩ n) (fun a => match a with | ⟨0, _⟩ => rfl | ⟨1, _⟩ => (Nat.zero_add _).symm)
  rw [addf_apply, mulf_apply, subf_apply, tanh_apply, addf_apply, cand_matmul, e]

/-- Stored as a [1, 64, 2304] slab. -/
theorem pay40_apply (v16 : FVec Ideal S64x2304 .f32) (v20 : FVec Ideal S64x576 .bf16) (v95 : FVec Ideal S192x2304 .f32)
    (v99 : FVec Ideal S64x2304 .f32) (v175 : Vec Ideal S576x2304 .bf16) (r : Fin 64) (n : Lane) :
    k0_pay40 v16 v20 v95 v99 v175 (ix3 0 r n) = k0_pay39 v16 v20 v95 v99 v175 (ix2 r n) := by
  unfold k0_pay40
  refine shapeCast_apply _ _ (ix3 0 r n) (ix2 r n) ?_
  rw [Shape.rowMajor_val_two, Shape.rowMajor_val_three]
  exact (by omega : r.val * 2304 + n.val = (0 * 64 + r.val) * 2304 + n.val)

/-- The second layer's stack: the first layer's new state over the second layer's state. -/
theorem pay42_apply (v16 : FVec Ideal S64x2304 .f32) (v20 : FVec Ideal S64x576 .bf16) (v95 : FVec Ideal S192x2304 .f32)
    (v99 : FVec Ideal S64x2304 .f32) (v175 : Vec Ideal S576x2304 .bf16) (v185 : Vec Ideal S1x64x2304 .f32) (r : Fin 128) (n : Lane) :
    k0_pay42 v16 v20 v95 v99 v175 v185 (ix2 r n)
      = stack64 (fun j n => k0_pay39 v16 v20 v95 v99 v175 (ix2 j n)) (fun j n => v185 (ix3 0 j n)) r n := by
  unfold stack64
  by_cases hr : r.val < 64
  · rw [dif_pos hr]
    unfold k0_pay42
    exact concatenate_pair_apply_left (t := S128x2304) (s₁ := S64x2304) (s₂ := S64x2304) (0 : Fin 2) _ _ _ (ix2 r n) rfl
      (ix2 ⟨r.val, hr⟩ n) (fun b => match b with | ⟨0, _⟩ => rfl | ⟨1, _⟩ => rfl)
  · rw [dif_neg hr]
    unfold k0_pay42
    refine Eq.trans (concatenate_pair_apply_right (t := S128x2304) (s₁ := S64x2304) (s₂ := S64x2304) (0 : Fin 2) _ _ _ (ix2 r n) rfl rfl
      (ix2 ⟨r.val - 64, by have := r.isLt; omega⟩ n) (fun b hb => match b with | ⟨0, _⟩ => absurd rfl hb | ⟨1, _⟩ => rfl)
      (show r.val - 64 + 64 = r.val from by omega)) ?_
    exact pay41_apply v185 ⟨r.val - 64, by have := r.isLt; omega⟩ n

/-- The second layer's gate pre-activations. -/
theorem pay55_apply (v263 : Vec Ideal S192x1168 .bf16) (v265 : Vec Ideal S1168x2304 .bf16) (p : Fin 192) (q : Lane) :
    k0_pay55 v263 v265 (ix2 p q) = ∑ k : Fin 1168, v263 (ix2 p k) * v265 (ix2 k q) := by
  unfold k0_pay55
  rw [shapeCast_self]
  exact gates1_matmul v263 v265 p q

theorem pay56_apply (v263 : Vec Ideal S192x1168 .bf16) (v265 : Vec Ideal S1168x2304 .bf16) (r : Fin 128) (n : Lane) :
    k0_pay56 v263 v265 (ix2 r n) = Ideal.logistic (k0_pay55 v263 v265 (ix2 ⟨r.val, by have := r.isLt; omega⟩ n)) := by
  unfold k0_pay56
  refine (logistic_apply _ _).trans (congrArg Ideal.logistic ?_)
  exact extractStridedSlice_apply _ _ _ (ix2 r n) (ix2 ⟨r.val, by have := r.isLt; omega⟩ n) (fun a => match a with | ⟨0, _⟩ => (Nat.zero_add _).symm | ⟨1, _⟩ => (Nat.zero_add _).symm)

theorem pay57_apply (v263 : Vec Ideal S192x1168 .bf16) (v265 : Vec Ideal S1168x2304 .bf16) (r : Fin 64) (n : Lane) :
    k0_pay57 v263 v265 (ix2 r n) = Ideal.logistic (k0_pay55 v263 v265 (ix2 ⟨64 + r.val, by have := r.isLt; omega⟩ n)) := by
  unfold k0_pay57
  refine (extractStridedSlice_apply _ _ _ (ix2 r n) (ix2 ⟨64 + r.val, by have := r.isLt; omega⟩ n) (fun a => match a with | ⟨0, _⟩ => rfl | ⟨1, _⟩ => (Nat.zero_add _).symm)).trans ?_
  exact pay56_apply v263 v265 ⟨64 + r.val, by have := r.isLt; omega⟩ n

theorem pay58_apply (v189 : FVec Ideal S128x2304 .bf16) (v263 : Vec Ideal S192x1168 .bf16) (v265 : Vec Ideal S1168x2304 .bf16) (r : Fin 64) (n : Lane) :
    k0_pay58 v189 v263 v265 (ix2 r n)
      = v189 (ix2 ⟨64 + r.val, by have := r.isLt; omega⟩ n) * Ideal.logistic (k0_pay55 v263 v265 (ix2 ⟨r.val, by have := r.isLt; omega⟩ n)) := by
  unfold k0_pay58
  rw [mulf_apply]
  refine congrArg₂ (· * ·) ?_ ?_
  · exact extractStridedSlice_apply _ _ _ (ix2 r n) (ix2 ⟨64 + r.val, by have := r.isLt; omega⟩ n) (fun a => match a with | ⟨0, _⟩ => rfl | ⟨1, _⟩ => (Nat.zero_add _).symm)
  · show extractStridedSlice S64x2304 ![0, 0] (k0_pay56 v263 v265) slices_S128x2304_o0_0_S64x2304 (ix2 r n) = _
    refine (extractStridedSlice_apply _ _ _ (ix2 r n) (ix2 ⟨r.val, by have := r.isLt; omega⟩ n) (fun a => match a with | ⟨0, _⟩ => (Nat.zero_add _).symm | ⟨1, _⟩ => (Nat.zero_add _).symm)).trans ?_
    exact pay56_apply v263 v265 ⟨r.val, by have := r.isLt; omega⟩ n

theorem pay69_apply (v266 : FVec Ideal S192x2304 .f32) (r : Fin 64) (n : Lane) :
    k0_pay69 v266 (ix2 r n) = v266 (ix2 ⟨128 + r.val, by have := r.isLt; omega⟩ n) := by
  unfold k0_pay69
  exact extractStridedSlice_apply _ _ _ (ix2 r n) (ix2 ⟨128 + r.val, by have := r.isLt; omega⟩ n) (fun a => match a with | ⟨0, _⟩ => rfl | ⟨1, _⟩ => (Nat.zero_add _).symm)

/-- The second layer's state update. -/
theorem pay70_apply (v186 : FVec Ideal S64x2304 .f32) (v191 : FVec Ideal S64x576 .bf16) (v270 : FVec Ideal S64x2304 .f32)
    (v345 : FVec Ideal S64x2304 .f32) (v346 : Vec Ideal S576x2304 .bf16) (r : Fin 64) (n : Lane) :
    k0_pay70 v186 v191 v270 v345 v346 (ix2 r n)
      = v186 (ix2 r n) + v270 (ix2 r n) * (Ideal.tanh (v345 (ix2 r n) + ∑ k : Fin 576, v191 (ix2 r k) * v346 (ix2 k n)) - v186 (ix2 r n)) := by
  unfold k0_pay70
  rw [addf_apply, mulf_apply, subf_apply, tanh_apply, addf_apply, cand_matmul]

theorem pay71_apply (v186 : FVec Ideal S64x2304 .f32) (v191 : FVec Ideal S64x576 .bf16) (v270 : FVec Ideal S64x2304 .f32)
    (v345 : FVec Ideal S64x2304 .f32) (v346 : Vec Ideal S576x2304 .bf16) (r : Fin 64) (n : Lane) :
    k0_pay71 v186 v191 v270 v345 v346 (ix3 0 r n) = k0_pay70 v186 v191 v270 v345 v346 (ix2 r n) := by
  unfold k0_pay71
  refine shapeCast_apply _ _ (ix3 0 r n) (ix2 r n) ?_
  rw [Shape.rowMajor_val_two, Shape.rowMajor_val_three]
  exact (by omega : r.val * 2304 + n.val = (0 * 64 + r.val) * 2304 + n.val)

/-! ## Selecting a tap, the stack under a shift, the rows no slab reaches -/

/-- If each of nine matrices reads as the corresponding tap of one family, so does the one a tap number selects. -/
theorem sel9_at {R : ℕ} (w0 w1 w2 w3 w4 w5 w6 w7 w8 : FVec Ideal ⟨2, ![R, 2304]⟩ .bf16) (G : Fin 9 → Fin R → Lane → EReal)
    (h0 : ∀ j n, w0 (ix2 j n) = G 0 j n) (h1 : ∀ j n, w1 (ix2 j n) = G 1 j n) (h2 : ∀ j n, w2 (ix2 j n) = G 2 j n)
    (h3 : ∀ j n, w3 (ix2 j n) = G 3 j n) (h4 : ∀ j n, w4 (ix2 j n) = G 4 j n) (h5 : ∀ j n, w5 (ix2 j n) = G 5 j n)
    (h6 : ∀ j n, w6 (ix2 j n) = G 6 j n) (h7 : ∀ j n, w7 (ix2 j n) = G 7 j n) (h8 : ∀ j n, w8 (ix2 j n) = G 8 j n)
    (t : Fin 9) (j : Fin R) (n : Lane) : sel9 w0 w1 w2 w3 w4 w5 w6 w7 w8 t (ix2 j n) = G t j n := by
  match t with
  | ⟨0, _⟩ => exact h0 j n
  | ⟨1, _⟩ => exact h1 j n
  | ⟨2, _⟩ => exact h2 j n
  | ⟨3, _⟩ => exact h3 j n
  | ⟨4, _⟩ => exact h4 j n
  | ⟨5, _⟩ => exact h5 j n
  | ⟨6, _⟩ => exact h6 j n
  | ⟨7, _⟩ => exact h7 j n
  | ⟨8, _⟩ => exact h8 j n

/-- A tap of the 96-row stack is the tap of the input rows over the tap of the state rows. -/
theorem shift_stack32 (mask : Fin 9 → Lane → EReal) (x : Fin 32 → Lane → EReal) (h : Fin 64 → Lane → EReal) (t : Fin 9) (j : Fin 96) (n : Lane) :
    shift mask (stack32 x h) t j n
      = if h2 : j.val < 32 then shift mask x t ⟨j.val, h2⟩ n else shift mask h t ⟨j.val - 32, by have := j.isLt; omega⟩ n := by
  unfold shift stack32
  split <;> rfl

/-- A tap of the 128-row stack likewise. -/
theorem shift_stack64 (mask : Fin 9 → Lane → EReal) (a h : Fin 64 → Lane → EReal) (t : Fin 9) (j : Fin 128) (n : Lane) :
    shift mask (stack64 a h) t j n
      = if h2 : j.val < 64 then shift mask a t ⟨j.val, h2⟩ n else shift mask h t ⟨j.val - 64, by have := j.isLt; omega⟩ n := by
  unfold shift stack64
  split <;> rfl

/-- The first layer's nine slabs start at row 16: rows 0 to 15 keep what the buffer held. -/
theorem patch0_low {sig' : RefSig} {κ : Kind} {sp : Space} (v : View sig' κ sp S1168x2304 .bf16) (f : v.ty.Contents (Elt Ideal))
    (i8 : ∀ a, (![784, 0] : Fin 2 → ℕ) a + S96x2304.size a ≤ S1168x2304.size a)
    (i7 : ∀ a, (![688, 0] : Fin 2 → ℕ) a + S96x2304.size a ≤ S1168x2304.size a)
    (i6 : ∀ a, (![592, 0] : Fin 2 → ℕ) a + S96x2304.size a ≤ S1168x2304.size a)
    (i5 : ∀ a, (![496, 0] : Fin 2 → ℕ) a + S96x2304.size a ≤ S1168x2304.size a)
    (i4 : ∀ a, (![400, 0] : Fin 2 → ℕ) a + S96x2304.size a ≤ S1168x2304.size a)
    (i3 : ∀ a, (![304, 0] : Fin 2 → ℕ) a + S96x2304.size a ≤ S1168x2304.size a)
    (i2 : ∀ a, (![208, 0] : Fin 2 → ℕ) a + S96x2304.size a ≤ S1168x2304.size a)
    (i1 : ∀ a, (![112, 0] : Fin 2 → ℕ) a + S96x2304.size a ≤ S1168x2304.size a)
    (i0 : ∀ a, (![16, 0] : Fin 2 → ℕ) a + S96x2304.size a ≤ S1168x2304.size a)
    (w8 w7 w6 w5 w4 w3 w2 w1 w0 : FVec Ideal S96x2304 .bf16) (k : Fin 16) (n : Lane) :
    v.read (Elt Ideal) (v.writes (Elt Ideal) f ([(⟨Rect.unit (s := S1168x2304) ![784, 0] S96x2304.size i8, w8⟩ : View.Piece (Elt Ideal) S1168x2304 .bf16),
        ⟨Rect.unit (s := S1168x2304) ![688, 0] S96x2304.size i7, w7⟩,
        ⟨Rect.unit (s := S1168x2304) ![592, 0] S96x2304.size i6, w6⟩,
        ⟨Rect.unit (s := S1168x2304) ![496, 0] S96x2304.size i5, w5⟩,
        ⟨Rect.unit (s := S1168x2304) ![400, 0] S96x2304.size i4, w4⟩,
        ⟨Rect.unit (s := S1168x2304) ![304, 0] S96x2304.size i3, w3⟩,
        ⟨Rect.unit (s := S1168x2304) ![208, 0] S96x2304.size i2, w2⟩,
        ⟨Rect.unit (s := S1168x2304) ![112, 0] S96x2304.size i1, w1⟩,
        ⟨Rect.unit (s := S1168x2304) ![16, 0] S96x2304.size i0, w0⟩])) (ix2 ⟨k.val, by have := k.isLt; omega⟩ n : S1168x2304.Idx)
      = v.read (Elt Ideal) (v.writes (Elt Ideal) f []) (ix2 ⟨k.val, by have := k.isLt; omega⟩ n : S1168x2304.Idx) := by
  refine Eq.trans (read_skip (Val := Elt Ideal) (e := .bf16) v f ![784, 0] S96x2304.size i8 w8 _ (ix2 ⟨k.val, by have := k.isLt; omega⟩ n : S1168x2304.Idx) (0 : Fin 2) (Or.inl (show k.val < 784 from by have := k.isLt; omega))) ?_
  refine Eq.trans (read_skip (Val := Elt Ideal) (e := .bf16) v f ![688, 0] S96x2304.size i7 w7 _ (ix2 ⟨k.val, by have := k.isLt; omega⟩ n : S1168x2304.Idx) (0 : Fin 2) (Or.inl (show k.val < 688 from by have := k.isLt; omega))) ?_
  refine Eq.trans (read_skip (Val := Elt Ideal) (e := .bf16) v f ![592, 0] S96x2304.size i6 w6 _ (ix2 ⟨k.val, by have := k.isLt; omega⟩ n : S1168x2304.Idx) (0 : Fin 2) (Or.inl (show k.val < 592 from by have := k.isLt; omega))) ?_
  refine Eq.trans (read_skip (Val := Elt Ideal) (e := .bf16) v f ![496, 0] S96x2304.size i5 w5 _ (ix2 ⟨k.val, by have := k.isLt; omega⟩ n : S1168x2304.Idx) (0 : Fin 2) (Or.inl (show k.val < 496 from by have := k.isLt; omega))) ?_
  refine Eq.trans (read_skip (Val := Elt Ideal) (e := .bf16) v f ![400, 0] S96x2304.size i4 w4 _ (ix2 ⟨k.val, by have := k.isLt; omega⟩ n : S1168x2304.Idx) (0 : Fin 2) (Or.inl (show k.val < 400 from by have := k.isLt; omega))) ?_
  refine Eq.trans (read_skip (Val := Elt Ideal) (e := .bf16) v f ![304, 0] S96x2304.size i3 w3 _ (ix2 ⟨k.val, by have := k.isLt; omega⟩ n : S1168x2304.Idx) (0 : Fin 2) (Or.inl (show k.val < 304 from by have := k.isLt; omega))) ?_
  refine Eq.trans (read_skip (Val := Elt Ideal) (e := .bf16) v f ![208, 0] S96x2304.size i2 w2 _ (ix2 ⟨k.val, by have := k.isLt; omega⟩ n : S1168x2304.Idx) (0 : Fin 2) (Or.inl (show k.val < 208 from by have := k.isLt; omega))) ?_
  refine Eq.trans (read_skip (Val := Elt Ideal) (e := .bf16) v f ![112, 0] S96x2304.size i1 w1 _ (ix2 ⟨k.val, by have := k.isLt; omega⟩ n : S1168x2304.Idx) (0 : Fin 2) (Or.inl (show k.val < 112 from by have := k.isLt; omega))) ?_
  refine Eq.trans (read_skip (Val := Elt Ideal) (e := .bf16) v f ![16, 0] S96x2304.size i0 w0 _ (ix2 ⟨k.val, by have := k.isLt; omega⟩ n : S1168x2304.Idx) (0 : Fin 2) (Or.inl (show k.val < 16 from by have := k.isLt; omega))) ?_
  rfl

/-- The second layer's nine slabs start at row 16 too: rows 0 to 15 read what the earlier stores left. -/
theorem patch1_low {sig' : RefSig} {κ : Kind} {sp : Space} (v : View sig' κ sp S1168x2304 .bf16) (f : v.ty.Contents (Elt Ideal))
    (i8 : ∀ a, (![1040, 0] : Fin 2 → ℕ) a + S128x2304.size a ≤ S1168x2304.size a)
    (i7 : ∀ a, (![912, 0] : Fin 2 → ℕ) a + S128x2304.size a ≤ S1168x2304.size a)
    (i6 : ∀ a, (![784, 0] : Fin 2 → ℕ) a + S128x2304.size a ≤ S1168x2304.size a)
    (i5 : ∀ a, (![656, 0] : Fin 2 → ℕ) a + S128x2304.size a ≤ S1168x2304.size a)
    (i4 : ∀ a, (![528, 0] : Fin 2 → ℕ) a + S128x2304.size a ≤ S1168x2304.size a)
    (i3 : ∀ a, (![400, 0] : Fin 2 → ℕ) a + S128x2304.size a ≤ S1168x2304.size a)
    (i2 : ∀ a, (![272, 0] : Fin 2 → ℕ) a + S128x2304.size a ≤ S1168x2304.size a)
    (i1 : ∀ a, (![144, 0] : Fin 2 → ℕ) a + S128x2304.size a ≤ S1168x2304.size a)
    (i0 : ∀ a, (![16, 0] : Fin 2 → ℕ) a + S128x2304.size a ≤ S1168x2304.size a)
    (w8 w7 w6 w5 w4 w3 w2 w1 w0 : FVec Ideal S128x2304 .bf16) (L : List (View.Piece (Elt Ideal) S1168x2304 .bf16)) (k : Fin 16) (n : Lane) :
    v.read (Elt Ideal) (v.writes (Elt Ideal) f ((⟨Rect.unit (s := S1168x2304) ![1040, 0] S128x2304.size i8, w8⟩ : View.Piece (Elt Ideal) S1168x2304 .bf16) ::
        ⟨Rect.unit (s := S1168x2304) ![912, 0] S128x2304.size i7, w7⟩ ::
        ⟨Rect.unit (s := S1168x2304) ![784, 0] S128x2304.size i6, w6⟩ ::
        ⟨Rect.unit (s := S1168x2304) ![656, 0] S128x2304.size i5, w5⟩ ::
        ⟨Rect.unit (s := S1168x2304) ![528, 0] S128x2304.size i4, w4⟩ ::
        ⟨Rect.unit (s := S1168x2304) ![400, 0] S128x2304.size i3, w3⟩ ::
        ⟨Rect.unit (s := S1168x2304) ![272, 0] S128x2304.size i2, w2⟩ ::
        ⟨Rect.unit (s := S1168x2304) ![144, 0] S128x2304.size i1, w1⟩ ::
        ⟨Rect.unit (s := S1168x2304) ![16, 0] S128x2304.size i0, w0⟩ :: L)) (ix2 ⟨k.val, by have := k.isLt; omega⟩ n : S1168x2304.Idx)
      = v.read (Elt Ideal) (v.writes (Elt Ideal) f L) (ix2 ⟨k.val, by have := k.isLt; omega⟩ n : S1168x2304.Idx) := by
  refine Eq.trans (read_skip (Val := Elt Ideal) (e := .bf16) v f ![1040, 0] S128x2304.size i8 w8 _ (ix2 ⟨k.val, by have := k.isLt; omega⟩ n : S1168x2304.Idx) (0 : Fin 2) (Or.inl (show k.val < 1040 from by have := k.isLt; omega))) ?_
  refine Eq.trans (read_skip (Val := Elt Ideal) (e := .bf16) v f ![912, 0] S128x2304.size i7 w7 _ (ix2 ⟨k.val, by have := k.isLt; omega⟩ n : S1168x2304.Idx) (0 : Fin 2) (Or.inl (show k.val < 912 from by have := k.isLt; omega))) ?_
  refine Eq.trans (read_skip (Val := Elt Ideal) (e := .bf16) v f ![784, 0] S128x2304.size i6 w6 _ (ix2 ⟨k.val, by have := k.isLt; omega⟩ n : S1168x2304.Idx) (0 : Fin 2) (Or.inl (show k.val < 784 from by have := k.isLt; omega))) ?_
  refine Eq.trans (read_skip (Val := Elt Ideal) (e := .bf16) v f ![656, 0] S128x2304.size i5 w5 _ (ix2 ⟨k.val, by have := k.isLt; omega⟩ n : S1168x2304.Idx) (0 : Fin 2) (Or.inl (show k.val < 656 from by have := k.isLt; omega))) ?_
  refine Eq.trans (read_skip (Val := Elt Ideal) (e := .bf16) v f ![528, 0] S128x2304.size i4 w4 _ (ix2 ⟨k.val, by have := k.isLt; omega⟩ n : S1168x2304.Idx) (0 : Fin 2) (Or.inl (show k.val < 528 from by have := k.isLt; omega))) ?_
  refine Eq.trans (read_skip (Val := Elt Ideal) (e := .bf16) v f ![400, 0] S128x2304.size i3 w3 _ (ix2 ⟨k.val, by have := k.isLt; omega⟩ n : S1168x2304.Idx) (0 : Fin 2) (Or.inl (show k.val < 400 from by have := k.isLt; omega))) ?_
  refine Eq.trans (read_skip (Val := Elt Ideal) (e := .bf16) v f ![272, 0] S128x2304.size i2 w2 _ (ix2 ⟨k.val, by have := k.isLt; omega⟩ n : S1168x2304.Idx) (0 : Fin 2) (Or.inl (show k.val < 272 from by have := k.isLt; omega))) ?_
  refine Eq.trans (read_skip (Val := Elt Ideal) (e := .bf16) v f ![144, 0] S128x2304.size i1 w1 _ (ix2 ⟨k.val, by have := k.isLt; omega⟩ n : S1168x2304.Idx) (0 : Fin 2) (Or.inl (show k.val < 144 from by have := k.isLt; omega))) ?_
  refine Eq.trans (read_skip (Val := Elt Ideal) (e := .bf16) v f ![16, 0] S128x2304.size i0 w0 _ (ix2 ⟨k.val, by have := k.isLt; omega⟩ n : S1168x2304.Idx) (0 : Fin 2) (Or.inl (show k.val < 16 from by have := k.isLt; omega))) ?_
  rfl

end Cert.KernelIdeal.Sem

end
-- ==== Proof.KSemSteps.lean ====
/-
  One layer of a step over what the step loads, whatever the control case: the patch matrix read back is the
  specification's, the matrix product its gates, the recurrent patch matrix and the state update its finish.
-/
import proofs.«175272_g2000206920649175_pallasbulk_1279_5_alg».proof.Proof.KSemLib
import Idealize.ShloMosaic.Lib.ValueIdx
import Idealize.ShloMosaic.Lib.Pipeline.Value

set_option maxRecDepth 16384

noncomputable section

namespace Cert.KernelIdeal.Sem

open Cert.KernelIdeal Cert.KernelIdeal.Gen Cert.GruSpec

open Idealize.ShloMosaic Idealize.ShloMosaic.ValueIdx
open scoped BigOperators

/-! ## What a step loads, and the two patch matrices it reads back, as terms over the buffers' contents -/

abbrev ldIn (arg3 : Memref sig .tc .vmem S1x1x4x32x576 .f32) (harg3 : arg3.IsWhole) (x1 : Vec Ideal S1x1x4x32x576 .f32) :=
  View.readAt (Elt Ideal) arg3.view (Rect.unit (s := S1x1x4x32x576) ![0, 0, 0, 0, 0] S1x1x4x32x576.size inb_S1x1x4x32x576_S1x1x4x32x576_0_0_0_0_0).toLoadRect (harg3.unread x1)
abbrev ldW0 (arg4 : Memref sig .tc .vmem S192x880 .bf16) (harg4 : arg4.IsWhole) (x2 : Vec Ideal S192x880 .bf16) :=
  View.readAt (Elt Ideal) arg4.view (Rect.unit (s := S192x880) ![0, 0] S192x880.size inb_S192x880_S192x880_0_0).toLoadRect (harg4.unread x2)
abbrev ldW1 (arg5 : Memref sig .tc .vmem S192x1168 .bf16) (harg5 : arg5.IsWhole) (x3 : Vec Ideal S192x1168 .bf16) :=
  View.readAt (Elt Ideal) arg5.view (Rect.unit (s := S192x1168) ![0, 0] S192x1168.size inb_S192x1168_S192x1168_0_0).toLoadRect (harg5.unread x3)
abbrev ldH0 (arg9 : Memref sig .tc .vmem S2x64x2304 .f32) (harg9 : arg9.IsWhole) (xs0 : Vec Ideal S2x64x2304 .f32) :=
  View.readAt (Elt Ideal) arg9.view (Rect.unit (s := S2x64x2304) ![0, 0, 0] S1x64x2304.size inb_S2x64x2304_S1x64x2304_0_0_0).toLoadRect (harg9.unread xs0)
abbrev ldH1 (arg9 : Memref sig .tc .vmem S2x64x2304 .f32) (harg9 : arg9.IsWhole) (xs0 : Vec Ideal S2x64x2304 .f32) :=
  View.readAt (Elt Ideal) arg9.view (Rect.unit (s := S2x64x2304) ![1, 0, 0] S1x64x2304.size inb_S2x64x2304_S1x64x2304_1_0_0).toLoadRect (harg9.unread xs0)
abbrev ldR0 (arg6 : Memref sig .tc .vmem S2x64x576 .bf16) (harg6 : arg6.IsWhole) (x4 : Vec Ideal S2x64x576 .bf16) :=
  View.readAt (Elt Ideal) arg6.view (Rect.unit (s := S2x64x576) ![0, 0, 0] S1x64x576.size inb_S2x64x576_S1x64x576_0_0_0).toLoadRect (harg6.unread x4)
abbrev ldR1 (arg6 : Memref sig .tc .vmem S2x64x576 .bf16) (harg6 : arg6.IsWhole) (x4 : Vec Ideal S2x64x576 .bf16) :=
  View.readAt (Elt Ideal) arg6.view (Rect.unit (s := S2x64x576) ![1, 0, 0] S1x64x576.size inb_S2x64x576_S1x64x576_1_0_0).toLoadRect (harg6.unread x4)
abbrev ldM0 (arg2 : Memref sig .tc .vmem S16x2304 .bf16) (harg2 : arg2.IsWhole) (x0 : Vec Ideal S16x2304 .bf16) :=
  View.readAt (Elt Ideal) arg2.view (Rect.unit (s := S16x2304) ![0, 0] S1x2304.size inb_S16x2304_S1x2304_0_0).toLoadRect (harg2.unread x0)
abbrev ldM1 (arg2 : Memref sig .tc .vmem S16x2304 .bf16) (harg2 : arg2.IsWhole) (x0 : Vec Ideal S16x2304 .bf16) :=
  View.readAt (Elt Ideal) arg2.view (Rect.unit (s := S16x2304) ![1, 0] S1x2304.size inb_S16x2304_S1x2304_1_0).toLoadRect (harg2.unread x0)
abbrev ldM2 (arg2 : Memref sig .tc .vmem S16x2304 .bf16) (harg2 : arg2.IsWhole) (x0 : Vec Ideal S16x2304 .bf16) :=
  View.readAt (Elt Ideal) arg2.view (Rect.unit (s := S16x2304) ![2, 0] S1x2304.size inb_S16x2304_S1x2304_2_0).toLoadRect (harg2.unread x0)
abbrev ldM3 (arg2 : Memref sig .tc .vmem S16x2304 .bf16) (harg2 : arg2.IsWhole) (x0 : Vec Ideal S16x2304 .bf16) :=
  View.readAt (Elt Ideal) arg2.view (Rect.unit (s := S16x2304) ![3, 0] S1x2304.size inb_S16x2304_S1x2304_3_0).toLoadRect (harg2.unread x0)
abbrev ldM4 (arg2 : Memref sig .tc .vmem S16x2304 .bf16) (harg2 : arg2.IsWhole) (x0 : Vec Ideal S16x2304 .bf16) :=
  View.readAt (Elt Ideal) arg2.view (Rect.unit (s := S16x2304) ![4, 0] S1x2304.size inb_S16x2304_S1x2304_4_0).toLoadRect (harg2.unread x0)
abbrev ldM5 (arg2 : Memref sig .tc .vmem S16x2304 .bf16) (harg2 : arg2.IsWhole) (x0 : Vec Ideal S16x2304 .bf16) :=
  View.readAt (Elt Ideal) arg2.view (Rect.unit (s := S16x2304) ![5, 0] S1x2304.size inb_S16x2304_S1x2304_5_0).toLoadRect (harg2.unread x0)
abbrev ldM6 (arg2 : Memref sig .tc .vmem S16x2304 .bf16) (harg2 : arg2.IsWhole) (x0 : Vec Ideal S16x2304 .bf16) :=
  View.readAt (Elt Ideal) arg2.view (Rect.unit (s := S16x2304) ![6, 0] S1x2304.size inb_S16x2304_S1x2304_6_0).toLoadRect (harg2.unread x0)
abbrev ldM7 (arg2 : Memref sig .tc .vmem S16x2304 .bf16) (harg2 : arg2.IsWhole) (x0 : Vec Ideal S16x2304 .bf16) :=
  View.readAt (Elt Ideal) arg2.view (Rect.unit (s := S16x2304) ![7, 0] S1x2304.size inb_S16x2304_S1x2304_7_0).toLoadRect (harg2.unread x0)
abbrev ldM8 (arg2 : Memref sig .tc .vmem S16x2304 .bf16) (harg2 : arg2.IsWhole) (x0 : Vec Ideal S16x2304 .bf16) :=
  View.readAt (Elt Ideal) arg2.view (Rect.unit (s := S16x2304) ![8, 0] S1x2304.size inb_S16x2304_S1x2304_8_0).toLoadRect (harg2.unread x0)

section Loads

variable (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
  (x0 : Vec Ideal S16x2304 .bf16) (x1 : Vec Ideal S1x1x4x32x576 .f32) (x2 : Vec Ideal S192x880 .bf16) (x3 : Vec Ideal S192x1168 .bf16) (x4 : Vec Ideal S2x64x576 .bf16)
  (xs0 : Vec Ideal S2x64x2304 .f32) (xs1 : Vec Ideal S1168x2304 .bf16)

theorem ld3_eq : (ldIn arg3 harg3 x1) = x1 :=
  funext fun y => load_apply harg3 x1 _ _ _ y y (fun a => match a with | ⟨0, _⟩ => (Nat.zero_add _).symm | ⟨1, _⟩ => (Nat.zero_add _).symm | ⟨2, _⟩ => (Nat.zero_add _).symm | ⟨3, _⟩ => (Nat.zero_add _).symm | ⟨4, _⟩ => (Nat.zero_add _).symm)

theorem ld4_eq : (ldW0 arg4 harg4 x2) = x2 :=
  funext fun y => load_apply harg4 x2 _ _ _ y y (fun a => match a with | ⟨0, _⟩ => (Nat.zero_add _).symm | ⟨1, _⟩ => (Nat.zero_add _).symm)

theorem ld5_eq : (ldW1 arg5 harg5 x3) = x3 :=
  funext fun y => load_apply harg5 x3 _ _ _ y y (fun a => match a with | ⟨0, _⟩ => (Nat.zero_add _).symm | ⟨1, _⟩ => (Nat.zero_add _).symm)

theorem ld90_apply (ch : Fin 64) (n : Lane) : (ldH0 arg9 harg9 xs0) (ix3 0 ch n) = slab3 xs0 0 ch n :=
  load_apply harg9 xs0 _ _ _ (ix3 0 ch n) (ix3 0 ch n) (fun a => match a with | ⟨0, _⟩ => rfl | ⟨1, _⟩ => (Nat.zero_add _).symm | ⟨2, _⟩ => (Nat.zero_add _).symm)

theorem ld91_apply (ch : Fin 64) (n : Lane) : (ldH1 arg9 harg9 xs0) (ix3 0 ch n) = slab3 xs0 1 ch n :=
  load_apply harg9 xs0 _ _ _ (ix3 0 ch n) (ix3 1 ch n) (fun a => match a with | ⟨0, _⟩ => rfl | ⟨1, _⟩ => (Nat.zero_add _).symm | ⟨2, _⟩ => (Nat.zero_add _).symm)

theorem ld60_apply (r : Fin 64) (k : Fin 576) : (ldR0 arg6 harg6 x4) (ix3 0 r k) = slab3 x4 0 r k :=
  load_apply harg6 x4 _ _ _ (ix3 0 r k) (ix3 0 r k) (fun a => match a with | ⟨0, _⟩ => rfl | ⟨1, _⟩ => (Nat.zero_add _).symm | ⟨2, _⟩ => (Nat.zero_add _).symm)

theorem ld61_apply (r : Fin 64) (k : Fin 576) : (ldR1 arg6 harg6 x4) (ix3 0 r k) = slab3 x4 1 r k :=
  load_apply harg6 x4 _ _ _ (ix3 0 r k) (ix3 1 r k) (fun a => match a with | ⟨0, _⟩ => rfl | ⟨1, _⟩ => (Nat.zero_add _).symm | ⟨2, _⟩ => (Nat.zero_add _).symm)

theorem mrow0_apply (n : Lane) : (ldM0 arg2 harg2 x0) (ix2 0 n) = maskK x0 0 n :=
  load_apply harg2 x0 _ _ _ (ix2 0 n) (ix2 ⟨0, by omega⟩ n) (fun a => match a with | ⟨0, _⟩ => rfl | ⟨1, _⟩ => (Nat.zero_add _).symm)

theorem mrow1_apply (n : Lane) : (ldM1 arg2 harg2 x0) (ix2 0 n) = maskK x0 1 n :=
  load_apply harg2 x0 _ _ _ (ix2 0 n) (ix2 ⟨1, by omega⟩ n) (fun a => match a with | ⟨0, _⟩ => rfl | ⟨1, _⟩ => (Nat.zero_add _).symm)

theorem mrow2_apply (n : Lane) : (ldM2 arg2 harg2 x0) (ix2 0 n) = maskK x0 2 n :=
  load_apply harg2 x0 _ _ _ (ix2 0 n) (ix2 ⟨2, by omega⟩ n) (fun a => match a with | ⟨0, _⟩ => rfl | ⟨1, _⟩ => (Nat.zero_add _).symm)

theorem mrow3_apply (n : Lane) : (ldM3 arg2 harg2 x0) (ix2 0 n) = maskK x0 3 n :=
  load_apply harg2 x0 _ _ _ (ix2 0 n) (ix2 ⟨3, by omega⟩ n) (fun a => match a with | ⟨0, _⟩ => rfl | ⟨1, _⟩ => (Nat.zero_add _).symm)

theorem mrow4_apply (n : Lane) : (ldM4 arg2 harg2 x0) (ix2 0 n) = maskK x0 4 n :=
  load_apply harg2 x0 _ _ _ (ix2 0 n) (ix2 ⟨4, by omega⟩ n) (fun a => match a with | ⟨0, _⟩ => rfl | ⟨1, _⟩ => (Nat.zero_add _).symm)

theorem mrow5_apply (n : Lane) : (ldM5 arg2 harg2 x0) (ix2 0 n) = maskK x0 5 n :=
  load_apply harg2 x0 _ _ _ (ix2 0 n) (ix2 ⟨5, by omega⟩ n) (fun a => match a with | ⟨0, _⟩ => rfl | ⟨1, _⟩ => (Nat.zero_add _).symm)

theorem mrow6_apply (n : Lane) : (ldM6 arg2 harg2 x0) (ix2 0 n) = maskK x0 6 n :=
  load_apply harg2 x0 _ _ _ (ix2 0 n) (ix2 ⟨6, by omega⟩ n) (fun a => match a with | ⟨0, _⟩ => rfl | ⟨1, _⟩ => (Nat.zero_add _).symm)

theorem mrow7_apply (n : Lane) : (ldM7 arg2 harg2 x0) (ix2 0 n) = maskK x0 7 n :=
  load_apply harg2 x0 _ _ _ (ix2 0 n) (ix2 ⟨7, by omega⟩ n) (fun a => match a with | ⟨0, _⟩ => rfl | ⟨1, _⟩ => (Nat.zero_add _).symm)

theorem mrow8_apply (n : Lane) : (ldM8 arg2 harg2 x0) (ix2 0 n) = maskK x0 8 n :=
  load_apply harg2 x0 _ _ _ (ix2 0 n) (ix2 ⟨8, by omega⟩ n) (fun a => match a with | ⟨0, _⟩ => rfl | ⟨1, _⟩ => (Nat.zero_add _).symm)

/-- The stack of a step: the input block's rows over layer 0's state rows. -/
theorem stack0_apply (r : Fin 96) (n : Lane) :
    (k0_pay12 (ldIn arg3 harg3 x1) (ldH0 arg9 harg9 xs0)) (ix2 r n) = stack32 (xK x1) (slab3 xs0 0) r n := by
  rw [pay12_apply, ld3_eq]
  exact congrArg (fun h => stack32 (xK x1) h r n) (funext fun j => funext fun n => ld90_apply arg9 harg9 xs0 j n)

theorem stack32_state (x : Fin 32 → Lane → EReal) (h : Fin 64 → Lane → EReal) (r : Fin 64) (n : Lane) :
    stack32 x h ⟨32 + r.val, by have := r.isLt; omega⟩ n = h r n := by
  unfold stack32
  rw [dif_neg (show ¬(32 + r.val < 32) by omega)]
  exact congrArg (fun q => h q n) (Fin.ext (show 32 + r.val - 32 = r.val by omega))

end Loads

/-- The patch-matrix scratch after layer 0's nine slab stores, over the contents `xs1` the step found. -/
abbrev patch0W (arg2 : Memref sig .tc .vmem S16x2304 .bf16) (harg2 : arg2.IsWhole) (arg3 : Memref sig .tc .vmem S1x1x4x32x576 .f32) (harg3 : arg3.IsWhole) (arg9 : Memref sig .tc .vmem S2x64x2304 .f32) (harg9 : arg9.IsWhole) (arg10 : Memref sig .tc .vmem S1168x2304 .bf16) (harg10 : arg10.IsWhole)
    (x0 : Vec Ideal S16x2304 .bf16) (x1 : Vec Ideal S1x1x4x32x576 .f32) (xs0 : Vec Ideal S2x64x2304 .f32) (xs1 : Vec Ideal S1168x2304 .bf16) :=
  arg10.view.writes (Elt Ideal) (harg10.unread xs1)
    ([⟨Rect.unit (s := S1168x2304) ![784, 0] S96x2304.size inb_S1168x2304_S96x2304_784_0, k0_pay23 (k0_pay12 (ldIn arg3 harg3 x1) (ldH0 arg9 harg9 xs0)) (ldM8 arg2 harg2 x0)⟩,
      ⟨Rect.unit (s := S1168x2304) ![688, 0] S96x2304.size inb_S1168x2304_S96x2304_688_0, k0_pay22 (k0_pay12 (ldIn arg3 harg3 x1) (ldH0 arg9 harg9 xs0)) (ldM7 arg2 harg2 x0)⟩,
      ⟨Rect.unit (s := S1168x2304) ![592, 0] S96x2304.size inb_S1168x2304_S96x2304_592_0, k0_pay21 (k0_pay12 (ldIn arg3 harg3 x1) (ldH0 arg9 harg9 xs0)) (2281#32) (ldM6 arg2 harg2 x0)⟩,
      ⟨Rect.unit (s := S1168x2304) ![496, 0] S96x2304.size inb_S1168x2304_S96x2304_496_0, k0_pay20 (k0_pay12 (ldIn arg3 harg3 x1) (ldH0 arg9 harg9 xs0)) (ldM5 arg2 harg2 x0)⟩,
      ⟨Rect.unit (s := S1168x2304) ![400, 0] S96x2304.size inb_S1168x2304_S96x2304_400_0, k0_pay19 (k0_pay12 (ldIn arg3 harg3 x1) (ldH0 arg9 harg9 xs0)) (ldM4 arg2 harg2 x0)⟩,
      ⟨Rect.unit (s := S1168x2304) ![304, 0] S96x2304.size inb_S1168x2304_S96x2304_304_0, k0_pay18 (k0_pay12 (ldIn arg3 harg3 x1) (ldH0 arg9 harg9 xs0)) (ldM3 arg2 harg2 x0)⟩,
      ⟨Rect.unit (s := S1168x2304) ![208, 0] S96x2304.size inb_S1168x2304_S96x2304_208_0, k0_pay17 (k0_pay12 (ldIn arg3 harg3 x1) (ldH0 arg9 harg9 xs0)) (ldM2 arg2 harg2 x0)⟩,
      ⟨Rect.unit (s := S1168x2304) ![112, 0] S96x2304.size inb_S1168x2304_S96x2304_112_0, k0_pay16 (k0_pay15 (ldIn arg3 harg3 x1) (ldH0 arg9 harg9 xs0) (ldM1 arg2 harg2 x0))⟩,
      ⟨Rect.unit (s := S1168x2304) ![16, 0] S96x2304.size inb_S1168x2304_S96x2304_16_0, k0_pay14 (ldIn arg3 harg3 x1) (ldH0 arg9 harg9 xs0) (ldM0 arg2 harg2 x0)⟩] : List (View.Piece (Elt Ideal) S1168x2304 .bf16))

/-- Its rows 0 to 879 as layer 0 loads them. -/
abbrev patch0L (arg2 : Memref sig .tc .vmem S16x2304 .bf16) (harg2 : arg2.IsWhole) (arg3 : Memref sig .tc .vmem S1x1x4x32x576 .f32) (harg3 : arg3.IsWhole) (arg9 : Memref sig .tc .vmem S2x64x2304 .f32) (harg9 : arg9.IsWhole) (arg10 : Memref sig .tc .vmem S1168x2304 .bf16) (harg10 : arg10.IsWhole)
    (x0 : Vec Ideal S16x2304 .bf16) (x1 : Vec Ideal S1x1x4x32x576 .f32) (xs0 : Vec Ideal S2x64x2304 .f32) (xs1 : Vec Ideal S1168x2304 .bf16) :=
  View.readAt (Elt Ideal) arg10.view (Rect.unit (s := S1168x2304) ![0, 0] S880x2304.size inb_S1168x2304_S880x2304_0_0).toLoadRect
    (patch0W arg2 harg2 arg3 harg3 arg9 harg9 arg10 harg10 x0 x1 xs0 xs1)

section Layer0

variable (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
  (x0 : Vec Ideal S16x2304 .bf16) (x1 : Vec Ideal S1x1x4x32x576 .f32) (x2 : Vec Ideal S192x880 .bf16) (x3 : Vec Ideal S192x1168 .bf16) (x4 : Vec Ideal S2x64x576 .bf16)
  (xs0 : Vec Ideal S2x64x2304 .f32) (xs1 : Vec Ideal S1168x2304 .bf16)

theorem l0_piece0 (j : Fin 96) (n : Lane) :
    k0_pay14 (ldIn arg3 harg3 x1) (ldH0 arg9 harg9 xs0) (ldM0 arg2 harg2 x0) (ix2 j n) = shift (maskK x0) (stack32 (xK x1) (slab3 xs0 0)) 0 j n := by
  rw [pay14_apply, stack0_apply, mrow0_apply]
  rfl

theorem l0_piece1 (j : Fin 96) (n : Lane) :
    k0_pay16 (k0_pay15 (ldIn arg3 harg3 x1) (ldH0 arg9 harg9 xs0) (ldM1 arg2 harg2 x0)) (ix2 j n) = shift (maskK x0) (stack32 (xK x1) (slab3 xs0 0)) 1 j n := by
  rw [pay16_apply, pay15_apply, stack0_apply, mrow1_apply]
  rfl

theorem l0_piece2 (j : Fin 96) (n : Lane) :
    k0_pay17 (k0_pay12 (ldIn arg3 harg3 x1) (ldH0 arg9 harg9 xs0)) (ldM2 arg2 harg2 x0) (ix2 j n) = shift (maskK x0) (stack32 (xK x1) (slab3 xs0 0)) 2 j n := by
  rw [pay17_apply, stack0_apply, mrow2_apply]
  rfl

theorem l0_piece3 (j : Fin 96) (n : Lane) :
    k0_pay18 (k0_pay12 (ldIn arg3 harg3 x1) (ldH0 arg9 harg9 xs0)) (ldM3 arg2 harg2 x0) (ix2 j n) = shift (maskK x0) (stack32 (xK x1) (slab3 xs0 0)) 3 j n := by
  rw [pay18_apply, stack0_apply, mrow3_apply]
  rfl

theorem l0_piece4 (j : Fin 96) (n : Lane) :
    k0_pay19 (k0_pay12 (ldIn arg3 harg3 x1) (ldH0 arg9 harg9 xs0)) (ldM4 arg2 harg2 x0) (ix2 j n) = shift (maskK x0) (stack32 (xK x1) (slab3 xs0 0)) 4 j n := by
  rw [pay19_apply, stack0_apply, mrow4_apply]
  unfold shift
  rw [show amt 4 = 0 from rfl, rotBy_zero]

theorem l0_piece5 (j : Fin 96) (n : Lane) :
    k0_pay20 (k0_pay12 (ldIn arg3 harg3 x1) (ldH0 arg9 harg9 xs0)) (ldM5 arg2 harg2 x0) (ix2 j n) = shift (maskK x0) (stack32 (xK x1) (slab3 xs0 0)) 5 j n := by
  rw [pay20_apply, stack0_apply, mrow5_apply]
  rfl

theorem l0_piece6 (j : Fin 96) (n : Lane) :
    k0_pay21 (k0_pay12 (ldIn arg3 harg3 x1) (ldH0 arg9 harg9 xs0)) (2281#32) (ldM6 arg2 harg2 x0) (ix2 j n) = shift (maskK x0) (stack32 (xK x1) (slab3 xs0 0)) 6 j n := by
  rw [pay21_apply, stack0_apply, mrow6_apply]
  rfl

theorem l0_piece7 (j : Fin 96) (n : Lane) :
    k0_pay22 (k0_pay12 (ldIn arg3 harg3 x1) (ldH0 arg9 harg9 xs0)) (ldM7 arg2 harg2 x0) (ix2 j n) = shift (maskK x0) (stack32 (xK x1) (slab3 xs0 0)) 7 j n := by
  rw [pay22_apply, stack0_apply, mrow7_apply]
  rfl

theorem l0_piece8 (j : Fin 96) (n : Lane) :
    k0_pay23 (k0_pay12 (ldIn arg3 harg3 x1) (ldH0 arg9 harg9 xs0)) (ldM8 arg2 harg2 x0) (ix2 j n) = shift (maskK x0) (stack32 (xK x1) (slab3 xs0 0)) 8 j n := by
  rw [pay23_apply, stack0_apply, mrow8_apply]
  rfl

/-- The first layer's patch matrix as loaded: the bias rows the buffer kept, then the nine taps of the stack. -/
theorem l0_patch (hb : BiasK xs1) (k : Fin 880) (n : Lane) :
    (patch0L arg2 harg2 arg3 harg3 arg9 harg9 arg10 harg10 x0 x1 xs0 xs1) (ix2 k n) = patchK0 (maskK x0) (xK x1) (slab3 xs0 0) k n := by
  have hidx : (Rect.unit (s := S1168x2304) ![0, 0] S880x2304.size inb_S1168x2304_S880x2304_0_0).toLoadRect.idx (ix2 k n)
      = (ix2 ⟨k.val, by have := k.isLt; omega⟩ n : S1168x2304.Idx) :=
    unit_idx_eq (s := S1168x2304) ![0, 0] S880x2304.size _ (ix2 k n) (ix2 ⟨k.val, by have := k.isLt; omega⟩ n) (fun a => match a with | ⟨0, _⟩ => (Nat.zero_add _).symm | ⟨1, _⟩ => (Nat.zero_add _).symm)
  unfold patchK0
  by_cases hk : k.val < 16
  · have hlow : (patch0L arg2 harg2 arg3 harg3 arg9 harg9 arg10 harg10 x0 x1 xs0 xs1) (ix2 k n) = xs1 (ix2 ⟨k.val, by have := k.isLt; omega⟩ n) := by
      show arg10.view.read (Elt Ideal) (patch0W arg2 harg2 arg3 harg3 arg9 harg9 arg10 harg10 x0 x1 xs0 xs1) _ = _
      rw [hidx]
      refine (patch0_low arg10.view (harg10.unread xs1) _ _ _ _ _ _ _ _ _ _ _ _ _ _ _ _ _ _ ⟨k.val, hk⟩ n).trans ?_
      exact congrFun (harg10.read_unread xs1) _
    rw [hlow]
    by_cases h0 : k.val = 0
    · rw [if_pos h0]
      have e : (⟨k.val, by have := k.isLt; omega⟩ : Fin 1168) = ⟨0, by decide⟩ := Fin.ext h0
      rw [e]; exact (hb n).1
    · rw [if_neg h0, dif_pos hk]
      exact (hb n).2 ⟨k.val, by have := k.isLt; omega⟩ (Nat.pos_of_ne_zero h0) hk
  · rw [if_neg (show ¬(k.val = 0) by omega), dif_neg hk]
    have hk' : k = ⟨16 + 96 * ((k.val - 16) / 96) + (k.val - 16) % 96, by have := k.isLt; omega⟩ :=
      Fin.ext (show k.val = 16 + 96 * ((k.val - 16) / 96) + (k.val - 16) % 96 by omega)
    refine (congrArg (fun q => (patch0L arg2 harg2 arg3 harg3 arg9 harg9 arg10 harg10 x0 x1 xs0 xs1) (ix2 q n)) hk').trans ?_
    refine (patch0_rows arg10.view (harg10.unread xs1) _ _ _ _ _ _ _ _ _ _ _ _ _ _ _ _ _ _ _
      ⟨(k.val - 16) / 96, by have := k.isLt; omega⟩ ⟨(k.val - 16) % 96, Nat.mod_lt _ (by decide)⟩ n).trans ?_
    refine (sel9_at _ _ _ _ _ _ _ _ _ (fun t j n => shift (maskK x0) (stack32 (xK x1) (slab3 xs0 0)) t j n)
      (l0_piece0 arg2 harg2 arg3 harg3 arg9 harg9 x0 x1 xs0) (l0_piece1 arg2 harg2 arg3 harg3 arg9 harg9 x0 x1 xs0) (l0_piece2 arg2 harg2 arg3 harg3 arg9 harg9 x0 x1 xs0) (l0_piece3 arg2 harg2 arg3 harg3 arg9 harg9 x0 x1 xs0) (l0_piece4 arg2 harg2 arg3 harg3 arg9 harg9 x0 x1 xs0) (l0_piece5 arg2 harg2 arg3 harg3 arg9 harg9 x0 x1 xs0) (l0_piece6 arg2 harg2 arg3 harg3 arg9 harg9 x0 x1 xs0) (l0_piece7 arg2 harg2 arg3 harg3 arg9 harg9 x0 x1 xs0) (l0_piece8 arg2 harg2 arg3 harg3 arg9 harg9 x0 x1 xs0) _ _ n).trans ?_
    exact shift_stack32 (maskK x0) (xK x1) (slab3 xs0 0) _ _ n

/-- The gate pre-activations of layer 0. -/
theorem l0_gates (hb : BiasK xs1) (r : Fin 192) (n : Lane) :
    (k0_pay24 (ldW0 arg4 harg4 x2) (patch0L arg2 harg2 arg3 harg3 arg9 harg9 arg10 harg10 x0 x1 xs0 xs1)) (ix2 r n) = (gatesK0 (maskK x0) (mat2 x2) (xK x1) (slab3 xs0 0)) r n := by
  rw [pay24_apply, ld4_eq]
  unfold gatesK0
  refine Finset.sum_congr rfl fun k _ => ?_
  rw [l0_patch arg2 harg2 arg3 harg3 arg9 harg9 arg10 harg10 x0 x1 xs0 xs1 hb k n]
  rfl

/-- The update gate of layer 0. -/
theorem l0_u (hb : BiasK xs1) (r : Fin 64) (n : Lane) :
    k0_pay26 (ldW0 arg4 harg4 x2) (patch0L arg2 harg2 arg3 harg3 arg9 harg9 arg10 harg10 x0 x1 xs0 xs1) (ix2 r n) = Ideal.logistic ((gatesK0 (maskK x0) (mat2 x2) (xK x1) (slab3 xs0 0)) ⟨64 + r.val, by have := r.isLt; omega⟩ n) := by
  rw [pay26_apply, l0_gates arg2 harg2 arg3 harg3 arg4 harg4 arg9 harg9 arg10 harg10 x0 x1 x2 xs0 xs1 hb]

/-- The state times the reset gate, layer 0. -/
theorem l0_hr (hb : BiasK xs1) (r : Fin 64) (n : Lane) :
    (k0_pay27 (k0_pay12 (ldIn arg3 harg3 x1) (ldH0 arg9 harg9 xs0)) (ldW0 arg4 harg4 x2) (patch0L arg2 harg2 arg3 harg3 arg9 harg9 arg10 harg10 x0 x1 xs0 xs1)) (ix2 r n) = (fun (j : Fin 64) (n : Lane) => slab3 xs0 0 j n * Ideal.logistic ((gatesK0 (maskK x0) (mat2 x2) (xK x1) (slab3 xs0 0)) ⟨j.val, by have := j.isLt; omega⟩ n)) r n := by
  rw [pay27_apply, stack0_apply, l0_gates arg2 harg2 arg3 harg3 arg4 harg4 arg9 harg9 arg10 harg10 x0 x1 x2 xs0 xs1 hb, stack32_state]

theorem l0_cpiece0 (hb : BiasK xs1) (j : Fin 64) (n : Lane) :
    k0_pay29 (k0_pay28 (k0_pay12 (ldIn arg3 harg3 x1) (ldH0 arg9 harg9 xs0)) (ldW0 arg4 harg4 x2) (patch0L arg2 harg2 arg3 harg3 arg9 harg9 arg10 harg10 x0 x1 xs0 xs1)) (ldM0 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 0 j n := by
  rw [pay29_apply, pay28_apply, l0_hr arg2 harg2 arg3 harg3 arg4 harg4 arg9 harg9 arg10 harg10 x0 x1 x2 xs0 xs1 hb, mrow0_apply]
  rfl

theorem l0_cpiece1 (hb : BiasK xs1) (j : Fin 64) (n : Lane) :
    k0_pay30 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM1 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 1 j n := by
  rw [pay30_apply, l0_hr arg2 harg2 arg3 harg3 arg4 harg4 arg9 harg9 arg10 harg10 x0 x1 x2 xs0 xs1 hb, mrow1_apply]
  rfl

theorem l0_cpiece2 (hb : BiasK xs1) (j : Fin 64) (n : Lane) :
    k0_pay31 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM2 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 2 j n := by
  rw [pay31_apply, l0_hr arg2 harg2 arg3 harg3 arg4 harg4 arg9 harg9 arg10 harg10 x0 x1 x2 xs0 xs1 hb, mrow2_apply]
  rfl

theorem l0_cpiece3 (hb : BiasK xs1) (j : Fin 64) (n : Lane) :
    k0_pay32 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM3 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 3 j n := by
  rw [pay32_apply, l0_hr arg2 harg2 arg3 harg3 arg4 harg4 arg9 harg9 arg10 harg10 x0 x1 x2 xs0 xs1 hb, mrow3_apply]
  rfl

theorem l0_cpiece4 (hb : BiasK xs1) (j : Fin 64) (n : Lane) :
    k0_pay34 (k0_pay33 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM4 arg2 harg2 x0)) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 4 j n := by
  rw [pay34_apply, pay33_apply, l0_hr arg2 harg2 arg3 harg3 arg4 harg4 arg9 harg9 arg10 harg10 x0 x1 x2 xs0 xs1 hb, mrow4_apply]
  unfold shift
  rw [show amt 4 = 0 from rfl, rotBy_zero]

theorem l0_cpiece5 (hb : BiasK xs1) (j : Fin 64) (n : Lane) :
    k0_pay35 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM5 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 5 j n := by
  rw [pay35_apply, l0_hr arg2 harg2 arg3 harg3 arg4 harg4 arg9 harg9 arg10 harg10 x0 x1 x2 xs0 xs1 hb, mrow5_apply]
  rfl

theorem l0_cpiece6 (hb : BiasK xs1) (j : Fin 64) (n : Lane) :
    k0_pay36 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM6 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 6 j n := by
  rw [pay36_apply, l0_hr arg2 harg2 arg3 harg3 arg4 harg4 arg9 harg9 arg10 harg10 x0 x1 x2 xs0 xs1 hb, mrow6_apply]
  rfl

theorem l0_cpiece7 (hb : BiasK xs1) (j : Fin 64) (n : Lane) :
    k0_pay37 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM7 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 7 j n := by
  rw [pay37_apply, l0_hr arg2 harg2 arg3 harg3 arg4 harg4 arg9 harg9 arg10 harg10 x0 x1 x2 xs0 xs1 hb, mrow7_apply]
  rfl

theorem l0_cpiece8 (hb : BiasK xs1) (j : Fin 64) (n : Lane) :
    k0_pay38 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM8 arg2 harg2 x0) (ix2 j n) = shift (maskK x0) (fun (j : Fin 64) (n : Lane) => slab3 xs0 0 j n * Ideal.logistic ((gatesK0 (maskK x0) (mat2 x2) (xK x1) (slab3 xs0 0)) ⟨j.val, by have := j.isLt; omega⟩ n)) 8 j n := by
  rw [pay38_apply, l0_hr arg2 harg2 arg3 harg3 arg4 harg4 arg9 harg9 arg10 harg10 x0 x1 x2 xs0 xs1 hb, mrow8_apply]
  rfl

end Layer0

/-- The recurrent patch scratch after layer 0's nine slab stores, as layer 0 loads it whole. -/
abbrev cand0L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16)
    (x0 : Vec Ideal S16x2304 .bf16) (x1 : Vec Ideal S1x1x4x32x576 .f32) (x2 : Vec Ideal S192x880 .bf16) (xs0 : Vec Ideal S2x64x2304 .f32) (xs1 : Vec Ideal S1168x2304 .bf16) :=
  arg11.view.readCov
    ([⟨Rect.unit (s := S576x2304) ![512, 0] S64x2304.size inb_S576x2304_S64x2304_512_0, k0_pay38 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM8 arg2 harg2 x0)⟩,
      ⟨Rect.unit (s := S576x2304) ![448, 0] S64x2304.size inb_S576x2304_S64x2304_448_0, k0_pay37 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM7 arg2 harg2 x0)⟩,
      ⟨Rect.unit (s := S576x2304) ![384, 0] S64x2304.size inb_S576x2304_S64x2304_384_0, k0_pay36 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM6 arg2 harg2 x0)⟩,
      ⟨Rect.unit (s := S576x2304) ![320, 0] S64x2304.size inb_S576x2304_S64x2304_320_0, k0_pay35 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM5 arg2 harg2 x0)⟩,
      ⟨Rect.unit (s := S576x2304) ![256, 0] S64x2304.size inb_S576x2304_S64x2304_256_0, k0_pay34 (k0_pay33 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM4 arg2 harg2 x0))⟩,
      ⟨Rect.unit (s := S576x2304) ![192, 0] S64x2304.size inb_S576x2304_S64x2304_192_0, k0_pay32 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM3 arg2 harg2 x0)⟩,
      ⟨Rect.unit (s := S576x2304) ![128, 0] S64x2304.size inb_S576x2304_S64x2304_128_0, k0_pay31 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM2 arg2 harg2 x0)⟩,
      ⟨Rect.unit (s := S576x2304) ![64, 0] S64x2304.size inb_S576x2304_S64x2304_64_0, k0_pay30 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM1 arg2 harg2 x0)⟩,
      ⟨Rect.unit (s := S576x2304) ![0, 0] S64x2304.size inb_S576x2304_S64x2304_0_0, k0_pay29 (k0_pay28 (k0_pay12 (ldIn arg3 harg3 x1) (ldH0 arg9 harg9 xs0)) (ldW0 arg4 harg4 x2) (patch0L arg2 harg2 arg3 harg3 arg9 harg9 arg10 harg10 x0 x1 xs0 xs1)) (ldM0 arg2 harg2 x0)⟩] : List (View.Piece (Elt Ideal) S576x2304 .bf16))
    (Rect.unit (s := S576x2304) ![0, 0] S576x2304.size inb_S576x2304_S576x2304_0_0).toLoadRect

section Layer0b

variable (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
  (x0 : Vec Ideal S16x2304 .bf16) (x1 : Vec Ideal S1x1x4x32x576 .f32) (x2 : Vec Ideal S192x880 .bf16) (x3 : Vec Ideal S192x1168 .bf16) (x4 : Vec Ideal S2x64x576 .bf16)
  (xs0 : Vec Ideal S2x64x2304 .f32) (xs1 : Vec Ideal S1168x2304 .bf16)

/-- The recurrent patch matrix of layer 0 as loaded. -/
theorem l0_cand (hb : BiasK xs1) (k : Fin 576) (n : Lane) :
    (cand0L arg2 harg2 arg3 harg3 arg4 harg4 arg9 harg9 arg10 harg10 arg11 x0 x1 x2 xs0 xs1) (ix2 k n) = patchC (maskK x0) (fun (j : Fin 64) (n : Lane) => slab3 xs0 0 j n * Ideal.logistic ((gatesK0 (maskK x0) (mat2 x2) (xK x1) (slab3 xs0 0)) ⟨j.val, by have := j.isLt; omega⟩ n)) k n := by
  have hk' : k = ⟨0 + 64 * (k.val / 64) + k.val % 64, by have := k.isLt; omega⟩ :=
    Fin.ext (show k.val = 0 + 64 * (k.val / 64) + k.val % 64 by omega)
  refine (congrArg (fun q => (cand0L arg2 harg2 arg3 harg3 arg4 harg4 arg9 harg9 arg10 harg10 arg11 x0 x1 x2 xs0 xs1) (ix2 q n)) hk').trans ?_
  refine (patchC_rows arg11.view _ _ _ _ _ _ _ _ _ _ _ _ _ _ _ _ _ _ _ _
    ⟨k.val / 64, by have := k.isLt; omega⟩ ⟨k.val % 64, Nat.mod_lt _ (by decide)⟩ n).trans ?_
  exact sel9_at _ _ _ _ _ _ _ _ _ (fun t j n => shift (maskK x0) (fun (j : Fin 64) (n : Lane) => slab3 xs0 0 j n * Ideal.logistic ((gatesK0 (maskK x0) (mat2 x2) (xK x1) (slab3 xs0 0)) ⟨j.val, by have := j.isLt; omega⟩ n)) t j n)
    (l0_cpiece0 arg2 harg2 arg3 harg3 arg4 harg4 arg9 harg9 arg10 harg10 x0 x1 x2 xs0 xs1 hb)
    (l0_cpiece1 arg2 harg2 arg3 harg3 arg4 harg4 arg9 harg9 arg10 harg10 x0 x1 x2 xs0 xs1 hb)
    (l0_cpiece2 arg2 harg2 arg3 harg3 arg4 harg4 arg9 harg9 arg10 harg10 x0 x1 x2 xs0 xs1 hb)
    (l0_cpiece3 arg2 harg2 arg3 harg3 arg4 harg4 arg9 harg9 arg10 harg10 x0 x1 x2 xs0 xs1 hb)
    (l0_cpiece4 arg2 harg2 arg3 harg3 arg4 harg4 arg9 harg9 arg10 harg10 x0 x1 x2 xs0 xs1 hb)
    (l0_cpiece5 arg2 harg2 arg3 harg3 arg4 harg4 arg9 harg9 arg10 harg10 x0 x1 x2 xs0 xs1 hb)
    (l0_cpiece6 arg2 harg2 arg3 harg3 arg4 harg4 arg9 harg9 arg10 harg10 x0 x1 x2 xs0 xs1 hb)
    (l0_cpiece7 arg2 harg2 arg3 harg3 arg4 harg4 arg9 harg9 arg10 harg10 x0 x1 x2 xs0 xs1 hb)
    (l0_cpiece8 arg2 harg2 arg3 harg3 arg4 harg4 arg9 harg9 arg10 harg10 x0 x1 x2 xs0 xs1 hb) _ _ n

/-- Layer 0's new state is the specification's first layer. -/
theorem l0_step (hb : BiasK xs1) (ch : Fin 64) (n : Lane) :
    k0_pay39 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ix2 ch n)
      = stepK0 (maskK x0) (mat2 x2) (slab3 x4 0) (xK x1) (slab3 xs0 0) ch n := by
  have e1 : k0_pay11 (ldH0 arg9 harg9 xs0) (ix2 ch n) = slab3 xs0 0 ch n :=
    (pay11_apply _ ch n).trans (ld90_apply arg9 harg9 xs0 ch n)
  have e2 := l0_u arg2 harg2 arg3 harg3 arg4 harg4 arg9 harg9 arg10 harg10 x0 x1 x2 xs0 xs1 hb ch n
  have e3 := l0_gates arg2 harg2 arg3 harg3 arg4 harg4 arg9 harg9 arg10 harg10 x0 x1 x2 xs0 xs1 hb ⟨128 + ch.val, by have := ch.isLt; omega⟩ n
  have e4 : (∑ k : Fin 576, k0_pay13 (ldR0 arg6 harg6 x4) (ix2 ch k) * (cand0L arg2 harg2 arg3 harg3 arg4 harg4 arg9 harg9 arg10 harg10 arg11 x0 x1 x2 xs0 xs1) (ix2 k n))
      = candSum (maskK x0) (slab3 x4 0) (fun (j : Fin 64) (n : Lane) => slab3 xs0 0 j n * Ideal.logistic ((gatesK0 (maskK x0) (mat2 x2) (xK x1) (slab3 xs0 0)) ⟨j.val, by have := j.isLt; omega⟩ n)) ch n := by
    unfold candSum
    refine Finset.sum_congr rfl fun k _ => ?_
    rw [pay13_apply, ld60_apply, l0_cand arg2 harg2 arg3 harg3 arg4 harg4 arg9 harg9 arg10 harg10 arg11 x0 x1 x2 xs0 xs1 hb k n]
  rw [pay39_apply, e1, e2, e3, e4]
  rfl

end Layer0b

/-- The patch-matrix scratch after layer 1's nine slab stores (over layer 0's). -/
abbrev patch1W (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg6 : Memref sig .tc .vmem S2x64x576 .bf16) (harg6 : arg6.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16)
    (x0 : Vec Ideal S16x2304 .bf16) (x1 : Vec Ideal S1x1x4x32x576 .f32) (x2 : Vec Ideal S192x880 .bf16) (x4 : Vec Ideal S2x64x576 .bf16) (xs0 : Vec Ideal S2x64x2304 .f32) (xs1 : Vec Ideal S1168x2304 .bf16) :=
  arg10.view.writes (Elt Ideal) (harg10.unread xs1)
    ((⟨Rect.unit (s := S1168x2304) ![1040, 0] S128x2304.size inb_S1168x2304_S128x2304_1040_0, k0_pay54 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM8 arg2 harg2 x0)⟩ ::
      ⟨Rect.unit (s := S1168x2304) ![912, 0] S128x2304.size inb_S1168x2304_S128x2304_912_0, k0_pay53 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM7 arg2 harg2 x0)⟩ ::
      ⟨Rect.unit (s := S1168x2304) ![784, 0] S128x2304.size inb_S1168x2304_S128x2304_784_0, k0_pay52 (k0_pay50 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0))) (k0_pay51 (ldM6 arg2 harg2 x0))⟩ ::
      ⟨Rect.unit (s := S1168x2304) ![656, 0] S128x2304.size inb_S1168x2304_S128x2304_656_0, k0_pay49 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM5 arg2 harg2 x0)⟩ ::
      ⟨Rect.unit (s := S1168x2304) ![528, 0] S128x2304.size inb_S1168x2304_S128x2304_528_0, k0_pay48 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM4 arg2 harg2 x0)⟩ ::
      ⟨Rect.unit (s := S1168x2304) ![400, 0] S128x2304.size inb_S1168x2304_S128x2304_400_0, k0_pay47 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM3 arg2 harg2 x0)⟩ ::
      ⟨Rect.unit (s := S1168x2304) ![272, 0] S128x2304.size inb_S1168x2304_S128x2304_272_0, k0_pay46 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM2 arg2 harg2 x0)⟩ ::
      ⟨Rect.unit (s := S1168x2304) ![144, 0] S128x2304.size inb_S1168x2304_S128x2304_144_0, k0_pay45 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0) (ldM1 arg2 harg2 x0)⟩ ::
      ⟨Rect.unit (s := S1168x2304) ![16, 0] S128x2304.size inb_S1168x2304_S128x2304_16_0, k0_pay44 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0) (ldM0 arg2 harg2 x0)⟩ ::
      [⟨Rect.unit (s := S1168x2304) ![784, 0] S96x2304.size inb_S1168x2304_S96x2304_784_0, k0_pay23 (k0_pay12 (ldIn arg3 harg3 x1) (ldH0 arg9 harg9 xs0)) (ldM8 arg2 harg2 x0)⟩,
      ⟨Rect.unit (s := S1168x2304) ![688, 0] S96x2304.size inb_S1168x2304_S96x2304_688_0, k0_pay22 (k0_pay12 (ldIn arg3 harg3 x1) (ldH0 arg9 harg9 xs0)) (ldM7 arg2 harg2 x0)⟩,
      ⟨Rect.unit (s := S1168x2304) ![592, 0] S96x2304.size inb_S1168x2304_S96x2304_592_0, k0_pay21 (k0_pay12 (ldIn arg3 harg3 x1) (ldH0 arg9 harg9 xs0)) (2281#32) (ldM6 arg2 harg2 x0)⟩,
      ⟨Rect.unit (s := S1168x2304) ![496, 0] S96x2304.size inb_S1168x2304_S96x2304_496_0, k0_pay20 (k0_pay12 (ldIn arg3 harg3 x1) (ldH0 arg9 harg9 xs0)) (ldM5 arg2 harg2 x0)⟩,
      ⟨Rect.unit (s := S1168x2304) ![400, 0] S96x2304.size inb_S1168x2304_S96x2304_400_0, k0_pay19 (k0_pay12 (ldIn arg3 harg3 x1) (ldH0 arg9 harg9 xs0)) (ldM4 arg2 harg2 x0)⟩,
      ⟨Rect.unit (s := S1168x2304) ![304, 0] S96x2304.size inb_S1168x2304_S96x2304_304_0, k0_pay18 (k0_pay12 (ldIn arg3 harg3 x1) (ldH0 arg9 harg9 xs0)) (ldM3 arg2 harg2 x0)⟩,
      ⟨Rect.unit (s := S1168x2304) ![208, 0] S96x2304.size inb_S1168x2304_S96x2304_208_0, k0_pay17 (k0_pay12 (ldIn arg3 harg3 x1) (ldH0 arg9 harg9 xs0)) (ldM2 arg2 harg2 x0)⟩,
      ⟨Rect.unit (s := S1168x2304) ![112, 0] S96x2304.size inb_S1168x2304_S96x2304_112_0, k0_pay16 (k0_pay15 (ldIn arg3 harg3 x1) (ldH0 arg9 harg9 xs0) (ldM1 arg2 harg2 x0))⟩,
      ⟨Rect.unit (s := S1168x2304) ![16, 0] S96x2304.size inb_S1168x2304_S96x2304_16_0, k0_pay14 (ldIn arg3 harg3 x1) (ldH0 arg9 harg9 xs0) (ldM0 arg2 harg2 x0)⟩]) : List (View.Piece (Elt Ideal) S1168x2304 .bf16))

/-- All of it as layer 1 loads it. -/
abbrev patch1L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg6 : Memref sig .tc .vmem S2x64x576 .bf16) (harg6 : arg6.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16)
    (x0 : Vec Ideal S16x2304 .bf16) (x1 : Vec Ideal S1x1x4x32x576 .f32) (x2 : Vec Ideal S192x880 .bf16) (x4 : Vec Ideal S2x64x576 .bf16) (xs0 : Vec Ideal S2x64x2304 .f32) (xs1 : Vec Ideal S1168x2304 .bf16) :=
  View.readAt (Elt Ideal) arg10.view (Rect.unit (s := S1168x2304) ![0, 0] S1168x2304.size inb_S1168x2304_S1168x2304_0_0).toLoadRect
    (patch1W arg2 harg2 arg3 harg3 arg4 harg4 arg6 harg6 arg9 harg9 arg10 harg10 arg11 x0 x1 x2 x4 xs0 xs1)

section Layer1

variable (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
  (x0 : Vec Ideal S16x2304 .bf16) (x1 : Vec Ideal S1x1x4x32x576 .f32) (x2 : Vec Ideal S192x880 .bf16) (x3 : Vec Ideal S192x1168 .bf16) (x4 : Vec Ideal S2x64x576 .bf16)
  (xs0 : Vec Ideal S2x64x2304 .f32) (xs1 : Vec Ideal S1168x2304 .bf16)

theorem stack64_lo (a h : Fin 64 → Lane → EReal) (r : Fin 128) (hr : r.val < 64) (n : Lane) :
    stack64 a h r n = a ⟨r.val, hr⟩ n := by
  unfold stack64; rw [dif_pos hr]

theorem stack64_state (a h : Fin 64 → Lane → EReal) (r : Fin 64) (n : Lane) :
    stack64 a h ⟨64 + r.val, by have := r.isLt; omega⟩ n = h r n := by
  unfold stack64
  rw [dif_neg (show ¬(64 + r.val < 64) by omega)]
  exact congrArg (fun q => h q n) (Fin.ext (show 64 + r.val - 64 = r.val by omega))

/-- Layer 1's stack: layer 0's new state over layer 1's state. -/
theorem l1_stack (hb : BiasK xs1) (r : Fin 128) (n : Lane) :
    (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ix2 r n) = (stack64 (stepK0 (maskK x0) (mat2 x2) (slab3 x4 0) (xK x1) (slab3 xs0 0)) (slab3 xs0 1)) r n := by
  rw [pay42_apply]
  exact congrArg₂ (fun a h => stack64 a h r n)
    (funext fun j => funext fun n => l0_step arg2 harg2 arg3 harg3 arg4 harg4 arg6 harg6 arg9 harg9 arg10 harg10 arg11 x0 x1 x2 x4 xs0 xs1 hb j n)
    (funext fun j => funext fun n => ld91_apply arg9 harg9 xs0 j n)

theorem l1_piece0 (hb : BiasK xs1) (j : Fin 128) (n : Lane) :
    k0_pay44 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0) (ldM0 arg2 harg2 x0) (ix2 j n) = shift (maskK x0) (stack64 (stepK0 (maskK x0) (mat2 x2) (slab3 x4 0) (xK x1) (slab3 xs0 0)) (slab3 xs0 1)) 0 j n := by
  rw [pay44_apply, l1_stack arg2 harg2 arg3 harg3 arg4 harg4 arg6 harg6 arg9 harg9 arg10 harg10 arg11 x0 x1 x2 x4 xs0 xs1 hb, mrow0_apply]
  rfl

theorem l1_piece1 (hb : BiasK xs1) (j : Fin 128) (n : Lane) :
    k0_pay45 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0) (ldM1 arg2 harg2 x0) (ix2 j n) = shift (maskK x0) (stack64 (stepK0 (maskK x0) (mat2 x2) (slab3 x4 0) (xK x1) (slab3 xs0 0)) (slab3 xs0 1)) 1 j n := by
  rw [pay45_apply, l1_stack arg2 harg2 arg3 harg3 arg4 harg4 arg6 harg6 arg9 harg9 arg10 harg10 arg11 x0 x1 x2 x4 xs0 xs1 hb, mrow1_apply]
  rfl

theorem l1_piece2 (hb : BiasK xs1) (j : Fin 128) (n : Lane) :
    k0_pay46 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM2 arg2 harg2 x0) (ix2 j n) = shift (maskK x0) (stack64 (stepK0 (maskK x0) (mat2 x2) (slab3 x4 0) (xK x1) (slab3 xs0 0)) (slab3 xs0 1)) 2 j n := by
  rw [pay46_apply, l1_stack arg2 harg2 arg3 harg3 arg4 harg4 arg6 harg6 arg9 harg9 arg10 harg10 arg11 x0 x1 x2 x4 xs0 xs1 hb, mrow2_apply]
  rfl

theorem l1_piece3 (hb : BiasK xs1) (j : Fin 128) (n : Lane) :
    k0_pay47 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM3 arg2 harg2 x0) (ix2 j n) = shift (maskK x0) (stack64 (stepK0 (maskK x0) (mat2 x2) (slab3 x4 0) (xK x1) (slab3 xs0 0)) (slab3 xs0 1)) 3 j n := by
  rw [pay47_apply, l1_stack arg2 harg2 arg3 harg3 arg4 harg4 arg6 harg6 arg9 harg9 arg10 harg10 arg11 x0 x1 x2 x4 xs0 xs1 hb, mrow3_apply]
  rfl

theorem l1_piece4 (hb : BiasK xs1) (j : Fin 128) (n : Lane) :
    k0_pay48 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM4 arg2 harg2 x0) (ix2 j n) = shift (maskK x0) (stack64 (stepK0 (maskK x0) (mat2 x2) (slab3 x4 0) (xK x1) (slab3 xs0 0)) (slab3 xs0 1)) 4 j n := by
  rw [pay48_apply, l1_stack arg2 harg2 arg3 harg3 arg4 harg4 arg6 harg6 arg9 harg9 arg10 harg10 arg11 x0 x1 x2 x4 xs0 xs1 hb, mrow4_apply]
  unfold shift
  rw [show amt 4 = 0 from rfl, rotBy_zero]

theorem l1_piece5 (hb : BiasK xs1) (j : Fin 128) (n : Lane) :
    k0_pay49 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM5 arg2 harg2 x0) (ix2 j n) = shift (maskK x0) (stack64 (stepK0 (maskK x0) (mat2 x2) (slab3 x4 0) (xK x1) (slab3 xs0 0)) (slab3 xs0 1)) 5 j n := by
  rw [pay49_apply, l1_stack arg2 harg2 arg3 harg3 arg4 harg4 arg6 harg6 arg9 harg9 arg10 harg10 arg11 x0 x1 x2 x4 xs0 xs1 hb, mrow5_apply]
  rfl

theorem l1_piece6 (hb : BiasK xs1) (j : Fin 128) (n : Lane) :
    k0_pay52 (k0_pay50 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0))) (k0_pay51 (ldM6 arg2 harg2 x0)) (ix2 j n) = shift (maskK x0) (stack64 (stepK0 (maskK x0) (mat2 x2) (slab3 x4 0) (xK x1) (slab3 xs0 0)) (slab3 xs0 1)) 6 j n := by
  rw [pay52_apply, pay50_apply, pay51_eq, l1_stack arg2 harg2 arg3 harg3 arg4 harg4 arg6 harg6 arg9 harg9 arg10 harg10 arg11 x0 x1 x2 x4 xs0 xs1 hb, mrow6_apply]
  rfl

theorem l1_piece7 (hb : BiasK xs1) (j : Fin 128) (n : Lane) :
    k0_pay53 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM7 arg2 harg2 x0) (ix2 j n) = shift (maskK x0) (stack64 (stepK0 (maskK x0) (mat2 x2) (slab3 x4 0) (xK x1) (slab3 xs0 0)) (slab3 xs0 1)) 7 j n := by
  rw [pay53_apply, l1_stack arg2 harg2 arg3 harg3 arg4 harg4 arg6 harg6 arg9 harg9 arg10 harg10 arg11 x0 x1 x2 x4 xs0 xs1 hb, mrow7_apply]
  rfl

theorem l1_piece8 (hb : BiasK xs1) (j : Fin 128) (n : Lane) :
    k0_pay54 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldM8 arg2 harg2 x0) (ix2 j n) = shift (maskK x0) (stack64 (stepK0 (maskK x0) (mat2 x2) (slab3 x4 0) (xK x1) (slab3 xs0 0)) (slab3 xs0 1)) 8 j n := by
  rw [pay54_apply, l1_stack arg2 harg2 arg3 harg3 arg4 harg4 arg6 harg6 arg9 harg9 arg10 harg10 arg11 x0 x1 x2 x4 xs0 xs1 hb, mrow8_apply]
  rfl

/-- The second layer's patch matrix as loaded. -/
theorem l1_patch (hb : BiasK xs1) (k : Fin 1168) (n : Lane) :
    (patch1L arg2 harg2 arg3 harg3 arg4 harg4 arg6 harg6 arg9 harg9 arg10 harg10 arg11 x0 x1 x2 x4 xs0 xs1) (ix2 k n) = patchK1 (maskK x0) (stepK0 (maskK x0) (mat2 x2) (slab3 x4 0) (xK x1) (slab3 xs0 0)) (slab3 xs0 1) k n := by
  have hidx : (Rect.unit (s := S1168x2304) ![0, 0] S1168x2304.size inb_S1168x2304_S1168x2304_0_0).toLoadRect.idx (ix2 k n)
      = (ix2 k n : S1168x2304.Idx) :=
    unit_idx_eq (s := S1168x2304) ![0, 0] S1168x2304.size _ (ix2 k n) (ix2 k n) (fun a => match a with | ⟨0, _⟩ => (Nat.zero_add _).symm | ⟨1, _⟩ => (Nat.zero_add _).symm)
  unfold patchK1
  by_cases hk : k.val < 16
  · have hlow : (patch1L arg2 harg2 arg3 harg3 arg4 harg4 arg6 harg6 arg9 harg9 arg10 harg10 arg11 x0 x1 x2 x4 xs0 xs1) (ix2 k n) = xs1 (ix2 k n) := by
      show arg10.view.read (Elt Ideal) (patch1W arg2 harg2 arg3 harg3 arg4 harg4 arg6 harg6 arg9 harg9 arg10 harg10 arg11 x0 x1 x2 x4 xs0 xs1) _ = _
      rw [hidx]
      refine (patch1_low arg10.view (harg10.unread xs1) _ _ _ _ _ _ _ _ _ _ _ _ _ _ _ _ _ _ _ ⟨k.val, hk⟩ n).trans ?_
      refine (patch0_low arg10.view (harg10.unread xs1) _ _ _ _ _ _ _ _ _ _ _ _ _ _ _ _ _ _ ⟨k.val, hk⟩ n).trans ?_
      exact congrFun (harg10.read_unread xs1) _
    rw [hlow]
    by_cases h0 : k.val = 0
    · rw [if_pos h0]
      have e : k = ⟨0, by decide⟩ := Fin.ext h0
      rw [e]; exact (hb n).1
    · rw [if_neg h0, dif_pos hk]
      exact (hb n).2 k (Nat.pos_of_ne_zero h0) hk
  · rw [if_neg (show ¬(k.val = 0) by omega), dif_neg hk]
    have hk' : k = ⟨16 + 128 * ((k.val - 16) / 128) + (k.val - 16) % 128, by have := k.isLt; omega⟩ :=
      Fin.ext (show k.val = 16 + 128 * ((k.val - 16) / 128) + (k.val - 16) % 128 by omega)
    refine (congrArg (fun q => (patch1L arg2 harg2 arg3 harg3 arg4 harg4 arg6 harg6 arg9 harg9 arg10 harg10 arg11 x0 x1 x2 x4 xs0 xs1) (ix2 q n)) hk').trans ?_
    refine (patch1_rows arg10.view (harg10.unread xs1) _ _ _ _ _ _ _ _ _ _ _ _ _ _ _ _ _ _ _ _
      ⟨(k.val - 16) / 128, by have := k.isLt; omega⟩ ⟨(k.val - 16) % 128, Nat.mod_lt _ (by decide)⟩ n).trans ?_
    refine (sel9_at _ _ _ _ _ _ _ _ _ (fun t j n => shift (maskK x0) (stack64 (stepK0 (maskK x0) (mat2 x2) (slab3 x4 0) (xK x1) (slab3 xs0 0)) (slab3 xs0 1)) t j n)
      (l1_piece0 arg2 harg2 arg3 harg3 arg4 harg4 arg6 harg6 arg9 harg9 arg10 harg10 arg11 x0 x1 x2 x4 xs0 xs1 hb) (l1_piece1 arg2 harg2 arg3 harg3 arg4 harg4 arg6 harg6 arg9 harg9 arg10 harg10 arg11 x0 x1 x2 x4 xs0 xs1 hb) (l1_piece2 arg2 harg2 arg3 harg3 arg4 harg4 arg6 harg6 arg9 harg9 arg10 harg10 arg11 x0 x1 x2 x4 xs0 xs1 hb) (l1_piece3 arg2 harg2 arg3 harg3 arg4 harg4 arg6 harg6 arg9 harg9 arg10 harg10 arg11 x0 x1 x2 x4 xs0 xs1 hb) (l1_piece4 arg2 harg2 arg3 harg3 arg4 harg4 arg6 harg6 arg9 harg9 arg10 harg10 arg11 x0 x1 x2 x4 xs0 xs1 hb) (l1_piece5 arg2 harg2 arg3 harg3 arg4 harg4 arg6 harg6 arg9 harg9 arg10 harg10 arg11 x0 x1 x2 x4 xs0 xs1 hb) (l1_piece6 arg2 harg2 arg3 harg3 arg4 harg4 arg6 harg6 arg9 harg9 arg10 harg10 arg11 x0 x1 x2 x4 xs0 xs1 hb) (l1_piece7 arg2 harg2 arg3 harg3 arg4 harg4 arg6 harg6 arg9 harg9 arg10 harg10 arg11 x0 x1 x2 x4 xs0 xs1 hb) (l1_piece8 arg2 harg2 arg3 harg3 arg4 harg4 arg6 harg6 arg9 harg9 arg10 harg10 arg11 x0 x1 x2 x4 xs0 xs1 hb) _ _ n).trans ?_
    exact shift_stack64 (maskK x0) (stepK0 (maskK x0) (mat2 x2) (slab3 x4 0) (xK x1) (slab3 xs0 0)) (slab3 xs0 1) _ _ n

/-- The patch scratch keeps its bias rows through the step. -/
theorem l1_bias (hb : BiasK xs1) : BiasK (arg10.view.read (Elt Ideal) (patch1W arg2 harg2 arg3 harg3 arg4 harg4 arg6 harg6 arg9 harg9 arg10 harg10 arg11 x0 x1 x2 x4 xs0 xs1)) := by
  intro n
  have low : ∀ (k : Fin 1168) (hk : k.val < 16), arg10.view.read (Elt Ideal) (patch1W arg2 harg2 arg3 harg3 arg4 harg4 arg6 harg6 arg9 harg9 arg10 harg10 arg11 x0 x1 x2 x4 xs0 xs1) (ix2 k n) = xs1 (ix2 k n) := by
    intro k hk
    refine (patch1_low arg10.view (harg10.unread xs1) _ _ _ _ _ _ _ _ _ _ _ _ _ _ _ _ _ _ _ ⟨k.val, hk⟩ n).trans ?_
    refine (patch0_low arg10.view (harg10.unread xs1) _ _ _ _ _ _ _ _ _ _ _ _ _ _ _ _ _ _ ⟨k.val, hk⟩ n).trans ?_
    exact congrFun (harg10.read_unread xs1) _
  refine ⟨(low ⟨0, by decide⟩ (by decide)).trans (hb n).1, fun k h1 h2 => (low k h2).trans ((hb n).2 k h1 h2)⟩

/-- The gate pre-activations of layer 1. -/
theorem l1_gates (hb : BiasK xs1) (r : Fin 192) (n : Lane) :
    (k0_pay55 (ldW1 arg5 harg5 x3) (patch1L arg2 harg2 arg3 harg3 arg4 harg4 arg6 harg6 arg9 harg9 arg10 harg10 arg11 x0 x1 x2 x4 xs0 xs1)) (ix2 r n) = (gatesK1 (maskK x0) (mat2 x3) (stepK0 (maskK x0) (mat2 x2) (slab3 x4 0) (xK x1) (slab3 xs0 0)) (slab3 xs0 1)) r n := by
  rw [pay55_apply, ld5_eq]
  unfold gatesK1
  refine Finset.sum_congr rfl fun k _ => ?_
  rw [l1_patch arg2 harg2 arg3 harg3 arg4 harg4 arg6 harg6 arg9 harg9 arg10 harg10 arg11 x0 x1 x2 x4 xs0 xs1 hb k n]
  rfl

theorem l1_u (hb : BiasK xs1) (r : Fin 64) (n : Lane) :
    k0_pay57 (ldW1 arg5 harg5 x3) (patch1L arg2 harg2 arg3 harg3 arg4 harg4 arg6 harg6 arg9 harg9 arg10 harg10 arg11 x0 x1 x2 x4 xs0 xs1) (ix2 r n) = Ideal.logistic ((gatesK1 (maskK x0) (mat2 x3) (stepK0 (maskK x0) (mat2 x2) (slab3 x4 0) (xK x1) (slab3 xs0 0)) (slab3 xs0 1)) ⟨64 + r.val, by have := r.isLt; omega⟩ n) := by
  rw [pay57_apply, l1_gates arg2 harg2 arg3 harg3 arg4 harg4 arg5 harg5 arg6 harg6 arg9 harg9 arg10 harg10 arg11 x0 x1 x2 x3 x4 xs0 xs1 hb]

theorem l1_hr (hb : BiasK xs1) (r : Fin 64) (n : Lane) :
    (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ix2 r n) = (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) r n := by
  rw [pay58_apply, l1_stack arg2 harg2 arg3 harg3 arg4 harg4 arg6 harg6 arg9 harg9 arg10 harg10 arg11 x0 x1 x2 x4 xs0 xs1 hb, l1_gates arg2 harg2 arg3 harg3 arg4 harg4 arg5 harg5 arg6 harg6 arg9 harg9 arg10 harg10 arg11 x0 x1 x2 x3 x4 xs0 xs1 hb, stack64_state]

theorem l1_cpiece0 (hb : BiasK xs1) (j : Fin 64) (n : Lane) :
    k0_pay60 (k0_pay59 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1) (ldM0 arg2 harg2 x0)) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 0 j n := by
  rw [pay60_apply, pay59_apply, l1_hr arg2 harg2 arg3 harg3 arg4 harg4 arg5 harg5 arg6 harg6 arg9 harg9 arg10 harg10 arg11 x0 x1 x2 x3 x4 xs0 xs1 hb, mrow0_apply]
  rfl

theorem l1_cpiece1 (hb : BiasK xs1) (j : Fin 64) (n : Lane) :
    k0_pay61 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM1 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 1 j n := by
  rw [pay61_apply, l1_hr arg2 harg2 arg3 harg3 arg4 harg4 arg5 harg5 arg6 harg6 arg9 harg9 arg10 harg10 arg11 x0 x1 x2 x3 x4 xs0 xs1 hb, mrow1_apply]
  rfl

theorem l1_cpiece2 (hb : BiasK xs1) (j : Fin 64) (n : Lane) :
    k0_pay62 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM2 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 2 j n := by
  rw [pay62_apply, l1_hr arg2 harg2 arg3 harg3 arg4 harg4 arg5 harg5 arg6 harg6 arg9 harg9 arg10 harg10 arg11 x0 x1 x2 x3 x4 xs0 xs1 hb, mrow2_apply]
  rfl

theorem l1_cpiece3 (hb : BiasK xs1) (j : Fin 64) (n : Lane) :
    k0_pay63 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM3 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 3 j n := by
  rw [pay63_apply, l1_hr arg2 harg2 arg3 harg3 arg4 harg4 arg5 harg5 arg6 harg6 arg9 harg9 arg10 harg10 arg11 x0 x1 x2 x3 x4 xs0 xs1 hb, mrow3_apply]
  rfl

theorem l1_cpiece4 (hb : BiasK xs1) (j : Fin 64) (n : Lane) :
    k0_pay64 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM4 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 4 j n := by
  rw [pay64_apply, l1_hr arg2 harg2 arg3 harg3 arg4 harg4 arg5 harg5 arg6 harg6 arg9 harg9 arg10 harg10 arg11 x0 x1 x2 x3 x4 xs0 xs1 hb, mrow4_apply]
  unfold shift
  rw [show amt 4 = 0 from rfl, rotBy_zero]

theorem l1_cpiece5 (hb : BiasK xs1) (j : Fin 64) (n : Lane) :
    k0_pay65 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM5 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 5 j n := by
  rw [pay65_apply, l1_hr arg2 harg2 arg3 harg3 arg4 harg4 arg5 harg5 arg6 harg6 arg9 harg9 arg10 harg10 arg11 x0 x1 x2 x3 x4 xs0 xs1 hb, mrow5_apply]
  rfl

theorem l1_cpiece6 (hb : BiasK xs1) (j : Fin 64) (n : Lane) :
    k0_pay66 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM6 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 6 j n := by
  rw [pay66_apply, l1_hr arg2 harg2 arg3 harg3 arg4 harg4 arg5 harg5 arg6 harg6 arg9 harg9 arg10 harg10 arg11 x0 x1 x2 x3 x4 xs0 xs1 hb, mrow6_apply]
  rfl

theorem l1_cpiece7 (hb : BiasK xs1) (j : Fin 64) (n : Lane) :
    k0_pay67 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM7 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 7 j n := by
  rw [pay67_apply, l1_hr arg2 harg2 arg3 harg3 arg4 harg4 arg5 harg5 arg6 harg6 arg9 harg9 arg10 harg10 arg11 x0 x1 x2 x3 x4 xs0 xs1 hb, mrow7_apply]
  rfl

theorem l1_cpiece8 (hb : BiasK xs1) (j : Fin 64) (n : Lane) :
    k0_pay68 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM8 arg2 harg2 x0) (ix2 j n) = shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) 8 j n := by
  rw [pay68_apply, l1_hr arg2 harg2 arg3 harg3 arg4 harg4 arg5 harg5 arg6 harg6 arg9 harg9 arg10 harg10 arg11 x0 x1 x2 x3 x4 xs0 xs1 hb, mrow8_apply]
  rfl

end Layer1

/-- The recurrent patch scratch after layer 1's nine slab stores, as layer 1 loads it whole. -/
abbrev cand1L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16)
    (x0 : Vec Ideal S16x2304 .bf16) (x1 : Vec Ideal S1x1x4x32x576 .f32) (x2 : Vec Ideal S192x880 .bf16) (x3 : Vec Ideal S192x1168 .bf16) (x4 : Vec Ideal S2x64x576 .bf16) (xs0 : Vec Ideal S2x64x2304 .f32) (xs1 : Vec Ideal S1168x2304 .bf16) :=
  arg11.view.readCov
    ((⟨Rect.unit (s := S576x2304) ![512, 0] S64x2304.size inb_S576x2304_S64x2304_512_0, k0_pay68 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM8 arg2 harg2 x0)⟩ ::
      ⟨Rect.unit (s := S576x2304) ![448, 0] S64x2304.size inb_S576x2304_S64x2304_448_0, k0_pay67 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM7 arg2 harg2 x0)⟩ ::
      ⟨Rect.unit (s := S576x2304) ![384, 0] S64x2304.size inb_S576x2304_S64x2304_384_0, k0_pay66 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM6 arg2 harg2 x0)⟩ ::
      ⟨Rect.unit (s := S576x2304) ![320, 0] S64x2304.size inb_S576x2304_S64x2304_320_0, k0_pay65 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM5 arg2 harg2 x0)⟩ ::
      ⟨Rect.unit (s := S576x2304) ![256, 0] S64x2304.size inb_S576x2304_S64x2304_256_0, k0_pay64 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM4 arg2 harg2 x0)⟩ ::
      ⟨Rect.unit (s := S576x2304) ![192, 0] S64x2304.size inb_S576x2304_S64x2304_192_0, k0_pay63 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM3 arg2 harg2 x0)⟩ ::
      ⟨Rect.unit (s := S576x2304) ![128, 0] S64x2304.size inb_S576x2304_S64x2304_128_0, k0_pay62 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM2 arg2 harg2 x0)⟩ ::
      ⟨Rect.unit (s := S576x2304) ![64, 0] S64x2304.size inb_S576x2304_S64x2304_64_0, k0_pay61 (k0_pay58 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1)) (ldM1 arg2 harg2 x0)⟩ ::
      ⟨Rect.unit (s := S576x2304) ![0, 0] S64x2304.size inb_S576x2304_S64x2304_0_0, k0_pay60 (k0_pay59 (k0_pay42 (k0_pay11 (ldH0 arg9 harg9 xs0)) (k0_pay13 (ldR0 arg6 harg6 x4)) (k0_pay24 (ldW0 arg4 harg4 x2) (patch0L arg2 harg2 arg3 harg3 arg9 harg9 arg10 harg10 x0 x1 xs0 xs1)) (k0_pay26 (ldW0 arg4 harg4 x2) (patch0L arg2 harg2 arg3 harg3 arg9 harg9 arg10 harg10 x0 x1 xs0 xs1)) (cand0L arg2 harg2 arg3 harg3 arg4 harg4 arg9 harg9 arg10 harg10 arg11 x0 x1 x2 xs0 xs1) (ldH1 arg9 harg9 xs0)) (ldW1 arg5 harg5 x3) (patch1L arg2 harg2 arg3 harg3 arg4 harg4 arg6 harg6 arg9 harg9 arg10 harg10 arg11 x0 x1 x2 x4 xs0 xs1) (ldM0 arg2 harg2 x0))⟩ ::
      [⟨Rect.unit (s := S576x2304) ![512, 0] S64x2304.size inb_S576x2304_S64x2304_512_0, k0_pay38 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM8 arg2 harg2 x0)⟩,
      ⟨Rect.unit (s := S576x2304) ![448, 0] S64x2304.size inb_S576x2304_S64x2304_448_0, k0_pay37 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM7 arg2 harg2 x0)⟩,
      ⟨Rect.unit (s := S576x2304) ![384, 0] S64x2304.size inb_S576x2304_S64x2304_384_0, k0_pay36 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM6 arg2 harg2 x0)⟩,
      ⟨Rect.unit (s := S576x2304) ![320, 0] S64x2304.size inb_S576x2304_S64x2304_320_0, k0_pay35 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM5 arg2 harg2 x0)⟩,
      ⟨Rect.unit (s := S576x2304) ![256, 0] S64x2304.size inb_S576x2304_S64x2304_256_0, k0_pay34 (k0_pay33 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM4 arg2 harg2 x0))⟩,
      ⟨Rect.unit (s := S576x2304) ![192, 0] S64x2304.size inb_S576x2304_S64x2304_192_0, k0_pay32 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM3 arg2 harg2 x0)⟩,
      ⟨Rect.unit (s := S576x2304) ![128, 0] S64x2304.size inb_S576x2304_S64x2304_128_0, k0_pay31 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM2 arg2 harg2 x0)⟩,
      ⟨Rect.unit (s := S576x2304) ![64, 0] S64x2304.size inb_S576x2304_S64x2304_64_0, k0_pay30 (k0_pay27 (k0_pay12 (ldIn arg3 harg3 x1) (ldH0 arg9 harg9 xs0)) (ldW0 arg4 harg4 x2) (patch0L arg2 harg2 arg3 harg3 arg9 harg9 arg10 harg10 x0 x1 xs0 xs1)) (ldM1 arg2 harg2 x0)⟩,
      ⟨Rect.unit (s := S576x2304) ![0, 0] S64x2304.size inb_S576x2304_S64x2304_0_0, k0_pay29 (k0_pay28 (k0_pay12 (ldIn arg3 harg3 x1) (ldH0 arg9 harg9 xs0)) (ldW0 arg4 harg4 x2) (patch0L arg2 harg2 arg3 harg3 arg9 harg9 arg10 harg10 x0 x1 xs0 xs1)) (ldM0 arg2 harg2 x0)⟩]) : List (View.Piece (Elt Ideal) S576x2304 .bf16))
    (Rect.unit (s := S576x2304) ![0, 0] S576x2304.size inb_S576x2304_S576x2304_0_0).toLoadRect

section Layer1b

variable (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole)
  (x0 : Vec Ideal S16x2304 .bf16) (x1 : Vec Ideal S1x1x4x32x576 .f32) (x2 : Vec Ideal S192x880 .bf16) (x3 : Vec Ideal S192x1168 .bf16) (x4 : Vec Ideal S2x64x576 .bf16)
  (xs0 : Vec Ideal S2x64x2304 .f32) (xs1 : Vec Ideal S1168x2304 .bf16)

theorem l1_cand (hb : BiasK xs1) (k : Fin 576) (n : Lane) :
    (cand1L arg2 harg2 arg3 harg3 arg4 harg4 arg5 harg5 arg6 harg6 arg9 harg9 arg10 harg10 arg11 x0 x1 x2 x3 x4 xs0 xs1) (ix2 k n) = patchC (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) k n := by
  have hk' : k = ⟨0 + 64 * (k.val / 64) + k.val % 64, by have := k.isLt; omega⟩ :=
    Fin.ext (show k.val = 0 + 64 * (k.val / 64) + k.val % 64 by omega)
  refine (congrArg (fun q => (cand1L arg2 harg2 arg3 harg3 arg4 harg4 arg5 harg5 arg6 harg6 arg9 harg9 arg10 harg10 arg11 x0 x1 x2 x3 x4 xs0 xs1) (ix2 q n)) hk').trans ?_
  refine (patchC_rows arg11.view _ _ _ _ _ _ _ _ _ _ _ _ _ _ _ _ _ _ _ _
    ⟨k.val / 64, by have := k.isLt; omega⟩ ⟨k.val % 64, Nat.mod_lt _ (by decide)⟩ n).trans ?_
  exact sel9_at _ _ _ _ _ _ _ _ _ (fun t j n => shift (maskK x0) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) t j n)
    (l1_cpiece0 arg2 harg2 arg3 harg3 arg4 harg4 arg5 harg5 arg6 harg6 arg9 harg9 arg10 harg10 arg11 x0 x1 x2 x3 x4 xs0 xs1 hb)
    (l1_cpiece1 arg2 harg2 arg3 harg3 arg4 harg4 arg5 harg5 arg6 harg6 arg9 harg9 arg10 harg10 arg11 x0 x1 x2 x3 x4 xs0 xs1 hb)
    (l1_cpiece2 arg2 harg2 arg3 harg3 arg4 harg4 arg5 harg5 arg6 harg6 arg9 harg9 arg10 harg10 arg11 x0 x1 x2 x3 x4 xs0 xs1 hb)
    (l1_cpiece3 arg2 harg2 arg3 harg3 arg4 harg4 arg5 harg5 arg6 harg6 arg9 harg9 arg10 harg10 arg11 x0 x1 x2 x3 x4 xs0 xs1 hb)
    (l1_cpiece4 arg2 harg2 arg3 harg3 arg4 harg4 arg5 harg5 arg6 harg6 arg9 harg9 arg10 harg10 arg11 x0 x1 x2 x3 x4 xs0 xs1 hb)
    (l1_cpiece5 arg2 harg2 arg3 harg3 arg4 harg4 arg5 harg5 arg6 harg6 arg9 harg9 arg10 harg10 arg11 x0 x1 x2 x3 x4 xs0 xs1 hb)
    (l1_cpiece6 arg2 harg2 arg3 harg3 arg4 harg4 arg5 harg5 arg6 harg6 arg9 harg9 arg10 harg10 arg11 x0 x1 x2 x3 x4 xs0 xs1 hb)
    (l1_cpiece7 arg2 harg2 arg3 harg3 arg4 harg4 arg5 harg5 arg6 harg6 arg9 harg9 arg10 harg10 arg11 x0 x1 x2 x3 x4 xs0 xs1 hb)
    (l1_cpiece8 arg2 harg2 arg3 harg3 arg4 harg4 arg5 harg5 arg6 harg6 arg9 harg9 arg10 harg10 arg11 x0 x1 x2 x3 x4 xs0 xs1 hb) _ _ n

/-- Layer 1's new state is the specification's second layer on layer 0's new state. -/
theorem l1_step (hb : BiasK xs1) (ch : Fin 64) (n : Lane) :
    k0_pay70 (k0_pay41 (ldH1 arg9 harg9 xs0)) (k0_pay43 (ldR1 arg6 harg6 x4)) (k0_pay57 (ldW1 arg5 harg5 x3) (patch1L arg2 harg2 arg3 harg3 arg4 harg4 arg6 harg6 arg9 harg9 arg10 harg10 arg11 x0 x1 x2 x4 xs0 xs1)) (k0_pay69 (k0_pay55 (ldW1 arg5 harg5 x3) (patch1L arg2 harg2 arg3 harg3 arg4 harg4 arg6 harg6 arg9 harg9 arg10 harg10 arg11 x0 x1 x2 x4 xs0 xs1))) (cand1L arg2 harg2 arg3 harg3 arg4 harg4 arg5 harg5 arg6 harg6 arg9 harg9 arg10 harg10 arg11 x0 x1 x2 x3 x4 xs0 xs1) (ix2 ch n)
      = stepK1 (maskK x0) (mat2 x3) (slab3 x4 1) (stepK0 (maskK x0) (mat2 x2) (slab3 x4 0) (xK x1) (slab3 xs0 0)) (slab3 xs0 1) ch n := by
  have e1 : k0_pay41 (ldH1 arg9 harg9 xs0) (ix2 ch n) = slab3 xs0 1 ch n :=
    (pay41_apply _ ch n).trans (ld91_apply arg9 harg9 xs0 ch n)
  have e2 := l1_u arg2 harg2 arg3 harg3 arg4 harg4 arg5 harg5 arg6 harg6 arg9 harg9 arg10 harg10 arg11 x0 x1 x2 x3 x4 xs0 xs1 hb ch n
  have e3 : k0_pay69 (k0_pay55 (ldW1 arg5 harg5 x3) (patch1L arg2 harg2 arg3 harg3 arg4 harg4 arg6 harg6 arg9 harg9 arg10 harg10 arg11 x0 x1 x2 x4 xs0 xs1)) (ix2 ch n) = (gatesK1 (maskK x0) (mat2 x3) (stepK0 (maskK x0) (mat2 x2) (slab3 x4 0) (xK x1) (slab3 xs0 0)) (slab3 xs0 1)) ⟨128 + ch.val, by have := ch.isLt; omega⟩ n :=
    (pay69_apply _ ch n).trans (l1_gates arg2 harg2 arg3 harg3 arg4 harg4 arg5 harg5 arg6 harg6 arg9 harg9 arg10 harg10 arg11 x0 x1 x2 x3 x4 xs0 xs1 hb ⟨128 + ch.val, by have := ch.isLt; omega⟩ n)
  have e4 : (∑ k : Fin 576, k0_pay43 (ldR1 arg6 harg6 x4) (ix2 ch k) * (cand1L arg2 harg2 arg3 harg3 arg4 harg4 arg5 harg5 arg6 harg6 arg9 harg9 arg10 harg10 arg11 x0 x1 x2 x3 x4 xs0 xs1) (ix2 k n))
      = candSum (maskK x0) (slab3 x4 1) (fun (j : Fin 64) (n : Lane) => slab3 xs0 1 j n * Ideal.logistic ((gatesK1 (maskK x0) (mat2 x3) (stepK0 (maskK x0) (mat2 x2) (slab3 x4 0) (xK x1) (slab3 xs0 0)) (slab3 xs0 1)) ⟨j.val, by have := j.isLt; omega⟩ n)) ch n := by
    unfold candSum
    refine Finset.sum_congr rfl fun k _ => ?_
    rw [pay43_apply, ld61_apply, l1_cand arg2 harg2 arg3 harg3 arg4 harg4 arg5 harg5 arg6 harg6 arg9 harg9 arg10 harg10 arg11 x0 x1 x2 x3 x4 xs0 xs1 hb k n]
  rw [pay70_apply, e1, e2, e3, e4]
  rfl

end Layer1b

end Cert.KernelIdeal.Sem

end
-- ==== Proof.KSemStepsG.lean ====
/-
  The two layers of a step over what the step loads, with the loaded state slabs and the contents of the patch scratch
  left general: whatever the state rows read (the carried state at a later step, zero at the first) and whatever the
  scratch holds under the slabs (provided its bias rows are a row of ones over fifteen zero rows), the step computes
  the specification's layers.
-/
import proofs.«175272_g2000206920649175_pallasbulk_1279_5_alg».proof.Proof.KSemSteps

set_option maxRecDepth 16384

noncomputable section

namespace Cert.KernelIdeal.SemG

open Cert.KernelIdeal Cert.KernelIdeal.Gen Cert.GruSpec Cert.KernelIdeal.Sem

open Idealize.ShloMosaic Idealize.ShloMosaic.ValueIdx
open scoped BigOperators

/-- The patch-matrix scratch after layer 0's nine slab stores, over contents `fb`. -/
abbrev patch0W (arg2 : Memref sig .tc .vmem S16x2304 .bf16) (harg2 : arg2.IsWhole) (arg3 : Memref sig .tc .vmem S1x1x4x32x576 .f32) (harg3 : arg3.IsWhole) (arg10 : Memref sig .tc .vmem S1168x2304 .bf16)
    (x0 : Vec Ideal S16x2304 .bf16) (x1 : Vec Ideal S1x1x4x32x576 .f32) (LH0 : Vec Ideal S1x64x2304 .f32) (fb : arg10.view.ty.Contents (Elt Ideal)) :=
  arg10.view.writes (Elt Ideal) fb
    ([⟨Rect.unit (s := S1168x2304) ![784, 0] S96x2304.size inb_S1168x2304_S96x2304_784_0, k0_pay23 (k0_pay12 (ldIn arg3 harg3 x1) LH0) (ldM8 arg2 harg2 x0)⟩,
      ⟨Rect.unit (s := S1168x2304) ![688, 0] S96x2304.size inb_S1168x2304_S96x2304_688_0, k0_pay22 (k0_pay12 (ldIn arg3 harg3 x1) LH0) (ldM7 arg2 harg2 x0)⟩,
      ⟨Rect.unit (s := S1168x2304) ![592, 0] S96x2304.size inb_S1168x2304_S96x2304_592_0, k0_pay21 (k0_pay12 (ldIn arg3 harg3 x1) LH0) (2281#32) (ldM6 arg2 harg2 x0)⟩,
      ⟨Rect.unit (s := S1168x2304) ![496, 0] S96x2304.size inb_S1168x2304_S96x2304_496_0, k0_pay20 (k0_pay12 (ldIn arg3 harg3 x1) LH0) (ldM5 arg2 harg2 x0)⟩,
      ⟨Rect.unit (s := S1168x2304) ![400, 0] S96x2304.size inb_S1168x2304_S96x2304_400_0, k0_pay19 (k0_pay12 (ldIn arg3 harg3 x1) LH0) (ldM4 arg2 harg2 x0)⟩,
      ⟨Rect.unit (s := S1168x2304) ![304, 0] S96x2304.size inb_S1168x2304_S96x2304_304_0, k0_pay18 (k0_pay12 (ldIn arg3 harg3 x1) LH0) (ldM3 arg2 harg2 x0)⟩,
      ⟨Rect.unit (s := S1168x2304) ![208, 0] S96x2304.size inb_S1168x2304_S96x2304_208_0, k0_pay17 (k0_pay12 (ldIn arg3 harg3 x1) LH0) (ldM2 arg2 harg2 x0)⟩,
      ⟨Rect.unit (s := S1168x2304) ![112, 0] S96x2304.size inb_S1168x2304_S96x2304_112_0, k0_pay16 (k0_pay15 (ldIn arg3 harg3 x1) LH0 (ldM1 arg2 harg2 x0))⟩,
      ⟨Rect.unit (s := S1168x2304) ![16, 0] S96x2304.size inb_S1168x2304_S96x2304_16_0, k0_pay14 (ldIn arg3 harg3 x1) LH0 (ldM0 arg2 harg2 x0)⟩] : List (View.Piece (Elt Ideal) S1168x2304 .bf16))

/-- Its rows 0 to 879 as layer 0 loads them. -/
abbrev patch0L (arg2 : Memref sig .tc .vmem S16x2304 .bf16) (harg2 : arg2.IsWhole) (arg3 : Memref sig .tc .vmem S1x1x4x32x576 .f32) (harg3 : arg3.IsWhole) (arg10 : Memref sig .tc .vmem S1168x2304 .bf16)
    (x0 : Vec Ideal S16x2304 .bf16) (x1 : Vec Ideal S1x1x4x32x576 .f32) (LH0 : Vec Ideal S1x64x2304 .f32) (fb : arg10.view.ty.Contents (Elt Ideal)) :=
  View.readAt (Elt Ideal) arg10.view (Rect.unit (s := S1168x2304) ![0, 0] S880x2304.size inb_S1168x2304_S880x2304_0_0).toLoadRect
    (patch0W arg2 harg2 arg3 harg3 arg10 x0 x1 LH0 fb)

/-- The recurrent patch scratch after layer 0's nine slab stores, as layer 0 loads it whole. -/
abbrev cand0L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg10 : Memref sig .tc .vmem S1168x2304 .bf16) (arg11 : Memref sig .tc .vmem S576x2304 .bf16)
    (x0 : Vec Ideal S16x2304 .bf16) (x1 : Vec Ideal S1x1x4x32x576 .f32) (x2 : Vec Ideal S192x880 .bf16) (LH0 : Vec Ideal S1x64x2304 .f32) (fb : arg10.view.ty.Contents (Elt Ideal)) :=
  arg11.view.readCov
    ([⟨Rect.unit (s := S576x2304) ![512, 0] S64x2304.size inb_S576x2304_S64x2304_512_0, k0_pay38 (k0_pay27 (k0_pay12 (ldIn arg3 harg3 x1) LH0) (ldW0 arg4 harg4 x2) (patch0L arg2 harg2 arg3 harg3 arg10 x0 x1 LH0 fb)) (ldM8 arg2 harg2 x0)⟩,
      ⟨Rect.unit (s := S576x2304) ![448, 0] S64x2304.size inb_S576x2304_S64x2304_448_0, k0_pay37 (k0_pay27 (k0_pay12 (ldIn arg3 harg3 x1) LH0) (ldW0 arg4 harg4 x2) (patch0L arg2 harg2 arg3 harg3 arg10 x0 x1 LH0 fb)) (ldM7 arg2 harg2 x0)⟩,
      ⟨Rect.unit (s := S576x2304) ![384, 0] S64x2304.size inb_S576x2304_S64x2304_384_0, k0_pay36 (k0_pay27 (k0_pay12 (ldIn arg3 harg3 x1) LH0) (ldW0 arg4 harg4 x2) (patch0L arg2 harg2 arg3 harg3 arg10 x0 x1 LH0 fb)) (ldM6 arg2 harg2 x0)⟩,
      ⟨Rect.unit (s := S576x2304) ![320, 0] S64x2304.size inb_S576x2304_S64x2304_320_0, k0_pay35 (k0_pay27 (k0_pay12 (ldIn arg3 harg3 x1) LH0) (ldW0 arg4 harg4 x2) (patch0L arg2 harg2 arg3 harg3 arg10 x0 x1 LH0 fb)) (ldM5 arg2 harg2 x0)⟩,
      ⟨Rect.unit (s := S576x2304) ![256, 0] S64x2304.size inb_S576x2304_S64x2304_256_0, k0_pay34 (k0_pay33 (k0_pay27 (k0_pay12 (ldIn arg3 harg3 x1) LH0) (ldW0 arg4 harg4 x2) (patch0L arg2 harg2 arg3 harg3 arg10 x0 x1 LH0 fb)) (ldM4 arg2 harg2 x0))⟩,
      ⟨Rect.unit (s := S576x2304) ![192, 0] S64x2304.size inb_S576x2304_S64x2304_192_0, k0_pay32 (k0_pay27 (k0_pay12 (ldIn arg3 harg3 x1) LH0) (ldW0 arg4 harg4 x2) (patch0L arg2 harg2 arg3 harg3 arg10 x0 x1 LH0 fb)) (ldM3 arg2 harg2 x0)⟩,
      ⟨Rect.unit (s := S576x2304) ![128, 0] S64x2304.size inb_S576x2304_S64x2304_128_0, k0_pay31 (k0_pay27 (k0_pay12 (ldIn arg3 harg3 x1) LH0) (ldW0 arg4 harg4 x2) (patch0L arg2 harg2 arg3 harg3 arg10 x0 x1 LH0 fb)) (ldM2 arg2 harg2 x0)⟩,
      ⟨Rect.unit (s := S576x2304) ![64, 0] S64x2304.size inb_S576x2304_S64x2304_64_0, k0_pay30 (k0_pay27 (k0_pay12 (ldIn arg3 harg3 x1) LH0) (ldW0 arg4 harg4 x2) (patch0L arg2 harg2 arg3 harg3 arg10 x0 x1 LH0 fb)) (ldM1 arg2 harg2 x0)⟩,
      ⟨Rect.unit (s := S576x2304) ![0, 0] S64x2304.size inb_S576x2304_S64x2304_0_0, k0_pay29 (k0_pay28 (k0_pay12 (ldIn arg3 harg3 x1) LH0) (ldW0 arg4 harg4 x2) (patch0L arg2 harg2 arg3 harg3 arg10 x0 x1 LH0 fb)) (ldM0 arg2 harg2 x0)⟩] : List (View.Piece (Elt Ideal) S576x2304 .bf16))
    (Rect.unit (s := S576x2304) ![0, 0] S576x2304.size inb_S576x2304_S576x2304_0_0).toLoadRect

/-- The patch-matrix scratch after layer 1's nine slab stores (over layer 0's). -/
abbrev patch1W (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg6 : Memref sig .tc .vmem S2x64x576 .bf16) (harg6 : arg6.IsWhole) (arg10 : Memref sig .tc .vmem S1168x2304 .bf16) (arg11 : Memref sig .tc .vmem S576x2304 .bf16)
    (x0 : Vec Ideal S16x2304 .bf16) (x1 : Vec Ideal S1x1x4x32x576 .f32) (x2 : Vec Ideal S192x880 .bf16) (x4 : Vec Ideal S2x64x576 .bf16) (LH0 LH1 : Vec Ideal S1x64x2304 .f32) (fb : arg10.view.ty.Contents (Elt Ideal)) :=
  arg10.view.writes (Elt Ideal) fb
    ((⟨Rect.unit (s := S1168x2304) ![1040, 0] S128x2304.size inb_S1168x2304_S128x2304_1040_0, k0_pay54 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM8 arg2 harg2 x0)⟩ ::
      ⟨Rect.unit (s := S1168x2304) ![912, 0] S128x2304.size inb_S1168x2304_S128x2304_912_0, k0_pay53 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM7 arg2 harg2 x0)⟩ ::
      ⟨Rect.unit (s := S1168x2304) ![784, 0] S128x2304.size inb_S1168x2304_S128x2304_784_0, k0_pay52 (k0_pay50 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1)) (k0_pay51 (ldM6 arg2 harg2 x0))⟩ ::
      ⟨Rect.unit (s := S1168x2304) ![656, 0] S128x2304.size inb_S1168x2304_S128x2304_656_0, k0_pay49 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM5 arg2 harg2 x0)⟩ ::
      ⟨Rect.unit (s := S1168x2304) ![528, 0] S128x2304.size inb_S1168x2304_S128x2304_528_0, k0_pay48 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM4 arg2 harg2 x0)⟩ ::
      ⟨Rect.unit (s := S1168x2304) ![400, 0] S128x2304.size inb_S1168x2304_S128x2304_400_0, k0_pay47 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM3 arg2 harg2 x0)⟩ ::
      ⟨Rect.unit (s := S1168x2304) ![272, 0] S128x2304.size inb_S1168x2304_S128x2304_272_0, k0_pay46 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM2 arg2 harg2 x0)⟩ ::
      ⟨Rect.unit (s := S1168x2304) ![144, 0] S128x2304.size inb_S1168x2304_S128x2304_144_0, k0_pay45 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1 (ldM1 arg2 harg2 x0)⟩ ::
      ⟨Rect.unit (s := S1168x2304) ![16, 0] S128x2304.size inb_S1168x2304_S128x2304_16_0, k0_pay44 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1 (ldM0 arg2 harg2 x0)⟩ ::
      [⟨Rect.unit (s := S1168x2304) ![784, 0] S96x2304.size inb_S1168x2304_S96x2304_784_0, k0_pay23 (k0_pay12 (ldIn arg3 harg3 x1) LH0) (ldM8 arg2 harg2 x0)⟩,
      ⟨Rect.unit (s := S1168x2304) ![688, 0] S96x2304.size inb_S1168x2304_S96x2304_688_0, k0_pay22 (k0_pay12 (ldIn arg3 harg3 x1) LH0) (ldM7 arg2 harg2 x0)⟩,
      ⟨Rect.unit (s := S1168x2304) ![592, 0] S96x2304.size inb_S1168x2304_S96x2304_592_0, k0_pay21 (k0_pay12 (ldIn arg3 harg3 x1) LH0) (2281#32) (ldM6 arg2 harg2 x0)⟩,
      ⟨Rect.unit (s := S1168x2304) ![496, 0] S96x2304.size inb_S1168x2304_S96x2304_496_0, k0_pay20 (k0_pay12 (ldIn arg3 harg3 x1) LH0) (ldM5 arg2 harg2 x0)⟩,
      ⟨Rect.unit (s := S1168x2304) ![400, 0] S96x2304.size inb_S1168x2304_S96x2304_400_0, k0_pay19 (k0_pay12 (ldIn arg3 harg3 x1) LH0) (ldM4 arg2 harg2 x0)⟩,
      ⟨Rect.unit (s := S1168x2304) ![304, 0] S96x2304.size inb_S1168x2304_S96x2304_304_0, k0_pay18 (k0_pay12 (ldIn arg3 harg3 x1) LH0) (ldM3 arg2 harg2 x0)⟩,
      ⟨Rect.unit (s := S1168x2304) ![208, 0] S96x2304.size inb_S1168x2304_S96x2304_208_0, k0_pay17 (k0_pay12 (ldIn arg3 harg3 x1) LH0) (ldM2 arg2 harg2 x0)⟩,
      ⟨Rect.unit (s := S1168x2304) ![112, 0] S96x2304.size inb_S1168x2304_S96x2304_112_0, k0_pay16 (k0_pay15 (ldIn arg3 harg3 x1) LH0 (ldM1 arg2 harg2 x0))⟩,
      ⟨Rect.unit (s := S1168x2304) ![16, 0] S96x2304.size inb_S1168x2304_S96x2304_16_0, k0_pay14 (ldIn arg3 harg3 x1) LH0 (ldM0 arg2 harg2 x0)⟩]) : List (View.Piece (Elt Ideal) S1168x2304 .bf16))

/-- All of it as layer 1 loads it. -/
abbrev patch1L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg6 : Memref sig .tc .vmem S2x64x576 .bf16) (harg6 : arg6.IsWhole) (arg10 : Memref sig .tc .vmem S1168x2304 .bf16) (arg11 : Memref sig .tc .vmem S576x2304 .bf16)
    (x0 : Vec Ideal S16x2304 .bf16) (x1 : Vec Ideal S1x1x4x32x576 .f32) (x2 : Vec Ideal S192x880 .bf16) (x4 : Vec Ideal S2x64x576 .bf16) (LH0 LH1 : Vec Ideal S1x64x2304 .f32) (fb : arg10.view.ty.Contents (Elt Ideal)) :=
  View.readAt (Elt Ideal) arg10.view (Rect.unit (s := S1168x2304) ![0, 0] S1168x2304.size inb_S1168x2304_S1168x2304_0_0).toLoadRect
    (patch1W arg2 harg2 arg3 harg3 arg4 harg4 arg6 harg6 arg10 arg11 x0 x1 x2 x4 LH0 LH1 fb)

/-- The recurrent patch scratch after layer 1's nine slab stores, as layer 1 loads it whole. -/
abbrev cand1L (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg10 : Memref sig .tc .vmem S1168x2304 .bf16) (arg11 : Memref sig .tc .vmem S576x2304 .bf16)
    (x0 : Vec Ideal S16x2304 .bf16) (x1 : Vec Ideal S1x1x4x32x576 .f32) (x2 : Vec Ideal S192x880 .bf16) (x3 : Vec Ideal S192x1168 .bf16) (x4 : Vec Ideal S2x64x576 .bf16) (LH0 LH1 : Vec Ideal S1x64x2304 .f32) (fb : arg10.view.ty.Contents (Elt Ideal)) :=
  arg11.view.readCov
    ((⟨Rect.unit (s := S576x2304) ![512, 0] S64x2304.size inb_S576x2304_S64x2304_512_0, k0_pay68 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM8 arg2 harg2 x0)⟩ ::
      ⟨Rect.unit (s := S576x2304) ![448, 0] S64x2304.size inb_S576x2304_S64x2304_448_0, k0_pay67 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM7 arg2 harg2 x0)⟩ ::
      ⟨Rect.unit (s := S576x2304) ![384, 0] S64x2304.size inb_S576x2304_S64x2304_384_0, k0_pay66 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM6 arg2 harg2 x0)⟩ ::
      ⟨Rect.unit (s := S576x2304) ![320, 0] S64x2304.size inb_S576x2304_S64x2304_320_0, k0_pay65 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM5 arg2 harg2 x0)⟩ ::
      ⟨Rect.unit (s := S576x2304) ![256, 0] S64x2304.size inb_S576x2304_S64x2304_256_0, k0_pay64 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM4 arg2 harg2 x0)⟩ ::
      ⟨Rect.unit (s := S576x2304) ![192, 0] S64x2304.size inb_S576x2304_S64x2304_192_0, k0_pay63 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM3 arg2 harg2 x0)⟩ ::
      ⟨Rect.unit (s := S576x2304) ![128, 0] S64x2304.size inb_S576x2304_S64x2304_128_0, k0_pay62 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM2 arg2 harg2 x0)⟩ ::
      ⟨Rect.unit (s := S576x2304) ![64, 0] S64x2304.size inb_S576x2304_S64x2304_64_0, k0_pay61 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM1 arg2 harg2 x0)⟩ ::
      ⟨Rect.unit (s := S576x2304) ![0, 0] S64x2304.size inb_S576x2304_S64x2304_0_0, k0_pay60 (k0_pay59 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb) (ldM0 arg2 harg2 x0))⟩ ::
      [⟨Rect.unit (s := S576x2304) ![512, 0] S64x2304.size inb_S576x2304_S64x2304_512_0, k0_pay38 (k0_pay27 (k0_pay12 (ldIn arg3 harg3 x1) LH0) (ldW0 arg4 harg4 x2) (patch0L arg2 harg2 arg3 harg3 arg10 x0 x1 LH0 fb)) (ldM8 arg2 harg2 x0)⟩,
      ⟨Rect.unit (s := S576x2304) ![448, 0] S64x2304.size inb_S576x2304_S64x2304_448_0, k0_pay37 (k0_pay27 (k0_pay12 (ldIn arg3 harg3 x1) LH0) (ldW0 arg4 harg4 x2) (patch0L arg2 harg2 arg3 harg3 arg10 x0 x1 LH0 fb)) (ldM7 arg2 harg2 x0)⟩,
      ⟨Rect.unit (s := S576x2304) ![384, 0] S64x2304.size inb_S576x2304_S64x2304_384_0, k0_pay36 (k0_pay27 (k0_pay12 (ldIn arg3 harg3 x1) LH0) (ldW0 arg4 harg4 x2) (patch0L arg2 harg2 arg3 harg3 arg10 x0 x1 LH0 fb)) (ldM6 arg2 harg2 x0)⟩,
      ⟨Rect.unit (s := S576x2304) ![320, 0] S64x2304.size inb_S576x2304_S64x2304_320_0, k0_pay35 (k0_pay27 (k0_pay12 (ldIn arg3 harg3 x1) LH0) (ldW0 arg4 harg4 x2) (patch0L arg2 harg2 arg3 harg3 arg10 x0 x1 LH0 fb)) (ldM5 arg2 harg2 x0)⟩,
      ⟨Rect.unit (s := S576x2304) ![256, 0] S64x2304.size inb_S576x2304_S64x2304_256_0, k0_pay34 (k0_pay33 (k0_pay27 (k0_pay12 (ldIn arg3 harg3 x1) LH0) (ldW0 arg4 harg4 x2) (patch0L arg2 harg2 arg3 harg3 arg10 x0 x1 LH0 fb)) (ldM4 arg2 harg2 x0))⟩,
      ⟨Rect.unit (s := S576x2304) ![192, 0] S64x2304.size inb_S576x2304_S64x2304_192_0, k0_pay32 (k0_pay27 (k0_pay12 (ldIn arg3 harg3 x1) LH0) (ldW0 arg4 harg4 x2) (patch0L arg2 harg2 arg3 harg3 arg10 x0 x1 LH0 fb)) (ldM3 arg2 harg2 x0)⟩,
      ⟨Rect.unit (s := S576x2304) ![128, 0] S64x2304.size inb_S576x2304_S64x2304_128_0, k0_pay31 (k0_pay27 (k0_pay12 (ldIn arg3 harg3 x1) LH0) (ldW0 arg4 harg4 x2) (patch0L arg2 harg2 arg3 harg3 arg10 x0 x1 LH0 fb)) (ldM2 arg2 harg2 x0)⟩,
      ⟨Rect.unit (s := S576x2304) ![64, 0] S64x2304.size inb_S576x2304_S64x2304_64_0, k0_pay30 (k0_pay27 (k0_pay12 (ldIn arg3 harg3 x1) LH0) (ldW0 arg4 harg4 x2) (patch0L arg2 harg2 arg3 harg3 arg10 x0 x1 LH0 fb)) (ldM1 arg2 harg2 x0)⟩,
      ⟨Rect.unit (s := S576x2304) ![0, 0] S64x2304.size inb_S576x2304_S64x2304_0_0, k0_pay29 (k0_pay28 (k0_pay12 (ldIn arg3 harg3 x1) LH0) (ldW0 arg4 harg4 x2) (patch0L arg2 harg2 arg3 harg3 arg10 x0 x1 LH0 fb)) (ldM0 arg2 harg2 x0)⟩]) : List (View.Piece (Elt Ideal) S576x2304 .bf16))
    (Rect.unit (s := S576x2304) ![0, 0] S576x2304.size inb_S576x2304_S576x2304_0_0).toLoadRect

section Generic

variable {arg2 : Memref sig .tc .vmem S16x2304 .bf16} {harg2 : arg2.IsWhole} {arg3 : Memref sig .tc .vmem S1x1x4x32x576 .f32} {harg3 : arg3.IsWhole}
  {arg4 : Memref sig .tc .vmem S192x880 .bf16} {harg4 : arg4.IsWhole} {arg5 : Memref sig .tc .vmem S192x1168 .bf16} {harg5 : arg5.IsWhole}
  {arg6 : Memref sig .tc .vmem S2x64x576 .bf16} {harg6 : arg6.IsWhole} {arg10 : Memref sig .tc .vmem S1168x2304 .bf16} {arg11 : Memref sig .tc .vmem S576x2304 .bf16}
  {x0 : Vec Ideal S16x2304 .bf16} {x1 : Vec Ideal S1x1x4x32x576 .f32} {x2 : Vec Ideal S192x880 .bf16} {x3 : Vec Ideal S192x1168 .bf16} {x4 : Vec Ideal S2x64x576 .bf16}
  {LH0 LH1 : Vec Ideal S1x64x2304 .f32} {h0 h1 : Fin 64 → Lane → EReal} {fb : arg10.view.ty.Contents (Elt Ideal)}

/-- The stack of a step: the input block's rows over layer 0's state rows. -/
theorem stack0_apply (hL0 : ∀ ch n, LH0 (ix3 0 ch n) = h0 ch n) (r : Fin 96) (n : Lane) :
    (k0_pay12 (ldIn arg3 harg3 x1) LH0) (ix2 r n) = (stack32 (xK x1) h0) r n := by
  rw [pay12_apply, ld3_eq]
  exact congrArg (fun h => stack32 (xK x1) h r n) (funext fun j => funext fun n => hL0 j n)

theorem l0_piece0 (hL0 : ∀ ch n, LH0 (ix3 0 ch n) = h0 ch n) (j : Fin 96) (n : Lane) :
    k0_pay14 (ldIn arg3 harg3 x1) LH0 (ldM0 arg2 harg2 x0) (ix2 j n) = shift (maskK x0) (stack32 (xK x1) h0) 0 j n := by
  rw [pay14_apply, stack0_apply hL0, mrow0_apply]
  rfl

theorem l0_piece1 (hL0 : ∀ ch n, LH0 (ix3 0 ch n) = h0 ch n) (j : Fin 96) (n : Lane) :
    k0_pay16 (k0_pay15 (ldIn arg3 harg3 x1) LH0 (ldM1 arg2 harg2 x0)) (ix2 j n) = shift (maskK x0) (stack32 (xK x1) h0) 1 j n := by
  rw [pay16_apply, pay15_apply, stack0_apply hL0, mrow1_apply]
  rfl

theorem l0_piece2 (hL0 : ∀ ch n, LH0 (ix3 0 ch n) = h0 ch n) (j : Fin 96) (n : Lane) :
    k0_pay17 (k0_pay12 (ldIn arg3 harg3 x1) LH0) (ldM2 arg2 harg2 x0) (ix2 j n) = shift (maskK x0) (stack32 (xK x1) h0) 2 j n := by
  rw [pay17_apply, stack0_apply hL0, mrow2_apply]
  rfl

theorem l0_piece3 (hL0 : ∀ ch n, LH0 (ix3 0 ch n) = h0 ch n) (j : Fin 96) (n : Lane) :
    k0_pay18 (k0_pay12 (ldIn arg3 harg3 x1) LH0) (ldM3 arg2 harg2 x0) (ix2 j n) = shift (maskK x0) (stack32 (xK x1) h0) 3 j n := by
  rw [pay18_apply, stack0_apply hL0, mrow3_apply]
  rfl

theorem l0_piece4 (hL0 : ∀ ch n, LH0 (ix3 0 ch n) = h0 ch n) (j : Fin 96) (n : Lane) :
    k0_pay19 (k0_pay12 (ldIn arg3 harg3 x1) LH0) (ldM4 arg2 harg2 x0) (ix2 j n) = shift (maskK x0) (stack32 (xK x1) h0) 4 j n := by
  rw [pay19_apply, stack0_apply hL0, mrow4_apply]
  unfold shift
  rw [show amt 4 = 0 from rfl, rotBy_zero]

theorem l0_piece5 (hL0 : ∀ ch n, LH0 (ix3 0 ch n) = h0 ch n) (j : Fin 96) (n : Lane) :
    k0_pay20 (k0_pay12 (ldIn arg3 harg3 x1) LH0) (ldM5 arg2 harg2 x0) (ix2 j n) = shift (maskK x0) (stack32 (xK x1) h0) 5 j n := by
  rw [pay20_apply, stack0_apply hL0, mrow5_apply]
  rfl

theorem l0_piece6 (hL0 : ∀ ch n, LH0 (ix3 0 ch n) = h0 ch n) (j : Fin 96) (n : Lane) :
    k0_pay21 (k0_pay12 (ldIn arg3 harg3 x1) LH0) (2281#32) (ldM6 arg2 harg2 x0) (ix2 j n) = shift (maskK x0) (stack32 (xK x1) h0) 6 j n := by
  rw [pay21_apply, stack0_apply hL0, mrow6_apply]
  rfl

theorem l0_piece7 (hL0 : ∀ ch n, LH0 (ix3 0 ch n) = h0 ch n) (j : Fin 96) (n : Lane) :
    k0_pay22 (k0_pay12 (ldIn arg3 harg3 x1) LH0) (ldM7 arg2 harg2 x0) (ix2 j n) = shift (maskK x0) (stack32 (xK x1) h0) 7 j n := by
  rw [pay22_apply, stack0_apply hL0, mrow7_apply]
  rfl

theorem l0_piece8 (hL0 : ∀ ch n, LH0 (ix3 0 ch n) = h0 ch n) (j : Fin 96) (n : Lane) :
    k0_pay23 (k0_pay12 (ldIn arg3 harg3 x1) LH0) (ldM8 arg2 harg2 x0) (ix2 j n) = shift (maskK x0) (stack32 (xK x1) h0) 8 j n := by
  rw [pay23_apply, stack0_apply hL0, mrow8_apply]
  rfl

/-- The first layer's patch matrix as loaded: the bias rows the buffer kept, then the nine taps of the stack. -/
theorem l0_patch (hL0 : ∀ ch n, LH0 (ix3 0 ch n) = h0 ch n) (hb : BiasK (arg10.view.read (Elt Ideal) fb)) (k : Fin 880) (n : Lane) :
    (patch0L arg2 harg2 arg3 harg3 arg10 x0 x1 LH0 fb) (ix2 k n) = patchK0 (maskK x0) (xK x1) h0 k n := by
  have hidx : (Rect.unit (s := S1168x2304) ![0, 0] S880x2304.size inb_S1168x2304_S880x2304_0_0).toLoadRect.idx (ix2 k n)
      = (ix2 ⟨k.val, by have := k.isLt; omega⟩ n : S1168x2304.Idx) :=
    unit_idx_eq (s := S1168x2304) ![0, 0] S880x2304.size _ (ix2 k n) (ix2 ⟨k.val, by have := k.isLt; omega⟩ n) (fun a => match a with | ⟨0, _⟩ => (Nat.zero_add _).symm | ⟨1, _⟩ => (Nat.zero_add _).symm)
  unfold patchK0
  by_cases hk : k.val < 16
  · have hlow : (patch0L arg2 harg2 arg3 harg3 arg10 x0 x1 LH0 fb) (ix2 k n) = arg10.view.read (Elt Ideal) fb (ix2 ⟨k.val, by have := k.isLt; omega⟩ n) := by
      show arg10.view.read (Elt Ideal) (patch0W arg2 harg2 arg3 harg3 arg10 x0 x1 LH0 fb) _ = _
      rw [hidx]
      exact patch0_low arg10.view fb _ _ _ _ _ _ _ _ _ _ _ _ _ _ _ _ _ _ ⟨k.val, hk⟩ n
    rw [hlow]
    by_cases h0' : k.val = 0
    · rw [if_pos h0']
      have e : (⟨k.val, by have := k.isLt; omega⟩ : Fin 1168) = ⟨0, by decide⟩ := Fin.ext h0'
      rw [e]; exact (hb n).1
    · rw [if_neg h0', dif_pos hk]
      exact (hb n).2 ⟨k.val, by have := k.isLt; omega⟩ (Nat.pos_of_ne_zero h0') hk
  · rw [if_neg (show ¬(k.val = 0) by omega), dif_neg hk]
    have hk' : k = ⟨16 + 96 * ((k.val - 16) / 96) + (k.val - 16) % 96, by have := k.isLt; omega⟩ :=
      Fin.ext (show k.val = 16 + 96 * ((k.val - 16) / 96) + (k.val - 16) % 96 by omega)
    refine (congrArg (fun q => (patch0L arg2 harg2 arg3 harg3 arg10 x0 x1 LH0 fb) (ix2 q n)) hk').trans ?_
    refine (patch0_rows arg10.view fb _ _ _ _ _ _ _ _ _ _ _ _ _ _ _ _ _ _ _
      ⟨(k.val - 16) / 96, by have := k.isLt; omega⟩ ⟨(k.val - 16) % 96, Nat.mod_lt _ (by decide)⟩ n).trans ?_
    refine (sel9_at _ _ _ _ _ _ _ _ _ (fun t j n => shift (maskK x0) (stack32 (xK x1) h0) t j n)
      (l0_piece0 hL0) (l0_piece1 hL0) (l0_piece2 hL0) (l0_piece3 hL0) (l0_piece4 hL0) (l0_piece5 hL0) (l0_piece6 hL0) (l0_piece7 hL0) (l0_piece8 hL0) _ _ n).trans ?_
    exact shift_stack32 (maskK x0) (xK x1) h0 _ _ n

theorem l0_gates (hL0 : ∀ ch n, LH0 (ix3 0 ch n) = h0 ch n) (hb : BiasK (arg10.view.read (Elt Ideal) fb)) (r : Fin 192) (n : Lane) :
    (k0_pay24 (ldW0 arg4 harg4 x2) (patch0L arg2 harg2 arg3 harg3 arg10 x0 x1 LH0 fb)) (ix2 r n) = (gatesK0 (maskK x0) (mat2 x2) (xK x1) h0) r n := by
  rw [pay24_apply, ld4_eq]
  unfold gatesK0
  refine Finset.sum_congr rfl fun k _ => ?_
  rw [l0_patch hL0 hb k n]
  rfl

theorem l0_u (hL0 : ∀ ch n, LH0 (ix3 0 ch n) = h0 ch n) (hb : BiasK (arg10.view.read (Elt Ideal) fb)) (r : Fin 64) (n : Lane) :
    k0_pay26 (ldW0 arg4 harg4 x2) (patch0L arg2 harg2 arg3 harg3 arg10 x0 x1 LH0 fb) (ix2 r n) = Ideal.logistic ((gatesK0 (maskK x0) (mat2 x2) (xK x1) h0) ⟨64 + r.val, by have := r.isLt; omega⟩ n) := by
  rw [pay26_apply, l0_gates hL0 hb]

theorem l0_hr (hL0 : ∀ ch n, LH0 (ix3 0 ch n) = h0 ch n) (hb : BiasK (arg10.view.read (Elt Ideal) fb)) (r : Fin 64) (n : Lane) :
    (k0_pay27 (k0_pay12 (ldIn arg3 harg3 x1) LH0) (ldW0 arg4 harg4 x2) (patch0L arg2 harg2 arg3 harg3 arg10 x0 x1 LH0 fb)) (ix2 r n) = (fun (j : Fin 64) (n : Lane) => h0 j n * Ideal.logistic ((gatesK0 (maskK x0) (mat2 x2) (xK x1) h0) ⟨j.val, by have := j.isLt; omega⟩ n)) r n := by
  rw [pay27_apply, stack0_apply hL0, l0_gates hL0 hb, stack32_state]

theorem l0_cpiece0 (hL0 : ∀ ch n, LH0 (ix3 0 ch n) = h0 ch n) (hb : BiasK (arg10.view.read (Elt Ideal) fb)) (j : Fin 64) (n : Lane) :
    k0_pay29 (k0_pay28 (k0_pay12 (ldIn arg3 harg3 x1) LH0) (ldW0 arg4 harg4 x2) (patch0L arg2 harg2 arg3 harg3 arg10 x0 x1 LH0 fb)) (ldM0 arg2 harg2 x0) (ix2 j n) = shift (maskK x0) (fun (j : Fin 64) (n : Lane) => h0 j n * Ideal.logistic ((gatesK0 (maskK x0) (mat2 x2) (xK x1) h0) ⟨j.val, by have := j.isLt; omega⟩ n)) 0 j n := by
  rw [pay29_apply, pay28_apply, l0_hr hL0 hb, mrow0_apply]
  rfl

theorem l0_cpiece1 (hL0 : ∀ ch n, LH0 (ix3 0 ch n) = h0 ch n) (hb : BiasK (arg10.view.read (Elt Ideal) fb)) (j : Fin 64) (n : Lane) :
    k0_pay30 (k0_pay27 (k0_pay12 (ldIn arg3 harg3 x1) LH0) (ldW0 arg4 harg4 x2) (patch0L arg2 harg2 arg3 harg3 arg10 x0 x1 LH0 fb)) (ldM1 arg2 harg2 x0) (ix2 j n) = shift (maskK x0) (fun (j : Fin 64) (n : Lane) => h0 j n * Ideal.logistic ((gatesK0 (maskK x0) (mat2 x2) (xK x1) h0) ⟨j.val, by have := j.isLt; omega⟩ n)) 1 j n := by
  rw [pay30_apply, l0_hr hL0 hb, mrow1_apply]
  rfl

theorem l0_cpiece2 (hL0 : ∀ ch n, LH0 (ix3 0 ch n) = h0 ch n) (hb : BiasK (arg10.view.read (Elt Ideal) fb)) (j : Fin 64) (n : Lane) :
    k0_pay31 (k0_pay27 (k0_pay12 (ldIn arg3 harg3 x1) LH0) (ldW0 arg4 harg4 x2) (patch0L arg2 harg2 arg3 harg3 arg10 x0 x1 LH0 fb)) (ldM2 arg2 harg2 x0) (ix2 j n) = shift (maskK x0) (fun (j : Fin 64) (n : Lane) => h0 j n * Ideal.logistic ((gatesK0 (maskK x0) (mat2 x2) (xK x1) h0) ⟨j.val, by have := j.isLt; omega⟩ n)) 2 j n := by
  rw [pay31_apply, l0_hr hL0 hb, mrow2_apply]
  rfl

theorem l0_cpiece3 (hL0 : ∀ ch n, LH0 (ix3 0 ch n) = h0 ch n) (hb : BiasK (arg10.view.read (Elt Ideal) fb)) (j : Fin 64) (n : Lane) :
    k0_pay32 (k0_pay27 (k0_pay12 (ldIn arg3 harg3 x1) LH0) (ldW0 arg4 harg4 x2) (patch0L arg2 harg2 arg3 harg3 arg10 x0 x1 LH0 fb)) (ldM3 arg2 harg2 x0) (ix2 j n) = shift (maskK x0) (fun (j : Fin 64) (n : Lane) => h0 j n * Ideal.logistic ((gatesK0 (maskK x0) (mat2 x2) (xK x1) h0) ⟨j.val, by have := j.isLt; omega⟩ n)) 3 j n := by
  rw [pay32_apply, l0_hr hL0 hb, mrow3_apply]
  rfl

theorem l0_cpiece4 (hL0 : ∀ ch n, LH0 (ix3 0 ch n) = h0 ch n) (hb : BiasK (arg10.view.read (Elt Ideal) fb)) (j : Fin 64) (n : Lane) :
    k0_pay34 (k0_pay33 (k0_pay27 (k0_pay12 (ldIn arg3 harg3 x1) LH0) (ldW0 arg4 harg4 x2) (patch0L arg2 harg2 arg3 harg3 arg10 x0 x1 LH0 fb)) (ldM4 arg2 harg2 x0)) (ix2 j n) = shift (maskK x0) (fun (j : Fin 64) (n : Lane) => h0 j n * Ideal.logistic ((gatesK0 (maskK x0) (mat2 x2) (xK x1) h0) ⟨j.val, by have := j.isLt; omega⟩ n)) 4 j n := by
  rw [pay34_apply, pay33_apply, l0_hr hL0 hb, mrow4_apply]
  unfold shift
  rw [show amt 4 = 0 from rfl, rotBy_zero]

theorem l0_cpiece5 (hL0 : ∀ ch n, LH0 (ix3 0 ch n) = h0 ch n) (hb : BiasK (arg10.view.read (Elt Ideal) fb)) (j : Fin 64) (n : Lane) :
    k0_pay35 (k0_pay27 (k0_pay12 (ldIn arg3 harg3 x1) LH0) (ldW0 arg4 harg4 x2) (patch0L arg2 harg2 arg3 harg3 arg10 x0 x1 LH0 fb)) (ldM5 arg2 harg2 x0) (ix2 j n) = shift (maskK x0) (fun (j : Fin 64) (n : Lane) => h0 j n * Ideal.logistic ((gatesK0 (maskK x0) (mat2 x2) (xK x1) h0) ⟨j.val, by have := j.isLt; omega⟩ n)) 5 j n := by
  rw [pay35_apply, l0_hr hL0 hb, mrow5_apply]
  rfl

theorem l0_cpiece6 (hL0 : ∀ ch n, LH0 (ix3 0 ch n) = h0 ch n) (hb : BiasK (arg10.view.read (Elt Ideal) fb)) (j : Fin 64) (n : Lane) :
    k0_pay36 (k0_pay27 (k0_pay12 (ldIn arg3 harg3 x1) LH0) (ldW0 arg4 harg4 x2) (patch0L arg2 harg2 arg3 harg3 arg10 x0 x1 LH0 fb)) (ldM6 arg2 harg2 x0) (ix2 j n) = shift (maskK x0) (fun (j : Fin 64) (n : Lane) => h0 j n * Ideal.logistic ((gatesK0 (maskK x0) (mat2 x2) (xK x1) h0) ⟨j.val, by have := j.isLt; omega⟩ n)) 6 j n := by
  rw [pay36_apply, l0_hr hL0 hb, mrow6_apply]
  rfl

theorem l0_cpiece7 (hL0 : ∀ ch n, LH0 (ix3 0 ch n) = h0 ch n) (hb : BiasK (arg10.view.read (Elt Ideal) fb)) (j : Fin 64) (n : Lane) :
    k0_pay37 (k0_pay27 (k0_pay12 (ldIn arg3 harg3 x1) LH0) (ldW0 arg4 harg4 x2) (patch0L arg2 harg2 arg3 harg3 arg10 x0 x1 LH0 fb)) (ldM7 arg2 harg2 x0) (ix2 j n) = shift (maskK x0) (fun (j : Fin 64) (n : Lane) => h0 j n * Ideal.logistic ((gatesK0 (maskK x0) (mat2 x2) (xK x1) h0) ⟨j.val, by have := j.isLt; omega⟩ n)) 7 j n := by
  rw [pay37_apply, l0_hr hL0 hb, mrow7_apply]
  rfl

theorem l0_cpiece8 (hL0 : ∀ ch n, LH0 (ix3 0 ch n) = h0 ch n) (hb : BiasK (arg10.view.read (Elt Ideal) fb)) (j : Fin 64) (n : Lane) :
    k0_pay38 (k0_pay27 (k0_pay12 (ldIn arg3 harg3 x1) LH0) (ldW0 arg4 harg4 x2) (patch0L arg2 harg2 arg3 harg3 arg10 x0 x1 LH0 fb)) (ldM8 arg2 harg2 x0) (ix2 j n) = shift (maskK x0) (fun (j : Fin 64) (n : Lane) => h0 j n * Ideal.logistic ((gatesK0 (maskK x0) (mat2 x2) (xK x1) h0) ⟨j.val, by have := j.isLt; omega⟩ n)) 8 j n := by
  rw [pay38_apply, l0_hr hL0 hb, mrow8_apply]
  rfl

theorem l0_cand (hL0 : ∀ ch n, LH0 (ix3 0 ch n) = h0 ch n) (hb : BiasK (arg10.view.read (Elt Ideal) fb)) (k : Fin 576) (n : Lane) :
    (cand0L arg2 harg2 arg3 harg3 arg4 harg4 arg10 arg11 x0 x1 x2 LH0 fb) (ix2 k n) = patchC (maskK x0) (fun (j : Fin 64) (n : Lane) => h0 j n * Ideal.logistic ((gatesK0 (maskK x0) (mat2 x2) (xK x1) h0) ⟨j.val, by have := j.isLt; omega⟩ n)) k n := by
  have hk' : k = ⟨0 + 64 * (k.val / 64) + k.val % 64, by have := k.isLt; omega⟩ :=
    Fin.ext (show k.val = 0 + 64 * (k.val / 64) + k.val % 64 by omega)
  refine (congrArg (fun q => (cand0L arg2 harg2 arg3 harg3 arg4 harg4 arg10 arg11 x0 x1 x2 LH0 fb) (ix2 q n)) hk').trans ?_
  refine (patchC_rows arg11.view _ _ _ _ _ _ _ _ _ _ _ _ _ _ _ _ _ _ _ _
    ⟨k.val / 64, by have := k.isLt; omega⟩ ⟨k.val % 64, Nat.mod_lt _ (by decide)⟩ n).trans ?_
  exact sel9_at _ _ _ _ _ _ _ _ _ (fun t j n => shift (maskK x0) (fun (j : Fin 64) (n : Lane) => h0 j n * Ideal.logistic ((gatesK0 (maskK x0) (mat2 x2) (xK x1) h0) ⟨j.val, by have := j.isLt; omega⟩ n)) t j n)
    (l0_cpiece0 hL0 hb) (l0_cpiece1 hL0 hb) (l0_cpiece2 hL0 hb) (l0_cpiece3 hL0 hb) (l0_cpiece4 hL0 hb) (l0_cpiece5 hL0 hb) (l0_cpiece6 hL0 hb) (l0_cpiece7 hL0 hb) (l0_cpiece8 hL0 hb) _ _ n

/-- Layer 0's new state is the specification's first layer. -/
theorem l0_step (hL0 : ∀ ch n, LH0 (ix3 0 ch n) = h0 ch n) (hb : BiasK (arg10.view.read (Elt Ideal) fb)) (ch : Fin 64) (n : Lane) :
    k0_pay39 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) (ix2 ch n) = (stepK0 (maskK x0) (mat2 x2) (slab3 x4 0) (xK x1) h0) ch n := by
  have e1 : k0_pay11 LH0 (ix2 ch n) = h0 ch n := (pay11_apply _ ch n).trans (hL0 ch n)
  have e4 : (∑ k : Fin 576, k0_pay13 (ldR0 arg6 harg6 x4) (ix2 ch k) * (cand0L arg2 harg2 arg3 harg3 arg4 harg4 arg10 arg11 x0 x1 x2 LH0 fb) (ix2 k n))
      = candSum (maskK x0) (slab3 x4 0) (fun (j : Fin 64) (n : Lane) => h0 j n * Ideal.logistic ((gatesK0 (maskK x0) (mat2 x2) (xK x1) h0) ⟨j.val, by have := j.isLt; omega⟩ n)) ch n := by
    unfold candSum
    refine Finset.sum_congr rfl fun k _ => ?_
    rw [pay13_apply, ld60_apply, l0_cand hL0 hb k n]
  rw [pay39_apply, e1, l0_u hL0 hb, l0_gates hL0 hb, e4]
  rfl

/-- Layer 1's stack: layer 0's new state over layer 1's state. -/
theorem l1_stack (hL0 : ∀ ch n, LH0 (ix3 0 ch n) = h0 ch n) (hL1 : ∀ ch n, LH1 (ix3 0 ch n) = h1 ch n) (hb : BiasK (arg10.view.read (Elt Ideal) fb)) (r : Fin 128) (n : Lane) :
    (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ix2 r n) = (stack64 (stepK0 (maskK x0) (mat2 x2) (slab3 x4 0) (xK x1) h0) h1) r n := by
  rw [pay42_apply]
  exact congrArg₂ (fun a h => stack64 a h r n)
    (funext fun j => funext fun n => l0_step hL0 hb j n)
    (funext fun j => funext fun n => hL1 j n)

theorem l1_piece0 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay44 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1 (ldM0 arg2 harg2 x0) (ix2 j n) = shift (maskK x0) (stack64 (stepK0 (maskK x0) (mat2 x2) (slab3 x4 0) (xK x1) h0) h1) 0 j n := by
  rw [pay44_apply, l1_stack hL0 hL1 hb, mrow0_apply]
  rfl

theorem l1_piece1 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay45 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1 (ldM1 arg2 harg2 x0) (ix2 j n) = shift (maskK x0) (stack64 (stepK0 (maskK x0) (mat2 x2) (slab3 x4 0) (xK x1) h0) h1) 1 j n := by
  rw [pay45_apply, l1_stack hL0 hL1 hb, mrow1_apply]
  rfl

theorem l1_piece2 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay46 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM2 arg2 harg2 x0) (ix2 j n) = shift (maskK x0) (stack64 (stepK0 (maskK x0) (mat2 x2) (slab3 x4 0) (xK x1) h0) h1) 2 j n := by
  rw [pay46_apply, l1_stack hL0 hL1 hb, mrow2_apply]
  rfl

theorem l1_piece3 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay47 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM3 arg2 harg2 x0) (ix2 j n) = shift (maskK x0) (stack64 (stepK0 (maskK x0) (mat2 x2) (slab3 x4 0) (xK x1) h0) h1) 3 j n := by
  rw [pay47_apply, l1_stack hL0 hL1 hb, mrow3_apply]
  rfl

theorem l1_piece4 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay48 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM4 arg2 harg2 x0) (ix2 j n) = shift (maskK x0) (stack64 (stepK0 (maskK x0) (mat2 x2) (slab3 x4 0) (xK x1) h0) h1) 4 j n := by
  rw [pay48_apply, l1_stack hL0 hL1 hb, mrow4_apply]
  unfold shift
  rw [show amt 4 = 0 from rfl, rotBy_zero]

theorem l1_piece5 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay49 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM5 arg2 harg2 x0) (ix2 j n) = shift (maskK x0) (stack64 (stepK0 (maskK x0) (mat2 x2) (slab3 x4 0) (xK x1) h0) h1) 5 j n := by
  rw [pay49_apply, l1_stack hL0 hL1 hb, mrow5_apply]
  rfl

theorem l1_piece6 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay52 (k0_pay50 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1)) (k0_pay51 (ldM6 arg2 harg2 x0)) (ix2 j n) = shift (maskK x0) (stack64 (stepK0 (maskK x0) (mat2 x2) (slab3 x4 0) (xK x1) h0) h1) 6 j n := by
  rw [pay52_apply, pay50_apply, pay51_eq, l1_stack hL0 hL1 hb, mrow6_apply]
  rfl

theorem l1_piece7 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay53 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM7 arg2 harg2 x0) (ix2 j n) = shift (maskK x0) (stack64 (stepK0 (maskK x0) (mat2 x2) (slab3 x4 0) (xK x1) h0) h1) 7 j n := by
  rw [pay53_apply, l1_stack hL0 hL1 hb, mrow7_apply]
  rfl

theorem l1_piece8 (hL0 : ∀ ch n, LH0 (ix3 0 ch n) = h0 ch n) (hL1 : ∀ ch n, LH1 (ix3 0 ch n) = h1 ch n) (hb : BiasK (arg10.view.read (Elt Ideal) fb)) (j : Fin 128) (n : Lane) :
    k0_pay54 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldM8 arg2 harg2 x0) (ix2 j n) = shift (maskK x0) (stack64 (stepK0 (maskK x0) (mat2 x2) (slab3 x4 0) (xK x1) h0) h1) 8 j n := by
  rw [pay54_apply, l1_stack hL0 hL1 hb, mrow8_apply]
  rfl

theorem l1_low (k : Fin 1168) (hk : k.val < 16) (n : Lane) :
    arg10.view.read (Elt Ideal) (patch1W arg2 harg2 arg3 harg3 arg4 harg4 arg6 harg6 arg10 arg11 x0 x1 x2 x4 LH0 LH1 fb) (ix2 k n) = arg10.view.read (Elt Ideal) fb (ix2 k n) := by
  refine (patch1_low arg10.view fb _ _ _ _ _ _ _ _ _ _ _ _ _ _ _ _ _ _ _ ⟨k.val, hk⟩ n).trans ?_
  exact patch0_low arg10.view fb _ _ _ _ _ _ _ _ _ _ _ _ _ _ _ _ _ _ ⟨k.val, hk⟩ n

theorem l1_patch (hL0 : ∀ ch n, LH0 (ix3 0 ch n) = h0 ch n) (hL1 : ∀ ch n, LH1 (ix3 0 ch n) = h1 ch n) (hb : BiasK (arg10.view.read (Elt Ideal) fb)) (k : Fin 1168) (n : Lane) :
    (patch1L arg2 harg2 arg3 harg3 arg4 harg4 arg6 harg6 arg10 arg11 x0 x1 x2 x4 LH0 LH1 fb) (ix2 k n) = patchK1 (maskK x0) (stepK0 (maskK x0) (mat2 x2) (slab3 x4 0) (xK x1) h0) h1 k n := by
  have hidx : (Rect.unit (s := S1168x2304) ![0, 0] S1168x2304.size inb_S1168x2304_S1168x2304_0_0).toLoadRect.idx (ix2 k n)
      = (ix2 k n : S1168x2304.Idx) :=
    unit_idx_eq (s := S1168x2304) ![0, 0] S1168x2304.size _ (ix2 k n) (ix2 k n) (fun a => match a with | ⟨0, _⟩ => (Nat.zero_add _).symm | ⟨1, _⟩ => (Nat.zero_add _).symm)
  unfold patchK1
  by_cases hk : k.val < 16
  · have hlow : (patch1L arg2 harg2 arg3 harg3 arg4 harg4 arg6 harg6 arg10 arg11 x0 x1 x2 x4 LH0 LH1 fb) (ix2 k n) = arg10.view.read (Elt Ideal) fb (ix2 k n) := by
      show arg10.view.read (Elt Ideal) (patch1W arg2 harg2 arg3 harg3 arg4 harg4 arg6 harg6 arg10 arg11 x0 x1 x2 x4 LH0 LH1 fb) _ = _
      rw [hidx]
      exact l1_low k hk n
    rw [hlow]
    by_cases h0' : k.val = 0
    · rw [if_pos h0']
      have e : k = ⟨0, by decide⟩ := Fin.ext h0'
      rw [e]; exact (hb n).1
    · rw [if_neg h0', dif_pos hk]
      exact (hb n).2 k (Nat.pos_of_ne_zero h0') hk
  · rw [if_neg (show ¬(k.val = 0) by omega), dif_neg hk]
    have hk' : k = ⟨16 + 128 * ((k.val - 16) / 128) + (k.val - 16) % 128, by have := k.isLt; omega⟩ :=
      Fin.ext (show k.val = 16 + 128 * ((k.val - 16) / 128) + (k.val - 16) % 128 by omega)
    refine (congrArg (fun q => (patch1L arg2 harg2 arg3 harg3 arg4 harg4 arg6 harg6 arg10 arg11 x0 x1 x2 x4 LH0 LH1 fb) (ix2 q n)) hk').trans ?_
    refine (patch1_rows arg10.view fb _ _ _ _ _ _ _ _ _ _ _ _ _ _ _ _ _ _ _ _
      ⟨(k.val - 16) / 128, by have := k.isLt; omega⟩ ⟨(k.val - 16) % 128, Nat.mod_lt _ (by decide)⟩ n).trans ?_
    refine (sel9_at _ _ _ _ _ _ _ _ _ (fun t j n => shift (maskK x0) (stack64 (stepK0 (maskK x0) (mat2 x2) (slab3 x4 0) (xK x1) h0) h1) t j n)
      (l1_piece0 hL0 hL1 hb) (l1_piece1 hL0 hL1 hb) (l1_piece2 hL0 hL1 hb) (l1_piece3 hL0 hL1 hb) (l1_piece4 hL0 hL1 hb) (l1_piece5 hL0 hL1 hb) (l1_piece6 hL0 hL1 hb) (l1_piece7 hL0 hL1 hb) (l1_piece8 hL0 hL1 hb) _ _ n).trans ?_
    exact shift_stack64 (maskK x0) (stepK0 (maskK x0) (mat2 x2) (slab3 x4 0) (xK x1) h0) h1 _ _ n

/-- The patch scratch keeps its bias rows through the step. -/
theorem l1_bias (hb : BiasK (arg10.view.read (Elt Ideal) fb)) : BiasK (arg10.view.read (Elt Ideal) (patch1W arg2 harg2 arg3 harg3 arg4 harg4 arg6 harg6 arg10 arg11 x0 x1 x2 x4 LH0 LH1 fb)) := by
  intro n
  refine ⟨(l1_low ⟨0, by decide⟩ (by decide) n).trans (hb n).1, fun k h1' h2 => (l1_low k h2 n).trans ((hb n).2 k h1' h2)⟩

theorem l1_gates (hL0 : ∀ ch n, LH0 (ix3 0 ch n) = h0 ch n) (hL1 : ∀ ch n, LH1 (ix3 0 ch n) = h1 ch n) (hb : BiasK (arg10.view.read (Elt Ideal) fb)) (r : Fin 192) (n : Lane) :
    (k0_pay55 (ldW1 arg5 harg5 x3) (patch1L arg2 harg2 arg3 harg3 arg4 harg4 arg6 harg6 arg10 arg11 x0 x1 x2 x4 LH0 LH1 fb)) (ix2 r n) = (gatesK1 (maskK x0) (mat2 x3) (stepK0 (maskK x0) (mat2 x2) (slab3 x4 0) (xK x1) h0) h1) r n := by
  rw [pay55_apply, ld5_eq]
  unfold gatesK1
  refine Finset.sum_congr rfl fun k _ => ?_
  rw [l1_patch hL0 hL1 hb k n]
  rfl

theorem l1_u (hL0 : ∀ ch n, LH0 (ix3 0 ch n) = h0 ch n) (hL1 : ∀ ch n, LH1 (ix3 0 ch n) = h1 ch n) (hb : BiasK (arg10.view.read (Elt Ideal) fb)) (r : Fin 64) (n : Lane) :
    k0_pay57 (ldW1 arg5 harg5 x3) (patch1L arg2 harg2 arg3 harg3 arg4 harg4 arg6 harg6 arg10 arg11 x0 x1 x2 x4 LH0 LH1 fb) (ix2 r n) = Ideal.logistic ((gatesK1 (maskK x0) (mat2 x3) (stepK0 (maskK x0) (mat2 x2) (slab3 x4 0) (xK x1) h0) h1) ⟨64 + r.val, by have := r.isLt; omega⟩ n) := by
  rw [pay57_apply, l1_gates hL0 hL1 hb]

theorem l1_hr (hL0 : ∀ ch n, LH0 (ix3 0 ch n) = h0 ch n) (hL1 : ∀ ch n, LH1 (ix3 0 ch n) = h1 ch n) (hb : BiasK (arg10.view.read (Elt Ideal) fb)) (r : Fin 64) (n : Lane) :
    (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ix2 r n) = (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) r n := by
  rw [pay58_apply, l1_stack hL0 hL1 hb, l1_gates hL0 hL1 hb, stack64_state]

theorem l1_cpiece0 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay60 (k0_pay59 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb) (ldM0 arg2 harg2 x0)) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 0 j n := by
  rw [pay60_apply, pay59_apply, l1_hr hL0 hL1 hb, mrow0_apply]
  rfl

theorem l1_cpiece1 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay61 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM1 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 1 j n := by
  rw [pay61_apply, l1_hr hL0 hL1 hb, mrow1_apply]
  rfl

theorem l1_cpiece2 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay62 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM2 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 2 j n := by
  rw [pay62_apply, l1_hr hL0 hL1 hb, mrow2_apply]
  rfl

theorem l1_cpiece3 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay63 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM3 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 3 j n := by
  rw [pay63_apply, l1_hr hL0 hL1 hb, mrow3_apply]
  rfl

theorem l1_cpiece4 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay64 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM4 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 4 j n := by
  rw [pay64_apply, l1_hr hL0 hL1 hb, mrow4_apply]
  unfold shift
  rw [show amt 4 = 0 from rfl, rotBy_zero]

theorem l1_cpiece5 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay65 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM5 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 5 j n := by
  rw [pay65_apply, l1_hr hL0 hL1 hb, mrow5_apply]
  rfl

theorem l1_cpiece6 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay66 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM6 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 6 j n := by
  rw [pay66_apply, l1_hr hL0 hL1 hb, mrow6_apply]
  rfl

theorem l1_cpiece7 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay67 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM7 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 7 j n := by
  rw [pay67_apply, l1_hr hL0 hL1 hb, mrow7_apply]
  rfl

theorem l1_cpiece8 (hL0 : ∀ ch n, LH0 (ix3 0 ch n) = h0 ch n) (hL1 : ∀ ch n, LH1 (ix3 0 ch n) = h1 ch n) (hb : BiasK (arg10.view.read (Elt Ideal) fb)) (j : Fin 64) (n : Lane) :
    k0_pay68 (k0_pay58 (k0_pay42 (k0_pay11 LH0) (k0_pay13 (ldR0 arg6 harg6 x4)) (k0_pay24 (ldW0 arg4 harg4 x2) (patch0L arg2 harg2 arg3 harg3 arg10 x0 x1 LH0 fb)) (k0_pay26 (ldW0 arg4 harg4 x2) (patch0L arg2 harg2 arg3 harg3 arg10 x0 x1 LH0 fb)) (cand0L arg2 harg2 arg3 harg3 arg4 harg4 arg10 arg11 x0 x1 x2 LH0 fb) LH1) (ldW1 arg5 harg5 x3) (patch1L arg2 harg2 arg3 harg3 arg4 harg4 arg6 harg6 arg10 arg11 x0 x1 x2 x4 LH0 LH1 fb)) (ldM8 arg2 harg2 x0) (ix2 j n) = shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) 8 j n := by
  rw [pay68_apply, l1_hr hL0 hL1 hb, mrow8_apply]
  rfl

theorem l1_cand (hL0 : ∀ ch n, LH0 (ix3 0 ch n) = h0 ch n) (hL1 : ∀ ch n, LH1 (ix3 0 ch n) = h1 ch n) (hb : BiasK (arg10.view.read (Elt Ideal) fb)) (k : Fin 576) (n : Lane) :
    (cand1L arg2 harg2 arg3 harg3 arg4 harg4 arg5 harg5 arg6 harg6 arg10 arg11 x0 x1 x2 x3 x4 LH0 LH1 fb) (ix2 k n) = patchC (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) k n := by
  have hk' : k = ⟨0 + 64 * (k.val / 64) + k.val % 64, by have := k.isLt; omega⟩ :=
    Fin.ext (show k.val = 0 + 64 * (k.val / 64) + k.val % 64 by omega)
  refine (congrArg (fun q => (cand1L arg2 harg2 arg3 harg3 arg4 harg4 arg5 harg5 arg6 harg6 arg10 arg11 x0 x1 x2 x3 x4 LH0 LH1 fb) (ix2 q n)) hk').trans ?_
  refine (patchC_rows arg11.view _ _ _ _ _ _ _ _ _ _ _ _ _ _ _ _ _ _ _ _
    ⟨k.val / 64, by have := k.isLt; omega⟩ ⟨k.val % 64, Nat.mod_lt _ (by decide)⟩ n).trans ?_
  exact sel9_at _ _ _ _ _ _ _ _ _ (fun t j n => shift (maskK x0) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) t j n)
    (l1_cpiece0 hL0 hL1 hb) (l1_cpiece1 hL0 hL1 hb) (l1_cpiece2 hL0 hL1 hb) (l1_cpiece3 hL0 hL1 hb) (l1_cpiece4 hL0 hL1 hb) (l1_cpiece5 hL0 hL1 hb) (l1_cpiece6 hL0 hL1 hb) (l1_cpiece7 hL0 hL1 hb) (l1_cpiece8 hL0 hL1 hb) _ _ n

/-- Layer 1's new state is the specification's second layer on layer 0's new state. -/
theorem l1_step (hL0 : ∀ ch n, LH0 (ix3 0 ch n) = h0 ch n) (hL1 : ∀ ch n, LH1 (ix3 0 ch n) = h1 ch n) (hb : BiasK (arg10.view.read (Elt Ideal) fb)) (ch : Fin 64) (n : Lane) :
    k0_pay70 (k0_pay41 LH1) (k0_pay43 (ldR1 arg6 harg6 x4)) (k0_pay57 (ldW1 arg5 harg5 x3) (patch1L arg2 harg2 arg3 harg3 arg4 harg4 arg6 harg6 arg10 arg11 x0 x1 x2 x4 LH0 LH1 fb)) (k0_pay69 (k0_pay55 (ldW1 arg5 harg5 x3) (patch1L arg2 harg2 arg3 harg3 arg4 harg4 arg6 harg6 arg10 arg11 x0 x1 x2 x4 LH0 LH1 fb))) (cand1L arg2 harg2 arg3 harg3 arg4 harg4 arg5 harg5 arg6 harg6 arg10 arg11 x0 x1 x2 x3 x4 LH0 LH1 fb) (ix2 ch n)
      = stepK1 (maskK x0) (mat2 x3) (slab3 x4 1) (stepK0 (maskK x0) (mat2 x2) (slab3 x4 0) (xK x1) h0) h1 ch n := by
  have e1 : k0_pay41 LH1 (ix2 ch n) = h1 ch n := (pay41_apply _ ch n).trans (hL1 ch n)
  have e3 : k0_pay69 (k0_pay55 (ldW1 arg5 harg5 x3) (patch1L arg2 harg2 arg3 harg3 arg4 harg4 arg6 harg6 arg10 arg11 x0 x1 x2 x4 LH0 LH1 fb)) (ix2 ch n) = (gatesK1 (maskK x0) (mat2 x3) (stepK0 (maskK x0) (mat2 x2) (slab3 x4 0) (xK x1) h0) h1) ⟨128 + ch.val, by have := ch.isLt; omega⟩ n :=
    (pay69_apply _ ch n).trans (l1_gates hL0 hL1 hb ⟨128 + ch.val, by have := ch.isLt; omega⟩ n)
  have e4 : (∑ k : Fin 576, k0_pay43 (ldR1 arg6 harg6 x4) (ix2 ch k) * (cand1L arg2 harg2 arg3 harg3 arg4 harg4 arg5 harg5 arg6 harg6 arg10 arg11 x0 x1 x2 x3 x4 LH0 LH1 fb) (ix2 k n))
      = candSum (maskK x0) (slab3 x4 1) (fun (j : Fin 64) (n : Lane) => h1 j n * Ideal.logistic ((gatesK1 (maskK x0) (mat2 x3) (stepK0 (maskK x0) (mat2 x2) (slab3 x4 0) (xK x1) h0) h1) ⟨j.val, by have := j.isLt; omega⟩ n)) ch n := by
    unfold candSum
    refine Finset.sum_congr rfl fun k _ => ?_
    rw [pay43_apply, ld61_apply, l1_cand hL0 hL1 hb k n]
  rw [pay70_apply, e1, l1_u hL0 hL1 hb, e3, e4]
  rfl

end Generic

end Cert.KernelIdeal.SemG

end
-- ==== Proof.KSemInit.lean ====
/-
  The first time step: what the initialising branch stores is what the step then reads as its state (zero) and as the
  bias rows of the patch matrix (a row of ones over fifteen zero rows).
-/
import proofs.«175272_g2000206920649175_pallasbulk_1279_5_alg».proof.Proof.KSemStepsG
import Idealize.ShloMosaic.Lib.IdealHost

set_option maxRecDepth 16384

noncomputable section

namespace Cert.KernelIdeal.Sem

open Cert.KernelIdeal Cert.KernelIdeal.Gen Cert.GruSpec

open Idealize.ShloMosaic Idealize.ShloMosaic.ValueIdx
open scoped BigOperators

/-! ## The first step: the state and the bias rows the initialising branch stores -/

section Init
variable {sig' : RefSig} {κ : Kind} {sp : Space}

theorem pay8_apply (y : S2x64x2304.Idx) : k0_pay8 (F := Ideal) y = 0 := by
  unfold k0_pay8
  rw [shapeCast_self]
  exact Ideal.ofBits_zero_f32

theorem pay9_apply (y : S16x2304.Idx) : k0_pay9 (F := Ideal) y = 0 := by
  unfold k0_pay9
  rw [shapeCast_self]
  exact Ideal.ofBits_zero_bf16

theorem pay10_apply (y : S1x2304.Idx) : k0_pay10 (F := Ideal) y = 1 := by
  unfold k0_pay10
  rw [shapeCast_self]
  exact Ideal.ofBits_one_bf16

/-- Layer 0's state slab loaded right after the zeroing store reads zero. -/
theorem initH0 (v : View sig' κ sp S2x64x2304 .f32)
    (iw : ∀ a, (![0, 0, 0] : Fin 3 → ℕ) a + S2x64x2304.size a ≤ S2x64x2304.size a)
    (ib : ∀ a, (![0, 0, 0] : Fin 3 → ℕ) a + S1x64x2304.size a ≤ S2x64x2304.size a) (ch : Fin 64) (n : Lane) :
    v.readCov [(⟨Rect.unit (s := S2x64x2304) ![0, 0, 0] S2x64x2304.size iw, k0_pay8 (F := Ideal)⟩ : View.Piece (Elt Ideal) S2x64x2304 .f32)]
      (Rect.unit (s := S2x64x2304) ![0, 0, 0] S1x64x2304.size ib).toLoadRect (ix3 0 ch n) = (fun (_ : Fin 64) (_ : Lane) => (0 : EReal)) ch n := by
  rw [View.readCov_eq_canon']
  show View.canon _ ((Rect.unit (s := S2x64x2304) ![0, 0, 0] S1x64x2304.size ib).toLoadRect.idx (ix3 0 ch n)) = 0
  rw [unit_idx_eq (s := S2x64x2304) ![0, 0, 0] S1x64x2304.size ib (ix3 0 ch n) (ix3 0 ch n)
    (fun a => match a with | ⟨0, _⟩ => rfl | ⟨1, _⟩ => (Nat.zero_add _).symm | ⟨2, _⟩ => (Nat.zero_add _).symm)]
  exact (canon_head (Val := Elt Ideal) (e := .f32) (s := S2x64x2304) ![0, 0, 0] S2x64x2304.size iw _ _ (ix3 0 ch n) (ix3 0 ch n)
    (fun a => match a with | ⟨0, _⟩ => rfl | ⟨1, _⟩ => (Nat.zero_add _).symm | ⟨2, _⟩ => (Nat.zero_add _).symm)).trans (pay8_apply _)

/-- Layer 1's state slab loaded after layer 0's slab was stored over the zeroing store still reads zero. -/
theorem initH1 (v : View sig' κ sp S2x64x2304 .f32)
    (iw : ∀ a, (![0, 0, 0] : Fin 3 → ℕ) a + S2x64x2304.size a ≤ S2x64x2304.size a)
    (i0 : ∀ a, (![0, 0, 0] : Fin 3 → ℕ) a + S1x64x2304.size a ≤ S2x64x2304.size a)
    (ib : ∀ a, (![1, 0, 0] : Fin 3 → ℕ) a + S1x64x2304.size a ≤ S2x64x2304.size a)
    (w0 : FVec Ideal S1x64x2304 .f32) (ch : Fin 64) (n : Lane) :
    v.readCov ((⟨Rect.unit (s := S2x64x2304) ![0, 0, 0] S1x64x2304.size i0, w0⟩ : View.Piece (Elt Ideal) S2x64x2304 .f32)
        :: [⟨Rect.unit (s := S2x64x2304) ![0, 0, 0] S2x64x2304.size iw, k0_pay8 (F := Ideal)⟩])
      (Rect.unit (s := S2x64x2304) ![1, 0, 0] S1x64x2304.size ib).toLoadRect (ix3 0 ch n) = (fun (_ : Fin 64) (_ : Lane) => (0 : EReal)) ch n := by
  rw [View.readCov_eq_canon']
  show View.canon _ ((Rect.unit (s := S2x64x2304) ![1, 0, 0] S1x64x2304.size ib).toLoadRect.idx (ix3 0 ch n)) = 0
  rw [unit_idx_eq (s := S2x64x2304) ![1, 0, 0] S1x64x2304.size ib (ix3 0 ch n) (ix3 1 ch n)
    (fun a => match a with | ⟨0, _⟩ => rfl | ⟨1, _⟩ => (Nat.zero_add _).symm | ⟨2, _⟩ => (Nat.zero_add _).symm)]
  refine (canon_skip (Val := Elt Ideal) (e := .f32) (s := S2x64x2304) ![0, 0, 0] S1x64x2304.size i0 w0 _ (ix3 1 ch n) (0 : Fin 3)
    (Or.inr (show (0 : ℕ) + 1 ≤ 1 from by omega))).trans ?_
  exact (canon_head (Val := Elt Ideal) (e := .f32) (s := S2x64x2304) ![0, 0, 0] S2x64x2304.size iw _ _ (ix3 1 ch n) (ix3 1 ch n)
    (fun a => match a with | ⟨0, _⟩ => (Nat.zero_add _).symm | ⟨1, _⟩ => (Nat.zero_add _).symm | ⟨2, _⟩ => (Nat.zero_add _).symm)).trans (pay8_apply _)

/-- The bias rows as the initialising branch leaves them: sixteen zero rows, then row 0 overwritten with ones (a store of
    two rows, the second as it was loaded: zero). -/
theorem initBias (v : View sig' κ sp S1168x2304 .bf16)
    (i2 : ∀ a, (![0, 0] : Fin 2 → ℕ) a + S2x2304.size a ≤ S1168x2304.size a)
    (i16 : ∀ a, (![0, 0] : Fin 2 → ℕ) a + S16x2304.size a ≤ S1168x2304.size a)
    (ib2 : ∀ a, (![0, 0] : Fin 2 → ℕ) a + S2x2304.size a ≤ S1168x2304.size a)
    (sl : S2x2304.Slices ![0, 0] S1x2304) :
    BiasK (v.read (Elt Ideal) (v.writes (Elt Ideal) v.junk
      [(⟨Rect.unit (s := S1168x2304) ![0, 0] S2x2304.size i2,
          updateSlice (v.readCov [(⟨Rect.unit (s := S1168x2304) ![0, 0] S16x2304.size i16, k0_pay9 (F := Ideal)⟩ : View.Piece (Elt Ideal) S1168x2304 .bf16)]
            (Rect.unit (s := S1168x2304) ![0, 0] S2x2304.size ib2).toLoadRect) (k0_pay10 (F := Ideal)) ![0, 0] sl⟩ : View.Piece (Elt Ideal) S1168x2304 .bf16),
        ⟨Rect.unit (s := S1168x2304) ![0, 0] S16x2304.size i16, k0_pay9 (F := Ideal)⟩])) := by
  intro n
  refine ⟨?_, fun k h1 h2 => ?_⟩
  · refine (read_head (Val := Elt Ideal) (e := .bf16) v v.junk ![0, 0] S2x2304.size i2 _ _ (ix2 ⟨0, by decide⟩ n) (ix2 0 n)
      (fun a => match a with | ⟨0, _⟩ => rfl | ⟨1, _⟩ => (Nat.zero_add _).symm)).trans ?_
    unfold updateSlice
    rw [dif_pos (fun a => match a with | ⟨0, _⟩ => ⟨Nat.le_refl _, (show (0 : ℕ) < 0 + 1 from by omega)⟩ | ⟨1, _⟩ => ⟨Nat.zero_le _, by show n.val < 0 + 2304; have := n.isLt; omega⟩)]
    exact pay10_apply _
  · by_cases hk1 : k.val = 1
    · have ek : k = ⟨1, by decide⟩ := Fin.ext hk1
      rw [ek]
      refine (read_head (Val := Elt Ideal) (e := .bf16) v v.junk ![0, 0] S2x2304.size i2 _ _ (ix2 ⟨1, by decide⟩ n) (ix2 1 n)
        (fun a => match a with | ⟨0, _⟩ => rfl | ⟨1, _⟩ => (Nat.zero_add _).symm)).trans ?_
      unfold updateSlice
      rw [dif_neg (fun h => absurd (show (1 : ℕ) < 0 + 1 from (h (0 : Fin 2)).2) (by omega))]
      rw [View.readCov_eq_canon']
      show View.canon _ ((Rect.unit (s := S1168x2304) ![0, 0] S2x2304.size ib2).toLoadRect.idx (ix2 1 n)) = 0
      rw [unit_idx_eq (s := S1168x2304) ![0, 0] S2x2304.size ib2 (ix2 1 n) (ix2 ⟨1, by decide⟩ n)
        (fun a => match a with | ⟨0, _⟩ => rfl | ⟨1, _⟩ => (Nat.zero_add _).symm)]
      exact (canon_head (Val := Elt Ideal) (e := .bf16) (s := S1168x2304) ![0, 0] S16x2304.size i16 _ _ (ix2 ⟨1, by decide⟩ n) (ix2 1 n)
        (fun a => match a with | ⟨0, _⟩ => rfl | ⟨1, _⟩ => (Nat.zero_add _).symm)).trans (pay9_apply _)
    · refine (read_skip (Val := Elt Ideal) (e := .bf16) v v.junk ![0, 0] S2x2304.size i2 _ _ (ix2 k n) (0 : Fin 2)
        (Or.inr (show (0 : ℕ) + 2 ≤ k.val from by omega))).trans ?_
      exact (read_head (Val := Elt Ideal) (e := .bf16) v v.junk ![0, 0] S16x2304.size i16 _ _ (ix2 k n) (ix2 ⟨k.val, h2⟩ n)
        (fun a => match a with | ⟨0, _⟩ => (Nat.zero_add _).symm | ⟨1, _⟩ => (Nat.zero_add _).symm)).trans (pay9_apply _)

end Init

/-! ## A covered load of the patch scratch, restated over what the first two stores left -/

section Split
variable {sig' : RefSig} {κ : Kind} {sp : Space}

/-- The load after eleven stores reads the last nine over what the first two left. -/
theorem readCov_split11 (v : View sig' κ sp S1168x2304 .bf16) (p8 p7 p6 p5 p4 p3 p2 p1 p0 t1 t0 : View.Piece (Elt Ideal) S1168x2304 .bf16) (B : LoadRect S1168x2304) :
    v.readCov (p8 :: p7 :: p6 :: p5 :: p4 :: p3 :: p2 :: p1 :: p0 :: [t1, t0]) B
      = View.readAt (Elt Ideal) v B (v.writes (Elt Ideal) (v.writes (Elt Ideal) v.junk [t1, t0]) [p8, p7, p6, p5, p4, p3, p2, p1, p0]) := rfl

/-- The load after twenty stores reads the last eighteen over what the first two left. -/
theorem readCov_split20 (v : View sig' κ sp S1168x2304 .bf16) (q8 q7 q6 q5 q4 q3 q2 q1 q0 p8 p7 p6 p5 p4 p3 p2 p1 p0 t1 t0 : View.Piece (Elt Ideal) S1168x2304 .bf16) (B : LoadRect S1168x2304) :
    v.readCov (q8 :: q7 :: q6 :: q5 :: q4 :: q3 :: q2 :: q1 :: q0 :: p8 :: p7 :: p6 :: p5 :: p4 :: p3 :: p2 :: p1 :: p0 :: [t1, t0]) B
      = View.readAt (Elt Ideal) v B (v.writes (Elt Ideal) (v.writes (Elt Ideal) v.junk [t1, t0]) (q8 :: q7 :: q6 :: q5 :: q4 :: q3 :: q2 :: q1 :: q0 :: [p8, p7, p6, p5, p4, p3, p2, p1, p0])) := rfl

/-- The same for the contents themselves. -/
theorem writes_split20 (v : View sig' κ sp S1168x2304 .bf16) (q8 q7 q6 q5 q4 q3 q2 q1 q0 p8 p7 p6 p5 p4 p3 p2 p1 p0 t1 t0 : View.Piece (Elt Ideal) S1168x2304 .bf16) :
    v.writes (Elt Ideal) v.junk (q8 :: q7 :: q6 :: q5 :: q4 :: q3 :: q2 :: q1 :: q0 :: p8 :: p7 :: p6 :: p5 :: p4 :: p3 :: p2 :: p1 :: p0 :: [t1, t0])
      = v.writes (Elt Ideal) (v.writes (Elt Ideal) v.junk [t1, t0]) (q8 :: q7 :: q6 :: q5 :: q4 :: q3 :: q2 :: q1 :: q0 :: [p8, p7, p6, p5, p4, p3, p2, p1, p0]) := rfl

end Split

end Cert.KernelIdeal.Sem

end
-- ==== Proof.KSem.lean ====
/-
  What one time step of the kernel computes, in the terms of the common specification: the hidden state the step leaves
  is the specification's two layers applied to the state it found (zero at the first step), and the patch scratch keeps
  its bias rows.
-/
import proofs.«175272_g2000206920649175_pallasbulk_1279_5_alg».proof.Proof.KSoundA
import proofs.«175272_g2000206920649175_pallasbulk_1279_5_alg».proof.Proof.KSoundB
import proofs.«175272_g2000206920649175_pallasbulk_1279_5_alg».proof.Proof.KSoundC
import proofs.«175272_g2000206920649175_pallasbulk_1279_5_alg».proof.Proof.KLayout
import proofs.«175272_g2000206920649175_pallasbulk_1279_5_alg».proof.Proof.KSemSteps
import proofs.«175272_g2000206920649175_pallasbulk_1279_5_alg».proof.Proof.KSemInit
import Idealize.ShloMosaic.Lib.ValueIdx

set_option maxRecDepth 16384

noncomputable section

namespace Cert.KernelIdeal.HandRun

open Cert.KernelIdeal Cert.KernelIdeal.Gen Cert.GruSpec

open Idealize.ShloMosaic Idealize.ShloMosaic.TcCoe Idealize.ShloMosaic.ValueIdx Idealize.ShloMosaic.Tactic

set_option maxHeartbeats 2000000 in
theorem semA (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : cond0_0 i) (hc1 : ¬cond0_1 i)
    (x0 : Vec Ideal S16x2304 .bf16) (x1 : Vec Ideal S1x1x4x32x576 .f32) (x2 : Vec Ideal S192x880 .bf16) (x3 : Vec Ideal S192x1168 .bf16) (x4 : Vec Ideal S2x64x576 .bf16) :
    (∀ (ch : Fin 64) (n : Lane), (resA (F := Ideal) c i arg2 harg2 arg3 harg3 arg4 harg4 arg5 harg5 arg6 harg6 arg7 harg7 arg8 harg8 arg9 harg9 arg10 harg10 arg11 harg11 hc0 hc1 x0 x1 x2 x3 x4).2.1 (ix3 0 ch n) = stepK0 (maskK x0) (mat2 x2) (slab3 x4 0) (xK x1) (fun _ _ => (0 : EReal)) ch n)
  ∧ (∀ (ch : Fin 64) (n : Lane), (resA (F := Ideal) c i arg2 harg2 arg3 harg3 arg4 harg4 arg5 harg5 arg6 harg6 arg7 harg7 arg8 harg8 arg9 harg9 arg10 harg10 arg11 harg11 hc0 hc1 x0 x1 x2 x3 x4).2.1 (ix3 1 ch n)
      = stepK1 (maskK x0) (mat2 x3) (slab3 x4 1) (stepK0 (maskK x0) (mat2 x2) (slab3 x4 0) (xK x1) (fun _ _ => (0 : EReal))) (fun _ _ => (0 : EReal)) ch n)
  ∧ BiasK (resA (F := Ideal) c i arg2 harg2 arg3 harg3 arg4 harg4 arg5 harg5 arg6 harg6 arg7 harg7 arg8 harg8 arg9 harg9 arg10 harg10 arg11 harg11 hc0 hc1 x0 x1 x2 x3 x4).2.2.1 := by
  refine ⟨fun ch n => ?_, fun ch n => ?_, ?_⟩
  · simp only [resA, soutA_0]
    rw [View.read_writes_junk_eq_canon]
    unfold kernelRun0_A
    dsimp only
    refine (canon_slab0 _ _ _ _ _ ch n).trans ?_
    refine (Sem.pay40_apply _ _ _ _ _ ch n).trans ?_
    sl_unfold_run_names
    simp only [Sem.readCov_split11]
    exact SemG.l0_step (h0 := fun _ _ => (0 : EReal)) (fun ch n => Sem.initH0 arg9.view _ _ ch n) (Sem.initBias arg10.view _ _ _ _) ch n
  · simp only [resA, soutA_0]
    rw [View.read_writes_junk_eq_canon]
    unfold kernelRun0_A
    dsimp only
    refine (canon_slab1 _ _ _ ch n).trans ?_
    refine (Sem.pay71_apply _ _ _ _ _ ch n).trans ?_
    sl_unfold_run_names
    simp only [Sem.readCov_split11, Sem.readCov_split20]
    exact SemG.l1_step (h0 := fun _ _ => (0 : EReal)) (h1 := fun _ _ => (0 : EReal)) (fun ch n => Sem.initH0 arg9.view _ _ ch n)
      (fun ch n => Sem.initH1 arg9.view _ _ _ _ ch n) (Sem.initBias arg10.view _ _ _ _) ch n
  · simp only [resA, soutA_1]
    rw [View.read_writes_junk_eq_canon, ← View.read_writes_junk_eq_canon arg10.view]
    unfold kernelRun0_A
    dsimp only
    sl_unfold_run_names
    simp only [Sem.readCov_split11]
    rw [Sem.writes_split20]
    exact SemG.l1_bias (Sem.initBias arg10.view _ _ _ _)

set_option maxHeartbeats 1000000 in
theorem semB (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : ¬cond0_1 i)
    (x0 : Vec Ideal S16x2304 .bf16) (x1 : Vec Ideal S1x1x4x32x576 .f32) (x2 : Vec Ideal S192x880 .bf16) (x3 : Vec Ideal S192x1168 .bf16) (x4 : Vec Ideal S2x64x576 .bf16) (xs0 : Vec Ideal S2x64x2304 .f32) (xs1 : Vec Ideal S1168x2304 .bf16) (xs2 : Vec Ideal S576x2304 .bf16) (hb : BiasK xs1) :
    (∀ (ch : Fin 64) (n : Lane), (resB (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.1 (ix3 0 ch n) = stepK0 (maskK x0) (mat2 x2) (slab3 x4 0) (xK x1) (slab3 xs0 0) ch n)
  ∧ (∀ (ch : Fin 64) (n : Lane), (resB (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.1 (ix3 1 ch n)
      = stepK1 (maskK x0) (mat2 x3) (slab3 x4 1) (stepK0 (maskK x0) (mat2 x2) (slab3 x4 0) (xK x1) (slab3 xs0 0)) (slab3 xs0 1) ch n)
  ∧ BiasK (resB (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.2.1 := by
  refine ⟨fun ch n => ?_, fun ch n => ?_, ?_⟩
  · simp only [resB, soutB_0]
    rw [View.read_writes_junk_eq_canon]
    unfold kernelRun0_B
    dsimp only
    refine (canon_slab0 _ _ _ _ _ ch n).trans ?_
    refine (Sem.pay40_apply _ _ _ _ _ ch n).trans ?_
    sl_unfold_run_names
    exact Sem.l0_step arg2 harg2 arg3 harg3 arg4 harg4 arg6 harg6 arg9 harg9 arg10 harg10 arg11 x0 x1 x2 x4 xs0 xs1 hb ch n
  · simp only [resB, soutB_0]
    rw [View.read_writes_junk_eq_canon]
    unfold kernelRun0_B
    dsimp only
    refine (canon_slab1 _ _ _ ch n).trans ?_
    refine (Sem.pay71_apply _ _ _ _ _ ch n).trans ?_
    sl_unfold_run_names
    exact Sem.l1_step arg2 harg2 arg3 harg3 arg4 harg4 arg5 harg5 arg6 harg6 arg9 harg9 arg10 harg10 arg11 x0 x1 x2 x3 x4 xs0 xs1 hb ch n
  · simp only [resB, soutB_1]
    unfold kernelRun0_B
    dsimp only
    sl_unfold_run_names
    exact Sem.l1_bias arg2 harg2 arg3 harg3 arg4 harg4 arg6 harg6 arg9 harg9 arg10 harg10 arg11 x0 x1 x2 x4 xs0 xs1 hb

set_option maxHeartbeats 1000000 in
theorem semC (c : Dev nD) (i : grid0.Coords) (arg2 : Memref sig .tc .vmem S16x2304 .bf16) (harg2 : arg2.IsWhole) (arg3 : Memref sig .tc .vmem S1x1x4x32x576 .f32) (harg3 : arg3.IsWhole) (arg4 : Memref sig .tc .vmem S192x880 .bf16) (harg4 : arg4.IsWhole) (arg5 : Memref sig .tc .vmem S192x1168 .bf16) (harg5 : arg5.IsWhole) (arg6 : Memref sig .tc .vmem S2x64x576 .bf16) (harg6 : arg6.IsWhole) (arg7 : Memref sig .tc .vmem S1x1x4x64x576 .f32) (harg7 : arg7.IsWhole) (arg8 : Memref sig .tc .vmem S1x4x2x64x576 .f32) (harg8 : arg8.IsWhole) (arg9 : Memref sig .tc .vmem S2x64x2304 .f32) (harg9 : arg9.IsWhole) (arg10 : Memref sig .tc .vmem S1168x2304 .bf16) (harg10 : arg10.IsWhole) (arg11 : Memref sig .tc .vmem S576x2304 .bf16) (harg11 : arg11.IsWhole) (hc0 : ¬cond0_0 i) (hc1 : cond0_1 i)
    (x0 : Vec Ideal S16x2304 .bf16) (x1 : Vec Ideal S1x1x4x32x576 .f32) (x2 : Vec Ideal S192x880 .bf16) (x3 : Vec Ideal S192x1168 .bf16) (x4 : Vec Ideal S2x64x576 .bf16) (xs0 : Vec Ideal S2x64x2304 .f32) (xs1 : Vec Ideal S1168x2304 .bf16) (xs2 : Vec Ideal S576x2304 .bf16) (hb : BiasK xs1) :
    (∀ (ch : Fin 64) (n : Lane), (resC (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.2.1 (ix3 0 ch n) = stepK0 (maskK x0) (mat2 x2) (slab3 x4 0) (xK x1) (slab3 xs0 0) ch n)
  ∧ (∀ (ch : Fin 64) (n : Lane), (resC (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.2.1 (ix3 1 ch n)
      = stepK1 (maskK x0) (mat2 x3) (slab3 x4 1) (stepK0 (maskK x0) (mat2 x2) (slab3 x4 0) (xK x1) (slab3 xs0 0)) (slab3 xs0 1) ch n)
  ∧ BiasK (resC (F := Ideal) c i arg2 harg2 arg3 harg3 arg4 harg4 arg5 harg5 arg6 harg6 arg7 harg7 arg8 harg8 arg9 harg9 arg10 harg10 arg11 harg11 hc0 hc1 x0 x1 x2 x3 x4 xs0 xs1 xs2).2.2.2.1 := by
  refine ⟨fun ch n => ?_, fun ch n => ?_, ?_⟩
  · simp only [resC, soutC_0]
    rw [View.read_writes_junk_eq_canon]
    unfold kernelRun0_C
    dsimp only
    refine (canon_slab0 _ _ _ _ _ ch n).trans ?_
    refine (Sem.pay40_apply _ _ _ _ _ ch n).trans ?_
    sl_unfold_run_names
    exact Sem.l0_step arg2 harg2 arg3 harg3 arg4 harg4 arg6 harg6 arg9 harg9 arg10 harg10 arg11 x0 x1 x2 x4 xs0 xs1 hb ch n
  · simp only [resC, soutC_0]
    rw [View.read_writes_junk_eq_canon]
    unfold kernelRun0_C
    dsimp only
    refine (canon_slab1 _ _ _ ch n).trans ?_
    refine (Sem.pay71_apply _ _ _ _ _ ch n).trans ?_
    sl_unfold_run_names
    exact Sem.l1_step arg2 harg2 arg3 harg3 arg4 harg4 arg5 harg5 arg6 harg6 arg9 harg9 arg10 harg10 arg11 x0 x1 x2 x3 x4 xs0 xs1 hb ch n
  · simp only [resC, soutC_1]
    unfold kernelRun0_C
    dsimp only
    sl_unfold_run_names
    exact Sem.l1_bias arg2 harg2 arg3 harg3 arg4 harg4 arg6 harg6 arg9 harg9 arg10 harg10 arg11 x0 x1 x2 x4 xs0 xs1 hb

end Cert.KernelIdeal.HandRun

end
-- ==== Proof.KPoint.lean ====
/-
  One grid point of the recurrence in terms of the specification: the hidden-state scratch after the point is the two
  layers' steps from the state the point before left (from zero at t = 0), on the point's input blocks, and the patch
  scratch keeps its bias rows.
-/
import proofs.«175272_g2000206920649175_pallasbulk_1279_5_alg».proof.Proof.KFrame
import proofs.«175272_g2000206920649175_pallasbulk_1279_5_alg».proof.Proof.KSem

set_option maxRecDepth 16384

set_option maxHeartbeats 1600000
noncomputable section

namespace Cert.KernelIdeal.Hand

open Cert.KernelIdeal Cert.KernelIdeal.Gen Cert.KernelIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec

variable (m : (ℓ : Loc nD τ sig) → Buf (Elt Ideal) ℓ)

/-- A point with t = 0: both layers step from the zero state. -/
theorem point_first (c : Dev nD) (p : Fin cfg0.N) (h0 : p.val % 32 = 0) :
    (∀ (ch : Fin 64) (n : Lane), (outsAt0 (F := Ideal) m c p.val p.isLt).2.2.1 (ix3 0 ch n) = stepK0 (maskK (iblk m c 0 p)) (mat2 (iblk m c 2 p)) (slab3 (iblk m c 4 p) 0) (xK (iblk m c 1 p)) (fun _ _ => (0 : EReal)) ch n)
  ∧ (∀ (ch : Fin 64) (n : Lane), (outsAt0 (F := Ideal) m c p.val p.isLt).2.2.1 (ix3 1 ch n) = stepK1 (maskK (iblk m c 0 p)) (mat2 (iblk m c 3 p)) (slab3 (iblk m c 4 p) 1) (stepK0 (maskK (iblk m c 0 p)) (mat2 (iblk m c 2 p)) (slab3 (iblk m c 4 p) 0) (xK (iblk m c 1 p)) (fun _ _ => (0 : EReal))) (fun _ _ => (0 : EReal)) ch n)
  ∧ BiasK (outsAt0 (F := Ideal) m c p.val p.isLt).2.2.2.1 := by
  have h1 : ¬p.val % 32 = 31 := by omega
  rw [outsAt0_A m c p h0 h1]; unfold stA; dsimp only
  exact semA c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) ((hcond0_0 p).mpr h0) (fun h => h1 ((hcond0_1 p).mp h)) (iblk m c 0 p) (iblk m c 1 p) (iblk m c 2 p) (iblk m c 3 p) (iblk m c 4 p)

/-- A point with t > 0: both layers step from what the point before left, whose patch scratch has its bias rows. -/
theorem point_next (c : Dev nD) (p : Fin cfg0.N) (h0 : ¬p.val % 32 = 0) (hb : BiasK ((outsAt0 (F := Ideal) m c (p.val - 1) (Nat.lt_of_le_of_lt (Nat.sub_le _ _) p.isLt))).2.2.2.1) :
    (∀ (ch : Fin 64) (n : Lane), (outsAt0 (F := Ideal) m c p.val p.isLt).2.2.1 (ix3 0 ch n) = stepK0 (maskK (iblk m c 0 p)) (mat2 (iblk m c 2 p)) (slab3 (iblk m c 4 p) 0) (xK (iblk m c 1 p)) (slab3 ((outsAt0 (F := Ideal) m c (p.val - 1) (Nat.lt_of_le_of_lt (Nat.sub_le _ _) p.isLt))).2.2.1 0) ch n)
  ∧ (∀ (ch : Fin 64) (n : Lane), (outsAt0 (F := Ideal) m c p.val p.isLt).2.2.1 (ix3 1 ch n) = stepK1 (maskK (iblk m c 0 p)) (mat2 (iblk m c 3 p)) (slab3 (iblk m c 4 p) 1) (stepK0 (maskK (iblk m c 0 p)) (mat2 (iblk m c 2 p)) (slab3 (iblk m c 4 p) 0) (xK (iblk m c 1 p)) (slab3 ((outsAt0 (F := Ideal) m c (p.val - 1) (Nat.lt_of_le_of_lt (Nat.sub_le _ _) p.isLt))).2.2.1 0)) (slab3 ((outsAt0 (F := Ideal) m c (p.val - 1) (Nat.lt_of_le_of_lt (Nat.sub_le _ _) p.isLt))).2.2.1 1) ch n)
  ∧ BiasK (outsAt0 (F := Ideal) m c p.val p.isLt).2.2.2.1 := by
  by_cases h1 : p.val % 32 = 31
  · rw [outsAt0_C m c p h0 h1]; unfold stC; dsimp only
    exact semC c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) (iblk m c 4 p) ((outsAt0 (F := Ideal) m c (p.val - 1) (Nat.lt_of_le_of_lt (Nat.sub_le _ _) p.isLt))).2.2.1 ((outsAt0 (F := Ideal) m c (p.val - 1) (Nat.lt_of_le_of_lt (Nat.sub_le _ _) p.isLt))).2.2.2.1 ((outsAt0 (F := Ideal) m c (p.val - 1) (Nat.lt_of_le_of_lt (Nat.sub_le _ _) p.isLt))).2.2.2.2 hb
  · rw [outsAt0_B m c p h0 h1]; unfold stB; dsimp only
    exact semB c (grid0.coords p) (ms0_0 p) (hs0_0 p) (ms0_1 p) (hs0_1 p) (ms0_2 p) (hs0_2 p) (ms0_3 p) (hs0_3 p) (ms0_4 p) (hs0_4 p) (ms0_5 p) (hs0_5 p) (ms0_6 p) (hs0_6 p) scM0_0 (Memref.isWhole_whole _) scM0_1 (Memref.isWhole_whole _) scM0_2 (Memref.isWhole_whole _) (fun h => h0 ((hcond0_0 p).mp h)) (fun h => h1 ((hcond0_1 p).mp h)) (iblk m c 0 p) (iblk m c 1 p) (iblk m c 2 p) (iblk m c 3 p) (iblk m c 4 p) ((outsAt0 (F := Ideal) m c (p.val - 1) (Nat.lt_of_le_of_lt (Nat.sub_le _ _) p.isLt))).2.2.1 ((outsAt0 (F := Ideal) m c (p.val - 1) (Nat.lt_of_le_of_lt (Nat.sub_le _ _) p.isLt))).2.2.2.1 ((outsAt0 (F := Ideal) m c (p.val - 1) (Nat.lt_of_le_of_lt (Nat.sub_le _ _) p.isLt))).2.2.2.2 hb

end Cert.KernelIdeal.Hand

end
-- ==== Proof.RSemLib.lean ====
/-
  Index-level facts used to read the reference program's kernel body as the GRU recurrence, at the extended reals:
  a lane rotation, a row broadcast, a slice of rows and the unit-axis shape casts read at explicit coordinates; a load
  of an owned buffer at an index; the rows of the two patch matrices in the specification's terms; a buffer written
  by a list of slab stores read at an index the FIRST n stores cover (the older stores underneath do not matter), and
  at an index none covers; the two matrix products at an entry.
-/
import proofs.«175272_g2000206920649175_pallasbulk_1279_5_alg».proof.Proof.RLayout
import proofs.«175272_g2000206920649175_pallasbulk_1279_5_alg».proof.Proof.SemDefs
import proofs.«175272_g2000206920649175_pallasbulk_1279_5_alg».proof.Proof.LibMatmulAt
import Idealize.ShloMosaic.Lib.IdealHost

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec
open scoped BigOperators

set_option pp.maxSteps 5000
set_option pp.deepTerms false

/-! ## Layout operations at explicit coordinates -/

/-- A rotation along the lanes puts at lane `n` what was at lane `n - a` modulo 2304. -/
theorem rot_apply {α : Type} (a : BitVec 32) (v : S64x2304.Idx → α) (h : S64x2304.Rotates 1 none) (j : Fin 64) (n : Fin 2304) :
    dynamicRotate (s := S64x2304) 1 a none v h (ix2 j n) = v (ix2 j (rotBy a.toNat n)) := by
  unfold dynamicRotate
  refine congrArg v (funext fun b => ?_)
  match b with
  | ⟨0, _⟩ => rfl
  | ⟨1, _⟩ => exact Fin.ext (by show (n.val + 2304 - (a.toNat + 0) % 2304) % 2304 = (n.val + 2304 - a.toNat % 2304) % 2304; omega)

/-- A row broadcast down the 64 rows reads the row. -/
theorem bcast_row_apply {α : Type} (r : S1x2304.Idx → α) (h : S1x2304.Broadcasts S64x2304) (j : Fin 64) (n : Fin 2304) :
    broadcastTo S64x2304 r h (ix2 j n) = r (ix2 (0 : Fin 1) n) :=
  broadcastTo_apply r h _ (ix2 (0 : Fin 1) n) (fun a => match a with | ⟨0, _⟩ => rfl | ⟨1, _⟩ => rfl)

/-- A `[1, 1, 64, 2304]` array cast to `[64, 2304]` reads, at `(ch, n)`, the operand at `(0, 0, ch, n)`. -/
theorem cast_4_2_apply {α : Type} (x : S1x1x64x2304.Idx → α) (h : S1x1x64x2304.ShapeCasts S64x2304) (ch : Fin 64) (n : Fin 2304) :
    shapeCast S64x2304 x h (ix2 ch n) = x (ix4 (0 : Fin 1) (0 : Fin 1) ch n) :=
  shapeCast_apply x h _ _ (by
    rw [Shape.rowMajor_val_four, Shape.rowMajor_val_two]
    show ((0 * 1 + 0) * 64 + ch.val) * 2304 + n.val = ch.val * 2304 + n.val
    omega)

/-- A slice of 64 rows of the 192-row gate matrix, at row offset `o`. -/
theorem slice_rows_apply {α : Type} (o : Nat) (ho : o + 64 ≤ 192) (X : S192x2304.Idx → α) (h : S192x2304.Slices ![o, 0] S64x2304)
    (r : Fin 64) (n : Fin 2304) :
    extractStridedSlice S64x2304 ![o, 0] X h (ix2 r n) = X (ix2 (⟨o + r.val, by omega⟩ : Fin 192) n) :=
  extractStridedSlice_apply _ X h _ _ (fun a => match a with
    | ⟨0, _⟩ => rfl
    | ⟨1, _⟩ => by show n.val = 0 + n.val; omega)

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## A load of an owned buffer at an index -/

/-- A load from a buffer owned at contents `X` reads `X` at the load's index. -/
theorem leaf_apply {sp : Space} {s : Shape} (m : Memref sig .tc sp s .f32) (hm : m.IsWhole) (X : s.Idx → EReal) (B : LoadRect s)
    (j : B.shape.Idx) : View.readAt (Elt Ideal) m.view B (hm.unread X) j = X (B.idx j) := by
  rw [View.readAt_apply, hm.read_unread]

/-- The index of row `i` of a matrix, entered at `(0, n)`. -/
theorem idx_row {R C : Nat} (i : Nat) (inb) (hi : i < R) (u : Fin 1) (n : Fin C) :
    (Rect.unit (s := ⟨2, ![R, C]⟩) ![i, 0] ![1, C] inb).toLoadRect.idx (ix2 u n) = ix2 (⟨i, hi⟩ : Fin R) n := by
  funext a; apply Fin.ext
  match a with
  | ⟨0, _⟩ => show i + 1 * u.val = i; omega
  | ⟨1, _⟩ => show 0 + 1 * n.val = n.val; omega

/-- The index of slab `l` of a rank-3 buffer, entered at `(0, r, k)`. -/
theorem idx_slab3 {A B C : Nat} (l : Nat) (inb) (hl : l < A) (u : Fin 1) (r : Fin B) (k : Fin C) :
    (Rect.unit (s := ⟨3, ![A, B, C]⟩) ![l, 0, 0] ![1, B, C] inb).toLoadRect.idx (ix3 u r k) = ix3 (⟨l, hl⟩ : Fin A) r k := by
  funext a; apply Fin.ext
  match a with
  | ⟨0, _⟩ => show l + 1 * u.val = l; omega
  | ⟨1, _⟩ => show 0 + 1 * r.val = r.val; omega
  | ⟨2, _⟩ => show 0 + 1 * k.val = k.val; omega

/-- The index of the whole rank-4 block. -/
theorem idx_whole4 {A B C D : Nat} (inb) (a : Fin A) (b : Fin B) (c : Fin C) (d : Fin D) :
    (Rect.unit (s := ⟨4, ![A, B, C, D]⟩) ![0, 0, 0, 0] ![A, B, C, D] inb).toLoadRect.idx (ix4 a b c d) = ix4 a b c d := by
  funext e; apply Fin.ext
  match e with
  | ⟨0, _⟩ => show 0 + 1 * a.val = a.val; omega
  | ⟨1, _⟩ => show 0 + 1 * b.val = b.val; omega
  | ⟨2, _⟩ => show 0 + 1 * c.val = c.val; omega
  | ⟨3, _⟩ => show 0 + 1 * d.val = d.val; omega

/-- The index of the whole matrix. -/
theorem idx_whole2 {R C : Nat} (inb) (k : Fin R) (n : Fin C) :
    (Rect.unit (s := ⟨2, ![R, C]⟩) ![0, 0] ![R, C] inb).toLoadRect.idx (ix2 k n) = ix2 k n := by
  funext e; apply Fin.ext
  match e with
  | ⟨0, _⟩ => show 0 + 1 * k.val = k.val; omega
  | ⟨1, _⟩ => show 0 + 1 * n.val = n.val; omega

/-! ## The rows of the patch matrices in the specification's terms -/

theorem patchR_inp (mask : Fin 9 → Lane → EReal) (inp h : Fin 64 → Lane → EReal) (i : Fin 9) (j : Fin 64) (n : Lane) (k : Fin 1160)
    (hk : k.val = 128 * i.val + j.val) : patchR mask inp h k n = inp j (rotBy (amt i) n) * mask i n := by
  have h1 : k.val < 1152 := by omega
  have h2 : k.val % 128 < 64 := by omega
  have e1 : (⟨k.val / 128, by omega⟩ : Fin 9) = i := Fin.ext (by show k.val / 128 = i.val; omega)
  have e2 : (⟨k.val % 128, h2⟩ : Fin 64) = j := Fin.ext (by show k.val % 128 = j.val; omega)
  unfold patchR
  rw [dif_pos h1, dif_pos h2]
  unfold shift
  rw [e1, e2]

theorem patchR_st (mask : Fin 9 → Lane → EReal) (inp h : Fin 64 → Lane → EReal) (i : Fin 9) (j : Fin 64) (n : Lane) (k : Fin 1160)
    (hk : k.val = 128 * i.val + 64 + j.val) : patchR mask inp h k n = h j (rotBy (amt i) n) * mask i n := by
  have h1 : k.val < 1152 := by omega
  have h2 : ¬ k.val % 128 < 64 := by omega
  have e1 : (⟨k.val / 128, by omega⟩ : Fin 9) = i := Fin.ext (by show k.val / 128 = i.val; omega)
  have e2 : (⟨k.val % 128 - 64, by omega⟩ : Fin 64) = j := Fin.ext (by show k.val % 128 - 64 = j.val; omega)
  unfold patchR
  rw [dif_pos h1, dif_neg h2]
  unfold shift
  rw [e1, e2]

theorem patchR_one (mask : Fin 9 → Lane → EReal) (inp h : Fin 64 → Lane → EReal) (n : Lane) (k : Fin 1160) (hk : k.val = 1152) :
    patchR mask inp h k n = 1 := by
  unfold patchR; rw [dif_neg (by omega), if_pos hk]
theorem patchR_zero (mask : Fin 9 → Lane → EReal) (inp h : Fin 64 → Lane → EReal) (n : Lane) (k : Fin 1160) (hk : 1153 ≤ k.val) :
    patchR mask inp h k n = 0 := by
  unfold patchR; rw [dif_neg (by omega), if_neg (by omega)]

theorem patchC_apply (mask : Fin 9 → Lane → EReal) (hr : Fin 64 → Lane → EReal) (i : Fin 9) (j : Fin 64) (n : Lane) (k : Fin 576)
    (hk : k.val = 64 * i.val + j.val) : patchC mask hr k n = hr j (rotBy (amt i) n) * mask i n := by
  have e1 : (⟨k.val / 64, by omega⟩ : Fin 9) = i := Fin.ext (by show k.val / 64 = i.val; omega)
  have e2 : (⟨k.val % 64, Nat.mod_lt _ (by decide)⟩ : Fin 64) = j := Fin.ext (by show k.val % 64 = j.val; omega)
  unfold patchC shift
  rw [e1, e2]

/-! ## A buffer written by slab stores, read at an index -/

/-- When the first `n` pieces of the list (the LAST `n` stores) are blocks of one function `G` and cover `y`, the
    buffer reads `G y` there, whatever the older stores and the prior contents were. -/
theorem read_writes_take {κ : Kind} {sp : Space} {s : Shape} (v : View sig κ sp s .f32) (f : v.ty.Contents (Elt Ideal))
    (G : s.Idx → EReal) (n : Nat) (L : List (View.Piece (Elt Ideal) s .f32))
    (hG : ∀ p ∈ L.take n, ∀ x : p.1.shape.Idx, p.2 x = G (p.1.emb x)) (y : s.Idx) (hc : ∃ p ∈ L.take n, y ∈ p.1.set) :
    v.read (Elt Ideal) (v.writes (Elt Ideal) f L) y = G y := by
  conv_lhs => rw [← List.take_append_drop n L, View.writes_append]
  exact View.read_writes_apply_of_pieces _ _ G _ hG y hc

/-- A rectangle of a matrix that is the 64-row slab at row offset `o` (all columns, unit strides). -/
def IsSlab {R C : Nat} (r : Rect (⟨2, ![R, C]⟩ : Shape)) (o : Nat) : Prop :=
  r.off = ![o, 0] ∧ r.size = ![64, C] ∧ r.stride = fun _ => 1

/-- An index in the rows of a slab is in the slab. -/
theorem mem_slab {R C : Nat} (r : Rect (⟨2, ![R, C]⟩ : Shape)) (o : Nat) (hr : IsSlab r o) (k : Fin R) (n : Fin C)
    (h1 : o ≤ k.val) (h2 : k.val < o + 64) : ix2 k n ∈ r.set := by
  obtain ⟨hoff, hsize, hstride⟩ := hr
  rw [LoadRect.mem_set]
  intro a
  rw [hoff, hsize, hstride]
  match a with
  | ⟨0, _⟩ => exact ⟨k.val - o, by show k.val - o < 64; omega, by show k.val = o + 1 * (k.val - o); omega⟩
  | ⟨1, _⟩ => exact ⟨n.val, n.isLt, by show n.val = 0 + 1 * n.val; omega⟩

/-- An index outside the rows of a slab is not in it. -/
theorem not_mem_slab {R C : Nat} (r : Rect (⟨2, ![R, C]⟩ : Shape)) (o : Nat) (hr : IsSlab r o) (k : Fin R) (n : Fin C)
    (h : k.val < o ∨ o + 64 ≤ k.val) : ix2 k n ∉ r.set := fun hm => by
  obtain ⟨hoff, hsize, hstride⟩ := hr
  rw [LoadRect.mem_set] at hm
  obtain ⟨j, hj, e⟩ := hm ⟨0, by show 0 < 2; omega⟩
  rw [hoff, hstride] at e
  rw [hsize] at hj
  have hj' : j < 64 := hj
  have e' : k.val = o + 1 * j := e
  omega

theorem exists_mem_cons_of_exists_mem {α : Type} {P : α → Prop} {a : α} {L : List α} (h : ∃ p ∈ L, P p) : ∃ p ∈ a :: L, P p :=
  h.elim fun p hp => ⟨p, List.mem_cons_of_mem _ hp.1, hp.2⟩

/-- A list holding the slab at row offset `64 s` for every `s < m` covers the rows below `64 m`. -/
theorem cover_of_slabs {R C : Nat} (L : List (View.Piece (Elt Ideal) ⟨2, ![R, C]⟩ .f32)) (m : Nat)
    (hL : ∀ s, s < m → ∃ p ∈ L, IsSlab p.1 (64 * s))
    (k : Fin R) (n : Fin C) (hk : k.val < 64 * m) : ∃ p ∈ L, ix2 k n ∈ p.1.set := by
  obtain ⟨p, hp, hr⟩ := hL (k.val / 64) (by omega)
  exact ⟨p, hp, mem_slab p.1 _ hr k n (by omega) (by omega)⟩

/-- A list of slabs all lying in the rows below `B` misses every index at or beyond row `B`. -/
theorem miss_of_slabs {R C : Nat} (L : List (View.Piece (Elt Ideal) ⟨2, ![R, C]⟩ .f32)) (B : Nat)
    (hL : ∀ p ∈ L, ∃ o, o + 64 ≤ B ∧ IsSlab p.1 o)
    (k : Fin R) (n : Fin C) (hk : B ≤ k.val) : ∀ p ∈ L, ix2 k n ∉ p.1.set := fun p hp => by
  obtain ⟨o, ho, hr⟩ := hL p hp
  exact not_mem_slab p.1 o hr k n (Or.inr (by omega))

/-- Finds, in a list of explicit pieces, the slab at the row offset the goal names. -/
syntax "find_slab" : tactic
macro_rules
  | `(tactic| find_slab) => `(tactic| first
      | exact ⟨_, List.mem_cons_self, rfl, rfl, rfl⟩
      | (apply exists_mem_cons_of_exists_mem; find_slab))

/-- Shows every piece of a list of explicit pieces is a slab below the bound the goal names. -/
syntax "all_slabs" : tactic
macro_rules
  | `(tactic| all_slabs) => `(tactic| first
      | exact List.forall_mem_nil _
      | (refine List.forall_mem_cons.mpr ⟨⟨_, by decide, rfl, rfl, rfl⟩, ?_⟩; all_slabs))

/-- A slab piece is a block of `G` when its payload at `(j, n)` is `G` at row `o + j`. -/
theorem slab_piece_of {R : Nat} (G : (⟨2, ![R, 2304]⟩ : Shape).Idx → EReal) (o : Nat) (inb) (w : S64x2304.Idx → EReal)
    (H : ∀ (j : Fin 64) (n : Fin 2304) (k : Fin R), k.val = o + j.val → w (ix2 j n) = G (ix2 k n)) :
    ∀ x : (Rect.unit (s := ⟨2, ![R, 2304]⟩) ![o, 0] S64x2304.size inb).shape.Idx,
      w x = G ((Rect.unit (s := ⟨2, ![R, 2304]⟩) ![o, 0] S64x2304.size inb).emb x) := by
  intro x
  obtain ⟨j, n, rfl⟩ : ∃ (j : Fin 64) (n : Fin 2304), x = ix2 j n := ⟨x 0, x 1, eq_ix2 x⟩
  have hb : o + j.val < R := by
    have h0 := inb ⟨0, by show 0 < 2; omega⟩
    have h1 : o + 64 ≤ R := h0
    omega
  have e : (Rect.unit (s := ⟨2, ![R, 2304]⟩) ![o, 0] S64x2304.size inb).emb (ix2 j n) = ix2 (⟨o + j.val, hb⟩ : Fin R) n := by
    funext a; apply Fin.ext
    match a with
    | ⟨0, _⟩ => show o + 1 * j.val = o + j.val; omega
    | ⟨1, _⟩ => show 0 + 1 * n.val = n.val; omega
  rw [e]
  exact H j n _ rfl

/-! ## The two matrix products at an entry -/

/-- The gates' product: 192 rows of weights against the 1160-row patch matrix. -/
theorem gates_matmul_apply (l : FVec Ideal S192x1160 .f32) (r : FVec Ideal S1160x2304 .f32) (p : Fin 192) (q : Fin 2304) :
    matmul dot_S192x1160_S1160x2304_S192x2304_1_0_0_1_n_n none l r (constant S192x2304 .f32 0x00000000#32) (ix2 p q)
      = ∑ k : Fin 1160, l (ix2 p k) * r (ix2 k q) :=
  Cert.Lib.matmul_zero_apply dot_S192x1160_S1160x2304_S192x2304_1_0_0_1_n_n rfl rfl
    (fun _ _ => rfl) (fun i q => DotDims.lhsIdx_val_of_single (d := dot_S192x1160_S1160x2304_S192x2304_1_0_0_1_n_n) (cl := 1) rfl i q)
    (fun i q => DotDims.rhsIdx_val_of_single (d := dot_S192x1160_S1160x2304_S192x2304_1_0_0_1_n_n) (cr := 0) rfl i q) (fun _ _ => rfl) l r p q

/-- The candidate's recurrent product: 64 rows of weights against the 576-row patch matrix. -/
theorem cand_matmul_apply (l : FVec Ideal S64x576 .f32) (r : FVec Ideal S576x2304 .f32) (p : Fin 64) (q : Fin 2304) :
    matmul dot_S64x576_S576x2304_S64x2304_1_0_0_1_n_n none l r (constant S64x2304 .f32 0x00000000#32) (ix2 p q)
      = ∑ k : Fin 576, l (ix2 p k) * r (ix2 k q) :=
  Cert.Lib.matmul_zero_apply dot_S64x576_S576x2304_S64x2304_1_0_0_1_n_n rfl rfl
    (fun _ _ => rfl) (fun i q => DotDims.lhsIdx_val_of_single (d := dot_S64x576_S576x2304_S64x2304_1_0_0_1_n_n) (cl := 1) rfl i q)
    (fun i q => DotDims.rhsIdx_val_of_single (d := dot_S64x576_S576x2304_S64x2304_1_0_0_1_n_n) (cr := 0) rfl i q) (fun _ _ => rfl) l r p q

end Cert.ReferenceIdeal.HandRun

end
-- ==== Proof.RSemIdx.lean ====
/-
  The indices of the loads the reference program's kernel body makes, at the literal rectangles it uses, and the
  rotation amount of each of the nine taps.
-/
import proofs.«175272_g2000206920649175_pallasbulk_1279_5_alg».proof.Proof.RSemLib

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec

/-! ## The indices of the body's loads, at the literal rectangles it uses -/

theorem idx_row9_0 (u : Fin 1) (n : Fin 2304) :
    (Rect.unit (s := S9x2304) ![0, 0] S1x2304.size inb_S9x2304_S1x2304_0_0).toLoadRect.idx (ix2 u n) = ix2 (⟨0, by decide⟩ : Fin 9) n :=
  idx_row 0 _ (by decide) u n
theorem idx_row9_1 (u : Fin 1) (n : Fin 2304) :
    (Rect.unit (s := S9x2304) ![1, 0] S1x2304.size inb_S9x2304_S1x2304_1_0).toLoadRect.idx (ix2 u n) = ix2 (⟨1, by decide⟩ : Fin 9) n :=
  idx_row 1 _ (by decide) u n
theorem idx_row9_2 (u : Fin 1) (n : Fin 2304) :
    (Rect.unit (s := S9x2304) ![2, 0] S1x2304.size inb_S9x2304_S1x2304_2_0).toLoadRect.idx (ix2 u n) = ix2 (⟨2, by decide⟩ : Fin 9) n :=
  idx_row 2 _ (by decide) u n
theorem idx_row9_3 (u : Fin 1) (n : Fin 2304) :
    (Rect.unit (s := S9x2304) ![3, 0] S1x2304.size inb_S9x2304_S1x2304_3_0).toLoadRect.idx (ix2 u n) = ix2 (⟨3, by decide⟩ : Fin 9) n :=
  idx_row 3 _ (by decide) u n
theorem idx_row9_4 (u : Fin 1) (n : Fin 2304) :
    (Rect.unit (s := S9x2304) ![4, 0] S1x2304.size inb_S9x2304_S1x2304_4_0).toLoadRect.idx (ix2 u n) = ix2 (⟨4, by decide⟩ : Fin 9) n :=
  idx_row 4 _ (by decide) u n
theorem idx_row9_5 (u : Fin 1) (n : Fin 2304) :
    (Rect.unit (s := S9x2304) ![5, 0] S1x2304.size inb_S9x2304_S1x2304_5_0).toLoadRect.idx (ix2 u n) = ix2 (⟨5, by decide⟩ : Fin 9) n :=
  idx_row 5 _ (by decide) u n
theorem idx_row9_6 (u : Fin 1) (n : Fin 2304) :
    (Rect.unit (s := S9x2304) ![6, 0] S1x2304.size inb_S9x2304_S1x2304_6_0).toLoadRect.idx (ix2 u n) = ix2 (⟨6, by decide⟩ : Fin 9) n :=
  idx_row 6 _ (by decide) u n
theorem idx_row9_7 (u : Fin 1) (n : Fin 2304) :
    (Rect.unit (s := S9x2304) ![7, 0] S1x2304.size inb_S9x2304_S1x2304_7_0).toLoadRect.idx (ix2 u n) = ix2 (⟨7, by decide⟩ : Fin 9) n :=
  idx_row 7 _ (by decide) u n
theorem idx_row9_8 (u : Fin 1) (n : Fin 2304) :
    (Rect.unit (s := S9x2304) ![8, 0] S1x2304.size inb_S9x2304_S1x2304_8_0).toLoadRect.idx (ix2 u n) = ix2 (⟨8, by decide⟩ : Fin 9) n :=
  idx_row 8 _ (by decide) u n
theorem idx_h_0 (u : Fin 1) (r : Fin 64) (k : Fin 2304) :
    (Rect.unit (s := S2x64x2304) ![0, 0, 0] S1x64x2304.size inb_S2x64x2304_S1x64x2304_0_0_0).toLoadRect.idx (ix3 u r k) = ix3 (⟨0, by decide⟩ : Fin 2) r k :=
  idx_slab3 0 _ (by decide) u r k
theorem idx_h_1 (u : Fin 1) (r : Fin 64) (k : Fin 2304) :
    (Rect.unit (s := S2x64x2304) ![1, 0, 0] S1x64x2304.size inb_S2x64x2304_S1x64x2304_1_0_0).toLoadRect.idx (ix3 u r k) = ix3 (⟨1, by decide⟩ : Fin 2) r k :=
  idx_slab3 1 _ (by decide) u r k
theorem idx_w1_0 (u : Fin 1) (r : Fin 192) (k : Fin 1160) :
    (Rect.unit (s := S2x192x1160) ![0, 0, 0] S1x192x1160.size inb_S2x192x1160_S1x192x1160_0_0_0).toLoadRect.idx (ix3 u r k) = ix3 (⟨0, by decide⟩ : Fin 2) r k :=
  idx_slab3 0 _ (by decide) u r k
theorem idx_w1_1 (u : Fin 1) (r : Fin 192) (k : Fin 1160) :
    (Rect.unit (s := S2x192x1160) ![1, 0, 0] S1x192x1160.size inb_S2x192x1160_S1x192x1160_1_0_0).toLoadRect.idx (ix3 u r k) = ix3 (⟨1, by decide⟩ : Fin 2) r k :=
  idx_slab3 1 _ (by decide) u r k
theorem idx_w2_0 (u : Fin 1) (r : Fin 64) (k : Fin 576) :
    (Rect.unit (s := S2x64x576) ![0, 0, 0] S1x64x576.size inb_S2x64x576_S1x64x576_0_0_0).toLoadRect.idx (ix3 u r k) = ix3 (⟨0, by decide⟩ : Fin 2) r k :=
  idx_slab3 0 _ (by decide) u r k
theorem idx_w2_1 (u : Fin 1) (r : Fin 64) (k : Fin 576) :
    (Rect.unit (s := S2x64x576) ![1, 0, 0] S1x64x576.size inb_S2x64x576_S1x64x576_1_0_0).toLoadRect.idx (ix3 u r k) = ix3 (⟨1, by decide⟩ : Fin 2) r k :=
  idx_slab3 1 _ (by decide) u r k
theorem idx_x (a b : Fin 1) (ch : Fin 64) (n : Fin 2304) :
    (Rect.unit (s := S1x1x64x2304) ![0, 0, 0, 0] S1x1x64x2304.size inb_S1x1x64x2304_S1x1x64x2304_0_0_0_0).toLoadRect.idx (ix4 a b ch n) = ix4 a b ch n :=
  idx_whole4 _ a b ch n
theorem idx_p1 (k : Fin 1160) (n : Fin 2304) :
    (Rect.unit (s := S1160x2304) ![0, 0] S1160x2304.size inb_S1160x2304_S1160x2304_0_0).toLoadRect.idx (ix2 k n) = ix2 k n :=
  idx_whole2 _ k n
theorem idx_p2 (k : Fin 576) (n : Fin 2304) :
    (Rect.unit (s := S576x2304) ![0, 0] S576x2304.size inb_S576x2304_S576x2304_0_0).toLoadRect.idx (ix2 k n) = ix2 k n :=
  idx_whole2 _ k n
theorem rotBy_zero (n : Lane) : rotBy 0 n = n := Fin.ext (by show (n.val + 2304 - 0 % 2304) % 2304 = n.val; omega)

theorem amt_0 (h : 0 < 9) : amt ⟨0, h⟩ = 25 := rfl
theorem amt_1 (h : 1 < 9) : amt ⟨1, h⟩ = 24 := rfl
theorem amt_2 (h : 2 < 9) : amt ⟨2, h⟩ = 23 := rfl
theorem amt_3 (h : 3 < 9) : amt ⟨3, h⟩ = 1 := rfl
theorem amt_4 (h : 4 < 9) : amt ⟨4, h⟩ = 0 := rfl
theorem amt_5 (h : 5 < 9) : amt ⟨5, h⟩ = 2303 := rfl
theorem amt_6 (h : 6 < 9) : amt ⟨6, h⟩ = 2281 := rfl
theorem amt_7 (h : 7 < 9) : amt ⟨7, h⟩ = 2280 := rfl
theorem amt_8 (h : 8 < 9) : amt ⟨8, h⟩ = 2279 := rfl

/-- A function of a row and a lane as a function of a matrix index. -/
def ofRows {R C : Nat} (G : Fin R → Fin C → EReal) : (⟨2, ![R, C]⟩ : Shape).Idx → EReal :=
  fun y => G ⟨(y 0).val, (y 0).isLt⟩ ⟨(y 1).val, (y 1).isLt⟩
theorem ofRows_ix2 {R C : Nat} (G : Fin R → Fin C → EReal) (k : Fin R) (n : Fin C) : ofRows G (ix2 k n) = G k n := rfl

/-- Pushes an index through the rotations, unit-axis casts and loads left in a payload read at explicit coordinates. -/
syntax "norm_idx" : tactic
macro_rules
  | `(tactic| norm_idx) => `(tactic| repeat (first
      | rw [rot_apply] | rw [cast_4_2_apply] | rw [cast_3_2_apply] | rw [leaf_apply]
      | rw [idx_x] | rw [idx_h_0] | rw [idx_h_1]
      | rw [idx_row9_0] | rw [idx_row9_1] | rw [idx_row9_2] | rw [idx_row9_3] | rw [idx_row9_4]
      | rw [idx_row9_5] | rw [idx_row9_6] | rw [idx_row9_7] | rw [idx_row9_8]))

/-- An index of layer 0 of the hidden-state buffer is not in the slab of layer 1. -/
theorem not_mem_layer1 (inb) (ch : Fin 64) (n : Fin 2304) :
    ix3 (0 : Fin 2) ch n ∉ (Rect.unit (s := S2x64x2304) ![1, 0, 0] S1x64x2304.size inb).set := by
  rw [Rect.mem_set_unit]
  intro h
  have h1 := (h ⟨0, by decide⟩).1
  first
    | (change (1 : ℕ) ≤ 0 at h1; omega)
    | (simp at h1)

/-- The hidden-state buffer, stored as its two layer slabs (layer 1 last), read in layer 0: the earlier store. -/
theorem canon_h0 {F : FTy → Type} [FloatOps F] (inb1 inb0) (w1 w0 : S1x64x2304.Idx → Elt F .f32) (L : List (View.Piece (Elt F) S2x64x2304 .f32))
    (ch : Fin 64) (n : Fin 2304) :
    View.canon ((⟨Rect.unit (s := S2x64x2304) ![1, 0, 0] S1x64x2304.size inb1, w1⟩ : View.Piece (Elt F) S2x64x2304 .f32)
        :: (⟨Rect.unit (s := S2x64x2304) ![0, 0, 0] S1x64x2304.size inb0, w0⟩ : View.Piece (Elt F) S2x64x2304 .f32) :: L)
      (ix3 (0 : Fin 2) ch n) = w0 (ix3 (0 : Fin 1) ch n) := by
  rw [View.canon_cons_of_not_mem (⟨Rect.unit (s := S2x64x2304) ![1, 0, 0] S1x64x2304.size inb1, w1⟩ : View.Piece (Elt F) S2x64x2304 .f32) _ (not_mem_layer1 inb1 ch n)]
  rw [← emb_layer0 inb0 ch n, View.canon_cons_emb]

end Cert.ReferenceIdeal.HandRun

end
-- ==== Proof.RSemB.lean ====
/-
  The reference program's kernel body at a grid point of one control case, read step by step as the GRU recurrence
  at the extended reals: the patch matrix, the gates, the recurrent patch matrix, the candidate, the new state.
-/
import proofs.«175272_g2000206920649175_pallasbulk_1279_5_alg».proof.Proof.RSemIdx

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec
open scoped BigOperators

set_option pp.maxSteps 5000
set_option pp.deepTerms false

/-! ## The first layer -/

/-- The first layer's state as the body reads it. -/
theorem h0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (j : Fin 64) (n : Lane) : (kernelRun0_B.sl.r_1 c arg8 harg8 xs0) (ix2 j n) = (slab3 xs0 0) j n := by
  simp only [kernelRun0_B.sl.r_1, k0_pay11, slab3]
  norm_idx
  try rfl

/-- The first patch matrix after the first layer's eighteen slab stores, at row `k` and lane `n`: the
    specification's patch matrix of the layer's input and state; its rows from 1152 on are the ones the buffer had. -/
theorem patch0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 1160) (n : Lane) :
    arg9.view.read (Elt Ideal) (arg9.view.writes (Elt Ideal) (harg9.unread xs1) (kernelRun0_B.sl.HS1_18 c arg2 harg2 arg3 harg3 arg8 harg8 x0 x1 xs0)) (ix2 k n)
      = patchR (mat2 x0) (xR x1) (slab3 xs0 0) k n := by
  by_cases hk : k.val < 1152
  · refine read_writes_take arg9.view _ (ofRows (patchR (mat2 x0) (xR x1) (slab3 xs0 0))) 18 _ ?_ (ix2 k n) ?_
    · unfold kernelRun0_B.sl.HS1_18
      exact (List.forall_mem_cons.mpr ⟨(slab_piece_of (ofRows (patchR (mat2 x0) (xR x1) (slab3 xs0 0))) 1088 inb_S1160x2304_S64x2304_1088_0 _ (fun j n k hk => by
        rw [ofRows_ix2, patchR_st _ _ _ ⟨8, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 1024 inb_S1160x2304_S64x2304_1024_0 _ (fun j n k hk => by
        rw [ofRows_ix2, patchR_inp _ _ _ ⟨8, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 960 inb_S1160x2304_S64x2304_960_0 _ (fun j n k hk => by
        rw [ofRows_ix2, patchR_st _ _ _ ⟨7, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 896 inb_S1160x2304_S64x2304_896_0 _ (fun j n k hk => by
        rw [ofRows_ix2, patchR_inp _ _ _ ⟨7, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 832 inb_S1160x2304_S64x2304_832_0 _ (fun j n k hk => by
        rw [ofRows_ix2, patchR_st _ _ _ ⟨6, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 768 inb_S1160x2304_S64x2304_768_0 _ (fun j n k hk => by
        rw [ofRows_ix2, patchR_inp _ _ _ ⟨6, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 704 inb_S1160x2304_S64x2304_704_0 _ (fun j n k hk => by
        rw [ofRows_ix2, patchR_st _ _ _ ⟨5, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 640 inb_S1160x2304_S64x2304_640_0 _ (fun j n k hk => by
        rw [ofRows_ix2, patchR_inp _ _ _ ⟨5, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 576 inb_S1160x2304_S64x2304_576_0 _ (fun j n k hk => by
        rw [ofRows_ix2, patchR_st _ _ _ ⟨4, by decide⟩ j n k (by omega)]
        rw [amt_4, rotBy_zero]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 512 inb_S1160x2304_S64x2304_512_0 _ (fun j n k hk => by
        rw [ofRows_ix2, patchR_inp _ _ _ ⟨4, by decide⟩ j n k (by omega)]
        rw [amt_4, rotBy_zero]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 448 inb_S1160x2304_S64x2304_448_0 _ (fun j n k hk => by
        rw [ofRows_ix2, patchR_st _ _ _ ⟨3, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 384 inb_S1160x2304_S64x2304_384_0 _ (fun j n k hk => by
        rw [ofRows_ix2, patchR_inp _ _ _ ⟨3, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 320 inb_S1160x2304_S64x2304_320_0 _ (fun j n k hk => by
        rw [ofRows_ix2, patchR_st _ _ _ ⟨2, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 256 inb_S1160x2304_S64x2304_256_0 _ (fun j n k hk => by
        rw [ofRows_ix2, patchR_inp _ _ _ ⟨2, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 192 inb_S1160x2304_S64x2304_192_0 _ (fun j n k hk => by
        rw [ofRows_ix2, patchR_st _ _ _ ⟨1, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 128 inb_S1160x2304_S64x2304_128_0 _ (fun j n k hk => by
        rw [ofRows_ix2, patchR_inp _ _ _ ⟨1, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 64 inb_S1160x2304_S64x2304_64_0 _ (fun j n k hk => by
        rw [ofRows_ix2, patchR_st _ _ _ ⟨0, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 0 inb_S1160x2304_S64x2304_0_0 _ (fun j n k hk => by
        rw [ofRows_ix2, patchR_inp _ _ _ ⟨0, by decide⟩ j n k (by omega)]
        simp only [kernelRun0_B.sl.r, kernelRun0_B.sl.r_1, kernelRun0_B.sl.r_2, kernelRun0_B.sl.r_3, kernelRun0_B.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_nil _)⟩)⟩)⟩)⟩)⟩)⟩)⟩)⟩)⟩)⟩)⟩)⟩)⟩)⟩)⟩)⟩)⟩)⟩)
    · unfold kernelRun0_B.sl.HS1_18
      exact cover_of_slabs _ 18 (fun s hs => by interval_cases s <;> find_slab) k n (by omega)
  · rw [View.read_writes_apply_of_forall_not_mem _ _ _ _ (miss_of_slabs _ 1152 (by unfold kernelRun0_B.sl.HS1_18; all_slabs) k n (by omega))]
    rw [harg9.read_unread]
    by_cases h2 : k.val = 1152
    · rw [patchR_one _ _ _ n k h2]
      have e : k = ⟨1152, by decide⟩ := Fin.ext h2
      rw [e]; exact (hb n).1
    · rw [patchR_zero _ _ _ n k (by omega)]
      exact (hb n).2 k (by omega)

/-- The gates' product of the first layer at row `r` and lane `n`. -/
theorem gates0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (r : Fin 192) (n : Lane) :
    k0_pay32 (View.readAt (Elt Ideal) arg4.view (Rect.unit (s := S2x192x1160) ![0, 0, 0] S1x192x1160.size inb_S2x192x1160_S1x192x1160_0_0_0).toLoadRect (harg4.unread x2)) (View.readAt (Elt Ideal) arg9.view (Rect.unit (s := S1160x2304) ![0, 0] S1160x2304.size inb_S1160x2304_S1160x2304_0_0).toLoadRect (arg9.view.writes (Elt Ideal) (harg9.unread xs1) (kernelRun0_B.sl.HS1_18 c arg2 harg2 arg3 harg3 arg8 harg8 x0 x1 xs0))) (ix2 r n) = gatesR (mat2 x0) (slab3 x2 0) (xR x1) (slab3 xs0 0) r n := by
  simp only [k0_pay32]
  rw [gates_matmul_apply]
  unfold gatesR
  refine Finset.sum_congr rfl fun k _ => ?_
  rw [shapeCast_1ab_ab_apply, leaf_apply, idx_w1_0, View.readAt_apply, idx_p1, patch0_B c i arg2 harg2 arg3 harg3 arg4 harg4 arg5 harg5 arg6 harg6 arg7 harg7 arg8 harg8 arg9 harg9 arg10 harg10 hc0 hc1 x0 x1 x2 x3 xs0 xs1 xs2 hb k n]
  rfl

/-- The update gate, the candidate's input part, and the reset gate times the state. -/
theorem u0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_5 c arg2 harg2 arg3 harg3 arg4 harg4 arg8 harg8 arg9 harg9 x0 x1 x2 xs0 xs1) (ix2 ch n) = Ideal.logistic (gatesR (mat2 x0) (slab3 x2 0) (xR x1) (slab3 xs0 0) ⟨64 + ch.val, by omega⟩ n) := by
  simp only [kernelRun0_B.sl.r_5, k0_pay33, logistic_apply]
  rw [slice_rows_apply 64 (by decide), gates0_B c i arg2 harg2 arg3 harg3 arg4 harg4 arg5 harg5 arg6 harg6 arg7 harg7 arg8 harg8 arg9 harg9 arg10 harg10 hc0 hc1 x0 x1 x2 x3 xs0 xs1 xs2 hb]
theorem ox0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_6 c arg2 harg2 arg3 harg3 arg4 harg4 arg8 harg8 arg9 harg9 x0 x1 x2 xs0 xs1) (ix2 ch n) = gatesR (mat2 x0) (slab3 x2 0) (xR x1) (slab3 xs0 0) ⟨128 + ch.val, by omega⟩ n := by
  simp only [kernelRun0_B.sl.r_6, k0_pay34]
  rw [slice_rows_apply 128 (by decide), gates0_B c i arg2 harg2 arg3 harg3 arg4 harg4 arg5 harg5 arg6 harg6 arg7 harg7 arg8 harg8 arg9 harg9 arg10 harg10 hc0 hc1 x0 x1 x2 x3 xs0 xs1 xs2 hb]
theorem hr0raw_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (j : Fin 64) (n : Lane) :
    k0_pay35 (kernelRun0_B.sl.r_1 c arg8 harg8 xs0) (View.readAt (Elt Ideal) arg4.view (Rect.unit (s := S2x192x1160) ![0, 0, 0] S1x192x1160.size inb_S2x192x1160_S1x192x1160_0_0_0).toLoadRect (harg4.unread x2)) (View.readAt (Elt Ideal) arg9.view (Rect.unit (s := S1160x2304) ![0, 0] S1160x2304.size inb_S1160x2304_S1160x2304_0_0).toLoadRect (arg9.view.writes (Elt Ideal) (harg9.unread xs1) (kernelRun0_B.sl.HS1_18 c arg2 harg2 arg3 harg3 arg8 harg8 x0 x1 xs0))) (ix2 j n) = (fun j n => (slab3 xs0 0) j n * Ideal.logistic (gatesR (mat2 x0) (slab3 x2 0) (xR x1) (slab3 xs0 0) ⟨j.val, by omega⟩ n)) j n := by
  simp only [k0_pay35, ValueIdx.mulf_apply, logistic_apply]
  rw [slice_rows_apply 0 (by decide), gates0_B c i arg2 harg2 arg3 harg3 arg4 harg4 arg5 harg5 arg6 harg6 arg7 harg7 arg8 harg8 arg9 harg9 arg10 harg10 hc0 hc1 x0 x1 x2 x3 xs0 xs1 xs2 hb, h0_B c i arg2 harg2 arg3 harg3 arg4 harg4 arg5 harg5 arg6 harg6 arg7 harg7 arg8 harg8 arg9 harg9 arg10 harg10 hc0 hc1 x0 x1 x2 x3 xs0 xs1 xs2]
  have e : (⟨0 + j.val, by omega⟩ : Fin 192) = ⟨j.val, by omega⟩ := Fin.ext (Nat.zero_add _)
  rw [e]

/-- The second patch matrix after the first layer's nine slab stores: the specification's recurrent patch
    matrix of (state times reset gate). -/
theorem p20_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 576) (n : Lane) :
    (kernelRun0_B.sl.v232 c arg2 harg2 arg3 harg3 arg4 harg4 arg8 harg8 arg9 harg9 arg10 x0 x1 x2 xs0 xs1) (ix2 k n) = patchC (mat2 x0) (fun j n => (slab3 xs0 0) j n * Ideal.logistic (gatesR (mat2 x0) (slab3 x2 0) (xR x1) (slab3 xs0 0) ⟨j.val, by omega⟩ n)) k n := by
  unfold kernelRun0_B.sl.v232
  rw [View.readCov_eq_canon']
  dsimp only
  rw [idx_p2]
  refine (View.read_writes_junk_apply_eq_canon arg10.view (ix2 k n) _).symm.trans ?_
  refine read_writes_take arg10.view _ (ofRows (patchC (mat2 x0) (fun j n => (slab3 xs0 0) j n * Ideal.logistic (gatesR (mat2 x0) (slab3 x2 0) (xR x1) (slab3 xs0 0) ⟨j.val, by omega⟩ n)))) 9 _ ?_ (ix2 k n) ?_
  · unfold kernelRun0_B.sl.HS2_9
    exact (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 512 inb_S576x2304_S64x2304_512_0 _ (fun j n k hk => by
        rw [ofRows_ix2, patchC_apply _ _ ⟨8, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 448 inb_S576x2304_S64x2304_448_0 _ (fun j n k hk => by
        rw [ofRows_ix2, patchC_apply _ _ ⟨7, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 384 inb_S576x2304_S64x2304_384_0 _ (fun j n k hk => by
        rw [ofRows_ix2, patchC_apply _ _ ⟨6, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 320 inb_S576x2304_S64x2304_320_0 _ (fun j n k hk => by
        rw [ofRows_ix2, patchC_apply _ _ ⟨5, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 192 inb_S576x2304_S64x2304_192_0 _ (fun j n k hk => by
        rw [ofRows_ix2, patchC_apply _ _ ⟨3, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 128 inb_S576x2304_S64x2304_128_0 _ (fun j n k hk => by
        rw [ofRows_ix2, patchC_apply _ _ ⟨2, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 64 inb_S576x2304_S64x2304_64_0 _ (fun j n k hk => by
        rw [ofRows_ix2, patchC_apply _ _ ⟨1, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 0 inb_S576x2304_S64x2304_0_0 _ (fun j n k hk => by
        rw [ofRows_ix2, patchC_apply _ _ ⟨0, by decide⟩ j n k (by omega)]
        simp only [kernelRun0_B.sl.r_7, kernelRun0_B.sl.r_8, kernelRun0_B.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)
  · unfold kernelRun0_B.sl.HS2_9
    exact cover_of_slabs _ 9 (fun s hs => by interval_cases s <;> find_slab) k n (by have := k.isLt; omega)

/-- The candidate of the first layer. -/
theorem o0_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_10 c arg2 harg2 arg3 harg3 arg4 harg4 arg5 harg5 arg8 harg8 arg9 harg9 arg10 x0 x1 x2 x3 xs0 xs1) (ix2 ch n)
      = Ideal.tanh (gatesR (mat2 x0) (slab3 x2 0) (xR x1) (slab3 xs0 0) ⟨128 + ch.val, by omega⟩ n + candSum (mat2 x0) (slab3 x3 0) (fun j n => (slab3 xs0 0) j n * Ideal.logistic (gatesR (mat2 x0) (slab3 x2 0) (xR x1) (slab3 xs0 0) ⟨j.val, by omega⟩ n)) ch n) := by
  simp only [kernelRun0_B.sl.r_10, k0_pay47, tanh_apply, ValueIdx.addf_apply]
  rw [cand_matmul_apply, ox0_B c i arg2 harg2 arg3 harg3 arg4 harg4 arg5 harg5 arg6 harg6 arg7 harg7 arg8 harg8 arg9 harg9 arg10 harg10 hc0 hc1 x0 x1 x2 x3 xs0 xs1 xs2 hb]
  unfold candSum
  congr 2
  refine Finset.sum_congr rfl fun k _ => ?_
  rw [shapeCast_1ab_ab_apply, leaf_apply, idx_w2_0, p20_B c i arg2 harg2 arg3 harg3 arg4 harg4 arg5 harg5 arg6 harg6 arg7 harg7 arg8 harg8 arg9 harg9 arg10 harg10 hc0 hc1 x0 x1 x2 x3 xs0 xs1 xs2 hb k n]
  rfl

/-- The first layer's new state is one step of the recurrence. -/
theorem hn0raw_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    k0_pay48 (kernelRun0_B.sl.r_1 c arg8 harg8 xs0) (kernelRun0_B.sl.r_5 c arg2 harg2 arg3 harg3 arg4 harg4 arg8 harg8 arg9 harg9 x0 x1 x2 xs0 xs1) (kernelRun0_B.sl.r_10 c arg2 harg2 arg3 harg3 arg4 harg4 arg5 harg5 arg8 harg8 arg9 harg9 arg10 x0 x1 x2 x3 xs0 xs1) kernelRun0_B.sl.cst_117 (ix2 ch n)
      = stepR (mat2 x0) (slab3 x2 0) (slab3 x3 0) (xR x1) (slab3 xs0 0) ch n := by
  simp only [kernelRun0_B.sl.cst_117, k0_pay48, ValueIdx.addf_apply, ValueIdx.mulf_apply, ValueIdx.subf_apply, ValueIdx.broadcast_apply]
  rw [h0_B c i arg2 harg2 arg3 harg3 arg4 harg4 arg5 harg5 arg6 harg6 arg7 harg7 arg8 harg8 arg9 harg9 arg10 harg10 hc0 hc1 x0 x1 x2 x3 xs0 xs1 xs2, u0_B c i arg2 harg2 arg3 harg3 arg4 harg4 arg5 harg5 arg6 harg6 arg7 harg7 arg8 harg8 arg9 harg9 arg10 harg10 hc0 hc1 x0 x1 x2 x3 xs0 xs1 xs2 hb, o0_B c i arg2 harg2 arg3 harg3 arg4 harg4 arg5 harg5 arg6 harg6 arg7 harg7 arg8 harg8 arg9 harg9 arg10 harg10 hc0 hc1 x0 x1 x2 x3 xs0 xs1 xs2 hb]
  rw [show (FloatOps.ofBits FTy.f32 1065353216#32 : Ideal .f32) = 1 from Ideal.ofBits_one_f32]
  rfl

/-! ## The second layer -/

/-- The second layer's state as the body reads it. -/
theorem h1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (j : Fin 64) (n : Lane) : (kernelRun0_B.sl.r_12 c arg8 harg8 xs0) (ix2 j n) = (slab3 xs0 1) j n := by
  simp only [kernelRun0_B.sl.r_12, kernelRun0_B.sl.v244, k0_pay50, slab3]
  norm_idx
  try rfl

/-- The first patch matrix after the second layer's eighteen slab stores, at row `k` and lane `n`: the
    specification's patch matrix of the layer's input and state; its rows from 1152 on are the ones the buffer had. -/
theorem patch1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 1160) (n : Lane) :
    (kernelRun0_B.sl.v390 c arg2 harg2 arg3 harg3 arg4 harg4 arg5 harg5 arg8 harg8 arg9 harg9 arg10 x0 x1 x2 x3 xs0 xs1) (ix2 k n)
      = patchR (mat2 x0) (stepR (mat2 x0) (slab3 x2 0) (slab3 x3 0) (xR x1) (slab3 xs0 0)) (slab3 xs0 1) k n := by
  unfold kernelRun0_B.sl.v390
  rw [View.readAt_apply, idx_p1]
  by_cases hk : k.val < 1152
  · refine read_writes_take arg9.view _ (ofRows (patchR (mat2 x0) (stepR (mat2 x0) (slab3 x2 0) (slab3 x3 0) (xR x1) (slab3 xs0 0)) (slab3 xs0 1))) 18 _ ?_ (ix2 k n) ?_
    · unfold kernelRun0_B.sl.HS1_36
      exact (List.forall_mem_cons.mpr ⟨(slab_piece_of (ofRows (patchR (mat2 x0) (stepR (mat2 x0) (slab3 x2 0) (slab3 x3 0) (xR x1) (slab3 xs0 0)) (slab3 xs0 1))) 1088 inb_S1160x2304_S64x2304_1088_0 _ (fun j n k hk => by
        rw [ofRows_ix2, patchR_st _ _ _ ⟨8, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 1024 inb_S1160x2304_S64x2304_1024_0 _ (fun j n k hk => by
        rw [ofRows_ix2, patchR_inp _ _ _ ⟨8, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 960 inb_S1160x2304_S64x2304_960_0 _ (fun j n k hk => by
        rw [ofRows_ix2, patchR_st _ _ _ ⟨7, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 896 inb_S1160x2304_S64x2304_896_0 _ (fun j n k hk => by
        rw [ofRows_ix2, patchR_inp _ _ _ ⟨7, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 832 inb_S1160x2304_S64x2304_832_0 _ (fun j n k hk => by
        rw [ofRows_ix2, patchR_st _ _ _ ⟨6, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 768 inb_S1160x2304_S64x2304_768_0 _ (fun j n k hk => by
        rw [ofRows_ix2, patchR_inp _ _ _ ⟨6, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 704 inb_S1160x2304_S64x2304_704_0 _ (fun j n k hk => by
        rw [ofRows_ix2, patchR_st _ _ _ ⟨5, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 640 inb_S1160x2304_S64x2304_640_0 _ (fun j n k hk => by
        rw [ofRows_ix2, patchR_inp _ _ _ ⟨5, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 576 inb_S1160x2304_S64x2304_576_0 _ (fun j n k hk => by
        rw [ofRows_ix2, patchR_st _ _ _ ⟨4, by decide⟩ j n k (by omega)]
        rw [amt_4, rotBy_zero]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 512 inb_S1160x2304_S64x2304_512_0 _ (fun j n k hk => by
        rw [ofRows_ix2, patchR_inp _ _ _ ⟨4, by decide⟩ j n k (by omega)]
        rw [amt_4, rotBy_zero]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 448 inb_S1160x2304_S64x2304_448_0 _ (fun j n k hk => by
        rw [ofRows_ix2, patchR_st _ _ _ ⟨3, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 384 inb_S1160x2304_S64x2304_384_0 _ (fun j n k hk => by
        rw [ofRows_ix2, patchR_inp _ _ _ ⟨3, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 320 inb_S1160x2304_S64x2304_320_0 _ (fun j n k hk => by
        rw [ofRows_ix2, patchR_st _ _ _ ⟨2, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 256 inb_S1160x2304_S64x2304_256_0 _ (fun j n k hk => by
        rw [ofRows_ix2, patchR_inp _ _ _ ⟨2, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 192 inb_S1160x2304_S64x2304_192_0 _ (fun j n k hk => by
        rw [ofRows_ix2, patchR_st _ _ _ ⟨1, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 128 inb_S1160x2304_S64x2304_128_0 _ (fun j n k hk => by
        rw [ofRows_ix2, patchR_inp _ _ _ ⟨1, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 64 inb_S1160x2304_S64x2304_64_0 _ (fun j n k hk => by
        rw [ofRows_ix2, patchR_st _ _ _ ⟨0, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 0 inb_S1160x2304_S64x2304_0_0 _ (fun j n k hk => by
        rw [ofRows_ix2, patchR_inp _ _ _ ⟨0, by decide⟩ j n k (by omega)]
        simp only [kernelRun0_B.sl.r_11, kernelRun0_B.sl.r_12, kernelRun0_B.sl.r_13, kernelRun0_B.sl.r_14, kernelRun0_B.sl.r_15, kernelRun0_B.sl.r_16, kernelRun0_B.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)⟩)⟩)⟩)⟩)⟩)⟩)⟩)⟩)⟩)
    · unfold kernelRun0_B.sl.HS1_36
      exact cover_of_slabs _ 18 (fun s hs => by interval_cases s <;> find_slab) k n (by omega)
  · rw [View.read_writes_apply_of_forall_not_mem _ _ _ _ (miss_of_slabs _ 1152 (by unfold kernelRun0_B.sl.HS1_36 kernelRun0_B.sl.HS1_18; all_slabs) k n (by omega))]
    rw [harg9.read_unread]
    by_cases h2 : k.val = 1152
    · rw [patchR_one _ _ _ n k h2]
      have e : k = ⟨1152, by decide⟩ := Fin.ext h2
      rw [e]; exact (hb n).1
    · rw [patchR_zero _ _ _ n k (by omega)]
      exact (hb n).2 k (by omega)

/-- The gates' product of the second layer at row `r` and lane `n`. -/
theorem gates1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (r : Fin 192) (n : Lane) :
    k0_pay71 (View.readAt (Elt Ideal) arg4.view (Rect.unit (s := S2x192x1160) ![1, 0, 0] S1x192x1160.size inb_S2x192x1160_S1x192x1160_1_0_0).toLoadRect (harg4.unread x2)) (kernelRun0_B.sl.v390 c arg2 harg2 arg3 harg3 arg4 harg4 arg5 harg5 arg8 harg8 arg9 harg9 arg10 x0 x1 x2 x3 xs0 xs1) (ix2 r n) = gatesR (mat2 x0) (slab3 x2 1) (stepR (mat2 x0) (slab3 x2 0) (slab3 x3 0) (xR x1) (slab3 xs0 0)) (slab3 xs0 1) r n := by
  simp only [k0_pay71]
  rw [gates_matmul_apply]
  unfold gatesR
  refine Finset.sum_congr rfl fun k _ => ?_
  rw [shapeCast_1ab_ab_apply, leaf_apply, idx_w1_1, patch1_B c i arg2 harg2 arg3 harg3 arg4 harg4 arg5 harg5 arg6 harg6 arg7 harg7 arg8 harg8 arg9 harg9 arg10 harg10 hc0 hc1 x0 x1 x2 x3 xs0 xs1 xs2 hb k n]
  rfl

/-- The update gate, the candidate's input part, and the reset gate times the state. -/
theorem u1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_17 c arg2 harg2 arg3 harg3 arg4 harg4 arg5 harg5 arg8 harg8 arg9 harg9 arg10 x0 x1 x2 x3 xs0 xs1) (ix2 ch n) = Ideal.logistic (gatesR (mat2 x0) (slab3 x2 1) (stepR (mat2 x0) (slab3 x2 0) (slab3 x3 0) (xR x1) (slab3 xs0 0)) (slab3 xs0 1) ⟨64 + ch.val, by omega⟩ n) := by
  simp only [kernelRun0_B.sl.r_17, k0_pay72, logistic_apply]
  rw [slice_rows_apply 64 (by decide), gates1_B c i arg2 harg2 arg3 harg3 arg4 harg4 arg5 harg5 arg6 harg6 arg7 harg7 arg8 harg8 arg9 harg9 arg10 harg10 hc0 hc1 x0 x1 x2 x3 xs0 xs1 xs2 hb]
theorem ox1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_18 c arg2 harg2 arg3 harg3 arg4 harg4 arg5 harg5 arg8 harg8 arg9 harg9 arg10 x0 x1 x2 x3 xs0 xs1) (ix2 ch n) = gatesR (mat2 x0) (slab3 x2 1) (stepR (mat2 x0) (slab3 x2 0) (slab3 x3 0) (xR x1) (slab3 xs0 0)) (slab3 xs0 1) ⟨128 + ch.val, by omega⟩ n := by
  simp only [kernelRun0_B.sl.r_18, k0_pay73]
  rw [slice_rows_apply 128 (by decide), gates1_B c i arg2 harg2 arg3 harg3 arg4 harg4 arg5 harg5 arg6 harg6 arg7 harg7 arg8 harg8 arg9 harg9 arg10 harg10 hc0 hc1 x0 x1 x2 x3 xs0 xs1 xs2 hb]
theorem hr1raw_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (j : Fin 64) (n : Lane) :
    k0_pay74 (kernelRun0_B.sl.r_12 c arg8 harg8 xs0) (View.readAt (Elt Ideal) arg4.view (Rect.unit (s := S2x192x1160) ![1, 0, 0] S1x192x1160.size inb_S2x192x1160_S1x192x1160_1_0_0).toLoadRect (harg4.unread x2)) (kernelRun0_B.sl.v390 c arg2 harg2 arg3 harg3 arg4 harg4 arg5 harg5 arg8 harg8 arg9 harg9 arg10 x0 x1 x2 x3 xs0 xs1) (ix2 j n) = (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) j n := by
  simp only [k0_pay74, ValueIdx.mulf_apply, logistic_apply]
  rw [slice_rows_apply 0 (by decide), gates1_B c i arg2 harg2 arg3 harg3 arg4 harg4 arg5 harg5 arg6 harg6 arg7 harg7 arg8 harg8 arg9 harg9 arg10 harg10 hc0 hc1 x0 x1 x2 x3 xs0 xs1 xs2 hb, h1_B c i arg2 harg2 arg3 harg3 arg4 harg4 arg5 harg5 arg6 harg6 arg7 harg7 arg8 harg8 arg9 harg9 arg10 harg10 hc0 hc1 x0 x1 x2 x3 xs0 xs1 xs2]
  have e : (⟨0 + j.val, by omega⟩ : Fin 192) = ⟨j.val, by omega⟩ := Fin.ext (Nat.zero_add _)
  rw [e]

/-- The second patch matrix after the second layer's nine slab stores: the specification's recurrent patch
    matrix of (state times reset gate). -/
theorem p21_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 576) (n : Lane) :
    (kernelRun0_B.sl.v471 c arg2 harg2 arg3 harg3 arg4 harg4 arg5 harg5 arg8 harg8 arg9 harg9 arg10 x0 x1 x2 x3 xs0 xs1) (ix2 k n) = patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) k n := by
  unfold kernelRun0_B.sl.v471
  rw [View.readCov_eq_canon']
  dsimp only
  rw [idx_p2]
  refine (View.read_writes_junk_apply_eq_canon arg10.view (ix2 k n) _).symm.trans ?_
  refine read_writes_take arg10.view _ (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 9 _ ?_ (ix2 k n) ?_
  · unfold kernelRun0_B.sl.HS2_18 kernelRun0_B.sl.HS2_14
    exact (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 512 inb_S576x2304_S64x2304_512_0 _ (fun j n k hk => by
        rw [ofRows_ix2, patchC_apply _ _ ⟨8, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 448 inb_S576x2304_S64x2304_448_0 _ (fun j n k hk => by
        rw [ofRows_ix2, patchC_apply _ _ ⟨7, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 384 inb_S576x2304_S64x2304_384_0 _ (fun j n k hk => by
        rw [ofRows_ix2, patchC_apply _ _ ⟨6, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 320 inb_S576x2304_S64x2304_320_0 _ (fun j n k hk => by
        rw [ofRows_ix2, patchC_apply _ _ ⟨5, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 192 inb_S576x2304_S64x2304_192_0 _ (fun j n k hk => by
        rw [ofRows_ix2, patchC_apply _ _ ⟨3, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 128 inb_S576x2304_S64x2304_128_0 _ (fun j n k hk => by
        rw [ofRows_ix2, patchC_apply _ _ ⟨2, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 64 inb_S576x2304_S64x2304_64_0 _ (fun j n k hk => by
        rw [ofRows_ix2, patchC_apply _ _ ⟨1, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 0 inb_S576x2304_S64x2304_0_0 _ (fun j n k hk => by
        rw [ofRows_ix2, patchC_apply _ _ ⟨0, by decide⟩ j n k (by omega)]
        simp only [kernelRun0_B.sl.r_19, kernelRun0_B.sl.r_20, kernelRun0_B.sl.r_21, kernelRun0_B.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_B c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)
  · unfold kernelRun0_B.sl.HS2_18 kernelRun0_B.sl.HS2_14
    exact cover_of_slabs _ 9 (fun s hs => by interval_cases s <;> find_slab) k n (by have := k.isLt; omega)

/-- The candidate of the second layer. -/
theorem o1_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_B.sl.r_23 c arg2 harg2 arg3 harg3 arg4 harg4 arg5 harg5 arg8 harg8 arg9 harg9 arg10 x0 x1 x2 x3 xs0 xs1) (ix2 ch n)
      = Ideal.tanh (gatesR (mat2 x0) (slab3 x2 1) (stepR (mat2 x0) (slab3 x2 0) (slab3 x3 0) (xR x1) (slab3 xs0 0)) (slab3 xs0 1) ⟨128 + ch.val, by omega⟩ n + candSum (mat2 x0) (slab3 x3 1) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) ch n) := by
  simp only [kernelRun0_B.sl.r_23, k0_pay86, tanh_apply, ValueIdx.addf_apply]
  rw [cand_matmul_apply, ox1_B c i arg2 harg2 arg3 harg3 arg4 harg4 arg5 harg5 arg6 harg6 arg7 harg7 arg8 harg8 arg9 harg9 arg10 harg10 hc0 hc1 x0 x1 x2 x3 xs0 xs1 xs2 hb]
  unfold candSum
  congr 2
  refine Finset.sum_congr rfl fun k _ => ?_
  rw [shapeCast_1ab_ab_apply, leaf_apply, idx_w2_1, p21_B c i arg2 harg2 arg3 harg3 arg4 harg4 arg5 harg5 arg6 harg6 arg7 harg7 arg8 harg8 arg9 harg9 arg10 harg10 hc0 hc1 x0 x1 x2 x3 xs0 xs1 xs2 hb k n]
  rfl

/-- The second layer's new state is one step of the recurrence from the first layer's new state. -/
theorem hn1raw_B (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    k0_pay1 (kernelRun0_B.sl.r_12 c arg8 harg8 xs0) (kernelRun0_B.sl.r_17 c arg2 harg2 arg3 harg3 arg4 harg4 arg5 harg5 arg8 harg8 arg9 harg9 arg10 x0 x1 x2 x3 xs0 xs1) (kernelRun0_B.sl.r_23 c arg2 harg2 arg3 harg3 arg4 harg4 arg5 harg5 arg8 harg8 arg9 harg9 arg10 x0 x1 x2 x3 xs0 xs1) (kernelRun0_B.sl.r_24 c arg2 harg2 arg3 harg3 arg4 harg4 arg5 harg5 arg8 harg8 arg9 harg9 arg10 x0 x1 x2 x3 xs0 xs1) (ix2 ch n)
      = stepR (mat2 x0) (slab3 x2 1) (slab3 x3 1) (stepR (mat2 x0) (slab3 x2 0) (slab3 x3 0) (xR x1) (slab3 xs0 0)) (slab3 xs0 1) ch n := by
  simp only [kernelRun0_B.sl.r_24, k0_pay1, k0_pay87, ValueIdx.addf_apply, ValueIdx.mulf_apply, ValueIdx.subf_apply, ValueIdx.broadcast_apply]
  rw [h1_B c i arg2 harg2 arg3 harg3 arg4 harg4 arg5 harg5 arg6 harg6 arg7 harg7 arg8 harg8 arg9 harg9 arg10 harg10 hc0 hc1 x0 x1 x2 x3 xs0 xs1 xs2, u1_B c i arg2 harg2 arg3 harg3 arg4 harg4 arg5 harg5 arg6 harg6 arg7 harg7 arg8 harg8 arg9 harg9 arg10 harg10 hc0 hc1 x0 x1 x2 x3 xs0 xs1 xs2 hb, o1_B c i arg2 harg2 arg3 harg3 arg4 harg4 arg5 harg5 arg6 harg6 arg7 harg7 arg8 harg8 arg9 harg9 arg10 harg10 hc0 hc1 x0 x1 x2 x3 xs0 xs1 xs2 hb]
  rw [show (Scalar.ofBits FTy.f32 0x3F800000#32 : Ideal .f32) = 1 from Ideal.ofBits_one_f32]
  rfl

/-! ## The point as two steps of the recurrence -/

theorem semB' (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) :
    (∀ (ch : Fin 64) (n : Lane), (resB (F := Ideal) c i arg2 harg2 arg3 harg3 arg4 harg4 arg5 harg5 arg6 harg6 arg7 harg7 arg8 harg8 arg9 harg9 arg10 harg10 hc0 hc1 x0 x1 x2 x3 xs0 xs1 xs2).2.1 (ix3 (0 : Fin 2) ch n) = stepR (mat2 x0) (slab3 x2 0) (slab3 x3 0) (xR x1) (slab3 xs0 0) ch n)
  ∧ (∀ (ch : Fin 64) (n : Lane), (resB (F := Ideal) c i arg2 harg2 arg3 harg3 arg4 harg4 arg5 harg5 arg6 harg6 arg7 harg7 arg8 harg8 arg9 harg9 arg10 harg10 hc0 hc1 x0 x1 x2 x3 xs0 xs1 xs2).2.1 (ix3 (1 : Fin 2) ch n)
        = stepR (mat2 x0) (slab3 x2 1) (slab3 x3 1) (stepR (mat2 x0) (slab3 x2 0) (slab3 x3 0) (xR x1) (slab3 xs0 0)) (slab3 xs0 1) ch n)
  ∧ BiasR (resB (F := Ideal) c i arg2 harg2 arg3 harg3 arg4 harg4 arg5 harg5 arg6 harg6 arg7 harg7 arg8 harg8 arg9 harg9 arg10 harg10 hc0 hc1 x0 x1 x2 x3 xs0 xs1 xs2).2.2.1 := by
  refine ⟨fun ch n => ?_, fun ch n => ?_, ?_⟩
  · unfold resB; dsimp only
    rw [View.read_writes_junk_eq_canon]
    unfold kernelRun0_B; dsimp only
    rw [canon_h0 (F := Ideal)]
    unfold k0_pay49
    exact (cast_2_3_apply _ _ 0 ch n).trans (hn0raw_B c i arg2 harg2 arg3 harg3 arg4 harg4 arg5 harg5 arg6 harg6 arg7 harg7 arg8 harg8 arg9 harg9 arg10 harg10 hc0 hc1 x0 x1 x2 x3 xs0 xs1 xs2 hb ch n)
  · unfold resB; dsimp only
    rw [View.read_writes_junk_eq_canon]
    unfold kernelRun0_B; dsimp only
    rw [← emb_layer1 inb_S2x64x2304_S1x64x2304_1_0_0 ch n, View.canon_cons_emb]
    unfold k0_pay2
    exact (cast_2_3_apply _ _ 0 ch n).trans (hn1raw_B c i arg2 harg2 arg3 harg3 arg4 harg4 arg5 harg5 arg6 harg6 arg7 harg7 arg8 harg8 arg9 harg9 arg10 harg10 hc0 hc1 x0 x1 x2 x3 xs0 xs1 xs2 hb ch n)
  · intro n
    have hmiss : ∀ (k : Fin 1160), 1152 ≤ k.val →
        (resB (F := Ideal) c i arg2 harg2 arg3 harg3 arg4 harg4 arg5 harg5 arg6 harg6 arg7 harg7 arg8 harg8 arg9 harg9 arg10 harg10 hc0 hc1 x0 x1 x2 x3 xs0 xs1 xs2).2.2.1 (ix2 k n) = xs1 (ix2 k n) := fun k hk => by
      unfold resB; dsimp only
      unfold kernelRun0_B; dsimp only
      rw [View.read_writes_apply_of_forall_not_mem _ _ _ _ (miss_of_slabs _ 1152 (by unfold kernelRun0_B.sl.HS1_36 kernelRun0_B.sl.HS1_18; all_slabs) k n hk)]
      rw [harg9.read_unread]
    exact ⟨(hmiss ⟨1152, by decide⟩ (le_refl _)).trans (hb n).1, fun k hk => (hmiss k (by omega)).trans ((hb n).2 k hk)⟩

end Cert.ReferenceIdeal.HandRun

end
-- ==== Proof.RSemC.lean ====
/-
  The reference program's kernel body at a grid point of one control case, read step by step as the GRU recurrence
  at the extended reals: the patch matrix, the gates, the recurrent patch matrix, the candidate, the new state.
-/
import proofs.«175272_g2000206920649175_pallasbulk_1279_5_alg».proof.Proof.RSemIdx

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec
open scoped BigOperators

set_option pp.maxSteps 5000
set_option pp.deepTerms false

/-! ## The first layer -/

/-- The first layer's state as the body reads it. -/
theorem h0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (j : Fin 64) (n : Lane) : (kernelRun0_C.sl.r_1 c arg8 harg8 xs0) (ix2 j n) = (slab3 xs0 0) j n := by
  simp only [kernelRun0_C.sl.r_1, k0_pay11, slab3]
  norm_idx
  try rfl

/-- The first patch matrix after the first layer's eighteen slab stores, at row `k` and lane `n`: the
    specification's patch matrix of the layer's input and state; its rows from 1152 on are the ones the buffer had. -/
theorem patch0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 1160) (n : Lane) :
    arg9.view.read (Elt Ideal) (arg9.view.writes (Elt Ideal) (harg9.unread xs1) (kernelRun0_C.sl.HS1_18 c arg2 harg2 arg3 harg3 arg8 harg8 x0 x1 xs0)) (ix2 k n)
      = patchR (mat2 x0) (xR x1) (slab3 xs0 0) k n := by
  by_cases hk : k.val < 1152
  · refine read_writes_take arg9.view _ (ofRows (patchR (mat2 x0) (xR x1) (slab3 xs0 0))) 18 _ ?_ (ix2 k n) ?_
    · unfold kernelRun0_C.sl.HS1_18
      exact (List.forall_mem_cons.mpr ⟨(slab_piece_of (ofRows (patchR (mat2 x0) (xR x1) (slab3 xs0 0))) 1088 inb_S1160x2304_S64x2304_1088_0 _ (fun j n k hk => by
        rw [ofRows_ix2, patchR_st _ _ _ ⟨8, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 1024 inb_S1160x2304_S64x2304_1024_0 _ (fun j n k hk => by
        rw [ofRows_ix2, patchR_inp _ _ _ ⟨8, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 960 inb_S1160x2304_S64x2304_960_0 _ (fun j n k hk => by
        rw [ofRows_ix2, patchR_st _ _ _ ⟨7, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 896 inb_S1160x2304_S64x2304_896_0 _ (fun j n k hk => by
        rw [ofRows_ix2, patchR_inp _ _ _ ⟨7, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 832 inb_S1160x2304_S64x2304_832_0 _ (fun j n k hk => by
        rw [ofRows_ix2, patchR_st _ _ _ ⟨6, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 768 inb_S1160x2304_S64x2304_768_0 _ (fun j n k hk => by
        rw [ofRows_ix2, patchR_inp _ _ _ ⟨6, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 704 inb_S1160x2304_S64x2304_704_0 _ (fun j n k hk => by
        rw [ofRows_ix2, patchR_st _ _ _ ⟨5, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 640 inb_S1160x2304_S64x2304_640_0 _ (fun j n k hk => by
        rw [ofRows_ix2, patchR_inp _ _ _ ⟨5, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 576 inb_S1160x2304_S64x2304_576_0 _ (fun j n k hk => by
        rw [ofRows_ix2, patchR_st _ _ _ ⟨4, by decide⟩ j n k (by omega)]
        rw [amt_4, rotBy_zero]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 512 inb_S1160x2304_S64x2304_512_0 _ (fun j n k hk => by
        rw [ofRows_ix2, patchR_inp _ _ _ ⟨4, by decide⟩ j n k (by omega)]
        rw [amt_4, rotBy_zero]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 448 inb_S1160x2304_S64x2304_448_0 _ (fun j n k hk => by
        rw [ofRows_ix2, patchR_st _ _ _ ⟨3, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 384 inb_S1160x2304_S64x2304_384_0 _ (fun j n k hk => by
        rw [ofRows_ix2, patchR_inp _ _ _ ⟨3, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 320 inb_S1160x2304_S64x2304_320_0 _ (fun j n k hk => by
        rw [ofRows_ix2, patchR_st _ _ _ ⟨2, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 256 inb_S1160x2304_S64x2304_256_0 _ (fun j n k hk => by
        rw [ofRows_ix2, patchR_inp _ _ _ ⟨2, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 192 inb_S1160x2304_S64x2304_192_0 _ (fun j n k hk => by
        rw [ofRows_ix2, patchR_st _ _ _ ⟨1, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 128 inb_S1160x2304_S64x2304_128_0 _ (fun j n k hk => by
        rw [ofRows_ix2, patchR_inp _ _ _ ⟨1, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 64 inb_S1160x2304_S64x2304_64_0 _ (fun j n k hk => by
        rw [ofRows_ix2, patchR_st _ _ _ ⟨0, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (slab3 xs0 0))) 0 inb_S1160x2304_S64x2304_0_0 _ (fun j n k hk => by
        rw [ofRows_ix2, patchR_inp _ _ _ ⟨0, by decide⟩ j n k (by omega)]
        simp only [kernelRun0_C.sl.r, kernelRun0_C.sl.r_1, kernelRun0_C.sl.r_2, kernelRun0_C.sl.r_3, kernelRun0_C.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_nil _)⟩)⟩)⟩)⟩)⟩)⟩)⟩)⟩)⟩)⟩)⟩)⟩)⟩)⟩)⟩)⟩)⟩)⟩)
    · unfold kernelRun0_C.sl.HS1_18
      exact cover_of_slabs _ 18 (fun s hs => by interval_cases s <;> find_slab) k n (by omega)
  · rw [View.read_writes_apply_of_forall_not_mem _ _ _ _ (miss_of_slabs _ 1152 (by unfold kernelRun0_C.sl.HS1_18; all_slabs) k n (by omega))]
    rw [harg9.read_unread]
    by_cases h2 : k.val = 1152
    · rw [patchR_one _ _ _ n k h2]
      have e : k = ⟨1152, by decide⟩ := Fin.ext h2
      rw [e]; exact (hb n).1
    · rw [patchR_zero _ _ _ n k (by omega)]
      exact (hb n).2 k (by omega)

/-- The gates' product of the first layer at row `r` and lane `n`. -/
theorem gates0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (r : Fin 192) (n : Lane) :
    k0_pay32 (View.readAt (Elt Ideal) arg4.view (Rect.unit (s := S2x192x1160) ![0, 0, 0] S1x192x1160.size inb_S2x192x1160_S1x192x1160_0_0_0).toLoadRect (harg4.unread x2)) (View.readAt (Elt Ideal) arg9.view (Rect.unit (s := S1160x2304) ![0, 0] S1160x2304.size inb_S1160x2304_S1160x2304_0_0).toLoadRect (arg9.view.writes (Elt Ideal) (harg9.unread xs1) (kernelRun0_C.sl.HS1_18 c arg2 harg2 arg3 harg3 arg8 harg8 x0 x1 xs0))) (ix2 r n) = gatesR (mat2 x0) (slab3 x2 0) (xR x1) (slab3 xs0 0) r n := by
  simp only [k0_pay32]
  rw [gates_matmul_apply]
  unfold gatesR
  refine Finset.sum_congr rfl fun k _ => ?_
  rw [shapeCast_1ab_ab_apply, leaf_apply, idx_w1_0, View.readAt_apply, idx_p1, patch0_C c i arg2 harg2 arg3 harg3 arg4 harg4 arg5 harg5 arg6 harg6 arg7 harg7 arg8 harg8 arg9 harg9 arg10 harg10 hc0 hc1 x0 x1 x2 x3 xs0 xs1 xs2 hb k n]
  rfl

/-- The update gate, the candidate's input part, and the reset gate times the state. -/
theorem u0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_5 c arg2 harg2 arg3 harg3 arg4 harg4 arg8 harg8 arg9 harg9 x0 x1 x2 xs0 xs1) (ix2 ch n) = Ideal.logistic (gatesR (mat2 x0) (slab3 x2 0) (xR x1) (slab3 xs0 0) ⟨64 + ch.val, by omega⟩ n) := by
  simp only [kernelRun0_C.sl.r_5, k0_pay33, logistic_apply]
  rw [slice_rows_apply 64 (by decide), gates0_C c i arg2 harg2 arg3 harg3 arg4 harg4 arg5 harg5 arg6 harg6 arg7 harg7 arg8 harg8 arg9 harg9 arg10 harg10 hc0 hc1 x0 x1 x2 x3 xs0 xs1 xs2 hb]
theorem ox0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_6 c arg2 harg2 arg3 harg3 arg4 harg4 arg8 harg8 arg9 harg9 x0 x1 x2 xs0 xs1) (ix2 ch n) = gatesR (mat2 x0) (slab3 x2 0) (xR x1) (slab3 xs0 0) ⟨128 + ch.val, by omega⟩ n := by
  simp only [kernelRun0_C.sl.r_6, k0_pay34]
  rw [slice_rows_apply 128 (by decide), gates0_C c i arg2 harg2 arg3 harg3 arg4 harg4 arg5 harg5 arg6 harg6 arg7 harg7 arg8 harg8 arg9 harg9 arg10 harg10 hc0 hc1 x0 x1 x2 x3 xs0 xs1 xs2 hb]
theorem hr0raw_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (j : Fin 64) (n : Lane) :
    k0_pay35 (kernelRun0_C.sl.r_1 c arg8 harg8 xs0) (View.readAt (Elt Ideal) arg4.view (Rect.unit (s := S2x192x1160) ![0, 0, 0] S1x192x1160.size inb_S2x192x1160_S1x192x1160_0_0_0).toLoadRect (harg4.unread x2)) (View.readAt (Elt Ideal) arg9.view (Rect.unit (s := S1160x2304) ![0, 0] S1160x2304.size inb_S1160x2304_S1160x2304_0_0).toLoadRect (arg9.view.writes (Elt Ideal) (harg9.unread xs1) (kernelRun0_C.sl.HS1_18 c arg2 harg2 arg3 harg3 arg8 harg8 x0 x1 xs0))) (ix2 j n) = (fun j n => (slab3 xs0 0) j n * Ideal.logistic (gatesR (mat2 x0) (slab3 x2 0) (xR x1) (slab3 xs0 0) ⟨j.val, by omega⟩ n)) j n := by
  simp only [k0_pay35, ValueIdx.mulf_apply, logistic_apply]
  rw [slice_rows_apply 0 (by decide), gates0_C c i arg2 harg2 arg3 harg3 arg4 harg4 arg5 harg5 arg6 harg6 arg7 harg7 arg8 harg8 arg9 harg9 arg10 harg10 hc0 hc1 x0 x1 x2 x3 xs0 xs1 xs2 hb, h0_C c i arg2 harg2 arg3 harg3 arg4 harg4 arg5 harg5 arg6 harg6 arg7 harg7 arg8 harg8 arg9 harg9 arg10 harg10 hc0 hc1 x0 x1 x2 x3 xs0 xs1 xs2]
  have e : (⟨0 + j.val, by omega⟩ : Fin 192) = ⟨j.val, by omega⟩ := Fin.ext (Nat.zero_add _)
  rw [e]

/-- The second patch matrix after the first layer's nine slab stores: the specification's recurrent patch
    matrix of (state times reset gate). -/
theorem p20_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 576) (n : Lane) :
    (kernelRun0_C.sl.v232 c arg2 harg2 arg3 harg3 arg4 harg4 arg8 harg8 arg9 harg9 arg10 x0 x1 x2 xs0 xs1) (ix2 k n) = patchC (mat2 x0) (fun j n => (slab3 xs0 0) j n * Ideal.logistic (gatesR (mat2 x0) (slab3 x2 0) (xR x1) (slab3 xs0 0) ⟨j.val, by omega⟩ n)) k n := by
  unfold kernelRun0_C.sl.v232
  rw [View.readCov_eq_canon']
  dsimp only
  rw [idx_p2]
  refine (View.read_writes_junk_apply_eq_canon arg10.view (ix2 k n) _).symm.trans ?_
  refine read_writes_take arg10.view _ (ofRows (patchC (mat2 x0) (fun j n => (slab3 xs0 0) j n * Ideal.logistic (gatesR (mat2 x0) (slab3 x2 0) (xR x1) (slab3 xs0 0) ⟨j.val, by omega⟩ n)))) 9 _ ?_ (ix2 k n) ?_
  · unfold kernelRun0_C.sl.HS2_9
    exact (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 512 inb_S576x2304_S64x2304_512_0 _ (fun j n k hk => by
        rw [ofRows_ix2, patchC_apply _ _ ⟨8, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 448 inb_S576x2304_S64x2304_448_0 _ (fun j n k hk => by
        rw [ofRows_ix2, patchC_apply _ _ ⟨7, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 384 inb_S576x2304_S64x2304_384_0 _ (fun j n k hk => by
        rw [ofRows_ix2, patchC_apply _ _ ⟨6, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 320 inb_S576x2304_S64x2304_320_0 _ (fun j n k hk => by
        rw [ofRows_ix2, patchC_apply _ _ ⟨5, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 192 inb_S576x2304_S64x2304_192_0 _ (fun j n k hk => by
        rw [ofRows_ix2, patchC_apply _ _ ⟨3, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 128 inb_S576x2304_S64x2304_128_0 _ (fun j n k hk => by
        rw [ofRows_ix2, patchC_apply _ _ ⟨2, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 64 inb_S576x2304_S64x2304_64_0 _ (fun j n k hk => by
        rw [ofRows_ix2, patchC_apply _ _ ⟨1, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 0) j n * Ideal.logistic (gatesR (mat2 x0) (slab3 x2 0) (xR x1) (slab3 xs0 0) ⟨j.val, by omega⟩ n)))) 0 inb_S576x2304_S64x2304_0_0 _ (fun j n k hk => by
        rw [ofRows_ix2, patchC_apply _ _ ⟨0, by decide⟩ j n k (by omega)]
        simp only [kernelRun0_C.sl.r_7, kernelRun0_C.sl.r_8, kernelRun0_C.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)
  · unfold kernelRun0_C.sl.HS2_9
    exact cover_of_slabs _ 9 (fun s hs => by interval_cases s <;> find_slab) k n (by have := k.isLt; omega)

/-- The candidate of the first layer. -/
theorem o0_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_10 c arg2 harg2 arg3 harg3 arg4 harg4 arg5 harg5 arg8 harg8 arg9 harg9 arg10 x0 x1 x2 x3 xs0 xs1) (ix2 ch n)
      = Ideal.tanh (gatesR (mat2 x0) (slab3 x2 0) (xR x1) (slab3 xs0 0) ⟨128 + ch.val, by omega⟩ n + candSum (mat2 x0) (slab3 x3 0) (fun j n => (slab3 xs0 0) j n * Ideal.logistic (gatesR (mat2 x0) (slab3 x2 0) (xR x1) (slab3 xs0 0) ⟨j.val, by omega⟩ n)) ch n) := by
  simp only [kernelRun0_C.sl.r_10, k0_pay47, tanh_apply, ValueIdx.addf_apply]
  rw [cand_matmul_apply, ox0_C c i arg2 harg2 arg3 harg3 arg4 harg4 arg5 harg5 arg6 harg6 arg7 harg7 arg8 harg8 arg9 harg9 arg10 harg10 hc0 hc1 x0 x1 x2 x3 xs0 xs1 xs2 hb]
  unfold candSum
  congr 2
  refine Finset.sum_congr rfl fun k _ => ?_
  rw [shapeCast_1ab_ab_apply, leaf_apply, idx_w2_0, p20_C c i arg2 harg2 arg3 harg3 arg4 harg4 arg5 harg5 arg6 harg6 arg7 harg7 arg8 harg8 arg9 harg9 arg10 harg10 hc0 hc1 x0 x1 x2 x3 xs0 xs1 xs2 hb k n]
  rfl

/-- The first layer's new state is one step of the recurrence. -/
theorem hn0raw_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    k0_pay48 (kernelRun0_C.sl.r_1 c arg8 harg8 xs0) (kernelRun0_C.sl.r_5 c arg2 harg2 arg3 harg3 arg4 harg4 arg8 harg8 arg9 harg9 x0 x1 x2 xs0 xs1) (kernelRun0_C.sl.r_10 c arg2 harg2 arg3 harg3 arg4 harg4 arg5 harg5 arg8 harg8 arg9 harg9 arg10 x0 x1 x2 x3 xs0 xs1) kernelRun0_C.sl.cst_117 (ix2 ch n)
      = stepR (mat2 x0) (slab3 x2 0) (slab3 x3 0) (xR x1) (slab3 xs0 0) ch n := by
  simp only [kernelRun0_C.sl.cst_117, k0_pay48, ValueIdx.addf_apply, ValueIdx.mulf_apply, ValueIdx.subf_apply, ValueIdx.broadcast_apply]
  rw [h0_C c i arg2 harg2 arg3 harg3 arg4 harg4 arg5 harg5 arg6 harg6 arg7 harg7 arg8 harg8 arg9 harg9 arg10 harg10 hc0 hc1 x0 x1 x2 x3 xs0 xs1 xs2, u0_C c i arg2 harg2 arg3 harg3 arg4 harg4 arg5 harg5 arg6 harg6 arg7 harg7 arg8 harg8 arg9 harg9 arg10 harg10 hc0 hc1 x0 x1 x2 x3 xs0 xs1 xs2 hb, o0_C c i arg2 harg2 arg3 harg3 arg4 harg4 arg5 harg5 arg6 harg6 arg7 harg7 arg8 harg8 arg9 harg9 arg10 harg10 hc0 hc1 x0 x1 x2 x3 xs0 xs1 xs2 hb]
  rw [show (FloatOps.ofBits FTy.f32 1065353216#32 : Ideal .f32) = 1 from Ideal.ofBits_one_f32]
  rfl

/-! ## The second layer -/

/-- The second layer's state as the body reads it. -/
theorem h1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (j : Fin 64) (n : Lane) : (kernelRun0_C.sl.r_12 c arg8 harg8 xs0) (ix2 j n) = (slab3 xs0 1) j n := by
  simp only [kernelRun0_C.sl.r_12, kernelRun0_C.sl.v244, k0_pay50, slab3]
  norm_idx
  try rfl

/-- The first patch matrix after the second layer's eighteen slab stores, at row `k` and lane `n`: the
    specification's patch matrix of the layer's input and state; its rows from 1152 on are the ones the buffer had. -/
theorem patch1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 1160) (n : Lane) :
    (kernelRun0_C.sl.v390 c arg2 harg2 arg3 harg3 arg4 harg4 arg5 harg5 arg8 harg8 arg9 harg9 arg10 x0 x1 x2 x3 xs0 xs1) (ix2 k n)
      = patchR (mat2 x0) (stepR (mat2 x0) (slab3 x2 0) (slab3 x3 0) (xR x1) (slab3 xs0 0)) (slab3 xs0 1) k n := by
  unfold kernelRun0_C.sl.v390
  rw [View.readAt_apply, idx_p1]
  by_cases hk : k.val < 1152
  · refine read_writes_take arg9.view _ (ofRows (patchR (mat2 x0) (stepR (mat2 x0) (slab3 x2 0) (slab3 x3 0) (xR x1) (slab3 xs0 0)) (slab3 xs0 1))) 18 _ ?_ (ix2 k n) ?_
    · unfold kernelRun0_C.sl.HS1_36
      exact (List.forall_mem_cons.mpr ⟨(slab_piece_of (ofRows (patchR (mat2 x0) (stepR (mat2 x0) (slab3 x2 0) (slab3 x3 0) (xR x1) (slab3 xs0 0)) (slab3 xs0 1))) 1088 inb_S1160x2304_S64x2304_1088_0 _ (fun j n k hk => by
        rw [ofRows_ix2, patchR_st _ _ _ ⟨8, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 1024 inb_S1160x2304_S64x2304_1024_0 _ (fun j n k hk => by
        rw [ofRows_ix2, patchR_inp _ _ _ ⟨8, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 960 inb_S1160x2304_S64x2304_960_0 _ (fun j n k hk => by
        rw [ofRows_ix2, patchR_st _ _ _ ⟨7, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 896 inb_S1160x2304_S64x2304_896_0 _ (fun j n k hk => by
        rw [ofRows_ix2, patchR_inp _ _ _ ⟨7, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 832 inb_S1160x2304_S64x2304_832_0 _ (fun j n k hk => by
        rw [ofRows_ix2, patchR_st _ _ _ ⟨6, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 768 inb_S1160x2304_S64x2304_768_0 _ (fun j n k hk => by
        rw [ofRows_ix2, patchR_inp _ _ _ ⟨6, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 704 inb_S1160x2304_S64x2304_704_0 _ (fun j n k hk => by
        rw [ofRows_ix2, patchR_st _ _ _ ⟨5, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 640 inb_S1160x2304_S64x2304_640_0 _ (fun j n k hk => by
        rw [ofRows_ix2, patchR_inp _ _ _ ⟨5, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 576 inb_S1160x2304_S64x2304_576_0 _ (fun j n k hk => by
        rw [ofRows_ix2, patchR_st _ _ _ ⟨4, by decide⟩ j n k (by omega)]
        rw [amt_4, rotBy_zero]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 512 inb_S1160x2304_S64x2304_512_0 _ (fun j n k hk => by
        rw [ofRows_ix2, patchR_inp _ _ _ ⟨4, by decide⟩ j n k (by omega)]
        rw [amt_4, rotBy_zero]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 448 inb_S1160x2304_S64x2304_448_0 _ (fun j n k hk => by
        rw [ofRows_ix2, patchR_st _ _ _ ⟨3, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 384 inb_S1160x2304_S64x2304_384_0 _ (fun j n k hk => by
        rw [ofRows_ix2, patchR_inp _ _ _ ⟨3, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 320 inb_S1160x2304_S64x2304_320_0 _ (fun j n k hk => by
        rw [ofRows_ix2, patchR_st _ _ _ ⟨2, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 256 inb_S1160x2304_S64x2304_256_0 _ (fun j n k hk => by
        rw [ofRows_ix2, patchR_inp _ _ _ ⟨2, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 192 inb_S1160x2304_S64x2304_192_0 _ (fun j n k hk => by
        rw [ofRows_ix2, patchR_st _ _ _ ⟨1, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 128 inb_S1160x2304_S64x2304_128_0 _ (fun j n k hk => by
        rw [ofRows_ix2, patchR_inp _ _ _ ⟨1, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchR (mat2 x0) (stepR (mat2 x0) (slab3 x2 0) (slab3 x3 0) (xR x1) (slab3 xs0 0)) (slab3 xs0 1))) 64 inb_S1160x2304_S64x2304_64_0 _ (fun j n k hk => by
        rw [ofRows_ix2, patchR_st _ _ _ ⟨0, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        try rfl)),
      (List.forall_mem_cons.mpr ⟨(slab_piece_of (ofRows (patchR (mat2 x0) (stepR (mat2 x0) (slab3 x2 0) (slab3 x3 0) (xR x1) (slab3 xs0 0)) (slab3 xs0 1))) 0 inb_S1160x2304_S64x2304_0_0 _ (fun j n k hk => by
        rw [ofRows_ix2, patchR_inp _ _ _ ⟨0, by decide⟩ j n k (by omega)]
        simp only [kernelRun0_C.sl.r_11, kernelRun0_C.sl.r_12, kernelRun0_C.sl.r_13, kernelRun0_C.sl.r_14, kernelRun0_C.sl.r_15, kernelRun0_C.sl.r_16, kernelRun0_C.sl.v244]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)⟩)⟩)⟩)⟩)⟩)⟩)⟩)⟩)⟩)
    · unfold kernelRun0_C.sl.HS1_36
      exact cover_of_slabs _ 18 (fun s hs => by interval_cases s <;> find_slab) k n (by omega)
  · rw [View.read_writes_apply_of_forall_not_mem _ _ _ _ (miss_of_slabs _ 1152 (by unfold kernelRun0_C.sl.HS1_36 kernelRun0_C.sl.HS1_18; all_slabs) k n (by omega))]
    rw [harg9.read_unread]
    by_cases h2 : k.val = 1152
    · rw [patchR_one _ _ _ n k h2]
      have e : k = ⟨1152, by decide⟩ := Fin.ext h2
      rw [e]; exact (hb n).1
    · rw [patchR_zero _ _ _ n k (by omega)]
      exact (hb n).2 k (by omega)

/-- The gates' product of the second layer at row `r` and lane `n`. -/
theorem gates1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (r : Fin 192) (n : Lane) :
    k0_pay71 (View.readAt (Elt Ideal) arg4.view (Rect.unit (s := S2x192x1160) ![1, 0, 0] S1x192x1160.size inb_S2x192x1160_S1x192x1160_1_0_0).toLoadRect (harg4.unread x2)) (kernelRun0_C.sl.v390 c arg2 harg2 arg3 harg3 arg4 harg4 arg5 harg5 arg8 harg8 arg9 harg9 arg10 x0 x1 x2 x3 xs0 xs1) (ix2 r n) = gatesR (mat2 x0) (slab3 x2 1) (stepR (mat2 x0) (slab3 x2 0) (slab3 x3 0) (xR x1) (slab3 xs0 0)) (slab3 xs0 1) r n := by
  simp only [k0_pay71]
  rw [gates_matmul_apply]
  unfold gatesR
  refine Finset.sum_congr rfl fun k _ => ?_
  rw [shapeCast_1ab_ab_apply, leaf_apply, idx_w1_1, patch1_C c i arg2 harg2 arg3 harg3 arg4 harg4 arg5 harg5 arg6 harg6 arg7 harg7 arg8 harg8 arg9 harg9 arg10 harg10 hc0 hc1 x0 x1 x2 x3 xs0 xs1 xs2 hb k n]
  rfl

/-- The update gate, the candidate's input part, and the reset gate times the state. -/
theorem u1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_17 c arg2 harg2 arg3 harg3 arg4 harg4 arg5 harg5 arg8 harg8 arg9 harg9 arg10 x0 x1 x2 x3 xs0 xs1) (ix2 ch n) = Ideal.logistic (gatesR (mat2 x0) (slab3 x2 1) (stepR (mat2 x0) (slab3 x2 0) (slab3 x3 0) (xR x1) (slab3 xs0 0)) (slab3 xs0 1) ⟨64 + ch.val, by omega⟩ n) := by
  simp only [kernelRun0_C.sl.r_17, k0_pay72, logistic_apply]
  rw [slice_rows_apply 64 (by decide), gates1_C c i arg2 harg2 arg3 harg3 arg4 harg4 arg5 harg5 arg6 harg6 arg7 harg7 arg8 harg8 arg9 harg9 arg10 harg10 hc0 hc1 x0 x1 x2 x3 xs0 xs1 xs2 hb]
theorem ox1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_18 c arg2 harg2 arg3 harg3 arg4 harg4 arg5 harg5 arg8 harg8 arg9 harg9 arg10 x0 x1 x2 x3 xs0 xs1) (ix2 ch n) = gatesR (mat2 x0) (slab3 x2 1) (stepR (mat2 x0) (slab3 x2 0) (slab3 x3 0) (xR x1) (slab3 xs0 0)) (slab3 xs0 1) ⟨128 + ch.val, by omega⟩ n := by
  simp only [kernelRun0_C.sl.r_18, k0_pay73]
  rw [slice_rows_apply 128 (by decide), gates1_C c i arg2 harg2 arg3 harg3 arg4 harg4 arg5 harg5 arg6 harg6 arg7 harg7 arg8 harg8 arg9 harg9 arg10 harg10 hc0 hc1 x0 x1 x2 x3 xs0 xs1 xs2 hb]
theorem hr1raw_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (j : Fin 64) (n : Lane) :
    k0_pay74 (kernelRun0_C.sl.r_12 c arg8 harg8 xs0) (View.readAt (Elt Ideal) arg4.view (Rect.unit (s := S2x192x1160) ![1, 0, 0] S1x192x1160.size inb_S2x192x1160_S1x192x1160_1_0_0).toLoadRect (harg4.unread x2)) (kernelRun0_C.sl.v390 c arg2 harg2 arg3 harg3 arg4 harg4 arg5 harg5 arg8 harg8 arg9 harg9 arg10 x0 x1 x2 x3 xs0 xs1) (ix2 j n) = (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) j n := by
  simp only [k0_pay74, ValueIdx.mulf_apply, logistic_apply]
  rw [slice_rows_apply 0 (by decide), gates1_C c i arg2 harg2 arg3 harg3 arg4 harg4 arg5 harg5 arg6 harg6 arg7 harg7 arg8 harg8 arg9 harg9 arg10 harg10 hc0 hc1 x0 x1 x2 x3 xs0 xs1 xs2 hb, h1_C c i arg2 harg2 arg3 harg3 arg4 harg4 arg5 harg5 arg6 harg6 arg7 harg7 arg8 harg8 arg9 harg9 arg10 harg10 hc0 hc1 x0 x1 x2 x3 xs0 xs1 xs2]
  have e : (⟨0 + j.val, by omega⟩ : Fin 192) = ⟨j.val, by omega⟩ := Fin.ext (Nat.zero_add _)
  rw [e]

/-- The second patch matrix after the second layer's nine slab stores: the specification's recurrent patch
    matrix of (state times reset gate). -/
theorem p21_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (k : Fin 576) (n : Lane) :
    (kernelRun0_C.sl.v471 c arg2 harg2 arg3 harg3 arg4 harg4 arg5 harg5 arg8 harg8 arg9 harg9 arg10 x0 x1 x2 x3 xs0 xs1) (ix2 k n) = patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) k n := by
  unfold kernelRun0_C.sl.v471
  rw [View.readCov_eq_canon']
  dsimp only
  rw [idx_p2]
  refine (View.read_writes_junk_apply_eq_canon arg10.view (ix2 k n) _).symm.trans ?_
  refine read_writes_take arg10.view _ (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 9 _ ?_ (ix2 k n) ?_
  · unfold kernelRun0_C.sl.HS2_18 kernelRun0_C.sl.HS2_14
    exact (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 512 inb_S576x2304_S64x2304_512_0 _ (fun j n k hk => by
        rw [ofRows_ix2, patchC_apply _ _ ⟨8, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 448 inb_S576x2304_S64x2304_448_0 _ (fun j n k hk => by
        rw [ofRows_ix2, patchC_apply _ _ ⟨7, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 384 inb_S576x2304_S64x2304_384_0 _ (fun j n k hk => by
        rw [ofRows_ix2, patchC_apply _ _ ⟨6, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 320 inb_S576x2304_S64x2304_320_0 _ (fun j n k hk => by
        rw [ofRows_ix2, patchC_apply _ _ ⟨5, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 192 inb_S576x2304_S64x2304_192_0 _ (fun j n k hk => by
        rw [ofRows_ix2, patchC_apply _ _ ⟨3, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 128 inb_S576x2304_S64x2304_128_0 _ (fun j n k hk => by
        rw [ofRows_ix2, patchC_apply _ _ ⟨2, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 64 inb_S576x2304_S64x2304_64_0 _ (fun j n k hk => by
        rw [ofRows_ix2, patchC_apply _ _ ⟨1, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_cons.mpr ⟨(slab_piece_of (ofRows (patchC (mat2 x0) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)))) 0 inb_S576x2304_S64x2304_0_0 _ (fun j n k hk => by
        rw [ofRows_ix2, patchC_apply _ _ ⟨0, by decide⟩ j n k (by omega)]
        simp only [kernelRun0_C.sl.r_19, kernelRun0_C.sl.r_20, kernelRun0_C.sl.r_21, kernelRun0_C.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_C c i arg2 harg2 arg3 harg3 arg4 harg4 arg5 harg5 arg6 harg6 arg7 harg7 arg8 harg8 arg9 harg9 arg10 harg10 hc0 hc1 x0 x1 x2 x3 xs0 xs1 xs2 hb]
        try rfl)),
      (List.forall_mem_nil _)⟩)⟩)⟩)⟩)⟩)⟩)⟩)⟩)⟩)
  · unfold kernelRun0_C.sl.HS2_18 kernelRun0_C.sl.HS2_14
    exact cover_of_slabs _ 9 (fun s hs => by interval_cases s <;> find_slab) k n (by have := k.isLt; omega)

/-- The candidate of the second layer. -/
theorem o1_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    (kernelRun0_C.sl.r_23 c arg2 harg2 arg3 harg3 arg4 harg4 arg5 harg5 arg8 harg8 arg9 harg9 arg10 x0 x1 x2 x3 xs0 xs1) (ix2 ch n)
      = Ideal.tanh (gatesR (mat2 x0) (slab3 x2 1) (stepR (mat2 x0) (slab3 x2 0) (slab3 x3 0) (xR x1) (slab3 xs0 0)) (slab3 xs0 1) ⟨128 + ch.val, by omega⟩ n + candSum (mat2 x0) (slab3 x3 1) (fun j n => (slab3 xs0 1) j n * Ideal.logistic (gatesR (mat2 x0) (slab3 x2 1) (stepR (mat2 x0) (slab3 x2 0) (slab3 x3 0) (xR x1) (slab3 xs0 0)) (slab3 xs0 1) ⟨j.val, by omega⟩ n)) ch n) := by
  simp only [kernelRun0_C.sl.r_23, k0_pay86, tanh_apply, ValueIdx.addf_apply]
  rw [cand_matmul_apply, ox1_C c i arg2 harg2 arg3 harg3 arg4 harg4 arg5 harg5 arg6 harg6 arg7 harg7 arg8 harg8 arg9 harg9 arg10 harg10 hc0 hc1 x0 x1 x2 x3 xs0 xs1 xs2 hb]
  unfold candSum
  congr 2
  refine Finset.sum_congr rfl fun k _ => ?_
  rw [shapeCast_1ab_ab_apply, leaf_apply, idx_w2_1, p21_C c i arg2 harg2 arg3 harg3 arg4 harg4 arg5 harg5 arg6 harg6 arg7 harg7 arg8 harg8 arg9 harg9 arg10 harg10 hc0 hc1 x0 x1 x2 x3 xs0 xs1 xs2 hb k n]
  rfl

/-- The second layer's new state is one step of the recurrence from the first layer's new state. -/
theorem hn1raw_C (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) (ch : Fin 64) (n : Lane) :
    k0_pay1 (kernelRun0_C.sl.r_12 c arg8 harg8 xs0) (kernelRun0_C.sl.r_17 c arg2 harg2 arg3 harg3 arg4 harg4 arg5 harg5 arg8 harg8 arg9 harg9 arg10 x0 x1 x2 x3 xs0 xs1) (kernelRun0_C.sl.r_23 c arg2 harg2 arg3 harg3 arg4 harg4 arg5 harg5 arg8 harg8 arg9 harg9 arg10 x0 x1 x2 x3 xs0 xs1) (kernelRun0_C.sl.r_24 c arg2 harg2 arg3 harg3 arg4 harg4 arg5 harg5 arg8 harg8 arg9 harg9 arg10 x0 x1 x2 x3 xs0 xs1) (ix2 ch n)
      = stepR (mat2 x0) (slab3 x2 1) (slab3 x3 1) (stepR (mat2 x0) (slab3 x2 0) (slab3 x3 0) (xR x1) (slab3 xs0 0)) (slab3 xs0 1) ch n := by
  simp only [kernelRun0_C.sl.r_24, k0_pay1, k0_pay87, ValueIdx.addf_apply, ValueIdx.mulf_apply, ValueIdx.subf_apply, ValueIdx.broadcast_apply]
  rw [h1_C c i arg2 harg2 arg3 harg3 arg4 harg4 arg5 harg5 arg6 harg6 arg7 harg7 arg8 harg8 arg9 harg9 arg10 harg10 hc0 hc1 x0 x1 x2 x3 xs0 xs1 xs2, u1_C c i arg2 harg2 arg3 harg3 arg4 harg4 arg5 harg5 arg6 harg6 arg7 harg7 arg8 harg8 arg9 harg9 arg10 harg10 hc0 hc1 x0 x1 x2 x3 xs0 xs1 xs2 hb, o1_C c i arg2 harg2 arg3 harg3 arg4 harg4 arg5 harg5 arg6 harg6 arg7 harg7 arg8 harg8 arg9 harg9 arg10 harg10 hc0 hc1 x0 x1 x2 x3 xs0 xs1 xs2 hb]
  rw [show (Scalar.ofBits FTy.f32 0x3F800000#32 : Ideal .f32) = 1 from Ideal.ofBits_one_f32]
  rfl

/-! ## The point as two steps of the recurrence -/

theorem semC' (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) :
    (∀ (ch : Fin 64) (n : Lane), (resC (F := Ideal) c i arg2 harg2 arg3 harg3 arg4 harg4 arg5 harg5 arg6 harg6 arg7 harg7 arg8 harg8 arg9 harg9 arg10 harg10 hc0 hc1 x0 x1 x2 x3 xs0 xs1 xs2).2.2.1 (ix3 (0 : Fin 2) ch n) = stepR (mat2 x0) (slab3 x2 0) (slab3 x3 0) (xR x1) (slab3 xs0 0) ch n)
  ∧ (∀ (ch : Fin 64) (n : Lane), (resC (F := Ideal) c i arg2 harg2 arg3 harg3 arg4 harg4 arg5 harg5 arg6 harg6 arg7 harg7 arg8 harg8 arg9 harg9 arg10 harg10 hc0 hc1 x0 x1 x2 x3 xs0 xs1 xs2).2.2.1 (ix3 (1 : Fin 2) ch n)
        = stepR (mat2 x0) (slab3 x2 1) (slab3 x3 1) (stepR (mat2 x0) (slab3 x2 0) (slab3 x3 0) (xR x1) (slab3 xs0 0)) (slab3 xs0 1) ch n)
  ∧ BiasR (resC (F := Ideal) c i arg2 harg2 arg3 harg3 arg4 harg4 arg5 harg5 arg6 harg6 arg7 harg7 arg8 harg8 arg9 harg9 arg10 harg10 hc0 hc1 x0 x1 x2 x3 xs0 xs1 xs2).2.2.2.1 := by
  refine ⟨fun ch n => ?_, fun ch n => ?_, ?_⟩
  · unfold resC; dsimp only
    rw [View.read_writes_junk_eq_canon]
    unfold kernelRun0_C; dsimp only
    unfold kernelRun0_C.sl.HS0_2
    rw [canon_h0 (F := Ideal)]
    unfold k0_pay49
    exact (cast_2_3_apply _ _ 0 ch n).trans (hn0raw_C c i arg2 harg2 arg3 harg3 arg4 harg4 arg5 harg5 arg6 harg6 arg7 harg7 arg8 harg8 arg9 harg9 arg10 harg10 hc0 hc1 x0 x1 x2 x3 xs0 xs1 xs2 hb ch n)
  · unfold resC; dsimp only
    rw [View.read_writes_junk_eq_canon]
    unfold kernelRun0_C; dsimp only
    unfold kernelRun0_C.sl.HS0_2
    rw [← emb_layer1 inb_S2x64x2304_S1x64x2304_1_0_0 ch n, View.canon_cons_emb]
    unfold k0_pay2
    exact (cast_2_3_apply _ _ 0 ch n).trans (hn1raw_C c i arg2 harg2 arg3 harg3 arg4 harg4 arg5 harg5 arg6 harg6 arg7 harg7 arg8 harg8 arg9 harg9 arg10 harg10 hc0 hc1 x0 x1 x2 x3 xs0 xs1 xs2 hb ch n)
  · intro n
    have hmiss : ∀ (k : Fin 1160), 1152 ≤ k.val →
        (resC (F := Ideal) c i arg2 harg2 arg3 harg3 arg4 harg4 arg5 harg5 arg6 harg6 arg7 harg7 arg8 harg8 arg9 harg9 arg10 harg10 hc0 hc1 x0 x1 x2 x3 xs0 xs1 xs2).2.2.2.1 (ix2 k n) = xs1 (ix2 k n) := fun k hk => by
      unfold resC; dsimp only
      unfold kernelRun0_C; dsimp only
      rw [View.read_writes_apply_of_forall_not_mem _ _ _ _ (miss_of_slabs _ 1152 (by unfold kernelRun0_C.sl.HS1_36 kernelRun0_C.sl.HS1_18; all_slabs) k n hk)]
      rw [harg9.read_unread]
    exact ⟨(hmiss ⟨1152, by decide⟩ (le_refl _)).trans (hb n).1, fun k hk => (hmiss k (by omega)).trans ((hb n).2 k hk)⟩

end Cert.ReferenceIdeal.HandRun

end
-- ==== Proof.RSemA.lean ====
/-
  The reference program's kernel body at a grid point of one control case, read step by step as the GRU recurrence
  at the extended reals: the patch matrix, the gates, the recurrent patch matrix, the candidate, the new state.
-/
import proofs.«175272_g2000206920649175_pallasbulk_1279_5_alg».proof.Proof.RSemIdx

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec
open scoped BigOperators

set_option pp.maxSteps 5000
set_option pp.deepTerms false

/-! ## The reset: the zero fill and the ones row -/

theorem hz3 : (![0, 0, 0] : Fin 3 → Nat) = fun _ => 0 := funext fun a => by fin_cases a <;> rfl
theorem hz2 : (![0, 0] : Fin 2 → Nat) = fun _ => 0 := funext fun a => by fin_cases a <;> rfl

/-- The reset's fills are zero, its bias row is one. -/
theorem pay6_apply (y : S2x64x2304.Idx) : k0_pay6 (F := Ideal) y = 0 := by
  simp only [k0_pay6, shapeCast_self, ValueIdx.broadcast_apply]
  exact Ideal.ofBits_zero_f32
theorem pay7_apply (y : S1160x2304.Idx) : k0_pay7 (F := Ideal) y = 0 := by
  simp only [k0_pay7, shapeCast_self, ValueIdx.broadcast_apply]
  exact Ideal.ofBits_zero_f32
theorem pay9_apply (y : S1x2304.Idx) : k0_pay9 (F := Ideal) y = 1 := by
  simp only [k0_pay9, shapeCast_self, ValueIdx.broadcast_apply]
  exact Ideal.ofBits_one_f32

/-- An index the first `n` pieces of the list all miss reads what the remaining pieces leave. -/
theorem read_writes_drop {κ : Kind} {sp : Space} {s : Shape} (v : View sig κ sp s .f32) (f : v.ty.Contents (Elt Ideal)) (n : Nat)
    (L : List (View.Piece (Elt Ideal) s .f32)) (y : s.Idx) (h : ∀ p ∈ L.take n, y ∉ p.1.set) :
    v.read (Elt Ideal) (v.writes (Elt Ideal) f L) y = v.read (Elt Ideal) (v.writes (Elt Ideal) f (L.drop n)) y := by
  conv_lhs => rw [← List.take_append_drop n L, View.writes_append]
  exact View.read_writes_apply_of_forall_not_mem _ _ y _ h

theorem emb_ones (inb) (n : Fin 2304) :
    (Rect.unit (s := S1160x2304) ![1152, 0] S1x2304.size inb).emb (ix2 (0 : Fin 1) n) = ix2 (⟨1152, by decide⟩ : Fin 1160) n := by
  funext a; apply Fin.ext
  match a with
  | ⟨0, _⟩ => rfl
  | ⟨1, _⟩ => show 0 + 1 * n.val = n.val; omega
theorem not_mem_ones (inb) (k : Fin 1160) (n : Fin 2304) (hk : 1153 ≤ k.val) :
    ix2 k n ∉ (Rect.unit (s := S1160x2304) ![1152, 0] S1x2304.size inb).set := by
  rw [Rect.mem_set_unit]
  intro h
  have h1 := (h ⟨0, by decide⟩).2
  have h2 : k.val < 1152 + 1 := h1
  omega

/-- Under the slabs lie the reset's two stores: the ones row at 1152 over the zero fill. -/
theorem canon_bias_one (inb1 inb0) (w1 : S1x2304.Idx → EReal) (w0 : S1160x2304.Idx → EReal)
    (L : List (View.Piece (Elt Ideal) S1160x2304 .f32)) (n : Fin 2304) :
    View.canon ((⟨Rect.unit (s := S1160x2304) ![1152, 0] S1x2304.size inb1, w1⟩ : View.Piece (Elt Ideal) S1160x2304 .f32)
        :: (⟨Rect.unit (s := S1160x2304) ![0, 0] S1160x2304.size inb0, w0⟩ : View.Piece (Elt Ideal) S1160x2304 .f32) :: L)
      (ix2 (⟨1152, by decide⟩ : Fin 1160) n) = w1 (ix2 (0 : Fin 1) n) := by
  rw [← emb_ones inb1 n, View.canon_cons_emb]
theorem canon_bias_zero (inb1 inb0) (w1 : S1x2304.Idx → EReal) (w0 : S1160x2304.Idx → EReal)
    (L : List (View.Piece (Elt Ideal) S1160x2304 .f32)) (k : Fin 1160) (n : Fin 2304) (hk : 1153 ≤ k.val) :
    View.canon ((⟨Rect.unit (s := S1160x2304) ![1152, 0] S1x2304.size inb1, w1⟩ : View.Piece (Elt Ideal) S1160x2304 .f32)
        :: (⟨Rect.unit (s := S1160x2304) ![0, 0] S1160x2304.size inb0, w0⟩ : View.Piece (Elt Ideal) S1160x2304 .f32) :: L)
      (ix2 k n) = w0 (ix2 k n) := by
  rw [View.canon_cons_of_not_mem (⟨Rect.unit (s := S1160x2304) ![1152, 0] S1x2304.size inb1, w1⟩ : View.Piece (Elt Ideal) S1160x2304 .f32) _ (not_mem_ones inb1 k n hk)]
  rw [View.canon_cons_unit_zero hz2]

/-- An index of layer 1 of the hidden-state buffer is not in the slab of layer 0. -/
theorem not_mem_layer0 (inb) (ch : Fin 64) (n : Fin 2304) :
    ix3 (1 : Fin 2) ch n ∉ (Rect.unit (s := S2x64x2304) ![0, 0, 0] S1x64x2304.size inb).set := by
  rw [Rect.mem_set_unit]
  intro h
  have h1 := (h ⟨0, by decide⟩).2
  have h2 : (1 : ℕ) < 0 + 1 := h1
  omega
theorem canon_skip0 (inb0) (w0 : S1x64x2304.Idx → EReal) (L : List (View.Piece (Elt Ideal) S2x64x2304 .f32)) (ch : Fin 64) (n : Fin 2304) :
    View.canon ((⟨Rect.unit (s := S2x64x2304) ![0, 0, 0] S1x64x2304.size inb0, w0⟩ : View.Piece (Elt Ideal) S2x64x2304 .f32) :: L)
      (ix3 (1 : Fin 2) ch n) = View.canon L (ix3 (1 : Fin 2) ch n) :=
  View.canon_cons_of_not_mem (⟨Rect.unit (s := S2x64x2304) ![0, 0, 0] S1x64x2304.size inb0, w0⟩ : View.Piece (Elt Ideal) S2x64x2304 .f32) _ (not_mem_layer0 inb0 ch n)

/-- At a reset point both layers' states are read as zero (the zero fill, and for the second layer the zero fill
    under the first layer's new state). -/
theorem v5zero_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Fin 2304) : (kernelRun0_A.sl.v5 (F := Ideal) c arg8) (ix3 (0 : Fin 1) j n) = 0 := by
  unfold kernelRun0_A.sl.v5
  rw [View.readCov_eq_canon']
  dsimp only
  rw [idx_layer0]
  unfold kernelRun0_A.sl.HS0_1
  rw [View.canon_unit_zero hz3]
  exact pay6_apply _
theorem v244zero_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Fin 2304) : (kernelRun0_A.sl.v244 (F := Ideal) c arg2 harg2 arg3 harg3 arg4 harg4 arg5 harg5 arg8 arg9 arg10 x0 x1 x2 x3) (ix3 (0 : Fin 1) j n) = 0 := by
  unfold kernelRun0_A.sl.v244
  rw [View.readCov_eq_canon']
  dsimp only
  rw [idx_layer1]
  unfold kernelRun0_A.sl.HS0_2 kernelRun0_A.sl.HS0_1
  rw [canon_skip0, View.canon_unit_zero hz3]
  exact pay6_apply _

/-! ## The first layer -/

/-- The first layer's state as the body reads it. -/
theorem h0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Lane) : (kernelRun0_A.sl.r_1 (F := Ideal) c arg8) (ix2 j n) = (fun _ _ => (0 : EReal)) j n := by
  simp only [kernelRun0_A.sl.r_1, k0_pay11, slab3]
  norm_idx
  rw [v5zero_A c i arg2 harg2 arg3 harg3 arg4 harg4 arg5 harg5 arg6 harg6 arg7 harg7 arg8 harg8 arg9 harg9 arg10 harg10 hc0 hc1 x0 x1 x2 x3]
  try rfl

/-- The first patch matrix after the first layer's eighteen slab stores, at row `k` and lane `n`: the
    specification's patch matrix of the layer's input and state; its rows from 1152 on are the ones the buffer had. -/
theorem patch0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (k : Fin 1160) (n : Lane) :
    (kernelRun0_A.sl.v151 (F := Ideal) c arg2 harg2 arg3 harg3 arg8 arg9 x0 x1) (ix2 k n)
      = patchR (mat2 x0) (xR x1) (fun _ _ => (0 : EReal)) k n := by
  unfold kernelRun0_A.sl.v151
  rw [View.readCov_eq_canon']
  dsimp only
  rw [idx_p1]
  refine (View.read_writes_junk_apply_eq_canon arg9.view (ix2 k n) _).symm.trans ?_
  by_cases hk : k.val < 1152
  · refine read_writes_take arg9.view _ (ofRows (patchR (mat2 x0) (xR x1) (fun _ _ => (0 : EReal)))) 18 _ ?_ (ix2 k n) ?_
    · unfold kernelRun0_A.sl.HS1_20 kernelRun0_A.sl.HS1_13
      exact (List.forall_mem_cons.mpr ⟨(slab_piece_of (ofRows (patchR (mat2 x0) (xR x1) (fun _ _ => (0 : EReal)))) 1088 inb_S1160x2304_S64x2304_1088_0 _ (fun j n k hk => by
        rw [ofRows_ix2, patchR_st _ _ _ ⟨8, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 1024 inb_S1160x2304_S64x2304_1024_0 _ (fun j n k hk => by
        rw [ofRows_ix2, patchR_inp _ _ _ ⟨8, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 960 inb_S1160x2304_S64x2304_960_0 _ (fun j n k hk => by
        rw [ofRows_ix2, patchR_st _ _ _ ⟨7, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 896 inb_S1160x2304_S64x2304_896_0 _ (fun j n k hk => by
        rw [ofRows_ix2, patchR_inp _ _ _ ⟨7, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 832 inb_S1160x2304_S64x2304_832_0 _ (fun j n k hk => by
        rw [ofRows_ix2, patchR_st _ _ _ ⟨6, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 768 inb_S1160x2304_S64x2304_768_0 _ (fun j n k hk => by
        rw [ofRows_ix2, patchR_inp _ _ _ ⟨6, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 704 inb_S1160x2304_S64x2304_704_0 _ (fun j n k hk => by
        rw [ofRows_ix2, patchR_st _ _ _ ⟨5, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 640 inb_S1160x2304_S64x2304_640_0 _ (fun j n k hk => by
        rw [ofRows_ix2, patchR_inp _ _ _ ⟨5, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 576 inb_S1160x2304_S64x2304_576_0 _ (fun j n k hk => by
        rw [ofRows_ix2, patchR_st _ _ _ ⟨4, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 512 inb_S1160x2304_S64x2304_512_0 _ (fun j n k hk => by
        rw [ofRows_ix2, patchR_inp _ _ _ ⟨4, by decide⟩ j n k (by omega)]
        rw [amt_4, rotBy_zero]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 448 inb_S1160x2304_S64x2304_448_0 _ (fun j n k hk => by
        rw [ofRows_ix2, patchR_st _ _ _ ⟨3, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 384 inb_S1160x2304_S64x2304_384_0 _ (fun j n k hk => by
        rw [ofRows_ix2, patchR_inp _ _ _ ⟨3, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 320 inb_S1160x2304_S64x2304_320_0 _ (fun j n k hk => by
        rw [ofRows_ix2, patchR_st _ _ _ ⟨2, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 256 inb_S1160x2304_S64x2304_256_0 _ (fun j n k hk => by
        rw [ofRows_ix2, patchR_inp _ _ _ ⟨2, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 192 inb_S1160x2304_S64x2304_192_0 _ (fun j n k hk => by
        rw [ofRows_ix2, patchR_st _ _ _ ⟨1, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 128 inb_S1160x2304_S64x2304_128_0 _ (fun j n k hk => by
        rw [ofRows_ix2, patchR_inp _ _ _ ⟨1, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_cons.mpr ⟨(slab_piece_of (ofRows (patchR (mat2 x0) (xR x1) (fun _ _ => (0 : EReal)))) 64 inb_S1160x2304_S64x2304_64_0 _ (fun j n k hk => by
        rw [ofRows_ix2, patchR_st _ _ _ ⟨0, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        rw [v5zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (xR x1) (fun _ _ => (0 : EReal)))) 0 inb_S1160x2304_S64x2304_0_0 _ (fun j n k hk => by
        rw [ofRows_ix2, patchR_inp _ _ _ ⟨0, by decide⟩ j n k (by omega)]
        simp only [kernelRun0_A.sl.r, kernelRun0_A.sl.r_1, kernelRun0_A.sl.r_2, kernelRun0_A.sl.r_3, kernelRun0_A.sl.r_4]
        simp only [k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, shapeCast_self, ValueIdx.mulf_apply, bcast_row_apply, mat2, slab3, xR]
        norm_idx
        try rfl)),
      (List.forall_mem_nil _)⟩)⟩)⟩)⟩)⟩)⟩)⟩)⟩)⟩)⟩)⟩)⟩)⟩)⟩)⟩)⟩)⟩)⟩)
    · unfold kernelRun0_A.sl.HS1_20 kernelRun0_A.sl.HS1_13
      exact cover_of_slabs _ 18 (fun s hs => by interval_cases s <;> find_slab) k n (by omega)
  · rw [read_writes_drop arg9.view _ 18 _ (ix2 k n) (miss_of_slabs _ 1152 (by unfold kernelRun0_A.sl.HS1_20 kernelRun0_A.sl.HS1_13; all_slabs) k n (by omega))]
    rw [View.read_writes_junk_apply_eq_canon]
    unfold kernelRun0_A.sl.HS1_20 kernelRun0_A.sl.HS1_13
    by_cases h2 : k.val = 1152
    · have e : k = ⟨1152, by decide⟩ := Fin.ext h2
      rw [patchR_one _ _ _ n k h2, e]
      exact (canon_bias_one inb_S1160x2304_S1x2304_1152_0 inb_S1160x2304_S1160x2304_0_0 _ _ _ n).trans (pay9_apply _)
    · rw [patchR_zero _ _ _ n k (by omega)]
      exact (canon_bias_zero inb_S1160x2304_S1x2304_1152_0 inb_S1160x2304_S1160x2304_0_0 _ _ _ k n (by omega)).trans (pay7_apply _)

/-- The gates' product of the first layer at row `r` and lane `n`. -/
theorem gates0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (r : Fin 192) (n : Lane) :
    k0_pay32 (View.readAt (Elt Ideal) arg4.view (Rect.unit (s := S2x192x1160) ![0, 0, 0] S1x192x1160.size inb_S2x192x1160_S1x192x1160_0_0_0).toLoadRect (harg4.unread x2)) (kernelRun0_A.sl.v151 (F := Ideal) c arg2 harg2 arg3 harg3 arg8 arg9 x0 x1) (ix2 r n) = gatesR (mat2 x0) (slab3 x2 0) (xR x1) (fun _ _ => (0 : EReal)) r n := by
  simp only [k0_pay32]
  rw [gates_matmul_apply]
  unfold gatesR
  refine Finset.sum_congr rfl fun k _ => ?_
  rw [shapeCast_1ab_ab_apply, leaf_apply, idx_w1_0, patch0_A c i arg2 harg2 arg3 harg3 arg4 harg4 arg5 harg5 arg6 harg6 arg7 harg7 arg8 harg8 arg9 harg9 arg10 harg10 hc0 hc1 x0 x1 x2 x3 k n]
  rfl

/-- The update gate, the candidate's input part, and the reset gate times the state. -/
theorem u0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_5 (F := Ideal) c arg2 harg2 arg3 harg3 arg4 harg4 arg8 arg9 x0 x1 x2) (ix2 ch n) = Ideal.logistic (gatesR (mat2 x0) (slab3 x2 0) (xR x1) (fun _ _ => (0 : EReal)) ⟨64 + ch.val, by omega⟩ n) := by
  simp only [kernelRun0_A.sl.r_5, k0_pay33, logistic_apply]
  rw [slice_rows_apply 64 (by decide), gates0_A c i arg2 harg2 arg3 harg3 arg4 harg4 arg5 harg5 arg6 harg6 arg7 harg7 arg8 harg8 arg9 harg9 arg10 harg10 hc0 hc1 x0 x1 x2 x3]
theorem ox0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_6 (F := Ideal) c arg2 harg2 arg3 harg3 arg4 harg4 arg8 arg9 x0 x1 x2) (ix2 ch n) = gatesR (mat2 x0) (slab3 x2 0) (xR x1) (fun _ _ => (0 : EReal)) ⟨128 + ch.val, by omega⟩ n := by
  simp only [kernelRun0_A.sl.r_6, k0_pay34]
  rw [slice_rows_apply 128 (by decide), gates0_A c i arg2 harg2 arg3 harg3 arg4 harg4 arg5 harg5 arg6 harg6 arg7 harg7 arg8 harg8 arg9 harg9 arg10 harg10 hc0 hc1 x0 x1 x2 x3]
theorem hr0raw_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Lane) :
    k0_pay35 (kernelRun0_A.sl.r_1 (F := Ideal) c arg8) (View.readAt (Elt Ideal) arg4.view (Rect.unit (s := S2x192x1160) ![0, 0, 0] S1x192x1160.size inb_S2x192x1160_S1x192x1160_0_0_0).toLoadRect (harg4.unread x2)) (kernelRun0_A.sl.v151 (F := Ideal) c arg2 harg2 arg3 harg3 arg8 arg9 x0 x1) (ix2 j n) = (fun j n => (fun _ _ => (0 : EReal)) j n * Ideal.logistic (gatesR (mat2 x0) (slab3 x2 0) (xR x1) (fun _ _ => (0 : EReal)) ⟨j.val, by omega⟩ n)) j n := by
  simp only [k0_pay35, ValueIdx.mulf_apply, logistic_apply]
  rw [slice_rows_apply 0 (by decide), gates0_A c i arg2 harg2 arg3 harg3 arg4 harg4 arg5 harg5 arg6 harg6 arg7 harg7 arg8 harg8 arg9 harg9 arg10 harg10 hc0 hc1 x0 x1 x2 x3, h0_A c i arg2 harg2 arg3 harg3 arg4 harg4 arg5 harg5 arg6 harg6 arg7 harg7 arg8 harg8 arg9 harg9 arg10 harg10 hc0 hc1 x0 x1 x2 x3]
  have e : (⟨0 + j.val, by omega⟩ : Fin 192) = ⟨j.val, by omega⟩ := Fin.ext (Nat.zero_add _)
  rw [e]

/-- The second patch matrix after the first layer's nine slab stores: the specification's recurrent patch
    matrix of (state times reset gate). -/
theorem p20_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (k : Fin 576) (n : Lane) :
    (kernelRun0_A.sl.v232 (F := Ideal) c arg2 harg2 arg3 harg3 arg4 harg4 arg8 arg9 arg10 x0 x1 x2) (ix2 k n) = patchC (mat2 x0) (fun j n => (fun _ _ => (0 : EReal)) j n * Ideal.logistic (gatesR (mat2 x0) (slab3 x2 0) (xR x1) (fun _ _ => (0 : EReal)) ⟨j.val, by omega⟩ n)) k n := by
  unfold kernelRun0_A.sl.v232
  rw [View.readCov_eq_canon']
  dsimp only
  rw [idx_p2]
  refine (View.read_writes_junk_apply_eq_canon arg10.view (ix2 k n) _).symm.trans ?_
  refine read_writes_take arg10.view _ (ofRows (patchC (mat2 x0) (fun j n => (fun _ _ => (0 : EReal)) j n * Ideal.logistic (gatesR (mat2 x0) (slab3 x2 0) (xR x1) (fun _ _ => (0 : EReal)) ⟨j.val, by omega⟩ n)))) 9 _ ?_ (ix2 k n) ?_
  · unfold kernelRun0_A.sl.HS2_10
    exact (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 512 inb_S576x2304_S64x2304_512_0 _ (fun j n k hk => by
        rw [ofRows_ix2, patchC_apply _ _ ⟨8, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 448 inb_S576x2304_S64x2304_448_0 _ (fun j n k hk => by
        rw [ofRows_ix2, patchC_apply _ _ ⟨7, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 384 inb_S576x2304_S64x2304_384_0 _ (fun j n k hk => by
        rw [ofRows_ix2, patchC_apply _ _ ⟨6, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 320 inb_S576x2304_S64x2304_320_0 _ (fun j n k hk => by
        rw [ofRows_ix2, patchC_apply _ _ ⟨5, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 192 inb_S576x2304_S64x2304_192_0 _ (fun j n k hk => by
        rw [ofRows_ix2, patchC_apply _ _ ⟨3, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 128 inb_S576x2304_S64x2304_128_0 _ (fun j n k hk => by
        rw [ofRows_ix2, patchC_apply _ _ ⟨2, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 64 inb_S576x2304_S64x2304_64_0 _ (fun j n k hk => by
        rw [ofRows_ix2, patchC_apply _ _ ⟨1, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 0) (xR x1) (fun _ _ => (0 : EReal)) ⟨j.val, by omega⟩ n)))) 0 inb_S576x2304_S64x2304_0_0 _ (fun j n k hk => by
        rw [ofRows_ix2, patchC_apply _ _ ⟨0, by decide⟩ j n k (by omega)]
        simp only [kernelRun0_A.sl.r_7, kernelRun0_A.sl.r_8, kernelRun0_A.sl.r_9]
        simp only [k0_pay36, k0_pay37, k0_pay38, k0_pay39, k0_pay40, k0_pay41, k0_pay42, k0_pay43, k0_pay44, k0_pay45, k0_pay46, shapeCast_self, ValueIdx.mulf_apply, bcast_row_apply, mat2, slab3, xR]
        norm_idx
        rw [hr0raw_A c i arg2 harg2 arg3 harg3 arg4 harg4 arg5 harg5 arg6 harg6 arg7 harg7 arg8 harg8 arg9 harg9 arg10 harg10 hc0 hc1 x0 x1 x2 x3]
        try rfl)),
      (List.forall_mem_nil _)⟩)⟩)⟩)⟩)⟩)⟩)⟩)⟩)⟩)
  · unfold kernelRun0_A.sl.HS2_10
    exact cover_of_slabs _ 9 (fun s hs => by interval_cases s <;> find_slab) k n (by have := k.isLt; omega)

/-- The candidate of the first layer. -/
theorem o0_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_10 (F := Ideal) c arg2 harg2 arg3 harg3 arg4 harg4 arg5 harg5 arg8 arg9 arg10 x0 x1 x2 x3) (ix2 ch n)
      = Ideal.tanh (gatesR (mat2 x0) (slab3 x2 0) (xR x1) (fun _ _ => (0 : EReal)) ⟨128 + ch.val, by omega⟩ n + candSum (mat2 x0) (slab3 x3 0) (fun j n => (fun _ _ => (0 : EReal)) j n * Ideal.logistic (gatesR (mat2 x0) (slab3 x2 0) (xR x1) (fun _ _ => (0 : EReal)) ⟨j.val, by omega⟩ n)) ch n) := by
  simp only [kernelRun0_A.sl.r_10, k0_pay47, tanh_apply, ValueIdx.addf_apply]
  rw [cand_matmul_apply, ox0_A c i arg2 harg2 arg3 harg3 arg4 harg4 arg5 harg5 arg6 harg6 arg7 harg7 arg8 harg8 arg9 harg9 arg10 harg10 hc0 hc1 x0 x1 x2 x3]
  unfold candSum
  congr 2
  refine Finset.sum_congr rfl fun k _ => ?_
  rw [shapeCast_1ab_ab_apply, leaf_apply, idx_w2_0, p20_A c i arg2 harg2 arg3 harg3 arg4 harg4 arg5 harg5 arg6 harg6 arg7 harg7 arg8 harg8 arg9 harg9 arg10 harg10 hc0 hc1 x0 x1 x2 x3 k n]
  rfl

/-- The first layer's new state is one step of the recurrence. -/
theorem hn0raw_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    k0_pay48 (kernelRun0_A.sl.r_1 (F := Ideal) c arg8) (kernelRun0_A.sl.r_5 (F := Ideal) c arg2 harg2 arg3 harg3 arg4 harg4 arg8 arg9 x0 x1 x2) (kernelRun0_A.sl.r_10 (F := Ideal) c arg2 harg2 arg3 harg3 arg4 harg4 arg5 harg5 arg8 arg9 arg10 x0 x1 x2 x3) kernelRun0_A.sl.cst_117 (ix2 ch n)
      = stepR (mat2 x0) (slab3 x2 0) (slab3 x3 0) (xR x1) (fun _ _ => (0 : EReal)) ch n := by
  simp only [kernelRun0_A.sl.cst_117, k0_pay48, ValueIdx.addf_apply, ValueIdx.mulf_apply, ValueIdx.subf_apply, ValueIdx.broadcast_apply]
  rw [h0_A c i arg2 harg2 arg3 harg3 arg4 harg4 arg5 harg5 arg6 harg6 arg7 harg7 arg8 harg8 arg9 harg9 arg10 harg10 hc0 hc1 x0 x1 x2 x3, u0_A c i arg2 harg2 arg3 harg3 arg4 harg4 arg5 harg5 arg6 harg6 arg7 harg7 arg8 harg8 arg9 harg9 arg10 harg10 hc0 hc1 x0 x1 x2 x3, o0_A c i arg2 harg2 arg3 harg3 arg4 harg4 arg5 harg5 arg6 harg6 arg7 harg7 arg8 harg8 arg9 harg9 arg10 harg10 hc0 hc1 x0 x1 x2 x3]
  rw [show (FloatOps.ofBits FTy.f32 1065353216#32 : Ideal .f32) = 1 from Ideal.ofBits_one_f32]
  rfl

/-! ## The second layer -/

/-- The second layer's state as the body reads it. -/
theorem h1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Lane) : (kernelRun0_A.sl.r_12 (F := Ideal) c arg2 harg2 arg3 harg3 arg4 harg4 arg5 harg5 arg8 arg9 arg10 x0 x1 x2 x3) (ix2 j n) = (fun _ _ => (0 : EReal)) j n := by
  simp only [kernelRun0_A.sl.r_12, k0_pay50, slab3]
  norm_idx
  rw [v244zero_A c i arg2 harg2 arg3 harg3 arg4 harg4 arg5 harg5 arg6 harg6 arg7 harg7 arg8 harg8 arg9 harg9 arg10 harg10 hc0 hc1 x0 x1 x2 x3]
  try rfl

/-- The first patch matrix after the second layer's eighteen slab stores, at row `k` and lane `n`: the
    specification's patch matrix of the layer's input and state; its rows from 1152 on are the ones the buffer had. -/
theorem patch1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (k : Fin 1160) (n : Lane) :
    (kernelRun0_A.sl.v390 (F := Ideal) c arg2 harg2 arg3 harg3 arg4 harg4 arg5 harg5 arg8 arg9 arg10 x0 x1 x2 x3) (ix2 k n)
      = patchR (mat2 x0) (stepR (mat2 x0) (slab3 x2 0) (slab3 x3 0) (xR x1) (fun _ _ => (0 : EReal))) (fun _ _ => (0 : EReal)) k n := by
  unfold kernelRun0_A.sl.v390
  rw [View.readCov_eq_canon']
  dsimp only
  rw [idx_p1]
  refine (View.read_writes_junk_apply_eq_canon arg9.view (ix2 k n) _).symm.trans ?_
  by_cases hk : k.val < 1152
  · refine read_writes_take arg9.view _ (ofRows (patchR (mat2 x0) (stepR (mat2 x0) (slab3 x2 0) (slab3 x3 0) (xR x1) (fun _ _ => (0 : EReal))) (fun _ _ => (0 : EReal)))) 18 _ ?_ (ix2 k n) ?_
    · unfold kernelRun0_A.sl.HS1_38
      exact (List.forall_mem_cons.mpr ⟨(slab_piece_of (ofRows (patchR (mat2 x0) (stepR (mat2 x0) (slab3 x2 0) (slab3 x3 0) (xR x1) (fun _ _ => (0 : EReal))) (fun _ _ => (0 : EReal)))) 1088 inb_S1160x2304_S64x2304_1088_0 _ (fun j n k hk => by
        rw [ofRows_ix2, patchR_st _ _ _ ⟨8, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 1024 inb_S1160x2304_S64x2304_1024_0 _ (fun j n k hk => by
        rw [ofRows_ix2, patchR_inp _ _ _ ⟨8, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 960 inb_S1160x2304_S64x2304_960_0 _ (fun j n k hk => by
        rw [ofRows_ix2, patchR_st _ _ _ ⟨7, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 896 inb_S1160x2304_S64x2304_896_0 _ (fun j n k hk => by
        rw [ofRows_ix2, patchR_inp _ _ _ ⟨7, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 832 inb_S1160x2304_S64x2304_832_0 _ (fun j n k hk => by
        rw [ofRows_ix2, patchR_st _ _ _ ⟨6, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 768 inb_S1160x2304_S64x2304_768_0 _ (fun j n k hk => by
        rw [ofRows_ix2, patchR_inp _ _ _ ⟨6, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 704 inb_S1160x2304_S64x2304_704_0 _ (fun j n k hk => by
        rw [ofRows_ix2, patchR_st _ _ _ ⟨5, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 640 inb_S1160x2304_S64x2304_640_0 _ (fun j n k hk => by
        rw [ofRows_ix2, patchR_inp _ _ _ ⟨5, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 576 inb_S1160x2304_S64x2304_576_0 _ (fun j n k hk => by
        rw [ofRows_ix2, patchR_st _ _ _ ⟨4, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 512 inb_S1160x2304_S64x2304_512_0 _ (fun j n k hk => by
        rw [ofRows_ix2, patchR_inp _ _ _ ⟨4, by decide⟩ j n k (by omega)]
        rw [amt_4, rotBy_zero]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 448 inb_S1160x2304_S64x2304_448_0 _ (fun j n k hk => by
        rw [ofRows_ix2, patchR_st _ _ _ ⟨3, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 384 inb_S1160x2304_S64x2304_384_0 _ (fun j n k hk => by
        rw [ofRows_ix2, patchR_inp _ _ _ ⟨3, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 320 inb_S1160x2304_S64x2304_320_0 _ (fun j n k hk => by
        rw [ofRows_ix2, patchR_st _ _ _ ⟨2, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 256 inb_S1160x2304_S64x2304_256_0 _ (fun j n k hk => by
        rw [ofRows_ix2, patchR_inp _ _ _ ⟨2, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 192 inb_S1160x2304_S64x2304_192_0 _ (fun j n k hk => by
        rw [ofRows_ix2, patchR_st _ _ _ ⟨1, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 128 inb_S1160x2304_S64x2304_128_0 _ (fun j n k hk => by
        rw [ofRows_ix2, patchR_inp _ _ _ ⟨1, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 64 inb_S1160x2304_S64x2304_64_0 _ (fun j n k hk => by
        rw [ofRows_ix2, patchR_st _ _ _ ⟨0, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [v244zero_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchR (mat2 x0) (stepR (mat2 x0) (slab3 x2 0) (slab3 x3 0) (xR x1) (fun _ _ => (0 : EReal))) (fun _ _ => (0 : EReal)))) 0 inb_S1160x2304_S64x2304_0_0 _ (fun j n k hk => by
        rw [ofRows_ix2, patchR_inp _ _ _ ⟨0, by decide⟩ j n k (by omega)]
        simp only [kernelRun0_A.sl.r_11, kernelRun0_A.sl.r_12, kernelRun0_A.sl.r_13, kernelRun0_A.sl.r_14, kernelRun0_A.sl.r_15, kernelRun0_A.sl.r_16]
        simp only [k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, shapeCast_self, ValueIdx.mulf_apply, bcast_row_apply, mat2, slab3, xR]
        norm_idx
        rw [hn0raw_A c i arg2 harg2 arg3 harg3 arg4 harg4 arg5 harg5 arg6 harg6 arg7 harg7 arg8 harg8 arg9 harg9 arg10 harg10 hc0 hc1 x0 x1 x2 x3]
        try rfl)),
      (List.forall_mem_nil _)⟩)⟩)⟩)⟩)⟩)⟩)⟩)⟩)⟩)⟩)⟩)⟩)⟩)⟩)⟩)⟩)⟩)⟩)
    · unfold kernelRun0_A.sl.HS1_38
      exact cover_of_slabs _ 18 (fun s hs => by interval_cases s <;> find_slab) k n (by omega)
  · rw [read_writes_drop arg9.view _ 36 _ (ix2 k n) (miss_of_slabs _ 1152 (by unfold kernelRun0_A.sl.HS1_38 kernelRun0_A.sl.HS1_20 kernelRun0_A.sl.HS1_13; all_slabs) k n (by omega))]
    rw [View.read_writes_junk_apply_eq_canon]
    unfold kernelRun0_A.sl.HS1_38 kernelRun0_A.sl.HS1_20 kernelRun0_A.sl.HS1_13
    by_cases h2 : k.val = 1152
    · have e : k = ⟨1152, by decide⟩ := Fin.ext h2
      rw [patchR_one _ _ _ n k h2, e]
      exact (canon_bias_one inb_S1160x2304_S1x2304_1152_0 inb_S1160x2304_S1160x2304_0_0 _ _ _ n).trans (pay9_apply _)
    · rw [patchR_zero _ _ _ n k (by omega)]
      exact (canon_bias_zero inb_S1160x2304_S1x2304_1152_0 inb_S1160x2304_S1160x2304_0_0 _ _ _ k n (by omega)).trans (pay7_apply _)

/-- The gates' product of the second layer at row `r` and lane `n`. -/
theorem gates1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (r : Fin 192) (n : Lane) :
    k0_pay71 (View.readAt (Elt Ideal) arg4.view (Rect.unit (s := S2x192x1160) ![1, 0, 0] S1x192x1160.size inb_S2x192x1160_S1x192x1160_1_0_0).toLoadRect (harg4.unread x2)) (kernelRun0_A.sl.v390 (F := Ideal) c arg2 harg2 arg3 harg3 arg4 harg4 arg5 harg5 arg8 arg9 arg10 x0 x1 x2 x3) (ix2 r n) = gatesR (mat2 x0) (slab3 x2 1) (stepR (mat2 x0) (slab3 x2 0) (slab3 x3 0) (xR x1) (fun _ _ => (0 : EReal))) (fun _ _ => (0 : EReal)) r n := by
  simp only [k0_pay71]
  rw [gates_matmul_apply]
  unfold gatesR
  refine Finset.sum_congr rfl fun k _ => ?_
  rw [shapeCast_1ab_ab_apply, leaf_apply, idx_w1_1, patch1_A c i arg2 harg2 arg3 harg3 arg4 harg4 arg5 harg5 arg6 harg6 arg7 harg7 arg8 harg8 arg9 harg9 arg10 harg10 hc0 hc1 x0 x1 x2 x3 k n]
  rfl

/-- The update gate, the candidate's input part, and the reset gate times the state. -/
theorem u1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_17 (F := Ideal) c arg2 harg2 arg3 harg3 arg4 harg4 arg5 harg5 arg8 arg9 arg10 x0 x1 x2 x3) (ix2 ch n) = Ideal.logistic (gatesR (mat2 x0) (slab3 x2 1) (stepR (mat2 x0) (slab3 x2 0) (slab3 x3 0) (xR x1) (fun _ _ => (0 : EReal))) (fun _ _ => (0 : EReal)) ⟨64 + ch.val, by omega⟩ n) := by
  simp only [kernelRun0_A.sl.r_17, k0_pay72, logistic_apply]
  rw [slice_rows_apply 64 (by decide), gates1_A c i arg2 harg2 arg3 harg3 arg4 harg4 arg5 harg5 arg6 harg6 arg7 harg7 arg8 harg8 arg9 harg9 arg10 harg10 hc0 hc1 x0 x1 x2 x3]
theorem ox1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_18 (F := Ideal) c arg2 harg2 arg3 harg3 arg4 harg4 arg5 harg5 arg8 arg9 arg10 x0 x1 x2 x3) (ix2 ch n) = gatesR (mat2 x0) (slab3 x2 1) (stepR (mat2 x0) (slab3 x2 0) (slab3 x3 0) (xR x1) (fun _ _ => (0 : EReal))) (fun _ _ => (0 : EReal)) ⟨128 + ch.val, by omega⟩ n := by
  simp only [kernelRun0_A.sl.r_18, k0_pay73]
  rw [slice_rows_apply 128 (by decide), gates1_A c i arg2 harg2 arg3 harg3 arg4 harg4 arg5 harg5 arg6 harg6 arg7 harg7 arg8 harg8 arg9 harg9 arg10 harg10 hc0 hc1 x0 x1 x2 x3]
theorem hr1raw_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (j : Fin 64) (n : Lane) :
    k0_pay74 (kernelRun0_A.sl.r_12 (F := Ideal) c arg2 harg2 arg3 harg3 arg4 harg4 arg5 harg5 arg8 arg9 arg10 x0 x1 x2 x3) (View.readAt (Elt Ideal) arg4.view (Rect.unit (s := S2x192x1160) ![1, 0, 0] S1x192x1160.size inb_S2x192x1160_S1x192x1160_1_0_0).toLoadRect (harg4.unread x2)) (kernelRun0_A.sl.v390 (F := Ideal) c arg2 harg2 arg3 harg3 arg4 harg4 arg5 harg5 arg8 arg9 arg10 x0 x1 x2 x3) (ix2 j n) = (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)) j n := by
  simp only [k0_pay74, ValueIdx.mulf_apply, logistic_apply]
  rw [slice_rows_apply 0 (by decide), gates1_A c i arg2 harg2 arg3 harg3 arg4 harg4 arg5 harg5 arg6 harg6 arg7 harg7 arg8 harg8 arg9 harg9 arg10 harg10 hc0 hc1 x0 x1 x2 x3, h1_A c i arg2 harg2 arg3 harg3 arg4 harg4 arg5 harg5 arg6 harg6 arg7 harg7 arg8 harg8 arg9 harg9 arg10 harg10 hc0 hc1 x0 x1 x2 x3]
  have e : (⟨0 + j.val, by omega⟩ : Fin 192) = ⟨j.val, by omega⟩ := Fin.ext (Nat.zero_add _)
  rw [e]

/-- The second patch matrix after the second layer's nine slab stores: the specification's recurrent patch
    matrix of (state times reset gate). -/
theorem p21_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (k : Fin 576) (n : Lane) :
    (kernelRun0_A.sl.v471 (F := Ideal) c arg2 harg2 arg3 harg3 arg4 harg4 arg5 harg5 arg8 arg9 arg10 x0 x1 x2 x3) (ix2 k n) = patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)) k n := by
  unfold kernelRun0_A.sl.v471
  rw [View.readCov_eq_canon']
  dsimp only
  rw [idx_p2]
  refine (View.read_writes_junk_apply_eq_canon arg10.view (ix2 k n) _).symm.trans ?_
  refine read_writes_take arg10.view _ (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 9 _ ?_ (ix2 k n) ?_
  · unfold kernelRun0_A.sl.HS2_19 kernelRun0_A.sl.HS2_15
    exact (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 512 inb_S576x2304_S64x2304_512_0 _ (fun j n k hk => by
        rw [ofRows_ix2, patchC_apply _ _ ⟨8, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 448 inb_S576x2304_S64x2304_448_0 _ (fun j n k hk => by
        rw [ofRows_ix2, patchC_apply _ _ ⟨7, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 384 inb_S576x2304_S64x2304_384_0 _ (fun j n k hk => by
        rw [ofRows_ix2, patchC_apply _ _ ⟨6, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 320 inb_S576x2304_S64x2304_320_0 _ (fun j n k hk => by
        rw [ofRows_ix2, patchC_apply _ _ ⟨5, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 256 inb_S576x2304_S64x2304_256_0 _ (fun j n k hk => by
        rw [ofRows_ix2, patchC_apply _ _ ⟨4, by decide⟩ j n k (by omega)]
        rw [amt_4, rotBy_zero]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 192 inb_S576x2304_S64x2304_192_0 _ (fun j n k hk => by
        rw [ofRows_ix2, patchC_apply _ _ ⟨3, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 128 inb_S576x2304_S64x2304_128_0 _ (fun j n k hk => by
        rw [ofRows_ix2, patchC_apply _ _ ⟨2, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 64 inb_S576x2304_S64x2304_64_0 _ (fun j n k hk => by
        rw [ofRows_ix2, patchC_apply _ _ ⟨1, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_cons.mpr ⟨(slab_piece_of (ofRows (patchC (mat2 x0) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)))) 0 inb_S576x2304_S64x2304_0_0 _ (fun j n k hk => by
        rw [ofRows_ix2, patchC_apply _ _ ⟨0, by decide⟩ j n k (by omega)]
        simp only [kernelRun0_A.sl.r_19, kernelRun0_A.sl.r_20, kernelRun0_A.sl.r_21, kernelRun0_A.sl.r_22]
        simp only [k0_pay75, k0_pay76, k0_pay77, k0_pay78, k0_pay79, k0_pay80, k0_pay81, k0_pay82, k0_pay83, k0_pay84, k0_pay85, shapeCast_self, ValueIdx.mulf_apply, bcast_row_apply, mat2, slab3, xR]
        norm_idx
        rw [hr1raw_A c i arg2 harg2 arg3 harg3 arg4 harg4 arg5 harg5 arg6 harg6 arg7 harg7 arg8 harg8 arg9 harg9 arg10 harg10 hc0 hc1 x0 x1 x2 x3]
        try rfl)),
      (List.forall_mem_nil _)⟩)⟩)⟩)⟩)⟩)⟩)⟩)⟩)⟩)
  · unfold kernelRun0_A.sl.HS2_19 kernelRun0_A.sl.HS2_15
    exact cover_of_slabs _ 9 (fun s hs => by interval_cases s <;> find_slab) k n (by have := k.isLt; omega)

/-- The candidate of the second layer. -/
theorem o1_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    (kernelRun0_A.sl.r_23 (F := Ideal) c arg2 harg2 arg3 harg3 arg4 harg4 arg5 harg5 arg8 arg9 arg10 x0 x1 x2 x3) (ix2 ch n)
      = Ideal.tanh (gatesR (mat2 x0) (slab3 x2 1) (stepR (mat2 x0) (slab3 x2 0) (slab3 x3 0) (xR x1) (fun _ _ => (0 : EReal))) (fun _ _ => (0 : EReal)) ⟨128 + ch.val, by omega⟩ n + candSum (mat2 x0) (slab3 x3 1) (fun j n => (fun _ _ => (0 : EReal)) j n * Ideal.logistic (gatesR (mat2 x0) (slab3 x2 1) (stepR (mat2 x0) (slab3 x2 0) (slab3 x3 0) (xR x1) (fun _ _ => (0 : EReal))) (fun _ _ => (0 : EReal)) ⟨j.val, by omega⟩ n)) ch n) := by
  simp only [kernelRun0_A.sl.r_23, k0_pay86, tanh_apply, ValueIdx.addf_apply]
  rw [cand_matmul_apply, ox1_A c i arg2 harg2 arg3 harg3 arg4 harg4 arg5 harg5 arg6 harg6 arg7 harg7 arg8 harg8 arg9 harg9 arg10 harg10 hc0 hc1 x0 x1 x2 x3]
  unfold candSum
  congr 2
  refine Finset.sum_congr rfl fun k _ => ?_
  rw [shapeCast_1ab_ab_apply, leaf_apply, idx_w2_1, p21_A c i arg2 harg2 arg3 harg3 arg4 harg4 arg5 harg5 arg6 harg6 arg7 harg7 arg8 harg8 arg9 harg9 arg10 harg10 hc0 hc1 x0 x1 x2 x3 k n]
  rfl

/-- The second layer's new state is one step of the recurrence from the first layer's new state. -/
theorem hn1raw_A (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) (ch : Fin 64) (n : Lane) :
    k0_pay1 (kernelRun0_A.sl.r_12 (F := Ideal) c arg2 harg2 arg3 harg3 arg4 harg4 arg5 harg5 arg8 arg9 arg10 x0 x1 x2 x3) (kernelRun0_A.sl.r_17 (F := Ideal) c arg2 harg2 arg3 harg3 arg4 harg4 arg5 harg5 arg8 arg9 arg10 x0 x1 x2 x3) (kernelRun0_A.sl.r_23 (F := Ideal) c arg2 harg2 arg3 harg3 arg4 harg4 arg5 harg5 arg8 arg9 arg10 x0 x1 x2 x3) (kernelRun0_A.sl.r_24 (F := Ideal) c arg2 harg2 arg3 harg3 arg4 harg4 arg5 harg5 arg8 arg9 arg10 x0 x1 x2 x3) (ix2 ch n)
      = stepR (mat2 x0) (slab3 x2 1) (slab3 x3 1) (stepR (mat2 x0) (slab3 x2 0) (slab3 x3 0) (xR x1) (fun _ _ => (0 : EReal))) (fun _ _ => (0 : EReal)) ch n := by
  simp only [kernelRun0_A.sl.r_24, k0_pay1, k0_pay87, ValueIdx.addf_apply, ValueIdx.mulf_apply, ValueIdx.subf_apply, ValueIdx.broadcast_apply]
  rw [h1_A c i arg2 harg2 arg3 harg3 arg4 harg4 arg5 harg5 arg6 harg6 arg7 harg7 arg8 harg8 arg9 harg9 arg10 harg10 hc0 hc1 x0 x1 x2 x3, u1_A c i arg2 harg2 arg3 harg3 arg4 harg4 arg5 harg5 arg6 harg6 arg7 harg7 arg8 harg8 arg9 harg9 arg10 harg10 hc0 hc1 x0 x1 x2 x3, o1_A c i arg2 harg2 arg3 harg3 arg4 harg4 arg5 harg5 arg6 harg6 arg7 harg7 arg8 harg8 arg9 harg9 arg10 harg10 hc0 hc1 x0 x1 x2 x3]
  rw [show (Scalar.ofBits FTy.f32 0x3F800000#32 : Ideal .f32) = 1 from Ideal.ofBits_one_f32]
  rfl

/-! ## The point as two steps of the recurrence -/

theorem semA' (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) :
    (∀ (ch : Fin 64) (n : Lane), (resA (F := Ideal) c i arg2 harg2 arg3 harg3 arg4 harg4 arg5 harg5 arg6 harg6 arg7 harg7 arg8 harg8 arg9 harg9 arg10 harg10 hc0 hc1 x0 x1 x2 x3).2.1 (ix3 (0 : Fin 2) ch n) = stepR (mat2 x0) (slab3 x2 0) (slab3 x3 0) (xR x1) (fun _ _ => (0 : EReal)) ch n)
  ∧ (∀ (ch : Fin 64) (n : Lane), (resA (F := Ideal) c i arg2 harg2 arg3 harg3 arg4 harg4 arg5 harg5 arg6 harg6 arg7 harg7 arg8 harg8 arg9 harg9 arg10 harg10 hc0 hc1 x0 x1 x2 x3).2.1 (ix3 (1 : Fin 2) ch n)
        = stepR (mat2 x0) (slab3 x2 1) (slab3 x3 1) (stepR (mat2 x0) (slab3 x2 0) (slab3 x3 0) (xR x1) (fun _ _ => (0 : EReal))) (fun _ _ => (0 : EReal)) ch n)
  ∧ BiasR (resA (F := Ideal) c i arg2 harg2 arg3 harg3 arg4 harg4 arg5 harg5 arg6 harg6 arg7 harg7 arg8 harg8 arg9 harg9 arg10 harg10 hc0 hc1 x0 x1 x2 x3).2.2.1 := by
  refine ⟨fun ch n => ?_, fun ch n => ?_, ?_⟩
  · unfold resA; dsimp only
    rw [View.read_writes_junk_eq_canon]
    unfold kernelRun0_A; dsimp only
    unfold kernelRun0_A.sl.HS0_2
    rw [canon_h0 (F := Ideal)]
    unfold k0_pay49
    exact (cast_2_3_apply _ _ 0 ch n).trans (hn0raw_A c i arg2 harg2 arg3 harg3 arg4 harg4 arg5 harg5 arg6 harg6 arg7 harg7 arg8 harg8 arg9 harg9 arg10 harg10 hc0 hc1 x0 x1 x2 x3 ch n)
  · unfold resA; dsimp only
    rw [View.read_writes_junk_eq_canon]
    unfold kernelRun0_A; dsimp only
    unfold kernelRun0_A.sl.HS0_2
    rw [← emb_layer1 inb_S2x64x2304_S1x64x2304_1_0_0 ch n, View.canon_cons_emb]
    unfold k0_pay2
    exact (cast_2_3_apply _ _ 0 ch n).trans (hn1raw_A c i arg2 harg2 arg3 harg3 arg4 harg4 arg5 harg5 arg6 harg6 arg7 harg7 arg8 harg8 arg9 harg9 arg10 harg10 hc0 hc1 x0 x1 x2 x3 ch n)
  · intro n
    have hdrop : ∀ (k : Fin 1160), 1152 ≤ k.val →
        (resA (F := Ideal) c i arg2 harg2 arg3 harg3 arg4 harg4 arg5 harg5 arg6 harg6 arg7 harg7 arg8 harg8 arg9 harg9 arg10 harg10 hc0 hc1 x0 x1 x2 x3).2.2.1 (ix2 k n) = View.canon (List.drop 36 (kernelRun0_A.sl.HS1_38 (F := Ideal) c arg2 harg2 arg3 harg3 arg4 harg4 arg5 harg5 arg8 arg9 arg10 x0 x1 x2 x3)) (ix2 k n) := fun k hk => by
      unfold resA; dsimp only
      unfold kernelRun0_A; dsimp only
      rw [read_writes_drop VS0_1 _ 36 _ (ix2 k n) (miss_of_slabs _ 1152 (by unfold kernelRun0_A.sl.HS1_38 kernelRun0_A.sl.HS1_20 kernelRun0_A.sl.HS1_13; all_slabs) k n hk)]
      rw [View.read_writes_junk_apply_eq_canon]
    refine ⟨?_, fun k hk => ?_⟩
    · rw [hdrop ⟨1152, by decide⟩ (le_refl _)]
      unfold kernelRun0_A.sl.HS1_38 kernelRun0_A.sl.HS1_20 kernelRun0_A.sl.HS1_13
      exact (canon_bias_one inb_S1160x2304_S1x2304_1152_0 inb_S1160x2304_S1160x2304_0_0 _ _ _ n).trans (pay9_apply _)
    · rw [hdrop k (by omega)]
      unfold kernelRun0_A.sl.HS1_38 kernelRun0_A.sl.HS1_20 kernelRun0_A.sl.HS1_13
      exact (canon_bias_zero inb_S1160x2304_S1x2304_1152_0 inb_S1160x2304_S1160x2304_0_0 _ _ _ k n hk).trans (pay7_apply _)

end Cert.ReferenceIdeal.HandRun

end
-- ==== Proof.RSem.lean ====
/-
  The reference program's kernel body at a grid point, read as the GRU recurrence at the extended reals: what the
  point leaves in the hidden-state scratch is, layer by layer, one step of the specification's recurrence from the
  state the point found (the zero state at a reset point), the second layer fed by the first layer's new state; and
  the first patch matrix keeps its bias rows (row 1152 ones, rows 1153 to 1159 zero).
-/
import proofs.«175272_g2000206920649175_pallasbulk_1279_5_alg».proof.Proof.RSoundA
import proofs.«175272_g2000206920649175_pallasbulk_1279_5_alg».proof.Proof.RSoundB
import proofs.«175272_g2000206920649175_pallasbulk_1279_5_alg».proof.Proof.RSoundC
import proofs.«175272_g2000206920649175_pallasbulk_1279_5_alg».proof.Proof.SemDefs
import Idealize.ShloMosaic.Lib.ValueIdx
import proofs.«175272_g2000206920649175_pallasbulk_1279_5_alg».proof.Proof.RSemB
import proofs.«175272_g2000206920649175_pallasbulk_1279_5_alg».proof.Proof.RSemC
import proofs.«175272_g2000206920649175_pallasbulk_1279_5_alg».proof.Proof.RSemA

set_option maxRecDepth 16384

noncomputable section

namespace Cert.ReferenceIdeal.HandRun

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec

/-- A point whose time step is neither 0 nor 31. -/
theorem semB (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : ¬cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) :
    (∀ (ch : Fin 64) (n : Lane), (resB (F := Ideal) c i arg2 harg2 arg3 harg3 arg4 harg4 arg5 harg5 arg6 harg6 arg7 harg7 arg8 harg8 arg9 harg9 arg10 harg10 hc0 hc1 x0 x1 x2 x3 xs0 xs1 xs2).2.1 (ix3 (0 : Fin 2) ch n) = stepR (mat2 x0) (slab3 x2 0) (slab3 x3 0) (xR x1) (slab3 xs0 0) ch n)
  ∧ (∀ (ch : Fin 64) (n : Lane), (resB (F := Ideal) c i arg2 harg2 arg3 harg3 arg4 harg4 arg5 harg5 arg6 harg6 arg7 harg7 arg8 harg8 arg9 harg9 arg10 harg10 hc0 hc1 x0 x1 x2 x3 xs0 xs1 xs2).2.1 (ix3 (1 : Fin 2) ch n)
        = stepR (mat2 x0) (slab3 x2 1) (slab3 x3 1) (stepR (mat2 x0) (slab3 x2 0) (slab3 x3 0) (xR x1) (slab3 xs0 0)) (slab3 xs0 1) ch n)
  ∧ BiasR (resB (F := Ideal) c i arg2 harg2 arg3 harg3 arg4 harg4 arg5 harg5 arg6 harg6 arg7 harg7 arg8 harg8 arg9 harg9 arg10 harg10 hc0 hc1 x0 x1 x2 x3 xs0 xs1 xs2).2.2.1 :=
  semB' c i arg2 harg2 arg3 harg3 arg4 harg4 arg5 harg5 arg6 harg6 arg7 harg7 arg8 harg8 arg9 harg9 arg10 harg10 hc0 hc1 x0 x1 x2 x3 xs0 xs1 xs2 hb

/-- A point whose time step is 31. -/
theorem semC (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : ¬cond0_0 i) (hc1 : cond0_1 i)
  (x0 : Vec Ideal S9x2304 .f32) (x1 : Vec Ideal S1x1x64x2304 .f32) (x2 : Vec Ideal S2x192x1160 .f32) (x3 : Vec Ideal S2x64x576 .f32) (xs0 : Vec Ideal S2x64x2304 .f32) (xs1 : Vec Ideal S1160x2304 .f32) (xs2 : Vec Ideal S576x2304 .f32) (hb : BiasR xs1) :
    (∀ (ch : Fin 64) (n : Lane), (resC (F := Ideal) c i arg2 harg2 arg3 harg3 arg4 harg4 arg5 harg5 arg6 harg6 arg7 harg7 arg8 harg8 arg9 harg9 arg10 harg10 hc0 hc1 x0 x1 x2 x3 xs0 xs1 xs2).2.2.1 (ix3 (0 : Fin 2) ch n) = stepR (mat2 x0) (slab3 x2 0) (slab3 x3 0) (xR x1) (slab3 xs0 0) ch n)
  ∧ (∀ (ch : Fin 64) (n : Lane), (resC (F := Ideal) c i arg2 harg2 arg3 harg3 arg4 harg4 arg5 harg5 arg6 harg6 arg7 harg7 arg8 harg8 arg9 harg9 arg10 harg10 hc0 hc1 x0 x1 x2 x3 xs0 xs1 xs2).2.2.1 (ix3 (1 : Fin 2) ch n)
        = stepR (mat2 x0) (slab3 x2 1) (slab3 x3 1) (stepR (mat2 x0) (slab3 x2 0) (slab3 x3 0) (xR x1) (slab3 xs0 0)) (slab3 xs0 1) ch n)
  ∧ BiasR (resC (F := Ideal) c i arg2 harg2 arg3 harg3 arg4 harg4 arg5 harg5 arg6 harg6 arg7 harg7 arg8 harg8 arg9 harg9 arg10 harg10 hc0 hc1 x0 x1 x2 x3 xs0 xs1 xs2).2.2.2.1 :=
  semC' c i arg2 harg2 arg3 harg3 arg4 harg4 arg5 harg5 arg6 harg6 arg7 harg7 arg8 harg8 arg9 harg9 arg10 harg10 hc0 hc1 x0 x1 x2 x3 xs0 xs1 xs2 hb

/-- A reset point (time step 0): the state read is the zero state. -/
theorem semA (c : Dev nD) (i : grid0.Coords) (arg2 : Memref sig .tc .vmem S9x2304 .f32) (harg2 : arg2.IsWhole) (arg3 : Memref sig .tc .vmem S1x1x64x2304 .f32) (harg3 : arg3.IsWhole) (arg4 : Memref sig .tc .vmem S2x192x1160 .f32) (harg4 : arg4.IsWhole) (arg5 : Memref sig .tc .vmem S2x64x576 .f32) (harg5 : arg5.IsWhole) (arg6 : Memref sig .tc .vmem S1x1x64x2304 .f32) (harg6 : arg6.IsWhole) (arg7 : Memref sig .tc .vmem S1x2x64x2304 .f32) (harg7 : arg7.IsWhole) (arg8 : Memref sig .tc .vmem S2x64x2304 .f32) (harg8 : arg8.IsWhole) (arg9 : Memref sig .tc .vmem S1160x2304 .f32) (harg9 : arg9.IsWhole) (arg10 : Memref sig .tc .vmem S576x2304 .f32) (harg10 : arg10.IsWhole) (hc0 : cond0_0 i) (hc1 : ¬cond0_1 i)
  (x0 : Vec Ideal S9x2304 .f32) (x1 : Vec Ideal S1x1x64x2304 .f32) (x2 : Vec Ideal S2x192x1160 .f32) (x3 : Vec Ideal S2x64x576 .f32) :
    (∀ (ch : Fin 64) (n : Lane), (resA (F := Ideal) c i arg2 harg2 arg3 harg3 arg4 harg4 arg5 harg5 arg6 harg6 arg7 harg7 arg8 harg8 arg9 harg9 arg10 harg10 hc0 hc1 x0 x1 x2 x3).2.1 (ix3 (0 : Fin 2) ch n) = stepR (mat2 x0) (slab3 x2 0) (slab3 x3 0) (xR x1) (fun _ _ => (0 : EReal)) ch n)
  ∧ (∀ (ch : Fin 64) (n : Lane), (resA (F := Ideal) c i arg2 harg2 arg3 harg3 arg4 harg4 arg5 harg5 arg6 harg6 arg7 harg7 arg8 harg8 arg9 harg9 arg10 harg10 hc0 hc1 x0 x1 x2 x3).2.1 (ix3 (1 : Fin 2) ch n)
        = stepR (mat2 x0) (slab3 x2 1) (slab3 x3 1) (stepR (mat2 x0) (slab3 x2 0) (slab3 x3 0) (xR x1) (fun _ _ => (0 : EReal))) (fun _ _ => (0 : EReal)) ch n)
  ∧ BiasR (resA (F := Ideal) c i arg2 harg2 arg3 harg3 arg4 harg4 arg5 harg5 arg6 harg6 arg7 harg7 arg8 harg8 arg9 harg9 arg10 harg10 hc0 hc1 x0 x1 x2 x3).2.2.1 :=
  semA' c i arg2 harg2 arg3 harg3 arg4 harg4 arg5 harg5 arg6 harg6 arg7 harg7 arg8 harg8 arg9 harg9 arg10 harg10 hc0 hc1 x0 x1 x2 x3

end Cert.ReferenceIdeal.HandRun

end
-- ==== Proof.RPoint.lean ====
/-
  One grid point of the recurrence in terms of the specification: the hidden-state scratch after the point is the two
  layers' steps from the state the point before left (from zero at t = 0), on the point's input blocks, and the patch
  scratch keeps its bias rows.
-/
import proofs.«175272_g2000206920649175_pallasbulk_1279_5_alg».proof.Proof.RFrame
import proofs.«175272_g2000206920649175_pallasbulk_1279_5_alg».proof.Proof.RSem

set_option maxRecDepth 16384

set_option maxHeartbeats 1600000
noncomputable section

namespace Cert.ReferenceIdeal.Hand

open Cert.ReferenceIdeal Cert.ReferenceIdeal.Gen Cert.ReferenceIdeal.HandRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Cert.GruSpec

variable (m : (ℓ : Loc nD τ sig) → Buf (Elt Ideal) ℓ)

/-- A point with t = 0: both layers step from the zero state. -/
theorem point_first (c : Dev nD) (p : Fin cfg0.N) (h0 : p.val % 32 = 0) :
    (∀ (ch : Fin 64) (n : Lane), (outsAt0 (F := Ideal) m c p.val p.isLt).2.2.1 (ix3 0 ch n) = stepR (mat2 (iblk m c 0 p)) (slab3 (iblk m c 2 p) 0) (slab3 (iblk m c 3 p) 0) (xR (iblk m c 1 p)) (fun _ _ => (0 : EReal)) ch n)
  ∧ (∀ (ch : Fin 64) (n : Lane), (outsAt0 (F := Ideal) m c p.val p.isLt).2.2.1 (ix3 1 ch n) = stepR (mat2 (iblk m c 0 p)) (slab3 (iblk m c 2 p) 1) (slab3 (iblk m c 3 p) 1) (stepR (mat2 (iblk m c 0 p)) (slab3 (iblk m c 2 p) 0) (slab3 (iblk m c 3 p) 0) (xR (iblk m c 1 p)) (fun _ _ => (0 : EReal))) (fun _ _ => (0 : EReal)) ch n)
  ∧ BiasR (outsAt0 (F := Ideal) m c p.val p.isLt).2.2.2.1 := by
  have h1 : ¬p.val % 32 = 31 := by omega
  rw [outsAt0_A m c p h0 h1]; unfold stA; dsimp only
  exact semA c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) ((hcond0_0 p).mpr h0) (fun h => h1 ((hcond0_1 p).mp h)) (iblk m c 0 p) (iblk m c 1 p) (iblk m c 2 p) (iblk m c 3 p)

/-- A point with t > 0: both layers step from what the point before left, whose patch scratch has its bias rows. -/
theorem point_next (c : Dev nD) (p : Fin cfg0.N) (h0 : ¬p.val % 32 = 0) (hb : BiasR ((outsAt0 (F := Ideal) m c (p.val - 1) (Nat.lt_of_le_of_lt (Nat.sub_le _ _) p.isLt))).2.2.2.1) :
    (∀ (ch : Fin 64) (n : Lane), (outsAt0 (F := Ideal) m c p.val p.isLt).2.2.1 (ix3 0 ch n) = stepR (mat2 (iblk m c 0 p)) (slab3 (iblk m c 2 p) 0) (slab3 (iblk m c 3 p) 0) (xR (iblk m c 1 p)) (slab3 ((outsAt0 (F := Ideal) m c (p.val - 1) (Nat.lt_of_le_of_lt (Nat.sub_le _ _) p.isLt))).2.2.1 0) ch n)
  ∧ (∀ (ch : Fin 64) (n : Lane), (outsAt0 (F := Ideal) m c p.val p.isLt).2.2.1 (ix3 1 ch n) = stepR (mat2 (iblk m c 0 p)) (slab3 (iblk m c 2 p) 1) (slab3 (iblk m c 3 p) 1) (stepR (mat2 (iblk m c 0 p)) (slab3 (iblk m c 2 p) 0) (slab3 (iblk m c 3 p) 0) (xR (iblk m c 1 p)) (slab3 ((outsAt0 (F := Ideal) m c (p.val - 1) (Nat.lt_of_le_of_lt (Nat.sub_le _ _) p.isLt))).2.2.1 0)) (slab3 ((outsAt0 (F := Ideal) m c (p.val - 1) (Nat.lt_of_le_of_lt (Nat.sub_le _ _) p.isLt))).2.2.1 1) ch n)
  ∧ BiasR (outsAt0 (F := Ideal) m c p.val p.isLt).2.2.2.1 := by
  by_cases h1 : p.val % 32 = 31
  · rw [outsAt0_C m c p h0 h1]; unfold stC; dsimp only
    exact semC c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (fun h => h0 ((hcond0_0 p).mp h)) ((hcond0_1 p).mpr h1) (iblk m c 0 p) (iblk m c 1 p) (iblk m c 2 p) (iblk m c 3 p) ((outsAt0 (F := Ideal) m c (p.val - 1) (Nat.lt_of_le_of_lt (Nat.sub_le _ _) p.isLt))).2.2.1 ((outsAt0 (F := Ideal) m c (p.val - 1) (Nat.lt_of_le_of_lt (Nat.sub_le _ _) p.isLt))).2.2.2.1 ((outsAt0 (F := Ideal) m c (p.val - 1) (Nat.lt_of_le_of_lt (Nat.sub_le _ _) p.isLt))).2.2.2.2 hb
  · rw [outsAt0_B m c p h0 h1]; unfold stB; dsimp only
    exact semB c (grid0.coords p) (ms0_0 p) (hs0_0 p) (ms0_1 p) (hs0_1 p) (ms0_2 p) (hs0_2 p) (ms0_3 p) (hs0_3 p) (ms0_4 p) (hs0_4 p) (ms0_5 p) (hs0_5 p) scM0_0 (Memref.isWhole_whole _) scM0_1 (Memref.isWhole_whole _) scM0_2 (Memref.isWhole_whole _) (fun h => h0 ((hcond0_0 p).mp h)) (fun h => h1 ((hcond0_1 p).mp h)) (iblk m c 0 p) (iblk m c 1 p) (iblk m c 2 p) (iblk m c 3 p) ((outsAt0 (F := Ideal) m c (p.val - 1) (Nat.lt_of_le_of_lt (Nat.sub_le _ _) p.isLt))).2.2.1 ((outsAt0 (F := Ideal) m c (p.val - 1) (Nat.lt_of_le_of_lt (Nat.sub_le _ _) p.isLt))).2.2.2.1 ((outsAt0 (F := Ideal) m c (p.val - 1) (Nat.lt_of_le_of_lt (Nat.sub_le _ _) p.isLt))).2.2.2.2 hb

end Cert.ReferenceIdeal.Hand

end
-- ==== Proof.LibSumSupport.lean ====
/-
  Sums whose terms vanish off a subset of the index set, and sums over a block decomposition.

  A contraction over an axis that was padded with zero rows (or whose extra columns multiply zero
  rows) equals the contraction over the unpadded axis. Two readings of that fact are proved here, in
  any additive commutative monoid: a sum over `Fin n` of a function that vanishes outside the range
  of an injection `e : Fin m → Fin n` is the sum over `Fin m` of the function along `e`; and a sum
  over `Fin (a + b + c)` is the sum of its three consecutive blocks.
-/
import Mathlib.Algebra.BigOperators.Fin
import Mathlib.Algebra.BigOperators.Group.Finset.Basic

open scoped BigOperators

namespace Idealize.ShloMosaic.LibSumSupport

variable {M : Type*} [AddCommMonoid M]

/-- A sum over a finite type of a function that vanishes outside the range of an injection is the
    sum of the function along the injection. -/
theorem sum_eq_sum_comp_of_injective {ι κ : Type*} [Fintype ι] [Fintype κ] (e : κ → ι)
    (he : Function.Injective e) (f : ι → M) (hf : ∀ i, i ∉ Set.range e → f i = 0) :
    ∑ i, f i = ∑ k, f (e k) :=
  (Fintype.sum_of_injective e he (fun k => f (e k)) f hf (fun _ => rfl)).symm

/-- The same over `Fin`: a sum over `Fin n` of a function that vanishes outside the range of an
    injective `e : Fin m → Fin n` is the sum over `Fin m` of `f ∘ e`. -/
theorem sum_fin_eq_sum_comp_of_injective {m n : Nat} (e : Fin m → Fin n) (he : Function.Injective e)
    (f : Fin n → M) (hf : ∀ i, i ∉ Set.range e → f i = 0) :
    ∑ i, f i = ∑ k, f (e k) :=
  sum_eq_sum_comp_of_injective e he f hf

/-- A sum over `Fin (a + b)` is the sum over the first `a` indices plus the sum over the last `b`. -/
theorem sum_fin_add (a b : Nat) (f : Fin (a + b) → M) :
    ∑ i, f i = ∑ i : Fin a, f (Fin.castAdd b i) + ∑ j : Fin b, f (Fin.natAdd a j) :=
  Fin.sum_univ_add f

/-- A sum over `Fin (a + b + c)` is the sum of its three consecutive blocks: the first `a` indices,
    the next `b`, the last `c`. -/
theorem sum_fin_add_add (a b c : Nat) (f : Fin (a + b + c) → M) :
    ∑ i, f i
      = ∑ i : Fin a, f (Fin.castAdd c (Fin.castAdd b i))
        + ∑ j : Fin b, f (Fin.castAdd c (Fin.natAdd a j))
        + ∑ k : Fin c, f (Fin.natAdd (a + b) k) := by
  rw [Fin.sum_univ_add, Fin.sum_univ_add]

/-- The values of the three embeddings, as natural numbers: the first block sits at `i`, the second
    at `a + j`, the third at `a + b + k`. -/
theorem block_vals (a b c : Nat) (i : Fin a) (j : Fin b) (k : Fin c) :
    (Fin.castAdd c (Fin.castAdd b i)).val = i.val
      ∧ (Fin.castAdd c (Fin.natAdd a j)).val = a + j.val
      ∧ (Fin.natAdd (a + b) k).val = a + b + k.val :=
  ⟨rfl, rfl, rfl⟩

/-- If the middle and last blocks vanish, the sum is the sum over the first block. -/
theorem sum_fin_add_add_of_tail_zero (a b c : Nat) (f : Fin (a + b + c) → M)
    (hb : ∀ j : Fin b, f (Fin.castAdd c (Fin.natAdd a j)) = 0)
    (hc : ∀ k : Fin c, f (Fin.natAdd (a + b) k) = 0) :
    ∑ i, f i = ∑ i : Fin a, f (Fin.castAdd c (Fin.castAdd b i)) := by
  rw [sum_fin_add_add, Finset.sum_eq_zero (fun j _ => hb j), Finset.sum_eq_zero (fun k _ => hc k),
    add_zero, add_zero]

/-- A sum over `Fin n` whose terms vanish from index `m` on (`m ≤ n`) is the sum of the first `m`
    terms. -/
theorem sum_fin_eq_sum_castLE {m n : Nat} (h : m ≤ n) (f : Fin n → M)
    (hf : ∀ i : Fin n, m ≤ i.val → f i = 0) :
    ∑ i, f i = ∑ k : Fin m, f (Fin.castLE h k) :=
  sum_fin_eq_sum_comp_of_injective (Fin.castLE h) (Fin.castLE_injective h) f (by
    intro i hi
    apply hf i
    by_contra hlt
    exact hi ⟨⟨i.val, Nat.lt_of_not_le hlt⟩, Fin.ext rfl⟩)

end Idealize.ShloMosaic.LibSumSupport
-- ==== Proof.LibGateSums.lean ====
/-
  Two packings of one contraction axis.

  The gates of a convolutional recurrent cell are a matrix product whose contraction axis lists, tap
  by tap, the input channels and the hidden channels of a patch, and one bias column. Two programs
  pack that axis differently. One keeps 128 columns per tap — 32 input channels, 32 columns that
  multiply zero rows, 64 hidden channels — for 9 taps, then the bias column at position 1152 and 7
  columns of padding: 1160 columns. The other puts the bias column first, pads it to 16 columns with
  zeros, and then keeps per tap only the 96 live columns (layer 0: 16 + 9 · 96 = 880 columns) or all
  128 (layer 1: 16 + 1152 = 1168 columns). The sums of the terms agree: both are the bias term plus
  the live terms of the nine taps, because every other term is zero.

  The statements are over an arbitrary additive commutative monoid (no subtraction, no order, no
  finiteness: only that the dead terms ARE zero), and the correspondences between the two index
  sets are stated through the indices' values as natural numbers, so that they can be discharged by
  linear arithmetic whatever way an index is written.
-/
import Mathlib.Algebra.BigOperators.Fin
import Mathlib.Logic.Equiv.Fin.Basic
import proofs.«175272_g2000206920649175_pallasbulk_1279_5_alg».proof.Proof.LibSumSupport

open scoped BigOperators

namespace Idealize.ShloMosaic.LibGateSums

variable {M : Type*} [AddCommMonoid M]

/-! ## Splitting a sum over `Fin n` by the indices' values -/

/-- A sum over `Fin n` with `n = a + b`: the first `a` indices, then the last `b`, each index written
    by its value. -/
theorem sum_fin_split (a b : Nat) {n : Nat} (h : a + b = n) (f : Fin n → M) :
    ∑ k, f k = ∑ i : Fin a, f ⟨i.val, by omega⟩ + ∑ j : Fin b, f ⟨a + j.val, by omega⟩ := by
  subst h
  exact Fin.sum_univ_add f

/-- Position `b · i + r` of a row-major `a × b` grid lies below `a · b`. -/
theorem mul_add_lt {a b i r : Nat} (hi : i < a) (hr : r < b) : b * i + r < a * b :=
  calc b * i + r < b * i + b := by omega
    _ = b * (i + 1) := (Nat.mul_succ b i).symm
    _ ≤ b * a := Nat.mul_le_mul_left b hi
    _ = a * b := Nat.mul_comm b a

/-- A sum over `Fin n` with `n = a · b`, read as `a` consecutive blocks of `b` indices: the double sum
    over the block `i` and the position `r` inside it, the index being `b · i + r`. -/
theorem sum_fin_mul (a b : Nat) {n : Nat} (h : a * b = n) (f : Fin n → M) :
    ∑ k, f k = ∑ i : Fin a, ∑ r : Fin b, f ⟨b * i.val + r.val, h ▸ mul_add_lt i.isLt r.isLt⟩ := by
  subst h
  rw [← (finProdFinEquiv (m := a) (n := b)).sum_comp f, Fintype.sum_prod_type]
  refine Finset.sum_congr rfl fun i _ => Finset.sum_congr rfl fun r _ => ?_
  exact congrArg f (Fin.ext (Nat.add_comm _ _))

/-- A sum over `Fin n` (`n = 1 + b`) whose terms vanish at every index but the first is the first term. -/
theorem sum_fin_eq_head {n : Nat} (b : Nat) (h : 1 + b = n) (f : Fin n → M)
    (hz : ∀ k : Fin n, 1 ≤ k.val → f k = 0) : ∑ k, f k = f ⟨0, by omega⟩ := by
  rw [sum_fin_split 1 b h f, Fin.sum_univ_one, Finset.sum_eq_zero (fun j _ => hz _ (by simp)), add_zero]
  rfl

/-! ## The two gate sums -/

/-- Layer 1. The 1160-column packing `f` (nine taps of 128 columns, the bias column at 1152, seven
    dead columns) against the 1168-column packing `g` (the bias column at 0, fifteen dead columns,
    then the same 1152 tap columns): the sums of the terms agree. -/
theorem acc1_sum (f : Fin 1160 → M) (g : Fin 1168 → M)
    (hbias : ∀ (k : Fin 1168) (k' : Fin 1160), k.val = 0 → k'.val = 1152 → g k = f k')
    (hpad : ∀ k : Fin 1168, 1 ≤ k.val → k.val < 16 → g k = 0)
    (hlive : ∀ (k : Fin 1168) (k' : Fin 1160), k'.val < 1152 → k.val = 16 + k'.val → g k = f k')
    (htail : ∀ k' : Fin 1160, 1153 ≤ k'.val → f k' = 0) :
    ∑ k, g k = ∑ k, f k := by
  have hG : ∑ k, g k = f ⟨1152, by omega⟩ + ∑ m : Fin 1152, f ⟨m.val, by omega⟩ := by
    refine (sum_fin_split 16 1152 (by omega) g).trans (congrArg₂ (· + ·) ?_ ?_)
    · refine Eq.trans (sum_fin_eq_head 15 (by omega) _ ?_) ?_
      · intro k hk; exact hpad _ hk k.isLt
      · exact hbias _ _ (by rfl) (by rfl)
    · exact Finset.sum_congr rfl fun m _ => hlive _ _ m.isLt (by rfl)
  have hF : ∑ k, f k = ∑ m : Fin 1152, f ⟨m.val, by omega⟩ + f ⟨1152, by omega⟩ := by
    refine (sum_fin_split 1152 8 (by omega) f).trans (congrArg₂ (· + ·) rfl ?_)
    refine Eq.trans (sum_fin_eq_head 7 (by omega) _ ?_) ?_
    · intro k hk; exact htail _ (by show 1153 ≤ 1152 + k.val; omega)
    · exact congrArg f (Fin.ext (by rfl))
  exact hG.trans ((add_comm _ _).trans hF.symm)

/-- Layer 0. The 1160-column packing `f` (per tap `i`: 32 input columns at `128 i + j`, 32 dead
    columns, 64 hidden columns at `128 i + 64 + j`; the bias column at 1152; seven dead columns)
    against the 880-column packing `g` (the bias column at 0, fifteen dead columns, then per tap the
    32 input columns at `16 + 96 i + j` and the 64 hidden columns at `16 + 96 i + 32 + j`): the sums
    of the terms agree. -/
theorem acc0_sum (f : Fin 1160 → M) (g : Fin 880 → M)
    (hbias : ∀ (k : Fin 880) (k' : Fin 1160), k.val = 0 → k'.val = 1152 → g k = f k')
    (hpad : ∀ k : Fin 880, 1 ≤ k.val → k.val < 16 → g k = 0)
    (hx : ∀ (i j : Nat) (k : Fin 880) (k' : Fin 1160), i < 9 → j < 32 →
      k.val = 16 + 96 * i + j → k'.val = 128 * i + j → g k = f k')
    (hh : ∀ (i j : Nat) (k : Fin 880) (k' : Fin 1160), i < 9 → j < 64 →
      k.val = 16 + 96 * i + 32 + j → k'.val = 128 * i + 64 + j → g k = f k')
    (hdead : ∀ (i j : Nat) (k' : Fin 1160), i < 9 → 32 ≤ j → j < 64 → k'.val = 128 * i + j → f k' = 0)
    (htail : ∀ k' : Fin 1160, 1153 ≤ k'.val → f k' = 0) :
    ∑ k, g k = ∑ k, f k := by
  have hG : ∑ k, g k = f ⟨1152, by omega⟩ + ∑ i : Fin 9,
      (∑ j : Fin 32, f ⟨128 * i.val + j.val, by omega⟩
        + ∑ j : Fin 64, f ⟨128 * i.val + 64 + j.val, by omega⟩) := by
    refine (sum_fin_split 16 864 (by omega) g).trans (congrArg₂ (· + ·) ?_ ?_)
    · refine Eq.trans (sum_fin_eq_head 15 (by omega) _ ?_) ?_
      · intro k hk; exact hpad _ hk k.isLt
      · exact hbias _ _ (by rfl) (by rfl)
    · refine (sum_fin_mul 9 96 (by omega) _).trans (Finset.sum_congr rfl fun i _ => ?_)
      refine (sum_fin_split 32 64 (by omega) _).trans (congrArg₂ (· + ·) ?_ ?_)
      · exact Finset.sum_congr rfl fun j _ => hx i.val j.val _ _ i.isLt j.isLt
          (by show 16 + (96 * i.val + j.val) = _; omega) (by rfl)
      · exact Finset.sum_congr rfl fun j _ => hh i.val j.val _ _ i.isLt j.isLt
          (by show 16 + (96 * i.val + (32 + j.val)) = _; omega) (by rfl)
  have hF : ∑ k, f k = ∑ i : Fin 9,
      (∑ j : Fin 32, f ⟨128 * i.val + j.val, by omega⟩
        + ∑ j : Fin 64, f ⟨128 * i.val + 64 + j.val, by omega⟩) + f ⟨1152, by omega⟩ := by
    refine (sum_fin_split 1152 8 (by omega) f).trans (congrArg₂ (· + ·) ?_ ?_)
    · refine (sum_fin_mul 9 128 (by omega) _).trans (Finset.sum_congr rfl fun i _ => ?_)
      refine (sum_fin_split 32 96 (by omega) _).trans (congrArg₂ (· + ·) ?_ ?_)
      · exact Finset.sum_congr rfl fun j _ => congrArg f (Fin.ext (by rfl))
      · refine (sum_fin_split 32 64 (by omega) _).trans ?_
        refine (congrArg₂ (· + ·) (Finset.sum_eq_zero fun j _ =>
          hdead i.val (32 + j.val) _ i.isLt (by omega) (by omega) (by rfl)) ?_).trans (zero_add _)
        exact Finset.sum_congr rfl fun j _ => congrArg f (Fin.ext (by
          show 128 * i.val + (32 + (32 + j.val)) = 128 * i.val + 64 + j.val; omega))
    · refine Eq.trans (sum_fin_eq_head 7 (by omega) _ ?_) ?_
      · intro k hk; exact htail _ (by show 1153 ≤ 1152 + k.val; omega)
      · exact congrArg f (Fin.ext (by rfl))
  exact hG.trans ((add_comm _ _).trans hF.symm)

end Idealize.ShloMosaic.LibGateSums
-- ==== Proof.LibFiniteIdeal.lean ====
/-
  Real-valued entries at the ideal float instance.

  At the ideal instance a float is an extended real (`EReal`: a real number, `⊤` or `⊥`) and every
  operation is the exact one. Several algebraic laws (distributivity, cancelling) hold for real
  numbers and fail at the infinities, so a proof that uses them must know that the values it meets
  are real numbers. This file fixes the predicate "is a real number" for one extended real and for
  every entry of a float vector, and shows that the elementwise operations of a recurrent cell keep
  it: sum, difference, product, the logistic function, the hyperbolic tangent, a finite literal, a
  change of float format, a re-indexing, and a finite sum of products.
-/
import Idealize.ShloMosaic.PureOps.Ideal.Laws
import Idealize.ShloMosaic.Lib.ValueIdx

noncomputable section

open scoped BigOperators

namespace Idealize.ShloMosaic.LibFiniteIdeal

open Idealize.ShloMosaic

/-! ## One extended real -/

/-- An extended real is a real number: it is the image of some `r : ℝ`. -/
def IsReal (x : EReal) : Prop := ∃ r : ℝ, x = (r : EReal)

/-- The image of a real number is a real number. -/
theorem isReal_coe (r : ℝ) : IsReal (r : EReal) := ⟨r, rfl⟩

/-- Being a real number is being neither of the two infinities. -/
theorem isReal_iff (x : EReal) : IsReal x ↔ x ≠ ⊥ ∧ x ≠ ⊤ := by
  constructor
  · rintro ⟨r, rfl⟩
    exact ⟨EReal.coe_ne_bot r, EReal.coe_ne_top r⟩
  · rintro ⟨hb, ht⟩
    induction x using EReal.rec with
    | bot => exact absurd rfl hb
    | top => exact absurd rfl ht
    | coe r => exact ⟨r, rfl⟩

/-- Zero is a real number. -/
theorem isReal_zero : IsReal 0 := ⟨0, EReal.coe_zero.symm⟩

/-- One is a real number. -/
theorem isReal_one : IsReal 1 := ⟨1, EReal.coe_one.symm⟩

/-- The sum of two real numbers is a real number. -/
theorem IsReal.add {x y : EReal} (hx : IsReal x) (hy : IsReal y) : IsReal (x + y) := by
  obtain ⟨a, rfl⟩ := hx
  obtain ⟨b, rfl⟩ := hy
  exact ⟨a + b, (EReal.coe_add a b).symm⟩

/-- The negative of a real number is a real number. -/
theorem IsReal.neg {x : EReal} (hx : IsReal x) : IsReal (-x) := by
  obtain ⟨a, rfl⟩ := hx
  exact ⟨-a, (EReal.coe_neg a).symm⟩

/-- The difference of two real numbers is a real number. -/
theorem IsReal.sub {x y : EReal} (hx : IsReal x) (hy : IsReal y) : IsReal (x - y) := by
  obtain ⟨a, rfl⟩ := hx
  obtain ⟨b, rfl⟩ := hy
  exact ⟨a - b, (EReal.coe_sub a b).symm⟩

/-- The product of two real numbers is a real number. -/
theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- The ideal logistic function `1 / (1 + e⁻ˣ)` takes a real value at EVERY extended real: its
    limits `0` and `1` at the two infinities, and `(1 + e⁻ʳ)⁻¹` at a real `r`. -/
theorem isReal_logistic (x : EReal) : IsReal (Ideal.logistic x) := by
  induction x using EReal.rec with
  | bot => rw [Ideal.logistic_bot]; exact isReal_zero
  | top => rw [Ideal.logistic_top]; exact isReal_one
  | coe r => rw [Ideal.logistic_coe]; exact isReal_coe _

/-- The ideal hyperbolic tangent takes a real value at EVERY extended real: its limits `-1` and `1`
    at the two infinities, and `tanh r` at a real `r`. -/
theorem isReal_tanh (x : EReal) : IsReal (Ideal.tanh x) := by
  induction x using EReal.rec with
  | bot => rw [Ideal.tanh_bot]; exact isReal_one.neg
  | top => rw [Ideal.tanh_top]; exact isReal_one
  | coe r => rw [Ideal.tanh_coe]; exact isReal_coe _

/-- A finite sum of real numbers is a real number. -/
theorem isReal_sum {ι : Type} (s : Finset ι) (f : ι → EReal) (hf : ∀ k ∈ s, IsReal (f k)) :
    IsReal (∑ k ∈ s, f k) := by
  classical
  induction s using Finset.induction_on with
  | empty => rw [Finset.sum_empty]; exact isReal_zero
  | insert a s ha ih =>
    rw [Finset.sum_insert ha]
    exact (hf a (Finset.mem_insert_self a s)).add
      (ih fun k hk => hf k (Finset.mem_insert_of_mem hk))

/-- A finite sum of products of real numbers — one entry of a matrix product — is a real number. -/
theorem isReal_sum_mul {ι : Type} [Fintype ι] (a b : ι → EReal) (ha : ∀ k, IsReal (a k))
    (hb : ∀ k, IsReal (b k)) : IsReal (∑ k, a k * b k) :=
  isReal_sum Finset.univ _ fun k _ => (ha k).mul (hb k)

/-- The ideal instance's product is the product of `EReal`, in which zero absorbs EVERY element,
    the infinities included (`0 * ⊤ = 0`): no finiteness is needed to drop a zero factor on the left … -/
theorem zero_mul_ereal (x : EReal) : 0 * x = 0 := zero_mul x

/-- … or on the right. -/
theorem mul_zero_ereal (x : EReal) : x * 0 = 0 := mul_zero x

/-! ## Float literals -/

/-- The f32 word `0x3F800000` denotes the real number one. -/
theorem ofBits_one_f32 : Ideal.ofBits .f32 0x3F800000#32 = 1 := IdealRules.sign_bit.ideal_onePat .f32

/-- The bf16 word `0x0000` denotes zero. -/
theorem ofBits_zero_bf16 : Ideal.ofBits .bf16 0x0000#16 = 0 := IdealRules.sign_bit.ideal_zero .bf16

/-- The bf16 word `0x3F80` denotes the real number one. -/
theorem ofBits_one_bf16 : Ideal.ofBits .bf16 0x3F80#16 = 1 := IdealRules.sign_bit.ideal_onePat .bf16

/-! ## Every entry of a vector -/

section Vectors
variable {S : Shape} {φ : FTy}

/-- Every entry of a float vector, read at the ideal instance, is a real number. -/
def AllReal (v : FVec Ideal S φ) : Prop := ∀ i : S.Idx, IsReal (v i)

/-- Real entries, as real-valued witnesses: the vector is the image of a real-valued one. -/
theorem AllReal.exists_real {v : FVec Ideal S φ} (hv : AllReal v) :
    ∃ r : S.Idx → ℝ, ∀ i, v i = (r i : EReal) :=
  ⟨fun i => (hv i).choose, fun i => (hv i).choose_spec⟩

/-- An elementwise sum of vectors with real entries has real entries. -/
theorem AllReal.addf {x y : FVec Ideal S φ} (hx : AllReal x) (hy : AllReal y) : AllReal (addf x y) :=
  fun i => (hx i).add (hy i)

/-- An elementwise difference of vectors with real entries has real entries. -/
theorem AllReal.subf {x y : FVec Ideal S φ} (hx : AllReal x) (hy : AllReal y) : AllReal (subf x y) :=
  fun i => (hx i).sub (hy i)

/-- An elementwise product of vectors with real entries has real entries. (The ideal instance's
    `mulf` is literally the product of `EReal`.) -/
theorem AllReal.mulf {x y : FVec Ideal S φ} (hx : AllReal x) (hy : AllReal y) : AllReal (mulf x y) :=
  fun i => (hx i).mul (hy i)

/-- The logistic function of ANY vector has real entries. -/
theorem allReal_logistic (x : FVec Ideal S φ) : AllReal (logistic x) :=
  fun i => isReal_logistic (x i)

/-- The hyperbolic tangent of ANY vector has real entries. -/
theorem allReal_tanh (x : FVec Ideal S φ) : AllReal (tanh x) :=
  fun i => isReal_tanh (x i)

/-- A narrowing change of float format is the identity at the ideal instance: real entries stay. -/
theorem AllReal.truncf {ψ : FTy} {x : FVec Ideal S φ} (hx : AllReal x) (h : ψ.bits < φ.bits) :
    AllReal (truncf ψ x h : FVec Ideal S ψ) :=
  fun i => hx i

/-- A widening change of float format is the identity at the ideal instance: real entries stay. -/
theorem AllReal.extf {ψ : FTy} {x : FVec Ideal S φ} (hx : AllReal x) (h : φ.bits < ψ.bits) :
    AllReal (extf ψ x h : FVec Ideal S ψ) :=
  fun i => hx i

/-- A splat of a word that denotes a real number has real entries. -/
theorem allReal_constant (b : BitVec φ.bits) (hb : IsReal (Ideal.ofBits φ b)) :
    AllReal (constant (F := Ideal) S φ b) :=
  fun _ => hb

/-- A broadcast of one real number has real entries. -/
theorem allReal_broadcast (x : Ideal φ) (hx : IsReal x) :
    AllReal (broadcast S x : FVec Ideal S φ) :=
  fun _ => hx

/-- A re-indexing (a slice, a reshape, a transpose, a concatenation's piece) of a vector with real
    entries has real entries. -/
theorem AllReal.comp {T : Shape} {v : FVec Ideal S φ} (hv : AllReal v) (f : T.Idx → S.Idx) :
    AllReal (fun j => v (f j) : FVec Ideal T φ) :=
  fun j => hv (f j)

end Vectors

section Literals
variable (S : Shape)

/-- The f32 zero splat has real entries. -/
theorem allReal_zero_f32 : AllReal (constant (F := Ideal) S .f32 0x00000000#32) :=
  allReal_constant _ (by rw [Ideal.ofBits_zero_f32]; exact isReal_zero)

/-- The f32 one splat has real entries. -/
theorem allReal_one_f32 : AllReal (constant (F := Ideal) S .f32 0x3F800000#32) :=
  allReal_constant _ (by rw [ofBits_one_f32]; exact isReal_one)

/-- The bf16 zero splat has real entries. -/
theorem allReal_zero_bf16 : AllReal (constant (F := Ideal) S .bf16 0x0000#16) :=
  allReal_constant _ (by rw [ofBits_zero_bf16]; exact isReal_zero)

/-- The bf16 one splat has real entries. -/
theorem allReal_one_bf16 : AllReal (constant (F := Ideal) S .bf16 0x3F80#16) :=
  allReal_constant _ (by rw [ofBits_one_bf16]; exact isReal_one)

/-- The f32 one, written as a scalar literal and broadcast, is the one splat … -/
theorem broadcast_one_f32_eq :
    (broadcast S (Scalar.ofBits (F := Ideal) .f32 0x3F800000#32) : FVec Ideal S .f32)
      = constant (F := Ideal) S .f32 0x3F800000#32 := rfl

/-- … and so has real entries. -/
theorem allReal_broadcast_one_f32 :
    AllReal (broadcast S (Scalar.ofBits (F := Ideal) .f32 0x3F800000#32) : FVec Ideal S .f32) :=
  allReal_one_f32 S

end Literals

end Idealize.ShloMosaic.LibFiniteIdeal
-- ==== Proof.LibGruBlend.lean ====
/-
  The update of a gated recurrent cell, written two ways.

  With an update gate `u`, a candidate `o` and the previous state `h`, the new state is the convex
  combination of `h` and `o` with weight `u`. One program writes it as `h + u · (o − h)`, another as
  `h · (1 − u) + o · u`. On real numbers the two are equal by distributivity. On the extended reals
  they are NOT equal in general: with `h = ⊤`, `u = 1`, `o = 0` the first is `⊤ + 1 · (0 − ⊤) = ⊤ + ⊥ = ⊥`
  and the second `⊤ · 0 + 0 · 1 = 0`. So the law is stated for real `h`, `u`, `o`, first for one
  extended real and then for whole float vectors at the ideal instance, together with the fact that
  the result is real again.
-/
import proofs.«175272_g2000206920649175_pallasbulk_1279_5_alg».proof.Proof.LibFiniteIdeal

noncomputable section

namespace Idealize.ShloMosaic.LibGruBlend

open Idealize.ShloMosaic Idealize.ShloMosaic.LibFiniteIdeal

/-! ## One extended real -/

/-- The two forms of the gated update agree on real numbers: `h + u (o − h) = h (1 − u) + o u`.
    The real witnesses are taken out, the coercion `ℝ → EReal` is pushed outward through the sum,
    the difference and the products, and the identity is one of the field `ℝ`. -/
theorem blend_eq {h u o : EReal} (hh : IsReal h) (hu : IsReal u) (ho : IsReal o) :
    h + u * (o - h) = h * (1 - u) + o * u := by
  obtain ⟨a, rfl⟩ := hh
  obtain ⟨b, rfl⟩ := hu
  obtain ⟨c, rfl⟩ := ho
  rw [← EReal.coe_one, ← EReal.coe_sub, ← EReal.coe_sub, ← EReal.coe_mul, ← EReal.coe_mul,
    ← EReal.coe_mul, ← EReal.coe_add, ← EReal.coe_add]
  exact congrArg _ (by ring)

/-- The gated update of real numbers is a real number (first form). -/
theorem isReal_blend {h u o : EReal} (hh : IsReal h) (hu : IsReal u) (ho : IsReal o) :
    IsReal (h + u * (o - h)) :=
  hh.add (hu.mul (ho.sub hh))

/-- The gated update of real numbers is a real number (second form). -/
theorem isReal_blend' {h u o : EReal} (hh : IsReal h) (hu : IsReal u) (ho : IsReal o) :
    IsReal (h * (1 - u) + o * u) :=
  (hh.mul (isReal_one.sub hu)).add (ho.mul hu)

/-! ## Whole vectors at the ideal instance -/

section Vectors
variable {S : Shape}

/-- The two forms of the gated update agree, entry by entry, on f32 vectors with real entries:
    `h + u · (o − h)` against `h · (1 − u) + o · u`, the `1` being the splat of the f32 word
    `0x3F800000`. -/
theorem blend_vec_eq {h u o : FVec Ideal S .f32} (hh : AllReal h) (hu : AllReal u) (ho : AllReal o) :
    addf h (mulf u (subf o h))
      = addf (mulf h (subf (constant (F := Ideal) S .f32 0x3F800000#32) u)) (mulf o u) := by
  funext i
  show h i + u i * (o i - h i) = h i * (Ideal.ofBits .f32 0x3F800000#32 - u i) + o i * u i
  rw [ofBits_one_f32]
  exact blend_eq (hh i) (hu i) (ho i)

/-- The same with the `1` written as a scalar literal that is then broadcast (the same vector). -/
theorem blend_vec_eq_broadcast {h u o : FVec Ideal S .f32} (hh : AllReal h) (hu : AllReal u)
    (ho : AllReal o) :
    addf h (mulf u (subf o h))
      = addf (mulf h (subf (broadcast S (Scalar.ofBits (F := Ideal) .f32 0x3F800000#32) :
          FVec Ideal S .f32) u)) (mulf o u) :=
  blend_vec_eq hh hu ho

/-- The gated update of vectors with real entries has real entries (first form). -/
theorem allReal_blend {h u o : FVec Ideal S .f32} (hh : AllReal h) (hu : AllReal u) (ho : AllReal o) :
    AllReal (addf h (mulf u (subf o h))) :=
  hh.addf (hu.mulf (ho.subf hh))

/-- The gated update of vectors with real entries has real entries (second form). -/
theorem allReal_blend' {h u o : FVec Ideal S .f32} (hh : AllReal h) (hu : AllReal u) (ho : AllReal o) :
    AllReal (addf (mulf h (subf (constant (F := Ideal) S .f32 0x3F800000#32) u)) (mulf o u)) :=
  (hh.mulf ((allReal_one_f32 S).subf hu)).addf (ho.mulf hu)

end Vectors

end Idealize.ShloMosaic.LibGruBlend
-- ==== Proof.GruStepEq.lean ====
/-
  One layer's step is the same function in both packings.

  The gates' pre-activations are a matrix product of the weights with the patch matrix. The two
  packings of the patch matrix list the same live rows — per tap the input channels and the state
  channels, and the row of ones — in different places, and the repacked weights follow them; every
  other row is zero on one side or multiplies a zero weight on the other. Term by term the two sums
  agree, so the pre-activations are equal (no finiteness is needed: a zero factor makes a product of
  extended reals zero whatever the other factor is). The two ways of writing the state update,
  `h + u (o − h)` and `h (1 − u) + o u`, agree as soon as `h` is a real number, because the update gate
  `u` is a logistic and the candidate `o` a hyperbolic tangent, which are real at every extended real.
  For the same reason the new state is real whenever the old one is.
-/
import proofs.«175272_g2000206920649175_pallasbulk_1279_5_alg».proof.Proof.GruSpec
import proofs.«175272_g2000206920649175_pallasbulk_1279_5_alg».proof.Proof.LibGateSums
import proofs.«175272_g2000206920649175_pallasbulk_1279_5_alg».proof.Proof.LibGruBlend
import proofs.«175272_g2000206920649175_pallasbulk_1279_5_alg».proof.Proof.LibFiniteIdeal

noncomputable section

open scoped BigOperators

namespace Cert.GruSpec

open Idealize.ShloMosaic Idealize.ShloMosaic.LibFiniteIdeal Idealize.ShloMosaic.LibGruBlend
  Idealize.ShloMosaic.LibGateSums

variable (mask : Fin 9 → Lane → EReal)

/-! ## The patch matrices' rows, named by tap and channel -/

/-- A shifted copy depends on the tap and the row only through their values. -/
theorem shift_congr {k : Nat} (v : Fin k → Lane → EReal) {i i' : Fin 9} {j j' : Fin k}
    (hi : i.val = i'.val) (hj : j.val = j'.val) (n : Lane) : shift mask v i j n = shift mask v i' j' n := by
  obtain rfl := Fin.ext hi
  obtain rfl := Fin.ext hj
  rfl

/-- A shifted copy of one of the 32 input channels inside the zero-padded 64 is the shifted copy of
    the channel itself. -/
theorem shift_pad64_lt (x : Fin 32 → Lane → EReal) (i : Fin 9) (j : Fin 64) (hj : j.val < 32) (n : Lane) :
    shift mask (pad64 x) i j n = shift mask x i ⟨j.val, hj⟩ n := by
  unfold shift pad64
  rw [dif_pos hj]

/-- A shifted copy of one of the 32 zero channels of the padding is zero. -/
theorem shift_pad64_ge (x : Fin 32 → Lane → EReal) (i : Fin 9) (j : Fin 64) (hj : 32 ≤ j.val) (n : Lane) :
    shift mask (pad64 x) i j n = 0 := by
  unfold shift pad64
  rw [dif_neg (by omega), zero_mul]

section Rows
variable (inp h : Fin 64 → Lane → EReal) (x : Fin 32 → Lane → EReal) (n : Lane)

/-- Row `128 i + j` (`j < 64`) of the 1160-row patch matrix: tap `i` of input channel `j`. -/
theorem patchR_inp {k : Fin 1160} {i : Fin 9} {j : Fin 64} (hk : k.val = 128 * i.val + j.val) :
    patchR mask inp h k n = shift mask inp i j n := by
  unfold patchR
  rw [dif_pos (by omega), dif_pos (by omega)]
  exact shift_congr mask inp (by show k.val / 128 = i.val; omega) (by show k.val % 128 = j.val; omega) n

/-- Row `128 i + 64 + j` of the 1160-row patch matrix: tap `i` of state channel `j`. -/
theorem patchR_state {k : Fin 1160} {i : Fin 9} {j : Fin 64} (hk : k.val = 128 * i.val + 64 + j.val) :
    patchR mask inp h k n = shift mask h i j n := by
  unfold patchR
  rw [dif_pos (by omega), dif_neg (by omega)]
  exact shift_congr mask h (by show k.val / 128 = i.val; omega) (by show k.val % 128 - 64 = j.val; omega) n

/-- Row 1152 of the 1160-row patch matrix is the row of ones. -/
theorem patchR_bias {k : Fin 1160} (hk : k.val = 1152) : patchR mask inp h k n = 1 := by
  unfold patchR
  rw [dif_neg (by omega), if_pos hk]

/-- Rows 1153 to 1159 of the 1160-row patch matrix are zero. -/
theorem patchR_tail {k : Fin 1160} (hk : 1153 ≤ k.val) : patchR mask inp h k n = 0 := by
  unfold patchR
  rw [dif_neg (by omega), if_neg (by omega)]

/-- Row 0 of the 880-row patch matrix is the row of ones. -/
theorem patchK0_bias {k : Fin 880} (hk : k.val = 0) : patchK0 mask x h k n = 1 := by
  unfold patchK0
  rw [if_pos hk]

/-- Rows 1 to 15 of the 880-row patch matrix are zero. -/
theorem patchK0_pad {k : Fin 880} (h1 : 1 ≤ k.val) (h2 : k.val < 16) : patchK0 mask x h k n = 0 := by
  unfold patchK0
  rw [if_neg (by omega), dif_pos h2]

/-- Row `16 + 96 i + j` (`j < 32`) of the 880-row patch matrix: tap `i` of input channel `j`. -/
theorem patchK0_inp {k : Fin 880} {i : Fin 9} {j : Fin 32} (hk : k.val = 16 + 96 * i.val + j.val) :
    patchK0 mask x h k n = shift mask x i j n := by
  unfold patchK0
  rw [if_neg (by omega), dif_neg (by omega), dif_pos (by omega)]
  exact shift_congr mask x (by show (k.val - 16) / 96 = i.val; omega) (by show (k.val - 16) % 96 = j.val; omega) n

/-- Row `16 + 96 i + 32 + j` of the 880-row patch matrix: tap `i` of state channel `j`. -/
theorem patchK0_state {k : Fin 880} {i : Fin 9} {j : Fin 64} (hk : k.val = 16 + 96 * i.val + 32 + j.val) :
    patchK0 mask x h k n = shift mask h i j n := by
  unfold patchK0
  rw [if_neg (by omega), dif_neg (by omega), dif_neg (by omega)]
  exact shift_congr mask h (by show (k.val - 16) / 96 = i.val; omega) (by show (k.val - 16) % 96 - 32 = j.val; omega) n

/-- Row 0 of the 1168-row patch matrix is the row of ones. -/
theorem patchK1_bias {k : Fin 1168} (hk : k.val = 0) : patchK1 mask inp h k n = 1 := by
  unfold patchK1
  rw [if_pos hk]

/-- Rows 1 to 15 of the 1168-row patch matrix are zero. -/
theorem patchK1_pad {k : Fin 1168} (h1 : 1 ≤ k.val) (h2 : k.val < 16) : patchK1 mask inp h k n = 0 := by
  unfold patchK1
  rw [if_neg (by omega), dif_pos h2]

/-- From row 16 on, the 1168-row patch matrix is the 1160-row one's first 1152 rows. -/
theorem patchK1_live {k : Fin 1168} {k' : Fin 1160} (hk' : k'.val < 1152) (hk : k.val = 16 + k'.val) :
    patchK1 mask inp h k n = patchR mask inp h k' n := by
  unfold patchK1 patchR
  rw [if_neg (by omega), dif_neg (by omega), dif_pos hk']
  by_cases h2 : k'.val % 128 < 64
  · rw [dif_pos (by omega), dif_pos h2]
    exact shift_congr mask inp (by show (k.val - 16) / 128 = k'.val / 128; omega)
      (by show (k.val - 16) % 128 = k'.val % 128; omega) n
  · rw [dif_neg (by omega), dif_neg h2]
    exact shift_congr mask h (by show (k.val - 16) / 128 = k'.val / 128; omega)
      (by show (k.val - 16) % 128 - 64 = k'.val % 128 - 64; omega) n

end Rows

/-! ## The gates' pre-activations -/

/-- First layer: the 880-column product with the repacked weights is the 1160-column product with the
    input channels zero-padded to 64. -/
theorem gatesK0_eq {w1 : Fin 192 → Fin 1160 → EReal} {wK : Fin 192 → Fin 880 → EReal} (hw : Repack0 w1 wK)
    (x : Fin 32 → Lane → EReal) (h : Fin 64 → Lane → EReal) :
    gatesK0 mask wK x h = gatesR mask w1 (pad64 x) h := by
  funext r n
  obtain ⟨hbias, hpad, hx, hh⟩ := hw r
  unfold gatesK0 gatesR
  refine acc0_sum (fun k => w1 r k * patchR mask (pad64 x) h k n) (fun k => wK r k * patchK0 mask x h k n)
    ?_ ?_ ?_ ?_ ?_ ?_
  · intro k k' hk hk'
    show wK r k * patchK0 mask x h k n = w1 r k' * patchR mask (pad64 x) h k' n
    rw [hbias k k' hk hk', patchK0_bias mask h x n hk, patchR_bias mask (pad64 x) h n hk']
  · intro k h1 h2
    show wK r k * patchK0 mask x h k n = 0
    rw [patchK0_pad mask h x n h1 h2, mul_zero]
  · intro i j k k' hi hj hk hk'
    show wK r k * patchK0 mask x h k n = w1 r k' * patchR mask (pad64 x) h k' n
    rw [hx i j k k' hi hj hk hk',
      patchK0_inp mask h x n (i := ⟨i, hi⟩) (j := ⟨j, hj⟩) hk,
      patchR_inp mask (pad64 x) h n (i := ⟨i, hi⟩) (j := ⟨j, by omega⟩) hk',
      shift_pad64_lt mask x ⟨i, hi⟩ ⟨j, by omega⟩ hj n]
  · intro i j k k' hi hj hk hk'
    show wK r k * patchK0 mask x h k n = w1 r k' * patchR mask (pad64 x) h k' n
    rw [hh i j k k' hi hj hk hk',
      patchK0_state mask h x n (i := ⟨i, hi⟩) (j := ⟨j, hj⟩) hk,
      patchR_state mask (pad64 x) h n (i := ⟨i, hi⟩) (j := ⟨j, hj⟩) hk']
  · intro i j k' hi h1 h2 hk'
    show w1 r k' * patchR mask (pad64 x) h k' n = 0
    rw [patchR_inp mask (pad64 x) h n (i := ⟨i, hi⟩) (j := ⟨j, h2⟩) hk',
      shift_pad64_ge mask x ⟨i, hi⟩ ⟨j, h2⟩ h1 n, mul_zero]
  · intro k' hk'
    show w1 r k' * patchR mask (pad64 x) h k' n = 0
    rw [patchR_tail mask (pad64 x) h n hk', mul_zero]

/-- Second layer: the 1168-column product with the repacked weights is the 1160-column product. -/
theorem gatesK1_eq {w1 : Fin 192 → Fin 1160 → EReal} {wK : Fin 192 → Fin 1168 → EReal} (hw : Repack1 w1 wK)
    (inp h : Fin 64 → Lane → EReal) :
    gatesK1 mask wK inp h = gatesR mask w1 inp h := by
  funext r n
  obtain ⟨hbias, hpad, hlive⟩ := hw r
  unfold gatesK1 gatesR
  refine acc1_sum (fun k => w1 r k * patchR mask inp h k n) (fun k => wK r k * patchK1 mask inp h k n)
    ?_ ?_ ?_ ?_
  · intro k k' hk hk'
    show wK r k * patchK1 mask inp h k n = w1 r k' * patchR mask inp h k' n
    rw [hbias k k' hk hk', patchK1_bias mask inp h n hk, patchR_bias mask inp h n hk']
  · intro k h1 h2
    show wK r k * patchK1 mask inp h k n = 0
    rw [patchK1_pad mask inp h n h1 h2, mul_zero]
  · intro k k' hk' hk
    show wK r k * patchK1 mask inp h k n = w1 r k' * patchR mask inp h k' n
    rw [hlive k k' hk' hk, patchK1_live mask inp h n hk' hk]
  · intro k' hk'
    show w1 r k' * patchR mask inp h k' n = 0
    rw [patchR_tail mask inp h n hk', mul_zero]

/-! ## The state update -/

/-- With a real old state the two ways of writing the update agree: the update gate is a logistic and
    the candidate a hyperbolic tangent, real at every extended real. -/
theorem finishK_eq (w2 : Fin 64 → Fin 576 → EReal) (g : Fin 192 → Lane → EReal) {h : Fin 64 → Lane → EReal}
    (hh : ∀ r n, IsReal (h r n)) : finishK mask w2 g h = finishR mask w2 g h := by
  funext r n
  unfold finishK finishR
  exact blend_eq (hh r n) (isReal_logistic _) (isReal_tanh _)

/-- The new state, in the first way of writing the update, is real whenever the old one is. -/
theorem isReal_finishK (w2 : Fin 64 → Fin 576 → EReal) (g : Fin 192 → Lane → EReal) {h : Fin 64 → Lane → EReal}
    (hh : ∀ r n, IsReal (h r n)) (r : Fin 64) (n : Lane) : IsReal (finishK mask w2 g h r n) := by
  unfold finishK
  exact isReal_blend (hh r n) (isReal_logistic _) (isReal_tanh _)

/-- The new state, in the second way of writing the update, is real whenever the old one is. -/
theorem isReal_finishR (w2 : Fin 64 → Fin 576 → EReal) (g : Fin 192 → Lane → EReal) {h : Fin 64 → Lane → EReal}
    (hh : ∀ r n, IsReal (h r n)) (r : Fin 64) (n : Lane) : IsReal (finishR mask w2 g h r n) := by
  unfold finishR
  exact isReal_blend' (hh r n) (isReal_logistic _) (isReal_tanh _)

/-! ## One layer -/

/-- The first layer's step in the tight packing is the step in the 1160-row packing on the padded input. -/
theorem stepK0_eq {w1 : Fin 192 → Fin 1160 → EReal} {wK : Fin 192 → Fin 880 → EReal} (hw : Repack0 w1 wK)
    (w2 : Fin 64 → Fin 576 → EReal) (x : Fin 32 → Lane → EReal) {h : Fin 64 → Lane → EReal}
    (hh : ∀ r n, IsReal (h r n)) : stepK0 mask wK w2 x h = stepR mask w1 w2 (pad64 x) h := by
  unfold stepK0 stepR
  rw [gatesK0_eq mask hw x h, finishK_eq mask w2 _ hh]

/-- The second layer's step in the 1168-row packing is the step in the 1160-row packing. -/
theorem stepK1_eq {w1 : Fin 192 → Fin 1160 → EReal} {wK : Fin 192 → Fin 1168 → EReal} (hw : Repack1 w1 wK)
    (w2 : Fin 64 → Fin 576 → EReal) (inp : Fin 64 → Lane → EReal) {h : Fin 64 → Lane → EReal}
    (hh : ∀ r n, IsReal (h r n)) : stepK1 mask wK w2 inp h = stepR mask w1 w2 inp h := by
  unfold stepK1 stepR
  rw [gatesK1_eq mask hw inp h, finishK_eq mask w2 _ hh]

/-- A step of the 1160-row packing keeps the state real, whatever the weights, the mask and the input. -/
theorem isReal_stepR (w1 : Fin 192 → Fin 1160 → EReal) (w2 : Fin 64 → Fin 576 → EReal)
    (inp : Fin 64 → Lane → EReal) {h : Fin 64 → Lane → EReal} (hh : ∀ r n, IsReal (h r n)) (r : Fin 64) (n : Lane) :
    IsReal (stepR mask w1 w2 inp h r n) :=
  isReal_finishR mask w2 _ hh r n

/-- A first-layer step of the tight packing keeps the state real. -/
theorem isReal_stepK0 (wK : Fin 192 → Fin 880 → EReal) (w2 : Fin 64 → Fin 576 → EReal)
    (x : Fin 32 → Lane → EReal) {h : Fin 64 → Lane → EReal} (hh : ∀ r n, IsReal (h r n)) (r : Fin 64) (n : Lane) :
    IsReal (stepK0 mask wK w2 x h r n) :=
  isReal_finishK mask w2 _ hh r n

/-- A second-layer step of the 1168-row packing keeps the state real. -/
theorem isReal_stepK1 (wK : Fin 192 → Fin 1168 → EReal) (w2 : Fin 64 → Fin 576 → EReal)
    (inp : Fin 64 → Lane → EReal) {h : Fin 64 → Lane → EReal} (hh : ∀ r n, IsReal (h r n)) (r : Fin 64) (n : Lane) :
    IsReal (stepK1 mask wK w2 inp h r n) :=
  isReal_finishK mask w2 _ hh r n

end Cert.GruSpec

end
-- ==== Proof.KInputsA.lean ====
/-
  What the region finds in two of its input arrays, at the ideal instance.

  The second weights reach the region converted from f32 to bf16, and a change of float format is
  the identity on extended reals: the region finds the argument itself. The input sequence reaches
  it reshaped from [time, batch, channel, row, column] = [32, 8, 32, 24, 24] to [time, batch block,
  image in block, channel, pixel] = [32, 2, 4, 32, 576]: batch `4 nb + bb`, row `hw / 24`, column
  `hw % 24`.
-/
import proofs.«175272_g2000206920649175_pallasbulk_1279_5_alg».proof.Proof.KKit
import proofs.«175272_g2000206920649175_pallasbulk_1279_5_alg».proof.Proof.SemDefs
import Idealize.ShloMosaic.PureOps.Ideal
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

set_option maxHeartbeats 4000000 in
/-- The second weights as the region finds them are the third argument (converted to bf16: the
    identity here). -/
theorem V_main_v66 (c : Dev nD) :
    (V m c main_v66 : S2x64x576.Idx → EReal) = (m ((c : Thread nD τ).loc main_arg2) : S2x64x576.Idx → EReal) := by
  dsimp only [V, V0]
  simp only [hostOps0, hostOps0_1, hostOps0_2, hostOps0_3, hostOps0_4, List.flatten_cons, List.flatten_nil, List.append_nil, List.cons_append, List.nil_append]
  after_results
  rfl

set_option maxHeartbeats 4000000 in
/-- The input sequence as the region finds it is the reshape of the first argument. -/
theorem V_main_v257 (c : Dev nD) :
    V m c main_v257 = shapeCast S32x2x4x32x576 (m ((c : Thread nD τ).loc main_arg0)) Facts₀.shapeCasts_S32x8x32x24x24_S32x2x4x32x576 := by
  dsimp only [V, V0]
  simp only [hostOps0, hostOps0_1, hostOps0_2, hostOps0_3, hostOps0_4, List.flatten_cons, List.flatten_nil, List.append_nil, List.cons_append, List.nil_append]
  after_results
  rfl

/-- Entry (time `t`, batch block `nb`, image `bb`, channel `j`, pixel `hw`) of the input sequence as the
    region finds it is entry (`t`, `4 nb + bb`, `j`, `hw / 24`, `hw % 24`) of the first argument. -/
theorem V_main_v257_apply (c : Dev nD) (t : Fin 32) (nb : Fin 2) (bb : Fin 4) (j : Fin 32) (hw : Fin 576) :
    V m c main_v257 (ix5 t nb bb j hw)
      = m ((c : Thread nD τ).loc main_arg0) (ix5 t (⟨4 * nb.val + bb.val, by omega⟩ : Fin 8) j
          (⟨hw.val / 24, by omega⟩ : Fin 24) (⟨hw.val % 24, Nat.mod_lt _ (by decide)⟩ : Fin 24)) := by
  refine (congrFun (V_main_v257 m c) _).trans ?_
  refine shapeCast_apply (s := S32x8x32x24x24) (t := S32x2x4x32x576) _ _ _ _ ?_
  rw [Shape.rowMajor_val_five, Shape.rowMajor_val_five]
  show (((t.val * 8 + (4 * nb.val + bb.val)) * 32 + j.val) * 24 + hw.val / 24) * 24 + hw.val % 24
    = (((t.val * 2 + nb.val) * 4 + bb.val) * 32 + j.val) * 576 + hw.val
  omega

end Cert.KernelIdeal.Hand

end
-- ==== Proof.KInputsB.lean ====
/-
  What the region's input blocks hold, at the ideal instance.

  Four of the five input windows have a constant index map and a block as large as their array: the
  boundary masks, the two layers' packed first weights and the second weights are resident, and the
  block at every grid point is the whole array as the region finds it. The fifth window walks the
  input sequence: at grid point `p` = (batch block `p / 32`, time `p % 32`) its block is the four
  images of that batch block at that time, each with 32 channels of 576 pixels; read as 32 rows over
  the 2304 lanes of the tile, lane `n` is image `n / 576`, pixel `n % 576`.
-/
import proofs.«175272_g2000206920649175_pallasbulk_1279_5_alg».proof.Proof.KKit
import proofs.«175272_g2000206920649175_pallasbulk_1279_5_alg».proof.Proof.SemDefs
import Idealize.ShloMosaic.PureOps.Ideal
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The index maps of the five input windows at every grid point: four are constant, and the input
    window's block index is (time, batch block, 0, 0, 0). -/
theorem idx_in : ∀ p : Fin cfg0.N,
    win0_0.index p (0 : Fin 2) = 0 ∧ win0_0.index p (1 : Fin 2) = 0
    ∧ win0_1.index p (0 : Fin 5) = p.val % 32 ∧ win0_1.index p (1 : Fin 5) = p.val / 32 ∧ win0_1.index p (2 : Fin 5) = 0
      ∧ win0_1.index p (3 : Fin 5) = 0 ∧ win0_1.index p (4 : Fin 5) = 0
    ∧ win0_2.index p (0 : Fin 2) = 0 ∧ win0_2.index p (1 : Fin 2) = 0
    ∧ win0_3.index p (0 : Fin 2) = 0 ∧ win0_3.index p (1 : Fin 2) = 0
    ∧ win0_4.index p (0 : Fin 3) = 0 ∧ win0_4.index p (1 : Fin 3) = 0 ∧ win0_4.index p (2 : Fin 3) = 0 :=
  (by decide +kernel : ∀ p : Fin grid0.N, _)

/-- The mask window's block at every point is the whole mask array as the region finds it. -/
theorem iblk_0 (c : Dev nD) (p : Fin cfg0.N) : iblk m c 0 p = V m c main_v256 := by
  funext j
  show V m c main_v256 (((cfg0.win 0).blk p).view.emb j) = V m c main_v256 j
  refine congrArg _ (funext fun a => Fin.ext ?_)
  obtain ⟨e0, e1, -⟩ := idx_in p
  match a with
  | ⟨0, _⟩ => show win0_0.index p (0 : Fin 2) * 16 + 1 * (j 0).val = (j 0).val; omega
  | ⟨1, _⟩ => show win0_0.index p (1 : Fin 2) * 2304 + 1 * (j 1).val = (j 1).val; omega

/-- The input window's block at point `p`, as 32 rows over the lanes: row `j`, lane `n` is the input
    array at (time `p % 32`, batch block `p / 32`, image `n / 576`, channel `j`, pixel `n % 576`). -/
theorem iblk_1 (c : Dev nD) (p : Fin cfg0.N) (j : Fin 32) (n : Lane) :
    xK (iblk m c 1 p) j n
      = V m c main_v257 (ix5 (⟨p.val % 32, Nat.mod_lt _ (by decide)⟩ : Fin 32)
          (⟨p.val / 32, by have hp : p.val < 64 := p.isLt; omega⟩ : Fin 2)
          (⟨n.val / 576, by omega⟩ : Fin 4) j (⟨n.val % 576, Nat.mod_lt _ (by decide)⟩ : Fin 576)) := by
  unfold xK
  show V m c main_v257 (((cfg0.win 1).blk p).view.emb
    (ix5 (0 : Fin 1) (0 : Fin 1) (⟨n.val / 576, by omega⟩ : Fin 4) j (⟨n.val % 576, Nat.mod_lt _ (by decide)⟩ : Fin 576))) = _
  refine congrArg _ (funext fun a => Fin.ext ?_)
  obtain ⟨-, -, e0, e1, e2, e3, e4, -⟩ := idx_in p
  match a with
  | ⟨0, _⟩ => show win0_1.index p (0 : Fin 5) * 1 + 1 * 0 = p.val % 32; omega
  | ⟨1, _⟩ => show win0_1.index p (1 : Fin 5) * 1 + 1 * 0 = p.val / 32; omega
  | ⟨2, _⟩ => show win0_1.index p (2 : Fin 5) * 4 + 1 * (n.val / 576) = n.val / 576; omega
  | ⟨3, _⟩ => show win0_1.index p (3 : Fin 5) * 32 + 1 * j.val = j.val; omega
  | ⟨4, _⟩ => show win0_1.index p (4 : Fin 5) * 576 + 1 * (n.val % 576) = n.val % 576; omega

/-- The same at the point of batch block `nb` and time `t`. -/
theorem iblk_1_at (c : Dev nD) (nb : Fin 2) (t : Fin 32) (j : Fin 32) (n : Lane) :
    xK (iblk m c 1 ⟨32 * nb.val + t.val, by have := nb.isLt; have := t.isLt; show 32 * nb.val + t.val < 64; omega⟩) j n
      = V m c main_v257 (ix5 t nb (⟨n.val / 576, by omega⟩ : Fin 4) j (⟨n.val % 576, Nat.mod_lt _ (by decide)⟩ : Fin 576)) := by
  refine (iblk_1 m c _ j n).trans (congrArg _ ?_)
  have hnb := nb.isLt
  have ht := t.isLt
  refine funext fun a => Fin.ext ?_
  match a with
  | ⟨0, _⟩ => show (32 * nb.val + t.val) % 32 = t.val; omega
  | ⟨1, _⟩ => show (32 * nb.val + t.val) / 32 = nb.val; omega
  | ⟨2, _⟩ => rfl
  | ⟨3, _⟩ => rfl
  | ⟨4, _⟩ => rfl

/-- The first layer's weight window's block at every point is the whole packed weight array. -/
theorem iblk_2 (c : Dev nD) (p : Fin cfg0.N) : iblk m c 2 p = V m c main_v32 := by
  funext j
  show V m c main_v32 (((cfg0.win 2).blk p).view.emb j) = V m c main_v32 j
  refine congrArg _ (funext fun a => Fin.ext ?_)
  obtain ⟨-, -, -, -, -, -, -, e0, e1, -⟩ := idx_in p
  match a with
  | ⟨0, _⟩ => show win0_2.index p (0 : Fin 2) * 192 + 1 * (j 0).val = (j 0).val; omega
  | ⟨1, _⟩ => show win0_2.index p (1 : Fin 2) * 880 + 1 * (j 1).val = (j 1).val; omega

/-- The second layer's weight window's block at every point is the whole packed weight array. -/
theorem iblk_3 (c : Dev nD) (p : Fin cfg0.N) : iblk m c 3 p = V m c main_v65 := by
  funext j
  show V m c main_v65 (((cfg0.win 3).blk p).view.emb j) = V m c main_v65 j
  refine congrArg _ (funext fun a => Fin.ext ?_)
  obtain ⟨-, -, -, -, -, -, -, -, -, e0, e1, -⟩ := idx_in p
  match a with
  | ⟨0, _⟩ => show win0_3.index p (0 : Fin 2) * 192 + 1 * (j 0).val = (j 0).val; omega
  | ⟨1, _⟩ => show win0_3.index p (1 : Fin 2) * 1168 + 1 * (j 1).val = (j 1).val; omega

/-- The second weights' window's block at every point is the whole array. -/
theorem iblk_4 (c : Dev nD) (p : Fin cfg0.N) : iblk m c 4 p = V m c main_v66 := by
  funext j
  show V m c main_v66 (((cfg0.win 4).blk p).view.emb j) = V m c main_v66 j
  refine congrArg _ (funext fun a => Fin.ext ?_)
  obtain ⟨-, -, -, -, -, -, -, -, -, -, -, e0, e1, e2⟩ := idx_in p
  match a with
  | ⟨0, _⟩ => show win0_4.index p (0 : Fin 3) * 2 + 1 * (j 0).val = (j 0).val; omega
  | ⟨1, _⟩ => show win0_4.index p (1 : Fin 3) * 64 + 1 * (j 1).val = (j 1).val; omega
  | ⟨2, _⟩ => show win0_4.index p (2 : Fin 3) * 576 + 1 * (j 2).val = (j 2).val; omega

end Cert.KernelIdeal.Hand

end
-- ==== Proof.KInputs.lean ====
/-
  The region's inputs at the ideal instance: what it finds in its arrays, and what its input
  blocks hold (two modules, gathered here).
-/
import proofs.«175272_g2000206920649175_pallasbulk_1279_5_alg».proof.Proof.KInputsA
import proofs.«175272_g2000206920649175_pallasbulk_1279_5_alg».proof.Proof.KInputsB
-- ==== Proof.RInputsA.lean ====
/-
  The padded input array as the region finds it, at the ideal instance: the first argument
  transposed to batch-major, split into batch blocks of four images, padded from 32 to 64 channels
  with zeros, and with the four images of a block laid side by side on the last axis:
  [batch block, time, channel, 2304]. Lane `n` is image `n / 576`, pixel `n % 576` = (row, column)
  `(n % 576 / 24, n % 576 % 24)`.
-/
import proofs.«175272_g2000206920649175_pallasbulk_1279_5_alg».proof.Proof.RKit
import proofs.«175272_g2000206920649175_pallasbulk_1279_5_alg».proof.Proof.SemDefs
import Idealize.ShloMosaic.PureOps.Ideal
import Idealize.ShloMosaic.Lib.Pipeline.Value
import Idealize.ShloMosaic.Lib.KernelVsHost
import Idealize.ShloMosaic.Lib.ValueIdx

set_option maxRecDepth 16384

noncomputable section

namespace Cert.ReferenceIdeal.Hand

open Cert.ReferenceIdeal Cert.ReferenceIdeal.Gen Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The padded input array -/

/-- The converted integer zero the padding uses is the extended real zero. -/
theorem sitofp_zero : FloatOps.sitofp (F := Ideal) .f32 (0#32 : BitVec 32) = (0 : EReal) := by
  show (((0#32 : BitVec 32).toInt : ℝ) : EReal) = 0
  rw [show (0#32 : BitVec 32).toInt = 0 by decide, Int.cast_zero, EReal.coe_zero]

set_option maxHeartbeats 4000000 in
/-- The input array as the region finds it: the first argument transposed to batch-major, split into
    batch blocks and pixels, padded to 64 channels, the images of a block brought next to the pixels,
    and those two axes merged. -/
theorem V_main_v192 (c : Dev nD) :
    V m c main_v192
      = shapeCast S2x32x64x2304
          (transpose S2x32x64x4x576 [0, 2, 3, 1, 4]
            (pad S2x4x32x64x576 ![0, 0, 0, 0, 0] ![0, 0, 0, 32, 0] ![0, 0, 0, 0, 0]
              (shapeCast S2x4x32x32x576
                (transpose S8x32x32x24x24 [1, 0, 2, 3, 4] (m ((c : Thread nD τ).loc main_arg0))
                  Facts₀.transposes_S32x8x32x24x24_S8x32x32x24x24_1_0_2_3_4)
                Facts₀.shapeCasts_S8x32x32x24x24_S2x4x32x32x576)
              (sitofp (F := Ideal) .f32 (constantI S_ 32 0#32))
              Facts₀.pads_S2x4x32x32x576_S2x4x32x64x576_000_000_000_0320_000 Facts₀.h_S_)
            Facts₀.transposes_S2x4x32x64x576_S2x32x64x4x576_0_2_3_1_4)
          Facts₀.shapeCasts_S2x32x64x4x576_S2x32x64x2304 := by
  dsimp only [V, V0]
  simp only [hostOps0, hostOps0_1, hostOps0_2, hostOps0_3, hostOps0_4, hostOps0_5, hostOps0_6, List.flatten_cons, List.flatten_nil, List.append_nil, List.cons_append, List.nil_append]
  after_results
  rfl

end Cert.ReferenceIdeal.Hand

end
-- ==== Proof.RInputsB.lean ====
/-
  What the region's input blocks hold, at the ideal instance: the mask and the two weight arguments
  are resident (the block at every grid point is the whole array, and the weights are the arguments
  themselves); at grid point `p` = (batch block `p / 32`, time `p % 32`) the input window's block is
  the 64 rows of the padded input array at that batch block and time.
-/
import proofs.«175272_g2000206920649175_pallasbulk_1279_5_alg».proof.Proof.RKit
import proofs.«175272_g2000206920649175_pallasbulk_1279_5_alg».proof.Proof.SemDefs
import Idealize.ShloMosaic.PureOps.Ideal
import Idealize.ShloMosaic.Lib.Pipeline.Value
import Idealize.ShloMosaic.Lib.KernelVsHost
import Idealize.ShloMosaic.Lib.ValueIdx

set_option maxRecDepth 16384

noncomputable section

namespace Cert.ReferenceIdeal.Hand

open Cert.ReferenceIdeal Cert.ReferenceIdeal.Gen Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-! ## The windows' blocks -/

/-- The index maps of the four input windows at every grid point: three are constant, and the input
    window's block index is (batch block, time, 0, 0). -/
theorem idx_in : ∀ p : Fin cfg0.N,
    win0_0.index p (0 : Fin 2) = 0 ∧ win0_0.index p (1 : Fin 2) = 0
    ∧ win0_1.index p (0 : Fin 4) = p.val / 32 ∧ win0_1.index p (1 : Fin 4) = p.val % 32 ∧ win0_1.index p (2 : Fin 4) = 0
      ∧ win0_1.index p (3 : Fin 4) = 0
    ∧ win0_2.index p (0 : Fin 3) = 0 ∧ win0_2.index p (1 : Fin 3) = 0 ∧ win0_2.index p (2 : Fin 3) = 0
    ∧ win0_3.index p (0 : Fin 3) = 0 ∧ win0_3.index p (1 : Fin 3) = 0 ∧ win0_3.index p (2 : Fin 3) = 0 :=
  (by decide +kernel : ∀ p : Fin grid0.N, _)

section Reads
variable (c : Dev nD) (p : Fin cfg0.N)

/-- Window 0's block is as large as its array and its index map is constant: read through the block
    at any point, any contents of the array are themselves. -/
theorem read_blk_0 (A : Buf (Elt Ideal) ((c : Thread nD τ).loc main_v187)) :
    ((cfg0.win 0).blk p).view.read (Elt Ideal) A = A := by
  funext j
  show A (((cfg0.win 0).blk p).view.emb j) = A j
  refine congrArg _ (funext fun a => Fin.ext ?_)
  obtain ⟨e0, e1, -⟩ := idx_in p
  match a with
  | ⟨0, _⟩ => show win0_0.index p (0 : Fin 2) * 9 + 1 * (j 0).val = (j 0).val; omega
  | ⟨1, _⟩ => show win0_0.index p (1 : Fin 2) * 2304 + 1 * (j 1).val = (j 1).val; omega

/-- Window 2 likewise. -/
theorem read_blk_2 (A : Buf (Elt Ideal) ((c : Thread nD τ).loc main_arg1)) :
    ((cfg0.win 2).blk p).view.read (Elt Ideal) A = A := by
  funext j
  show A (((cfg0.win 2).blk p).view.emb j) = A j
  refine congrArg _ (funext fun a => Fin.ext ?_)
  obtain ⟨-, -, -, -, -, -, e0, e1, e2, -⟩ := idx_in p
  match a with
  | ⟨0, _⟩ => show win0_2.index p (0 : Fin 3) * 2 + 1 * (j 0).val = (j 0).val; omega
  | ⟨1, _⟩ => show win0_2.index p (1 : Fin 3) * 192 + 1 * (j 1).val = (j 1).val; omega
  | ⟨2, _⟩ => show win0_2.index p (2 : Fin 3) * 1160 + 1 * (j 2).val = (j 2).val; omega

/-- Window 3 likewise. -/
theorem read_blk_3 (A : Buf (Elt Ideal) ((c : Thread nD τ).loc main_arg2)) :
    ((cfg0.win 3).blk p).view.read (Elt Ideal) A = A := by
  funext j
  show A (((cfg0.win 3).blk p).view.emb j) = A j
  refine congrArg _ (funext fun a => Fin.ext ?_)
  obtain ⟨-, -, -, -, -, -, -, -, -, e0, e1, e2⟩ := idx_in p
  match a with
  | ⟨0, _⟩ => show win0_3.index p (0 : Fin 3) * 2 + 1 * (j 0).val = (j 0).val; omega
  | ⟨1, _⟩ => show win0_3.index p (1 : Fin 3) * 64 + 1 * (j 1).val = (j 1).val; omega
  | ⟨2, _⟩ => show win0_3.index p (2 : Fin 3) * 576 + 1 * (j 2).val = (j 2).val; omega

/-- The input window's block at point `p`, as 64 rows over the lanes, of any contents of its array:
    row `j`, lane `n` is the array at (batch block `p / 32`, time `p % 32`, `j`, `n`). -/
theorem read_blk_1 (A : Buf (Elt Ideal) ((c : Thread nD τ).loc main_v192)) (j : Fin 64) (n : Lane) :
    xR (((cfg0.win 1).blk p).view.read (Elt Ideal) A) j n
      = A (ix4 (⟨p.val / 32, by have hp : p.val < 64 := p.isLt; omega⟩ : Fin 2)
          (⟨p.val % 32, Nat.mod_lt _ (by decide)⟩ : Fin 32) j n) := by
  unfold xR
  show A (((cfg0.win 1).blk p).view.emb (ix4 (0 : Fin 1) (0 : Fin 1) j n)) = _
  refine congrArg _ (funext fun a => Fin.ext ?_)
  obtain ⟨-, -, e0, e1, e2, e3, -⟩ := idx_in p
  match a with
  | ⟨0, _⟩ => show win0_1.index p (0 : Fin 4) * 1 + 1 * 0 = p.val / 32; omega
  | ⟨1, _⟩ => show win0_1.index p (1 : Fin 4) * 1 + 1 * 0 = p.val % 32; omega
  | ⟨2, _⟩ => show win0_1.index p (2 : Fin 4) * 64 + 1 * j.val = j.val; omega
  | ⟨3, _⟩ => show win0_1.index p (3 : Fin 4) * 2304 + 1 * n.val = n.val; omega

end Reads

/-- The mask window's block at every point is the whole mask array as the region finds it. -/
theorem iblk_0 (c : Dev nD) (p : Fin cfg0.N) : iblk m c 0 p = V m c main_v187 :=
  read_blk_0 c p (V m c main_v187)

/-- The first weights' window's block at every point is the second argument. -/
theorem iblk_2 (c : Dev nD) (p : Fin cfg0.N) : iblk m c 2 p = m ((c : Thread nD τ).loc main_arg1) :=
  (read_blk_2 c p (V m c main_arg1)).trans (V_main_arg1 m c)

/-- The second weights' window's block at every point is the third argument. -/
theorem iblk_3 (c : Dev nD) (p : Fin cfg0.N) : iblk m c 3 p = m ((c : Thread nD τ).loc main_arg2) :=
  (read_blk_3 c p (V m c main_arg2)).trans (V_main_arg2 m c)

/-- The input window's block at point `p`, as 64 rows over the lanes: row `j`, lane `n` is the padded
    input array at (batch block `p / 32`, time `p % 32`, channel `j`, lane `n`). -/
theorem iblk_1 (c : Dev nD) (p : Fin cfg0.N) (j : Fin 64) (n : Lane) :
    xR (iblk m c 1 p) j n
      = V m c main_v192 (ix4 (⟨p.val / 32, by have hp : p.val < 64 := p.isLt; omega⟩ : Fin 2)
          (⟨p.val % 32, Nat.mod_lt _ (by decide)⟩ : Fin 32) j n) :=
  read_blk_1 c p (V m c main_v192) j n

end Cert.ReferenceIdeal.Hand

end
-- ==== Proof.RInputs.lean ====
/-
  What the region's input blocks hold, at the ideal instance.

  The mask and the two weight arguments are resident: their windows' blocks at every grid point are
  the whole arrays as the region finds them, and the weights are the arguments themselves. The input
  sequence reaches the region transposed to batch-major, split into batch blocks of four images,
  padded from 32 to 64 channels with zeros, and with the four images of a block laid side by side
  on the last axis: [batch block, time, channel, 2304]. At grid point `p` = (batch block `p / 32`,
  time `p % 32`) the input window's block is that block's 64 rows at that time; row `j`, lane `n` is
  channel `j` (zero from channel 32 on) of image `n / 576` at pixel `n % 576` = (row, column)
  `(n % 576 / 24, n % 576 % 24)`.
-/
import proofs.«175272_g2000206920649175_pallasbulk_1279_5_alg».proof.Proof.RInputsA
import proofs.«175272_g2000206920649175_pallasbulk_1279_5_alg».proof.Proof.RInputsB
import proofs.«175272_g2000206920649175_pallasbulk_1279_5_alg».proof.Proof.SemDefs
import Idealize.ShloMosaic.PureOps.Ideal
import Idealize.ShloMosaic.Lib.Pipeline.Value
import Idealize.ShloMosaic.Lib.KernelVsHost
import Idealize.ShloMosaic.Lib.ValueIdx

set_option maxRecDepth 16384

noncomputable section

namespace Cert.ReferenceIdeal.Hand

open Cert.ReferenceIdeal Cert.ReferenceIdeal.Gen Cert.GruSpec
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Entry (batch block `nb`, time `t`, channel `j`, lane `n`) of the input array as the region finds it:
    for `j < 32` entry (`t`, `4 nb + n / 576`, `j`, `n % 576 / 24`, `n % 576 % 24`) of the first argument,
    zero for the padding channels. -/
theorem V_main_v192_apply (c : Dev nD) (nb : Fin 2) (t : Fin 32) (j : Fin 64) (n : Lane) :
    V m c main_v192 (ix4 nb t j n)
      = if hj : j.val < 32 then
          (m ((c : Thread nD τ).loc main_arg0) (ix5 t (⟨4 * nb.val + n.val / 576, by omega⟩ : Fin 8) (⟨j.val, hj⟩ : Fin 32)
            (⟨n.val % 576 / 24, by omega⟩ : Fin 24) (⟨n.val % 576 % 24, Nat.mod_lt _ (by decide)⟩ : Fin 24)) : EReal)
        else (0 : EReal) := by
  refine (congrFun (V_main_v192 m c) _).trans ?_
  refine (shapeCast_apply (s := S2x32x64x4x576) (t := S2x32x64x2304) _ _ _
    (ix5 nb t j (⟨n.val / 576, by omega⟩ : Fin 4) (⟨n.val % 576, Nat.mod_lt _ (by decide)⟩ : Fin 576)) ?_).trans ?_
  · rw [Shape.rowMajor_val_five, Shape.rowMajor_val_four]
    show (((nb.val * 32 + t.val) * 64 + j.val) * 4 + n.val / 576) * 576 + n.val % 576
      = ((nb.val * 32 + t.val) * 64 + j.val) * 2304 + n.val
    omega
  refine (transpose_apply (s := S2x4x32x64x576) (t := S2x32x64x4x576) _ _ _ _
    (ix5 nb (⟨n.val / 576, by omega⟩ : Fin 4) t j (⟨n.val % 576, Nat.mod_lt _ (by decide)⟩ : Fin 576)) ?_).trans ?_
  · intro a
    match a with
    | ⟨0, _⟩ => rfl
    | ⟨1, _⟩ => rfl
    | ⟨2, _⟩ => rfl
    | ⟨3, _⟩ => rfl
    | ⟨4, _⟩ => rfl
  by_cases hj : j.val < 32
  · rw [dif_pos hj]
    refine (pad_apply_of_inside (s := S2x4x32x32x576) (t := S2x4x32x64x576) _ _ _ _ _ _ _ _
      (ix5 nb (⟨n.val / 576, by omega⟩ : Fin 4) t (⟨j.val, hj⟩ : Fin 32) (⟨n.val % 576, Nat.mod_lt _ (by decide)⟩ : Fin 576)) ?_).trans ?_
    · intro a
      match a with
      | ⟨0, _⟩ => show nb.val = 0 + nb.val * (0 + 1); omega
      | ⟨1, _⟩ => show n.val / 576 = 0 + n.val / 576 * (0 + 1); omega
      | ⟨2, _⟩ => show t.val = 0 + t.val * (0 + 1); omega
      | ⟨3, _⟩ => show j.val = 0 + j.val * (0 + 1); omega
      | ⟨4, _⟩ => show n.val % 576 = 0 + n.val % 576 * (0 + 1); omega
    refine (shapeCast_apply (s := S8x32x32x24x24) (t := S2x4x32x32x576) _ _ _
      (ix5 (⟨4 * nb.val + n.val / 576, by omega⟩ : Fin 8) t (⟨j.val, hj⟩ : Fin 32)
        (⟨n.val % 576 / 24, by omega⟩ : Fin 24) (⟨n.val % 576 % 24, Nat.mod_lt _ (by decide)⟩ : Fin 24)) ?_).trans ?_
    · rw [Shape.rowMajor_val_five, Shape.rowMajor_val_five]
      show ((((4 * nb.val + n.val / 576) * 32 + t.val) * 32 + j.val) * 24 + n.val % 576 / 24) * 24 + n.val % 576 % 24
        = (((nb.val * 4 + n.val / 576) * 32 + t.val) * 32 + j.val) * 576 + n.val % 576
      omega
    refine transpose_apply (s := S32x8x32x24x24) (t := S8x32x32x24x24) _ _ _ _ _ ?_
    intro a
    match a with
    | ⟨0, _⟩ => rfl
    | ⟨1, _⟩ => rfl
    | ⟨2, _⟩ => rfl
    | ⟨3, _⟩ => rfl
    | ⟨4, _⟩ => rfl
  · rw [dif_neg hj]
    refine (pad_apply_of_not_inside (s := S2x4x32x32x576) (t := S2x4x32x64x576) _ _ _ _ _ _ _ _ (3 : Fin 5) ?_).trans ?_
    · show ¬(0 ≤ j.val ∧ (j.val - 0) % (0 + 1) = 0 ∧ (j.val - 0) / (0 + 1) < 32)
      omega
    · exact sitofp_zero

/-- The input window's block at the point of batch block `nb` and time `t`, as 64 rows over the lanes,
    in terms of the first argument. -/
theorem iblk_1_at (c : Dev nD) (nb : Fin 2) (t : Fin 32) (j : Fin 64) (n : Lane) :
    xR (iblk m c 1 ⟨32 * nb.val + t.val, by have := nb.isLt; have := t.isLt; show 32 * nb.val + t.val < 64; omega⟩) j n
      = if hj : j.val < 32 then
          (m ((c : Thread nD τ).loc main_arg0) (ix5 t (⟨4 * nb.val + n.val / 576, by omega⟩ : Fin 8) (⟨j.val, hj⟩ : Fin 32)
            (⟨n.val % 576 / 24, by omega⟩ : Fin 24) (⟨n.val % 576 % 24, Nat.mod_lt _ (by decide)⟩ : Fin 24)) : EReal)
        else (0 : EReal) := by
  refine (iblk_1 m c _ j n).trans (Eq.trans (congrArg _ ?_) (V_main_v192_apply m c nb t j n))
  have hnb := nb.isLt
  have ht := t.isLt
  refine funext fun a => Fin.ext ?_
  match a with
  | ⟨0, _⟩ => show (32 * nb.val + t.val) / 32 = nb.val; omega
  | ⟨1, _⟩ => show (32 * nb.val + t.val) % 32 = t.val; omega
  | ⟨2, _⟩ => rfl
  | ⟨3, _⟩ => rfl

end Cert.ReferenceIdeal.Hand

end
-- ==== Proof.MaskStack.lean ====
/-
  The nine boundary masks over one 24 x 24 image (tap (dy, dx) is valid at pixel (row, col) when row + dy - 1 and
  col + dx - 1 stay inside the image), as a stack of nine rows of 576 bits, are computed by both programs' host
  operations from an iota by the same chain of integer divisions, remainders, comparisons and conjunctions; no
  argument enters.  Read back through the two chains, the two stacks are one term.
-/
import proofs.«175272_g2000206920649175_pallasbulk_1279_5_alg».proof.Proof.KKit
import proofs.«175272_g2000206920649175_pallasbulk_1279_5_alg».proof.Proof.RKit
import Idealize.ShloMosaic.Lib.StableHlo.Run

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 40000000 in
/-- The kernel's stack of mask rows (before it is tiled over the four images, padded to sixteen rows and converted)
    is the reference's (before it is converted and tiled). -/
theorem stack_eq (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD) :
    (Cert.KernelIdeal.Hand.V m c Cert.KernelIdeal.main_v250 : Cert.KernelIdeal.S9x576.Idx → BitVec 1)
      = (Cert.ReferenceIdeal.Hand.V m' c Cert.ReferenceIdeal.main_v183 : Cert.ReferenceIdeal.S9x576.Idx → BitVec 1) := by
  dsimp only [Cert.KernelIdeal.Hand.V, Cert.KernelIdeal.Hand.V0, Cert.ReferenceIdeal.Hand.V, Cert.ReferenceIdeal.Hand.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.Gen.hostOps0, Cert.ReferenceIdeal.Gen.hostOps0_1, Cert.ReferenceIdeal.Gen.hostOps0_2, Cert.ReferenceIdeal.Gen.hostOps0_3, Cert.ReferenceIdeal.Gen.hostOps0_4, Cert.ReferenceIdeal.Gen.hostOps0_5, Cert.ReferenceIdeal.Gen.hostOps0_6, List.flatten_cons, List.flatten_nil, List.append_nil, List.cons_append, List.nil_append]
  after_results_simp
  rfl

end Cert.Proof

end
-- ==== Proof.MaskEq.lean ====
/-
  The boundary masks of the two programs are the same numbers.

  Both programs build a stack of nine rows of 576 bits — tap (dy, dx) is valid at a pixel when the
  shifted pixel stays inside the 24 x 24 image — and turn it into the mask the region reads. One
  tiles the stack over the four images of a tile (a reshape, a broadcast, a reshape: lane
  `576 b + q` of row `i` is bit `q` of row `i`), pads it with seven zero rows and converts the bits to
  numbers; the other converts first and tiles afterwards. The two stacks are one term, so row `i`,
  lane `n` of both masks is the number of bit `n % 576` of row `i`.
-/
import proofs.«175272_g2000206920649175_pallasbulk_1279_5_alg».proof.Proof.KKit
import proofs.«175272_g2000206920649175_pallasbulk_1279_5_alg».proof.Proof.RKit
import proofs.«175272_g2000206920649175_pallasbulk_1279_5_alg».proof.Proof.MaskStack
import Idealize.ShloMosaic.Lib.StableHlo.Run
import Idealize.ShloMosaic.Lib.Pipeline.Value
import Idealize.ShloMosaic.Lib.ValueIdx
import Idealize.ShloMosaic.PureOps.Ideal

set_option maxRecDepth 16384

noncomputable section

namespace Cert.Proof

open Idealize.ShloMosaic Idealize.ShloMosaic.TcCoe Idealize.ShloMosaic.ValueIdx
open Idealize.SL Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

set_option maxHeartbeats 40000000 in
/-- The first program's mask as the region finds it: its stack tiled over the four images, padded with
    seven zero rows, the bits converted to numbers. -/
theorem V_main_v256 (c : Dev Cert.KernelIdeal.nD) :
    Cert.KernelIdeal.Hand.V m c Cert.KernelIdeal.main_v256
      = uitofp (F := Ideal) .bf16
          (concatenate Cert.KernelIdeal.S16x2304 0
            [⟨Cert.KernelIdeal.S9x2304, shapeCast Cert.KernelIdeal.S9x2304
                (broadcastInDim Cert.KernelIdeal.S1x9x4x576 ![0, 1, 2, 3] Cert.KernelIdeal.Facts₀.bcast_S1x9x1x576_S1x9x4x576_0_1_2_3
                  (shapeCast Cert.KernelIdeal.S1x9x1x576 (Cert.KernelIdeal.Hand.V m c Cert.KernelIdeal.main_v250) Cert.KernelIdeal.Facts₀.shapeCasts_S9x576_S1x9x1x576))
                Cert.KernelIdeal.Facts₀.shapeCasts_S1x9x4x576_S9x2304⟩,
             ⟨Cert.KernelIdeal.S7x2304, broadcastInDim Cert.KernelIdeal.S7x2304 ![] Cert.KernelIdeal.Facts₀.bcast_S_S7x2304 (constantI Cert.KernelIdeal.S_ 1 0#1)⟩]
            Cert.KernelIdeal.Facts₀.concatenates_S9x2304_S7x2304_S16x2304_d0) := by
  dsimp only [Cert.KernelIdeal.Hand.V, Cert.KernelIdeal.Hand.V0]
  simp only [Cert.KernelIdeal.Gen.hostOps0, Cert.KernelIdeal.Gen.hostOps0_1, Cert.KernelIdeal.Gen.hostOps0_2, Cert.KernelIdeal.Gen.hostOps0_3, Cert.KernelIdeal.Gen.hostOps0_4, List.flatten_cons, List.flatten_nil, List.append_nil, List.cons_append, List.nil_append]
  after_results_simp <;> rfl

set_option maxHeartbeats 40000000 in
/-- The second program's mask as the region finds it: its stack's bits converted to numbers, then tiled
    over the four images. -/
theorem V_main_v187 (c : Dev Cert.ReferenceIdeal.nD) :
    Cert.ReferenceIdeal.Hand.V m' c Cert.ReferenceIdeal.main_v187
      = shapeCast Cert.ReferenceIdeal.S9x2304
          (broadcastInDim Cert.ReferenceIdeal.S1x9x4x576 ![0, 1, 2, 3] Cert.ReferenceIdeal.Facts₀.bcast_S1x9x1x576_S1x9x4x576_0_1_2_3
            (shapeCast Cert.ReferenceIdeal.S1x9x1x576 (uitofp (F := Ideal) .f32 (Cert.ReferenceIdeal.Hand.V m' c Cert.ReferenceIdeal.main_v183))
              Cert.ReferenceIdeal.Facts₀.shapeCasts_S9x576_S1x9x1x576))
          Cert.ReferenceIdeal.Facts₀.shapeCasts_S1x9x4x576_S9x2304 := by
  dsimp only [Cert.ReferenceIdeal.Hand.V, Cert.ReferenceIdeal.Hand.V0]
  simp only [Cert.ReferenceIdeal.Gen.hostOps0, Cert.ReferenceIdeal.Gen.hostOps0_1, Cert.ReferenceIdeal.Gen.hostOps0_2, Cert.ReferenceIdeal.Gen.hostOps0_3, Cert.ReferenceIdeal.Gen.hostOps0_4, Cert.ReferenceIdeal.Gen.hostOps0_5, Cert.ReferenceIdeal.Gen.hostOps0_6, List.flatten_cons, List.flatten_nil, List.append_nil, List.cons_append, List.nil_append]
  after_results_simp <;> rfl

/-- Row `i`, lane `n` of the tiled stack is bit `n % 576` of row `i` of the stack. -/
theorem tiled_apply {α : Type} (x : (⟨2, ![9, 576]⟩ : Shape).Idx → α)
    (h1 : (⟨2, ![9, 576]⟩ : Shape).ShapeCasts ⟨4, ![1, 9, 1, 576]⟩)
    (h2 : (⟨4, ![1, 9, 1, 576]⟩ : Shape).BroadcastsInDim ⟨4, ![1, 9, 4, 576]⟩ ![0, 1, 2, 3])
    (h3 : (⟨4, ![1, 9, 4, 576]⟩ : Shape).ShapeCasts ⟨2, ![9, 2304]⟩) (i : Fin 9) (n : Fin 2304) :
    shapeCast ⟨2, ![9, 2304]⟩ (broadcastInDim ⟨4, ![1, 9, 4, 576]⟩ ![0, 1, 2, 3] h2 (shapeCast ⟨4, ![1, 9, 1, 576]⟩ x h1)) h3 (ix2 i n)
      = x (ix2 i (⟨n.val % 576, Nat.mod_lt _ (by decide)⟩ : Fin 576)) := by
  refine (shapeCast_apply (s := ⟨4, ![1, 9, 4, 576]⟩) (t := ⟨2, ![9, 2304]⟩) _ _ _
    (ix4 (0 : Fin 1) i (⟨n.val / 576, by omega⟩ : Fin 4) (⟨n.val % 576, Nat.mod_lt _ (by decide)⟩ : Fin 576)) ?_).trans ?_
  · rw [Shape.rowMajor_val_four, Shape.rowMajor_val_two]
    show ((0 * 9 + i.val) * 4 + n.val / 576) * 576 + n.val % 576 = i.val * 2304 + n.val
    omega
  refine (broadcastInDim_apply (s := ⟨4, ![1, 9, 1, 576]⟩) (t := ⟨4, ![1, 9, 4, 576]⟩) _ _ _ _
    (ix4 (0 : Fin 1) i (0 : Fin 1) (⟨n.val % 576, Nat.mod_lt _ (by decide)⟩ : Fin 576)) ?_).trans ?_
  · intro a
    match a with
    | ⟨0, _⟩ => rfl
    | ⟨1, _⟩ => rfl
    | ⟨2, _⟩ => rfl
    | ⟨3, _⟩ => rfl
  refine shapeCast_apply (s := ⟨2, ![9, 576]⟩) (t := ⟨4, ![1, 9, 1, 576]⟩) _ _ _ _ ?_
  rw [Shape.rowMajor_val_two, Shape.rowMajor_val_four]
  show i.val * 576 + n.val % 576 = ((0 * 9 + i.val) * 1 + 0) * 576 + n.val % 576
  omega

/-- Row `i` (of the nine), lane `n` of the two programs' masks is the same number. -/
theorem mask_eq (c : Dev Cert.KernelIdeal.nD) (i : Fin 9) (n : Fin 2304) :
    (Cert.KernelIdeal.Hand.V m c Cert.KernelIdeal.main_v256 : Cert.KernelIdeal.S16x2304.Idx → EReal) (ix2 (⟨i.val, by omega⟩ : Fin 16) n)
      = (Cert.ReferenceIdeal.Hand.V m' c Cert.ReferenceIdeal.main_v187 : Cert.ReferenceIdeal.S9x2304.Idx → EReal) (ix2 i n) := by
  have hK : (Cert.KernelIdeal.Hand.V m c Cert.KernelIdeal.main_v256 : Cert.KernelIdeal.S16x2304.Idx → EReal) (ix2 (⟨i.val, by omega⟩ : Fin 16) n)
      = ((((Cert.KernelIdeal.Hand.V m c Cert.KernelIdeal.main_v250 : Cert.KernelIdeal.S9x576.Idx → BitVec 1)
          (ix2 i (⟨n.val % 576, Nat.mod_lt _ (by decide)⟩ : Fin 576))).toNat : ℝ) : EReal) := by
    rw [V_main_v256 m c]
    show (((concatenate Cert.KernelIdeal.S16x2304 0 _ _ (ix2 (⟨i.val, by omega⟩ : Fin 16) n) : BitVec 1).toNat : ℝ) : EReal) = _
    refine congrArg (fun b : BitVec 1 => ((b.toNat : ℝ) : EReal)) ?_
    refine (concatenate_pair_apply_left (t := Cert.KernelIdeal.S16x2304) (s₁ := Cert.KernelIdeal.S9x2304) (s₂ := Cert.KernelIdeal.S7x2304) (0 : Fin 2) _ _ _
      (ix2 (⟨i.val, by omega⟩ : Fin 16) n) rfl (ix2 i n) ?_).trans ?_
    · intro b
      match b with
      | ⟨0, _⟩ => rfl
      | ⟨1, _⟩ => rfl
    exact tiled_apply _ _ _ _ i n
  have hR : (Cert.ReferenceIdeal.Hand.V m' c Cert.ReferenceIdeal.main_v187 : Cert.ReferenceIdeal.S9x2304.Idx → EReal) (ix2 i n)
      = ((((Cert.ReferenceIdeal.Hand.V m' c Cert.ReferenceIdeal.main_v183 : Cert.ReferenceIdeal.S9x576.Idx → BitVec 1)
          (ix2 i (⟨n.val % 576, Nat.mod_lt _ (by decide)⟩ : Fin 576))).toNat : ℝ) : EReal) := by
    rw [V_main_v187 m' c]
    exact tiled_apply _ _ _ _ i n
  rw [hK, hR, stack_eq m m' c]

end Cert.Proof

end
-- ==== Proof.LibConcatCols.lean ====
/-
  Column slices and column concatenations of a matrix, read at an entry.

  A weight matrix is repacked by cutting column ranges out of it and laying them side by side. Read
  at (row `r`, column `q`), a slice of the columns from `o` on is the matrix at column `o + q`; two
  pieces laid side by side are the first piece for the columns below its width and the second
  piece, the first width less, from there on; so a piece made of two column ranges of ONE matrix is
  that matrix at column `o₁ + q` or `o₂ + (q − w₁)`.
-/
import Idealize.ShloMosaic.Lib.Pipeline.Value
import Idealize.ShloMosaic.Lib.ValueIdx

namespace Idealize.ShloMosaic.LibConcatCols

open Idealize.ShloMosaic Idealize.ShloMosaic.ValueIdx

variable {α : Type}

/-- A slice of the columns from `o` on (all rows), read at (`r`, `q`): the matrix at (`r`, `o + q`). -/
theorem slice_cols_apply {R C w : Nat} (o : Nat) (W : (⟨2, ![R, C]⟩ : Shape).Idx → α)
    (h : (⟨2, ![R, C]⟩ : Shape).Slices ![0, o] ⟨2, ![R, w]⟩) (r : Fin R) (q : Fin w) (hq : o + q.val < C) :
    extractStridedSlice ⟨2, ![R, w]⟩ ![0, o] W h (ix2 r q) = W (ix2 r ⟨o + q.val, hq⟩) := by
  refine extractStridedSlice_apply _ _ _ _ _ ?_
  intro a
  match a with
  | ⟨0, _⟩ => show r.val = 0 + r.val; omega
  | ⟨1, _⟩ => rfl

/-- Two pieces side by side, read at a column below the first width: the first piece there. -/
theorem pair_cols_left {R w1 w2 w : Nat} (x₁ : (⟨2, ![R, w1]⟩ : Shape).Idx → α) (x₂ : (⟨2, ![R, w2]⟩ : Shape).Idx → α)
    (h : Shape.Concatenates [⟨2, ![R, w1]⟩, ⟨2, ![R, w2]⟩] ⟨2, ![R, w]⟩ 1) (r : Fin R) (q : Fin w) (hq : q.val < w1) :
    concatenate ⟨2, ![R, w]⟩ 1 [⟨⟨2, ![R, w1]⟩, x₁⟩, ⟨⟨2, ![R, w2]⟩, x₂⟩] h (ix2 r q) = x₁ (ix2 r ⟨q.val, hq⟩) := by
  refine concatenate_pair_apply_left (1 : Fin 2) x₁ x₂ h (ix2 r q) rfl (ix2 r ⟨q.val, hq⟩) ?_
  intro b
  match b with
  | ⟨0, _⟩ => rfl
  | ⟨1, _⟩ => rfl

/-- Two pieces side by side, read at a column from the first width on: the second piece, the first
    width less. -/
theorem pair_cols_right {R w1 w2 w : Nat} (x₁ : (⟨2, ![R, w1]⟩ : Shape).Idx → α) (x₂ : (⟨2, ![R, w2]⟩ : Shape).Idx → α)
    (h : Shape.Concatenates [⟨2, ![R, w1]⟩, ⟨2, ![R, w2]⟩] ⟨2, ![R, w]⟩ 1) (r : Fin R) (q : Fin w) (hq : w1 ≤ q.val)
    (hq2 : q.val - w1 < w2) :
    concatenate ⟨2, ![R, w]⟩ 1 [⟨⟨2, ![R, w1]⟩, x₁⟩, ⟨⟨2, ![R, w2]⟩, x₂⟩] h (ix2 r q) = x₂ (ix2 r ⟨q.val - w1, hq2⟩) := by
  refine concatenate_pair_apply_right (1 : Fin 2) x₁ x₂ h (ix2 r q) rfl rfl (ix2 r ⟨q.val - w1, hq2⟩) ?_ ?_
  · intro b hb
    match b with
    | ⟨0, _⟩ => rfl
    | ⟨1, _⟩ => exact absurd (Fin.ext rfl) hb
  · show q.val - w1 + w1 = q.val
    omega

/-- A piece made of two column ranges of one matrix `W` — the columns from `o₁` (width `w₁`) then the
    columns from `o₂` (width `w₂`) — read at (`r`, `q`): `W` at column `o₁ + q` for `q < w₁`, at column
    `o₂ + (q − w₁)` from there on. -/
theorem two_ranges_apply {R C w1 w2 w : Nat} (o1 o2 : Nat) (W : (⟨2, ![R, C]⟩ : Shape).Idx → α)
    (h1 : (⟨2, ![R, C]⟩ : Shape).Slices ![0, o1] ⟨2, ![R, w1]⟩) (h2 : (⟨2, ![R, C]⟩ : Shape).Slices ![0, o2] ⟨2, ![R, w2]⟩)
    (hc : Shape.Concatenates [⟨2, ![R, w1]⟩, ⟨2, ![R, w2]⟩] ⟨2, ![R, w]⟩ 1) (hw : w = w1 + w2)
    (hb1 : o1 + w1 ≤ C) (hb2 : o2 + w2 ≤ C) (r : Fin R) (q : Fin w) :
    concatenate ⟨2, ![R, w]⟩ 1
        [⟨⟨2, ![R, w1]⟩, extractStridedSlice ⟨2, ![R, w1]⟩ ![0, o1] W h1⟩,
         ⟨⟨2, ![R, w2]⟩, extractStridedSlice ⟨2, ![R, w2]⟩ ![0, o2] W h2⟩] hc (ix2 r q)
      = if hq : q.val < w1 then W (ix2 r ⟨o1 + q.val, by omega⟩)
        else W (ix2 r ⟨o2 + (q.val - w1), by have := q.isLt; omega⟩) := by
  by_cases hq : q.val < w1
  · rw [dif_pos hq]
    exact (pair_cols_left _ _ hc r q hq).trans (slice_cols_apply o1 W h1 r ⟨q.val, hq⟩ (by show o1 + q.val < C; omega))
  · rw [dif_neg hq]
    have hq2 : q.val - w1 < w2 := by have := q.isLt; omega
    exact (pair_cols_right _ _ hc r q (by omega) hq2).trans
      (slice_cols_apply o2 W h2 r ⟨q.val - w1, hq2⟩ (by show o2 + (q.val - w1) < C; omega))

end Idealize.ShloMosaic.LibConcatCols
-- ==== Proof.KWeights0.lean ====
/-
  The first layer's packed weights as the region finds them, at the ideal instance.

  @main cuts slab 0 of the first-weights argument into column ranges and lays them side by side:
  the bias column (column 1152) first, fifteen zero columns, then per tap `i` the 32 input columns
  `128 i … 128 i + 31` and the 64 state columns `128 i + 64 … 128 i + 127` — 880 columns —, and
  converts the result to bf16, which is the identity on extended reals. Read entry by entry this is
  the correspondence between the two packings that the gate sums need.
-/
import proofs.«175272_g2000206920649175_pallasbulk_1279_5_alg».proof.Proof.KKit
import proofs.«175272_g2000206920649175_pallasbulk_1279_5_alg».proof.Proof.SemDefs
import proofs.«175272_g2000206920649175_pallasbulk_1279_5_alg».proof.Proof.LibConcatCols
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GruSpec Idealize.ShloMosaic.LibConcatCols
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The buffer contents after a list of host operations, one operation at a time: each operation's
    result at its own buffer is its function's value, at any other buffer what was there before. -/
macro "after_loop_w0" : tactic =>
  `(tactic| (repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [StableHlo.nary4_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-! ## The packed matrix, as a term -/

/-- Slab 0 of the first-weights argument as a 192 x 1160 matrix. -/
def slabMat (A1 : S2x192x1160.Idx → EReal) : S192x1160.Idx → EReal :=
  shapeCast S192x1160 (extractStridedSlice S1x192x1160 ![0, 0, 0] A1 Facts₀.slices_S2x192x1160_S1x192x1160_0_0_0)
    Facts₀.shapeCasts_S1x192x1160_S192x1160

/-- The repacked matrix: the bias column, fifteen zero columns, and the nine taps' live columns. -/
def packed (A1 : S2x192x1160.Idx → EReal) : S192x880.Idx → EReal :=
  concatenate S192x880 1
    [⟨S192x1, extractStridedSlice S192x1 ![0, 1152] (slabMat A1) Facts₀.slices_S192x1160_S192x1_0_1152⟩,
     ⟨S192x15, broadcastInDim S192x15 ![] Facts₀.bcast_S_S192x15 (constant (F := Ideal) S_ .f32 0x00000000#32)⟩,
     ⟨S192x96, concatenate S192x96 1
        [⟨S192x32, extractStridedSlice S192x32 ![0, 0] (slabMat A1) Facts₀.slices_S192x1160_S192x32_0_0⟩,
         ⟨S192x64, extractStridedSlice S192x64 ![0, 64] (slabMat A1) Facts₀.slices_S192x1160_S192x64_0_64⟩]
        Facts₀.concatenates_S192x32_S192x64_S192x96_d1⟩,
     ⟨S192x96, concatenate S192x96 1
        [⟨S192x32, extractStridedSlice S192x32 ![0, 128] (slabMat A1) Facts₀.slices_S192x1160_S192x32_0_128⟩,
         ⟨S192x64, extractStridedSlice S192x64 ![0, 192] (slabMat A1) Facts₀.slices_S192x1160_S192x64_0_192⟩]
        Facts₀.concatenates_S192x32_S192x64_S192x96_d1⟩,
     ⟨S192x96, concatenate S192x96 1
        [⟨S192x32, extractStridedSlice S192x32 ![0, 256] (slabMat A1) Facts₀.slices_S192x1160_S192x32_0_256⟩,
         ⟨S192x64, extractStridedSlice S192x64 ![0, 320] (slabMat A1) Facts₀.slices_S192x1160_S192x64_0_320⟩]
        Facts₀.concatenates_S192x32_S192x64_S192x96_d1⟩,
     ⟨S192x96, concatenate S192x96 1
        [⟨S192x32, extractStridedSlice S192x32 ![0, 384] (slabMat A1) Facts₀.slices_S192x1160_S192x32_0_384⟩,
         ⟨S192x64, extractStridedSlice S192x64 ![0, 448] (slabMat A1) Facts₀.slices_S192x1160_S192x64_0_448⟩]
        Facts₀.concatenates_S192x32_S192x64_S192x96_d1⟩,
     ⟨S192x96, concatenate S192x96 1
        [⟨S192x32, extractStridedSlice S192x32 ![0, 512] (slabMat A1) Facts₀.slices_S192x1160_S192x32_0_512⟩,
         ⟨S192x64, extractStridedSlice S192x64 ![0, 576] (slabMat A1) Facts₀.slices_S192x1160_S192x64_0_576⟩]
        Facts₀.concatenates_S192x32_S192x64_S192x96_d1⟩,
     ⟨S192x96, concatenate S192x96 1
        [⟨S192x32, extractStridedSlice S192x32 ![0, 640] (slabMat A1) Facts₀.slices_S192x1160_S192x32_0_640⟩,
         ⟨S192x64, extractStridedSlice S192x64 ![0, 704] (slabMat A1) Facts₀.slices_S192x1160_S192x64_0_704⟩]
        Facts₀.concatenates_S192x32_S192x64_S192x96_d1⟩,
     ⟨S192x96, concatenate S192x96 1
        [⟨S192x32, extractStridedSlice S192x32 ![0, 768] (slabMat A1) Facts₀.slices_S192x1160_S192x32_0_768⟩,
         ⟨S192x64, extractStridedSlice S192x64 ![0, 832] (slabMat A1) Facts₀.slices_S192x1160_S192x64_0_832⟩]
        Facts₀.concatenates_S192x32_S192x64_S192x96_d1⟩,
     ⟨S192x96, concatenate S192x96 1
        [⟨S192x32, extractStridedSlice S192x32 ![0, 896] (slabMat A1) Facts₀.slices_S192x1160_S192x32_0_896⟩,
         ⟨S192x64, extractStridedSlice S192x64 ![0, 960] (slabMat A1) Facts₀.slices_S192x1160_S192x64_0_960⟩]
        Facts₀.concatenates_S192x32_S192x64_S192x96_d1⟩,
     ⟨S192x96, concatenate S192x96 1
        [⟨S192x32, extractStridedSlice S192x32 ![0, 1024] (slabMat A1) Facts₀.slices_S192x1160_S192x32_0_1024⟩,
         ⟨S192x64, extractStridedSlice S192x64 ![0, 1088] (slabMat A1) Facts₀.slices_S192x1160_S192x64_0_1088⟩]
        Facts₀.concatenates_S192x32_S192x64_S192x96_d1⟩]
    Facts₀.concatenates_S192x1_S192x15_S192x96_S192x96_S192x96_S192x96_S192x96_S192x96_S192x96_S192x96_S192x96_S192x880_d1

set_option maxHeartbeats 40000000 in
/-- The first layer's packed weights as the region finds them are the repacked slab 0 of the second
    argument (converted to bf16: the identity here). -/
theorem V_main_v32 (c : Dev nD) :
    V m c main_v32 = truncf (F := Ideal) (φ := .f32) .bf16 (packed (m ((c : Thread nD τ).loc main_arg1))) (by decide) := by
  dsimp only [V, V0]
  simp only [hostOps0, hostOps0_1, hostOps0_2, hostOps0_3, hostOps0_4, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', Matrix.cons_val]
  after_loop_w0
  rfl

/-! ## Read entry by entry -/

section Entries
variable (A1 : S2x192x1160.Idx → EReal) (r : Fin 192)

/-- The slab as a matrix, read at an entry. -/
theorem slabMat_apply (q : Fin 1160) : slabMat A1 (ix2 r q) = A1 (ix3 (0 : Fin 2) r q) := by
  unfold slabMat
  refine (shapeCast_apply (s := S1x192x1160) (t := S192x1160) _ _ _ (ix3 (0 : Fin 1) r q) ?_).trans ?_
  · rw [Shape.rowMajor_val_three, Shape.rowMajor_val_two]
    show (0 * 192 + r.val) * 1160 + q.val = r.val * 1160 + q.val
    omega
  refine extractStridedSlice_apply (s := S2x192x1160) (t := S1x192x1160) _ _ _ _ _ ?_
  intro a
  match a with
  | ⟨0, _⟩ => rfl
  | ⟨1, _⟩ => show r.val = 0 + r.val; omega
  | ⟨2, _⟩ => show q.val = 0 + q.val; omega

/-- Column 0 of the packed matrix is the slab's bias column. -/
theorem packed_bias (k : Fin 880) (hk : k.val = 0) :
    packed A1 (ix2 r k) = A1 (ix3 (0 : Fin 2) r (⟨1152, by decide⟩ : Fin 1160)) := by
  unfold packed
  refine (concatenate_apply_piece (t := S192x880) (1 : Fin 2) _ _ (ix2 r k) 0 (by show 0 < 11; decide) S192x1 _ rfl rfl 0 rfl
    (ix2 r (0 : Fin 1)) ?_ ?_).trans ?_
  · intro b hb
    match b with
    | ⟨0, _⟩ => rfl
    | ⟨1, _⟩ => exact absurd (Fin.ext rfl) hb
  · show 0 + 0 = k.val
    omega
  exact (slice_cols_apply 1152 (slabMat A1) _ r (0 : Fin 1) (by decide)).trans (slabMat_apply A1 r _)

/-- Columns 1 to 15 of the packed matrix are zero. -/
theorem packed_pad (k : Fin 880) (h1 : 1 ≤ k.val) (h2 : k.val < 16) : packed A1 (ix2 r k) = 0 := by
  unfold packed
  refine (concatenate_apply_piece (t := S192x880) (1 : Fin 2) _ _ (ix2 r k) 1 (by show 1 < 11; decide) S192x15 _ rfl rfl 1 rfl
    (ix2 r (⟨k.val - 1, by omega⟩ : Fin 15)) ?_ ?_).trans ?_
  · intro b hb
    match b with
    | ⟨0, _⟩ => rfl
    | ⟨1, _⟩ => exact absurd (Fin.ext rfl) hb
  · show 1 + (k.val - 1) = k.val
    omega
  exact Ideal.ofBits_zero_f32

/-- Columns 16 to 111 of the packed matrix: tap 0's 32 input columns, then its 64 state columns. -/
theorem packed_tap_0 (k : Fin 880) (q : Fin 96) (hk : k.val = 16 + q.val) :
    packed A1 (ix2 r k)
      = if hq : q.val < 32 then A1 (ix3 (0 : Fin 2) r (⟨0 + q.val, by omega⟩ : Fin 1160))
        else A1 (ix3 (0 : Fin 2) r (⟨64 + (q.val - 32), by have := q.isLt; omega⟩ : Fin 1160)) := by
  unfold packed
  refine (concatenate_apply_piece (t := S192x880) (1 : Fin 2) _ _ (ix2 r k) 2 (by show 2 < 11; decide) S192x96 _ rfl rfl 16 rfl
    (ix2 r q) ?_ ?_).trans ?_
  · intro b hb
    match b with
    | ⟨0, _⟩ => rfl
    | ⟨1, _⟩ => exact absurd (Fin.ext rfl) hb
  · show 16 + q.val = k.val
    omega
  refine (two_ranges_apply (R := 192) (C := 1160) (w1 := 32) (w2 := 64) (w := 96) 0 64 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 112 to 207 of the packed matrix: tap 1's 32 input columns, then its 64 state columns. -/
theorem packed_tap_1 (k : Fin 880) (q : Fin 96) (hk : k.val = 112 + q.val) :
    packed A1 (ix2 r k)
      = if hq : q.val < 32 then A1 (ix3 (0 : Fin 2) r (⟨128 + q.val, by omega⟩ : Fin 1160))
        else A1 (ix3 (0 : Fin 2) r (⟨192 + (q.val - 32), by have := q.isLt; omega⟩ : Fin 1160)) := by
  unfold packed
  refine (concatenate_apply_piece (t := S192x880) (1 : Fin 2) _ _ (ix2 r k) 3 (by show 3 < 11; decide) S192x96 _ rfl rfl 112 rfl
    (ix2 r q) ?_ ?_).trans ?_
  · intro b hb
    match b with
    | ⟨0, _⟩ => rfl
    | ⟨1, _⟩ => exact absurd (Fin.ext rfl) hb
  · show 112 + q.val = k.val
    omega
  refine (two_ranges_apply (R := 192) (C := 1160) (w1 := 32) (w2 := 64) (w := 96) 128 192 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 208 to 303 of the packed matrix: tap 2's 32 input columns, then its 64 state columns. -/
theorem packed_tap_2 (k : Fin 880) (q : Fin 96) (hk : k.val = 208 + q.val) :
    packed A1 (ix2 r k)
      = if hq : q.val < 32 then A1 (ix3 (0 : Fin 2) r (⟨256 + q.val, by omega⟩ : Fin 1160))
        else A1 (ix3 (0 : Fin 2) r (⟨320 + (q.val - 32), by have := q.isLt; omega⟩ : Fin 1160)) := by
  unfold packed
  refine (concatenate_apply_piece (t := S192x880) (1 : Fin 2) _ _ (ix2 r k) 4 (by show 4 < 11; decide) S192x96 _ rfl rfl 208 rfl
    (ix2 r q) ?_ ?_).trans ?_
  · intro b hb
    match b with
    | ⟨0, _⟩ => rfl
    | ⟨1, _⟩ => exact absurd (Fin.ext rfl) hb
  · show 208 + q.val = k.val
    omega
  refine (two_ranges_apply (R := 192) (C := 1160) (w1 := 32) (w2 := 64) (w := 96) 256 320 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 304 to 399 of the packed matrix: tap 3's 32 input columns, then its 64 state columns. -/
theorem packed_tap_3 (k : Fin 880) (q : Fin 96) (hk : k.val = 304 + q.val) :
    packed A1 (ix2 r k)
      = if hq : q.val < 32 then A1 (ix3 (0 : Fin 2) r (⟨384 + q.val, by omega⟩ : Fin 1160))
        else A1 (ix3 (0 : Fin 2) r (⟨448 + (q.val - 32), by have := q.isLt; omega⟩ : Fin 1160)) := by
  unfold packed
  refine (concatenate_apply_piece (t := S192x880) (1 : Fin 2) _ _ (ix2 r k) 5 (by show 5 < 11; decide) S192x96 _ rfl rfl 304 rfl
    (ix2 r q) ?_ ?_).trans ?_
  · intro b hb
    match b with
    | ⟨0, _⟩ => rfl
    | ⟨1, _⟩ => exact absurd (Fin.ext rfl) hb
  · show 304 + q.val = k.val
    omega
  refine (two_ranges_apply (R := 192) (C := 1160) (w1 := 32) (w2 := 64) (w := 96) 384 448 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 400 to 495 of the packed matrix: tap 4's 32 input columns, then its 64 state columns. -/
theorem packed_tap_4 (k : Fin 880) (q : Fin 96) (hk : k.val = 400 + q.val) :
    packed A1 (ix2 r k)
      = if hq : q.val < 32 then A1 (ix3 (0 : Fin 2) r (⟨512 + q.val, by omega⟩ : Fin 1160))
        else A1 (ix3 (0 : Fin 2) r (⟨576 + (q.val - 32), by have := q.isLt; omega⟩ : Fin 1160)) := by
  unfold packed
  refine (concatenate_apply_piece (t := S192x880) (1 : Fin 2) _ _ (ix2 r k) 6 (by show 6 < 11; decide) S192x96 _ rfl rfl 400 rfl
    (ix2 r q) ?_ ?_).trans ?_
  · intro b hb
    match b with
    | ⟨0, _⟩ => rfl
    | ⟨1, _⟩ => exact absurd (Fin.ext rfl) hb
  · show 400 + q.val = k.val
    omega
  refine (two_ranges_apply (R := 192) (C := 1160) (w1 := 32) (w2 := 64) (w := 96) 512 576 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 496 to 591 of the packed matrix: tap 5's 32 input columns, then its 64 state columns. -/
theorem packed_tap_5 (k : Fin 880) (q : Fin 96) (hk : k.val = 496 + q.val) :
    packed A1 (ix2 r k)
      = if hq : q.val < 32 then A1 (ix3 (0 : Fin 2) r (⟨640 + q.val, by omega⟩ : Fin 1160))
        else A1 (ix3 (0 : Fin 2) r (⟨704 + (q.val - 32), by have := q.isLt; omega⟩ : Fin 1160)) := by
  unfold packed
  refine (concatenate_apply_piece (t := S192x880) (1 : Fin 2) _ _ (ix2 r k) 7 (by show 7 < 11; decide) S192x96 _ rfl rfl 496 rfl
    (ix2 r q) ?_ ?_).trans ?_
  · intro b hb
    match b with
    | ⟨0, _⟩ => rfl
    | ⟨1, _⟩ => exact absurd (Fin.ext rfl) hb
  · show 496 + q.val = k.val
    omega
  refine (two_ranges_apply (R := 192) (C := 1160) (w1 := 32) (w2 := 64) (w := 96) 640 704 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 592 to 687 of the packed matrix: tap 6's 32 input columns, then its 64 state columns. -/
theorem packed_tap_6 (k : Fin 880) (q : Fin 96) (hk : k.val = 592 + q.val) :
    packed A1 (ix2 r k)
      = if hq : q.val < 32 then A1 (ix3 (0 : Fin 2) r (⟨768 + q.val, by omega⟩ : Fin 1160))
        else A1 (ix3 (0 : Fin 2) r (⟨832 + (q.val - 32), by have := q.isLt; omega⟩ : Fin 1160)) := by
  unfold packed
  refine (concatenate_apply_piece (t := S192x880) (1 : Fin 2) _ _ (ix2 r k) 8 (by show 8 < 11; decide) S192x96 _ rfl rfl 592 rfl
    (ix2 r q) ?_ ?_).trans ?_
  · intro b hb
    match b with
    | ⟨0, _⟩ => rfl
    | ⟨1, _⟩ => exact absurd (Fin.ext rfl) hb
  · show 592 + q.val = k.val
    omega
  refine (two_ranges_apply (R := 192) (C := 1160) (w1 := 32) (w2 := 64) (w := 96) 768 832 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 688 to 783 of the packed matrix: tap 7's 32 input columns, then its 64 state columns. -/
theorem packed_tap_7 (k : Fin 880) (q : Fin 96) (hk : k.val = 688 + q.val) :
    packed A1 (ix2 r k)
      = if hq : q.val < 32 then A1 (ix3 (0 : Fin 2) r (⟨896 + q.val, by omega⟩ : Fin 1160))
        else A1 (ix3 (0 : Fin 2) r (⟨960 + (q.val - 32), by have := q.isLt; omega⟩ : Fin 1160)) := by
  unfold packed
  refine (concatenate_apply_piece (t := S192x880) (1 : Fin 2) _ _ (ix2 r k) 9 (by show 9 < 11; decide) S192x96 _ rfl rfl 688 rfl
    (ix2 r q) ?_ ?_).trans ?_
  · intro b hb
    match b with
    | ⟨0, _⟩ => rfl
    | ⟨1, _⟩ => exact absurd (Fin.ext rfl) hb
  · show 688 + q.val = k.val
    omega
  refine (two_ranges_apply (R := 192) (C := 1160) (w1 := 32) (w2 := 64) (w := 96) 896 960 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

/-- Columns 784 to 879 of the packed matrix: tap 8's 32 input columns, then its 64 state columns. -/
theorem packed_tap_8 (k : Fin 880) (q : Fin 96) (hk : k.val = 784 + q.val) :
    packed A1 (ix2 r k)
      = if hq : q.val < 32 then A1 (ix3 (0 : Fin 2) r (⟨1024 + q.val, by omega⟩ : Fin 1160))
        else A1 (ix3 (0 : Fin 2) r (⟨1088 + (q.val - 32), by have := q.isLt; omega⟩ : Fin 1160)) := by
  unfold packed
  refine (concatenate_apply_piece (t := S192x880) (1 : Fin 2) _ _ (ix2 r k) 10 (by show 10 < 11; decide) S192x96 _ rfl rfl 784 rfl
    (ix2 r q) ?_ ?_).trans ?_
  · intro b hb
    match b with
    | ⟨0, _⟩ => rfl
    | ⟨1, _⟩ => exact absurd (Fin.ext rfl) hb
  · show 784 + q.val = k.val
    omega
  refine (two_ranges_apply (R := 192) (C := 1160) (w1 := 32) (w2 := 64) (w := 96) 1024 1088 (slabMat A1) _ _ _ rfl (by decide) (by decide) r q).trans ?_
  by_cases hq : q.val < 32
  · rw [dif_pos hq, dif_pos hq]
    exact slabMat_apply A1 r _
  · rw [dif_neg hq, dif_neg hq]
    exact slabMat_apply A1 r _

end Entries

/-! ## The correspondence of the two packings -/

/-- The region's first-layer weights are the repacking of slab 0 of the second argument that the
    gate sums are stated for. -/
theorem repack0 (c : Dev nD) :
    Repack0 (slab3 (A := 2) (B := 192) (C := 1160) (m ((c : Thread nD τ).loc main_arg1)) (0 : Fin 2))
      (mat2 (A := 192) (B := 880) (V m c main_v32)) := by
  intro r
  have hV : ∀ k : Fin 880, mat2 (A := 192) (B := 880) (V m c main_v32) r k
      = packed (m ((c : Thread nD τ).loc main_arg1)) (ix2 r k) := by
    intro k
    show V m c main_v32 (ix2 r k) = _
    rw [V_main_v32 m c]
    rfl
  have hS : ∀ k' : Fin 1160, slab3 (A := 2) (B := 192) (C := 1160) (m ((c : Thread nD τ).loc main_arg1)) (0 : Fin 2) r k'
      = (m ((c : Thread nD τ).loc main_arg1) : S2x192x1160.Idx → EReal) (ix3 (0 : Fin 2) r k') := fun _ => rfl
  refine ⟨?_, ?_, ?_, ?_⟩
  · intro k k' hk hk'
    rw [hV, hS, packed_bias _ r k hk]
    exact congrArg _ (congrArg (ix3 (0 : Fin 2) r) (Fin.ext hk'.symm))
  · intro k h1 h2
    rw [hV, packed_pad _ r k h1 h2]
  · intro i j k k' hi hj hk hk'
    rw [hV, hS]
    interval_cases i
    · rw [packed_tap_0 _ r k (⟨j, by omega⟩ : Fin 96) (by show k.val = 16 + j; omega), dif_pos (by show j < 32; omega)]
      exact congrArg _ (congrArg (ix3 (0 : Fin 2) r) (Fin.ext (by show 0 + j = k'.val; omega)))
    · rw [packed_tap_1 _ r k (⟨j, by omega⟩ : Fin 96) (by show k.val = 112 + j; omega), dif_pos (by show j < 32; omega)]
      exact congrArg _ (congrArg (ix3 (0 : Fin 2) r) (Fin.ext (by show 128 + j = k'.val; omega)))
    · rw [packed_tap_2 _ r k (⟨j, by omega⟩ : Fin 96) (by show k.val = 208 + j; omega), dif_pos (by show j < 32; omega)]
      exact congrArg _ (congrArg (ix3 (0 : Fin 2) r) (Fin.ext (by show 256 + j = k'.val; omega)))
    · rw [packed_tap_3 _ r k (⟨j, by omega⟩ : Fin 96) (by show k.val = 304 + j; omega), dif_pos (by show j < 32; omega)]
      exact congrArg _ (congrArg (ix3 (0 : Fin 2) r) (Fin.ext (by show 384 + j = k'.val; omega)))
    · rw [packed_tap_4 _ r k (⟨j, by omega⟩ : Fin 96) (by show k.val = 400 + j; omega), dif_pos (by show j < 32; omega)]
      exact congrArg _ (congrArg (ix3 (0 : Fin 2) r) (Fin.ext (by show 512 + j = k'.val; omega)))
    · rw [packed_tap_5 _ r k (⟨j, by omega⟩ : Fin 96) (by show k.val = 496 + j; omega), dif_pos (by show j < 32; omega)]
      exact congrArg _ (congrArg (ix3 (0 : Fin 2) r) (Fin.ext (by show 640 + j = k'.val; omega)))
    · rw [packed_tap_6 _ r k (⟨j, by omega⟩ : Fin 96) (by show k.val = 592 + j; omega), dif_pos (by show j < 32; omega)]
      exact congrArg _ (congrArg (ix3 (0 : Fin 2) r) (Fin.ext (by show 768 + j = k'.val; omega)))
    · rw [packed_tap_7 _ r k (⟨j, by omega⟩ : Fin 96) (by show k.val = 688 + j; omega), dif_pos (by show j < 32; omega)]
      exact congrArg _ (congrArg (ix3 (0 : Fin 2) r) (Fin.ext (by show 896 + j = k'.val; omega)))
    · rw [packed_tap_8 _ r k (⟨j, by omega⟩ : Fin 96) (by show k.val = 784 + j; omega), dif_pos (by show j < 32; omega)]
      exact congrArg _ (congrArg (ix3 (0 : Fin 2) r) (Fin.ext (by show 1024 + j = k'.val; omega)))
  · intro i j k k' hi hj hk hk'
    rw [hV, hS]
    interval_cases i
    · rw [packed_tap_0 _ r k (⟨32 + j, by omega⟩ : Fin 96) (by show k.val = 16 + (32 + j); omega), dif_neg (by show ¬(32 + j < 32); omega)]
      exact congrArg _ (congrArg (ix3 (0 : Fin 2) r) (Fin.ext (by show 64 + (32 + j - 32) = k'.val; omega)))
    · rw [packed_tap_1 _ r k (⟨32 + j, by omega⟩ : Fin 96) (by show k.val = 112 + (32 + j); omega), dif_neg (by show ¬(32 + j < 32); omega)]
      exact congrArg _ (congrArg (ix3 (0 : Fin 2) r) (Fin.ext (by show 192 + (32 + j - 32) = k'.val; omega)))
    · rw [packed_tap_2 _ r k (⟨32 + j, by omega⟩ : Fin 96) (by show k.val = 208 + (32 + j); omega), dif_neg (by show ¬(32 + j < 32); omega)]
      exact congrArg _ (congrArg (ix3 (0 : Fin 2) r) (Fin.ext (by show 320 + (32 + j - 32) = k'.val; omega)))
    · rw [packed_tap_3 _ r k (⟨32 + j, by omega⟩ : Fin 96) (by show k.val = 304 + (32 + j); omega), dif_neg (by show ¬(32 + j < 32); omega)]
      exact congrArg _ (congrArg (ix3 (0 : Fin 2) r) (Fin.ext (by show 448 + (32 + j - 32) = k'.val; omega)))
    · rw [packed_tap_4 _ r k (⟨32 + j, by omega⟩ : Fin 96) (by show k.val = 400 + (32 + j); omega), dif_neg (by show ¬(32 + j < 32); omega)]
      exact congrArg _ (congrArg (ix3 (0 : Fin 2) r) (Fin.ext (by show 576 + (32 + j - 32) = k'.val; omega)))
    · rw [packed_tap_5 _ r k (⟨32 + j, by omega⟩ : Fin 96) (by show k.val = 496 + (32 + j); omega), dif_neg (by show ¬(32 + j < 32); omega)]
      exact congrArg _ (congrArg (ix3 (0 : Fin 2) r) (Fin.ext (by show 704 + (32 + j - 32) = k'.val; omega)))
    · rw [packed_tap_6 _ r k (⟨32 + j, by omega⟩ : Fin 96) (by show k.val = 592 + (32 + j); omega), dif_neg (by show ¬(32 + j < 32); omega)]
      exact congrArg _ (congrArg (ix3 (0 : Fin 2) r) (Fin.ext (by show 832 + (32 + j - 32) = k'.val; omega)))
    · rw [packed_tap_7 _ r k (⟨32 + j, by omega⟩ : Fin 96) (by show k.val = 688 + (32 + j); omega), dif_neg (by show ¬(32 + j < 32); omega)]
      exact congrArg _ (congrArg (ix3 (0 : Fin 2) r) (Fin.ext (by show 960 + (32 + j - 32) = k'.val; omega)))
    · rw [packed_tap_8 _ r k (⟨32 + j, by omega⟩ : Fin 96) (by show k.val = 784 + (32 + j); omega), dif_neg (by show ¬(32 + j < 32); omega)]
      exact congrArg _ (congrArg (ix3 (0 : Fin 2) r) (Fin.ext (by show 1088 + (32 + j - 32) = k'.val; omega)))

end Cert.KernelIdeal.Hand

end
-- ==== Proof.KWeights1.lean ====
/-
  The second layer's packed weights as the region finds them, at the ideal instance.

  @main cuts slab 1 of the first-weights argument into column ranges and lays them side by side:
  the bias column (column 1152) first, fifteen zero columns, then per tap `i` the 64 input columns
  `128 i … 128 i + 63` and the 64 state columns `128 i + 64 … 128 i + 127` — 1168 columns —, and
  converts the result to bf16, which is the identity on extended reals. Read entry by entry this is
  the correspondence between the two packings that the gate sums need.
-/
import proofs.«175272_g2000206920649175_pallasbulk_1279_5_alg».proof.Proof.KKit
import proofs.«175272_g2000206920649175_pallasbulk_1279_5_alg».proof.Proof.SemDefs
import proofs.«175272_g2000206920649175_pallasbulk_1279_5_alg».proof.Proof.LibConcatCols
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Hand

open Cert.KernelIdeal Cert.KernelIdeal.Gen Cert.GruSpec Idealize.ShloMosaic.LibConcatCols
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The buffer contents after a list of host operations, one operation at a time: each operation's
    result at its own buffer is its function's value, at any other buffer what was there before. -/
macro "after_loop_w1" : tactic =>
  `(tactic| (repeat (first
               | rw [StableHlo.nullary_result] | rw [StableHlo.unary_result] | rw [StableHlo.binary_result] | rw [StableHlo.ternary_result] | rw [StableHlo.quaternary_result]
               | rw [StableHlo.reshape_result] | rw [StableHlo.binaryIndexed_result] | rw [StableHlo.nary4_result] | rw [StableHlo.nary_result] | rw [StableHlo.unaryIndexed_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.quaternary_result_ne]; rotate_left; decide)
               | (rw [StableHlo.reshape_result_ne]; rotate_left; decide)
               | (rw [StableHlo.binaryIndexed_result_ne]; rotate_left; decide)
               | (rw [StableHlo.nary_result_ne]; rotate_left; decide)
               | (rw [StableHlo.unaryIndexed_result_ne]; rotate_left; decide))))

/-! ## The packed matrix, as a term -/

/-- Slab 1 of the first-weights argument as a 192 x 1160 matrix. -/
def slabMat1 (A1 : S2x192x1160.Idx → EReal) : S192x1160.Idx → EReal :=
  shapeCast S192x1160 (extractStridedSlice S1x192x1160 ![1, 0, 0] A1 Facts₀.slices_S2x192x1160_S1x192x1160_1_0_0)
    Facts₀.shapeCasts_S1x192x1160_S192x1160

/-- The repacked matrix: the bias column, fifteen zero columns, and the nine taps' live columns. -/
def packed1 (A1 : S2x192x1160.Idx → EReal) : S192x1168.Idx → EReal :=
  concatenate S192x1168 1
    [⟨S192x1, extractStridedSlice S192x1 ![0, 1152] (slabMat1 A1) Facts₀.slices_S192x1160_S192x1_0_1152⟩,
     ⟨S192x15, broadcastInDim S192x15 ![] Facts₀.bcast_S_S192x15 (constant (F := Ideal) S_ .f32 0x00000000#32)⟩,
     ⟨S192x128, concatenate S192x128 1
        [⟨S192x64, extractStridedSlice S192x64 ![0, 0] (slabMat1 A1) Facts₀.slices_S192x1160_S192x64_0_0⟩,
         ⟨S192x64, extractStridedSlice S192x64 ![0, 64] (slabMat1 A1) Facts₀.slices_S192x1160_S192x64_0_64⟩]
        Facts₀.concatenates_S192x64_S192x64_S192x128_d1⟩,
     ⟨S192x128, concatenate S192x128 1
        [⟨S192x64, extractStridedSlice S192x64 ![0, 128] (slabMat1 A1) Facts₀.slices_S192x1160_S192x64_0_128⟩,
         ⟨S192x64, extractStridedSlice S192x64 ![0, 192] (slabMat1 A1) Facts₀.slices_S192x1160_S192x64_0_192⟩]
        Facts₀.concatenates_S192x64_S192x64_S192x128_d1⟩,
     ⟨S192x128, concatenate S192x128 1
        [⟨S192x64, extractStridedSlice S192x64 ![0, 256] (slabMat1 A1) Facts₀.slices_S192x1160_S192x64_0_256⟩,
         ⟨S192x64, extractStridedSlice S192x64 ![0, 320] (slabMat1 A1) Facts₀.slices_S192x1160_S192x64_0_320⟩]
        Facts₀.concatenates_S192x64_S192x64_S192x128_d1⟩,
     ⟨S192x128, concatenate S192x128 1
        [⟨S192x64, extractStridedSlice S192x64 ![0, 384] (slabMat1 A1) Facts₀.slices_S192x1160_S192x64_0_384⟩,
         ⟨S192x64, extractStridedSlice S192x64 ![0, 448] (slabMat1 A1) Facts₀.slices_S192x1160_S192x64_0_448⟩]
        Facts₀.concatenates_S192x64_S192x64_S192x128_d1⟩,
     ⟨S192x128, concatenate S192x128 1
        [⟨S192x64, extractStridedSlice S192x64 ![0, 512] (slabMat1 A1) Facts₀.slices_S192x1160_S192x64_0_512⟩,
         ⟨S192x64, extractStridedSlice S192x64 ![0, 576] (slabMat1 A1) Facts₀.slices_S192x1160_S192x64_0_576⟩]
        Facts₀.concatenates_S192x64_S192x64_S192x128_d1⟩,
     ⟨S192x128, concatenate S192x128 1
        [⟨S192x64, extractStridedSlice S192x64 ![0, 640] (slabMat1 A1) Facts₀.slices_S192x1160_S192x64_0_640⟩,
         ⟨S192x64, extractStridedSlice S192x64 ![0, 704] (slabMat1 A1) Facts₀.slices_S192x1160_S192x64_0_704⟩]
        Facts₀.concatenates_S192x64_S192x64_S192x128_d1⟩,
     ⟨S192x128, concatenate S192x128 1
        [⟨S192x64, extractStridedSlice S192x64 ![0, 768] (slabMat1 A1) Facts₀.slices_S192x1160_S192x64_0_768⟩,
         ⟨S192x64, extractStridedSlice S192x64 ![0, 832] (slabMat1 A1) Facts₀.slices_S192x1160_S192x64_0_832⟩]
        Facts₀.concatenates_S192x64_S192x64_S192x128_d1⟩,
     ⟨S192x128, concatenate S192x128 1
        [⟨S192x64, extractStridedSlice S192x64 ![0, 896] (slabMat1 A1) Facts₀.slices_S192x1160_S192x64_0_896⟩,
         ⟨S192x64, extractStridedSlice S192x64 ![0, 960] (slabMat1 A1) Facts₀.slices_S192x1160_S192x64_0_960⟩]
        Facts₀.concatenates_S192x64_S192x64_S192x128_d1⟩,
     ⟨S192x128, concatenate S192x128 1
        [⟨S192x64, extractStridedSlice S192x64 ![0, 1024] (slabMat1 A1) Facts₀.slices_S192x1160_S192x64_0_1024⟩,
         ⟨S192x64, extractStridedSlice S192x64 ![0, 1088] (slabMat1 A1) Facts₀.slices_S192x1160_S192x64_0_1088⟩]
        Facts₀.concatenates_S192x64_S192x64_S192x128_d1⟩]
    Facts₀.concatenates_S192x1_S192x15_S192x128_S192x128_S192x128_S192x128_S192x128_S192x128_S192x128_S192x128_S192x128_S192x1168_d1

set_option maxHeartbeats 40000000 in
/-- The second layer's packed weights as the region finds them are the repacked slab 1 of the second
    argument (converted to bf16: the identity here). -/
theorem V_main_v65 (c : Dev nD) :
    V m c main_v65 = truncf (F := Ideal) (φ := .f32) .bf16 (packed1 (m ((c : Thread nD τ).loc main_arg1))) (by decide) := by
  dsimp only [V, V0]
  simp only [hostOps0, hostOps0_1, hostOps0_2, hostOps0_3, hostOps0_4, List.flatten_cons, List.flatten_nil, List.append_nil, List.cons_append, List.nil_append]
  simp (disch := decide) only [StableHlo.after_cons, StableHlo.after_nil,
      StableHlo.nullary_result', StableHlo.unary_result', StableHlo.binary_result', StableHlo.ternary_result', StableHlo.quaternary_result', StableHlo.reshape_result', StableHlo.nary4_result', StableHlo.nary_result',
      StableHlo.unaryIndexed_result', StableHlo.binaryIndexed_result',
      StableHlo.nullary_result_ne', StableHlo.unary_result_ne', StableHlo.binary_result_ne', StableHlo.ternary_result_ne', StableHlo.quaternary_result_ne', StableHlo.reshape_result_ne',
      StableHlo.nary_result_ne', StableHlo.unaryIndexed_result_ne', StableHlo.binaryIndexed_result_ne', Matrix.cons_val]
  after_loop_w1
  rfl

/-! ## Read entry by entry -/

section Entries
variable (A1 : S2x192x1160.Idx → EReal) (r : Fin 192)

/-- The slab as a matrix, read at an entry. -/
theorem slabMat1_apply (q : Fin 1160) : slabMat1 A1 (ix2 r q) = A1 (ix3 (1 : Fin 2) r q) := by
  unfold slabMat1
  refine (shapeCast_apply (s := S1x192x1160) (t := S192x1160) _ _ _ (ix3 (0 : Fin 1) r q) ?_).trans ?_
  · rw [Shape.rowMajor_val_three, Shape.rowMajor_val_two]
    show (0 * 192 + r.val) * 1160 + q.val = r.val * 1160 + q.val
    omega
  refine extractStridedSlice_apply (s := S2x192x1160) (t := S1x192x1160) _ _ _ _ _ ?_
  intro a
  match a with
  | ⟨0, _⟩ => rfl
  | ⟨1, _⟩ => show r.val = 0 + r.val; omega
  | ⟨2, _⟩ => show q.val = 0 + q.val; omega

/-- Column 0 of the packed matrix is the slab's bias column. -/
theorem packed1_bias (k : Fin 1168) (hk : k.val = 0) :
    packed1 A1 (ix2 r k) = A1 (ix3 (1 : Fin 2) r (⟨1152, by decide⟩ : Fin 1160)) := by
  unfold packed1
  refine (concatenate_apply_piece (t := S192x1168) (1 : Fin 2) _ _ (ix2 r k) 0 (by show 0 < 11; decide) S192x1 _ rfl rfl 0 rfl
    (ix2 r (0 : Fin 1)) ?_ ?_).trans ?_
  · intro b hb
    match b with
    | ⟨0, _⟩ => rfl
    | ⟨1, _⟩ => exact absurd (Fin.ext rfl) hb
  · show 0 + 0 = k.val
    omega
  exact (slice_cols_apply 1152 (slabMat1 A1) _ r (0 : Fin 1) (by decide)).trans (slabMat1_apply A1 r _)

/-- Columns 1 to 15 of the packed matrix are zero. -/
theorem packed1_pad (k : Fin 1168) (h1 : 1 ≤ k.val) (h2 : k.val < 16) : packed1 A1 (ix2 r k) = 0 := by
  unfold packed1
  refine (concatenate_apply_piece (t := S192x1168) (1 : Fin 2) _ _ (ix2 r k) 1 (by show 1 < 11; decide) S192x15 _ rfl rfl 1 rfl
    (ix2 r (⟨k.val - 1, by omega⟩ : Fin 15)) ?_ ?_).trans ?_
  · intro b hb
    match b with
    | ⟨0, _⟩ => rfl
    | ⟨1, _⟩ => exact absurd (Fin.ext rfl) hb
  · show 1 + (k.val - 1) = k.val
    omega
  exact Ideal.ofBits_zero_f32

/-- Columns 16 to 143 of the packed matrix: tap 0's 64 input columns, then its 64 state columns. -/
theorem packed1_tap_0 (k : Fin 1168) (q : Fin 128) (hk : k.val = 16 + q.val) :
    packed1 A1 (ix2 r k)
      = if hq : q.val < 64 then A1 (ix3 (1 : Fin 2) r (⟨0 + q.val, by omega⟩ : Fin 1160))
        else A1 (ix3 (1 : Fin 2) r (⟨64 + (q.val - 64), by have := q.isLt; omega⟩ : Fin 1160)) := by
  unfold packed1
  refine (concatenate_apply_piece (t := S192x1168) (1 : Fin 2) _ _ (ix2 r k) 2 (by show 2 < 11; decide) S192x128 _ rfl rfl 16 rfl
    (ix2 r q) ?_ ?_).trans ?_
  · intro b hb
    match b with
    | ⟨0, _⟩ => rfl
    | ⟨1, _⟩ => exact absurd (Fin.ext rfl) hb
  · show 16 + q.val = k.val
    omega
  refine (two_ranges_apply (R := 192) (C := 1160) (w1 := 64) (w2 := 64) (w := 128) 0 64 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 144 to 271 of the packed matrix: tap 1's 64 input columns, then its 64 state columns. -/
theorem packed1_tap_1 (k : Fin 1168) (q : Fin 128) (hk : k.val = 144 + q.val) :
    packed1 A1 (ix2 r k)
      = if hq : q.val < 64 then A1 (ix3 (1 : Fin 2) r (⟨128 + q.val, by omega⟩ : Fin 1160))
        else A1 (ix3 (1 : Fin 2) r (⟨192 + (q.val - 64), by have := q.isLt; omega⟩ : Fin 1160)) := by
  unfold packed1
  refine (concatenate_apply_piece (t := S192x1168) (1 : Fin 2) _ _ (ix2 r k) 3 (by show 3 < 11; decide) S192x128 _ rfl rfl 144 rfl
    (ix2 r q) ?_ ?_).trans ?_
  · intro b hb
    match b with
    | ⟨0, _⟩ => rfl
    | ⟨1, _⟩ => exact absurd (Fin.ext rfl) hb
  · show 144 + q.val = k.val
    omega
  refine (two_ranges_apply (R := 192) (C := 1160) (w1 := 64) (w2 := 64) (w := 128) 128 192 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 272 to 399 of the packed matrix: tap 2's 64 input columns, then its 64 state columns. -/
theorem packed1_tap_2 (k : Fin 1168) (q : Fin 128) (hk : k.val = 272 + q.val) :
    packed1 A1 (ix2 r k)
      = if hq : q.val < 64 then A1 (ix3 (1 : Fin 2) r (⟨256 + q.val, by omega⟩ : Fin 1160))
        else A1 (ix3 (1 : Fin 2) r (⟨320 + (q.val - 64), by have := q.isLt; omega⟩ : Fin 1160)) := by
  unfold packed1
  refine (concatenate_apply_piece (t := S192x1168) (1 : Fin 2) _ _ (ix2 r k) 4 (by show 4 < 11; decide) S192x128 _ rfl rfl 272 rfl
    (ix2 r q) ?_ ?_).trans ?_
  · intro b hb
    match b with
    | ⟨0, _⟩ => rfl
    | ⟨1, _⟩ => exact absurd (Fin.ext rfl) hb
  · show 272 + q.val = k.val
    omega
  refine (two_ranges_apply (R := 192) (C := 1160) (w1 := 64) (w2 := 64) (w := 128) 256 320 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 400 to 527 of the packed matrix: tap 3's 64 input columns, then its 64 state columns. -/
theorem packed1_tap_3 (k : Fin 1168) (q : Fin 128) (hk : k.val = 400 + q.val) :
    packed1 A1 (ix2 r k)
      = if hq : q.val < 64 then A1 (ix3 (1 : Fin 2) r (⟨384 + q.val, by omega⟩ : Fin 1160))
        else A1 (ix3 (1 : Fin 2) r (⟨448 + (q.val - 64), by have := q.isLt; omega⟩ : Fin 1160)) := by
  unfold packed1
  refine (concatenate_apply_piece (t := S192x1168) (1 : Fin 2) _ _ (ix2 r k) 5 (by show 5 < 11; decide) S192x128 _ rfl rfl 400 rfl
    (ix2 r q) ?_ ?_).trans ?_
  · intro b hb
    match b with
    | ⟨0, _⟩ => rfl
    | ⟨1, _⟩ => exact absurd (Fin.ext rfl) hb
  · show 400 + q.val = k.val
    omega
  refine (two_ranges_apply (R := 192) (C := 1160) (w1 := 64) (w2 := 64) (w := 128) 384 448 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 528 to 655 of the packed matrix: tap 4's 64 input columns, then its 64 state columns. -/
theorem packed1_tap_4 (k : Fin 1168) (q : Fin 128) (hk : k.val = 528 + q.val) :
    packed1 A1 (ix2 r k)
      = if hq : q.val < 64 then A1 (ix3 (1 : Fin 2) r (⟨512 + q.val, by omega⟩ : Fin 1160))
        else A1 (ix3 (1 : Fin 2) r (⟨576 + (q.val - 64), by have := q.isLt; omega⟩ : Fin 1160)) := by
  unfold packed1
  refine (concatenate_apply_piece (t := S192x1168) (1 : Fin 2) _ _ (ix2 r k) 6 (by show 6 < 11; decide) S192x128 _ rfl rfl 528 rfl
    (ix2 r q) ?_ ?_).trans ?_
  · intro b hb
    match b with
    | ⟨0, _⟩ => rfl
    | ⟨1, _⟩ => exact absurd (Fin.ext rfl) hb
  · show 528 + q.val = k.val
    omega
  refine (two_ranges_apply (R := 192) (C := 1160) (w1 := 64) (w2 := 64) (w := 128) 512 576 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 656 to 783 of the packed matrix: tap 5's 64 input columns, then its 64 state columns. -/
theorem packed1_tap_5 (k : Fin 1168) (q : Fin 128) (hk : k.val = 656 + q.val) :
    packed1 A1 (ix2 r k)
      = if hq : q.val < 64 then A1 (ix3 (1 : Fin 2) r (⟨640 + q.val, by omega⟩ : Fin 1160))
        else A1 (ix3 (1 : Fin 2) r (⟨704 + (q.val - 64), by have := q.isLt; omega⟩ : Fin 1160)) := by
  unfold packed1
  refine (concatenate_apply_piece (t := S192x1168) (1 : Fin 2) _ _ (ix2 r k) 7 (by show 7 < 11; decide) S192x128 _ rfl rfl 656 rfl
    (ix2 r q) ?_ ?_).trans ?_
  · intro b hb
    match b with
    | ⟨0, _⟩ => rfl
    | ⟨1, _⟩ => exact absurd (Fin.ext rfl) hb
  · show 656 + q.val = k.val
    omega
  refine (two_ranges_apply (R := 192) (C := 1160) (w1 := 64) (w2 := 64) (w := 128) 640 704 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 784 to 911 of the packed matrix: tap 6's 64 input columns, then its 64 state columns. -/
theorem packed1_tap_6 (k : Fin 1168) (q : Fin 128) (hk : k.val = 784 + q.val) :
    packed1 A1 (ix2 r k)
      = if hq : q.val < 64 then A1 (ix3 (1 : Fin 2) r (⟨768 + q.val, by omega⟩ : Fin 1160))
        else A1 (ix3 (1 : Fin 2) r (⟨832 + (q.val - 64), by have := q.isLt; omega⟩ : Fin 1160)) := by
  unfold packed1
  refine (concatenate_apply_piece (t := S192x1168) (1 : Fin 2) _ _ (ix2 r k) 8 (by show 8 < 11; decide) S192x128 _ rfl rfl 784 rfl
    (ix2 r q) ?_ ?_).trans ?_
  · intro b hb
    match b with
    | ⟨0, _⟩ => rfl
    | ⟨1, _⟩ => exact absurd (Fin.ext rfl) hb
  · show 784 + q.val = k.val
    omega
  refine (two_ranges_apply (R := 192) (C := 1160) (w1 := 64) (w2 := 64) (w := 128) 768 832 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 912 to 1039 of the packed matrix: tap 7's 64 input columns, then its 64 state columns. -/
theorem packed1_tap_7 (k : Fin 1168) (q : Fin 128) (hk : k.val = 912 + q.val) :
    packed1 A1 (ix2 r k)
      = if hq : q.val < 64 then A1 (ix3 (1 : Fin 2) r (⟨896 + q.val, by omega⟩ : Fin 1160))
        else A1 (ix3 (1 : Fin 2) r (⟨960 + (q.val - 64), by have := q.isLt; omega⟩ : Fin 1160)) := by
  unfold packed1
  refine (concatenate_apply_piece (t := S192x1168) (1 : Fin 2) _ _ (ix2 r k) 9 (by show 9 < 11; decide) S192x128 _ rfl rfl 912 rfl
    (ix2 r q) ?_ ?_).trans ?_
  · intro b hb
    match b with
    | ⟨0, _⟩ => rfl
    | ⟨1, _⟩ => exact absurd (Fin.ext rfl) hb
  · show 912 + q.val = k.val
    omega
  refine (two_ranges_apply (R := 192) (C := 1160) (w1 := 64) (w2 := 64) (w := 128) 896 960 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

/-- Columns 1040 to 1167 of the packed matrix: tap 8's 64 input columns, then its 64 state columns. -/
theorem packed1_tap_8 (k : Fin 1168) (q : Fin 128) (hk : k.val = 1040 + q.val) :
    packed1 A1 (ix2 r k)
      = if hq : q.val < 64 then A1 (ix3 (1 : Fin 2) r (⟨1024 + q.val, by omega⟩ : Fin 1160))
        else A1 (ix3 (1 : Fin 2) r (⟨1088 + (q.val - 64), by have := q.isLt; omega⟩ : Fin 1160)) := by
  unfold packed1
  refine (concatenate_apply_piece (t := S192x1168) (1 : Fin 2) _ _ (ix2 r k) 10 (by show 10 < 11; decide) S192x128 _ rfl rfl 1040 rfl
    (ix2 r q) ?_ ?_).trans ?_
  · intro b hb
    match b with
    | ⟨0, _⟩ => rfl
    | ⟨1, _⟩ => exact absurd (Fin.ext rfl) hb
  · show 1040 + q.val = k.val
    omega
  refine (two_ranges_apply (R := 192) (C := 1160) (w1 := 64) (w2 := 64) (w := 128) 1024 1088 (slabMat1 A1) _ _ _ rfl (by decide) (by decide) r q).trans ?_
  by_cases hq : q.val < 64
  · rw [dif_pos hq, dif_pos hq]
    exact slabMat1_apply A1 r _
  · rw [dif_neg hq, dif_neg hq]
    exact slabMat1_apply A1 r _

end Entries

/-! ## The correspondence of the two packings -/

/-- The region's second-layer weights are the repacking of slab 1 of the second argument that the
    gate sums are stated for. -/
theorem repack1 (c : Dev nD) :
    Repack1 (slab3 (A := 2) (B := 192) (C := 1160) (m ((c : Thread nD τ).loc main_arg1)) (1 : Fin 2))
      (mat2 (A := 192) (B := 1168) (V m c main_v65)) := by
  intro r
  have hV : ∀ k : Fin 1168, mat2 (A := 192) (B := 1168) (V m c main_v65) r k
      = packed1 (m ((c : Thread nD τ).loc main_arg1)) (ix2 r k) := by
    intro k
    show V m c main_v65 (ix2 r k) = _
    rw [V_main_v65 m c]
    rfl
  have hS : ∀ k' : Fin 1160, slab3 (A := 2) (B := 192) (C := 1160) (m ((c : Thread nD τ).loc main_arg1)) (1 : Fin 2) r k'
      = (m ((c : Thread nD τ).loc main_arg1) : S2x192x1160.Idx → EReal) (ix3 (1 : Fin 2) r k') := fun _ => rfl
  refine ⟨?_, ?_, ?_⟩
  · intro k k' hk hk'
    rw [hV, hS, packed1_bias _ r k hk]
    exact congrArg _ (congrArg (ix3 (1 : Fin 2) r) (Fin.ext hk'.symm))
  · intro k h1 h2
    rw [hV, packed1_pad _ r k h1 h2]
  · intro k k' hk' hk
    rw [hV, hS]
    have hi : k'.val / 128 < 9 := by omega
    have hq : k'.val % 128 < 128 := Nat.mod_lt _ (by decide)
    generalize hi' : k'.val / 128 = i at hi
    interval_cases i
    · rw [packed1_tap_0 _ r k (⟨k'.val % 128, hq⟩ : Fin 128) (by show k.val = 16 + k'.val % 128; omega)]
      by_cases h64 : k'.val % 128 < 64
      · rw [dif_pos h64]
        exact congrArg _ (congrArg (ix3 (1 : Fin 2) r) (Fin.ext (by show 0 + k'.val % 128 = k'.val; omega)))
      · rw [dif_neg h64]
        exact congrArg _ (congrArg (ix3 (1 : Fin 2) r) (Fin.ext (by show 64 + (k'.val % 128 - 64) = k'.val; omega)))
    · rw [packed1_tap_1 _ r k (⟨k'.val % 128, hq⟩ : Fin 128) (by show k.val = 144 + k'.val % 128; omega)]
      by_cases h64 : k'.val % 128 < 64
      · rw [dif_pos h64]
        exact congrArg _ (congrArg (ix3 (1 : Fin 2) r) (Fin.ext (by show 128 + k'.val % 128 = k'.val; omega)))
      · rw [dif_neg h64]
        exact congrArg _ (congrArg (ix3 (1 : Fin 2) r) (Fin.ext (by show 192 + (k'.val % 128 - 64) = k'.val; omega)))
    · rw [packed1_tap_2 _ r k (⟨k'.val % 128, hq⟩ : Fin 128) (by show k.val = 272 + k'.val % 128; omega)]
      by_cases h64 : k'.val % 128 < 64
      · rw [dif_pos h64]
        exact congrArg _ (congrArg (ix3 (1 : Fin 2) r) (Fin.ext (by show 256 + k'.val % 128 = k'.val; omega)))
      · rw [dif_neg h64]
        exact congrArg _ (congrArg (ix3 (1 : Fin 2) r) (Fin.ext (by show 320 + (k'.val % 128 - 64) = k'.val; omega)))
    · rw [packed1_tap_3 _ r k (⟨k'.val % 128, hq⟩ : Fin 128) (by show k.val = 400 + k'.val % 128; omega)]
      by_cases h64 : k'.val % 128 < 64
      · rw [dif_pos h64]
        exact congrArg _ (congrArg (ix3 (1 : Fin 2) r) (Fin.ext (by show 384 + k'.val % 128 = k'.val; omega)))
      · rw [dif_neg h64]
        exact congrArg _ (congrArg (ix3 (1 : Fin 2) r) (Fin.ext (by show 448 + (k'.val % 128 - 64) = k'.val; omega)))
    · rw [packed1_tap_4 _ r k (⟨k'.val % 128, hq⟩ : Fin 128) (by show k.val = 528 + k'.val % 128; omega)]
      by_cases h64 : k'.val % 128 < 64
      · rw [dif_pos h64]
        exact congrArg _ (congrArg (ix3 (1 : Fin 2) r) (Fin.ext (by show 512 + k'.val % 128 = k'.val; omega)))
      · rw [dif_neg h64]
        exact congrArg _ (congrArg (ix3 (1 : Fin 2) r) (Fin.ext (by show 576 + (k'.val % 128 - 64) = k'.val; omega)))
    · rw [packed1_tap_5 _ r k (⟨k'.val % 128, hq⟩ : Fin 128) (by show k.val = 656 + k'.val % 128; omega)]
      by_cases h64 : k'.val % 128 < 64
      · rw [dif_pos h64]
        exact congrArg _ (congrArg (ix3 (1 : Fin 2) r) (Fin.ext (by show 640 + k'.val % 128 = k'.val; omega)))
      · rw [dif_neg h64]
        exact congrArg _ (congrArg (ix3 (1 : Fin 2) r) (Fin.ext (by show 704 + (k'.val % 128 - 64) = k'.val; omega)))
    · rw [packed1_tap_6 _ r k (⟨k'.val % 128, hq⟩ : Fin 128) (by show k.val = 784 + k'.val % 128; omega)]
      by_cases h64 : k'.val % 128 < 64
      · rw [dif_pos h64]
        exact congrArg _ (congrArg (ix3 (1 : Fin 2) r) (Fin.ext (by show 768 + k'.val % 128 = k'.val; omega)))
      · rw [dif_neg h64]
        exact congrArg _ (congrArg (ix3 (1 : Fin 2) r) (Fin.ext (by show 832 + (k'.val % 128 - 64) = k'.val; omega)))
    · rw [packed1_tap_7 _ r k (⟨k'.val % 128, hq⟩ : Fin 128) (by show k.val = 912 + k'.val % 128; omega)]
      by_cases h64 : k'.val % 128 < 64
      · rw [dif_pos h64]
        exact congrArg _ (congrArg (ix3 (1 : Fin 2) r) (Fin.ext (by show 896 + k'.val % 128 = k'.val; omega)))
      · rw [dif_neg h64]
        exact congrArg _ (congrArg (ix3 (1 : Fin 2) r) (Fin.ext (by show 960 + (k'.val % 128 - 64) = k'.val; omega)))
    · rw [packed1_tap_8 _ r k (⟨k'.val % 128, hq⟩ : Fin 128) (by show k.val = 1040 + k'.val % 128; omega)]
      by_cases h64 : k'.val % 128 < 64
      · rw [dif_pos h64]
        exact congrArg _ (congrArg (ix3 (1 : Fin 2) r) (Fin.ext (by show 1024 + k'.val % 128 = k'.val; omega)))
      · rw [dif_neg h64]
        exact congrArg _ (congrArg (ix3 (1 : Fin 2) r) (Fin.ext (by show 1088 + (k'.val % 128 - 64) = k'.val; omega)))

end Cert.KernelIdeal.Hand

end
-- ==== Proof.Inputs.lean ====
/-
  What the two programs' regions are given, compared: the kernel's masks are the reference's (the same bit stack, tiled
  over the four images and converted); the kernel's input block is the reference's first 32 channels and the reference's
  other 32 channels are the zero padding; the kernel's repacked first weights hold the reference's columns permuted; the
  second weights are the same array (a format change is the identity on the extended reals).
-/
import proofs.«175272_g2000206920649175_pallasbulk_1279_5_alg».proof.Proof.Values
import proofs.«175272_g2000206920649175_pallasbulk_1279_5_alg».proof.Proof.KInputs
import proofs.«175272_g2000206920649175_pallasbulk_1279_5_alg».proof.Proof.RInputs
import proofs.«175272_g2000206920649175_pallasbulk_1279_5_alg».proof.Proof.MaskEq
import proofs.«175272_g2000206920649175_pallasbulk_1279_5_alg».proof.Proof.KWeights0
import proofs.«175272_g2000206920649175_pallasbulk_1279_5_alg».proof.Proof.KWeights1
import proofs.«175272_g2000206920649175_pallasbulk_1279_5_alg».proof.Proof.GruSpec
import proofs.«175272_g2000206920649175_pallasbulk_1279_5_alg».proof.Proof.SemDefs

set_option maxRecDepth 16384

set_option maxHeartbeats 1600000
noncomputable section

namespace Cert.Proof

open Idealize.ShloMosaic Idealize.SL.Sem Idealize.ShloMosaic.ValueIdx Cert.GruSpec

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (c : Dev Cert.KernelIdeal.nD)

theorem mask_corr (p : Fin Cert.KernelIdeal.cfg0.N) (p' : Fin Cert.ReferenceIdeal.cfg0.N) :
    maskK (Cert.KernelIdeal.Hand.iblk m c 0 p) = mat2 (Cert.ReferenceIdeal.Hand.iblk m' c 0 p') := by
  funext i n
  have e := mask_eq m m' c i n
  rw [← Cert.KernelIdeal.Hand.iblk_0 m c p, ← Cert.ReferenceIdeal.Hand.iblk_0 m' c p'] at e
  exact e

include hagree in
theorem w2_corr (p : Fin Cert.KernelIdeal.cfg0.N) (p' : Fin Cert.ReferenceIdeal.cfg0.N) (l : Fin 2) :
    slab3 (Cert.KernelIdeal.Hand.iblk m c 4 p) l = slab3 (Cert.ReferenceIdeal.Hand.iblk m' c 3 p') l := by
  have eK : (Cert.KernelIdeal.Hand.iblk m c 4 p : Cert.KernelIdeal.S2x64x576.Idx → EReal) = m ((c.tc : Thread Cert.KernelIdeal.nD Cert.KernelIdeal.τ).loc Cert.KernelIdeal.main_arg2) :=
    (Cert.KernelIdeal.Hand.iblk_4 m c p).trans (Cert.KernelIdeal.Hand.V_main_v66 m c)
  have eR : (Cert.ReferenceIdeal.Hand.iblk m' c 3 p' : Cert.ReferenceIdeal.S2x64x576.Idx → EReal) = m' ((c.tc : Thread Cert.ReferenceIdeal.nD Cert.ReferenceIdeal.τ).loc Cert.ReferenceIdeal.main_arg2) :=
    Cert.ReferenceIdeal.Hand.iblk_3 m' c p'
  funext r k
  show (Cert.KernelIdeal.Hand.iblk m c 4 p : Cert.KernelIdeal.S2x64x576.Idx → EReal) (ix3 l r k) = (Cert.ReferenceIdeal.Hand.iblk m' c 3 p' : Cert.ReferenceIdeal.S2x64x576.Idx → EReal) (ix3 l r k)
  rw [eK, eR, (hagree c).2.2]

include hagree in
theorem x_corr (p : Fin Cert.KernelIdeal.cfg0.N) (p' : Fin Cert.ReferenceIdeal.cfg0.N) (hp : p.val = p'.val) :
    pad64 (xK (Cert.KernelIdeal.Hand.iblk m c 1 p)) = xR (Cert.ReferenceIdeal.Hand.iblk m' c 1 p') := by
  funext j n
  have hp64 : p.val < 64 := lt_of_lt_of_eq p.isLt Cert.KernelIdeal.Gen.N_0
  rw [Cert.ReferenceIdeal.Hand.iblk_1 m' c p' j n, Cert.ReferenceIdeal.Hand.V_main_v192_apply m' c _ _ j n]
  unfold pad64
  by_cases hj : j.val < 32
  · rw [dif_pos hj, dif_pos hj, Cert.KernelIdeal.Hand.iblk_1 m c p ⟨j.val, hj⟩ n, Cert.KernelIdeal.Hand.V_main_v257_apply m c _ _ _ ⟨j.val, hj⟩ _, (hagree c).1]
    exact congrArg _ (ix5_congr (by show p.val % 32 = p'.val % 32; rw [hp]) (by show 4 * (p.val / 32) + n.val / 576 = 4 * (p'.val / 32) + n.val / 576; rw [hp]) rfl rfl rfl)
  · rw [dif_neg hj, dif_neg hj]

include hagree in
theorem w1_corr0 (p : Fin Cert.KernelIdeal.cfg0.N) (p' : Fin Cert.ReferenceIdeal.cfg0.N) :
    Repack0 (slab3 (Cert.ReferenceIdeal.Hand.iblk m' c 2 p') 0) (mat2 (Cert.KernelIdeal.Hand.iblk m c 2 p)) := by
  have eK : (Cert.KernelIdeal.Hand.iblk m c 2 p : Cert.KernelIdeal.S192x880.Idx → EReal) = Cert.KernelIdeal.Hand.V m c Cert.KernelIdeal.main_v32 := Cert.KernelIdeal.Hand.iblk_2 m c p
  have eR : (Cert.ReferenceIdeal.Hand.iblk m' c 2 p' : Cert.ReferenceIdeal.S2x192x1160.Idx → EReal) = m ((c.tc : Thread Cert.KernelIdeal.nD Cert.KernelIdeal.τ).loc Cert.KernelIdeal.main_arg1) :=
    (Cert.ReferenceIdeal.Hand.iblk_2 m' c p').trans (hagree c).2.1
  show Repack0 (slab3 (Cert.ReferenceIdeal.Hand.iblk m' c 2 p' : Cert.ReferenceIdeal.S2x192x1160.Idx → EReal) 0) (mat2 (Cert.KernelIdeal.Hand.iblk m c 2 p : Cert.KernelIdeal.S192x880.Idx → EReal))
  rw [eK, eR]
  exact Cert.KernelIdeal.Hand.repack0 m c

include hagree in
theorem w1_corr1 (p : Fin Cert.KernelIdeal.cfg0.N) (p' : Fin Cert.ReferenceIdeal.cfg0.N) :
    Repack1 (slab3 (Cert.ReferenceIdeal.Hand.iblk m' c 2 p') 1) (mat2 (Cert.KernelIdeal.Hand.iblk m c 3 p)) := by
  have eK : (Cert.KernelIdeal.Hand.iblk m c 3 p : Cert.KernelIdeal.S192x1168.Idx → EReal) = Cert.KernelIdeal.Hand.V m c Cert.KernelIdeal.main_v65 := Cert.KernelIdeal.Hand.iblk_3 m c p
  have eR : (Cert.ReferenceIdeal.Hand.iblk m' c 2 p' : Cert.ReferenceIdeal.S2x192x1160.Idx → EReal) = m ((c.tc : Thread Cert.KernelIdeal.nD Cert.KernelIdeal.τ).loc Cert.KernelIdeal.main_arg1) :=
    (Cert.ReferenceIdeal.Hand.iblk_2 m' c p').trans (hagree c).2.1
  show Repack1 (slab3 (Cert.ReferenceIdeal.Hand.iblk m' c 2 p' : Cert.ReferenceIdeal.S2x192x1160.Idx → EReal) 1) (mat2 (Cert.KernelIdeal.Hand.iblk m c 3 p : Cert.KernelIdeal.S192x1168.Idx → EReal))
  rw [eK, eR]
  exact Cert.KernelIdeal.Hand.repack1 m c

end Cert.Proof

end
-- ==== Proof.Hidden.lean ====
/-
  The two recurrences leave the same hidden states: by induction over the 64 grid points (2 batch blocks x 32 time
  steps).  At each point both programs take the two layers' steps from the state the point before left (from zero at
  t = 0); the kernel's step is the reference's because its packed weights are the reference's columns permuted (the
  columns it drops meet zero rows of the reference's patch matrix), its masks, second weights and input block are the
  reference's, and its way of writing the state update agrees with the reference's on real numbers — and the state IS
  real: it starts at zero and every step's result is a combination of a logistic and a hyperbolic tangent, which are real
  at every extended real.  Beside the states the induction carries the bias rows of the two patch matrices, written at
  t = 0 and not rewritten afterwards.
-/
import proofs.«175272_g2000206920649175_pallasbulk_1279_5_alg».proof.Proof.Values
import proofs.«175272_g2000206920649175_pallasbulk_1279_5_alg».proof.Proof.KPoint
import proofs.«175272_g2000206920649175_pallasbulk_1279_5_alg».proof.Proof.RPoint
import proofs.«175272_g2000206920649175_pallasbulk_1279_5_alg».proof.Proof.GruStepEq
import proofs.«175272_g2000206920649175_pallasbulk_1279_5_alg».proof.Proof.Inputs

set_option maxRecDepth 16384

set_option maxHeartbeats 1600000
noncomputable section

namespace Cert.Proof

open Idealize.ShloMosaic Idealize.SL.Sem Idealize.ShloMosaic.ValueIdx Cert.GruSpec Idealize.ShloMosaic.LibFiniteIdeal

variable (m : (ℓ : Loc Cert.KernelIdeal.nD Cert.KernelIdeal.τ Cert.KernelIdeal.sig) → Buf (Elt Ideal) ℓ) (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (c : Dev Cert.KernelIdeal.nD)

/-- What the induction carries after grid position n. -/
def Inv (n : ℕ) (hn : n < Cert.KernelIdeal.cfg0.N) (hn' : n < Cert.ReferenceIdeal.cfg0.N) : Prop :=
  (∀ (l : Fin 2) (ch : Fin 64) (k : Lane), (Cert.KernelIdeal.Hand.outsAt0 (F := Ideal) m c n hn).2.2.1 (ix3 l ch k) = (Cert.ReferenceIdeal.Hand.outsAt0 (F := Ideal) m' c n hn').2.2.1 (ix3 l ch k))
  ∧ (∀ (l : Fin 2) (ch : Fin 64) (k : Lane), IsReal ((Cert.KernelIdeal.Hand.outsAt0 (F := Ideal) m c n hn).2.2.1 (ix3 l ch k)))
  ∧ BiasK (Cert.KernelIdeal.Hand.outsAt0 (F := Ideal) m c n hn).2.2.2.1
  ∧ BiasR (Cert.ReferenceIdeal.Hand.outsAt0 (F := Ideal) m' c n hn').2.2.2.1

include hagree in
/-- One point, given the two previous states (equal and real) — the algebra of the step. -/
theorem step_eq (p : Fin Cert.KernelIdeal.cfg0.N) (p' : Fin Cert.ReferenceIdeal.cfg0.N) (hp : p.val = p'.val)
    (hK0 hK1 : Fin 64 → Lane → EReal) (hR0 hR1 : Fin 64 → Lane → EReal) (e0 : hK0 = hR0) (e1 : hK1 = hR1)
    (r0 : ∀ r k, IsReal (hK0 r k)) (r1 : ∀ r k, IsReal (hK1 r k)) :
    stepK0 (maskK (Cert.KernelIdeal.Hand.iblk m c 0 p)) (mat2 (Cert.KernelIdeal.Hand.iblk m c 2 p)) (slab3 (Cert.KernelIdeal.Hand.iblk m c 4 p) 0) (xK (Cert.KernelIdeal.Hand.iblk m c 1 p)) hK0
        = stepR (mat2 (Cert.ReferenceIdeal.Hand.iblk m' c 0 p')) (slab3 (Cert.ReferenceIdeal.Hand.iblk m' c 2 p') 0) (slab3 (Cert.ReferenceIdeal.Hand.iblk m' c 3 p') 0) (xR (Cert.ReferenceIdeal.Hand.iblk m' c 1 p')) hR0
    ∧ stepK1 (maskK (Cert.KernelIdeal.Hand.iblk m c 0 p)) (mat2 (Cert.KernelIdeal.Hand.iblk m c 3 p)) (slab3 (Cert.KernelIdeal.Hand.iblk m c 4 p) 1)
          (stepK0 (maskK (Cert.KernelIdeal.Hand.iblk m c 0 p)) (mat2 (Cert.KernelIdeal.Hand.iblk m c 2 p)) (slab3 (Cert.KernelIdeal.Hand.iblk m c 4 p) 0) (xK (Cert.KernelIdeal.Hand.iblk m c 1 p)) hK0) hK1
        = stepR (mat2 (Cert.ReferenceIdeal.Hand.iblk m' c 0 p')) (slab3 (Cert.ReferenceIdeal.Hand.iblk m' c 2 p') 1) (slab3 (Cert.ReferenceIdeal.Hand.iblk m' c 3 p') 1)
          (stepR (mat2 (Cert.ReferenceIdeal.Hand.iblk m' c 0 p')) (slab3 (Cert.ReferenceIdeal.Hand.iblk m' c 2 p') 0) (slab3 (Cert.ReferenceIdeal.Hand.iblk m' c 3 p') 0) (xR (Cert.ReferenceIdeal.Hand.iblk m' c 1 p')) hR0) hR1 := by
  subst e0; subst e1
  have hm := mask_corr m m' c p p'
  have hw0 := w2_corr m m' hagree c p p' 0
  have hw1 := w2_corr m m' hagree c p p' 1
  have hx := x_corr m m' hagree c p p' hp
  have l0 := stepK0_eq (maskK (Cert.KernelIdeal.Hand.iblk m c 0 p)) (w1_corr0 m m' hagree c p p') (slab3 (Cert.KernelIdeal.Hand.iblk m c 4 p) 0) (xK (Cert.KernelIdeal.Hand.iblk m c 1 p)) r0
  have l1 := stepK1_eq (maskK (Cert.KernelIdeal.Hand.iblk m c 0 p)) (w1_corr1 m m' hagree c p p') (slab3 (Cert.KernelIdeal.Hand.iblk m c 4 p) 1)
    (stepK0 (maskK (Cert.KernelIdeal.Hand.iblk m c 0 p)) (mat2 (Cert.KernelIdeal.Hand.iblk m c 2 p)) (slab3 (Cert.KernelIdeal.Hand.iblk m c 4 p) 0) (xK (Cert.KernelIdeal.Hand.iblk m c 1 p)) hK0) r1
  generalize maskK (Cert.KernelIdeal.Hand.iblk m c 0 p) = mk at hm l0 l1 ⊢
  generalize mat2 (Cert.ReferenceIdeal.Hand.iblk m' c 0 p') = mr at hm ⊢
  generalize slab3 (Cert.KernelIdeal.Hand.iblk m c 4 p) 0 = wk0 at hw0 l0 l1 ⊢
  generalize slab3 (Cert.KernelIdeal.Hand.iblk m c 4 p) 1 = wk1 at hw1 l1 ⊢
  generalize slab3 (Cert.ReferenceIdeal.Hand.iblk m' c 3 p') 0 = wr0 at hw0 ⊢
  generalize slab3 (Cert.ReferenceIdeal.Hand.iblk m' c 3 p') 1 = wr1 at hw1 ⊢
  generalize xK (Cert.KernelIdeal.Hand.iblk m c 1 p) = xk at hx l0 l1 ⊢
  generalize xR (Cert.ReferenceIdeal.Hand.iblk m' c 1 p') = xr at hx ⊢
  subst hm; subst hw0; subst hw1; subst hx
  exact ⟨l0, by rw [l0] at l1 ⊢; exact l1⟩

include hagree in
theorem inv_all : ∀ (n : ℕ) (hn : n < Cert.KernelIdeal.cfg0.N) (hn' : n < Cert.ReferenceIdeal.cfg0.N), Inv m m' c n hn hn' := by
  intro n
  induction n with
  | zero =>
    intro hn hn'
    obtain ⟨k0, k1, kb⟩ := Cert.KernelIdeal.Hand.point_first m c ⟨0, hn⟩ (Nat.zero_mod _)
    obtain ⟨q0, q1, qb⟩ := Cert.ReferenceIdeal.Hand.point_first m' c ⟨0, hn'⟩ (Nat.zero_mod _)
    obtain ⟨s0, s1⟩ := step_eq m m' hagree c ⟨0, hn⟩ ⟨0, hn'⟩ rfl (fun _ _ => 0) (fun _ _ => 0) (fun _ _ => 0) (fun _ _ => 0) rfl rfl
      (fun _ _ => isReal_zero) (fun _ _ => isReal_zero)
    refine ⟨fun l ch k => ?_, fun l ch k => ?_, kb, qb⟩
    · match l with
      | ⟨0, _⟩ => exact (k0 ch k).trans ((congrFun (congrFun s0 ch) k).trans (q0 ch k).symm)
      | ⟨1, _⟩ => exact (k1 ch k).trans ((congrFun (congrFun s1 ch) k).trans (q1 ch k).symm)
    · match l with
      | ⟨0, _⟩ => exact (congrArg IsReal (k0 ch k)).mpr (isReal_stepK0 _ _ _ _ (fun _ _ => isReal_zero) ch k)
      | ⟨1, _⟩ => exact (congrArg IsReal (k1 ch k)).mpr (isReal_stepK1 _ _ _ _ (fun _ _ => isReal_zero) ch k)
  | succ n ih =>
    intro hn hn'
    by_cases h0 : (n + 1) % 32 = 0
    · obtain ⟨k0, k1, kb⟩ := Cert.KernelIdeal.Hand.point_first m c ⟨n + 1, hn⟩ h0
      obtain ⟨q0, q1, qb⟩ := Cert.ReferenceIdeal.Hand.point_first m' c ⟨n + 1, hn'⟩ h0
      obtain ⟨s0, s1⟩ := step_eq m m' hagree c ⟨n + 1, hn⟩ ⟨n + 1, hn'⟩ rfl (fun _ _ => 0) (fun _ _ => 0) (fun _ _ => 0) (fun _ _ => 0) rfl rfl
        (fun _ _ => isReal_zero) (fun _ _ => isReal_zero)
      refine ⟨fun l ch k => ?_, fun l ch k => ?_, kb, qb⟩
      · match l with
        | ⟨0, _⟩ => exact (k0 ch k).trans ((congrFun (congrFun s0 ch) k).trans (q0 ch k).symm)
        | ⟨1, _⟩ => exact (k1 ch k).trans ((congrFun (congrFun s1 ch) k).trans (q1 ch k).symm)
      · match l with
        | ⟨0, _⟩ => exact (congrArg IsReal (k0 ch k)).mpr (isReal_stepK0 _ _ _ _ (fun _ _ => isReal_zero) ch k)
        | ⟨1, _⟩ => exact (congrArg IsReal (k1 ch k)).mpr (isReal_stepK1 _ _ _ _ (fun _ _ => isReal_zero) ch k)
    · obtain ⟨ie, ir, ibK, ibR⟩ := ih (Nat.lt_of_succ_lt hn) (Nat.lt_of_succ_lt hn')
      obtain ⟨k0, k1, kb⟩ := Cert.KernelIdeal.Hand.point_next m c ⟨n + 1, hn⟩ h0 ibK
      obtain ⟨q0, q1, qb⟩ := Cert.ReferenceIdeal.Hand.point_next m' c ⟨n + 1, hn'⟩ h0 ibR
      obtain ⟨s0, s1⟩ := step_eq m m' hagree c ⟨n + 1, hn⟩ ⟨n + 1, hn'⟩ rfl _ _ _ _
        (funext fun r => funext fun k => ie 0 r k) (funext fun r => funext fun k => ie 1 r k) (fun r k => ir 0 r k) (fun r k => ir 1 r k)
      refine ⟨fun l ch k => ?_, fun l ch k => ?_, kb, qb⟩
      · match l with
        | ⟨0, _⟩ => exact (k0 ch k).trans ((congrFun (congrFun s0 ch) k).trans (q0 ch k).symm)
        | ⟨1, _⟩ => exact (k1 ch k).trans ((congrFun (congrFun s1 ch) k).trans (q1 ch k).symm)
      · match l with
        | ⟨0, _⟩ => exact (congrArg IsReal (k0 ch k)).mpr (isReal_stepK0 _ _ _ _ (fun r k => ir 0 r k) ch k)
        | ⟨1, _⟩ => exact (congrArg IsReal (k1 ch k)).mpr (isReal_stepK1 _ _ _ _ (fun r k => ir 1 r k) ch k)

include hagree in
theorem hidden_eq_proved : HiddenEq m m' c := by
  intro p p' hp l ch n
  obtain ⟨p, hpl⟩ := p; obtain ⟨p', hpl'⟩ := p'
  obtain rfl : p = p' := hp
  exact (inv_all m m' hagree c p hpl hpl').1 l ch n

end Cert.Proof

end
-- ==== Proof.lean ====
/-
  A two-layer convolutional GRU over 32 time steps (hidden width 64, 3 x 3 taps taken as lane rotations of the
  flattened batch-tile-by-image axis times nine boundary masks), computed one time step per grid point on the grid
  (2, 32) with the hidden states and the im2col patch matrices kept in scratch buffers across grid points, against
  a reference that is the same recurrence as another pipelined kernel with unpacked f32 weights.

  The three frames: each program's @main is host operations, one pipelined region, host operations; the region's
  body runs in three control cases (t = 0 resets the state; 0 < t < 31 takes one step; t = 31 also copies the states
  out), and what its buffers hold after each grid point is a recurrence over the 64 points (Proof/KFrame.lean for the
  kernel at the extended reals, Proof/BFrame.lean for the same text at the machine words, Proof/RFrame.lean for the
  reference), from which the pipeline library's launch theorem for a kernel that carries scratch between points gives
  termination, absence of faults and the unchanged arguments.  The idealization rewrote nothing, so `preserves` is
  trivial.  The value claim: both runs end with each result buffer at what the host operations after the region compute
  from the arrays the recurrences leave (`run_values`); every entry of those results is an entry of the hidden-state
  scratch after some grid point, read through the same chain on both sides (Proof/Values.lean), so the claim is that the
  two recurrences leave the same hidden states at every grid point (`hidden_eq`; Proof/Hidden.lean: by induction over the
  grid points, each point's arithmetic read off the two bodies against one specification of the layer's step, the two
  packings of the gates' product related by a re-indexing of a finite sum, and the two spellings of the state update by
  the state being real).
-/
import proofs.«175272_g2000206920649175_pallasbulk_1279_5_alg».proof.Defs
import proofs.«175272_g2000206920649175_pallasbulk_1279_5_alg».proof.Proof.Gen.Kernel
import proofs.«175272_g2000206920649175_pallasbulk_1279_5_alg».proof.Proof.Gen.KernelIdeal
import proofs.«175272_g2000206920649175_pallasbulk_1279_5_alg».proof.Proof.Gen.ReferenceIdeal
import proofs.«175272_g2000206920649175_pallasbulk_1279_5_alg».proof.Proof.Gen.Pre_finite_inputs
import proofs.«175272_g2000206920649175_pallasbulk_1279_5_alg».proof.Proof.BFrame
import proofs.«175272_g2000206920649175_pallasbulk_1279_5_alg».proof.Proof.KFrame
import proofs.«175272_g2000206920649175_pallasbulk_1279_5_alg».proof.Proof.RFrame
import proofs.«175272_g2000206920649175_pallasbulk_1279_5_alg».proof.Proof.Values
import proofs.«175272_g2000206920649175_pallasbulk_1279_5_alg».proof.Proof.Hidden
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ => Cert.ReferenceIdeal.Hand.frame (F := Ideal) m ρ

/-- The idealization pass rewrote no operation. -/
theorem preserves : Cert.preserves_Kernel_KernelIdeal := trivial

/-- The core of the value claim: from arguments that agree, the two recurrences leave the same hidden states (both
    layers, every channel, every lane) after every one of the 64 grid points. -/
theorem hidden_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) : HiddenEq m m' c :=
  hidden_eq_proved m m' hagree c

/-- The value equation: for argument arrays that agree, the two results the reference's host operations compute from the
    arrays its recurrence leaves are the two results the kernel's compute from its own. -/
theorem values_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (c : Dev Cert.KernelIdeal.nD) :
    (Pipeline.afterTail₀ Cert.ReferenceIdeal.cfgs (Cert.ReferenceIdeal.Hand.dats (F := Ideal) m') 0 (Cert.ReferenceIdeal.Hand.V0 m') [Cert.ReferenceIdeal.Gen.hostOps1] c Cert.ReferenceIdeal.main_v196
        : Buf (Elt Ideal) ((c.tc : Thread Cert.KernelIdeal.nD Cert.KernelIdeal.τ).loc Cert.KernelIdeal.main_v259))
      = Pipeline.afterTail₀ Cert.KernelIdeal.cfgs (Cert.KernelIdeal.Hand.dats (F := Ideal) m) 0 (Cert.KernelIdeal.Hand.V0 m) [Cert.KernelIdeal.Gen.hostOps1] c Cert.KernelIdeal.main_v259
    ∧ (Pipeline.afterTail₀ Cert.ReferenceIdeal.cfgs (Cert.ReferenceIdeal.Hand.dats (F := Ideal) m') 0 (Cert.ReferenceIdeal.Hand.V0 m') [Cert.ReferenceIdeal.Gen.hostOps1] c Cert.ReferenceIdeal.main_v199
        : Buf (Elt Ideal) ((c.tc : Thread Cert.KernelIdeal.nD Cert.KernelIdeal.τ).loc Cert.KernelIdeal.main_v260))
      = Pipeline.afterTail₀ Cert.KernelIdeal.cfgs (Cert.KernelIdeal.Hand.dats (F := Ideal) m) 0 (Cert.KernelIdeal.Hand.V0 m) [Cert.KernelIdeal.Gen.hostOps1] c Cert.KernelIdeal.main_v260 :=
  values_of_hidden m m' c (hidden_eq m m' hagree c)

/-- Both programs run, and from arguments that agree end with equal results. -/
theorem algebraic : Cert.algebraic_KernelIdeal_ReferenceIdeal := by
  intro m ρ m' ρ' _ hagree
  refine ⟨fun c => Pipeline.afterTail₀ Cert.KernelIdeal.cfgs (Cert.KernelIdeal.Hand.dats (F := Ideal) m) 0 (Cert.KernelIdeal.Hand.V0 m) [Cert.KernelIdeal.Gen.hostOps1] c Cert.KernelIdeal.main_v259,
    fun c => Pipeline.afterTail₀ Cert.KernelIdeal.cfgs (Cert.KernelIdeal.Hand.dats (F := Ideal) m) 0 (Cert.KernelIdeal.Hand.V0 m) [Cert.KernelIdeal.Gen.hostOps1] c Cert.KernelIdeal.main_v260,
    Cert.KernelIdeal.Hand.run_values (F := Ideal) m ρ, ?_⟩
  refine (θ_run Cert.ReferenceIdeal.defs _ _).mono (fun r h c => ⟨(h c).1.trans (values_eq m m' hagree c).1, (h c).2.1.trans (values_eq m m' hagree c).2, (h c).2.2⟩)
    (Cert.ReferenceIdeal.Hand.run_values (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
